-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x143 : Shape := ⟨2, ![4096, 143]⟩
abbrev S4096x26 : Shape := ⟨2, ![4096, 26]⟩
abbrev S4096x13 : Shape := ⟨2, ![4096, 13]⟩
abbrev S26x1000x128 : Shape := ⟨3, ![26, 1000, 128]⟩
abbrev S143x1 : Shape := ⟨2, ![143, 1]⟩
abbrev S1 : Shape := ⟨1, ![1]⟩
abbrev S13x1 : Shape := ⟨2, ![13, 1]⟩
abbrev S3484x1024 : Shape := ⟨2, ![3484, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S_ : Shape := ⟨0, ![]⟩

class Facts : Prop where
  bcast_S_S4096x143 : S_.BroadcastsInDim S4096x143 (![] : Fin 0 → Fin S4096x143.rank)
  reducesTo_S4096x143_S_d0_1 : S4096x143.ReducesTo [0, 1] S_
  h_S_ : 0 < S_.numel
  bcast_S_S4096x13 : S_.BroadcastsInDim S4096x13 (![] : Fin 0 → Fin S4096x13.rank)
  reducesTo_S4096x13_S_d0_1 : S4096x13.ReducesTo [0, 1] S_
  bcast_S_S26x1000x128 : S_.BroadcastsInDim S26x1000x128 (![] : Fin 0 → Fin S26x1000x128.rank)
  reducesTo_S26x1000x128_S_d0_1_2 : S26x1000x128.ReducesTo [0, 1, 2] S_
  bcast_S_S143x1 : S_.BroadcastsInDim S143x1 (![] : Fin 0 → Fin S143x1.rank)
  reducesTo_S143x1_S_d0_1 : S143x1.ReducesTo [0, 1] S_
  bcast_S_S1 : S_.BroadcastsInDim S1 (![] : Fin 0 → Fin S1.rank)
  reducesTo_S1_S_d0 : S1.ReducesTo [0] S_
  bcast_S_S13x1 : S_.BroadcastsInDim S13x1 (![] : Fin 0 → Fin S13x1.rank)
  reducesTo_S13x1_S_d0_1 : S13x1.ReducesTo [0, 1] S_
  bcast_S_S3484x1024 : S_.BroadcastsInDim S3484x1024 (![] : Fin 0 → Fin S3484x1024.rank)
  reducesTo_S3484x1024_S_d0_1 : S3484x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S4096x26 : S_.BroadcastsInDim S4096x26 (![] : Fin 0 → Fin S4096x26.rank)
  reducesTo_S4096x26_S_d0_1 : S4096x26.ReducesTo [0, 1] S_

variable [Facts]

def fn_part4 {F : FTy → Type} [FloatOps F] (main_arg1 : IVec S4096x26 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S4096x26 32 := broadcastInDim S4096x26 ![] bcast_S_S4096x26 main_c_28
  let main_v75 : IVec S4096x26 1 := cmpi .sge main_arg1 main_v74
  let main_c_29 : IVec S_ 32 := constantI S_ 32 999#32
  let main_v76 : IVec S4096x26 32 := broadcastInDim S4096x26 ![] bcast_S_S4096x26 main_c_29
  let main_v77 : IVec S4096x26 1 := cmpi .sle main_arg1 main_v76
  let main_v78 : IVec S4096x26 1 := andi main_v75 main_v77
  let main_c_30 : IVec S_ 1 := constantI S_ 1 1#1
  let main_v79 : IVec S_ 1 := (fun x v => Host.reduce IntOp.andi x v reducesTo_S4096x26_S_d0_1 h_S_) main_v78 main_c_30
  let main_v80 : IVec S_ 1 := andi main_v73 main_v79
  main_v80

def fn_part3 {F : FTy → Type} [FloatOps F] (main_arg1 : IVec S4096x26 32) (main_arg12 : FVec F S512x256 .f32) (main_arg13 : FVec F S256 .f32) (main_arg14 : FVec F S256x1 .f32) (main_arg15 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg1 main_arg15 main_v63 main_v67

def fn_part2 {F : FTy → Type} [FloatOps F] (main_arg1 : IVec S4096x26 32) (main_arg8 : FVec F S3484x1024 .f32) (main_arg9 : FVec F S1024 .f32) (main_arg10 : FVec F S1024x512 .f32) (main_arg11 : FVec F S512 .f32) (main_arg12 : FVec F S512x256 .f32) (main_arg13 : FVec F S256 .f32) (main_arg14 : FVec F S256x1 .f32) (main_arg15 : FVec F S1 .f32) (main_v33 : IVec S_ 1) : IVec S_ 1 :=
  let main_v34 : FVec F S3484x1024 .f32 := Host.absf main_arg8
  let main_cst_12 : FVec F S_ .f32 := constant S_ .f32 0x7F800000#32
  let main_v35 : FVec F S3484x1024 .f32 := broadcastInDim S3484x1024 ![] bcast_S_S3484x1024 main_cst_12
  let main_v36 : IVec S3484x1024 1 := cmpf .olt main_v34 main_v35
  let main_c_13 : IVec S_ 1 := constantI S_ 1 1#1
  let main_v37 : IVec S_ 1 := (fun x v => Host.reduce IntOp.andi x v reducesTo_S3484x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x512 .f32 := Host.absf main_arg10
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_arg14 main_arg15 main_v48 main_v49 main_v50

def fn_part1 {F : FTy → Type} [FloatOps F] (main_arg1 : IVec S4096x26 32) (main_arg5 : FVec F S1 .f32) (main_arg6 : FVec F S13x1 .f32) (main_arg7 : FVec F S1 .f32) (main_arg8 : FVec F S3484x1024 .f32) (main_arg9 : FVec F S1024 .f32) (main_arg10 : FVec F S1024x512 .f32) (main_arg11 : FVec F S512 .f32) (main_arg12 : FVec F S512x256 .f32) (main_arg13 : FVec F S256 .f32) (main_arg14 : FVec F S256x1 .f32) (main_arg15 : FVec F S1 .f32) (main_v13 : IVec S_ 1) (main_v16 : IVec S143x1 1) : IVec S_ 1 :=
  let main_c_5 : IVec S_ 1 := constantI S_ 1 1#1
  let main_v17 : IVec S_ 1 := (fun x v => Host.reduce IntOp.andi x v reducesTo_S143x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S13x1 .f32 := Host.absf main_arg6
  let main_cst_8 : FVec F S_ .f32 := constant S_ .f32 0x7F800000#32
  let main_v25 : FVec F S13x1 .f32 := broadcastInDim S13x1 ![] bcast_S_S13x1 main_cst_8
  let main_v26 : IVec S13x1 1 := cmpf .olt main_v24 main_v25
  let main_c_9 : IVec S_ 1 := constantI S_ 1 1#1
  let main_v27 : IVec S_ 1 := (fun x v => Host.reduce IntOp.andi x v reducesTo_S13x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S4096x143 .f32) (main_arg1 : IVec S4096x26 32) (main_arg2 : FVec F S4096x13 .f32) (main_arg3 : FVec F S26x1000x128 .f32) (main_arg4 : FVec F S143x1 .f32) (main_arg5 : FVec F S1 .f32) (main_arg6 : FVec F S13x1 .f32) (main_arg7 : FVec F S1 .f32) (main_arg8 : FVec F S3484x1024 .f32) (main_arg9 : FVec F S1024 .f32) (main_arg10 : FVec F S1024x512 .f32) (main_arg11 : FVec F S512 .f32) (main_arg12 : FVec F S512x256 .f32) (main_arg13 : FVec F S256 .f32) (main_arg14 : FVec F S256x1 .f32) (main_arg15 : FVec F S1 .f32) : IVec S_ 1 :=
  let main_v0 : FVec F S4096x143 .f32 := Host.absf main_arg0
  let main_cst : FVec F S_ .f32 := constant S_ .f32 0x7F800000#32
  let main_v1 : FVec F S4096x143 .f32 := broadcastInDim S4096x143 ![] bcast_S_S4096x143 main_cst
  let main_v2 : IVec S4096x143 1 := cmpf .olt main_v0 main_v1
  let main_c : IVec S_ 1 := constantI S_ 1 1#1
  let main_v3 : IVec S_ 1 := (fun x v => Host.reduce IntOp.andi x v reducesTo_S4096x143_S_d0_1 h_S_) main_v2 main_c
  let main_v4 : FVec F S4096x13 .f32 := Host.absf main_arg2
  let main_cst_0 : FVec F S_ .f32 := constant S_ .f32 0x7F800000#32
  let main_v5 : FVec F S4096x13 .f32 := broadcastInDim S4096x13 ![] bcast_S_S4096x13 main_cst_0
  let main_v6 : IVec S4096x13 1 := cmpf .olt main_v4 main_v5
  let main_c_1 : IVec S_ 1 := constantI S_ 1 1#1
  let main_v7 : IVec S_ 1 := (fun x v => Host.reduce IntOp.andi x v reducesTo_S4096x13_S_d0_1 h_S_) main_v6 main_c_1
  let main_v8 : IVec S_ 1 := andi main_v3 main_v7
  let main_v9 : FVec F S26x1000x128 .f32 := Host.absf main_arg3
  let main_cst_2 : FVec F S_ .f32 := constant S_ .f32 0x7F800000#32
  let main_v10 : FVec F S26x1000x128 .f32 := broadcastInDim S26x1000x128 ![] bcast_S_S26x1000x128 main_cst_2
  let main_v11 : IVec S26x1000x128 1 := cmpf .olt main_v9 main_v10
  let main_c_3 : IVec S_ 1 := constantI S_ 1 1#1
  let main_v12 : IVec S_ 1 := (fun x v => Host.reduce IntOp.andi x v reducesTo_S26x1000x128_S_d0_1_2 h_S_) main_v11 main_c_3
  let main_v13 : IVec S_ 1 := andi main_v8 main_v12
  let main_v14 : FVec F S143x1 .f32 := Host.absf main_arg4
  let main_cst_4 : FVec F S_ .f32 := constant S_ .f32 0x7F800000#32
  let main_v15 : FVec F S143x1 .f32 := broadcastInDim S143x1 ![] bcast_S_S143x1 main_cst_4
  let main_v16 : IVec S143x1 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S4096x143 : Shape := ⟨2, ![4096, 143]⟩
abbrev S4096x26 : Shape := ⟨2, ![4096, 26]⟩
abbrev S4096x13 : Shape := ⟨2, ![4096, 13]⟩
abbrev S26x1000x128 : Shape := ⟨3, ![26, 1000, 128]⟩
abbrev S143x1 : Shape := ⟨2, ![143, 1]⟩
abbrev S1 : Shape := ⟨1, ![1]⟩
abbrev S13x1 : Shape := ⟨2, ![13, 1]⟩
abbrev S3484x1024 : Shape := ⟨2, ![3484, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S26000x128 : Shape := ⟨2, ![26000, 128]⟩
abbrev S26 : Shape := ⟨1, ![26]⟩
abbrev S_ : Shape := ⟨0, ![]⟩
abbrev S1x26 : Shape := ⟨2, ![1, 26]⟩
abbrev S1x1 : Shape := ⟨2, ![1, 1]⟩
abbrev S1x1024 : Shape := ⟨2, ![1, 1024]⟩
abbrev S1x512 : Shape := ⟨2, ![1, 512]⟩
abbrev S1x256 : Shape := ⟨2, ![1, 256]⟩
abbrev S4096x1 : Shape := ⟨2, ![4096, 1]⟩
abbrev S2048x26 : Shape := ⟨2, ![2048, 26]⟩
abbrev S26x2048 : Shape := ⟨2, ![26, 2048]⟩
abbrev S416x1x128 : Shape := ⟨3, ![416, 1, 128]⟩
abbrev S32x13x1x128 : Shape := ⟨4, ![32, 13, 1, 128]⟩
abbrev S53248x128 : Shape := ⟨2, ![53248, 128]⟩
abbrev S13x1x128 : Shape := ⟨3, ![13, 1, 128]⟩
abbrev S128x128 : Shape := ⟨2, ![128, 128]⟩
abbrev S1x13x1x128 : Shape := ⟨4, ![1, 13, 1, 128]⟩
abbrev S1x1x128 : Shape := ⟨3, ![1, 1, 128]⟩
abbrev S128 : Shape := ⟨1, ![128]⟩
abbrev S2048x143 : Shape := ⟨2, ![2048, 143]⟩
abbrev S2048x13 : Shape := ⟨2, ![2048, 13]⟩
abbrev S512x143 : Shape := ⟨2, ![512, 143]⟩
abbrev S512x13 : Shape := ⟨2, ![512, 13]⟩
abbrev S512x128 : Shape := ⟨2, ![512, 128]⟩
abbrev S512x1 : Shape := ⟨2, ![512, 1]⟩
abbrev S512x3328 : Shape := ⟨2, ![512, 3328]⟩
abbrev S143x1024 : Shape := ⟨2, ![143, 1024]⟩
abbrev S512x1024 : Shape := ⟨2, ![512, 1024]⟩
abbrev S13x1024 : Shape := ⟨2, ![13, 1024]⟩
abbrev S3328x1024 : Shape := ⟨2, ![3328, 1024]⟩
abbrev S512x512 : Shape := ⟨2, ![512, 512]⟩

abbrev nBuf : Table → Nat
  | .hbm => 52
  | .local .tc .vmem => 136
  | .local .scVector .vmem => 6
  | _ => 0

abbrev vmemTy0_0 (i : Nat) : BufTy := match i % 128 with
  | 0 => ⟨S512x143, .f32⟩
  | 1 => ⟨S512x143, .f32⟩
  | 2 => ⟨S512x13, .f32⟩
  | 3 => ⟨S512x13, .f32⟩
  | 4 => ⟨S143x1, .f32⟩
  | 5 => ⟨S13x1, .f32⟩
  | 6 => ⟨S3484x1024, .bf16⟩
  | 7 => ⟨S1x1024, .f32⟩
  | 8 => ⟨S1024x512, .bf16⟩
  | 9 => ⟨S1x512, .f32⟩
  | 10 => ⟨S512x256, .bf16⟩
  | 11 => ⟨S1x256, .f32⟩
  | 12 => ⟨S256x1, .bf16⟩
  | 13 => ⟨S1x1, .f32⟩
  | 14 => ⟨S512x128, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S512x128, .f32⟩
  | 66 => ⟨S512x1, .f32⟩
  | 67 => ⟨S512x1, .f32⟩
  | 68 => ⟨S512x143, .f32⟩
  | 69 => ⟨S512x143, .f32⟩
  | 70 => ⟨S512x13, .f32⟩
  | 71 => ⟨S512x13, .f32⟩
  | 72 => ⟨S143x1, .f32⟩
  | 73 => ⟨S13x1, .f32⟩
  | 74 => ⟨S3484x1024, .bf16⟩
  | 75 => ⟨S1x1024, .f32⟩
  | 76 => ⟨S1024x512, .bf16⟩
  | 77 => ⟨S1x512, .f32⟩
  | 78 => ⟨S512x256, .bf16⟩
  | 79 => ⟨S1x256, .f32⟩
  | 80 => ⟨S256x1, .bf16⟩
  | 81 => ⟨S1x1, .f32⟩
  | 82 => ⟨S512x128, .f32⟩
  | 83 => ⟨S512x128, .f32⟩
  | 84 => ⟨S512x128, .f32⟩
  | 85 => ⟨S512x128, .f32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S512x128, .f32⟩
  | 117 => ⟨S512x128, .f32⟩
  | 118 => ⟨S512x128, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S4096x143, .f32⟩

abbrev vmemTy0_1 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S512x128, .f32⟩
  | 6 => ⟨S512x1, .f32⟩
  | 7 => ⟨S512x1, .f32⟩
  | _ => ⟨S4096x143, .f32⟩

abbrev vmemTy (i : Nat) : BufTy := match i / 128 with
  | 0 => vmemTy0_0 i
  | 1 => vmemTy0_1 i
  | _ => ⟨S4096x143, .f32⟩

abbrev bufTy : (tb : Table) → Fin (nBuf tb) → BufTy
  | .hbm, ⟨0, _⟩ => ⟨S4096x143, .f32⟩
  | .hbm, ⟨1, _⟩ => ⟨S4096x26, .i32⟩
  | .hbm, ⟨2, _⟩ => ⟨S4096x13, .f32⟩
  | .hbm, ⟨3, _⟩ => ⟨S26x1000x128, .f32⟩
  | .hbm, ⟨4, _⟩ => ⟨S143x1, .f32⟩
  | .hbm, ⟨5, _⟩ => ⟨S1, .f32⟩
  | .hbm, ⟨6, _⟩ => ⟨S13x1, .f32⟩
  | .hbm, ⟨7, _⟩ => ⟨S1, .f32⟩
  | .hbm, ⟨8, _⟩ => ⟨S3484x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S26000x128, .f32⟩
  | .hbm, ⟨17, _⟩ => ⟨S26, .i32⟩
  | .hbm, ⟨18, _⟩ => ⟨S_, .i32⟩
  | .hbm, ⟨19, _⟩ => ⟨S26, .i32⟩
  | .hbm, ⟨20, _⟩ => ⟨S26, .i32⟩
  | .hbm, ⟨21, _⟩ => ⟨S1x26, .i32⟩
  | .hbm, ⟨22, _⟩ => ⟨S4096x26, .i32⟩
  | .hbm, ⟨23, _⟩ => ⟨S4096x26, .i32⟩
  | .hbm, ⟨24, _⟩ => ⟨S1, .f32⟩
  | .hbm, ⟨25, _⟩ => ⟨S1, .f32⟩
  | .hbm, ⟨26, _⟩ => ⟨S1x1, .f32⟩
  | .hbm, ⟨27, _⟩ => ⟨S3484x1024, .bf16⟩
  | .hbm, ⟨28, _⟩ => ⟨S1024x512, .bf16⟩
  | .hbm, ⟨29, _⟩ => ⟨S512x256, .bf16⟩
  | .hbm, ⟨30, _⟩ => ⟨S256x1, .bf16⟩
  | .hbm, ⟨31, _⟩ => ⟨S1x1024, .f32⟩
  | .hbm, ⟨32, _⟩ => ⟨S1x512, .f32⟩
  | .hbm, ⟨33, _⟩ => ⟨S1x256, .f32⟩
  | .hbm, ⟨34, _⟩ => ⟨S_, .f32⟩
  | .hbm, ⟨35, _⟩ => ⟨S4096x1, .f32⟩
  | .hbm, ⟨36, _⟩ => ⟨S2048x26, .i32⟩
  | .hbm, ⟨37, _⟩ => ⟨S26x2048, .i32⟩
  | .hbm, ⟨38, _⟩ => ⟨S416x1x128, .i32⟩
  | .hbm, ⟨39, _⟩ => ⟨S32x13x1x128, .i32⟩
  | .hbm, ⟨40, _⟩ => ⟨S53248x128, .f32⟩
  | .hbm, ⟨41, _⟩ => ⟨S2048x143, .f32⟩
  | .hbm, ⟨42, _⟩ => ⟨S2048x13, .f32⟩
  | .hbm, ⟨43, _⟩ => ⟨S4096x1, .f32⟩
  | .hbm, ⟨44, _⟩ => ⟨S2048x26, .i32⟩
  | .hbm, ⟨45, _⟩ => ⟨S26x2048, .i32⟩
  | .hbm, ⟨46, _⟩ => ⟨S416x1x128, .i32⟩
  | .hbm, ⟨47, _⟩ => ⟨S32x13x1x128, .i32⟩
  | .hbm, ⟨48, _⟩ => ⟨S53248x128, .f32⟩
  | .hbm, ⟨49, _⟩ => ⟨S2048x143, .f32⟩
  | .hbm, ⟨50, _⟩ => ⟨S2048x13, .f32⟩
  | .hbm, ⟨51, _⟩ => ⟨S4096x1, .f32⟩
  | .local .tc .vmem, ⟨i, _⟩ => vmemTy i
  | .local .scVector .vmem, ⟨0, _⟩ => ⟨S13x1x128, .i32⟩
  | .local .scVector .vmem, ⟨1, _⟩ => ⟨S128x128, .f32⟩
  | .local .scVector .vmem, ⟨2, _⟩ => ⟨S128x128, .f32⟩
  | .local .scVector .vmem, ⟨3, _⟩ => ⟨S13x1x128, .i32⟩
  | .local .scVector .vmem, ⟨4, _⟩ => ⟨S128x128, .f32⟩
  | .local .scVector .vmem, ⟨5, _⟩ => ⟨S128x128, .f32⟩
  | _, _ => ⟨S4096x143, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨i, _⟩ => vmemScopedAt i
  | _, _ => false

abbrev semScoped : Fin 4 → Bool
  | ⟨0, _⟩ => false
  | ⟨1, _⟩ => false
  | ⟨2, _⟩ => false
  | ⟨3, _⟩ => false
  | _ => false

abbrev dmaSemScoped : Fin 168 → Bool
  | ⟨i, _⟩ => dmaSemScopedAt i

abbrev sig : RefSig :=
  ofTables nBuf rfl bufTy 4 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v0_scv : Ref sig .scVector := ⟨.hbm, 16, rfl⟩
abbrev main_v21_scv : Ref sig .scVector := ⟨.hbm, 39, rfl⟩
abbrev main_v22_scv : Ref sig .scVector := ⟨.hbm, 40, rfl⟩
abbrev main_v29_scv : Ref sig .scVector := ⟨.hbm, 47, rfl⟩
abbrev main_v30_scv : Ref sig .scVector := ⟨.hbm, 48, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg12_1 : Ref sig .tc := ⟨.vmem, 15, rfl⟩
abbrev cc1_stg13_0 : Ref sig .tc := ⟨.vmem, 16, rfl⟩
abbrev cc1_stg13_1 : Ref sig .tc := ⟨.vmem, 17, rfl⟩
abbrev cc1_stg14_0 : Ref sig .tc := ⟨.vmem, 18, rfl⟩
abbrev cc1_stg14_1 : Ref sig .tc := ⟨.vmem, 19, rfl⟩
abbrev cc1_stg15_0 : Ref sig .tc := ⟨.vmem, 20, rfl⟩
abbrev cc1_stg15_1 : Ref sig .tc := ⟨.vmem, 21, rfl⟩
abbrev cc1_stg16_0 : Ref sig .tc := ⟨.vmem, 22, rfl⟩
abbrev cc1_stg16_1 : Ref sig .tc := ⟨.vmem, 23, rfl⟩
abbrev cc1_stg17_0 : Ref sig .tc := ⟨.vmem, 24, rfl⟩
abbrev cc1_stg17_1 : Ref sig .tc := ⟨.vmem, 25, rfl⟩
abbrev cc1_stg18_0 : Ref sig .tc := ⟨.vmem, 26, rfl⟩
abbrev cc1_stg18_1 : Ref sig .tc := ⟨.vmem, 27, rfl⟩
abbrev cc1_stg19_0 : Ref sig .tc := ⟨.vmem, 28, rfl⟩
abbrev cc1_stg19_1 : Ref sig .tc := ⟨.vmem, 29, rfl⟩
abbrev cc1_stg20_0 : Ref sig .tc := ⟨.vmem, 30, rfl⟩
abbrev cc1_stg20_1 : Ref sig .tc := ⟨.vmem, 31, rfl⟩
abbrev cc1_stg21_0 : Ref sig .tc := ⟨.vmem, 32, rfl⟩
abbrev cc1_stg21_1 : Ref sig .tc := ⟨.vmem, 33, rfl⟩
abbrev cc1_stg22_0 : Ref sig .tc := ⟨.vmem, 34, rfl⟩
abbrev cc1_stg22_1 : Ref sig .tc := ⟨.vmem, 35, rfl⟩
abbrev cc1_stg23_0 : Ref sig .tc := ⟨.vmem, 36, rfl⟩
abbrev cc1_stg23_1 : Ref sig .tc := ⟨.vmem, 37, rfl⟩
abbrev cc1_stg24_0 : Ref sig .tc := ⟨.vmem, 38, rfl⟩
abbrev cc1_stg24_1 : Ref sig .tc := ⟨.vmem, 39, rfl⟩
abbrev cc1_stg25_0 : Ref sig .tc := ⟨.vmem, 40, rfl⟩
abbrev cc1_stg25_1 : Ref sig .tc := ⟨.vmem, 41, rfl⟩
abbrev cc1_stg26_0 : Ref sig .tc := ⟨.vmem, 42, rfl⟩
abbrev cc1_stg26_1 : Ref sig .tc := ⟨.vmem, 43, rfl⟩
abbrev cc1_stg27_0 : Ref sig .tc := ⟨.vmem, 44, rfl⟩
abbrev cc1_stg27_1 : Ref sig .tc := ⟨.vmem, 45, rfl⟩
abbrev cc1_stg28_0 : Ref sig .tc := ⟨.vmem, 46, rfl⟩
abbrev cc1_stg28_1 : Ref sig .tc := ⟨.vmem, 47, rfl⟩
abbrev cc1_stg29_0 : Ref sig .tc := ⟨.vmem, 48, rfl⟩
abbrev cc1_stg29_1 : Ref sig .tc := ⟨.vmem, 49, rfl⟩
abbrev cc1_stg30_0 : Ref sig .tc := ⟨.vmem, 50, rfl⟩
abbrev cc1_stg30_1 : Ref sig .tc := ⟨.vmem, 51, rfl⟩
abbrev cc1_stg31_0 : Ref sig .tc := ⟨.vmem, 52, rfl⟩
abbrev cc1_stg31_1 : Ref sig .tc := ⟨.vmem, 53, rfl⟩
abbrev cc1_stg32_0 : Ref sig .tc := ⟨.vmem, 54, rfl⟩
abbrev cc1_stg32_1 : Ref sig .tc := ⟨.vmem, 55, rfl⟩
abbrev cc1_stg33_0 : Ref sig .tc := ⟨.vmem, 56, rfl⟩
abbrev cc1_stg33_1 : Ref sig .tc := ⟨.vmem, 57, rfl⟩
abbrev cc1_stg34_0 : Ref sig .tc := ⟨.vmem, 58, rfl⟩
abbrev cc1_stg34_1 : Ref sig .tc := ⟨.vmem, 59, rfl⟩
abbrev cc1_stg35_0 : Ref sig .tc := ⟨.vmem, 60, rfl⟩
abbrev cc1_stg35_1 : Ref sig .tc := ⟨.vmem, 61, rfl⟩
abbrev cc1_stg36_0 : Ref sig .tc := ⟨.vmem, 62, rfl⟩
abbrev cc1_stg36_1 : Ref sig .tc := ⟨.vmem, 63, rfl⟩
abbrev cc1_stg37_0 : Ref sig .tc := ⟨.vmem, 64, rfl⟩
abbrev cc1_stg37_1 : Ref sig .tc := ⟨.vmem, 65, rfl⟩
abbrev cc1_stg38_0 : Ref sig .tc := ⟨.vmem, 66, rfl⟩
abbrev cc1_stg38_1 : Ref sig .tc := ⟨.vmem, 67, rfl⟩
abbrev cc3_stg0_0 : Ref sig .tc := ⟨.vmem, 68, rfl⟩
abbrev cc3_stg0_1 : Ref sig .tc := ⟨.vmem, 69, rfl⟩
abbrev cc3_stg1_0 : Ref sig .tc := ⟨.vmem, 70, rfl⟩
abbrev cc3_stg1_1 : Ref sig .tc := ⟨.vmem, 71, rfl⟩
abbrev cc3_stg2_0 : Ref sig .tc := ⟨.vmem, 72, rfl⟩
abbrev cc3_stg3_0 : Ref sig .tc := ⟨.vmem, 73, rfl⟩
abbrev cc3_stg4_0 : Ref sig .tc := ⟨.vmem, 74, rfl⟩
abbrev cc3_stg5_0 : Ref sig .tc := ⟨.vmem, 75, rfl⟩
abbrev cc3_stg6_0 : Ref sig .tc := ⟨.vmem, 76, rfl⟩
abbrev cc3_stg7_0 : Ref sig .tc := ⟨.vmem, 77, rfl⟩
abbrev cc3_stg8_0 : Ref sig .tc := ⟨.vmem, 78, rfl⟩
abbrev cc3_stg9_0 : Ref sig .tc := ⟨.vmem, 79, rfl⟩
abbrev cc3_stg10_0 : Ref sig .tc := ⟨.vmem, 80, rfl⟩
abbrev cc3_stg11_0 : Ref sig .tc := ⟨.vmem, 81, rfl⟩
abbrev cc3_stg12_0 : Ref sig .tc := ⟨.vmem, 82, rfl⟩
abbrev cc3_stg12_1 : Ref sig .tc := ⟨.vmem, 83, rfl⟩
abbrev cc3_stg13_0 : Ref sig .tc := ⟨.vmem, 84, rfl⟩
abbrev cc3_stg13_1 : Ref sig .tc := ⟨.vmem, 85, rfl⟩
abbrev cc3_stg14_0 : Ref sig .tc := ⟨.vmem, 86, rfl⟩
abbrev cc3_stg14_1 : Ref sig .tc := ⟨.vmem, 87, rfl⟩
abbrev cc3_stg15_0 : Ref sig .tc := ⟨.vmem, 88, rfl⟩
abbrev cc3_stg15_1 : Ref sig .tc := ⟨.vmem, 89, rfl⟩
abbrev cc3_stg16_0 : Ref sig .tc := ⟨.vmem, 90, rfl⟩
abbrev cc3_stg16_1 : Ref sig .tc := ⟨.vmem, 91, rfl⟩
abbrev cc3_stg17_0 : Ref sig .tc := ⟨.vmem, 92, rfl⟩
abbrev cc3_stg17_1 : Ref sig .tc := ⟨.vmem, 93, rfl⟩
abbrev cc3_stg18_0 : Ref sig .tc := ⟨.vmem, 94, rfl⟩
abbrev cc3_stg18_1 : Ref sig .tc := ⟨.vmem, 95, rfl⟩
abbrev cc3_stg19_0 : Ref sig .tc := ⟨.vmem, 96, rfl⟩
abbrev cc3_stg19_1 : Ref sig .tc := ⟨.vmem, 97, rfl⟩
abbrev cc3_stg20_0 : Ref sig .tc := ⟨.vmem, 98, rfl⟩
abbrev cc3_stg20_1 : Ref sig .tc := ⟨.vmem, 99, rfl⟩
abbrev cc3_stg21_0 : Ref sig .tc := ⟨.vmem, 100, rfl⟩
abbrev cc3_stg21_1 : Ref sig .tc := ⟨.vmem, 101, rfl⟩
abbrev cc3_stg22_0 : Ref sig .tc := ⟨.vmem, 102, rfl⟩
abbrev cc3_stg22_1 : Ref sig .tc := ⟨.vmem, 103, rfl⟩
abbrev cc3_stg23_0 : Ref sig .tc := ⟨.vmem, 104, rfl⟩
abbrev cc3_stg23_1 : Ref sig .tc := ⟨.vmem, 105, rfl⟩
abbrev cc3_stg24_0 : Ref sig .tc := ⟨.vmem, 106, rfl⟩
abbrev cc3_stg24_1 : Ref sig .tc := ⟨.vmem, 107, rfl⟩
abbrev cc3_stg25_0 : Ref sig .tc := ⟨.vmem, 108, rfl⟩
abbrev cc3_stg25_1 : Ref sig .tc := ⟨.vmem, 109, rfl⟩
abbrev cc3_stg26_0 : Ref sig .tc := ⟨.vmem, 110, rfl⟩
abbrev cc3_stg26_1 : Ref sig .tc := ⟨.vmem, 111, rfl⟩
abbrev cc3_stg27_0 : Ref sig .tc := ⟨.vmem, 112, rfl⟩
abbrev cc3_stg27_1 : Ref sig .tc := ⟨.vmem, 113, rfl⟩
abbrev cc3_stg28_0 : Ref sig .tc := ⟨.vmem, 114, rfl⟩
abbrev cc3_stg28_1 : Ref sig .tc := ⟨.vmem, 115, rfl⟩
abbrev cc3_stg29_0 : Ref sig .tc := ⟨.vmem, 116, rfl⟩
abbrev cc3_stg29_1 : Ref sig .tc := ⟨.vmem, 117, rfl⟩
abbrev cc3_stg30_0 : Ref sig .tc := ⟨.vmem, 118, rfl⟩
abbrev cc3_stg30_1 : Ref sig .tc := ⟨.vmem, 119, rfl⟩
abbrev cc3_stg31_0 : Ref sig .tc := ⟨.vmem, 120, rfl⟩
abbrev cc3_stg31_1 : Ref sig .tc := ⟨.vmem, 121, rfl⟩
abbrev cc3_stg32_0 : Ref sig .tc := ⟨.vmem, 122, rfl⟩
abbrev cc3_stg32_1 : Ref sig .tc := ⟨.vmem, 123, rfl⟩
abbrev cc3_stg33_0 : Ref sig .tc := ⟨.vmem, 124, rfl⟩
abbrev cc3_stg33_1 : Ref sig .tc := ⟨.vmem, 125, rfl⟩
abbrev cc3_stg34_0 : Ref sig .tc := ⟨.vmem, 126, rfl⟩
abbrev cc3_stg34_1 : Ref sig .tc := ⟨.vmem, 127, rfl⟩
abbrev cc3_stg35_0 : Ref sig .tc := ⟨.vmem, 128, rfl⟩
abbrev cc3_stg35_1 : Ref sig .tc := ⟨.vmem, 129, rfl⟩
abbrev cc3_stg36_0 : Ref sig .tc := ⟨.vmem, 130, rfl⟩
abbrev cc3_stg36_1 : Ref sig .tc := ⟨.vmem, 131, rfl⟩
abbrev cc3_stg37_0 : Ref sig .tc := ⟨.vmem, 132, rfl⟩
abbrev cc3_stg37_1 : Ref sig .tc := ⟨.vmem, 133, rfl⟩
abbrev cc3_stg38_0 : Ref sig .tc := ⟨.vmem, 134, rfl⟩
abbrev cc3_stg38_1 : Ref sig .tc := ⟨.vmem, 135, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc1_sem15_0 : DmaSem sig := 36
abbrev cc1_sem15_1 : DmaSem sig := 37
abbrev cc1_sem16_0 : DmaSem sig := 38
abbrev cc1_sem16_1 : DmaSem sig := 39
abbrev cc1_sem17_0 : DmaSem sig := 40
abbrev cc1_sem17_1 : DmaSem sig := 41
abbrev cc1_sem18_0 : DmaSem sig := 42
abbrev cc1_sem18_1 : DmaSem sig := 43
abbrev cc1_sem19_0 : DmaSem sig := 44
abbrev cc1_sem19_1 : DmaSem sig := 45
abbrev cc1_sem20_0 : DmaSem sig := 46
abbrev cc1_sem20_1 : DmaSem sig := 47
abbrev cc1_sem21_0 : DmaSem sig := 48
abbrev cc1_sem21_1 : DmaSem sig := 49
abbrev cc1_sem22_0 : DmaSem sig := 50
abbrev cc1_sem22_1 : DmaSem sig := 51
abbrev cc1_sem23_0 : DmaSem sig := 52
abbrev cc1_sem23_1 : DmaSem sig := 53
abbrev cc1_sem24_0 : DmaSem sig := 54
abbrev cc1_sem24_1 : DmaSem sig := 55
abbrev cc1_sem25_0 : DmaSem sig := 56
abbrev cc1_sem25_1 : DmaSem sig := 57
abbrev cc1_sem26_0 : DmaSem sig := 58
abbrev cc1_sem26_1 : DmaSem sig := 59
abbrev cc1_sem27_0 : DmaSem sig := 60
abbrev cc1_sem27_1 : DmaSem sig := 61
abbrev cc1_sem28_0 : DmaSem sig := 62
abbrev cc1_sem28_1 : DmaSem sig := 63
abbrev cc1_sem29_0 : DmaSem sig := 64
abbrev cc1_sem29_1 : DmaSem sig := 65
abbrev cc1_sem30_0 : DmaSem sig := 66
abbrev cc1_sem30_1 : DmaSem sig := 67
abbrev cc1_sem31_0 : DmaSem sig := 68
abbrev cc1_sem31_1 : DmaSem sig := 69
abbrev cc1_sem32_0 : DmaSem sig := 70
abbrev cc1_sem32_1 : DmaSem sig := 71
abbrev cc1_sem33_0 : DmaSem sig := 72
abbrev cc1_sem33_1 : DmaSem sig := 73
abbrev cc1_sem34_0 : DmaSem sig := 74
abbrev cc1_sem34_1 : DmaSem sig := 75
abbrev cc1_sem35_0 : DmaSem sig := 76
abbrev cc1_sem35_1 : DmaSem sig := 77
abbrev cc1_sem36_0 : DmaSem sig := 78
abbrev cc1_sem36_1 : DmaSem sig := 79
abbrev cc1_sem37_0 : DmaSem sig := 80
abbrev cc1_sem37_1 : DmaSem sig := 81
abbrev cc1_sem38_0 : DmaSem sig := 82
abbrev cc1_sem38_1 : DmaSem sig := 83
abbrev cc3_sem0_0 : DmaSem sig := 100
abbrev cc3_sem0_1 : DmaSem sig := 101
abbrev cc3_sem1_0 : DmaSem sig := 102
abbrev cc3_sem1_1 : DmaSem sig := 103
abbrev cc3_sem2_0 : DmaSem sig := 104
abbrev cc3_sem3_0 : DmaSem sig := 105
abbrev cc3_sem4_0 : DmaSem sig := 106
abbrev cc3_sem5_0 : DmaSem sig := 107
abbrev cc3_sem6_0 : DmaSem sig := 108
abbrev cc3_sem7_0 : DmaSem sig := 109
abbrev cc3_sem8_0 : DmaSem sig := 110
abbrev cc3_sem9_0 : DmaSem sig := 111
abbrev cc3_sem10_0 : DmaSem sig := 112
abbrev cc3_sem11_0 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119
abbrev cc3_sem15_0 : DmaSem sig := 120
abbrev cc3_sem15_1 : DmaSem sig := 121
abbrev cc3_sem16_0 : DmaSem sig := 122
abbrev cc3_sem16_1 : DmaSem sig := 123
abbrev cc3_sem17_0 : DmaSem sig := 124
abbrev cc3_sem17_1 : DmaSem sig := 125
abbrev cc3_sem18_0 : DmaSem sig := 126
abbrev cc3_sem18_1 : DmaSem sig := 127
abbrev cc3_sem19_0 : DmaSem sig := 128
abbrev cc3_sem19_1 : DmaSem sig := 129
abbrev cc3_sem20_0 : DmaSem sig := 130
abbrev cc3_sem20_1 : DmaSem sig := 131
abbrev cc3_sem21_0 : DmaSem sig := 132
abbrev cc3_sem21_1 : DmaSem sig := 133
abbrev cc3_sem22_0 : DmaSem sig := 134
abbrev cc3_sem22_1 : DmaSem sig := 135
abbrev cc3_sem23_0 : DmaSem sig := 136
abbrev cc3_sem23_1 : DmaSem sig := 137
abbrev cc3_sem24_0 : DmaSem sig := 138
abbrev cc3_sem24_1 : DmaSem sig := 139
abbrev cc3_sem25_0 : DmaSem sig := 140
abbrev cc3_sem25_1 : DmaSem sig := 141
abbrev cc3_sem26_0 : DmaSem sig := 142
abbrev cc3_sem26_1 : DmaSem sig := 143
abbrev cc3_sem27_0 : DmaSem sig := 144
abbrev cc3_sem27_1 : DmaSem sig := 145
abbrev cc3_sem28_0 : DmaSem sig := 146
abbrev cc3_sem28_1 : DmaSem sig := 147
abbrev cc3_sem29_0 : DmaSem sig := 148
abbrev cc3_sem29_1 : DmaSem sig := 149
abbrev cc3_sem30_0 : DmaSem sig := 150
abbrev cc3_sem30_1 : DmaSem sig := 151
abbrev cc3_sem31_0 : DmaSem sig := 152
abbrev cc3_sem31_1 : DmaSem sig := 153
abbrev cc3_sem32_0 : DmaSem sig := 154
abbrev cc3_sem32_1 : DmaSem sig := 155
abbrev cc3_sem33_0 : DmaSem sig := 156
abbrev cc3_sem33_1 : DmaSem sig := 157
abbrev cc3_sem34_0 : DmaSem sig := 158
abbrev cc3_sem34_1 : DmaSem sig := 159
abbrev cc3_sem35_0 : DmaSem sig := 160
abbrev cc3_sem35_1 : DmaSem sig := 161
abbrev cc3_sem36_0 : DmaSem sig := 162
abbrev cc3_sem36_1 : DmaSem sig := 163
abbrev cc3_sem37_0 : DmaSem sig := 164
abbrev cc3_sem37_1 : DmaSem sig := 165
abbrev cc3_sem38_0 : DmaSem sig := 166
abbrev cc3_sem38_1 : DmaSem sig := 167
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_232_r0 : BitVec 32 := 0#32
  let c0_i32_233_r0 : BitVec 32 := 0#32
  let c0_i32_234_r0 : BitVec 32 := 0#32
  ![v1.toNat, 0, 0, 0]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_19 : BitVec 32 := 0#32
  let v15 : BitVec 32 := Scalar.addi v2 c0_i32_19
  let c4_i32 : BitVec 32 := 4#32
  let v16 : BitVec 32 := Scalar.shrsi v15 c4_i32
  let c2048_i32 : BitVec 32 := 2048#32
  let v17 : BitVec 32 := Scalar.muli v16 c2048_i32
  let c15_i32 : BitVec 32 := 15#32
  let v18 : BitVec 32 := Scalar.andi v15 c15_i32
  let c128_i32 : BitVec 32 := 128#32
  let v19 : BitVec 32 := Scalar.muli v18 c128_i32
  let v20 : BitVec 32 := Scalar.addi v17 v19
  v20
def k0_off2 (i : grid0.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let v15 : BitVec 32 := Scalar.addi v2 c0_i32_19
  let c4_i32 : BitVec 32 := 4#32
  let v16 : BitVec 32 := Scalar.shrsi v15 c4_i32
  let c2048_i32 : BitVec 32 := 2048#32
  let v17 : BitVec 32 := Scalar.muli v16 c2048_i32
  let c15_i32 : BitVec 32 := 15#32
  let v18 : BitVec 32 := Scalar.andi v15 c15_i32
  let c128_i32 : BitVec 32 := 128#32
  let v19 : BitVec 32 := Scalar.muli v18 c128_i32
  let v20 : BitVec 32 := Scalar.addi v17 v19
  let v21 : BitVec 32 := v20
  let c0_i32_232_r1 : BitVec 32 := 0#32
  ![v21.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32_34 : BitVec 32 := 1#32
  let v30 : BitVec 32 := Scalar.addi v2 c1_i32_34
  let c4_i32_35 : BitVec 32 := 4#32
  let v31 : BitVec 32 := Scalar.shrsi v30 c4_i32_35
  let c2048_i32_36 : BitVec 32 := 2048#32
  let v32 : BitVec 32 := Scalar.muli v31 c2048_i32_36
  let c15_i32_37 : BitVec 32 := 15#32
  let v33 : BitVec 32 := Scalar.andi v30 c15_i32_37
  let c128_i32_38 : BitVec 32 := 128#32
  let v34 : BitVec 32 := Scalar.muli v33 c128_i32_38
  let v35 : BitVec 32 := Scalar.addi v32 v34
  v35
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c2_i32_52 : BitVec 32 := 2#32
  let v45 : BitVec 32 := Scalar.addi v2 c2_i32_52
  let c4_i32_53 : BitVec 32 := 4#32
  let v46 : BitVec 32 := Scalar.shrsi v45 c4_i32_53
  let c2048_i32_54 : BitVec 32 := 2048#32
  let v47 : BitVec 32 := Scalar.muli v46 c2048_i32_54
  let c15_i32_55 : BitVec 32 := 15#32
  let v48 : BitVec 32 := Scalar.andi v45 c15_i32_55
  let c128_i32_56 : BitVec 32 := 128#32
  let v49 : BitVec 32 := Scalar.muli v48 c128_i32_56
  let v50 : BitVec 32 := Scalar.addi v47 v49
  v50
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c3_i32_71 : BitVec 32 := 3#32
  let v60 : BitVec 32 := Scalar.addi v2 c3_i32_71
  let c4_i32_72 : BitVec 32 := 4#32
  let v61 : BitVec 32 := Scalar.shrsi v60 c4_i32_72
  let c2048_i32_73 : BitVec 32 := 2048#32
  let v62 : BitVec 32 := Scalar.muli v61 c2048_i32_73
  let c15_i32_74 : BitVec 32 := 15#32
  let v63 : BitVec 32 := Scalar.andi v60 c15_i32_74
  let c128_i32_75 : BitVec 32 := 128#32
  let v64 : BitVec 32 := Scalar.muli v63 c128_i32_75
  let v65 : BitVec 32 := Scalar.addi v62 v64
  v65
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c4_i32_89 : BitVec 32 := 4#32
  let v75 : BitVec 32 := Scalar.addi v2 c4_i32_89
  let c4_i32_90 : BitVec 32 := 4#32
  let v76 : BitVec 32 := Scalar.shrsi v75 c4_i32_90
  let c2048_i32_91 : BitVec 32 := 2048#32
  let v77 : BitVec 32 := Scalar.muli v76 c2048_i32_91
  let c15_i32_92 : BitVec 32 := 15#32
  let v78 : BitVec 32 := Scalar.andi v75 c15_i32_92
  let c128_i32_93 : BitVec 32 := 128#32
  let v79 : BitVec 32 := Scalar.muli v78 c128_i32_93
  let v80 : BitVec 32 := Scalar.addi v77 v79
  v80
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c5_i32_107 : BitVec 32 := 5#32
  let v90 : BitVec 32 := Scalar.addi v2 c5_i32_107
  let c4_i32_108 : BitVec 32 := 4#32
  let v91 : BitVec 32 := Scalar.shrsi v90 c4_i32_108
  let c2048_i32_109 : BitVec 32 := 2048#32
  let v92 : BitVec 32 := Scalar.muli v91 c2048_i32_109
  let c15_i32_110 : BitVec 32 := 15#32
  let v93 : BitVec 32 := Scalar.andi v90 c15_i32_110
  let c128_i32_111 : BitVec 32 := 128#32
  let v94 : BitVec 32 := Scalar.muli v93 c128_i32_111
  let v95 : BitVec 32 := Scalar.addi v92 v94
  v95
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c6_i32_125 : BitVec 32 := 6#32
  let v105 : BitVec 32 := Scalar.addi v2 c6_i32_125
  let c4_i32_126 : BitVec 32 := 4#32
  let v106 : BitVec 32 := Scalar.shrsi v105 c4_i32_126
  let c2048_i32_127 : BitVec 32 := 2048#32
  let v107 : BitVec 32 := Scalar.muli v106 c2048_i32_127
  let c15_i32_128 : BitVec 32 := 15#32
  let v108 : BitVec 32 := Scalar.andi v105 c15_i32_128
  let c128_i32_129 : BitVec 32 := 128#32
  let v109 : BitVec 32 := Scalar.muli v108 c128_i32_129
  let v110 : BitVec 32 := Scalar.addi v107 v109
  v110
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c7_i32_143 : BitVec 32 := 7#32
  let v120 : BitVec 32 := Scalar.addi v2 c7_i32_143
  let c4_i32_144 : BitVec 32 := 4#32
  let v121 : BitVec 32 := Scalar.shrsi v120 c4_i32_144
  let c2048_i32_145 : BitVec 32 := 2048#32
  let v122 : BitVec 32 := Scalar.muli v121 c2048_i32_145
  let c15_i32_146 : BitVec 32 := 15#32
  let v123 : BitVec 32 := Scalar.andi v120 c15_i32_146
  let c128_i32_147 : BitVec 32 := 128#32
  let v124 : BitVec 32 := Scalar.muli v123 c128_i32_147
  let v125 : BitVec 32 := Scalar.addi v122 v124
  v125
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c8_i32_161 : BitVec 32 := 8#32
  let v135 : BitVec 32 := Scalar.addi v2 c8_i32_161
  let c4_i32_162 : BitVec 32 := 4#32
  let v136 : BitVec 32 := Scalar.shrsi v135 c4_i32_162
  let c2048_i32_163 : BitVec 32 := 2048#32
  let v137 : BitVec 32 := Scalar.muli v136 c2048_i32_163
  let c15_i32_164 : BitVec 32 := 15#32
  let v138 : BitVec 32 := Scalar.andi v135 c15_i32_164
  let c128_i32_165 : BitVec 32 := 128#32
  let v139 : BitVec 32 := Scalar.muli v138 c128_i32_165
  let v140 : BitVec 32 := Scalar.addi v137 v139
  v140
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c9_i32_179 : BitVec 32 := 9#32
  let v150 : BitVec 32 := Scalar.addi v2 c9_i32_179
  let c4_i32_180 : BitVec 32 := 4#32
  let v151 : BitVec 32 := Scalar.shrsi v150 c4_i32_180
  let c2048_i32_181 : BitVec 32 := 2048#32
  let v152 : BitVec 32 := Scalar.muli v151 c2048_i32_181
  let c15_i32_182 : BitVec 32 := 15#32
  let v153 : BitVec 32 := Scalar.andi v150 c15_i32_182
  let c128_i32_183 : BitVec 32 := 128#32
  let v154 : BitVec 32 := Scalar.muli v153 c128_i32_183
  let v155 : BitVec 32 := Scalar.addi v152 v154
  v155
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c10_i32_197 : BitVec 32 := 10#32
  let v165 : BitVec 32 := Scalar.addi v2 c10_i32_197
  let c4_i32_198 : BitVec 32 := 4#32
  let v166 : BitVec 32 := Scalar.shrsi v165 c4_i32_198
  let c2048_i32_199 : BitVec 32 := 2048#32
  let v167 : BitVec 32 := Scalar.muli v166 c2048_i32_199
  let c15_i32_200 : BitVec 32 := 15#32
  let v168 : BitVec 32 := Scalar.andi v165 c15_i32_200
  let c128_i32_201 : BitVec 32 := 128#32
  let v169 : BitVec 32 := Scalar.muli v168 c128_i32_201
  let v170 : BitVec 32 := Scalar.addi v167 v169
  v170
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c11_i32_215 : BitVec 32 := 11#32
  let v180 : BitVec 32 := Scalar.addi v2 c11_i32_215
  let c4_i32_216 : BitVec 32 := 4#32
  let v181 : BitVec 32 := Scalar.shrsi v180 c4_i32_216
  let c2048_i32_217 : BitVec 32 := 2048#32
  let v182 : BitVec 32 := Scalar.muli v181 c2048_i32_217
  let c15_i32_218 : BitVec 32 := 15#32
  let v183 : BitVec 32 := Scalar.andi v180 c15_i32_218
  let c128_i32_219 : BitVec 32 := 128#32
  let v184 : BitVec 32 := Scalar.muli v183 c128_i32_219
  let v185 : BitVec 32 := Scalar.addi v182 v184
  v185
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c12_i32_227 : BitVec 32 := 12#32
  let v191 : BitVec 32 := Scalar.addi v2 c12_i32_227
  let c4_i32_228 : BitVec 32 := 4#32
  let v192 : BitVec 32 := Scalar.shrsi v191 c4_i32_228
  let c2048_i32_229 : BitVec 32 := 2048#32
  let v193 : BitVec 32 := Scalar.muli v192 c2048_i32_229
  let c15_i32_230 : BitVec 32 := 15#32
  let v194 : BitVec 32 := Scalar.andi v191 c15_i32_230
  let c128_i32_231 : BitVec 32 := 128#32
  let v195 : BitVec 32 := Scalar.muli v194 c128_i32_231
  let v196 : BitVec 32 := Scalar.addi v193 v195
  v196
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_13 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc1_transform_16 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_17 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_18 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc1_transform_19 (i : grid1.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc1_transform_20 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_21 (i : grid1.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![v0.toNat, c0_i32.toNat]

def cc1_transform_22 (i : grid1.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc1_transform_23 (i : grid1.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![v0.toNat, c0_i32.toNat]

def cc1_transform_24 (i : grid1.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc1_transform_25 (i : grid1.Coords) : Fin 2 → Nat :=
  let arg0 : BitVec 32 := BitVec.ofNat 32 (i 0).val
  let c52_i32 : BitVec 32 := 52#32
  let v0 : BitVec 32 := Scalar.addi c52_i32 arg0
  let c0_i32 : BitVec 32 := 0#32
  let c0_i32_0 : BitVec 32 := 0#32
  ![v0.toNat, c0_i32.toNat]

def cc1_transform_26 (i : grid1.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc1_transform_27 (i : grid1.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![v0.toNat, c0_i32.toNat]

def cc1_transform_28 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_29 (i : grid1.Coords) : Fin 2 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  ![v0.toNat, c0_i32.toNat]

def cc1_transform_30 (i : grid1.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![v0.toNat, c0_i32.toNat]

def cc1_transform_31 (i : grid1.Coords) : Fin 2 → Nat :=
  let arg0 : BitVec 32 := BitVec.ofNat 32 (i 0).val
  let c76_i32 : BitVec 32 := 76#32
  let v0 : BitVec 32 := Scalar.addi c76_i32 arg0
  let c0_i32 : BitVec 32 := 0#32
  let c0_i32_0 : BitVec 32 := 0#32
  ![v0.toNat, c0_i32.toNat]

def cc1_transform_32 (i : grid1.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc1_transform_33 (i : grid1.Coords) : Fin 2 → Nat :=
  let arg0 : BitVec 32 := BitVec.ofNat 32 (i 0).val
  let c84_i32 : BitVec 32 := 84#32
  let v0 : BitVec 32 := Scalar.addi c84_i32 arg0
  let c0_i32 : BitVec 32 := 0#32
  let c0_i32_0 : BitVec 32 := 0#32
  ![v0.toNat, c0_i32.toNat]

def cc1_transform_34 (i : grid1.Coords) : Fin 2 → Nat :=
  let arg0 : BitVec 32 := BitVec.ofNat 32 (i 0).val
  let c88_i32 : BitVec 32 := 88#32
  let v0 : BitVec 32 := Scalar.addi c88_i32 arg0
  let c0_i32 : BitVec 32 := 0#32
  let c0_i32_0 : BitVec 32 := 0#32
  ![v0.toNat, c0_i32.toNat]

def cc1_transform_35 (i : grid1.Coords) : Fin 2 → Nat :=
  let arg0 : BitVec 32 := BitVec.ofNat 32 (i 0).val
  let c92_i32 : BitVec 32 := 92#32
  let v0 : BitVec 32 := Scalar.addi c92_i32 arg0
  let c0_i32 : BitVec 32 := 0#32
  let c0_i32_0 : BitVec 32 := 0#32
  ![v0.toNat, c0_i32.toNat]

def cc1_transform_36 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_37 (i : grid1.Coords) : Fin 2 → Nat :=
  let arg0 : BitVec 32 := BitVec.ofNat 32 (i 0).val
  let c100_i32 : BitVec 32 := 100#32
  let v0 : BitVec 32 := Scalar.addi c100_i32 arg0
  let c0_i32 : BitVec 32 := 0#32
  let c0_i32_0 : BitVec 32 := 0#32
  ![v0.toNat, c0_i32.toNat]

def cc1_transform_39 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S512x143 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S143x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S13x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3484x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x1 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S512x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S512x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S512x128 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S512x128 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S512x128 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S512x128 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S512x128 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S512x128 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S512x128 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev stage1_29 : Fin 2 → Memref sig .tc .vmem S512x128 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true]

abbrev stage1_30 : Fin 2 → Memref sig .tc .vmem S512x128 .f32 := fun | 0 => Memref.whole cc1_stg30_0 | 1 => Memref.whole cc1_stg30_1 | ⟨_ + 2, h⟩ => absurd h (Nat.not_lt.2 (Nat.le_add_left _ _))
abbrev sem1_30 : Fin 2 → DmaSem sig := fun | 0 => cc1_sem30_0 | 1 => cc1_sem30_1 | ⟨_ + 2, h⟩ => absurd h (Nat.not_lt.2 (Nat.le_add_left _ _))
abbrev reads1_30 : Fin grid1.rank → Bool := ![true]

abbrev stage1_31 : Fin 2 → Memref sig .tc .vmem S512x128 .f32 := fun | 0 => Memref.whole cc1_stg31_0 | 1 => Memref.whole cc1_stg31_1 | ⟨_ + 2, h⟩ => absurd h (Nat.not_lt.2 (Nat.le_add_left _ _))
abbrev sem1_31 : Fin 2 → DmaSem sig := fun | 0 => cc1_sem31_0 | 1 => cc1_sem31_1 | ⟨_ + 2, h⟩ => absurd h (Nat.not_lt.2 (Nat.le_add_left _ _))
abbrev reads1_31 : Fin grid1.rank → Bool := ![true]

abbrev stage1_32 : Fin 2 → Memref sig .tc .vmem S512x128 .f32 := fun | 0 => Memref.whole cc1_stg32_0 | 1 => Memref.whole cc1_stg32_1 | ⟨_ + 2, h⟩ => absurd h (Nat.not_lt.2 (Nat.le_add_left _ _))
abbrev sem1_32 : Fin 2 → DmaSem sig := fun | 0 => cc1_sem32_0 | 1 => cc1_sem32_1 | ⟨_ + 2, h⟩ => absurd h (Nat.not_lt.2 (Nat.le_add_left _ _))
abbrev reads1_32 : Fin grid1.rank → Bool := ![true]

abbrev stage1_33 : Fin 2 → Memref sig .tc .vmem S512x128 .f32 := fun | 0 => Memref.whole cc1_stg33_0 | 1 => Memref.whole cc1_stg33_1 | ⟨_ + 2, h⟩ => absurd h (Nat.not_lt.2 (Nat.le_add_left _ _))
abbrev sem1_33 : Fin 2 → DmaSem sig := fun | 0 => cc1_sem33_0 | 1 => cc1_sem33_1 | ⟨_ + 2, h⟩ => absurd h (Nat.not_lt.2 (Nat.le_add_left _ _))
abbrev reads1_33 : Fin grid1.rank → Bool := ![true]

abbrev stage1_34 : Fin 2 → Memref sig .tc .vmem S512x128 .f32 := fun | 0 => Memref.whole cc1_stg34_0 | 1 => Memref.whole cc1_stg34_1 | ⟨_ + 2, h⟩ => absurd h (Nat.not_lt.2 (Nat.le_add_left _ _))
abbrev sem1_34 : Fin 2 → DmaSem sig := fun | 0 => cc1_sem34_0 | 1 => cc1_sem34_1 | ⟨_ + 2, h⟩ => absurd h (Nat.not_lt.2 (Nat.le_add_left _ _))
abbrev reads1_34 : Fin grid1.rank → Bool := ![true]

abbrev stage1_35 : Fin 2 → Memref sig .tc .vmem S512x128 .f32 := fun | 0 => Memref.whole cc1_stg35_0 | 1 => Memref.whole cc1_stg35_1 | ⟨_ + 2, h⟩ => absurd h (Nat.not_lt.2 (Nat.le_add_left _ _))
abbrev sem1_35 : Fin 2 → DmaSem sig := fun | 0 => cc1_sem35_0 | 1 => cc1_sem35_1 | ⟨_ + 2, h⟩ => absurd h (Nat.not_lt.2 (Nat.le_add_left _ _))
abbrev reads1_35 : Fin grid1.rank → Bool := ![true]

abbrev stage1_36 : Fin 2 → Memref sig .tc .vmem S512x128 .f32 := fun | 0 => Memref.whole cc1_stg36_0 | 1 => Memref.whole cc1_stg36_1 | ⟨_ + 2, h⟩ => absurd h (Nat.not_lt.2 (Nat.le_add_left _ _))
abbrev sem1_36 : Fin 2 → DmaSem sig := fun | 0 => cc1_sem36_0 | 1 => cc1_sem36_1 | ⟨_ + 2, h⟩ => absurd h (Nat.not_lt.2 (Nat.le_add_left _ _))
abbrev reads1_36 : Fin grid1.rank → Bool := ![true]

abbrev stage1_37 : Fin 2 → Memref sig .tc .vmem S512x128 .f32 := fun | 0 => Memref.whole cc1_stg37_0 | 1 => Memref.whole cc1_stg37_1 | ⟨_ + 2, h⟩ => absurd h (Nat.not_lt.2 (Nat.le_add_left _ _))
abbrev sem1_37 : Fin 2 → DmaSem sig := fun | 0 => cc1_sem37_0 | 1 => cc1_sem37_1 | ⟨_ + 2, h⟩ => absurd h (Nat.not_lt.2 (Nat.le_add_left _ _))
abbrev reads1_37 : Fin grid1.rank → Bool := ![true]

abbrev stage1_38 : Fin 2 → Memref sig .tc .vmem S512x1 .f32 := fun | 0 => Memref.whole cc1_stg38_0 | 1 => Memref.whole cc1_stg38_1 | ⟨_ + 2, h⟩ => absurd h (Nat.not_lt.2 (Nat.le_add_left _ _))
abbrev sem1_38 : Fin 2 → DmaSem sig := fun | 0 => cc1_sem38_0 | 1 => cc1_sem38_1 | ⟨_ + 2, h⟩ => absurd h (Nat.not_lt.2 (Nat.le_add_left _ _))
abbrev reads1_38 : Fin grid1.rank → Bool := ![true]

abbrev grid2 : Pipeline.Grid := ⟨2, ![2, 16], ![false, false]⟩

def k2_off1 (i : grid2.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_232_r0 : BitVec 32 := 0#32
  let c0_i32_233_r0 : BitVec 32 := 0#32
  let c0_i32_234_r0 : BitVec 32 := 0#32
  ![v1.toNat, 0, 0, 0]
def k2_mult1 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_19 : BitVec 32 := 0#32
  let v15 : BitVec 32 := Scalar.addi v2 c0_i32_19
  let c4_i32 : BitVec 32 := 4#32
  let v16 : BitVec 32 := Scalar.shrsi v15 c4_i32
  let c2048_i32 : BitVec 32 := 2048#32
  let v17 : BitVec 32 := Scalar.muli v16 c2048_i32
  let c15_i32 : BitVec 32 := 15#32
  let v18 : BitVec 32 := Scalar.andi v15 c15_i32
  let c128_i32 : BitVec 32 := 128#32
  let v19 : BitVec 32 := Scalar.muli v18 c128_i32
  let v20 : BitVec 32 := Scalar.addi v17 v19
  v20
def k2_off2 (i : grid2.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let v15 : BitVec 32 := Scalar.addi v2 c0_i32_19
  let c4_i32 : BitVec 32 := 4#32
  let v16 : BitVec 32 := Scalar.shrsi v15 c4_i32
  let c2048_i32 : BitVec 32 := 2048#32
  let v17 : BitVec 32 := Scalar.muli v16 c2048_i32
  let c15_i32 : BitVec 32 := 15#32
  let v18 : BitVec 32 := Scalar.andi v15 c15_i32
  let c128_i32 : BitVec 32 := 128#32
  let v19 : BitVec 32 := Scalar.muli v18 c128_i32
  let v20 : BitVec 32 := Scalar.addi v17 v19
  let v21 : BitVec 32 := v20
  let c0_i32_232_r1 : BitVec 32 := 0#32
  ![v21.toNat, 0]
def k2_mult2 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32_34 : BitVec 32 := 1#32
  let v30 : BitVec 32 := Scalar.addi v2 c1_i32_34
  let c4_i32_35 : BitVec 32 := 4#32
  let v31 : BitVec 32 := Scalar.shrsi v30 c4_i32_35
  let c2048_i32_36 : BitVec 32 := 2048#32
  let v32 : BitVec 32 := Scalar.muli v31 c2048_i32_36
  let c15_i32_37 : BitVec 32 := 15#32
  let v33 : BitVec 32 := Scalar.andi v30 c15_i32_37
  let c128_i32_38 : BitVec 32 := 128#32
  let v34 : BitVec 32 := Scalar.muli v33 c128_i32_38
  let v35 : BitVec 32 := Scalar.addi v32 v34
  v35
def k2_mult3 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c2_i32_52 : BitVec 32 := 2#32
  let v45 : BitVec 32 := Scalar.addi v2 c2_i32_52
  let c4_i32_53 : BitVec 32 := 4#32
  let v46 : BitVec 32 := Scalar.shrsi v45 c4_i32_53
  let c2048_i32_54 : BitVec 32 := 2048#32
  let v47 : BitVec 32 := Scalar.muli v46 c2048_i32_54
  let c15_i32_55 : BitVec 32 := 15#32
  let v48 : BitVec 32 := Scalar.andi v45 c15_i32_55
  let c128_i32_56 : BitVec 32 := 128#32
  let v49 : BitVec 32 := Scalar.muli v48 c128_i32_56
  let v50 : BitVec 32 := Scalar.addi v47 v49
  v50
def k2_mult4 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c3_i32_71 : BitVec 32 := 3#32
  let v60 : BitVec 32 := Scalar.addi v2 c3_i32_71
  let c4_i32_72 : BitVec 32 := 4#32
  let v61 : BitVec 32 := Scalar.shrsi v60 c4_i32_72
  let c2048_i32_73 : BitVec 32 := 2048#32
  let v62 : BitVec 32 := Scalar.muli v61 c2048_i32_73
  let c15_i32_74 : BitVec 32 := 15#32
  let v63 : BitVec 32 := Scalar.andi v60 c15_i32_74
  let c128_i32_75 : BitVec 32 := 128#32
  let v64 : BitVec 32 := Scalar.muli v63 c128_i32_75
  let v65 : BitVec 32 := Scalar.addi v62 v64
  v65
def k2_mult5 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c4_i32_89 : BitVec 32 := 4#32
  let v75 : BitVec 32 := Scalar.addi v2 c4_i32_89
  let c4_i32_90 : BitVec 32 := 4#32
  let v76 : BitVec 32 := Scalar.shrsi v75 c4_i32_90
  let c2048_i32_91 : BitVec 32 := 2048#32
  let v77 : BitVec 32 := Scalar.muli v76 c2048_i32_91
  let c15_i32_92 : BitVec 32 := 15#32
  let v78 : BitVec 32 := Scalar.andi v75 c15_i32_92
  let c128_i32_93 : BitVec 32 := 128#32
  let v79 : BitVec 32 := Scalar.muli v78 c128_i32_93
  let v80 : BitVec 32 := Scalar.addi v77 v79
  v80
def k2_mult6 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c5_i32_107 : BitVec 32 := 5#32
  let v90 : BitVec 32 := Scalar.addi v2 c5_i32_107
  let c4_i32_108 : BitVec 32 := 4#32
  let v91 : BitVec 32 := Scalar.shrsi v90 c4_i32_108
  let c2048_i32_109 : BitVec 32 := 2048#32
  let v92 : BitVec 32 := Scalar.muli v91 c2048_i32_109
  let c15_i32_110 : BitVec 32 := 15#32
  let v93 : BitVec 32 := Scalar.andi v90 c15_i32_110
  let c128_i32_111 : BitVec 32 := 128#32
  let v94 : BitVec 32 := Scalar.muli v93 c128_i32_111
  let v95 : BitVec 32 := Scalar.addi v92 v94
  v95
def k2_mult7 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c6_i32_125 : BitVec 32 := 6#32
  let v105 : BitVec 32 := Scalar.addi v2 c6_i32_125
  let c4_i32_126 : BitVec 32 := 4#32
  let v106 : BitVec 32 := Scalar.shrsi v105 c4_i32_126
  let c2048_i32_127 : BitVec 32 := 2048#32
  let v107 : BitVec 32 := Scalar.muli v106 c2048_i32_127
  let c15_i32_128 : BitVec 32 := 15#32
  let v108 : BitVec 32 := Scalar.andi v105 c15_i32_128
  let c128_i32_129 : BitVec 32 := 128#32
  let v109 : BitVec 32 := Scalar.muli v108 c128_i32_129
  let v110 : BitVec 32 := Scalar.addi v107 v109
  v110
def k2_mult8 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c7_i32_143 : BitVec 32 := 7#32
  let v120 : BitVec 32 := Scalar.addi v2 c7_i32_143
  let c4_i32_144 : BitVec 32 := 4#32
  let v121 : BitVec 32 := Scalar.shrsi v120 c4_i32_144
  let c2048_i32_145 : BitVec 32 := 2048#32
  let v122 : BitVec 32 := Scalar.muli v121 c2048_i32_145
  let c15_i32_146 : BitVec 32 := 15#32
  let v123 : BitVec 32 := Scalar.andi v120 c15_i32_146
  let c128_i32_147 : BitVec 32 := 128#32
  let v124 : BitVec 32 := Scalar.muli v123 c128_i32_147
  let v125 : BitVec 32 := Scalar.addi v122 v124
  v125
def k2_mult9 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c8_i32_161 : BitVec 32 := 8#32
  let v135 : BitVec 32 := Scalar.addi v2 c8_i32_161
  let c4_i32_162 : BitVec 32 := 4#32
  let v136 : BitVec 32 := Scalar.shrsi v135 c4_i32_162
  let c2048_i32_163 : BitVec 32 := 2048#32
  let v137 : BitVec 32 := Scalar.muli v136 c2048_i32_163
  let c15_i32_164 : BitVec 32 := 15#32
  let v138 : BitVec 32 := Scalar.andi v135 c15_i32_164
  let c128_i32_165 : BitVec 32 := 128#32
  let v139 : BitVec 32 := Scalar.muli v138 c128_i32_165
  let v140 : BitVec 32 := Scalar.addi v137 v139
  v140
def k2_mult10 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c9_i32_179 : BitVec 32 := 9#32
  let v150 : BitVec 32 := Scalar.addi v2 c9_i32_179
  let c4_i32_180 : BitVec 32 := 4#32
  let v151 : BitVec 32 := Scalar.shrsi v150 c4_i32_180
  let c2048_i32_181 : BitVec 32 := 2048#32
  let v152 : BitVec 32 := Scalar.muli v151 c2048_i32_181
  let c15_i32_182 : BitVec 32 := 15#32
  let v153 : BitVec 32 := Scalar.andi v150 c15_i32_182
  let c128_i32_183 : BitVec 32 := 128#32
  let v154 : BitVec 32 := Scalar.muli v153 c128_i32_183
  let v155 : BitVec 32 := Scalar.addi v152 v154
  v155
def k2_mult11 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c10_i32_197 : BitVec 32 := 10#32
  let v165 : BitVec 32 := Scalar.addi v2 c10_i32_197
  let c4_i32_198 : BitVec 32 := 4#32
  let v166 : BitVec 32 := Scalar.shrsi v165 c4_i32_198
  let c2048_i32_199 : BitVec 32 := 2048#32
  let v167 : BitVec 32 := Scalar.muli v166 c2048_i32_199
  let c15_i32_200 : BitVec 32 := 15#32
  let v168 : BitVec 32 := Scalar.andi v165 c15_i32_200
  let c128_i32_201 : BitVec 32 := 128#32
  let v169 : BitVec 32 := Scalar.muli v168 c128_i32_201
  let v170 : BitVec 32 := Scalar.addi v167 v169
  v170
def k2_mult12 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c11_i32_215 : BitVec 32 := 11#32
  let v180 : BitVec 32 := Scalar.addi v2 c11_i32_215
  let c4_i32_216 : BitVec 32 := 4#32
  let v181 : BitVec 32 := Scalar.shrsi v180 c4_i32_216
  let c2048_i32_217 : BitVec 32 := 2048#32
  let v182 : BitVec 32 := Scalar.muli v181 c2048_i32_217
  let c15_i32_218 : BitVec 32 := 15#32
  let v183 : BitVec 32 := Scalar.andi v180 c15_i32_218
  let c128_i32_219 : BitVec 32 := 128#32
  let v184 : BitVec 32 := Scalar.muli v183 c128_i32_219
  let v185 : BitVec 32 := Scalar.addi v182 v184
  v185
def k2_mult13 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c12_i32_227 : BitVec 32 := 12#32
  let v191 : BitVec 32 := Scalar.addi v2 c12_i32_227
  let c4_i32_228 : BitVec 32 := 4#32
  let v192 : BitVec 32 := Scalar.shrsi v191 c4_i32_228
  let c2048_i32_229 : BitVec 32 := 2048#32
  let v193 : BitVec 32 := Scalar.muli v192 c2048_i32_229
  let c15_i32_230 : BitVec 32 := 15#32
  let v194 : BitVec 32 := Scalar.andi v191 c15_i32_230
  let c128_i32_231 : BitVec 32 := 128#32
  let v195 : BitVec 32 := Scalar.muli v194 c128_i32_231
  let v196 : BitVec 32 := Scalar.addi v193 v195
  v196
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_13 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_14 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc3_transform_15 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc3_transform_16 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_17 (i : grid3.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc3_transform_18 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_19 (i : grid3.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc3_transform_20 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc3_transform_21 (i : grid3.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![v0.toNat, c0_i32.toNat]

def cc3_transform_22 (i : grid3.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc3_transform_23 (i : grid3.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![v0.toNat, c0_i32.toNat]

def cc3_transform_24 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_25 (i : grid3.Coords) : Fin 2 → Nat :=
  let arg0 : BitVec 32 := BitVec.ofNat 32 (i 0).val
  let c52_i32 : BitVec 32 := 52#32
  let v0 : BitVec 32 := Scalar.addi c52_i32 arg0
  let c0_i32 : BitVec 32 := 0#32
  let c0_i32_0 : BitVec 32 := 0#32
  ![v0.toNat, c0_i32.toNat]

def cc3_transform_26 (i : grid3.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc3_transform_27 (i : grid3.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![v0.toNat, c0_i32.toNat]

def cc3_transform_28 (i : grid3.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc3_transform_29 (i : grid3.Coords) : Fin 2 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  ![v0.toNat, c0_i32.toNat]

def cc3_transform_30 (i : grid3.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![v0.toNat, c0_i32.toNat]

def cc3_transform_31 (i : grid3.Coords) : Fin 2 → Nat :=
  let arg0 : BitVec 32 := BitVec.ofNat 32 (i 0).val
  let c76_i32 : BitVec 32 := 76#32
  let v0 : BitVec 32 := Scalar.addi c76_i32 arg0
  let c0_i32 : BitVec 32 := 0#32
  let c0_i32_0 : BitVec 32 := 0#32
  ![v0.toNat, c0_i32.toNat]

def cc3_transform_32 (i : grid3.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc3_transform_33 (i : grid3.Coords) : Fin 2 → Nat :=
  let arg0 : BitVec 32 := BitVec.ofNat 32 (i 0).val
  let c84_i32 : BitVec 32 := 84#32
  let v0 : BitVec 32 := Scalar.addi c84_i32 arg0
  let c0_i32 : BitVec 32 := 0#32
  let c0_i32_0 : BitVec 32 := 0#32
  ![v0.toNat, c0_i32.toNat]

def cc3_transform_34 (i : grid3.Coords) : Fin 2 → Nat :=
  let arg0 : BitVec 32 := BitVec.ofNat 32 (i 0).val
  let c88_i32 : BitVec 32 := 88#32
  let v0 : BitVec 32 := Scalar.addi c88_i32 arg0
  let c0_i32 : BitVec 32 := 0#32
  let c0_i32_0 : BitVec 32 := 0#32
  ![v0.toNat, c0_i32.toNat]

def cc3_transform_35 (i : grid3.Coords) : Fin 2 → Nat :=
  let arg0 : BitVec 32 := BitVec.ofNat 32 (i 0).val
  let c92_i32 : BitVec 32 := 92#32
  let v0 : BitVec 32 := Scalar.addi c92_i32 arg0
  let c0_i32 : BitVec 32 := 0#32
  let c0_i32_0 : BitVec 32 := 0#32
  ![v0.toNat, c0_i32.toNat]

def cc3_transform_36 (i : grid3.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc3_transform_37 (i : grid3.Coords) : Fin 2 → Nat :=
  let arg0 : BitVec 32 := BitVec.ofNat 32 (i 0).val
  let c100_i32 : BitVec 32 := 100#32
  let v0 : BitVec 32 := Scalar.addi c100_i32 arg0
  let c0_i32 : BitVec 32 := 0#32
  let c0_i32_0 : BitVec 32 := 0#32
  ![v0.toNat, c0_i32.toNat]

def cc3_transform_39 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage3_0 : Fin 2 → Memref sig .tc .vmem S512x143 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x13 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S143x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S13x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3484x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x1 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S512x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S512x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S512x128 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S512x128 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S512x128 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S512x128 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S512x128 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S512x128 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev stage3_21 : Fin 2 → Memref sig .tc .vmem S512x128 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev stage3_22 : Fin 2 → Memref sig .tc .vmem S512x128 .f32 := fun | 0 => Memref.whole cc3_stg22_0 | 1 => Memref.whole cc3_stg22_1 | ⟨_ + 2, h⟩ => absurd h (Nat.not_lt.2 (Nat.le_add_left _ _))
abbrev sem3_22 : Fin 2 → DmaSem sig := fun | 0 => cc3_sem22_0 | 1 => cc3_sem22_1 | ⟨_ + 2, h⟩ => absurd h (Nat.not_lt.2 (Nat.le_add_left _ _))
abbrev reads3_22 : Fin grid3.rank → Bool := ![true]

abbrev stage3_23 : Fin 2 → Memref sig .tc .vmem S512x128 .f32 := fun | 0 => Memref.whole cc3_stg23_0 | 1 => Memref.whole cc3_stg23_1 | ⟨_ + 2, h⟩ => absurd h (Nat.not_lt.2 (Nat.le_add_left _ _))
abbrev sem3_23 : Fin 2 → DmaSem sig := fun | 0 => cc3_sem23_0 | 1 => cc3_sem23_1 | ⟨_ + 2, h⟩ => absurd h (Nat.not_lt.2 (Nat.le_add_left _ _))
abbrev reads3_23 : Fin grid3.rank → Bool := ![true]

abbrev stage3_24 : Fin 2 → Memref sig .tc .vmem S512x128 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true]

abbrev stage3_25 : Fin 2 → Memref sig .tc .vmem S512x128 .f32 := fun | 0 => Memref.whole cc3_stg25_0 | 1 => Memref.whole cc3_stg25_1 | ⟨_ + 2, h⟩ => absurd h (Nat.not_lt.2 (Nat.le_add_left _ _))
abbrev sem3_25 : Fin 2 → DmaSem sig := fun | 0 => cc3_sem25_0 | 1 => cc3_sem25_1 | ⟨_ + 2, h⟩ => absurd h (Nat.not_lt.2 (Nat.le_add_left _ _))
abbrev reads3_25 : Fin grid3.rank → Bool := ![true]

abbrev stage3_26 : Fin 2 → Memref sig .tc .vmem S512x128 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]

abbrev stage3_27 : Fin 2 → Memref sig .tc .vmem S512x128 .f32 := fun | 0 => Memref.whole cc3_stg27_0 | 1 => Memref.whole cc3_stg27_1 | ⟨_ + 2, h⟩ => absurd h (Nat.not_lt.2 (Nat.le_add_left _ _))
abbrev sem3_27 : Fin 2 → DmaSem sig := fun | 0 => cc3_sem27_0 | 1 => cc3_sem27_1 | ⟨_ + 2, h⟩ => absurd h (Nat.not_lt.2 (Nat.le_add_left _ _))
abbrev reads3_27 : Fin grid3.rank → Bool := ![true]

abbrev stage3_28 : Fin 2 → Memref sig .tc .vmem S512x128 .f32 := fun | 0 => Memref.whole cc3_stg28_0 | 1 => Memref.whole cc3_stg28_1 | ⟨_ + 2, h⟩ => absurd h (Nat.not_lt.2 (Nat.le_add_left _ _))
abbrev sem3_28 : Fin 2 → DmaSem sig := fun | 0 => cc3_sem28_0 | 1 => cc3_sem28_1 | ⟨_ + 2, h⟩ => absurd h (Nat.not_lt.2 (Nat.le_add_left _ _))
abbrev reads3_28 : Fin grid3.rank → Bool := ![true]

abbrev stage3_29 : Fin 2 → Memref sig .tc .vmem S512x128 .f32 := fun | 0 => Memref.whole cc3_stg29_0 | 1 => Memref.whole cc3_stg29_1 | ⟨_ + 2, h⟩ => absurd h (Nat.not_lt.2 (Nat.le_add_left _ _))
abbrev sem3_29 : Fin 2 → DmaSem sig := fun | 0 => cc3_sem29_0 | 1 => cc3_sem29_1 | ⟨_ + 2, h⟩ => absurd h (Nat.not_lt.2 (Nat.le_add_left _ _))
abbrev reads3_29 : Fin grid3.rank → Bool := ![true]

abbrev stage3_30 : Fin 2 → Memref sig .tc .vmem S512x128 .f32 := fun | 0 => Memref.whole cc3_stg30_0 | 1 => Memref.whole cc3_stg30_1 | ⟨_ + 2, h⟩ => absurd h (Nat.not_lt.2 (Nat.le_add_left _ _))
abbrev sem3_30 : Fin 2 → DmaSem sig := fun | 0 => cc3_sem30_0 | 1 => cc3_sem30_1 | ⟨_ + 2, h⟩ => absurd h (Nat.not_lt.2 (Nat.le_add_left _ _))
abbrev reads3_30 : Fin grid3.rank → Bool := ![true]

abbrev stage3_31 : Fin 2 → Memref sig .tc .vmem S512x128 .f32 := fun | 0 => Memref.whole cc3_stg31_0 | 1 => Memref.whole cc3_stg31_1 | ⟨_ + 2, h⟩ => absurd h (Nat.not_lt.2 (Nat.le_add_left _ _))
abbrev sem3_31 : Fin 2 → DmaSem sig := fun | 0 => cc3_sem31_0 | 1 => cc3_sem31_1 | ⟨_ + 2, h⟩ => absurd h (Nat.not_lt.2 (Nat.le_add_left _ _))
abbrev reads3_31 : Fin grid3.rank → Bool := ![true]

abbrev stage3_32 : Fin 2 → Memref sig .tc .vmem S512x128 .f32 := fun | 0 => Memref.whole cc3_stg32_0 | 1 => Memref.whole cc3_stg32_1 | ⟨_ + 2, h⟩ => absurd h (Nat.not_lt.2 (Nat.le_add_left _ _))
abbrev sem3_32 : Fin 2 → DmaSem sig := fun | 0 => cc3_sem32_0 | 1 => cc3_sem32_1 | ⟨_ + 2, h⟩ => absurd h (Nat.not_lt.2 (Nat.le_add_left _ _))
abbrev reads3_32 : Fin grid3.rank → Bool := ![true]

abbrev stage3_33 : Fin 2 → Memref sig .tc .vmem S512x128 .f32 := fun | 0 => Memref.whole cc3_stg33_0 | 1 => Memref.whole cc3_stg33_1 | ⟨_ + 2, h⟩ => absurd h (Nat.not_lt.2 (Nat.le_add_left _ _))
abbrev sem3_33 : Fin 2 → DmaSem sig := fun | 0 => cc3_sem33_0 | 1 => cc3_sem33_1 | ⟨_ + 2, h⟩ => absurd h (Nat.not_lt.2 (Nat.le_add_left _ _))
abbrev reads3_33 : Fin grid3.rank → Bool := ![true]

abbrev stage3_34 : Fin 2 → Memref sig .tc .vmem S512x128 .f32 := fun | 0 => Memref.whole cc3_stg34_0 | 1 => Memref.whole cc3_stg34_1 | ⟨_ + 2, h⟩ => absurd h (Nat.not_lt.2 (Nat.le_add_left _ _))
abbrev sem3_34 : Fin 2 → DmaSem sig := fun | 0 => cc3_sem34_0 | 1 => cc3_sem34_1 | ⟨_ + 2, h⟩ => absurd h (Nat.not_lt.2 (Nat.le_add_left _ _))
abbrev reads3_34 : Fin grid3.rank → Bool := ![true]

abbrev stage3_35 : Fin 2 → Memref sig .tc .vmem S512x128 .f32 := fun | 0 => Memref.whole cc3_stg35_0 | 1 => Memref.whole cc3_stg35_1 | ⟨_ + 2, h⟩ => absurd h (Nat.not_lt.2 (Nat.le_add_left _ _))
abbrev sem3_35 : Fin 2 → DmaSem sig := fun | 0 => cc3_sem35_0 | 1 => cc3_sem35_1 | ⟨_ + 2, h⟩ => absurd h (Nat.not_lt.2 (Nat.le_add_left _ _))
abbrev reads3_35 : Fin grid3.rank → Bool := ![true]

abbrev stage3_36 : Fin 2 → Memref sig .tc .vmem S512x128 .f32 := fun | 0 => Memref.whole cc3_stg36_0 | 1 => Memref.whole cc3_stg36_1 | ⟨_ + 2, h⟩ => absurd h (Nat.not_lt.2 (Nat.le_add_left _ _))
abbrev sem3_36 : Fin 2 → DmaSem sig := fun | 0 => cc3_sem36_0 | 1 => cc3_sem36_1 | ⟨_ + 2, h⟩ => absurd h (Nat.not_lt.2 (Nat.le_add_left _ _))
abbrev reads3_36 : Fin grid3.rank → Bool := ![true]

abbrev stage3_37 : Fin 2 → Memref sig .tc .vmem S512x128 .f32 := fun | 0 => Memref.whole cc3_stg37_0 | 1 => Memref.whole cc3_stg37_1 | ⟨_ + 2, h⟩ => absurd h (Nat.not_lt.2 (Nat.le_add_left _ _))
abbrev sem3_37 : Fin 2 → DmaSem sig := fun | 0 => cc3_sem37_0 | 1 => cc3_sem37_1 | ⟨_ + 2, h⟩ => absurd h (Nat.not_lt.2 (Nat.le_add_left _ _))
abbrev reads3_37 : Fin grid3.rank → Bool := ![true]

abbrev stage3_38 : Fin 2 → Memref sig .tc .vmem S512x1 .f32 := fun | 0 => Memref.whole cc3_stg38_0 | 1 => Memref.whole cc3_stg38_1 | ⟨_ + 2, h⟩ => absurd h (Nat.not_lt.2 (Nat.le_add_left _ _))
abbrev sem3_38 : Fin 2 → DmaSem sig := fun | 0 => cc3_sem38_0 | 1 => cc3_sem38_1 | ⟨_ + 2, h⟩ => absurd h (Nat.not_lt.2 (Nat.le_add_left _ _))
abbrev reads3_38 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S26x1000x128_S26000x128 : S26x1000x128.ShapeCasts S26000x128
  bcast_S_S26 : S_.BroadcastsInDim S26 (![] : Fin 0 → Fin S26.rank)
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  shapeCasts_S1_S1x1 : S1.ShapeCasts S1x1
  bitsLt_bf16_f32 : FTy.bits .bf16 < FTy.bits .f32
  shapeCasts_S1024_S1x1024 : S1024.ShapeCasts S1x1024
  shapeCasts_S512_S1x512 : S512.ShapeCasts S1x512
  shapeCasts_S256_S1x256 : S256.ShapeCasts S1x256
  bcast_S_S4096x1 : S_.BroadcastsInDim S4096x1 (![] : Fin 0 → Fin S4096x1.rank)
  slices_S4096x26_S2048x26_0_0 : S4096x26.Slices ![0, 0] S2048x26
  transposes_S2048x26_S26x2048_1_0 : S2048x26.Transposes [1, 0] S26x2048
  shapeCasts_S26x2048_S416x1x128 : S26x2048.ShapeCasts S416x1x128
  shapeCasts_S416x1x128_S32x13x1x128 : S416x1x128.ShapeCasts S32x13x1x128
  squeezes_S1x13x1x128_S13x1x128 : S1x13x1x128.Squeezes S13x1x128
  inb_S128x128_S128x128_0_0 : ∀ a, (![0, 0] : Fin 2 → Nat) a + S128x128.size a ≤ S128x128.size a
  inb_S13x1x128_S1x1x128_0_0_0 : ∀ a, (![0, 0, 0] : Fin 3 → Nat) a + S1x1x128.size a ≤ S13x1x128.size a
  squeezes_S1x1x128_S128 : S1x1x128.Squeezes S128
  inb_S26000x128_S26000x128_0_0 : ∀ a, (![0, 0] : Fin 2 → Nat) a + S26000x128.size a ≤ S26000x128.size a
  gathers_S26000x128_S128x128 : S26000x128.Gathers 0 S128x128
  inb_S13x1x128_S1x1x128_1_0_0 : ∀ a, (![1, 0, 0] : Fin 3 → Nat) a + S1x1x128.size a ≤ S13x1x128.size a
  inb_S13x1x128_S1x1x128_2_0_0 : ∀ a, (![2, 0, 0] : Fin 3 → Nat) a + S1x1x128.size a ≤ S13x1x128.size a
  inb_S13x1x128_S1x1x128_3_0_0 : ∀ a, (![3, 0, 0] : Fin 3 → Nat) a + S1x1x128.size a ≤ S13x1x128.size a
  inb_S13x1x128_S1x1x128_4_0_0 : ∀ a, (![4, 0, 0] : Fin 3 → Nat) a + S1x1x128.size a ≤ S13x1x128.size a
  inb_S13x1x128_S1x1x128_5_0_0 : ∀ a, (![5, 0, 0] : Fin 3 → Nat) a + S1x1x128.size a ≤ S13x1x128.size a
  inb_S13x1x128_S1x1x128_6_0_0 : ∀ a, (![6, 0, 0] : Fin 3 → Nat) a + S1x1x128.size a ≤ S13x1x128.size a
  inb_S13x1x128_S1x1x128_7_0_0 : ∀ a, (![7, 0, 0] : Fin 3 → Nat) a + S1x1x128.size a ≤ S13x1x128.size a
  inb_S13x1x128_S1x1x128_8_0_0 : ∀ a, (![8, 0, 0] : Fin 3 → Nat) a + S1x1x128.size a ≤ S13x1x128.size a
  inb_S13x1x128_S1x1x128_9_0_0 : ∀ a, (![9, 0, 0] : Fin 3 → Nat) a + S1x1x128.size a ≤ S13x1x128.size a
  inb_S13x1x128_S1x1x128_10_0_0 : ∀ a, (![10, 0, 0] : Fin 3 → Nat) a + S1x1x128.size a ≤ S13x1x128.size a
  inb_S13x1x128_S1x1x128_11_0_0 : ∀ a, (![11, 0, 0] : Fin 3 → Nat) a + S1x1x128.size a ≤ S13x1x128.size a
  inb_S13x1x128_S1x1x128_12_0_0 : ∀ a, (![12, 0, 0] : Fin 3 → Nat) a + S1x1x128.size a ≤ S13x1x128.size a
  slices_S4096x143_S2048x143_0_0 : S4096x143.Slices ![0, 0] S2048x143
  slices_S4096x13_S2048x13_0_0 : S4096x13.Slices ![0, 0] S2048x13
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  inb_S512x143_S512x143_0_0 : ∀ a, (![0, 0] : Fin 2 → Nat) a + S512x143.size a ≤ S512x143.size a
  h_S512x143 : 0 < S512x143.numel
  shapeCasts_S512x143_S512x143 : S512x143.ShapeCasts S512x143
  inb_S512x13_S512x13_0_0 : ∀ a, (![0, 0] : Fin 2 → Nat) a + S512x13.size a ≤ S512x13.size a
  h_S512x13 : 0 < S512x13.numel
  shapeCasts_S512x13_S512x13 : S512x13.ShapeCasts S512x13
  inb_S143x1_S143x1_0_0 : ∀ a, (![0, 0] : Fin 2 → Nat) a + S143x1.size a ≤ S143x1.size a
  h_S143x1 : 0 < S143x1.numel
  inb_S13x1_S13x1_0_0 : ∀ a, (![0, 0] : Fin 2 → Nat) a + S13x1.size a ≤ S13x1.size a
  h_S13x1 : 0 < S13x1.numel
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x3328 1
  inb_S3484x1024_S143x1024_0_0 : ∀ a, (![0, 0] : Fin 2 → Nat) a + S143x1024.size a ≤ S3484x1024.size a
  h_S143x1024 : 0 < S143x1024.numel
  shapeCasts_S143x1024_S143x1024 : S143x1024.ShapeCasts S143x1024
  inb_S3484x1024_S13x1024_143_0 : ∀ a, (![143, 0] : Fin 2 → Nat) a + S13x1024.size a ≤ S3484x1024.size a
  h_S13x1024 : 0 < S13x1024.numel
  shapeCasts_S13x1024_S13x1024 : S13x1024.ShapeCasts S13x1024
  inb_S3484x1024_S3328x1024_156_0 : ∀ a, (![156, 0] : Fin 2 → Nat) a + S3328x1024.size a ≤ S3484x1024.size a
  h_S3328x1024 : 0 < S3328x1024.numel
  shapeCasts_S3328x1024_S3328x1024 : S3328x1024.ShapeCasts S3328x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  slices_S4096x26_S2048x26_2048_0 : S4096x26.Slices ![2048, 0] S2048x26
  slices_S4096x143_S2048x143_2048_0 : S4096x143.Slices ![2048, 0] S2048x143
  slices_S4096x13_S2048x13_2048_0 : S4096x13.Slices ![2048, 0] S2048x13
  dot_S512x143_S143x1_S512x1_1_0_0_1_n_n_wf : DotDims.WF S512x143 S143x1 S512x1 [1] [0] [0] [1] [] []
  dot_S512x13_S13x1_S512x1_1_0_0_1_n_n_wf : DotDims.WF S512x13 S13x1 S512x1 [1] [0] [0] [1] [] []
  dot_S512x143_S143x1024_S512x1024_1_0_0_1_n_n_wf : DotDims.WF S512x143 S143x1024 S512x1024 [1] [0] [0] [1] [] []
  dot_S512x13_S13x1024_S512x1024_1_0_0_1_n_n_wf : DotDims.WF S512x13 S13x1024 S512x1024 [1] [0] [0] [1] [] []
  dot_S512x3328_S3328x1024_S512x1024_1_0_0_1_n_n_wf : DotDims.WF S512x3328 S3328x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S512x256_S256x1_S512x1_1_0_0_1_n_n_wf : DotDims.WF S512x256 S256x1 S512x1 [1] [0] [0] [1] [] []
  hcc0_scratch3 : 0 + S_.numel ≤ 168
  hcc0_scratch4 : 1 + S_.numel ≤ 168
  hcc0_scoped0 : 2 + S_.numel ≤ 168
  hcc0_scoped1 : 3 + S_.numel ≤ 168
  hcc0_scoped2 : 4 + S_.numel ≤ 168
  hcc0_scoped3 : 5 + S_.numel ≤ 168
  hcc0_scoped4 : 6 + S_.numel ≤ 168
  hcc0_scoped5 : 7 + S_.numel ≤ 168
  hcc0_scoped6 : 8 + S_.numel ≤ 168
  hcc0_scoped7 : 9 + S_.numel ≤ 168
  hcc0_scoped8 : 10 + S_.numel ≤ 168
  hcc0_scoped9 : 11 + S_.numel ≤ 168
  hcc0_scoped10 : 12 + S_.numel ≤ 168
  hcc0_scoped11 : 13 + S_.numel ≤ 168
  hcc0_scoped12 : 14 + S_.numel ≤ 168
  hcc0_scoped13 : 15 + S_.numel ≤ 168
  hcc2_scratch3 : 84 + S_.numel ≤ 168
  hcc2_scratch4 : 85 + S_.numel ≤ 168
  hcc2_scoped0 : 86 + S_.numel ≤ 168
  hcc2_scoped1 : 87 + S_.numel ≤ 168
  hcc2_scoped2 : 88 + S_.numel ≤ 168
  hcc2_scoped3 : 89 + S_.numel ≤ 168
  hcc2_scoped4 : 90 + S_.numel ≤ 168
  hcc2_scoped5 : 91 + S_.numel ≤ 168
  hcc2_scoped6 : 92 + S_.numel ≤ 168
  hcc2_scoped7 : 93 + S_.numel ≤ 168
  hcc2_scoped8 : 94 + S_.numel ≤ 168
  hcc2_scoped9 : 95 + S_.numel ≤ 168
  hcc2_scoped10 : 96 + S_.numel ≤ 168
  hcc2_scoped11 : 97 + S_.numel ≤ 168
  hcc2_scoped12 : 98 + S_.numel ≤ 168
  hcc2_scoped13 : 99 + S_.numel ≤ 168
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x13x1x128.size a ≤ S32x13x1x128.size a
  k0_mult1_dvd : ∀ i : grid0.Coords, 128 ∣ (k0_mult1 i).toNat
  k0_off2_inb : ∀ i : grid0.Coords, ∀ (r : Fin 13), ∀ a, (k0_off2 i (BitVec.ofNat 32 r.val)) a + S128x128.size a ≤ S53248x128.size a
  k0_mult2_dvd : ∀ i : grid0.Coords, 128 ∣ (k0_mult2 i).toNat
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  k0_mult10_dvd : ∀ i : grid0.Coords, 128 ∣ (k0_mult10 i).toNat
  k0_mult11_dvd : ∀ i : grid0.Coords, 128 ∣ (k0_mult11 i).toNat
  k0_mult12_dvd : ∀ i : grid0.Coords, 128 ∣ (k0_mult12 i).toNat
  k0_mult13_dvd : ∀ i : grid0.Coords, 128 ∣ (k0_mult13 i).toNat
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x143.size a ≤ S2048x143.size a
  hwx1_0 : ∀ i : grid1.Coords, EltTy.bits .f32 = 32 ∨ (Rect.block (s := S2048x143) S512x143.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x13.size a ≤ S2048x13.size a
  hwx1_1 : ∀ i : grid1.Coords, EltTy.bits .f32 = 32 ∨ (Rect.block (s := S2048x13) S512x13.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S143x1.size a ≤ S143x1.size a
  hwx1_2 : ∀ i : grid1.Coords, EltTy.bits .f32 = 32 ∨ (Rect.block (s := S143x1) S143x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S13x1.size a ≤ S13x1.size a
  hwx1_3 : ∀ i : grid1.Coords, EltTy.bits .f32 = 32 ∨ (Rect.block (s := S13x1) S13x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3484x1024.size a ≤ S3484x1024.size a
  hwx1_4 : ∀ i : grid1.Coords, EltTy.bits .bf16 = 32 ∨ (Rect.block (s := S3484x1024) S3484x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x512.size a
  hwx1_6 : ∀ i : grid1.Coords, EltTy.bits .bf16 = 32 ∨ (Rect.block (s := S1024x512) S1024x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S512x256.size a
  hwx1_8 : ∀ i : grid1.Coords, EltTy.bits .bf16 = 32 ∨ (Rect.block (s := S512x256) S512x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x1.size a ≤ S256x1.size a
  hwx1_10 : ∀ i : grid1.Coords, EltTy.bits .bf16 = 32 ∨ (Rect.block (s := S256x1) S256x1.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x128.size a ≤ S53248x128.size a
  hwx1_12 : ∀ i : grid1.Coords, EltTy.bits .f32 = 32 ∨ (Rect.block (s := S53248x128) S512x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S512x128.size a ≤ S53248x128.size a
  hwx1_13 : ∀ i : grid1.Coords, EltTy.bits .f32 = 32 ∨ (Rect.block (s := S53248x128) S512x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S512x128.size a ≤ S53248x128.size a
  hwx1_14 : ∀ i : grid1.Coords, EltTy.bits .f32 = 32 ∨ (Rect.block (s := S53248x128) S512x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S512x128.size a ≤ S53248x128.size a
  hwx1_15 : ∀ i : grid1.Coords, EltTy.bits .f32 = 32 ∨ (Rect.block (s := S53248x128) S512x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x128.size a ≤ S53248x128.size a
  hwx1_16 : ∀ i : grid1.Coords, EltTy.bits .f32 = 32 ∨ (Rect.block (s := S53248x128) S512x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S512x128.size a ≤ S53248x128.size a
  hwx1_17 : ∀ i : grid1.Coords, EltTy.bits .f32 = 32 ∨ (Rect.block (s := S53248x128) S512x128.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S512x128.size a ≤ S53248x128.size a
  hwx1_18 : ∀ i : grid1.Coords, EltTy.bits .f32 = 32 ∨ (Rect.block (s := S53248x128) S512x128.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x128.size a ≤ S53248x128.size a
  hwx1_19 : ∀ i : grid1.Coords, EltTy.bits .f32 = 32 ∨ (Rect.block (s := S53248x128) S512x128.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S512x128.size a ≤ S53248x128.size a
  hwx1_20 : ∀ i : grid1.Coords, EltTy.bits .f32 = 32 ∨ (Rect.block (s := S53248x128) S512x128.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S512x128.size a ≤ S53248x128.size a
  hwx1_21 : ∀ i : grid1.Coords, EltTy.bits .f32 = 32 ∨ (Rect.block (s := S53248x128) S512x128.size (cc1_transform_21 i) (hinb1_21 i)).WholeWords (EltTy.packing .f32)
  hstage1_22 : ∀ j, (stage1_22 j).IsWhole
  nbuf1_22 : grid1.bufCount reads1_22 false = 2
  hreads1_22 : ∀ i i' : grid1.Coords, (∀ a, reads1_22 a = true → i a = i' a) → cc1_transform_22 i = cc1_transform_22 i'
  hinb1_22 : ∀ (i : grid1.Coords) a, (cc1_transform_22 i a + 1) * S512x128.size a ≤ S53248x128.size a
  hwx1_22 : ∀ i : grid1.Coords, EltTy.bits .f32 = 32 ∨ (Rect.block (s := S53248x128) S512x128.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S512x128.size a ≤ S53248x128.size a
  hwx1_23 : ∀ i : grid1.Coords, EltTy.bits .f32 = 32 ∨ (Rect.block (s := S53248x128) S512x128.size (cc1_transform_23 i) (hinb1_23 i)).WholeWords (EltTy.packing .f32)
  hstage1_24 : ∀ j, (stage1_24 j).IsWhole
  nbuf1_24 : grid1.bufCount reads1_24 false = 2
  hreads1_24 : ∀ i i' : grid1.Coords, (∀ a, reads1_24 a = true → i a = i' a) → cc1_transform_24 i = cc1_transform_24 i'
  hinb1_24 : ∀ (i : grid1.Coords) a, (cc1_transform_24 i a + 1) * S512x128.size a ≤ S53248x128.size a
  hwx1_24 : ∀ i : grid1.Coords, EltTy.bits .f32 = 32 ∨ (Rect.block (s := S53248x128) S512x128.size (cc1_transform_24 i) (hinb1_24 i)).WholeWords (EltTy.packing .f32)
  hstage1_25 : ∀ j, (stage1_25 j).IsWhole
  nbuf1_25 : grid1.bufCount reads1_25 false = 2
  hreads1_25 : ∀ i i' : grid1.Coords, (∀ a, reads1_25 a = true → i a = i' a) → cc1_transform_25 i = cc1_transform_25 i'
  hinb1_25 : ∀ (i : grid1.Coords) a, (cc1_transform_25 i a + 1) * S512x128.size a ≤ S53248x128.size a
  hwx1_25 : ∀ i : grid1.Coords, EltTy.bits .f32 = 32 ∨ (Rect.block (s := S53248x128) S512x128.size (cc1_transform_25 i) (hinb1_25 i)).WholeWords (EltTy.packing .f32)
  hstage1_26 : ∀ j, (stage1_26 j).IsWhole
  nbuf1_26 : grid1.bufCount reads1_26 false = 2
  hreads1_26 : ∀ i i' : grid1.Coords, (∀ a, reads1_26 a = true → i a = i' a) → cc1_transform_26 i = cc1_transform_26 i'
  hinb1_26 : ∀ (i : grid1.Coords) a, (cc1_transform_26 i a + 1) * S512x128.size a ≤ S53248x128.size a
  hwx1_26 : ∀ i : grid1.Coords, EltTy.bits .f32 = 32 ∨ (Rect.block (s := S53248x128) S512x128.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S512x128.size a ≤ S53248x128.size a
  hwx1_27 : ∀ i : grid1.Coords, EltTy.bits .f32 = 32 ∨ (Rect.block (s := S53248x128) S512x128.size (cc1_transform_27 i) (hinb1_27 i)).WholeWords (EltTy.packing .f32)
  hstage1_28 : ∀ j, (stage1_28 j).IsWhole
  nbuf1_28 : grid1.bufCount reads1_28 false = 2
  hreads1_28 : ∀ i i' : grid1.Coords, (∀ a, reads1_28 a = true → i a = i' a) → cc1_transform_28 i = cc1_transform_28 i'
  hinb1_28 : ∀ (i : grid1.Coords) a, (cc1_transform_28 i a + 1) * S512x128.size a ≤ S53248x128.size a
  hwx1_28 : ∀ i : grid1.Coords, EltTy.bits .f32 = 32 ∨ (Rect.block (s := S53248x128) S512x128.size (cc1_transform_28 i) (hinb1_28 i)).WholeWords (EltTy.packing .f32)
  hstage1_29 : ∀ j, (stage1_29 j).IsWhole
  nbuf1_29 : grid1.bufCount reads1_29 false = 2
  hreads1_29 : ∀ i i' : grid1.Coords, (∀ a, reads1_29 a = true → i a = i' a) → cc1_transform_29 i = cc1_transform_29 i'
  hinb1_29 : ∀ (i : grid1.Coords) a, (cc1_transform_29 i a + 1) * S512x128.size a ≤ S53248x128.size a
  hwx1_29 : ∀ i : grid1.Coords, EltTy.bits .f32 = 32 ∨ (Rect.block (s := S53248x128) S512x128.size (cc1_transform_29 i) (hinb1_29 i)).WholeWords (EltTy.packing .f32)
  hstage1_30 : ∀ j, (stage1_30 j).IsWhole
  nbuf1_30 : grid1.bufCount reads1_30 false = 2
  hreads1_30 : ∀ i i' : grid1.Coords, (∀ a, reads1_30 a = true → i a = i' a) → cc1_transform_30 i = cc1_transform_30 i'
  hinb1_30 : ∀ (i : grid1.Coords) a, (cc1_transform_30 i a + 1) * S512x128.size a ≤ S53248x128.size a
  hwx1_30 : ∀ i : grid1.Coords, EltTy.bits .f32 = 32 ∨ (Rect.block (s := S53248x128) S512x128.size (cc1_transform_30 i) (hinb1_30 i)).WholeWords (EltTy.packing .f32)
  hstage1_31 : ∀ j, (stage1_31 j).IsWhole
  nbuf1_31 : grid1.bufCount reads1_31 false = 2
  hreads1_31 : ∀ i i' : grid1.Coords, (∀ a, reads1_31 a = true → i a = i' a) → cc1_transform_31 i = cc1_transform_31 i'
  hinb1_31 : ∀ (i : grid1.Coords) a, (cc1_transform_31 i a + 1) * S512x128.size a ≤ S53248x128.size a
  hwx1_31 : ∀ i : grid1.Coords, EltTy.bits .f32 = 32 ∨ (Rect.block (s := S53248x128) S512x128.size (cc1_transform_31 i) (hinb1_31 i)).WholeWords (EltTy.packing .f32)
  hstage1_32 : ∀ j, (stage1_32 j).IsWhole
  nbuf1_32 : grid1.bufCount reads1_32 false = 2
  hreads1_32 : ∀ i i' : grid1.Coords, (∀ a, reads1_32 a = true → i a = i' a) → cc1_transform_32 i = cc1_transform_32 i'
  hinb1_32 : ∀ (i : grid1.Coords) a, (cc1_transform_32 i a + 1) * S512x128.size a ≤ S53248x128.size a
  hwx1_32 : ∀ i : grid1.Coords, EltTy.bits .f32 = 32 ∨ (Rect.block (s := S53248x128) S512x128.size (cc1_transform_32 i) (hinb1_32 i)).WholeWords (EltTy.packing .f32)
  hstage1_33 : ∀ j, (stage1_33 j).IsWhole
  nbuf1_33 : grid1.bufCount reads1_33 false = 2
  hreads1_33 : ∀ i i' : grid1.Coords, (∀ a, reads1_33 a = true → i a = i' a) → cc1_transform_33 i = cc1_transform_33 i'
  hinb1_33 : ∀ (i : grid1.Coords) a, (cc1_transform_33 i a + 1) * S512x128.size a ≤ S53248x128.size a
  hwx1_33 : ∀ i : grid1.Coords, EltTy.bits .f32 = 32 ∨ (Rect.block (s := S53248x128) S512x128.size (cc1_transform_33 i) (hinb1_33 i)).WholeWords (EltTy.packing .f32)
  hstage1_34 : ∀ j, (stage1_34 j).IsWhole
  nbuf1_34 : grid1.bufCount reads1_34 false = 2
  hreads1_34 : ∀ i i' : grid1.Coords, (∀ a, reads1_34 a = true → i a = i' a) → cc1_transform_34 i = cc1_transform_34 i'
  hinb1_34 : ∀ (i : grid1.Coords) a, (cc1_transform_34 i a + 1) * S512x128.size a ≤ S53248x128.size a
  hwx1_34 : ∀ i : grid1.Coords, EltTy.bits .f32 = 32 ∨ (Rect.block (s := S53248x128) S512x128.size (cc1_transform_34 i) (hinb1_34 i)).WholeWords (EltTy.packing .f32)
  hstage1_35 : ∀ j, (stage1_35 j).IsWhole
  nbuf1_35 : grid1.bufCount reads1_35 false = 2
  hreads1_35 : ∀ i i' : grid1.Coords, (∀ a, reads1_35 a = true → i a = i' a) → cc1_transform_35 i = cc1_transform_35 i'
  hinb1_35 : ∀ (i : grid1.Coords) a, (cc1_transform_35 i a + 1) * S512x128.size a ≤ S53248x128.size a
  hwx1_35 : ∀ i : grid1.Coords, EltTy.bits .f32 = 32 ∨ (Rect.block (s := S53248x128) S512x128.size (cc1_transform_35 i) (hinb1_35 i)).WholeWords (EltTy.packing .f32)
  hstage1_36 : ∀ j, (stage1_36 j).IsWhole
  nbuf1_36 : grid1.bufCount reads1_36 false = 2
  hreads1_36 : ∀ i i' : grid1.Coords, (∀ a, reads1_36 a = true → i a = i' a) → cc1_transform_36 i = cc1_transform_36 i'
  hinb1_36 : ∀ (i : grid1.Coords) a, (cc1_transform_36 i a + 1) * S512x128.size a ≤ S53248x128.size a
  hwx1_36 : ∀ i : grid1.Coords, EltTy.bits .f32 = 32 ∨ (Rect.block (s := S53248x128) S512x128.size (cc1_transform_36 i) (hinb1_36 i)).WholeWords (EltTy.packing .f32)
  hstage1_37 : ∀ j, (stage1_37 j).IsWhole
  nbuf1_37 : grid1.bufCount reads1_37 false = 2
  hreads1_37 : ∀ i i' : grid1.Coords, (∀ a, reads1_37 a = true → i a = i' a) → cc1_transform_37 i = cc1_transform_37 i'
  hinb1_37 : ∀ (i : grid1.Coords) a, (cc1_transform_37 i a + 1) * S512x128.size a ≤ S53248x128.size a
  hwx1_37 : ∀ i : grid1.Coords, EltTy.bits .f32 = 32 ∨ (Rect.block (s := S53248x128) S512x128.size (cc1_transform_37 i) (hinb1_37 i)).WholeWords (EltTy.packing .f32)
  hstage1_38 : ∀ j, (stage1_38 j).IsWhole
  nbuf1_38 : grid1.bufCount reads1_38 false = 2
  hreads1_38 : ∀ i i' : grid1.Coords, (∀ a, reads1_38 a = true → i a = i' a) → cc1_transform_39 i = cc1_transform_39 i'
  hinb1_38 : ∀ (i : grid1.Coords) a, (cc1_transform_39 i a + 1) * S512x1.size a ≤ S4096x1.size a
  hwx1_38 : ∀ i : grid1.Coords, EltTy.bits .f32 = 32 ∨ (Rect.block (s := S4096x1) S512x1.size (cc1_transform_39 i) (hinb1_38 i)).WholeWords (EltTy.packing .f32)
  hcore2 : grid2.bound 0 ≤ τ.nSC
  hsub2 : grid2.bound 1 ≤ τ.nSub
  k2_off1_inb : ∀ i : grid2.Coords, ∀ a, (k2_off1 i) a + S1x13x1x128.size a ≤ S32x13x1x128.size a
  k2_mult1_dvd : ∀ i : grid2.Coords, 128 ∣ (k2_mult1 i).toNat
  k2_off2_inb : ∀ i : grid2.Coords, ∀ (r : Fin 13), ∀ a, (k2_off2 i (BitVec.ofNat 32 r.val)) a + S128x128.size a ≤ S53248x128.size a
  k2_mult2_dvd : ∀ i : grid2.Coords, 128 ∣ (k2_mult2 i).toNat
  k2_mult3_dvd : ∀ i : grid2.Coords, 128 ∣ (k2_mult3 i).toNat
  k2_mult4_dvd : ∀ i : grid2.Coords, 128 ∣ (k2_mult4 i).toNat
  k2_mult5_dvd : ∀ i : grid2.Coords, 128 ∣ (k2_mult5 i).toNat
  k2_mult6_dvd : ∀ i : grid2.Coords, 128 ∣ (k2_mult6 i).toNat
  k2_mult7_dvd : ∀ i : grid2.Coords, 128 ∣ (k2_mult7 i).toNat
  k2_mult8_dvd : ∀ i : grid2.Coords, 128 ∣ (k2_mult8 i).toNat
  k2_mult9_dvd : ∀ i : grid2.Coords, 128 ∣ (k2_mult9 i).toNat
  k2_mult10_dvd : ∀ i : grid2.Coords, 128 ∣ (k2_mult10 i).toNat
  k2_mult11_dvd : ∀ i : grid2.Coords, 128 ∣ (k2_mult11 i).toNat
  k2_mult12_dvd : ∀ i : grid2.Coords, 128 ∣ (k2_mult12 i).toNat
  k2_mult13_dvd : ∀ i : grid2.Coords, 128 ∣ (k2_mult13 i).toNat
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x143.size a ≤ S2048x143.size a
  hwx3_0 : ∀ i : grid3.Coords, EltTy.bits .f32 = 32 ∨ (Rect.block (s := S2048x143) S512x143.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x13.size a ≤ S2048x13.size a
  hwx3_1 : ∀ i : grid3.Coords, EltTy.bits .f32 = 32 ∨ (Rect.block (s := S2048x13) S512x13.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S143x1.size a ≤ S143x1.size a
  hwx3_2 : ∀ i : grid3.Coords, EltTy.bits .f32 = 32 ∨ (Rect.block (s := S143x1) S143x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S13x1.size a ≤ S13x1.size a
  hwx3_3 : ∀ i : grid3.Coords, EltTy.bits .f32 = 32 ∨ (Rect.block (s := S13x1) S13x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3484x1024.size a ≤ S3484x1024.size a
  hwx3_4 : ∀ i : grid3.Coords, EltTy.bits .bf16 = 32 ∨ (Rect.block (s := S3484x1024) S3484x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S1024x512.size a
  hwx3_6 : ∀ i : grid3.Coords, EltTy.bits .bf16 = 32 ∨ (Rect.block (s := S1024x512) S1024x512.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x256.size a ≤ S512x256.size a
  hwx3_8 : ∀ i : grid3.Coords, EltTy.bits .bf16 = 32 ∨ (Rect.block (s := S512x256) S512x256.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S256x1.size a ≤ S256x1.size a
  hwx3_10 : ∀ i : grid3.Coords, EltTy.bits .bf16 = 32 ∨ (Rect.block (s := S256x1) S256x1.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x1.size a ≤ S1x1.size a
  hwx3_11 : ∀ i : grid3.Coords, EltTy.bits .f32 = 32 ∨ (Rect.block (s := S1x1) S1x1.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S512x128.size a ≤ S53248x128.size a
  hwx3_12 : ∀ i : grid3.Coords, EltTy.bits .f32 = 32 ∨ (Rect.block (s := S53248x128) S512x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S512x128.size a ≤ S53248x128.size a
  hwx3_13 : ∀ i : grid3.Coords, EltTy.bits .f32 = 32 ∨ (Rect.block (s := S53248x128) S512x128.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S512x128.size a ≤ S53248x128.size a
  hwx3_14 : ∀ i : grid3.Coords, EltTy.bits .f32 = 32 ∨ (Rect.block (s := S53248x128) S512x128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S512x128.size a ≤ S53248x128.size a
  hwx3_15 : ∀ i : grid3.Coords, EltTy.bits .f32 = 32 ∨ (Rect.block (s := S53248x128) S512x128.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S512x128.size a ≤ S53248x128.size a
  hwx3_16 : ∀ i : grid3.Coords, EltTy.bits .f32 = 32 ∨ (Rect.block (s := S53248x128) S512x128.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S512x128.size a ≤ S53248x128.size a
  hwx3_17 : ∀ i : grid3.Coords, EltTy.bits .f32 = 32 ∨ (Rect.block (s := S53248x128) S512x128.size (cc3_transform_17 i) (hinb3_17 i)).WholeWords (EltTy.packing .f32)
  hstage3_18 : ∀ j, (stage3_18 j).IsWhole
  nbuf3_18 : grid3.bufCount reads3_18 false = 2
  hreads3_18 : ∀ i i' : grid3.Coords, (∀ a, reads3_18 a = true → i a = i' a) → cc3_transform_18 i = cc3_transform_18 i'
  hinb3_18 : ∀ (i : grid3.Coords) a, (cc3_transform_18 i a + 1) * S512x128.size a ≤ S53248x128.size a
  hwx3_18 : ∀ i : grid3.Coords, EltTy.bits .f32 = 32 ∨ (Rect.block (s := S53248x128) S512x128.size (cc3_transform_18 i) (hinb3_18 i)).WholeWords (EltTy.packing .f32)
  hstage3_19 : ∀ j, (stage3_19 j).IsWhole
  nbuf3_19 : grid3.bufCount reads3_19 false = 2
  hreads3_19 : ∀ i i' : grid3.Coords, (∀ a, reads3_19 a = true → i a = i' a) → cc3_transform_19 i = cc3_transform_19 i'
  hinb3_19 : ∀ (i : grid3.Coords) a, (cc3_transform_19 i a + 1) * S512x128.size a ≤ S53248x128.size a
  hwx3_19 : ∀ i : grid3.Coords, EltTy.bits .f32 = 32 ∨ (Rect.block (s := S53248x128) S512x128.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S512x128.size a ≤ S53248x128.size a
  hwx3_20 : ∀ i : grid3.Coords, EltTy.bits .f32 = 32 ∨ (Rect.block (s := S53248x128) S512x128.size (cc3_transform_20 i) (hinb3_20 i)).WholeWords (EltTy.packing .f32)
  hstage3_21 : ∀ j, (stage3_21 j).IsWhole
  nbuf3_21 : grid3.bufCount reads3_21 false = 2
  hreads3_21 : ∀ i i' : grid3.Coords, (∀ a, reads3_21 a = true → i a = i' a) → cc3_transform_21 i = cc3_transform_21 i'
  hinb3_21 : ∀ (i : grid3.Coords) a, (cc3_transform_21 i a + 1) * S512x128.size a ≤ S53248x128.size a
  hwx3_21 : ∀ i : grid3.Coords, EltTy.bits .f32 = 32 ∨ (Rect.block (s := S53248x128) S512x128.size (cc3_transform_21 i) (hinb3_21 i)).WholeWords (EltTy.packing .f32)
  hstage3_22 : ∀ j, (stage3_22 j).IsWhole
  nbuf3_22 : grid3.bufCount reads3_22 false = 2
  hreads3_22 : ∀ i i' : grid3.Coords, (∀ a, reads3_22 a = true → i a = i' a) → cc3_transform_22 i = cc3_transform_22 i'
  hinb3_22 : ∀ (i : grid3.Coords) a, (cc3_transform_22 i a + 1) * S512x128.size a ≤ S53248x128.size a
  hwx3_22 : ∀ i : grid3.Coords, EltTy.bits .f32 = 32 ∨ (Rect.block (s := S53248x128) S512x128.size (cc3_transform_22 i) (hinb3_22 i)).WholeWords (EltTy.packing .f32)
  hstage3_23 : ∀ j, (stage3_23 j).IsWhole
  nbuf3_23 : grid3.bufCount reads3_23 false = 2
  hreads3_23 : ∀ i i' : grid3.Coords, (∀ a, reads3_23 a = true → i a = i' a) → cc3_transform_23 i = cc3_transform_23 i'
  hinb3_23 : ∀ (i : grid3.Coords) a, (cc3_transform_23 i a + 1) * S512x128.size a ≤ S53248x128.size a
  hwx3_23 : ∀ i : grid3.Coords, EltTy.bits .f32 = 32 ∨ (Rect.block (s := S53248x128) S512x128.size (cc3_transform_23 i) (hinb3_23 i)).WholeWords (EltTy.packing .f32)
  hstage3_24 : ∀ j, (stage3_24 j).IsWhole
  nbuf3_24 : grid3.bufCount reads3_24 false = 2
  hreads3_24 : ∀ i i' : grid3.Coords, (∀ a, reads3_24 a = true → i a = i' a) → cc3_transform_24 i = cc3_transform_24 i'
  hinb3_24 : ∀ (i : grid3.Coords) a, (cc3_transform_24 i a + 1) * S512x128.size a ≤ S53248x128.size a
  hwx3_24 : ∀ i : grid3.Coords, EltTy.bits .f32 = 32 ∨ (Rect.block (s := S53248x128) S512x128.size (cc3_transform_24 i) (hinb3_24 i)).WholeWords (EltTy.packing .f32)
  hstage3_25 : ∀ j, (stage3_25 j).IsWhole
  nbuf3_25 : grid3.bufCount reads3_25 false = 2
  hreads3_25 : ∀ i i' : grid3.Coords, (∀ a, reads3_25 a = true → i a = i' a) → cc3_transform_25 i = cc3_transform_25 i'
  hinb3_25 : ∀ (i : grid3.Coords) a, (cc3_transform_25 i a + 1) * S512x128.size a ≤ S53248x128.size a
  hwx3_25 : ∀ i : grid3.Coords, EltTy.bits .f32 = 32 ∨ (Rect.block (s := S53248x128) S512x128.size (cc3_transform_25 i) (hinb3_25 i)).WholeWords (EltTy.packing .f32)
  hstage3_26 : ∀ j, (stage3_26 j).IsWhole
  nbuf3_26 : grid3.bufCount reads3_26 false = 2
  hreads3_26 : ∀ i i' : grid3.Coords, (∀ a, reads3_26 a = true → i a = i' a) → cc3_transform_26 i = cc3_transform_26 i'
  hinb3_26 : ∀ (i : grid3.Coords) a, (cc3_transform_26 i a + 1) * S512x128.size a ≤ S53248x128.size a
  hwx3_26 : ∀ i : grid3.Coords, EltTy.bits .f32 = 32 ∨ (Rect.block (s := S53248x128) S512x128.size (cc3_transform_26 i) (hinb3_26 i)).WholeWords (EltTy.packing .f32)
  hstage3_27 : ∀ j, (stage3_27 j).IsWhole
  nbuf3_27 : grid3.bufCount reads3_27 false = 2
  hreads3_27 : ∀ i i' : grid3.Coords, (∀ a, reads3_27 a = true → i a = i' a) → cc3_transform_27 i = cc3_transform_27 i'
  hinb3_27 : ∀ (i : grid3.Coords) a, (cc3_transform_27 i a + 1) * S512x128.size a ≤ S53248x128.size a
  hwx3_27 : ∀ i : grid3.Coords, EltTy.bits .f32 = 32 ∨ (Rect.block (s := S53248x128) S512x128.size (cc3_transform_27 i) (hinb3_27 i)).WholeWords (EltTy.packing .f32)
  hstage3_28 : ∀ j, (stage3_28 j).IsWhole
  nbuf3_28 : grid3.bufCount reads3_28 false = 2
  hreads3_28 : ∀ i i' : grid3.Coords, (∀ a, reads3_28 a = true → i a = i' a) → cc3_transform_28 i = cc3_transform_28 i'
  hinb3_28 : ∀ (i : grid3.Coords) a, (cc3_transform_28 i a + 1) * S512x128.size a ≤ S53248x128.size a
  hwx3_28 : ∀ i : grid3.Coords, EltTy.bits .f32 = 32 ∨ (Rect.block (s := S53248x128) S512x128.size (cc3_transform_28 i) (hinb3_28 i)).WholeWords (EltTy.packing .f32)
  hstage3_29 : ∀ j, (stage3_29 j).IsWhole
  nbuf3_29 : grid3.bufCount reads3_29 false = 2
  hreads3_29 : ∀ i i' : grid3.Coords, (∀ a, reads3_29 a = true → i a = i' a) → cc3_transform_29 i = cc3_transform_29 i'
  hinb3_29 : ∀ (i : grid3.Coords) a, (cc3_transform_29 i a + 1) * S512x128.size a ≤ S53248x128.size a
  hwx3_29 : ∀ i : grid3.Coords, EltTy.bits .f32 = 32 ∨ (Rect.block (s := S53248x128) S512x128.size (cc3_transform_29 i) (hinb3_29 i)).WholeWords (EltTy.packing .f32)
  hstage3_30 : ∀ j, (stage3_30 j).IsWhole
  nbuf3_30 : grid3.bufCount reads3_30 false = 2
  hreads3_30 : ∀ i i' : grid3.Coords, (∀ a, reads3_30 a = true → i a = i' a) → cc3_transform_30 i = cc3_transform_30 i'
  hinb3_30 : ∀ (i : grid3.Coords) a, (cc3_transform_30 i a + 1) * S512x128.size a ≤ S53248x128.size a
  hwx3_30 : ∀ i : grid3.Coords, EltTy.bits .f32 = 32 ∨ (Rect.block (s := S53248x128) S512x128.size (cc3_transform_30 i) (hinb3_30 i)).WholeWords (EltTy.packing .f32)
  hstage3_31 : ∀ j, (stage3_31 j).IsWhole
  nbuf3_31 : grid3.bufCount reads3_31 false = 2
  hreads3_31 : ∀ i i' : grid3.Coords, (∀ a, reads3_31 a = true → i a = i' a) → cc3_transform_31 i = cc3_transform_31 i'
  hinb3_31 : ∀ (i : grid3.Coords) a, (cc3_transform_31 i a + 1) * S512x128.size a ≤ S53248x128.size a
  hwx3_31 : ∀ i : grid3.Coords, EltTy.bits .f32 = 32 ∨ (Rect.block (s := S53248x128) S512x128.size (cc3_transform_31 i) (hinb3_31 i)).WholeWords (EltTy.packing .f32)
  hstage3_32 : ∀ j, (stage3_32 j).IsWhole
  nbuf3_32 : grid3.bufCount reads3_32 false = 2
  hreads3_32 : ∀ i i' : grid3.Coords, (∀ a, reads3_32 a = true → i a = i' a) → cc3_transform_32 i = cc3_transform_32 i'
  hinb3_32 : ∀ (i : grid3.Coords) a, (cc3_transform_32 i a + 1) * S512x128.size a ≤ S53248x128.size a
  hwx3_32 : ∀ i : grid3.Coords, EltTy.bits .f32 = 32 ∨ (Rect.block (s := S53248x128) S512x128.size (cc3_transform_32 i) (hinb3_32 i)).WholeWords (EltTy.packing .f32)
  hstage3_33 : ∀ j, (stage3_33 j).IsWhole
  nbuf3_33 : grid3.bufCount reads3_33 false = 2
  hreads3_33 : ∀ i i' : grid3.Coords, (∀ a, reads3_33 a = true → i a = i' a) → cc3_transform_33 i = cc3_transform_33 i'
  hinb3_33 : ∀ (i : grid3.Coords) a, (cc3_transform_33 i a + 1) * S512x128.size a ≤ S53248x128.size a
  hwx3_33 : ∀ i : grid3.Coords, EltTy.bits .f32 = 32 ∨ (Rect.block (s := S53248x128) S512x128.size (cc3_transform_33 i) (hinb3_33 i)).WholeWords (EltTy.packing .f32)
  hstage3_34 : ∀ j, (stage3_34 j).IsWhole
  nbuf3_34 : grid3.bufCount reads3_34 false = 2
  hreads3_34 : ∀ i i' : grid3.Coords, (∀ a, reads3_34 a = true → i a = i' a) → cc3_transform_34 i = cc3_transform_34 i'
  hinb3_34 : ∀ (i : grid3.Coords) a, (cc3_transform_34 i a + 1) * S512x128.size a ≤ S53248x128.size a
  hwx3_34 : ∀ i : grid3.Coords, EltTy.bits .f32 = 32 ∨ (Rect.block (s := S53248x128) S512x128.size (cc3_transform_34 i) (hinb3_34 i)).WholeWords (EltTy.packing .f32)
  hstage3_35 : ∀ j, (stage3_35 j).IsWhole
  nbuf3_35 : grid3.bufCount reads3_35 false = 2
  hreads3_35 : ∀ i i' : grid3.Coords, (∀ a, reads3_35 a = true → i a = i' a) → cc3_transform_35 i = cc3_transform_35 i'
  hinb3_35 : ∀ (i : grid3.Coords) a, (cc3_transform_35 i a + 1) * S512x128.size a ≤ S53248x128.size a
  hwx3_35 : ∀ i : grid3.Coords, EltTy.bits .f32 = 32 ∨ (Rect.block (s := S53248x128) S512x128.size (cc3_transform_35 i) (hinb3_35 i)).WholeWords (EltTy.packing .f32)
  hstage3_36 : ∀ j, (stage3_36 j).IsWhole
  nbuf3_36 : grid3.bufCount reads3_36 false = 2
  hreads3_36 : ∀ i i' : grid3.Coords, (∀ a, reads3_36 a = true → i a = i' a) → cc3_transform_36 i = cc3_transform_36 i'
  hinb3_36 : ∀ (i : grid3.Coords) a, (cc3_transform_36 i a + 1) * S512x128.size a ≤ S53248x128.size a
  hwx3_36 : ∀ i : grid3.Coords, EltTy.bits .f32 = 32 ∨ (Rect.block (s := S53248x128) S512x128.size (cc3_transform_36 i) (hinb3_36 i)).WholeWords (EltTy.packing .f32)
  hstage3_37 : ∀ j, (stage3_37 j).IsWhole
  nbuf3_37 : grid3.bufCount reads3_37 false = 2
  hreads3_37 : ∀ i i' : grid3.Coords, (∀ a, reads3_37 a = true → i a = i' a) → cc3_transform_37 i = cc3_transform_37 i'
  hinb3_37 : ∀ (i : grid3.Coords) a, (cc3_transform_37 i a + 1) * S512x128.size a ≤ S53248x128.size a
  hwx3_37 : ∀ i : grid3.Coords, EltTy.bits .f32 = 32 ∨ (Rect.block (s := S53248x128) S512x128.size (cc3_transform_37 i) (hinb3_37 i)).WholeWords (EltTy.packing .f32)
  hstage3_38 : ∀ j, (stage3_38 j).IsWhole
  nbuf3_38 : grid3.bufCount reads3_38 false = 2
  hreads3_38 : ∀ i i' : grid3.Coords, (∀ a, reads3_38 a = true → i a = i' a) → cc3_transform_39 i = cc3_transform_39 i'
  hinb3_38 : ∀ (i : grid3.Coords) a, (cc3_transform_39 i a + 1) * S512x1.size a ≤ S4096x1.size a
  hwx3_38 : ∀ i : grid3.Coords, EltTy.bits .f32 = 32 ∨ (Rect.block (s := S4096x1) S512x1.size (cc3_transform_39 i) (hinb3_38 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
abbrev cc0_scoped9 : DmaSems sig S_ := SemArray.consecutive 11 S_ hcc0_scoped9
abbrev cc0_scoped10 : DmaSems sig S_ := SemArray.consecutive 12 S_ hcc0_scoped10
abbrev cc0_scoped11 : DmaSems sig S_ := SemArray.consecutive 13 S_ hcc0_scoped11
abbrev cc0_scoped12 : DmaSems sig S_ := SemArray.consecutive 14 S_ hcc0_scoped12
abbrev cc0_scoped13 : DmaSems sig S_ := SemArray.consecutive 15 S_ hcc0_scoped13
abbrev cc2_scratch3 : DmaSems sig S_ := SemArray.consecutive 84 S_ hcc2_scratch3
abbrev cc2_scratch4 : DmaSems sig S_ := SemArray.consecutive 85 S_ hcc2_scratch4
abbrev cc2_scoped0 : DmaSems sig S_ := SemArray.consecutive 86 S_ hcc2_scoped0
abbrev cc2_scoped1 : DmaSems sig S_ := SemArray.consecutive 87 S_ hcc2_scoped1
abbrev cc2_scoped2 : DmaSems sig S_ := SemArray.consecutive 88 S_ hcc2_scoped2
abbrev cc2_scoped3 : DmaSems sig S_ := SemArray.consecutive 89 S_ hcc2_scoped3
abbrev cc2_scoped4 : DmaSems sig S_ := SemArray.consecutive 90 S_ hcc2_scoped4
abbrev cc2_scoped5 : DmaSems sig S_ := SemArray.consecutive 91 S_ hcc2_scoped5
abbrev cc2_scoped6 : DmaSems sig S_ := SemArray.consecutive 92 S_ hcc2_scoped6
abbrev cc2_scoped7 : DmaSems sig S_ := SemArray.consecutive 93 S_ hcc2_scoped7
abbrev cc2_scoped8 : DmaSems sig S_ := SemArray.consecutive 94 S_ hcc2_scoped8
abbrev cc2_scoped9 : DmaSems sig S_ := SemArray.consecutive 95 S_ hcc2_scoped9
abbrev cc2_scoped10 : DmaSems sig S_ := SemArray.consecutive 96 S_ hcc2_scoped10
abbrev cc2_scoped11 : DmaSems sig S_ := SemArray.consecutive 97 S_ hcc2_scoped11
abbrev cc2_scoped12 : DmaSems sig S_ := SemArray.consecutive 98 S_ hcc2_scoped12
abbrev cc2_scoped13 : DmaSems sig S_ := SemArray.consecutive 99 S_ hcc2_scoped13
def dot_S512x143_S143x1_S512x1_1_0_0_1_n_n : DotDims S512x143 S143x1 S512x1 where
  lhsContracting := [1]
  rhsContracting := [0]
  lhsNonContracting := [0]
  rhsNonContracting := [1]
  lhsBatch := []
  rhsBatch := []
  wf := dot_S512x143_S143x1_S512x1_1_0_0_1_n_n_wf
def dot_S512x13_S13x1_S512x1_1_0_0_1_n_n : DotDims S512x13 S13x1 S512x1 where
  lhsContracting := [1]
  rhsContracting := [0]
  lhsNonContracting := [0]
  rhsNonContracting := [1]
  lhsBatch := []
  rhsBatch := []
  wf := dot_S512x13_S13x1_S512x1_1_0_0_1_n_n_wf
def dot_S512x143_S143x1024_S512x1024_1_0_0_1_n_n : DotDims S512x143 S143x1024 S512x1024 where
  lhsContracting := [1]
  rhsContracting := [0]
  lhsNonContracting := [0]
  rhsNonContracting := [1]
  lhsBatch := []
  rhsBatch := []
  wf := dot_S512x143_S143x1024_S512x1024_1_0_0_1_n_n_wf
def dot_S512x13_S13x1024_S512x1024_1_0_0_1_n_n : DotDims S512x13 S13x1024 S512x1024 where
  lhsContracting := [1]
  rhsContracting := [0]
  lhsNonContracting := [0]
  rhsNonContracting := [1]
  lhsBatch := []
  rhsBatch := []
  wf := dot_S512x13_S13x1024_S512x1024_1_0_0_1_n_n_wf
def dot_S512x3328_S3328x1024_S512x1024_1_0_0_1_n_n : DotDims S512x3328 S3328x1024 S512x1024 where
  lhsContracting := [1]
  rhsContracting := [0]
  lhsNonContracting := [0]
  rhsNonContracting := [1]
  lhsBatch := []
  rhsBatch := []
  wf := dot_S512x3328_S3328x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win1_0 : Pipeline.Window sig grid1 :=
  Pipeline.Window.ofSpec (Memref.whole main_v23) S512x143.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x13.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S143x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S13x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S3484x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S512x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S256x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v9) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v22) S512x128.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v22) S512x128.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v22) S512x128.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v22) S512x128.size cc1_transform_15 reads1_15 false false 2 stage1_15 sem1_15
    hrank1 hreads1_15 hinb1_15 nbuf1_15 (Memref.isWhole_whole _) hwx1_15 hstage1_15

abbrev win1_16 : Pipeline.Window sig grid1 :=
  Pipeline.Window.ofSpec (Memref.whole main_v22) S512x128.size cc1_transform_16 reads1_16 false false 2 stage1_16 sem1_16
    hrank1 hreads1_16 hinb1_16 nbuf1_16 (Memref.isWhole_whole _) hwx1_16 hstage1_16

abbrev win1_17 : Pipeline.Window sig grid1 :=
  Pipeline.Window.ofSpec (Memref.whole main_v22) S512x128.size cc1_transform_17 reads1_17 false false 2 stage1_17 sem1_17
    hrank1 hreads1_17 hinb1_17 nbuf1_17 (Memref.isWhole_whole _) hwx1_17 hstage1_17

abbrev win1_18 : Pipeline.Window sig grid1 :=
  Pipeline.Window.ofSpec (Memref.whole main_v22) S512x128.size cc1_transform_18 reads1_18 false false 2 stage1_18 sem1_18
    hrank1 hreads1_18 hinb1_18 nbuf1_18 (Memref.isWhole_whole _) hwx1_18 hstage1_18

abbrev win1_19 : Pipeline.Window sig grid1 :=
  Pipeline.Window.ofSpec (Memref.whole main_v22) S512x128.size cc1_transform_19 reads1_19 false false 2 stage1_19 sem1_19
    hrank1 hreads1_19 hinb1_19 nbuf1_19 (Memref.isWhole_whole _) hwx1_19 hstage1_19

abbrev win1_20 : Pipeline.Window sig grid1 :=
  Pipeline.Window.ofSpec (Memref.whole main_v22) S512x128.size cc1_transform_20 reads1_20 false false 2 stage1_20 sem1_20
    hrank1 hreads1_20 hinb1_20 nbuf1_20 (Memref.isWhole_whole _) hwx1_20 hstage1_20

abbrev win1_21 : Pipeline.Window sig grid1 :=
  Pipeline.Window.ofSpec (Memref.whole main_v22) S512x128.size cc1_transform_21 reads1_21 false false 2 stage1_21 sem1_21
    hrank1 hreads1_21 hinb1_21 nbuf1_21 (Memref.isWhole_whole _) hwx1_21 hstage1_21

abbrev win1_22 : Pipeline.Window sig grid1 :=
  Pipeline.Window.ofSpec (Memref.whole main_v22) S512x128.size cc1_transform_22 reads1_22 false false 2 stage1_22 sem1_22
    hrank1 hreads1_22 hinb1_22 nbuf1_22 (Memref.isWhole_whole _) hwx1_22 hstage1_22

abbrev win1_23 : Pipeline.Window sig grid1 :=
  Pipeline.Window.ofSpec (Memref.whole main_v22) S512x128.size cc1_transform_23 reads1_23 false false 2 stage1_23 sem1_23
    hrank1 hreads1_23 hinb1_23 nbuf1_23 (Memref.isWhole_whole _) hwx1_23 hstage1_23

abbrev win1_24 : Pipeline.Window sig grid1 :=
  Pipeline.Window.ofSpec (Memref.whole main_v22) S512x128.size cc1_transform_24 reads1_24 false false 2 stage1_24 sem1_24
    hrank1 hreads1_24 hinb1_24 nbuf1_24 (Memref.isWhole_whole _) hwx1_24 hstage1_24

abbrev win1_25 : Pipeline.Window sig grid1 :=
  Pipeline.Window.ofSpec (Memref.whole main_v22) S512x128.size cc1_transform_25 reads1_25 false false 2 stage1_25 sem1_25
    hrank1 hreads1_25 hinb1_25 nbuf1_25 (Memref.isWhole_whole _) hwx1_25 hstage1_25

abbrev win1_26 : Pipeline.Window sig grid1 :=
  Pipeline.Window.ofSpec (Memref.whole main_v22) S512x128.size cc1_transform_26 reads1_26 false false 2 stage1_26 sem1_26
    hrank1 hreads1_26 hinb1_26 nbuf1_26 (Memref.isWhole_whole _) hwx1_26 hstage1_26

abbrev win1_27 : Pipeline.Window sig grid1 :=
  Pipeline.Window.ofSpec (Memref.whole main_v22) S512x128.size cc1_transform_27 reads1_27 false false 2 stage1_27 sem1_27
    hrank1 hreads1_27 hinb1_27 nbuf1_27 (Memref.isWhole_whole _) hwx1_27 hstage1_27

abbrev win1_28 : Pipeline.Window sig grid1 :=
  Pipeline.Window.ofSpec (Memref.whole main_v22) S512x128.size cc1_transform_28 reads1_28 false false 2 stage1_28 sem1_28
    hrank1 hreads1_28 hinb1_28 nbuf1_28 (Memref.isWhole_whole _) hwx1_28 hstage1_28

abbrev win1_29 : Pipeline.Window sig grid1 :=
  Pipeline.Window.ofSpec (Memref.whole main_v22) S512x128.size cc1_transform_29 reads1_29 false false 2 stage1_29 sem1_29
    hrank1 hreads1_29 hinb1_29 nbuf1_29 (Memref.isWhole_whole _) hwx1_29 hstage1_29

abbrev win1_30 : Pipeline.Window sig grid1 :=
  Pipeline.Window.ofSpec (Memref.whole main_v22) S512x128.size cc1_transform_30 reads1_30 false false 2 stage1_30 sem1_30
    hrank1 hreads1_30 hinb1_30 nbuf1_30 (Memref.isWhole_whole _) hwx1_30 hstage1_30

abbrev win1_31 : Pipeline.Window sig grid1 :=
  Pipeline.Window.ofSpec (Memref.whole main_v22) S512x128.size cc1_transform_31 reads1_31 false false 2 stage1_31 sem1_31
    hrank1 hreads1_31 hinb1_31 nbuf1_31 (Memref.isWhole_whole _) hwx1_31 hstage1_31

abbrev win1_32 : Pipeline.Window sig grid1 :=
  Pipeline.Window.ofSpec (Memref.whole main_v22) S512x128.size cc1_transform_32 reads1_32 false false 2 stage1_32 sem1_32
    hrank1 hreads1_32 hinb1_32 nbuf1_32 (Memref.isWhole_whole _) hwx1_32 hstage1_32

abbrev win1_33 : Pipeline.Window sig grid1 :=
  Pipeline.Window.ofSpec (Memref.whole main_v22) S512x128.size cc1_transform_33 reads1_33 false false 2 stage1_33 sem1_33
    hrank1 hreads1_33 hinb1_33 nbuf1_33 (Memref.isWhole_whole _) hwx1_33 hstage1_33

abbrev win1_34 : Pipeline.Window sig grid1 :=
  Pipeline.Window.ofSpec (Memref.whole main_v22) S512x128.size cc1_transform_34 reads1_34 false false 2 stage1_34 sem1_34
    hrank1 hreads1_34 hinb1_34 nbuf1_34 (Memref.isWhole_whole _) hwx1_34 hstage1_34

abbrev win1_35 : Pipeline.Window sig grid1 :=
  Pipeline.Window.ofSpec (Memref.whole main_v22) S512x128.size cc1_transform_35 reads1_35 false false 2 stage1_35 sem1_35
    hrank1 hreads1_35 hinb1_35 nbuf1_35 (Memref.isWhole_whole _) hwx1_35 hstage1_35

abbrev win1_36 : Pipeline.Window sig grid1 :=
  Pipeline.Window.ofSpec (Memref.whole main_v22) S512x128.size cc1_transform_36 reads1_36 false false 2 stage1_36 sem1_36
    hrank1 hreads1_36 hinb1_36 nbuf1_36 (Memref.isWhole_whole _) hwx1_36 hstage1_36

abbrev win1_37 : Pipeline.Window sig grid1 :=
  Pipeline.Window.ofSpec (Memref.whole main_v22) S512x128.size cc1_transform_37 reads1_37 false false 2 stage1_37 sem1_37
    hrank1 hreads1_37 hinb1_37 nbuf1_37 (Memref.isWhole_whole _) hwx1_37 hstage1_37

abbrev win1_38 : Pipeline.Window sig grid1 :=
  Pipeline.Window.ofSpec (Memref.whole main_v25) S512x1.size cc1_transform_39 reads1_38 true false 2 stage1_38 sem1_38
    hrank1 hreads1_38 hinb1_38 nbuf1_38 (Memref.isWhole_whole _) hwx1_38 hstage1_38

abbrev win1 : Fin 39 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | 28 => win1_28 | 29 => win1_29 | 30 => win1_30 | 31 => win1_31 | 32 => win1_32 | 33 => win1_33 | 34 => win1_34 | 35 => win1_35 | 36 => win1_36 | 37 => win1_37 | 38 => win1_38 | ⟨_ + 39, h⟩ => absurd h (Nat.not_lt.2 (Nat.le_add_left _ _))
abbrev spec1 : Fin 39 → Pipeline.WinSpec sig grid1.rank := fun w => (win1 w).toWinSpec

abbrev win3_0 : Pipeline.Window sig grid3 :=
  Pipeline.Window.ofSpec (Memref.whole main_v31) S512x143.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S512x13.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S143x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S13x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S3484x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1024x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v12) S512x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v16) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v13) S256x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v9) S1x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v30) S512x128.size cc3_transform_12 reads3_12 false false 2 stage3_12 sem3_12
    hrank3 hreads3_12 hinb3_12 nbuf3_12 (Memref.isWhole_whole _) hwx3_12 hstage3_12

abbrev win3_13 : Pipeline.Window sig grid3 :=
  Pipeline.Window.ofSpec (Memref.whole main_v30) S512x128.size cc3_transform_13 reads3_13 false false 2 stage3_13 sem3_13
    hrank3 hreads3_13 hinb3_13 nbuf3_13 (Memref.isWhole_whole _) hwx3_13 hstage3_13

abbrev win3_14 : Pipeline.Window sig grid3 :=
  Pipeline.Window.ofSpec (Memref.whole main_v30) S512x128.size cc3_transform_14 reads3_14 false false 2 stage3_14 sem3_14
    hrank3 hreads3_14 hinb3_14 nbuf3_14 (Memref.isWhole_whole _) hwx3_14 hstage3_14

abbrev win3_15 : Pipeline.Window sig grid3 :=
  Pipeline.Window.ofSpec (Memref.whole main_v30) S512x128.size cc3_transform_15 reads3_15 false false 2 stage3_15 sem3_15
    hrank3 hreads3_15 hinb3_15 nbuf3_15 (Memref.isWhole_whole _) hwx3_15 hstage3_15

abbrev win3_16 : Pipeline.Window sig grid3 :=
  Pipeline.Window.ofSpec (Memref.whole main_v30) S512x128.size cc3_transform_16 reads3_16 false false 2 stage3_16 sem3_16
    hrank3 hreads3_16 hinb3_16 nbuf3_16 (Memref.isWhole_whole _) hwx3_16 hstage3_16

abbrev win3_17 : Pipeline.Window sig grid3 :=
  Pipeline.Window.ofSpec (Memref.whole main_v30) S512x128.size cc3_transform_17 reads3_17 false false 2 stage3_17 sem3_17
    hrank3 hreads3_17 hinb3_17 nbuf3_17 (Memref.isWhole_whole _) hwx3_17 hstage3_17

abbrev win3_18 : Pipeline.Window sig grid3 :=
  Pipeline.Window.ofSpec (Memref.whole main_v30) S512x128.size cc3_transform_18 reads3_18 false false 2 stage3_18 sem3_18
    hrank3 hreads3_18 hinb3_18 nbuf3_18 (Memref.isWhole_whole _) hwx3_18 hstage3_18

abbrev win3_19 : Pipeline.Window sig grid3 :=
  Pipeline.Window.ofSpec (Memref.whole main_v30) S512x128.size cc3_transform_19 reads3_19 false false 2 stage3_19 sem3_19
    hrank3 hreads3_19 hinb3_19 nbuf3_19 (Memref.isWhole_whole _) hwx3_19 hstage3_19

abbrev win3_20 : Pipeline.Window sig grid3 :=
  Pipeline.Window.ofSpec (Memref.whole main_v30) S512x128.size cc3_transform_20 reads3_20 false false 2 stage3_20 sem3_20
    hrank3 hreads3_20 hinb3_20 nbuf3_20 (Memref.isWhole_whole _) hwx3_20 hstage3_20

abbrev win3_21 : Pipeline.Window sig grid3 :=
  Pipeline.Window.ofSpec (Memref.whole main_v30) S512x128.size cc3_transform_21 reads3_21 false false 2 stage3_21 sem3_21
    hrank3 hreads3_21 hinb3_21 nbuf3_21 (Memref.isWhole_whole _) hwx3_21 hstage3_21

abbrev win3_22 : Pipeline.Window sig grid3 :=
  Pipeline.Window.ofSpec (Memref.whole main_v30) S512x128.size cc3_transform_22 reads3_22 false false 2 stage3_22 sem3_22
    hrank3 hreads3_22 hinb3_22 nbuf3_22 (Memref.isWhole_whole _) hwx3_22 hstage3_22

abbrev win3_23 : Pipeline.Window sig grid3 :=
  Pipeline.Window.ofSpec (Memref.whole main_v30) S512x128.size cc3_transform_23 reads3_23 false false 2 stage3_23 sem3_23
    hrank3 hreads3_23 hinb3_23 nbuf3_23 (Memref.isWhole_whole _) hwx3_23 hstage3_23

abbrev win3_24 : Pipeline.Window sig grid3 :=
  Pipeline.Window.ofSpec (Memref.whole main_v30) S512x128.size cc3_transform_24 reads3_24 false false 2 stage3_24 sem3_24
    hrank3 hreads3_24 hinb3_24 nbuf3_24 (Memref.isWhole_whole _) hwx3_24 hstage3_24

abbrev win3_25 : Pipeline.Window sig grid3 :=
  Pipeline.Window.ofSpec (Memref.whole main_v30) S512x128.size cc3_transform_25 reads3_25 false false 2 stage3_25 sem3_25
    hrank3 hreads3_25 hinb3_25 nbuf3_25 (Memref.isWhole_whole _) hwx3_25 hstage3_25

abbrev win3_26 : Pipeline.Window sig grid3 :=
  Pipeline.Window.ofSpec (Memref.whole main_v30) S512x128.size cc3_transform_26 reads3_26 false false 2 stage3_26 sem3_26
    hrank3 hreads3_26 hinb3_26 nbuf3_26 (Memref.isWhole_whole _) hwx3_26 hstage3_26

abbrev win3_27 : Pipeline.Window sig grid3 :=
  Pipeline.Window.ofSpec (Memref.whole main_v30) S512x128.size cc3_transform_27 reads3_27 false false 2 stage3_27 sem3_27
    hrank3 hreads3_27 hinb3_27 nbuf3_27 (Memref.isWhole_whole _) hwx3_27 hstage3_27

abbrev win3_28 : Pipeline.Window sig grid3 :=
  Pipeline.Window.ofSpec (Memref.whole main_v30) S512x128.size cc3_transform_28 reads3_28 false false 2 stage3_28 sem3_28
    hrank3 hreads3_28 hinb3_28 nbuf3_28 (Memref.isWhole_whole _) hwx3_28 hstage3_28

abbrev win3_29 : Pipeline.Window sig grid3 :=
  Pipeline.Window.ofSpec (Memref.whole main_v30) S512x128.size cc3_transform_29 reads3_29 false false 2 stage3_29 sem3_29
    hrank3 hreads3_29 hinb3_29 nbuf3_29 (Memref.isWhole_whole _) hwx3_29 hstage3_29

abbrev win3_30 : Pipeline.Window sig grid3 :=
  Pipeline.Window.ofSpec (Memref.whole main_v30) S512x128.size cc3_transform_30 reads3_30 false false 2 stage3_30 sem3_30
    hrank3 hreads3_30 hinb3_30 nbuf3_30 (Memref.isWhole_whole _) hwx3_30 hstage3_30

abbrev win3_31 : Pipeline.Window sig grid3 :=
  Pipeline.Window.ofSpec (Memref.whole main_v30) S512x128.size cc3_transform_31 reads3_31 false false 2 stage3_31 sem3_31
    hrank3 hreads3_31 hinb3_31 nbuf3_31 (Memref.isWhole_whole _) hwx3_31 hstage3_31

abbrev win3_32 : Pipeline.Window sig grid3 :=
  Pipeline.Window.ofSpec (Memref.whole main_v30) S512x128.size cc3_transform_32 reads3_32 false false 2 stage3_32 sem3_32
    hrank3 hreads3_32 hinb3_32 nbuf3_32 (Memref.isWhole_whole _) hwx3_32 hstage3_32

abbrev win3_33 : Pipeline.Window sig grid3 :=
  Pipeline.Window.ofSpec (Memref.whole main_v30) S512x128.size cc3_transform_33 reads3_33 false false 2 stage3_33 sem3_33
    hrank3 hreads3_33 hinb3_33 nbuf3_33 (Memref.isWhole_whole _) hwx3_33 hstage3_33

abbrev win3_34 : Pipeline.Window sig grid3 :=
  Pipeline.Window.ofSpec (Memref.whole main_v30) S512x128.size cc3_transform_34 reads3_34 false false 2 stage3_34 sem3_34
    hrank3 hreads3_34 hinb3_34 nbuf3_34 (Memref.isWhole_whole _) hwx3_34 hstage3_34

abbrev win3_35 : Pipeline.Window sig grid3 :=
  Pipeline.Window.ofSpec (Memref.whole main_v30) S512x128.size cc3_transform_35 reads3_35 false false 2 stage3_35 sem3_35
    hrank3 hreads3_35 hinb3_35 nbuf3_35 (Memref.isWhole_whole _) hwx3_35 hstage3_35

abbrev win3_36 : Pipeline.Window sig grid3 :=
  Pipeline.Window.ofSpec (Memref.whole main_v30) S512x128.size cc3_transform_36 reads3_36 false false 2 stage3_36 sem3_36
    hrank3 hreads3_36 hinb3_36 nbuf3_36 (Memref.isWhole_whole _) hwx3_36 hstage3_36

abbrev win3_37 : Pipeline.Window sig grid3 :=
  Pipeline.Window.ofSpec (Memref.whole main_v30) S512x128.size cc3_transform_37 reads3_37 false false 2 stage3_37 sem3_37
    hrank3 hreads3_37 hinb3_37 nbuf3_37 (Memref.isWhole_whole _) hwx3_37 hstage3_37

abbrev win3_38 : Pipeline.Window sig grid3 :=
  Pipeline.Window.ofSpec (Memref.whole main_v33) S512x1.size cc3_transform_39 reads3_38 true false 2 stage3_38 sem3_38
    hrank3 hreads3_38 hinb3_38 nbuf3_38 (Memref.isWhole_whole _) hwx3_38 hstage3_38

abbrev win3 : Fin 39 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | 25 => win3_25 | 26 => win3_26 | 27 => win3_27 | 28 => win3_28 | 29 => win3_29 | 30 => win3_30 | 31 => win3_31 | 32 => win3_32 | 33 => win3_33 | 34 => win3_34 | 35 => win3_35 | 36 => win3_36 | 37 => win3_37 | 38 => win3_38 | ⟨_ + 39, h⟩ => absurd h (Nat.not_lt.2 (Nat.le_add_left _ _))
abbrev spec3 : Fin 39 → Pipeline.WinSpec sig grid3.rank := fun w => (win3 w).toWinSpec

class Facts : Prop extends Facts₀ where

variable [Facts]
-- ==== ReferenceIdeal.lean ====
abbrev S4096x143 : Shape := ⟨2, ![4096, 143]⟩
abbrev S4096x26 : Shape := ⟨2, ![4096, 26]⟩
abbrev S4096x13 : Shape := ⟨2, ![4096, 13]⟩
abbrev S26x1000x128 : Shape := ⟨3, ![26, 1000, 128]⟩
abbrev S143x1 : Shape := ⟨2, ![143, 1]⟩
abbrev S1 : Shape := ⟨1, ![1]⟩
abbrev S13x1 : Shape := ⟨2, ![13, 1]⟩
abbrev S3484x1024 : Shape := ⟨2, ![3484, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S4096x1 : Shape := ⟨2, ![4096, 1]⟩
abbrev S1x1 : Shape := ⟨2, ![1, 1]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x128 : Shape := ⟨3, ![4096, 26, 128]⟩
abbrev S4096x128 : Shape := ⟨2, ![4096, 128]⟩
abbrev S4096 : Shape := ⟨1, ![4096]⟩
abbrev S4096x3328 : Shape := ⟨2, ![4096, 3328]⟩
abbrev S4096x3484 : Shape := ⟨2, ![4096, 3484]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x143, .f32⟩
  | .hbm, ⟨1, _⟩ => ⟨S4096x26, .i32⟩
  | .hbm, ⟨2, _⟩ => ⟨S4096x13, .f32⟩
  | .hbm, ⟨3, _⟩ => ⟨S26x1000x128, .f32⟩
  | .hbm, ⟨4, _⟩ => ⟨S143x1, .f32⟩
  | .hbm, ⟨5, _⟩ => ⟨S1, .f32⟩
  | .hbm, ⟨6, _⟩ => ⟨S13x1, .f32⟩
  | .hbm, ⟨7, _⟩ => ⟨S1, .f32⟩
  | .hbm, ⟨8, _⟩ => ⟨S3484x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S4096x1, .f32⟩
  | .hbm, ⟨17, _⟩ => ⟨S1x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S1x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S26, .i32⟩
  | .hbm, ⟨26, _⟩ => ⟨S1x26, .i32⟩
  | .hbm, ⟨27, _⟩ => ⟨S_, .i32⟩
  | .hbm, ⟨28, _⟩ => ⟨S1x26, .i32⟩
  | .hbm, ⟨29, _⟩ => ⟨S1x26, .i1⟩
  | .hbm, ⟨30, _⟩ => ⟨S_, .i32⟩
  | .hbm, ⟨31, _⟩ => ⟨S1x26, .i32⟩
  | .hbm, ⟨32, _⟩ => ⟨S1x26, .i32⟩
  | .hbm, ⟨33, _⟩ => ⟨S1x26, .i32⟩
  | .hbm, ⟨34, _⟩ => ⟨S_, .i32⟩
  | .hbm, ⟨35, _⟩ => ⟨S4096x26, .i32⟩
  | .hbm, ⟨36, _⟩ => ⟨S4096x26, .i1⟩
  | .hbm, ⟨37, _⟩ => ⟨S_, .i32⟩
  | .hbm, ⟨38, _⟩ => ⟨S4096x26, .i32⟩
  | .hbm, ⟨39, _⟩ => ⟨S4096x26, .i32⟩
  | .hbm, ⟨40, _⟩ => ⟨S4096x26, .i32⟩
  | .hbm, ⟨41, _⟩ => ⟨S4096x26, .i32⟩
  | .hbm, ⟨42, _⟩ => ⟨S4096x26x1, .i32⟩
  | .hbm, ⟨43, _⟩ => ⟨S4096x26x1, .i32⟩
  | .hbm, ⟨44, _⟩ => ⟨S4096x26x2, .i32⟩
  | .hbm, ⟨45, _⟩ => ⟨S4096x26x128, .f32⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x26x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x3328, .f32⟩
  | .hbm, ⟨60, _⟩ => ⟨S4096x3484, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x512, .f32⟩
  | .hbm, ⟨74, _⟩ => ⟨S4096x512, .f32⟩
  | .hbm, ⟨75, _⟩ => ⟨S4096x256, .f32⟩
  | .hbm, ⟨76, _⟩ => ⟨S1x256, .f32⟩
  | .hbm, ⟨77, _⟩ => ⟨S4096x256, .f32⟩
  | .hbm, ⟨78, _⟩ => ⟨S4096x256, .f32⟩
  | .hbm, ⟨79, _⟩ => ⟨S_, .f32⟩
  | .hbm, ⟨80, _⟩ => ⟨S4096x256, .f32⟩
  | .hbm, ⟨81, _⟩ => ⟨S4096x256, .f32⟩
  | .hbm, ⟨82, _⟩ => ⟨S4096x1, .f32⟩
  | .hbm, ⟨83, _⟩ => ⟨S1x1, .f32⟩
  | .hbm, ⟨84, _⟩ => ⟨S4096x1, .f32⟩
  | .hbm, ⟨85, _⟩ => ⟨S4096x1, .f32⟩
  | .hbm, ⟨86, _⟩ => ⟨S4096x1, .f32⟩
  | .hbm, ⟨87, _⟩ => ⟨S4096x1, .f32⟩
  | _, _ => ⟨S4096x143, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  reducesTo_S4096x26x128_S4096x128_d1 : S4096x26x128.ReducesTo [1] S4096x128
  h_S_ : 0 < S_.numel
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x26x128_S4096x3328 : S4096x26x128.ShapeCasts S4096x3328
  concatenates_S4096x143_S4096x13_S4096x3328_S4096x3484_d1 : Shape.Concatenates [S4096x143, S4096x13, S4096x3328] S4096x3484 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x143_S143x1_S4096x1_1_0_0_1_n_n_wf : DotDims.WF S4096x143 S143x1 S4096x1 [1] [0] [0] [1] [] []
  dot_S4096x13_S13x1_S4096x1_1_0_0_1_n_n_wf : DotDims.WF S4096x13 S13x1 S4096x1 [1] [0] [0] [1] [] []
  gather_S26x1000x128_S4096x26x2_S4096x26x128_2_01_n_n_01_2_11128_wf : GatherDims.WF S26x1000x128 S4096x26x2 S4096x26x128 [2] [0, 1] [] [0, 1] [] 2 ![1, 1, 128]
  dot_S4096x3484_S3484x1024_S4096x1024_1_0_0_1_n_n_wf : DotDims.WF S4096x3484 S3484x1024 S4096x1024 [1] [0] [0] [1] [] []
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []
  dot_S4096x256_S256x1_S4096x1_1_0_0_1_n_n_wf : DotDims.WF S4096x256 S256x1 S4096x1 [1] [0] [0] [1] [] []

variable [Facts₀]

def dot_S4096x143_S143x1_S4096x1_1_0_0_1_n_n : DotDims S4096x143 S143x1 S4096x1 where
  lhsContracting := [1]
  rhsContracting := [0]
  lhsNonContracting := [0]
  rhsNonContracting := [1]
  lhsBatch := []
  rhsBatch := []
  wf := dot_S4096x143_S143x1_S4096x1_1_0_0_1_n_n_wf
def dot_S4096x13_S13x1_S4096x1_1_0_0_1_n_n : DotDims S4096x13 S13x1 S4096x1 where
  lhsContracting := [1]
  rhsContracting := [0]
  lhsNonContracting := [0]
  rhsNonContracting := [1]
  lhsBatch := []
  rhsBatch := []
  wf := dot_S4096x13_S13x1_S4096x1_1_0_0_1_n_n_wf
def gather_S26x1000x128_S4096x26x2_S4096x26x128_2_01_n_n_01_2_11128 : GatherDims S26x1000x128 S4096x26x2 S4096x26x128 where
  offsetDims := [2]
  collapsedSliceDims := [0, 1]
  operandBatchingDims := []
  startIndicesBatchingDims := []
  startIndexMap := [0, 1]
  indexVectorDim := 2
  sliceSizes := ![1, 1, 128]
  wf := gather_S26x1000x128_S4096x26x2_S4096x26x128_2_01_n_n_01_2_11128_wf
def dot_S4096x3484_S3484x1024_S4096x1024_1_0_0_1_n_n : DotDims S4096x3484 S3484x1024 S4096x1024 where
  lhsContracting := [1]
  rhsContracting := [0]
  lhsNonContracting := [0]
  rhsNonContracting := [1]
  lhsBatch := []
  rhsBatch := []
  wf := dot_S4096x3484_S3484x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.Setup.lean ====
/-
  The kernel program as the SparseCore launch theorem sees it, and what its handshakes carry.

  The program makes two calls of one gather kernel on the 2 x 16 vector subcores, each followed by a
  TensorCore pipeline over four row blocks.  Tile (core c, subcore s) of a call is worker w = 2 s + c; it
  reads the whole embedding table and the whole index array (read shares, one per worker) and writes the
  thirteen 128-row blocks t = 13 w + k (k < 13) of the call's gathered-rows array, rows [128 t, 128 t + 128).
  So what a call hands a tile is: a share of the table, a share of the index array, and those thirteen
  blocks of the output; what the tile hands back is the same with the blocks at contents not named.
-/
import proofs.«205278_g66915590471714_cont_9to1_m_383_35_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205278_g66915590471714_cont_9to1_m_383_35_alg».proof.Proof.Gen.KernelIdeal
import proofs.«205278_g66915590471714_cont_9to1_m_383_35_alg».proof.Proof.Gen.KernelIdeal.Skeleton
import proofs.«205278_g66915590471714_cont_9to1_m_383_35_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP; infer_instance

/-! ## The arrays the calls move, and how they are cut -/

/-- The embedding table (the reshaped `emb`), as device `d`'s TensorCore addresses it. -/
abbrev tabLoc (d : Dev nD) : Loc nD τ sig := (SparseCore.T d).loc main_v0

/-- Call 0's index array and gathered-rows array, as device `d`'s TensorCore addresses them. -/
abbrev idx0Loc (d : Dev nD) : Loc nD τ sig := (SparseCore.T d).loc main_v21
abbrev out0Loc (d : Dev nD) : Loc nD τ sig := (SparseCore.T d).loc main_v22

/-- Call 1's index array and gathered-rows array, as device `d`'s TensorCore addresses them. -/
abbrev idx1Loc (d : Dev nD) : Loc nD τ sig := (SparseCore.T d).loc main_v29
abbrev out1Loc (d : Dev nD) : Loc nD τ sig := (SparseCore.T d).loc main_v30

/-- Worker `w`'s read share of an array every worker reads whole: the full share halved `w` times, then its right half. -/
abbrev tq (w : ℕ) : PosShare TreeShare := shareTokN fullShare w

/-- The gathered-rows arrays have 53248 = 416 · 128 rows: block `t` is rows [128 t, 128 t + 128). -/
theorem odiv : 416 ∣ S53248x128.size 0 := ⟨128, rfl⟩
abbrev oblk (t : Fin 416) : Rect S53248x128 := Rect.part (s := S53248x128) (a₀ := 0) odiv t
/-- Block `t`'s elements; no elements for a number that names no block. -/
def oSetN (t : ℕ) : Finset S53248x128.Idx := if h : t < 416 then (oblk ⟨t, h⟩).set else ∅

/-! ## What the handshakes carry -/

section Payload

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- What call 0 hands worker `w`: its read shares of the table and of the call's index array, and its thirteen
    row blocks of the call's output at the launch contents; -/
def tileIn0 (d : Dev nD) (w : ℕ) : sProp 𝕄 :=
  iprop((tabLoc d ↦{tq w} tab d) ∗ (idx0Loc d ↦{tq w} ix0 d)
    ∗ bigSep (Finset.univ : Finset (Fin 13)) fun k => out0Loc d ↦[oSetN (13 * w + k.val)]{fullShare} m (out0Loc d))
/-- and what the worker hands back: the shares, and the blocks at contents the frame does not name. -/
def tileOut0 (d : Dev nD) (w : ℕ) : sProp 𝕄 :=
  iprop((tabLoc d ↦{tq w} tab d) ∗ (idx0Loc d ↦{tq w} ix0 d)
    ∗ bigSep (Finset.univ : Finset (Fin 13)) fun k => iprop(∃ f, out0Loc d ↦[oSetN (13 * w + k.val)]{fullShare} f))

/-- What call 1 hands worker `w`: its read shares of the table and of the call's index array, and its thirteen
    row blocks of the call's output at the launch contents; -/
def tileIn1 (d : Dev nD) (w : ℕ) : sProp 𝕄 :=
  iprop((tabLoc d ↦{tq w} tab d) ∗ (idx1Loc d ↦{tq w} ix1 d)
    ∗ bigSep (Finset.univ : Finset (Fin 13)) fun k => out1Loc d ↦[oSetN (13 * w + k.val)]{fullShare} m (out1Loc d))
/-- and what the worker hands back: the shares, and the blocks at contents the frame does not name. -/
def tileOut1 (d : Dev nD) (w : ℕ) : sProp 𝕄 :=
  iprop((tabLoc d ↦{tq w} tab d) ∗ (idx1Loc d ↦{tq w} ix1 d)
    ∗ bigSep (Finset.univ : Finset (Fin 13)) fun k => iprop(∃ f, out1Loc d ↦[oSetN (13 * w + k.val)]{fullShare} f))

/-- Each call hands SparseCore `c` what its sixteen workers `2 i + c` need, each worker that, and takes it back. -/
def P : (K (F := F)).Pay (nD := nD) (Val := Elt F) (Name := ℕ) (U := UU) where
  st := fun q d c => match q with
    | 0 => bigSep (Finset.univ : Finset (Fin 16)) fun i => tileIn0 m tab ix0 d (2 * i.val + c.val)
    | 1 => bigSep (Finset.univ : Finset (Fin 16)) fun i => tileIn1 m tab ix1 d (2 * i.val + c.val)
  dn := fun q d c => match q with
    | 0 => bigSep (Finset.univ : Finset (Fin 16)) fun i => tileOut0 tab ix0 d (2 * i.val + c.val)
    | 1 => bigSep (Finset.univ : Finset (Fin 16)) fun i => tileOut1 tab ix1 d (2 * i.val + c.val)
  go := fun q d c i => match q with
    | 0 => tileIn0 m tab ix0 d (2 * i.val + c.val)
    | 1 => tileIn1 m tab ix1 d (2 * i.val + c.val)
  td := fun q d c i => match q with
    | 0 => tileOut0 tab ix0 d (2 * i.val + c.val)
    | 1 => tileOut1 tab ix1 d (2 * i.val + c.val)
  x := fun _ _ => iprop(emp)

instance P_storable : (P (F := F) m tab ix0 ix1).IsStorable where
  st q d c := match q with
    | 0 => by unfold P tileIn0; infer_instance
    | 1 => by unfold P tileIn1; infer_instance
  dn q d c := match q with
    | 0 => by unfold P tileOut0; infer_instance
    | 1 => by unfold P tileOut1; infer_instance
  go q d c i := match q with
    | 0 => by unfold P tileIn0; infer_instance
    | 1 => by unfold P tileIn1; infer_instance
  td q d c i := match q with
    | 0 => by unfold P tileOut0; infer_instance
    | 1 => by unfold P tileOut1; infer_instance

end Payload

end Cert.Proof.KI

end
-- ==== Proof.TcBody.lean ====
/-
  The TensorCore kernel body at one grid point, as a pure function of its input blocks (both pipeline calls).
-/
import proofs.«205278_g66915590471714_cont_9to1_m_383_35_alg».proof.Proof.Setup
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe

variable {F : FTy → Type} [FloatOps F]

local notation "𝕄" => MT nD τ sig (HIx 2) (Elt F) ℕ UU ℕ

/-- The one store's rectangle is the whole 512 x 1 block: it covers the block. -/
theorem tcOut_cover (p0 : Vec F S512x1 .f32) (y : S512x1.Idx) :
    ∃ pc ∈ ([⟨Rect.unit (s := S512x1) ![0, 0] S512x1.size inb_S512x1_S512x1_0_0, p0⟩] : List (View.Piece (Elt F) S512x1 .f32)), y ∈ pc.1.set :=
  View.cover_of_tiled [⟨Rect.unit (s := S512x1) ![0, 0] S512x1.size inb_S512x1_S512x1_0_0, p0⟩] S512x1.size (by rfl) y

/-- What the body of pipeline call 1 leaves in its output block (512 rows x 1), from what its thirty-eight input
    blocks hold: the one store's payload, the skeleton's payloads composed in the body's order — the per-field
    blocks e_f, their pairwise sums and squares, the lane sum of (Σ e)² − Σ e², the two small products, the three
    rectified dense layers over the concatenated row, and the read-out. -/
def tcOut1 (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) : Vec F S512x1 .f32 :=
  let e0 : Vec F S512x128 .f32 := View.ld x13 (Rect.unit (s := S512x128) ![0, 0] S512x128.size inb_S512x128_S512x128_0_0)
  let e1 : Vec F S512x128 .f32 := View.ld x14 (Rect.unit (s := S512x128) ![0, 0] S512x128.size inb_S512x128_S512x128_0_0)
  let e2 : Vec F S512x128 .f32 := View.ld x15 (Rect.unit (s := S512x128) ![0, 0] S512x128.size inb_S512x128_S512x128_0_0)
  let e3 : Vec F S512x128 .f32 := View.ld x16 (Rect.unit (s := S512x128) ![0, 0] S512x128.size inb_S512x128_S512x128_0_0)
  let e4 : Vec F S512x128 .f32 := View.ld x17 (Rect.unit (s := S512x128) ![0, 0] S512x128.size inb_S512x128_S512x128_0_0)
  let e5 : Vec F S512x128 .f32 := View.ld x18 (Rect.unit (s := S512x128) ![0, 0] S512x128.size inb_S512x128_S512x128_0_0)
  let e6 : Vec F S512x128 .f32 := View.ld x19 (Rect.unit (s := S512x128) ![0, 0] S512x128.size inb_S512x128_S512x128_0_0)
  let e7 : Vec F S512x128 .f32 := View.ld x20 (Rect.unit (s := S512x128) ![0, 0] S512x128.size inb_S512x128_S512x128_0_0)
  let e8 : Vec F S512x128 .f32 := View.ld x21 (Rect.unit (s := S512x128) ![0, 0] S512x128.size inb_S512x128_S512x128_0_0)
  let e9 : Vec F S512x128 .f32 := View.ld x22 (Rect.unit (s := S512x128) ![0, 0] S512x128.size inb_S512x128_S512x128_0_0)
  let e10 : Vec F S512x128 .f32 := View.ld x23 (Rect.unit (s := S512x128) ![0, 0] S512x128.size inb_S512x128_S512x128_0_0)
  let e11 : Vec F S512x128 .f32 := View.ld x24 (Rect.unit (s := S512x128) ![0, 0] S512x128.size inb_S512x128_S512x128_0_0)
  let e12 : Vec F S512x128 .f32 := View.ld x25 (Rect.unit (s := S512x128) ![0, 0] S512x128.size inb_S512x128_S512x128_0_0)
  let e13 : Vec F S512x128 .f32 := View.ld x26 (Rect.unit (s := S512x128) ![0, 0] S512x128.size inb_S512x128_S512x128_0_0)
  let e14 : Vec F S512x128 .f32 := View.ld x27 (Rect.unit (s := S512x128) ![0, 0] S512x128.size inb_S512x128_S512x128_0_0)
  let e15 : Vec F S512x128 .f32 := View.ld x28 (Rect.unit (s := S512x128) ![0, 0] S512x128.size inb_S512x128_S512x128_0_0)
  let e16 : Vec F S512x128 .f32 := View.ld x29 (Rect.unit (s := S512x128) ![0, 0] S512x128.size inb_S512x128_S512x128_0_0)
  let e17 : Vec F S512x128 .f32 := View.ld x30 (Rect.unit (s := S512x128) ![0, 0] S512x128.size inb_S512x128_S512x128_0_0)
  let e18 : Vec F S512x128 .f32 := View.ld x31 (Rect.unit (s := S512x128) ![0, 0] S512x128.size inb_S512x128_S512x128_0_0)
  let e19 : Vec F S512x128 .f32 := View.ld x32 (Rect.unit (s := S512x128) ![0, 0] S512x128.size inb_S512x128_S512x128_0_0)
  let e20 : Vec F S512x128 .f32 := View.ld x33 (Rect.unit (s := S512x128) ![0, 0] S512x128.size inb_S512x128_S512x128_0_0)
  let e21 : Vec F S512x128 .f32 := View.ld x34 (Rect.unit (s := S512x128) ![0, 0] S512x128.size inb_S512x128_S512x128_0_0)
  let e22 : Vec F S512x128 .f32 := View.ld x35 (Rect.unit (s := S512x128) ![0, 0] S512x128.size inb_S512x128_S512x128_0_0)
  let e23 : Vec F S512x128 .f32 := View.ld x36 (Rect.unit (s := S512x128) ![0, 0] S512x128.size inb_S512x128_S512x128_0_0)
  let e24 : Vec F S512x128 .f32 := View.ld x37 (Rect.unit (s := S512x128) ![0, 0] S512x128.size inb_S512x128_S512x128_0_0)
  let e25 : Vec F S512x128 .f32 := View.ld x38 (Rect.unit (s := S512x128) ![0, 0] S512x128.size inb_S512x128_S512x128_0_0)
  let v1 := k1_pay2 e0
  let v3 := k1_pay3 e1
  let v5 := k1_pay4 e2
  let v7 := k1_pay5 e3
  let v9 := k1_pay6 e4
  let v11 := k1_pay7 e5
  let v13 := k1_pay8 e6
  let v15 := k1_pay9 e7
  let v17 := k1_pay10 e8
  let v19 := k1_pay11 e9
  let v21 := k1_pay12 e10
  let v23 := k1_pay13 e11
  let v25 := k1_pay14 e12
  let v27 := k1_pay15 e13
  let v29 := k1_pay16 e14
  let v31 := k1_pay17 e15
  let v33 := k1_pay18 e16
  let v35 := k1_pay19 e17
  let v37 := k1_pay20 e18
  let v39 := k1_pay21 e19
  let v41 := k1_pay22 e20
  let v43 := k1_pay23 e21
  let v45 := k1_pay24 e22
  let v47 := k1_pay25 e23
  let v49 := k1_pay26 e24
  let v51 := k1_pay27 e25
  let v56 := k1_pay28 v17 v19
  let v57 := k1_pay29 v21 v23
  let v58 := k1_pay30 v25 v27
  let v59 := k1_pay31 e14 e15
  let v60 := k1_pay32 e16 e17
  let v61 := k1_pay33 e18 e19
  let v62 := k1_pay34 e20 e21
  let v63 := k1_pay35 e22 e23
  let v64 := k1_pay36 e24 e25
  let v65 := k1_pay37 v1 v3 v5 v7
  let v66 := k1_pay38 v9 v11 v13 v15
  let v76 := k1_pay39 v56 v57 v58 v59 v60 v61 v62 v63 v64 v65 v66
  let v125 := k1_pay40 v1 v3 v5 v7 v9 v11 v13 v15 v17 v19 v21 v23 v25 v27 v29 v31
  let v126 := k1_pay41 v33 v35 v37 v39 v41 v43 v45 v47 v49 v51
  let v133 := k1_pay42 v76 v125 v126
  let v134 : Vec F S512x143 .f32 := View.ld x1 (Rect.unit (s := S512x143) ![0, 0] S512x143.size inb_S512x143_S512x143_0_0)
  let v136 : Vec F S512x13 .f32 := View.ld x2 (Rect.unit (s := S512x13) ![0, 0] S512x13.size inb_S512x13_S512x13_0_0)
  let v138 : Vec F S143x1 .f32 := View.ld x3 (Rect.unit (s := S143x1) ![0, 0] S143x1.size inb_S143x1_S143x1_0_0)
  let v140 : Vec F S13x1 .f32 := View.ld x4 (Rect.unit (s := S13x1) ![0, 0] S13x1.size inb_S13x1_S13x1_0_0)
  let v144 : Vec F S143x1024 .bf16 := View.ld x5 (Rect.unit (s := S3484x1024) ![0, 0] S143x1024.size inb_S3484x1024_S143x1024_0_0)
  let v148 : Vec F S13x1024 .bf16 := View.ld x5 (Rect.unit (s := S3484x1024) ![143, 0] S13x1024.size inb_S3484x1024_S13x1024_143_0)
  let v153 : Vec F S3328x1024 .bf16 := View.ld x5 (Rect.unit (s := S3484x1024) ![156, 0] S3328x1024.size inb_S3484x1024_S3328x1024_156_0)
  let v158 : Vec F S1x1024 .f32 := View.ld x6 (Rect.unit (s := S1x1024) ![0, 0] S1x1024.size inb_S1x1024_S1x1024_0_0)
  let v142 := k1_pay45 v134 v136 v138 v140
  let v161 := k1_pay46 v1 v3 v5 v7 v9 v11 v13 v15 v17 v19 v21 v23 v25 v27 v29 v31 v33 v35 v37 v39 v41 v43 v45 v47 v49 v51 v134 v136 v144 v148 v153 v158
  let v162 : FVec F S512x1024 .f32 := k1_pay47 (F := F)
  View.canon [⟨(Rect.unit (s := S512x1) ![0, 0] S512x1.size inb_S512x1_S512x1_0_0), k1_pay1 v133 v142 v161 v162 (View.ld x7 (Rect.unit (s := S1024x512) ![0, 0] S1024x512.size inb_S1024x512_S1024x512_0_0)) (View.ld x8 (Rect.unit (s := S1x512) ![0, 0] S1x512.size inb_S1x512_S1x512_0_0)) (View.ld x9 (Rect.unit (s := S512x256) ![0, 0] S512x256.size inb_S512x256_S512x256_0_0)) (View.ld x10 (Rect.unit (s := S1x256) ![0, 0] S1x256.size inb_S1x256_S1x256_0_0)) (View.ld x11 (Rect.unit (s := S256x1) ![0, 0] S256x1.size inb_S256x1_S256x1_0_0)) (View.ld x12 (Rect.unit (s := S1x1) ![0, 0] S1x1.size inb_S1x1_S1x1_0_0))⟩]

set_option maxHeartbeats 1000000 in
set_option maxRecDepth 65536 in
/-- The TensorCore body of call 1 on whole staging memrefs — the inputs' at contents `x1 … x38`, the output's at
    anything — runs to the continuation holding the inputs' as they were and the output's at `tcOut1` of them; the
    HBM operand `arg39` (the aliased result, memory space ANY) is not touched. -/
theorem sound_tc1 (c : Dev nD) (E : Set ℕ) (i : grid1.Coords) (arg1 : Memref sig .tc .vmem S512x143 .f32) (harg1 : arg1.IsWhole) (arg2 : Memref sig .tc .vmem S512x13 .f32) (harg2 : arg2.IsWhole) (arg3 : Memref sig .tc .vmem S143x1 .f32) (harg3 : arg3.IsWhole) (arg4 : Memref sig .tc .vmem S13x1 .f32) (harg4 : arg4.IsWhole) (arg5 : Memref sig .tc .vmem S3484x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x1 .bf16) (harg11 : arg11.IsWhole) (arg12 : Memref sig .tc .vmem S1x1 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S512x128 .f32) (harg33 : arg33.IsWhole) (arg34 : Memref sig .tc .vmem S512x128 .f32) (harg34 : arg34.IsWhole) (arg35 : Memref sig .tc .vmem S512x128 .f32) (harg35 : arg35.IsWhole) (arg36 : Memref sig .tc .vmem S512x128 .f32) (harg36 : arg36.IsWhole) (arg37 : Memref sig .tc .vmem S512x128 .f32) (harg37 : arg37.IsWhole) (arg38 : Memref sig .tc .vmem S512x128 .f32) (harg38 : arg38.IsWhole) (arg39 : Memref sig .tc .hbm S4096x1 .f32) (harg39 : arg39.IsWhole) (arg40 : Memref sig .tc .vmem S512x1 .f32) (harg40 : arg40.IsWhole)
    (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) (Kc : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ (∃ d, owns (c : Thread nD τ) arg40 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg40 fullShare (tcOut1 x1 x2 x3 x4 x5 x6 x7 x8 x9 x10 x11 x12 x13 x14 x15 x16 x17 x18 x19 x20 x21 x22 x23 x24 x25 x26 x27 x28 x29 x30 x31 x32 x33 x34 x35 x36 x37 x38)) -∗ Kc ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) Kc := by
  simp only [cc1__tc_body_eq_skeleton]; unfold cc1__tc_body_skel
  simp only [k1_part1_eq_skeleton, k1_part2_eq_skeleton, k1_part3_eq_skeleton, k1_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%d40, %f40, -, H40⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  iexists _; isplitr
  swap; · iexact H40
  ipureintro
  exact View.read_writes_eq_canon _ _ _ (tcOut_cover _)

/-- What the body of pipeline call 3 leaves in its output block (512 rows x 1), from what its thirty-eight input
    blocks hold: the one store's payload, the skeleton's payloads composed in the body's order — the per-field
    blocks e_f, their pairwise sums and squares, the lane sum of (Σ e)² − Σ e², the two small products, the three
    rectified dense layers over the concatenated row, and the read-out. -/
def tcOut3 (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) : Vec F S512x1 .f32 :=
  let e0 : Vec F S512x128 .f32 := View.ld x13 (Rect.unit (s := S512x128) ![0, 0] S512x128.size inb_S512x128_S512x128_0_0)
  let e1 : Vec F S512x128 .f32 := View.ld x14 (Rect.unit (s := S512x128) ![0, 0] S512x128.size inb_S512x128_S512x128_0_0)
  let e2 : Vec F S512x128 .f32 := View.ld x15 (Rect.unit (s := S512x128) ![0, 0] S512x128.size inb_S512x128_S512x128_0_0)
  let e3 : Vec F S512x128 .f32 := View.ld x16 (Rect.unit (s := S512x128) ![0, 0] S512x128.size inb_S512x128_S512x128_0_0)
  let e4 : Vec F S512x128 .f32 := View.ld x17 (Rect.unit (s := S512x128) ![0, 0] S512x128.size inb_S512x128_S512x128_0_0)
  let e5 : Vec F S512x128 .f32 := View.ld x18 (Rect.unit (s := S512x128) ![0, 0] S512x128.size inb_S512x128_S512x128_0_0)
  let e6 : Vec F S512x128 .f32 := View.ld x19 (Rect.unit (s := S512x128) ![0, 0] S512x128.size inb_S512x128_S512x128_0_0)
  let e7 : Vec F S512x128 .f32 := View.ld x20 (Rect.unit (s := S512x128) ![0, 0] S512x128.size inb_S512x128_S512x128_0_0)
  let e8 : Vec F S512x128 .f32 := View.ld x21 (Rect.unit (s := S512x128) ![0, 0] S512x128.size inb_S512x128_S512x128_0_0)
  let e9 : Vec F S512x128 .f32 := View.ld x22 (Rect.unit (s := S512x128) ![0, 0] S512x128.size inb_S512x128_S512x128_0_0)
  let e10 : Vec F S512x128 .f32 := View.ld x23 (Rect.unit (s := S512x128) ![0, 0] S512x128.size inb_S512x128_S512x128_0_0)
  let e11 : Vec F S512x128 .f32 := View.ld x24 (Rect.unit (s := S512x128) ![0, 0] S512x128.size inb_S512x128_S512x128_0_0)
  let e12 : Vec F S512x128 .f32 := View.ld x25 (Rect.unit (s := S512x128) ![0, 0] S512x128.size inb_S512x128_S512x128_0_0)
  let e13 : Vec F S512x128 .f32 := View.ld x26 (Rect.unit (s := S512x128) ![0, 0] S512x128.size inb_S512x128_S512x128_0_0)
  let e14 : Vec F S512x128 .f32 := View.ld x27 (Rect.unit (s := S512x128) ![0, 0] S512x128.size inb_S512x128_S512x128_0_0)
  let e15 : Vec F S512x128 .f32 := View.ld x28 (Rect.unit (s := S512x128) ![0, 0] S512x128.size inb_S512x128_S512x128_0_0)
  let e16 : Vec F S512x128 .f32 := View.ld x29 (Rect.unit (s := S512x128) ![0, 0] S512x128.size inb_S512x128_S512x128_0_0)
  let e17 : Vec F S512x128 .f32 := View.ld x30 (Rect.unit (s := S512x128) ![0, 0] S512x128.size inb_S512x128_S512x128_0_0)
  let e18 : Vec F S512x128 .f32 := View.ld x31 (Rect.unit (s := S512x128) ![0, 0] S512x128.size inb_S512x128_S512x128_0_0)
  let e19 : Vec F S512x128 .f32 := View.ld x32 (Rect.unit (s := S512x128) ![0, 0] S512x128.size inb_S512x128_S512x128_0_0)
  let e20 : Vec F S512x128 .f32 := View.ld x33 (Rect.unit (s := S512x128) ![0, 0] S512x128.size inb_S512x128_S512x128_0_0)
  let e21 : Vec F S512x128 .f32 := View.ld x34 (Rect.unit (s := S512x128) ![0, 0] S512x128.size inb_S512x128_S512x128_0_0)
  let e22 : Vec F S512x128 .f32 := View.ld x35 (Rect.unit (s := S512x128) ![0, 0] S512x128.size inb_S512x128_S512x128_0_0)
  let e23 : Vec F S512x128 .f32 := View.ld x36 (Rect.unit (s := S512x128) ![0, 0] S512x128.size inb_S512x128_S512x128_0_0)
  let e24 : Vec F S512x128 .f32 := View.ld x37 (Rect.unit (s := S512x128) ![0, 0] S512x128.size inb_S512x128_S512x128_0_0)
  let e25 : Vec F S512x128 .f32 := View.ld x38 (Rect.unit (s := S512x128) ![0, 0] S512x128.size inb_S512x128_S512x128_0_0)
  let v1 := k3_pay2 e0
  let v3 := k3_pay3 e1
  let v5 := k3_pay4 e2
  let v7 := k3_pay5 e3
  let v9 := k3_pay6 e4
  let v11 := k3_pay7 e5
  let v13 := k3_pay8 e6
  let v15 := k3_pay9 e7
  let v17 := k3_pay10 e8
  let v19 := k3_pay11 e9
  let v21 := k3_pay12 e10
  let v23 := k3_pay13 e11
  let v25 := k3_pay14 e12
  let v27 := k3_pay15 e13
  let v29 := k3_pay16 e14
  let v31 := k3_pay17 e15
  let v33 := k3_pay18 e16
  let v35 := k3_pay19 e17
  let v37 := k3_pay20 e18
  let v39 := k3_pay21 e19
  let v41 := k3_pay22 e20
  let v43 := k3_pay23 e21
  let v45 := k3_pay24 e22
  let v47 := k3_pay25 e23
  let v49 := k3_pay26 e24
  let v51 := k3_pay27 e25
  let v56 := k3_pay28 v17 v19
  let v57 := k3_pay29 v21 v23
  let v58 := k3_pay30 v25 v27
  let v59 := k3_pay31 e14 e15
  let v60 := k3_pay32 e16 e17
  let v61 := k3_pay33 e18 e19
  let v62 := k3_pay34 e20 e21
  let v63 := k3_pay35 e22 e23
  let v64 := k3_pay36 e24 e25
  let v65 := k3_pay37 v1 v3 v5 v7
  let v66 := k3_pay38 v9 v11 v13 v15
  let v76 := k3_pay39 v56 v57 v58 v59 v60 v61 v62 v63 v64 v65 v66
  let v125 := k3_pay40 v1 v3 v5 v7 v9 v11 v13 v15 v17 v19 v21 v23 v25 v27 v29 v31
  let v126 := k3_pay41 v33 v35 v37 v39 v41 v43 v45 v47 v49 v51
  let v133 := k3_pay42 v76 v125 v126
  let v134 : Vec F S512x143 .f32 := View.ld x1 (Rect.unit (s := S512x143) ![0, 0] S512x143.size inb_S512x143_S512x143_0_0)
  let v136 : Vec F S512x13 .f32 := View.ld x2 (Rect.unit (s := S512x13) ![0, 0] S512x13.size inb_S512x13_S512x13_0_0)
  let v138 : Vec F S143x1 .f32 := View.ld x3 (Rect.unit (s := S143x1) ![0, 0] S143x1.size inb_S143x1_S143x1_0_0)
  let v140 : Vec F S13x1 .f32 := View.ld x4 (Rect.unit (s := S13x1) ![0, 0] S13x1.size inb_S13x1_S13x1_0_0)
  let v144 : Vec F S143x1024 .bf16 := View.ld x5 (Rect.unit (s := S3484x1024) ![0, 0] S143x1024.size inb_S3484x1024_S143x1024_0_0)
  let v148 : Vec F S13x1024 .bf16 := View.ld x5 (Rect.unit (s := S3484x1024) ![143, 0] S13x1024.size inb_S3484x1024_S13x1024_143_0)
  let v153 : Vec F S3328x1024 .bf16 := View.ld x5 (Rect.unit (s := S3484x1024) ![156, 0] S3328x1024.size inb_S3484x1024_S3328x1024_156_0)
  let v158 : Vec F S1x1024 .f32 := View.ld x6 (Rect.unit (s := S1x1024) ![0, 0] S1x1024.size inb_S1x1024_S1x1024_0_0)
  let v142 := k3_pay45 v134 v136 v138 v140
  let v161 := k3_pay46 v1 v3 v5 v7 v9 v11 v13 v15 v17 v19 v21 v23 v25 v27 v29 v31 v33 v35 v37 v39 v41 v43 v45 v47 v49 v51 v134 v136 v144 v148 v153 v158
  let v162 : FVec F S512x1024 .f32 := k3_pay47 (F := F)
  View.canon [⟨(Rect.unit (s := S512x1) ![0, 0] S512x1.size inb_S512x1_S512x1_0_0), k3_pay1 v133 v142 v161 v162 (View.ld x7 (Rect.unit (s := S1024x512) ![0, 0] S1024x512.size inb_S1024x512_S1024x512_0_0)) (View.ld x8 (Rect.unit (s := S1x512) ![0, 0] S1x512.size inb_S1x512_S1x512_0_0)) (View.ld x9 (Rect.unit (s := S512x256) ![0, 0] S512x256.size inb_S512x256_S512x256_0_0)) (View.ld x10 (Rect.unit (s := S1x256) ![0, 0] S1x256.size inb_S1x256_S1x256_0_0)) (View.ld x11 (Rect.unit (s := S256x1) ![0, 0] S256x1.size inb_S256x1_S256x1_0_0)) (View.ld x12 (Rect.unit (s := S1x1) ![0, 0] S1x1.size inb_S1x1_S1x1_0_0))⟩]

set_option maxHeartbeats 1000000 in
set_option maxRecDepth 65536 in
/-- The TensorCore body of call 3 on whole staging memrefs — the inputs' at contents `x1 … x38`, the output's at
    anything — runs to the continuation holding the inputs' as they were and the output's at `tcOut3` of them; the
    HBM operand `arg39` (the aliased result, memory space ANY) is not touched. -/
theorem sound_tc3 (c : Dev nD) (E : Set ℕ) (i : grid3.Coords) (arg1 : Memref sig .tc .vmem S512x143 .f32) (harg1 : arg1.IsWhole) (arg2 : Memref sig .tc .vmem S512x13 .f32) (harg2 : arg2.IsWhole) (arg3 : Memref sig .tc .vmem S143x1 .f32) (harg3 : arg3.IsWhole) (arg4 : Memref sig .tc .vmem S13x1 .f32) (harg4 : arg4.IsWhole) (arg5 : Memref sig .tc .vmem S3484x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x1 .bf16) (harg11 : arg11.IsWhole) (arg12 : Memref sig .tc .vmem S1x1 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S512x128 .f32) (harg33 : arg33.IsWhole) (arg34 : Memref sig .tc .vmem S512x128 .f32) (harg34 : arg34.IsWhole) (arg35 : Memref sig .tc .vmem S512x128 .f32) (harg35 : arg35.IsWhole) (arg36 : Memref sig .tc .vmem S512x128 .f32) (harg36 : arg36.IsWhole) (arg37 : Memref sig .tc .vmem S512x128 .f32) (harg37 : arg37.IsWhole) (arg38 : Memref sig .tc .vmem S512x128 .f32) (harg38 : arg38.IsWhole) (arg39 : Memref sig .tc .hbm S4096x1 .f32) (harg39 : arg39.IsWhole) (arg40 : Memref sig .tc .vmem S512x1 .f32) (harg40 : arg40.IsWhole)
    (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) (Kc : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ (∃ d, owns (c : Thread nD τ) arg40 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg40 fullShare (tcOut3 x1 x2 x3 x4 x5 x6 x7 x8 x9 x10 x11 x12 x13 x14 x15 x16 x17 x18 x19 x20 x21 x22 x23 x24 x25 x26 x27 x28 x29 x30 x31 x32 x33 x34 x35 x36 x37 x38)) -∗ Kc ⟨⟩))
      ⊢ wp frame (wpE (defs₀ (F := F)) Variants.none c none) E (cc3__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) Kc := by
  simp only [cc3__tc_body_eq_skeleton]; unfold cc3__tc_body_skel
  simp only [k3_part1_eq_skeleton, k3_part2_eq_skeleton, k3_part3_eq_skeleton, k3_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%d40, %f40, -, H40⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  iexists _; isplitr
  swap; · iexact H40
  ipureintro
  exact View.read_writes_eq_canon _ _ _ (tcOut_cover _)

end Cert.Proof.KI

end
-- ==== Proof.Regions.lean ====
/-
  The two TensorCore pipelines: their proof data (what every window's staging buffer holds after the body at each grid
  point) and the body obligation at a generic point, from the body's triple.
-/
import proofs.«205278_g66915590471714_cont_9to1_m_383_35_alg».proof.Proof.TcBody
import proofs.«205278_g66915590471714_cont_9to1_m_383_35_alg».proof.Proof.Gen.KernelIdeal.Points
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe

variable {F : FTy → Type} [FloatOps F]

local notation "𝕄" => MT nD τ sig (HIx 2) (Elt F) ℕ UU ℕ

/-! ## Pipeline call 0 (custom_call 1) -/

section Region1

variable (Vr : Valuation τ sig (Elt F))

/-- A TensorCore array's contents at the region's entry. -/
abbrev Vb1 (c : Dev nD) (b : Ref sig .tc) : Buf (Elt F) ((c : Thread nD τ).loc b) := Vr (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb1 Vr c (Pipeline.arrRef spec1 w))

/-- The share each input window holds its array at: the twenty-six windows of the gathered-rows array one read token
    each, every other window its array whole. -/
def qW1 (w : Fin cfg1.W) : PosShare TreeShare := if 12 ≤ w.val ∧ w.val ≤ 37 then shareTokN fullShare (w.val - 12) else fullShare

/-- The proof data of the pipeline on core `c`: the arrays as the region finds them; after the body at point `t` each
    input's buffer at its block and the output's at the body's function of the input blocks; the invariant the scoped
    buffers no window stages; the core owing `O` throughout. -/
def dats1 (O : CellTallies nD τ sig (HIx 2)) (Wr : Set (SemLoc sig × HIx 2)) (c : Dev nD) : Pipeline.Dat τ (Elt F) (HIx 2) ℕ UU ℕ cfg1 c where
  A w := Vb1 Vr c (Pipeline.arrRef spec1 w)
  after w t := match w with
    | ⟨0, _⟩ => iblk1 Vr c 0 t
    | ⟨1, _⟩ => iblk1 Vr c 1 t
    | ⟨2, _⟩ => iblk1 Vr c 2 t
    | ⟨3, _⟩ => iblk1 Vr c 3 t
    | ⟨4, _⟩ => iblk1 Vr c 4 t
    | ⟨5, _⟩ => iblk1 Vr c 5 t
    | ⟨6, _⟩ => iblk1 Vr c 6 t
    | ⟨7, _⟩ => iblk1 Vr c 7 t
    | ⟨8, _⟩ => iblk1 Vr c 8 t
    | ⟨9, _⟩ => iblk1 Vr c 9 t
    | ⟨10, _⟩ => iblk1 Vr c 10 t
    | ⟨11, _⟩ => iblk1 Vr c 11 t
    | ⟨12, _⟩ => iblk1 Vr c 12 t
    | ⟨13, _⟩ => iblk1 Vr c 13 t
    | ⟨14, _⟩ => iblk1 Vr c 14 t
    | ⟨15, _⟩ => iblk1 Vr c 15 t
    | ⟨16, _⟩ => iblk1 Vr c 16 t
    | ⟨17, _⟩ => iblk1 Vr c 17 t
    | ⟨18, _⟩ => iblk1 Vr c 18 t
    | ⟨19, _⟩ => iblk1 Vr c 19 t
    | ⟨20, _⟩ => iblk1 Vr c 20 t
    | ⟨21, _⟩ => iblk1 Vr c 21 t
    | ⟨22, _⟩ => iblk1 Vr c 22 t
    | ⟨23, _⟩ => iblk1 Vr c 23 t
    | ⟨24, _⟩ => iblk1 Vr c 24 t
    | ⟨25, _⟩ => iblk1 Vr c 25 t
    | ⟨26, _⟩ => iblk1 Vr c 26 t
    | ⟨27, _⟩ => iblk1 Vr c 27 t
    | ⟨28, _⟩ => iblk1 Vr c 28 t
    | ⟨29, _⟩ => iblk1 Vr c 29 t
    | ⟨30, _⟩ => iblk1 Vr c 30 t
    | ⟨31, _⟩ => iblk1 Vr c 31 t
    | ⟨32, _⟩ => iblk1 Vr c 32 t
    | ⟨33, _⟩ => iblk1 Vr c 33 t
    | ⟨34, _⟩ => iblk1 Vr c 34 t
    | ⟨35, _⟩ => iblk1 Vr c 35 t
    | ⟨36, _⟩ => iblk1 Vr c 36 t
    | ⟨37, _⟩ => iblk1 Vr c 37 t
    | ⟨38, _⟩ => tcOut1 (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t)
    | ⟨_ + 39, h⟩ => absurd h (Nat.not_lt.2 (Nat.le_add_left _ _))
  Φ _ := Pipeline.scopedRest spec1 c
  q w := qW1 w
  owed _ := O
  recorded _ := Wr

theorem A1_eq (O : CellTallies nD τ sig (HIx 2)) (Wr : Set (SemLoc sig × HIx 2)) (c : Dev nD) (w : Fin cfg1.W) : (dats1 Vr O Wr c).A w = Vb1 Vr c (Pipeline.arrRef spec1 w) := by
  dsimp only [dats1]

theorem after1_0 (O : CellTallies nD τ sig (HIx 2)) (Wr : Set (SemLoc sig × HIx 2)) (c : Dev nD) (t : Fin cfg1.N) : (dats1 Vr O Wr c).after 0 t = iblk1 Vr c 0 t := by dsimp only [dats1]
theorem after1_1 (O : CellTallies nD τ sig (HIx 2)) (Wr : Set (SemLoc sig × HIx 2)) (c : Dev nD) (t : Fin cfg1.N) : (dats1 Vr O Wr c).after 1 t = iblk1 Vr c 1 t := by dsimp only [dats1]
theorem after1_2 (O : CellTallies nD τ sig (HIx 2)) (Wr : Set (SemLoc sig × HIx 2)) (c : Dev nD) (t : Fin cfg1.N) : (dats1 Vr O Wr c).after 2 t = iblk1 Vr c 2 t := by dsimp only [dats1]
theorem after1_3 (O : CellTallies nD τ sig (HIx 2)) (Wr : Set (SemLoc sig × HIx 2)) (c : Dev nD) (t : Fin cfg1.N) : (dats1 Vr O Wr c).after 3 t = iblk1 Vr c 3 t := by dsimp only [dats1]
theorem after1_4 (O : CellTallies nD τ sig (HIx 2)) (Wr : Set (SemLoc sig × HIx 2)) (c : Dev nD) (t : Fin cfg1.N) : (dats1 Vr O Wr c).after 4 t = iblk1 Vr c 4 t := by dsimp only [dats1]
theorem after1_5 (O : CellTallies nD τ sig (HIx 2)) (Wr : Set (SemLoc sig × HIx 2)) (c : Dev nD) (t : Fin cfg1.N) : (dats1 Vr O Wr c).after 5 t = iblk1 Vr c 5 t := by dsimp only [dats1]
theorem after1_6 (O : CellTallies nD τ sig (HIx 2)) (Wr : Set (SemLoc sig × HIx 2)) (c : Dev nD) (t : Fin cfg1.N) : (dats1 Vr O Wr c).after 6 t = iblk1 Vr c 6 t := by dsimp only [dats1]
theorem after1_7 (O : CellTallies nD τ sig (HIx 2)) (Wr : Set (SemLoc sig × HIx 2)) (c : Dev nD) (t : Fin cfg1.N) : (dats1 Vr O Wr c).after 7 t = iblk1 Vr c 7 t := by dsimp only [dats1]
theorem after1_8 (O : CellTallies nD τ sig (HIx 2)) (Wr : Set (SemLoc sig × HIx 2)) (c : Dev nD) (t : Fin cfg1.N) : (dats1 Vr O Wr c).after 8 t = iblk1 Vr c 8 t := by dsimp only [dats1]
theorem after1_9 (O : CellTallies nD τ sig (HIx 2)) (Wr : Set (SemLoc sig × HIx 2)) (c : Dev nD) (t : Fin cfg1.N) : (dats1 Vr O Wr c).after 9 t = iblk1 Vr c 9 t := by dsimp only [dats1]
theorem after1_10 (O : CellTallies nD τ sig (HIx 2)) (Wr : Set (SemLoc sig × HIx 2)) (c : Dev nD) (t : Fin cfg1.N) : (dats1 Vr O Wr c).after 10 t = iblk1 Vr c 10 t := by dsimp only [dats1]
theorem after1_11 (O : CellTallies nD τ sig (HIx 2)) (Wr : Set (SemLoc sig × HIx 2)) (c : Dev nD) (t : Fin cfg1.N) : (dats1 Vr O Wr c).after 11 t = iblk1 Vr c 11 t := by dsimp only [dats1]
theorem after1_12 (O : CellTallies nD τ sig (HIx 2)) (Wr : Set (SemLoc sig × HIx 2)) (c : Dev nD) (t : Fin cfg1.N) : (dats1 Vr O Wr c).after 12 t = iblk1 Vr c 12 t := by dsimp only [dats1]
theorem after1_13 (O : CellTallies nD τ sig (HIx 2)) (Wr : Set (SemLoc sig × HIx 2)) (c : Dev nD) (t : Fin cfg1.N) : (dats1 Vr O Wr c).after 13 t = iblk1 Vr c 13 t := by dsimp only [dats1]
theorem after1_14 (O : CellTallies nD τ sig (HIx 2)) (Wr : Set (SemLoc sig × HIx 2)) (c : Dev nD) (t : Fin cfg1.N) : (dats1 Vr O Wr c).after 14 t = iblk1 Vr c 14 t := by dsimp only [dats1]
theorem after1_15 (O : CellTallies nD τ sig (HIx 2)) (Wr : Set (SemLoc sig × HIx 2)) (c : Dev nD) (t : Fin cfg1.N) : (dats1 Vr O Wr c).after 15 t = iblk1 Vr c 15 t := by dsimp only [dats1]
theorem after1_16 (O : CellTallies nD τ sig (HIx 2)) (Wr : Set (SemLoc sig × HIx 2)) (c : Dev nD) (t : Fin cfg1.N) : (dats1 Vr O Wr c).after 16 t = iblk1 Vr c 16 t := by dsimp only [dats1]
theorem after1_17 (O : CellTallies nD τ sig (HIx 2)) (Wr : Set (SemLoc sig × HIx 2)) (c : Dev nD) (t : Fin cfg1.N) : (dats1 Vr O Wr c).after 17 t = iblk1 Vr c 17 t := by dsimp only [dats1]
theorem after1_18 (O : CellTallies nD τ sig (HIx 2)) (Wr : Set (SemLoc sig × HIx 2)) (c : Dev nD) (t : Fin cfg1.N) : (dats1 Vr O Wr c).after 18 t = iblk1 Vr c 18 t := by dsimp only [dats1]
theorem after1_19 (O : CellTallies nD τ sig (HIx 2)) (Wr : Set (SemLoc sig × HIx 2)) (c : Dev nD) (t : Fin cfg1.N) : (dats1 Vr O Wr c).after 19 t = iblk1 Vr c 19 t := by dsimp only [dats1]
theorem after1_20 (O : CellTallies nD τ sig (HIx 2)) (Wr : Set (SemLoc sig × HIx 2)) (c : Dev nD) (t : Fin cfg1.N) : (dats1 Vr O Wr c).after 20 t = iblk1 Vr c 20 t := by dsimp only [dats1]
theorem after1_21 (O : CellTallies nD τ sig (HIx 2)) (Wr : Set (SemLoc sig × HIx 2)) (c : Dev nD) (t : Fin cfg1.N) : (dats1 Vr O Wr c).after 21 t = iblk1 Vr c 21 t := by dsimp only [dats1]
theorem after1_22 (O : CellTallies nD τ sig (HIx 2)) (Wr : Set (SemLoc sig × HIx 2)) (c : Dev nD) (t : Fin cfg1.N) : (dats1 Vr O Wr c).after 22 t = iblk1 Vr c 22 t := by dsimp only [dats1]
theorem after1_23 (O : CellTallies nD τ sig (HIx 2)) (Wr : Set (SemLoc sig × HIx 2)) (c : Dev nD) (t : Fin cfg1.N) : (dats1 Vr O Wr c).after 23 t = iblk1 Vr c 23 t := by dsimp only [dats1]
theorem after1_24 (O : CellTallies nD τ sig (HIx 2)) (Wr : Set (SemLoc sig × HIx 2)) (c : Dev nD) (t : Fin cfg1.N) : (dats1 Vr O Wr c).after 24 t = iblk1 Vr c 24 t := by dsimp only [dats1]
theorem after1_25 (O : CellTallies nD τ sig (HIx 2)) (Wr : Set (SemLoc sig × HIx 2)) (c : Dev nD) (t : Fin cfg1.N) : (dats1 Vr O Wr c).after 25 t = iblk1 Vr c 25 t := by dsimp only [dats1]
theorem after1_26 (O : CellTallies nD τ sig (HIx 2)) (Wr : Set (SemLoc sig × HIx 2)) (c : Dev nD) (t : Fin cfg1.N) : (dats1 Vr O Wr c).after 26 t = iblk1 Vr c 26 t := by dsimp only [dats1]
theorem after1_27 (O : CellTallies nD τ sig (HIx 2)) (Wr : Set (SemLoc sig × HIx 2)) (c : Dev nD) (t : Fin cfg1.N) : (dats1 Vr O Wr c).after 27 t = iblk1 Vr c 27 t := by dsimp only [dats1]
theorem after1_28 (O : CellTallies nD τ sig (HIx 2)) (Wr : Set (SemLoc sig × HIx 2)) (c : Dev nD) (t : Fin cfg1.N) : (dats1 Vr O Wr c).after 28 t = iblk1 Vr c 28 t := by dsimp only [dats1]
theorem after1_29 (O : CellTallies nD τ sig (HIx 2)) (Wr : Set (SemLoc sig × HIx 2)) (c : Dev nD) (t : Fin cfg1.N) : (dats1 Vr O Wr c).after 29 t = iblk1 Vr c 29 t := by dsimp only [dats1]
theorem after1_30 (O : CellTallies nD τ sig (HIx 2)) (Wr : Set (SemLoc sig × HIx 2)) (c : Dev nD) (t : Fin cfg1.N) : (dats1 Vr O Wr c).after 30 t = iblk1 Vr c 30 t := by dsimp only [dats1]
theorem after1_31 (O : CellTallies nD τ sig (HIx 2)) (Wr : Set (SemLoc sig × HIx 2)) (c : Dev nD) (t : Fin cfg1.N) : (dats1 Vr O Wr c).after 31 t = iblk1 Vr c 31 t := by dsimp only [dats1]
theorem after1_32 (O : CellTallies nD τ sig (HIx 2)) (Wr : Set (SemLoc sig × HIx 2)) (c : Dev nD) (t : Fin cfg1.N) : (dats1 Vr O Wr c).after 32 t = iblk1 Vr c 32 t := by dsimp only [dats1]
theorem after1_33 (O : CellTallies nD τ sig (HIx 2)) (Wr : Set (SemLoc sig × HIx 2)) (c : Dev nD) (t : Fin cfg1.N) : (dats1 Vr O Wr c).after 33 t = iblk1 Vr c 33 t := by dsimp only [dats1]
theorem after1_34 (O : CellTallies nD τ sig (HIx 2)) (Wr : Set (SemLoc sig × HIx 2)) (c : Dev nD) (t : Fin cfg1.N) : (dats1 Vr O Wr c).after 34 t = iblk1 Vr c 34 t := by dsimp only [dats1]
theorem after1_35 (O : CellTallies nD τ sig (HIx 2)) (Wr : Set (SemLoc sig × HIx 2)) (c : Dev nD) (t : Fin cfg1.N) : (dats1 Vr O Wr c).after 35 t = iblk1 Vr c 35 t := by dsimp only [dats1]
theorem after1_36 (O : CellTallies nD τ sig (HIx 2)) (Wr : Set (SemLoc sig × HIx 2)) (c : Dev nD) (t : Fin cfg1.N) : (dats1 Vr O Wr c).after 36 t = iblk1 Vr c 36 t := by dsimp only [dats1]
theorem after1_37 (O : CellTallies nD τ sig (HIx 2)) (Wr : Set (SemLoc sig × HIx 2)) (c : Dev nD) (t : Fin cfg1.N) : (dats1 Vr O Wr c).after 37 t = iblk1 Vr c 37 t := by dsimp only [dats1]
theorem after1_38 (O : CellTallies nD τ sig (HIx 2)) (Wr : Set (SemLoc sig × HIx 2)) (c : Dev nD) (t : Fin cfg1.N) : (dats1 Vr O Wr c).after 38 t = tcOut1 (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t) := by dsimp only [dats1]

theorem before1_0 (O : CellTallies nD τ sig (HIx 2)) (Wr : Set (SemLoc sig × HIx 2)) (c : Dev nD) (t : Fin cfg1.N) (d) : (dats1 Vr O Wr c).before 0 t d = iblk1 Vr c 0 t :=
  ((dats1 Vr O Wr c).before_in_eq_fetched 0 rfl (fun _ => rfl) (fun _ _ _ => rfl) (fun t => by rw [after1_0]; unfold Pipeline.Dat.blockOf iblk1; rw [A1_eq]; try rfl) t d).trans
    (by unfold Pipeline.Dat.fetched Pipeline.Dat.blockOf iblk1; rw [A1_eq]; try rfl)
theorem before1_1 (O : CellTallies nD τ sig (HIx 2)) (Wr : Set (SemLoc sig × HIx 2)) (c : Dev nD) (t : Fin cfg1.N) (d) : (dats1 Vr O Wr c).before 1 t d = iblk1 Vr c 1 t :=
  ((dats1 Vr O Wr c).before_in_eq_fetched 1 rfl (fun _ => rfl) (fun _ _ _ => rfl) (fun t => by rw [after1_1]; unfold Pipeline.Dat.blockOf iblk1; rw [A1_eq]; try rfl) t d).trans
    (by unfold Pipeline.Dat.fetched Pipeline.Dat.blockOf iblk1; rw [A1_eq]; try rfl)
theorem before1_2 (O : CellTallies nD τ sig (HIx 2)) (Wr : Set (SemLoc sig × HIx 2)) (c : Dev nD) (t : Fin cfg1.N) (d) : (dats1 Vr O Wr c).before 2 t d = iblk1 Vr c 2 t :=
  ((dats1 Vr O Wr c).before_in_eq_fetched 2 rfl (fun _ => rfl) (fun _ _ _ => rfl) (fun t => by rw [after1_2]; unfold Pipeline.Dat.blockOf iblk1; rw [A1_eq]; try rfl) t d).trans
    (by unfold Pipeline.Dat.fetched Pipeline.Dat.blockOf iblk1; rw [A1_eq]; try rfl)
theorem before1_3 (O : CellTallies nD τ sig (HIx 2)) (Wr : Set (SemLoc sig × HIx 2)) (c : Dev nD) (t : Fin cfg1.N) (d) : (dats1 Vr O Wr c).before 3 t d = iblk1 Vr c 3 t :=
  ((dats1 Vr O Wr c).before_in_eq_fetched 3 rfl (fun _ => rfl) (fun _ _ _ => rfl) (fun t => by rw [after1_3]; unfold Pipeline.Dat.blockOf iblk1; rw [A1_eq]; try rfl) t d).trans
    (by unfold Pipeline.Dat.fetched Pipeline.Dat.blockOf iblk1; rw [A1_eq]; try rfl)
theorem before1_4 (O : CellTallies nD τ sig (HIx 2)) (Wr : Set (SemLoc sig × HIx 2)) (c : Dev nD) (t : Fin cfg1.N) (d) : (dats1 Vr O Wr c).before 4 t d = iblk1 Vr c 4 t :=
  ((dats1 Vr O Wr c).before_in_eq_fetched 4 rfl (fun _ => rfl) (fun _ _ _ => rfl) (fun t => by rw [after1_4]; unfold Pipeline.Dat.blockOf iblk1; rw [A1_eq]; try rfl) t d).trans
    (by unfold Pipeline.Dat.fetched Pipeline.Dat.blockOf iblk1; rw [A1_eq]; try rfl)
theorem before1_5 (O : CellTallies nD τ sig (HIx 2)) (Wr : Set (SemLoc sig × HIx 2)) (c : Dev nD) (t : Fin cfg1.N) (d) : (dats1 Vr O Wr c).before 5 t d = iblk1 Vr c 5 t :=
  ((dats1 Vr O Wr c).before_in_eq_fetched 5 rfl (fun _ => rfl) (fun _ _ _ => rfl) (fun t => by rw [after1_5]; unfold Pipeline.Dat.blockOf iblk1; rw [A1_eq]; try rfl) t d).trans
    (by unfold Pipeline.Dat.fetched Pipeline.Dat.blockOf iblk1; rw [A1_eq]; try rfl)
theorem before1_6 (O : CellTallies nD τ sig (HIx 2)) (Wr : Set (SemLoc sig × HIx 2)) (c : Dev nD) (t : Fin cfg1.N) (d) : (dats1 Vr O Wr c).before 6 t d = iblk1 Vr c 6 t :=
  ((dats1 Vr O Wr c).before_in_eq_fetched 6 rfl (fun _ => rfl) (fun _ _ _ => rfl) (fun t => by rw [after1_6]; unfold Pipeline.Dat.blockOf iblk1; rw [A1_eq]; try rfl) t d).trans
    (by unfold Pipeline.Dat.fetched Pipeline.Dat.blockOf iblk1; rw [A1_eq]; try rfl)
theorem before1_7 (O : CellTallies nD τ sig (HIx 2)) (Wr : Set (SemLoc sig × HIx 2)) (c : Dev nD) (t : Fin cfg1.N) (d) : (dats1 Vr O Wr c).before 7 t d = iblk1 Vr c 7 t :=
  ((dats1 Vr O Wr c).before_in_eq_fetched 7 rfl (fun _ => rfl) (fun _ _ _ => rfl) (fun t => by rw [after1_7]; unfold Pipeline.Dat.blockOf iblk1; rw [A1_eq]; try rfl) t d).trans
    (by unfold Pipeline.Dat.fetched Pipeline.Dat.blockOf iblk1; rw [A1_eq]; try rfl)
theorem before1_8 (O : CellTallies nD τ sig (HIx 2)) (Wr : Set (SemLoc sig × HIx 2)) (c : Dev nD) (t : Fin cfg1.N) (d) : (dats1 Vr O Wr c).before 8 t d = iblk1 Vr c 8 t :=
  ((dats1 Vr O Wr c).before_in_eq_fetched 8 rfl (fun _ => rfl) (fun _ _ _ => rfl) (fun t => by rw [after1_8]; unfold Pipeline.Dat.blockOf iblk1; rw [A1_eq]; try rfl) t d).trans
    (by unfold Pipeline.Dat.fetched Pipeline.Dat.blockOf iblk1; rw [A1_eq]; try rfl)
theorem before1_9 (O : CellTallies nD τ sig (HIx 2)) (Wr : Set (SemLoc sig × HIx 2)) (c : Dev nD) (t : Fin cfg1.N) (d) : (dats1 Vr O Wr c).before 9 t d = iblk1 Vr c 9 t :=
  ((dats1 Vr O Wr c).before_in_eq_fetched 9 rfl (fun _ => rfl) (fun _ _ _ => rfl) (fun t => by rw [after1_9]; unfold Pipeline.Dat.blockOf iblk1; rw [A1_eq]; try rfl) t d).trans
    (by unfold Pipeline.Dat.fetched Pipeline.Dat.blockOf iblk1; rw [A1_eq]; try rfl)
theorem before1_10 (O : CellTallies nD τ sig (HIx 2)) (Wr : Set (SemLoc sig × HIx 2)) (c : Dev nD) (t : Fin cfg1.N) (d) : (dats1 Vr O Wr c).before 10 t d = iblk1 Vr c 10 t :=
  ((dats1 Vr O Wr c).before_in_eq_fetched 10 rfl (fun _ => rfl) (fun _ _ _ => rfl) (fun t => by rw [after1_10]; unfold Pipeline.Dat.blockOf iblk1; rw [A1_eq]; try rfl) t d).trans
    (by unfold Pipeline.Dat.fetched Pipeline.Dat.blockOf iblk1; rw [A1_eq]; try rfl)
theorem before1_11 (O : CellTallies nD τ sig (HIx 2)) (Wr : Set (SemLoc sig × HIx 2)) (c : Dev nD) (t : Fin cfg1.N) (d) : (dats1 Vr O Wr c).before 11 t d = iblk1 Vr c 11 t :=
  ((dats1 Vr O Wr c).before_in_eq_fetched 11 rfl (fun _ => rfl) (fun _ _ _ => rfl) (fun t => by rw [after1_11]; unfold Pipeline.Dat.blockOf iblk1; rw [A1_eq]; try rfl) t d).trans
    (by unfold Pipeline.Dat.fetched Pipeline.Dat.blockOf iblk1; rw [A1_eq]; try rfl)
theorem before1_12 (O : CellTallies nD τ sig (HIx 2)) (Wr : Set (SemLoc sig × HIx 2)) (c : Dev nD) (t : Fin cfg1.N) (d) : (dats1 Vr O Wr c).before 12 t d = iblk1 Vr c 12 t :=
  ((dats1 Vr O Wr c).before_in_eq_fetched 12 rfl (fun _ => rfl) (fun _ _ _ => rfl) (fun t => by rw [after1_12]; unfold Pipeline.Dat.blockOf iblk1; rw [A1_eq]; try rfl) t d).trans
    (by unfold Pipeline.Dat.fetched Pipeline.Dat.blockOf iblk1; rw [A1_eq]; try rfl)
theorem before1_13 (O : CellTallies nD τ sig (HIx 2)) (Wr : Set (SemLoc sig × HIx 2)) (c : Dev nD) (t : Fin cfg1.N) (d) : (dats1 Vr O Wr c).before 13 t d = iblk1 Vr c 13 t :=
  ((dats1 Vr O Wr c).before_in_eq_fetched 13 rfl (fun _ => rfl) (fun _ _ _ => rfl) (fun t => by rw [after1_13]; unfold Pipeline.Dat.blockOf iblk1; rw [A1_eq]; try rfl) t d).trans
    (by unfold Pipeline.Dat.fetched Pipeline.Dat.blockOf iblk1; rw [A1_eq]; try rfl)
theorem before1_14 (O : CellTallies nD τ sig (HIx 2)) (Wr : Set (SemLoc sig × HIx 2)) (c : Dev nD) (t : Fin cfg1.N) (d) : (dats1 Vr O Wr c).before 14 t d = iblk1 Vr c 14 t :=
  ((dats1 Vr O Wr c).before_in_eq_fetched 14 rfl (fun _ => rfl) (fun _ _ _ => rfl) (fun t => by rw [after1_14]; unfold Pipeline.Dat.blockOf iblk1; rw [A1_eq]; try rfl) t d).trans
    (by unfold Pipeline.Dat.fetched Pipeline.Dat.blockOf iblk1; rw [A1_eq]; try rfl)
theorem before1_15 (O : CellTallies nD τ sig (HIx 2)) (Wr : Set (SemLoc sig × HIx 2)) (c : Dev nD) (t : Fin cfg1.N) (d) : (dats1 Vr O Wr c).before 15 t d = iblk1 Vr c 15 t :=
  ((dats1 Vr O Wr c).before_in_eq_fetched 15 rfl (fun _ => rfl) (fun _ _ _ => rfl) (fun t => by rw [after1_15]; unfold Pipeline.Dat.blockOf iblk1; rw [A1_eq]; try rfl) t d).trans
    (by unfold Pipeline.Dat.fetched Pipeline.Dat.blockOf iblk1; rw [A1_eq]; try rfl)
theorem before1_16 (O : CellTallies nD τ sig (HIx 2)) (Wr : Set (SemLoc sig × HIx 2)) (c : Dev nD) (t : Fin cfg1.N) (d) : (dats1 Vr O Wr c).before 16 t d = iblk1 Vr c 16 t :=
  ((dats1 Vr O Wr c).before_in_eq_fetched 16 rfl (fun _ => rfl) (fun _ _ _ => rfl) (fun t => by rw [after1_16]; unfold Pipeline.Dat.blockOf iblk1; rw [A1_eq]; try rfl) t d).trans
    (by unfold Pipeline.Dat.fetched Pipeline.Dat.blockOf iblk1; rw [A1_eq]; try rfl)
theorem before1_17 (O : CellTallies nD τ sig (HIx 2)) (Wr : Set (SemLoc sig × HIx 2)) (c : Dev nD) (t : Fin cfg1.N) (d) : (dats1 Vr O Wr c).before 17 t d = iblk1 Vr c 17 t :=
  ((dats1 Vr O Wr c).before_in_eq_fetched 17 rfl (fun _ => rfl) (fun _ _ _ => rfl) (fun t => by rw [after1_17]; unfold Pipeline.Dat.blockOf iblk1; rw [A1_eq]; try rfl) t d).trans
    (by unfold Pipeline.Dat.fetched Pipeline.Dat.blockOf iblk1; rw [A1_eq]; try rfl)
theorem before1_18 (O : CellTallies nD τ sig (HIx 2)) (Wr : Set (SemLoc sig × HIx 2)) (c : Dev nD) (t : Fin cfg1.N) (d) : (dats1 Vr O Wr c).before 18 t d = iblk1 Vr c 18 t :=
  ((dats1 Vr O Wr c).before_in_eq_fetched 18 rfl (fun _ => rfl) (fun _ _ _ => rfl) (fun t => by rw [after1_18]; unfold Pipeline.Dat.blockOf iblk1; rw [A1_eq]; try rfl) t d).trans
    (by unfold Pipeline.Dat.fetched Pipeline.Dat.blockOf iblk1; rw [A1_eq]; try rfl)
theorem before1_19 (O : CellTallies nD τ sig (HIx 2)) (Wr : Set (SemLoc sig × HIx 2)) (c : Dev nD) (t : Fin cfg1.N) (d) : (dats1 Vr O Wr c).before 19 t d = iblk1 Vr c 19 t :=
  ((dats1 Vr O Wr c).before_in_eq_fetched 19 rfl (fun _ => rfl) (fun _ _ _ => rfl) (fun t => by rw [after1_19]; unfold Pipeline.Dat.blockOf iblk1; rw [A1_eq]; try rfl) t d).trans
    (by unfold Pipeline.Dat.fetched Pipeline.Dat.blockOf iblk1; rw [A1_eq]; try rfl)
theorem before1_20 (O : CellTallies nD τ sig (HIx 2)) (Wr : Set (SemLoc sig × HIx 2)) (c : Dev nD) (t : Fin cfg1.N) (d) : (dats1 Vr O Wr c).before 20 t d = iblk1 Vr c 20 t :=
  ((dats1 Vr O Wr c).before_in_eq_fetched 20 rfl (fun _ => rfl) (fun _ _ _ => rfl) (fun t => by rw [after1_20]; unfold Pipeline.Dat.blockOf iblk1; rw [A1_eq]; try rfl) t d).trans
    (by unfold Pipeline.Dat.fetched Pipeline.Dat.blockOf iblk1; rw [A1_eq]; try rfl)
theorem before1_21 (O : CellTallies nD τ sig (HIx 2)) (Wr : Set (SemLoc sig × HIx 2)) (c : Dev nD) (t : Fin cfg1.N) (d) : (dats1 Vr O Wr c).before 21 t d = iblk1 Vr c 21 t :=
  ((dats1 Vr O Wr c).before_in_eq_fetched 21 rfl (fun _ => rfl) (fun _ _ _ => rfl) (fun t => by rw [after1_21]; unfold Pipeline.Dat.blockOf iblk1; rw [A1_eq]; try rfl) t d).trans
    (by unfold Pipeline.Dat.fetched Pipeline.Dat.blockOf iblk1; rw [A1_eq]; try rfl)
theorem before1_22 (O : CellTallies nD τ sig (HIx 2)) (Wr : Set (SemLoc sig × HIx 2)) (c : Dev nD) (t : Fin cfg1.N) (d) : (dats1 Vr O Wr c).before 22 t d = iblk1 Vr c 22 t :=
  ((dats1 Vr O Wr c).before_in_eq_fetched 22 rfl (fun _ => rfl) (fun _ _ _ => rfl) (fun t => by rw [after1_22]; unfold Pipeline.Dat.blockOf iblk1; rw [A1_eq]; try rfl) t d).trans
    (by unfold Pipeline.Dat.fetched Pipeline.Dat.blockOf iblk1; rw [A1_eq]; try rfl)
theorem before1_23 (O : CellTallies nD τ sig (HIx 2)) (Wr : Set (SemLoc sig × HIx 2)) (c : Dev nD) (t : Fin cfg1.N) (d) : (dats1 Vr O Wr c).before 23 t d = iblk1 Vr c 23 t :=
  ((dats1 Vr O Wr c).before_in_eq_fetched 23 rfl (fun _ => rfl) (fun _ _ _ => rfl) (fun t => by rw [after1_23]; unfold Pipeline.Dat.blockOf iblk1; rw [A1_eq]; try rfl) t d).trans
    (by unfold Pipeline.Dat.fetched Pipeline.Dat.blockOf iblk1; rw [A1_eq]; try rfl)
theorem before1_24 (O : CellTallies nD τ sig (HIx 2)) (Wr : Set (SemLoc sig × HIx 2)) (c : Dev nD) (t : Fin cfg1.N) (d) : (dats1 Vr O Wr c).before 24 t d = iblk1 Vr c 24 t :=
  ((dats1 Vr O Wr c).before_in_eq_fetched 24 rfl (fun _ => rfl) (fun _ _ _ => rfl) (fun t => by rw [after1_24]; unfold Pipeline.Dat.blockOf iblk1; rw [A1_eq]; try rfl) t d).trans
    (by unfold Pipeline.Dat.fetched Pipeline.Dat.blockOf iblk1; rw [A1_eq]; try rfl)
theorem before1_25 (O : CellTallies nD τ sig (HIx 2)) (Wr : Set (SemLoc sig × HIx 2)) (c : Dev nD) (t : Fin cfg1.N) (d) : (dats1 Vr O Wr c).before 25 t d = iblk1 Vr c 25 t :=
  ((dats1 Vr O Wr c).before_in_eq_fetched 25 rfl (fun _ => rfl) (fun _ _ _ => rfl) (fun t => by rw [after1_25]; unfold Pipeline.Dat.blockOf iblk1; rw [A1_eq]; try rfl) t d).trans
    (by unfold Pipeline.Dat.fetched Pipeline.Dat.blockOf iblk1; rw [A1_eq]; try rfl)
theorem before1_26 (O : CellTallies nD τ sig (HIx 2)) (Wr : Set (SemLoc sig × HIx 2)) (c : Dev nD) (t : Fin cfg1.N) (d) : (dats1 Vr O Wr c).before 26 t d = iblk1 Vr c 26 t :=
  ((dats1 Vr O Wr c).before_in_eq_fetched 26 rfl (fun _ => rfl) (fun _ _ _ => rfl) (fun t => by rw [after1_26]; unfold Pipeline.Dat.blockOf iblk1; rw [A1_eq]; try rfl) t d).trans
    (by unfold Pipeline.Dat.fetched Pipeline.Dat.blockOf iblk1; rw [A1_eq]; try rfl)
theorem before1_27 (O : CellTallies nD τ sig (HIx 2)) (Wr : Set (SemLoc sig × HIx 2)) (c : Dev nD) (t : Fin cfg1.N) (d) : (dats1 Vr O Wr c).before 27 t d = iblk1 Vr c 27 t :=
  ((dats1 Vr O Wr c).before_in_eq_fetched 27 rfl (fun _ => rfl) (fun _ _ _ => rfl) (fun t => by rw [after1_27]; unfold Pipeline.Dat.blockOf iblk1; rw [A1_eq]; try rfl) t d).trans
    (by unfold Pipeline.Dat.fetched Pipeline.Dat.blockOf iblk1; rw [A1_eq]; try rfl)
theorem before1_28 (O : CellTallies nD τ sig (HIx 2)) (Wr : Set (SemLoc sig × HIx 2)) (c : Dev nD) (t : Fin cfg1.N) (d) : (dats1 Vr O Wr c).before 28 t d = iblk1 Vr c 28 t :=
  ((dats1 Vr O Wr c).before_in_eq_fetched 28 rfl (fun _ => rfl) (fun _ _ _ => rfl) (fun t => by rw [after1_28]; unfold Pipeline.Dat.blockOf iblk1; rw [A1_eq]; try rfl) t d).trans
    (by unfold Pipeline.Dat.fetched Pipeline.Dat.blockOf iblk1; rw [A1_eq]; try rfl)
theorem before1_29 (O : CellTallies nD τ sig (HIx 2)) (Wr : Set (SemLoc sig × HIx 2)) (c : Dev nD) (t : Fin cfg1.N) (d) : (dats1 Vr O Wr c).before 29 t d = iblk1 Vr c 29 t :=
  ((dats1 Vr O Wr c).before_in_eq_fetched 29 rfl (fun _ => rfl) (fun _ _ _ => rfl) (fun t => by rw [after1_29]; unfold Pipeline.Dat.blockOf iblk1; rw [A1_eq]; try rfl) t d).trans
    (by unfold Pipeline.Dat.fetched Pipeline.Dat.blockOf iblk1; rw [A1_eq]; try rfl)
theorem before1_30 (O : CellTallies nD τ sig (HIx 2)) (Wr : Set (SemLoc sig × HIx 2)) (c : Dev nD) (t : Fin cfg1.N) (d) : (dats1 Vr O Wr c).before 30 t d = iblk1 Vr c 30 t :=
  ((dats1 Vr O Wr c).before_in_eq_fetched 30 rfl (fun _ => rfl) (fun _ _ _ => rfl) (fun t => by rw [after1_30]; unfold Pipeline.Dat.blockOf iblk1; rw [A1_eq]; try rfl) t d).trans
    (by unfold Pipeline.Dat.fetched Pipeline.Dat.blockOf iblk1; rw [A1_eq]; try rfl)
theorem before1_31 (O : CellTallies nD τ sig (HIx 2)) (Wr : Set (SemLoc sig × HIx 2)) (c : Dev nD) (t : Fin cfg1.N) (d) : (dats1 Vr O Wr c).before 31 t d = iblk1 Vr c 31 t :=
  ((dats1 Vr O Wr c).before_in_eq_fetched 31 rfl (fun _ => rfl) (fun _ _ _ => rfl) (fun t => by rw [after1_31]; unfold Pipeline.Dat.blockOf iblk1; rw [A1_eq]; try rfl) t d).trans
    (by unfold Pipeline.Dat.fetched Pipeline.Dat.blockOf iblk1; rw [A1_eq]; try rfl)
theorem before1_32 (O : CellTallies nD τ sig (HIx 2)) (Wr : Set (SemLoc sig × HIx 2)) (c : Dev nD) (t : Fin cfg1.N) (d) : (dats1 Vr O Wr c).before 32 t d = iblk1 Vr c 32 t :=
  ((dats1 Vr O Wr c).before_in_eq_fetched 32 rfl (fun _ => rfl) (fun _ _ _ => rfl) (fun t => by rw [after1_32]; unfold Pipeline.Dat.blockOf iblk1; rw [A1_eq]; try rfl) t d).trans
    (by unfold Pipeline.Dat.fetched Pipeline.Dat.blockOf iblk1; rw [A1_eq]; try rfl)
theorem before1_33 (O : CellTallies nD τ sig (HIx 2)) (Wr : Set (SemLoc sig × HIx 2)) (c : Dev nD) (t : Fin cfg1.N) (d) : (dats1 Vr O Wr c).before 33 t d = iblk1 Vr c 33 t :=
  ((dats1 Vr O Wr c).before_in_eq_fetched 33 rfl (fun _ => rfl) (fun _ _ _ => rfl) (fun t => by rw [after1_33]; unfold Pipeline.Dat.blockOf iblk1; rw [A1_eq]; try rfl) t d).trans
    (by unfold Pipeline.Dat.fetched Pipeline.Dat.blockOf iblk1; rw [A1_eq]; try rfl)
theorem before1_34 (O : CellTallies nD τ sig (HIx 2)) (Wr : Set (SemLoc sig × HIx 2)) (c : Dev nD) (t : Fin cfg1.N) (d) : (dats1 Vr O Wr c).before 34 t d = iblk1 Vr c 34 t :=
  ((dats1 Vr O Wr c).before_in_eq_fetched 34 rfl (fun _ => rfl) (fun _ _ _ => rfl) (fun t => by rw [after1_34]; unfold Pipeline.Dat.blockOf iblk1; rw [A1_eq]; try rfl) t d).trans
    (by unfold Pipeline.Dat.fetched Pipeline.Dat.blockOf iblk1; rw [A1_eq]; try rfl)
theorem before1_35 (O : CellTallies nD τ sig (HIx 2)) (Wr : Set (SemLoc sig × HIx 2)) (c : Dev nD) (t : Fin cfg1.N) (d) : (dats1 Vr O Wr c).before 35 t d = iblk1 Vr c 35 t :=
  ((dats1 Vr O Wr c).before_in_eq_fetched 35 rfl (fun _ => rfl) (fun _ _ _ => rfl) (fun t => by rw [after1_35]; unfold Pipeline.Dat.blockOf iblk1; rw [A1_eq]; try rfl) t d).trans
    (by unfold Pipeline.Dat.fetched Pipeline.Dat.blockOf iblk1; rw [A1_eq]; try rfl)
theorem before1_36 (O : CellTallies nD τ sig (HIx 2)) (Wr : Set (SemLoc sig × HIx 2)) (c : Dev nD) (t : Fin cfg1.N) (d) : (dats1 Vr O Wr c).before 36 t d = iblk1 Vr c 36 t :=
  ((dats1 Vr O Wr c).before_in_eq_fetched 36 rfl (fun _ => rfl) (fun _ _ _ => rfl) (fun t => by rw [after1_36]; unfold Pipeline.Dat.blockOf iblk1; rw [A1_eq]; try rfl) t d).trans
    (by unfold Pipeline.Dat.fetched Pipeline.Dat.blockOf iblk1; rw [A1_eq]; try rfl)
theorem before1_37 (O : CellTallies nD τ sig (HIx 2)) (Wr : Set (SemLoc sig × HIx 2)) (c : Dev nD) (t : Fin cfg1.N) (d) : (dats1 Vr O Wr c).before 37 t d = iblk1 Vr c 37 t :=
  ((dats1 Vr O Wr c).before_in_eq_fetched 37 rfl (fun _ => rfl) (fun _ _ _ => rfl) (fun t => by rw [after1_37]; unfold Pipeline.Dat.blockOf iblk1; rw [A1_eq]; try rfl) t d).trans
    (by unfold Pipeline.Dat.fetched Pipeline.Dat.blockOf iblk1; rw [A1_eq]; try rfl)

/-- What the body is called with at point `t`, the windows one by one, -/
def bodyPre1 (O : CellTallies nD τ sig (HIx 2)) (Wr : Set (SemLoc sig × HIx 2)) (c : Dev nD) (t : Fin cfg1.N) : sProp 𝕄 :=
  iprop((dats1 Vr O Wr c).Φ t.castSucc ∗ (dats1 Vr O Wr c).owesAt none t.castSucc
    ∗ (∃ d, owns (c : Thread nD τ) (st1_0 t) fullShare ((dats1 Vr O Wr c).before 0 t d))
    ∗ (∃ d, owns (c : Thread nD τ) (st1_1 t) fullShare ((dats1 Vr O Wr c).before 1 t d))
    ∗ (∃ d, owns (c : Thread nD τ) (st1_2 t) fullShare ((dats1 Vr O Wr c).before 2 t d))
    ∗ (∃ d, owns (c : Thread nD τ) (st1_3 t) fullShare ((dats1 Vr O Wr c).before 3 t d))
    ∗ (∃ d, owns (c : Thread nD τ) (st1_4 t) fullShare ((dats1 Vr O Wr c).before 4 t d))
    ∗ (∃ d, owns (c : Thread nD τ) (st1_5 t) fullShare ((dats1 Vr O Wr c).before 5 t d))
    ∗ (∃ d, owns (c : Thread nD τ) (st1_6 t) fullShare ((dats1 Vr O Wr c).before 6 t d))
    ∗ (∃ d, owns (c : Thread nD τ) (st1_7 t) fullShare ((dats1 Vr O Wr c).before 7 t d))
    ∗ (∃ d, owns (c : Thread nD τ) (st1_8 t) fullShare ((dats1 Vr O Wr c).before 8 t d))
    ∗ (∃ d, owns (c : Thread nD τ) (st1_9 t) fullShare ((dats1 Vr O Wr c).before 9 t d))
    ∗ (∃ d, owns (c : Thread nD τ) (st1_10 t) fullShare ((dats1 Vr O Wr c).before 10 t d))
    ∗ (∃ d, owns (c : Thread nD τ) (st1_11 t) fullShare ((dats1 Vr O Wr c).before 11 t d))
    ∗ (∃ d, owns (c : Thread nD τ) (st1_12 t) fullShare ((dats1 Vr O Wr c).before 12 t d))
    ∗ (∃ d, owns (c : Thread nD τ) (st1_13 t) fullShare ((dats1 Vr O Wr c).before 13 t d))
    ∗ (∃ d, owns (c : Thread nD τ) (st1_14 t) fullShare ((dats1 Vr O Wr c).before 14 t d))
    ∗ (∃ d, owns (c : Thread nD τ) (st1_15 t) fullShare ((dats1 Vr O Wr c).before 15 t d))
    ∗ (∃ d, owns (c : Thread nD τ) (st1_16 t) fullShare ((dats1 Vr O Wr c).before 16 t d))
    ∗ (∃ d, owns (c : Thread nD τ) (st1_17 t) fullShare ((dats1 Vr O Wr c).before 17 t d))
    ∗ (∃ d, owns (c : Thread nD τ) (st1_18 t) fullShare ((dats1 Vr O Wr c).before 18 t d))
    ∗ (∃ d, owns (c : Thread nD τ) (st1_19 t) fullShare ((dats1 Vr O Wr c).before 19 t d))
    ∗ (∃ d, owns (c : Thread nD τ) (st1_20 t) fullShare ((dats1 Vr O Wr c).before 20 t d))
    ∗ (∃ d, owns (c : Thread nD τ) (st1_21 t) fullShare ((dats1 Vr O Wr c).before 21 t d))
    ∗ (∃ d, owns (c : Thread nD τ) (st1_22 t) fullShare ((dats1 Vr O Wr c).before 22 t d))
    ∗ (∃ d, owns (c : Thread nD τ) (st1_23 t) fullShare ((dats1 Vr O Wr c).before 23 t d))
    ∗ (∃ d, owns (c : Thread nD τ) (st1_24 t) fullShare ((dats1 Vr O Wr c).before 24 t d))
    ∗ (∃ d, owns (c : Thread nD τ) (st1_25 t) fullShare ((dats1 Vr O Wr c).before 25 t d))
    ∗ (∃ d, owns (c : Thread nD τ) (st1_26 t) fullShare ((dats1 Vr O Wr c).before 26 t d))
    ∗ (∃ d, owns (c : Thread nD τ) (st1_27 t) fullShare ((dats1 Vr O Wr c).before 27 t d))
    ∗ (∃ d, owns (c : Thread nD τ) (st1_28 t) fullShare ((dats1 Vr O Wr c).before 28 t d))
    ∗ (∃ d, owns (c : Thread nD τ) (st1_29 t) fullShare ((dats1 Vr O Wr c).before 29 t d))
    ∗ (∃ d, owns (c : Thread nD τ) (st1_30 t) fullShare ((dats1 Vr O Wr c).before 30 t d))
    ∗ (∃ d, owns (c : Thread nD τ) (st1_31 t) fullShare ((dats1 Vr O Wr c).before 31 t d))
    ∗ (∃ d, owns (c : Thread nD τ) (st1_32 t) fullShare ((dats1 Vr O Wr c).before 32 t d))
    ∗ (∃ d, owns (c : Thread nD τ) (st1_33 t) fullShare ((dats1 Vr O Wr c).before 33 t d))
    ∗ (∃ d, owns (c : Thread nD τ) (st1_34 t) fullShare ((dats1 Vr O Wr c).before 34 t d))
    ∗ (∃ d, owns (c : Thread nD τ) (st1_35 t) fullShare ((dats1 Vr O Wr c).before 35 t d))
    ∗ (∃ d, owns (c : Thread nD τ) (st1_36 t) fullShare ((dats1 Vr O Wr c).before 36 t d))
    ∗ (∃ d, owns (c : Thread nD τ) (st1_37 t) fullShare ((dats1 Vr O Wr c).before 37 t d))
    ∗ (∃ d, owns (c : Thread nD τ) (st1_38 t) fullShare ((dats1 Vr O Wr c).before 38 t d)))

/-- and what it returns. -/
def bodyPost1 (O : CellTallies nD τ sig (HIx 2)) (Wr : Set (SemLoc sig × HIx 2)) (c : Dev nD) (t : Fin cfg1.N) : sProp 𝕄 :=
  iprop((dats1 Vr O Wr c).Φ t.succ ∗ (dats1 Vr O Wr c).owesAt none t.succ
    ∗ owns (c : Thread nD τ) (st1_0 t) fullShare ((dats1 Vr O Wr c).after 0 t)
    ∗ owns (c : Thread nD τ) (st1_1 t) fullShare ((dats1 Vr O Wr c).after 1 t)
    ∗ owns (c : Thread nD τ) (st1_2 t) fullShare ((dats1 Vr O Wr c).after 2 t)
    ∗ owns (c : Thread nD τ) (st1_3 t) fullShare ((dats1 Vr O Wr c).after 3 t)
    ∗ owns (c : Thread nD τ) (st1_4 t) fullShare ((dats1 Vr O Wr c).after 4 t)
    ∗ owns (c : Thread nD τ) (st1_5 t) fullShare ((dats1 Vr O Wr c).after 5 t)
    ∗ owns (c : Thread nD τ) (st1_6 t) fullShare ((dats1 Vr O Wr c).after 6 t)
    ∗ owns (c : Thread nD τ) (st1_7 t) fullShare ((dats1 Vr O Wr c).after 7 t)
    ∗ owns (c : Thread nD τ) (st1_8 t) fullShare ((dats1 Vr O Wr c).after 8 t)
    ∗ owns (c : Thread nD τ) (st1_9 t) fullShare ((dats1 Vr O Wr c).after 9 t)
    ∗ owns (c : Thread nD τ) (st1_10 t) fullShare ((dats1 Vr O Wr c).after 10 t)
    ∗ owns (c : Thread nD τ) (st1_11 t) fullShare ((dats1 Vr O Wr c).after 11 t)
    ∗ owns (c : Thread nD τ) (st1_12 t) fullShare ((dats1 Vr O Wr c).after 12 t)
    ∗ owns (c : Thread nD τ) (st1_13 t) fullShare ((dats1 Vr O Wr c).after 13 t)
    ∗ owns (c : Thread nD τ) (st1_14 t) fullShare ((dats1 Vr O Wr c).after 14 t)
    ∗ owns (c : Thread nD τ) (st1_15 t) fullShare ((dats1 Vr O Wr c).after 15 t)
    ∗ owns (c : Thread nD τ) (st1_16 t) fullShare ((dats1 Vr O Wr c).after 16 t)
    ∗ owns (c : Thread nD τ) (st1_17 t) fullShare ((dats1 Vr O Wr c).after 17 t)
    ∗ owns (c : Thread nD τ) (st1_18 t) fullShare ((dats1 Vr O Wr c).after 18 t)
    ∗ owns (c : Thread nD τ) (st1_19 t) fullShare ((dats1 Vr O Wr c).after 19 t)
    ∗ owns (c : Thread nD τ) (st1_20 t) fullShare ((dats1 Vr O Wr c).after 20 t)
    ∗ owns (c : Thread nD τ) (st1_21 t) fullShare ((dats1 Vr O Wr c).after 21 t)
    ∗ owns (c : Thread nD τ) (st1_22 t) fullShare ((dats1 Vr O Wr c).after 22 t)
    ∗ owns (c : Thread nD τ) (st1_23 t) fullShare ((dats1 Vr O Wr c).after 23 t)
    ∗ owns (c : Thread nD τ) (st1_24 t) fullShare ((dats1 Vr O Wr c).after 24 t)
    ∗ owns (c : Thread nD τ) (st1_25 t) fullShare ((dats1 Vr O Wr c).after 25 t)
    ∗ owns (c : Thread nD τ) (st1_26 t) fullShare ((dats1 Vr O Wr c).after 26 t)
    ∗ owns (c : Thread nD τ) (st1_27 t) fullShare ((dats1 Vr O Wr c).after 27 t)
    ∗ owns (c : Thread nD τ) (st1_28 t) fullShare ((dats1 Vr O Wr c).after 28 t)
    ∗ owns (c : Thread nD τ) (st1_29 t) fullShare ((dats1 Vr O Wr c).after 29 t)
    ∗ owns (c : Thread nD τ) (st1_30 t) fullShare ((dats1 Vr O Wr c).after 30 t)
    ∗ owns (c : Thread nD τ) (st1_31 t) fullShare ((dats1 Vr O Wr c).after 31 t)
    ∗ owns (c : Thread nD τ) (st1_32 t) fullShare ((dats1 Vr O Wr c).after 32 t)
    ∗ owns (c : Thread nD τ) (st1_33 t) fullShare ((dats1 Vr O Wr c).after 33 t)
    ∗ owns (c : Thread nD τ) (st1_34 t) fullShare ((dats1 Vr O Wr c).after 34 t)
    ∗ owns (c : Thread nD τ) (st1_35 t) fullShare ((dats1 Vr O Wr c).after 35 t)
    ∗ owns (c : Thread nD τ) (st1_36 t) fullShare ((dats1 Vr O Wr c).after 36 t)
    ∗ owns (c : Thread nD τ) (st1_37 t) fullShare ((dats1 Vr O Wr c).after 37 t)
    ∗ owns (c : Thread nD τ) (st1_38 t) fullShare ((dats1 Vr O Wr c).after 38 t))

set_option maxHeartbeats 4000000 in
set_option maxRecDepth 65536 in
/-- The body at any point: the inputs' memrefs hold their blocks, so the body's triple applies; the invariant and the
    core's `owes` pass through unread. -/
theorem sound_body1 (O : CellTallies nD τ sig (HIx 2)) (Wr : Set (SemLoc sig × HIx 2)) (c : Dev nD) (t : Fin cfg1.N) :
    bodyPre1 Vr O Wr c t ⊢ wp frame (wpE (defs₀ (F := F)) Variants.none c none) Set.univ (bodyAt1 t) (fun _ => bodyPost1 Vr O Wr c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29, before1_30, before1_31, before1_32, before1_33, before1_34, before1_35, before1_36, before1_37]
  rw [show (dats1 Vr O Wr c).Φ t.succ = (dats1 Vr O Wr c).Φ t.castSucc from rfl,
    show (dats1 Vr O Wr c).owesAt none t.succ = (dats1 Vr O Wr c).owesAt none t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30, after1_31, after1_32, after1_33, after1_34, after1_35, after1_36, after1_37, after1_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_tc1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
set_option maxRecDepth 65536 in
/-- The library's body obligation, at every point. -/
theorem body_obligation1 (O : CellTallies nD τ sig (HIx 2)) (Wr : Set (SemLoc sig × HIx 2)) (c : Dev nD) : Pipeline.BodyObligation (dats1 (F := F) Vr O Wr c) (defs₀ (F := F)) Variants.none none Set.univ := fun t => by
  rw [bigSep_W1, bigSep_W1]
  exact sound_body1 Vr O Wr c t

end Region1

/-! ## Pipeline call 1 (custom_call 3) -/

section Region3

variable (Vr : Valuation τ sig (Elt F))

/-- A TensorCore array's contents at the region's entry. -/
abbrev Vb3 (c : Dev nD) (b : Ref sig .tc) : Buf (Elt F) ((c : Thread nD τ).loc b) := Vr (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (Vb3 Vr c (Pipeline.arrRef spec3 w))

/-- The share each input window holds its array at: the twenty-six windows of the gathered-rows array one read token
    each, every other window its array whole. -/
def qW3 (w : Fin cfg3.W) : PosShare TreeShare := if 12 ≤ w.val ∧ w.val ≤ 37 then shareTokN fullShare (w.val - 12) else fullShare

/-- The proof data of the pipeline on core `c`: the arrays as the region finds them; after the body at point `t` each
    input's buffer at its block and the output's at the body's function of the input blocks; the invariant the scoped
    buffers no window stages; the core owing `O` throughout. -/
def dats3 (O : CellTallies nD τ sig (HIx 2)) (Wr : Set (SemLoc sig × HIx 2)) (c : Dev nD) : Pipeline.Dat τ (Elt F) (HIx 2) ℕ UU ℕ cfg3 c where
  A w := Vb3 Vr c (Pipeline.arrRef spec3 w)
  after w t := match w with
    | ⟨0, _⟩ => iblk3 Vr c 0 t
    | ⟨1, _⟩ => iblk3 Vr c 1 t
    | ⟨2, _⟩ => iblk3 Vr c 2 t
    | ⟨3, _⟩ => iblk3 Vr c 3 t
    | ⟨4, _⟩ => iblk3 Vr c 4 t
    | ⟨5, _⟩ => iblk3 Vr c 5 t
    | ⟨6, _⟩ => iblk3 Vr c 6 t
    | ⟨7, _⟩ => iblk3 Vr c 7 t
    | ⟨8, _⟩ => iblk3 Vr c 8 t
    | ⟨9, _⟩ => iblk3 Vr c 9 t
    | ⟨10, _⟩ => iblk3 Vr c 10 t
    | ⟨11, _⟩ => iblk3 Vr c 11 t
    | ⟨12, _⟩ => iblk3 Vr c 12 t
    | ⟨13, _⟩ => iblk3 Vr c 13 t
    | ⟨14, _⟩ => iblk3 Vr c 14 t
    | ⟨15, _⟩ => iblk3 Vr c 15 t
    | ⟨16, _⟩ => iblk3 Vr c 16 t
    | ⟨17, _⟩ => iblk3 Vr c 17 t
    | ⟨18, _⟩ => iblk3 Vr c 18 t
    | ⟨19, _⟩ => iblk3 Vr c 19 t
    | ⟨20, _⟩ => iblk3 Vr c 20 t
    | ⟨21, _⟩ => iblk3 Vr c 21 t
    | ⟨22, _⟩ => iblk3 Vr c 22 t
    | ⟨23, _⟩ => iblk3 Vr c 23 t
    | ⟨24, _⟩ => iblk3 Vr c 24 t
    | ⟨25, _⟩ => iblk3 Vr c 25 t
    | ⟨26, _⟩ => iblk3 Vr c 26 t
    | ⟨27, _⟩ => iblk3 Vr c 27 t
    | ⟨28, _⟩ => iblk3 Vr c 28 t
    | ⟨29, _⟩ => iblk3 Vr c 29 t
    | ⟨30, _⟩ => iblk3 Vr c 30 t
    | ⟨31, _⟩ => iblk3 Vr c 31 t
    | ⟨32, _⟩ => iblk3 Vr c 32 t
    | ⟨33, _⟩ => iblk3 Vr c 33 t
    | ⟨34, _⟩ => iblk3 Vr c 34 t
    | ⟨35, _⟩ => iblk3 Vr c 35 t
    | ⟨36, _⟩ => iblk3 Vr c 36 t
    | ⟨37, _⟩ => iblk3 Vr c 37 t
    | ⟨38, _⟩ => tcOut3 (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t)
    | ⟨_ + 39, h⟩ => absurd h (Nat.not_lt.2 (Nat.le_add_left _ _))
  Φ _ := Pipeline.scopedRest spec3 c
  q w := qW3 w
  owed _ := O
  recorded _ := Wr

theorem A3_eq (O : CellTallies nD τ sig (HIx 2)) (Wr : Set (SemLoc sig × HIx 2)) (c : Dev nD) (w : Fin cfg3.W) : (dats3 Vr O Wr c).A w = Vb3 Vr c (Pipeline.arrRef spec3 w) := by
  dsimp only [dats3]

theorem after3_0 (O : CellTallies nD τ sig (HIx 2)) (Wr : Set (SemLoc sig × HIx 2)) (c : Dev nD) (t : Fin cfg3.N) : (dats3 Vr O Wr c).after 0 t = iblk3 Vr c 0 t := by dsimp only [dats3]
theorem after3_1 (O : CellTallies nD τ sig (HIx 2)) (Wr : Set (SemLoc sig × HIx 2)) (c : Dev nD) (t : Fin cfg3.N) : (dats3 Vr O Wr c).after 1 t = iblk3 Vr c 1 t := by dsimp only [dats3]
theorem after3_2 (O : CellTallies nD τ sig (HIx 2)) (Wr : Set (SemLoc sig × HIx 2)) (c : Dev nD) (t : Fin cfg3.N) : (dats3 Vr O Wr c).after 2 t = iblk3 Vr c 2 t := by dsimp only [dats3]
theorem after3_3 (O : CellTallies nD τ sig (HIx 2)) (Wr : Set (SemLoc sig × HIx 2)) (c : Dev nD) (t : Fin cfg3.N) : (dats3 Vr O Wr c).after 3 t = iblk3 Vr c 3 t := by dsimp only [dats3]
theorem after3_4 (O : CellTallies nD τ sig (HIx 2)) (Wr : Set (SemLoc sig × HIx 2)) (c : Dev nD) (t : Fin cfg3.N) : (dats3 Vr O Wr c).after 4 t = iblk3 Vr c 4 t := by dsimp only [dats3]
theorem after3_5 (O : CellTallies nD τ sig (HIx 2)) (Wr : Set (SemLoc sig × HIx 2)) (c : Dev nD) (t : Fin cfg3.N) : (dats3 Vr O Wr c).after 5 t = iblk3 Vr c 5 t := by dsimp only [dats3]
theorem after3_6 (O : CellTallies nD τ sig (HIx 2)) (Wr : Set (SemLoc sig × HIx 2)) (c : Dev nD) (t : Fin cfg3.N) : (dats3 Vr O Wr c).after 6 t = iblk3 Vr c 6 t := by dsimp only [dats3]
theorem after3_7 (O : CellTallies nD τ sig (HIx 2)) (Wr : Set (SemLoc sig × HIx 2)) (c : Dev nD) (t : Fin cfg3.N) : (dats3 Vr O Wr c).after 7 t = iblk3 Vr c 7 t := by dsimp only [dats3]
theorem after3_8 (O : CellTallies nD τ sig (HIx 2)) (Wr : Set (SemLoc sig × HIx 2)) (c : Dev nD) (t : Fin cfg3.N) : (dats3 Vr O Wr c).after 8 t = iblk3 Vr c 8 t := by dsimp only [dats3]
theorem after3_9 (O : CellTallies nD τ sig (HIx 2)) (Wr : Set (SemLoc sig × HIx 2)) (c : Dev nD) (t : Fin cfg3.N) : (dats3 Vr O Wr c).after 9 t = iblk3 Vr c 9 t := by dsimp only [dats3]
theorem after3_10 (O : CellTallies nD τ sig (HIx 2)) (Wr : Set (SemLoc sig × HIx 2)) (c : Dev nD) (t : Fin cfg3.N) : (dats3 Vr O Wr c).after 10 t = iblk3 Vr c 10 t := by dsimp only [dats3]
theorem after3_11 (O : CellTallies nD τ sig (HIx 2)) (Wr : Set (SemLoc sig × HIx 2)) (c : Dev nD) (t : Fin cfg3.N) : (dats3 Vr O Wr c).after 11 t = iblk3 Vr c 11 t := by dsimp only [dats3]
theorem after3_12 (O : CellTallies nD τ sig (HIx 2)) (Wr : Set (SemLoc sig × HIx 2)) (c : Dev nD) (t : Fin cfg3.N) : (dats3 Vr O Wr c).after 12 t = iblk3 Vr c 12 t := by dsimp only [dats3]
theorem after3_13 (O : CellTallies nD τ sig (HIx 2)) (Wr : Set (SemLoc sig × HIx 2)) (c : Dev nD) (t : Fin cfg3.N) : (dats3 Vr O Wr c).after 13 t = iblk3 Vr c 13 t := by dsimp only [dats3]
theorem after3_14 (O : CellTallies nD τ sig (HIx 2)) (Wr : Set (SemLoc sig × HIx 2)) (c : Dev nD) (t : Fin cfg3.N) : (dats3 Vr O Wr c).after 14 t = iblk3 Vr c 14 t := by dsimp only [dats3]
theorem after3_15 (O : CellTallies nD τ sig (HIx 2)) (Wr : Set (SemLoc sig × HIx 2)) (c : Dev nD) (t : Fin cfg3.N) : (dats3 Vr O Wr c).after 15 t = iblk3 Vr c 15 t := by dsimp only [dats3]
theorem after3_16 (O : CellTallies nD τ sig (HIx 2)) (Wr : Set (SemLoc sig × HIx 2)) (c : Dev nD) (t : Fin cfg3.N) : (dats3 Vr O Wr c).after 16 t = iblk3 Vr c 16 t := by dsimp only [dats3]
theorem after3_17 (O : CellTallies nD τ sig (HIx 2)) (Wr : Set (SemLoc sig × HIx 2)) (c : Dev nD) (t : Fin cfg3.N) : (dats3 Vr O Wr c).after 17 t = iblk3 Vr c 17 t := by dsimp only [dats3]
theorem after3_18 (O : CellTallies nD τ sig (HIx 2)) (Wr : Set (SemLoc sig × HIx 2)) (c : Dev nD) (t : Fin cfg3.N) : (dats3 Vr O Wr c).after 18 t = iblk3 Vr c 18 t := by dsimp only [dats3]
theorem after3_19 (O : CellTallies nD τ sig (HIx 2)) (Wr : Set (SemLoc sig × HIx 2)) (c : Dev nD) (t : Fin cfg3.N) : (dats3 Vr O Wr c).after 19 t = iblk3 Vr c 19 t := by dsimp only [dats3]
theorem after3_20 (O : CellTallies nD τ sig (HIx 2)) (Wr : Set (SemLoc sig × HIx 2)) (c : Dev nD) (t : Fin cfg3.N) : (dats3 Vr O Wr c).after 20 t = iblk3 Vr c 20 t := by dsimp only [dats3]
theorem after3_21 (O : CellTallies nD τ sig (HIx 2)) (Wr : Set (SemLoc sig × HIx 2)) (c : Dev nD) (t : Fin cfg3.N) : (dats3 Vr O Wr c).after 21 t = iblk3 Vr c 21 t := by dsimp only [dats3]
theorem after3_22 (O : CellTallies nD τ sig (HIx 2)) (Wr : Set (SemLoc sig × HIx 2)) (c : Dev nD) (t : Fin cfg3.N) : (dats3 Vr O Wr c).after 22 t = iblk3 Vr c 22 t := by dsimp only [dats3]
theorem after3_23 (O : CellTallies nD τ sig (HIx 2)) (Wr : Set (SemLoc sig × HIx 2)) (c : Dev nD) (t : Fin cfg3.N) : (dats3 Vr O Wr c).after 23 t = iblk3 Vr c 23 t := by dsimp only [dats3]
theorem after3_24 (O : CellTallies nD τ sig (HIx 2)) (Wr : Set (SemLoc sig × HIx 2)) (c : Dev nD) (t : Fin cfg3.N) : (dats3 Vr O Wr c).after 24 t = iblk3 Vr c 24 t := by dsimp only [dats3]
theorem after3_25 (O : CellTallies nD τ sig (HIx 2)) (Wr : Set (SemLoc sig × HIx 2)) (c : Dev nD) (t : Fin cfg3.N) : (dats3 Vr O Wr c).after 25 t = iblk3 Vr c 25 t := by dsimp only [dats3]
theorem after3_26 (O : CellTallies nD τ sig (HIx 2)) (Wr : Set (SemLoc sig × HIx 2)) (c : Dev nD) (t : Fin cfg3.N) : (dats3 Vr O Wr c).after 26 t = iblk3 Vr c 26 t := by dsimp only [dats3]
theorem after3_27 (O : CellTallies nD τ sig (HIx 2)) (Wr : Set (SemLoc sig × HIx 2)) (c : Dev nD) (t : Fin cfg3.N) : (dats3 Vr O Wr c).after 27 t = iblk3 Vr c 27 t := by dsimp only [dats3]
theorem after3_28 (O : CellTallies nD τ sig (HIx 2)) (Wr : Set (SemLoc sig × HIx 2)) (c : Dev nD) (t : Fin cfg3.N) : (dats3 Vr O Wr c).after 28 t = iblk3 Vr c 28 t := by dsimp only [dats3]
theorem after3_29 (O : CellTallies nD τ sig (HIx 2)) (Wr : Set (SemLoc sig × HIx 2)) (c : Dev nD) (t : Fin cfg3.N) : (dats3 Vr O Wr c).after 29 t = iblk3 Vr c 29 t := by dsimp only [dats3]
theorem after3_30 (O : CellTallies nD τ sig (HIx 2)) (Wr : Set (SemLoc sig × HIx 2)) (c : Dev nD) (t : Fin cfg3.N) : (dats3 Vr O Wr c).after 30 t = iblk3 Vr c 30 t := by dsimp only [dats3]
theorem after3_31 (O : CellTallies nD τ sig (HIx 2)) (Wr : Set (SemLoc sig × HIx 2)) (c : Dev nD) (t : Fin cfg3.N) : (dats3 Vr O Wr c).after 31 t = iblk3 Vr c 31 t := by dsimp only [dats3]
theorem after3_32 (O : CellTallies nD τ sig (HIx 2)) (Wr : Set (SemLoc sig × HIx 2)) (c : Dev nD) (t : Fin cfg3.N) : (dats3 Vr O Wr c).after 32 t = iblk3 Vr c 32 t := by dsimp only [dats3]
theorem after3_33 (O : CellTallies nD τ sig (HIx 2)) (Wr : Set (SemLoc sig × HIx 2)) (c : Dev nD) (t : Fin cfg3.N) : (dats3 Vr O Wr c).after 33 t = iblk3 Vr c 33 t := by dsimp only [dats3]
theorem after3_34 (O : CellTallies nD τ sig (HIx 2)) (Wr : Set (SemLoc sig × HIx 2)) (c : Dev nD) (t : Fin cfg3.N) : (dats3 Vr O Wr c).after 34 t = iblk3 Vr c 34 t := by dsimp only [dats3]
theorem after3_35 (O : CellTallies nD τ sig (HIx 2)) (Wr : Set (SemLoc sig × HIx 2)) (c : Dev nD) (t : Fin cfg3.N) : (dats3 Vr O Wr c).after 35 t = iblk3 Vr c 35 t := by dsimp only [dats3]
theorem after3_36 (O : CellTallies nD τ sig (HIx 2)) (Wr : Set (SemLoc sig × HIx 2)) (c : Dev nD) (t : Fin cfg3.N) : (dats3 Vr O Wr c).after 36 t = iblk3 Vr c 36 t := by dsimp only [dats3]
theorem after3_37 (O : CellTallies nD τ sig (HIx 2)) (Wr : Set (SemLoc sig × HIx 2)) (c : Dev nD) (t : Fin cfg3.N) : (dats3 Vr O Wr c).after 37 t = iblk3 Vr c 37 t := by dsimp only [dats3]
theorem after3_38 (O : CellTallies nD τ sig (HIx 2)) (Wr : Set (SemLoc sig × HIx 2)) (c : Dev nD) (t : Fin cfg3.N) : (dats3 Vr O Wr c).after 38 t = tcOut3 (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t) := by dsimp only [dats3]

theorem before3_0 (O : CellTallies nD τ sig (HIx 2)) (Wr : Set (SemLoc sig × HIx 2)) (c : Dev nD) (t : Fin cfg3.N) (d) : (dats3 Vr O Wr c).before 0 t d = iblk3 Vr c 0 t :=
  ((dats3 Vr O Wr c).before_in_eq_fetched 0 rfl (fun _ => rfl) (fun _ _ _ => rfl) (fun t => by rw [after3_0]; unfold Pipeline.Dat.blockOf iblk3; rw [A3_eq]; try rfl) t d).trans
    (by unfold Pipeline.Dat.fetched Pipeline.Dat.blockOf iblk3; rw [A3_eq]; try rfl)
theorem before3_1 (O : CellTallies nD τ sig (HIx 2)) (Wr : Set (SemLoc sig × HIx 2)) (c : Dev nD) (t : Fin cfg3.N) (d) : (dats3 Vr O Wr c).before 1 t d = iblk3 Vr c 1 t :=
  ((dats3 Vr O Wr c).before_in_eq_fetched 1 rfl (fun _ => rfl) (fun _ _ _ => rfl) (fun t => by rw [after3_1]; unfold Pipeline.Dat.blockOf iblk3; rw [A3_eq]; try rfl) t d).trans
    (by unfold Pipeline.Dat.fetched Pipeline.Dat.blockOf iblk3; rw [A3_eq]; try rfl)
theorem before3_2 (O : CellTallies nD τ sig (HIx 2)) (Wr : Set (SemLoc sig × HIx 2)) (c : Dev nD) (t : Fin cfg3.N) (d) : (dats3 Vr O Wr c).before 2 t d = iblk3 Vr c 2 t :=
  ((dats3 Vr O Wr c).before_in_eq_fetched 2 rfl (fun _ => rfl) (fun _ _ _ => rfl) (fun t => by rw [after3_2]; unfold Pipeline.Dat.blockOf iblk3; rw [A3_eq]; try rfl) t d).trans
    (by unfold Pipeline.Dat.fetched Pipeline.Dat.blockOf iblk3; rw [A3_eq]; try rfl)
theorem before3_3 (O : CellTallies nD τ sig (HIx 2)) (Wr : Set (SemLoc sig × HIx 2)) (c : Dev nD) (t : Fin cfg3.N) (d) : (dats3 Vr O Wr c).before 3 t d = iblk3 Vr c 3 t :=
  ((dats3 Vr O Wr c).before_in_eq_fetched 3 rfl (fun _ => rfl) (fun _ _ _ => rfl) (fun t => by rw [after3_3]; unfold Pipeline.Dat.blockOf iblk3; rw [A3_eq]; try rfl) t d).trans
    (by unfold Pipeline.Dat.fetched Pipeline.Dat.blockOf iblk3; rw [A3_eq]; try rfl)
theorem before3_4 (O : CellTallies nD τ sig (HIx 2)) (Wr : Set (SemLoc sig × HIx 2)) (c : Dev nD) (t : Fin cfg3.N) (d) : (dats3 Vr O Wr c).before 4 t d = iblk3 Vr c 4 t :=
  ((dats3 Vr O Wr c).before_in_eq_fetched 4 rfl (fun _ => rfl) (fun _ _ _ => rfl) (fun t => by rw [after3_4]; unfold Pipeline.Dat.blockOf iblk3; rw [A3_eq]; try rfl) t d).trans
    (by unfold Pipeline.Dat.fetched Pipeline.Dat.blockOf iblk3; rw [A3_eq]; try rfl)
theorem before3_5 (O : CellTallies nD τ sig (HIx 2)) (Wr : Set (SemLoc sig × HIx 2)) (c : Dev nD) (t : Fin cfg3.N) (d) : (dats3 Vr O Wr c).before 5 t d = iblk3 Vr c 5 t :=
  ((dats3 Vr O Wr c).before_in_eq_fetched 5 rfl (fun _ => rfl) (fun _ _ _ => rfl) (fun t => by rw [after3_5]; unfold Pipeline.Dat.blockOf iblk3; rw [A3_eq]; try rfl) t d).trans
    (by unfold Pipeline.Dat.fetched Pipeline.Dat.blockOf iblk3; rw [A3_eq]; try rfl)
theorem before3_6 (O : CellTallies nD τ sig (HIx 2)) (Wr : Set (SemLoc sig × HIx 2)) (c : Dev nD) (t : Fin cfg3.N) (d) : (dats3 Vr O Wr c).before 6 t d = iblk3 Vr c 6 t :=
  ((dats3 Vr O Wr c).before_in_eq_fetched 6 rfl (fun _ => rfl) (fun _ _ _ => rfl) (fun t => by rw [after3_6]; unfold Pipeline.Dat.blockOf iblk3; rw [A3_eq]; try rfl) t d).trans
    (by unfold Pipeline.Dat.fetched Pipeline.Dat.blockOf iblk3; rw [A3_eq]; try rfl)
theorem before3_7 (O : CellTallies nD τ sig (HIx 2)) (Wr : Set (SemLoc sig × HIx 2)) (c : Dev nD) (t : Fin cfg3.N) (d) : (dats3 Vr O Wr c).before 7 t d = iblk3 Vr c 7 t :=
  ((dats3 Vr O Wr c).before_in_eq_fetched 7 rfl (fun _ => rfl) (fun _ _ _ => rfl) (fun t => by rw [after3_7]; unfold Pipeline.Dat.blockOf iblk3; rw [A3_eq]; try rfl) t d).trans
    (by unfold Pipeline.Dat.fetched Pipeline.Dat.blockOf iblk3; rw [A3_eq]; try rfl)
theorem before3_8 (O : CellTallies nD τ sig (HIx 2)) (Wr : Set (SemLoc sig × HIx 2)) (c : Dev nD) (t : Fin cfg3.N) (d) : (dats3 Vr O Wr c).before 8 t d = iblk3 Vr c 8 t :=
  ((dats3 Vr O Wr c).before_in_eq_fetched 8 rfl (fun _ => rfl) (fun _ _ _ => rfl) (fun t => by rw [after3_8]; unfold Pipeline.Dat.blockOf iblk3; rw [A3_eq]; try rfl) t d).trans
    (by unfold Pipeline.Dat.fetched Pipeline.Dat.blockOf iblk3; rw [A3_eq]; try rfl)
theorem before3_9 (O : CellTallies nD τ sig (HIx 2)) (Wr : Set (SemLoc sig × HIx 2)) (c : Dev nD) (t : Fin cfg3.N) (d) : (dats3 Vr O Wr c).before 9 t d = iblk3 Vr c 9 t :=
  ((dats3 Vr O Wr c).before_in_eq_fetched 9 rfl (fun _ => rfl) (fun _ _ _ => rfl) (fun t => by rw [after3_9]; unfold Pipeline.Dat.blockOf iblk3; rw [A3_eq]; try rfl) t d).trans
    (by unfold Pipeline.Dat.fetched Pipeline.Dat.blockOf iblk3; rw [A3_eq]; try rfl)
theorem before3_10 (O : CellTallies nD τ sig (HIx 2)) (Wr : Set (SemLoc sig × HIx 2)) (c : Dev nD) (t : Fin cfg3.N) (d) : (dats3 Vr O Wr c).before 10 t d = iblk3 Vr c 10 t :=
  ((dats3 Vr O Wr c).before_in_eq_fetched 10 rfl (fun _ => rfl) (fun _ _ _ => rfl) (fun t => by rw [after3_10]; unfold Pipeline.Dat.blockOf iblk3; rw [A3_eq]; try rfl) t d).trans
    (by unfold Pipeline.Dat.fetched Pipeline.Dat.blockOf iblk3; rw [A3_eq]; try rfl)
theorem before3_11 (O : CellTallies nD τ sig (HIx 2)) (Wr : Set (SemLoc sig × HIx 2)) (c : Dev nD) (t : Fin cfg3.N) (d) : (dats3 Vr O Wr c).before 11 t d = iblk3 Vr c 11 t :=
  ((dats3 Vr O Wr c).before_in_eq_fetched 11 rfl (fun _ => rfl) (fun _ _ _ => rfl) (fun t => by rw [after3_11]; unfold Pipeline.Dat.blockOf iblk3; rw [A3_eq]; try rfl) t d).trans
    (by unfold Pipeline.Dat.fetched Pipeline.Dat.blockOf iblk3; rw [A3_eq]; try rfl)
theorem before3_12 (O : CellTallies nD τ sig (HIx 2)) (Wr : Set (SemLoc sig × HIx 2)) (c : Dev nD) (t : Fin cfg3.N) (d) : (dats3 Vr O Wr c).before 12 t d = iblk3 Vr c 12 t :=
  ((dats3 Vr O Wr c).before_in_eq_fetched 12 rfl (fun _ => rfl) (fun _ _ _ => rfl) (fun t => by rw [after3_12]; unfold Pipeline.Dat.blockOf iblk3; rw [A3_eq]; try rfl) t d).trans
    (by unfold Pipeline.Dat.fetched Pipeline.Dat.blockOf iblk3; rw [A3_eq]; try rfl)
theorem before3_13 (O : CellTallies nD τ sig (HIx 2)) (Wr : Set (SemLoc sig × HIx 2)) (c : Dev nD) (t : Fin cfg3.N) (d) : (dats3 Vr O Wr c).before 13 t d = iblk3 Vr c 13 t :=
  ((dats3 Vr O Wr c).before_in_eq_fetched 13 rfl (fun _ => rfl) (fun _ _ _ => rfl) (fun t => by rw [after3_13]; unfold Pipeline.Dat.blockOf iblk3; rw [A3_eq]; try rfl) t d).trans
    (by unfold Pipeline.Dat.fetched Pipeline.Dat.blockOf iblk3; rw [A3_eq]; try rfl)
theorem before3_14 (O : CellTallies nD τ sig (HIx 2)) (Wr : Set (SemLoc sig × HIx 2)) (c : Dev nD) (t : Fin cfg3.N) (d) : (dats3 Vr O Wr c).before 14 t d = iblk3 Vr c 14 t :=
  ((dats3 Vr O Wr c).before_in_eq_fetched 14 rfl (fun _ => rfl) (fun _ _ _ => rfl) (fun t => by rw [after3_14]; unfold Pipeline.Dat.blockOf iblk3; rw [A3_eq]; try rfl) t d).trans
    (by unfold Pipeline.Dat.fetched Pipeline.Dat.blockOf iblk3; rw [A3_eq]; try rfl)
theorem before3_15 (O : CellTallies nD τ sig (HIx 2)) (Wr : Set (SemLoc sig × HIx 2)) (c : Dev nD) (t : Fin cfg3.N) (d) : (dats3 Vr O Wr c).before 15 t d = iblk3 Vr c 15 t :=
  ((dats3 Vr O Wr c).before_in_eq_fetched 15 rfl (fun _ => rfl) (fun _ _ _ => rfl) (fun t => by rw [after3_15]; unfold Pipeline.Dat.blockOf iblk3; rw [A3_eq]; try rfl) t d).trans
    (by unfold Pipeline.Dat.fetched Pipeline.Dat.blockOf iblk3; rw [A3_eq]; try rfl)
theorem before3_16 (O : CellTallies nD τ sig (HIx 2)) (Wr : Set (SemLoc sig × HIx 2)) (c : Dev nD) (t : Fin cfg3.N) (d) : (dats3 Vr O Wr c).before 16 t d = iblk3 Vr c 16 t :=
  ((dats3 Vr O Wr c).before_in_eq_fetched 16 rfl (fun _ => rfl) (fun _ _ _ => rfl) (fun t => by rw [after3_16]; unfold Pipeline.Dat.blockOf iblk3; rw [A3_eq]; try rfl) t d).trans
    (by unfold Pipeline.Dat.fetched Pipeline.Dat.blockOf iblk3; rw [A3_eq]; try rfl)
theorem before3_17 (O : CellTallies nD τ sig (HIx 2)) (Wr : Set (SemLoc sig × HIx 2)) (c : Dev nD) (t : Fin cfg3.N) (d) : (dats3 Vr O Wr c).before 17 t d = iblk3 Vr c 17 t :=
  ((dats3 Vr O Wr c).before_in_eq_fetched 17 rfl (fun _ => rfl) (fun _ _ _ => rfl) (fun t => by rw [after3_17]; unfold Pipeline.Dat.blockOf iblk3; rw [A3_eq]; try rfl) t d).trans
    (by unfold Pipeline.Dat.fetched Pipeline.Dat.blockOf iblk3; rw [A3_eq]; try rfl)
theorem before3_18 (O : CellTallies nD τ sig (HIx 2)) (Wr : Set (SemLoc sig × HIx 2)) (c : Dev nD) (t : Fin cfg3.N) (d) : (dats3 Vr O Wr c).before 18 t d = iblk3 Vr c 18 t :=
  ((dats3 Vr O Wr c).before_in_eq_fetched 18 rfl (fun _ => rfl) (fun _ _ _ => rfl) (fun t => by rw [after3_18]; unfold Pipeline.Dat.blockOf iblk3; rw [A3_eq]; try rfl) t d).trans
    (by unfold Pipeline.Dat.fetched Pipeline.Dat.blockOf iblk3; rw [A3_eq]; try rfl)
theorem before3_19 (O : CellTallies nD τ sig (HIx 2)) (Wr : Set (SemLoc sig × HIx 2)) (c : Dev nD) (t : Fin cfg3.N) (d) : (dats3 Vr O Wr c).before 19 t d = iblk3 Vr c 19 t :=
  ((dats3 Vr O Wr c).before_in_eq_fetched 19 rfl (fun _ => rfl) (fun _ _ _ => rfl) (fun t => by rw [after3_19]; unfold Pipeline.Dat.blockOf iblk3; rw [A3_eq]; try rfl) t d).trans
    (by unfold Pipeline.Dat.fetched Pipeline.Dat.blockOf iblk3; rw [A3_eq]; try rfl)
theorem before3_20 (O : CellTallies nD τ sig (HIx 2)) (Wr : Set (SemLoc sig × HIx 2)) (c : Dev nD) (t : Fin cfg3.N) (d) : (dats3 Vr O Wr c).before 20 t d = iblk3 Vr c 20 t :=
  ((dats3 Vr O Wr c).before_in_eq_fetched 20 rfl (fun _ => rfl) (fun _ _ _ => rfl) (fun t => by rw [after3_20]; unfold Pipeline.Dat.blockOf iblk3; rw [A3_eq]; try rfl) t d).trans
    (by unfold Pipeline.Dat.fetched Pipeline.Dat.blockOf iblk3; rw [A3_eq]; try rfl)
theorem before3_21 (O : CellTallies nD τ sig (HIx 2)) (Wr : Set (SemLoc sig × HIx 2)) (c : Dev nD) (t : Fin cfg3.N) (d) : (dats3 Vr O Wr c).before 21 t d = iblk3 Vr c 21 t :=
  ((dats3 Vr O Wr c).before_in_eq_fetched 21 rfl (fun _ => rfl) (fun _ _ _ => rfl) (fun t => by rw [after3_21]; unfold Pipeline.Dat.blockOf iblk3; rw [A3_eq]; try rfl) t d).trans
    (by unfold Pipeline.Dat.fetched Pipeline.Dat.blockOf iblk3; rw [A3_eq]; try rfl)
theorem before3_22 (O : CellTallies nD τ sig (HIx 2)) (Wr : Set (SemLoc sig × HIx 2)) (c : Dev nD) (t : Fin cfg3.N) (d) : (dats3 Vr O Wr c).before 22 t d = iblk3 Vr c 22 t :=
  ((dats3 Vr O Wr c).before_in_eq_fetched 22 rfl (fun _ => rfl) (fun _ _ _ => rfl) (fun t => by rw [after3_22]; unfold Pipeline.Dat.blockOf iblk3; rw [A3_eq]; try rfl) t d).trans
    (by unfold Pipeline.Dat.fetched Pipeline.Dat.blockOf iblk3; rw [A3_eq]; try rfl)
theorem before3_23 (O : CellTallies nD τ sig (HIx 2)) (Wr : Set (SemLoc sig × HIx 2)) (c : Dev nD) (t : Fin cfg3.N) (d) : (dats3 Vr O Wr c).before 23 t d = iblk3 Vr c 23 t :=
  ((dats3 Vr O Wr c).before_in_eq_fetched 23 rfl (fun _ => rfl) (fun _ _ _ => rfl) (fun t => by rw [after3_23]; unfold Pipeline.Dat.blockOf iblk3; rw [A3_eq]; try rfl) t d).trans
    (by unfold Pipeline.Dat.fetched Pipeline.Dat.blockOf iblk3; rw [A3_eq]; try rfl)
theorem before3_24 (O : CellTallies nD τ sig (HIx 2)) (Wr : Set (SemLoc sig × HIx 2)) (c : Dev nD) (t : Fin cfg3.N) (d) : (dats3 Vr O Wr c).before 24 t d = iblk3 Vr c 24 t :=
  ((dats3 Vr O Wr c).before_in_eq_fetched 24 rfl (fun _ => rfl) (fun _ _ _ => rfl) (fun t => by rw [after3_24]; unfold Pipeline.Dat.blockOf iblk3; rw [A3_eq]; try rfl) t d).trans
    (by unfold Pipeline.Dat.fetched Pipeline.Dat.blockOf iblk3; rw [A3_eq]; try rfl)
theorem before3_25 (O : CellTallies nD τ sig (HIx 2)) (Wr : Set (SemLoc sig × HIx 2)) (c : Dev nD) (t : Fin cfg3.N) (d) : (dats3 Vr O Wr c).before 25 t d = iblk3 Vr c 25 t :=
  ((dats3 Vr O Wr c).before_in_eq_fetched 25 rfl (fun _ => rfl) (fun _ _ _ => rfl) (fun t => by rw [after3_25]; unfold Pipeline.Dat.blockOf iblk3; rw [A3_eq]; try rfl) t d).trans
    (by unfold Pipeline.Dat.fetched Pipeline.Dat.blockOf iblk3; rw [A3_eq]; try rfl)
theorem before3_26 (O : CellTallies nD τ sig (HIx 2)) (Wr : Set (SemLoc sig × HIx 2)) (c : Dev nD) (t : Fin cfg3.N) (d) : (dats3 Vr O Wr c).before 26 t d = iblk3 Vr c 26 t :=
  ((dats3 Vr O Wr c).before_in_eq_fetched 26 rfl (fun _ => rfl) (fun _ _ _ => rfl) (fun t => by rw [after3_26]; unfold Pipeline.Dat.blockOf iblk3; rw [A3_eq]; try rfl) t d).trans
    (by unfold Pipeline.Dat.fetched Pipeline.Dat.blockOf iblk3; rw [A3_eq]; try rfl)
theorem before3_27 (O : CellTallies nD τ sig (HIx 2)) (Wr : Set (SemLoc sig × HIx 2)) (c : Dev nD) (t : Fin cfg3.N) (d) : (dats3 Vr O Wr c).before 27 t d = iblk3 Vr c 27 t :=
  ((dats3 Vr O Wr c).before_in_eq_fetched 27 rfl (fun _ => rfl) (fun _ _ _ => rfl) (fun t => by rw [after3_27]; unfold Pipeline.Dat.blockOf iblk3; rw [A3_eq]; try rfl) t d).trans
    (by unfold Pipeline.Dat.fetched Pipeline.Dat.blockOf iblk3; rw [A3_eq]; try rfl)
theorem before3_28 (O : CellTallies nD τ sig (HIx 2)) (Wr : Set (SemLoc sig × HIx 2)) (c : Dev nD) (t : Fin cfg3.N) (d) : (dats3 Vr O Wr c).before 28 t d = iblk3 Vr c 28 t :=
  ((dats3 Vr O Wr c).before_in_eq_fetched 28 rfl (fun _ => rfl) (fun _ _ _ => rfl) (fun t => by rw [after3_28]; unfold Pipeline.Dat.blockOf iblk3; rw [A3_eq]; try rfl) t d).trans
    (by unfold Pipeline.Dat.fetched Pipeline.Dat.blockOf iblk3; rw [A3_eq]; try rfl)
theorem before3_29 (O : CellTallies nD τ sig (HIx 2)) (Wr : Set (SemLoc sig × HIx 2)) (c : Dev nD) (t : Fin cfg3.N) (d) : (dats3 Vr O Wr c).before 29 t d = iblk3 Vr c 29 t :=
  ((dats3 Vr O Wr c).before_in_eq_fetched 29 rfl (fun _ => rfl) (fun _ _ _ => rfl) (fun t => by rw [after3_29]; unfold Pipeline.Dat.blockOf iblk3; rw [A3_eq]; try rfl) t d).trans
    (by unfold Pipeline.Dat.fetched Pipeline.Dat.blockOf iblk3; rw [A3_eq]; try rfl)
theorem before3_30 (O : CellTallies nD τ sig (HIx 2)) (Wr : Set (SemLoc sig × HIx 2)) (c : Dev nD) (t : Fin cfg3.N) (d) : (dats3 Vr O Wr c).before 30 t d = iblk3 Vr c 30 t :=
  ((dats3 Vr O Wr c).before_in_eq_fetched 30 rfl (fun _ => rfl) (fun _ _ _ => rfl) (fun t => by rw [after3_30]; unfold Pipeline.Dat.blockOf iblk3; rw [A3_eq]; try rfl) t d).trans
    (by unfold Pipeline.Dat.fetched Pipeline.Dat.blockOf iblk3; rw [A3_eq]; try rfl)
theorem before3_31 (O : CellTallies nD τ sig (HIx 2)) (Wr : Set (SemLoc sig × HIx 2)) (c : Dev nD) (t : Fin cfg3.N) (d) : (dats3 Vr O Wr c).before 31 t d = iblk3 Vr c 31 t :=
  ((dats3 Vr O Wr c).before_in_eq_fetched 31 rfl (fun _ => rfl) (fun _ _ _ => rfl) (fun t => by rw [after3_31]; unfold Pipeline.Dat.blockOf iblk3; rw [A3_eq]; try rfl) t d).trans
    (by unfold Pipeline.Dat.fetched Pipeline.Dat.blockOf iblk3; rw [A3_eq]; try rfl)
theorem before3_32 (O : CellTallies nD τ sig (HIx 2)) (Wr : Set (SemLoc sig × HIx 2)) (c : Dev nD) (t : Fin cfg3.N) (d) : (dats3 Vr O Wr c).before 32 t d = iblk3 Vr c 32 t :=
  ((dats3 Vr O Wr c).before_in_eq_fetched 32 rfl (fun _ => rfl) (fun _ _ _ => rfl) (fun t => by rw [after3_32]; unfold Pipeline.Dat.blockOf iblk3; rw [A3_eq]; try rfl) t d).trans
    (by unfold Pipeline.Dat.fetched Pipeline.Dat.blockOf iblk3; rw [A3_eq]; try rfl)
theorem before3_33 (O : CellTallies nD τ sig (HIx 2)) (Wr : Set (SemLoc sig × HIx 2)) (c : Dev nD) (t : Fin cfg3.N) (d) : (dats3 Vr O Wr c).before 33 t d = iblk3 Vr c 33 t :=
  ((dats3 Vr O Wr c).before_in_eq_fetched 33 rfl (fun _ => rfl) (fun _ _ _ => rfl) (fun t => by rw [after3_33]; unfold Pipeline.Dat.blockOf iblk3; rw [A3_eq]; try rfl) t d).trans
    (by unfold Pipeline.Dat.fetched Pipeline.Dat.blockOf iblk3; rw [A3_eq]; try rfl)
theorem before3_34 (O : CellTallies nD τ sig (HIx 2)) (Wr : Set (SemLoc sig × HIx 2)) (c : Dev nD) (t : Fin cfg3.N) (d) : (dats3 Vr O Wr c).before 34 t d = iblk3 Vr c 34 t :=
  ((dats3 Vr O Wr c).before_in_eq_fetched 34 rfl (fun _ => rfl) (fun _ _ _ => rfl) (fun t => by rw [after3_34]; unfold Pipeline.Dat.blockOf iblk3; rw [A3_eq]; try rfl) t d).trans
    (by unfold Pipeline.Dat.fetched Pipeline.Dat.blockOf iblk3; rw [A3_eq]; try rfl)
theorem before3_35 (O : CellTallies nD τ sig (HIx 2)) (Wr : Set (SemLoc sig × HIx 2)) (c : Dev nD) (t : Fin cfg3.N) (d) : (dats3 Vr O Wr c).before 35 t d = iblk3 Vr c 35 t :=
  ((dats3 Vr O Wr c).before_in_eq_fetched 35 rfl (fun _ => rfl) (fun _ _ _ => rfl) (fun t => by rw [after3_35]; unfold Pipeline.Dat.blockOf iblk3; rw [A3_eq]; try rfl) t d).trans
    (by unfold Pipeline.Dat.fetched Pipeline.Dat.blockOf iblk3; rw [A3_eq]; try rfl)
theorem before3_36 (O : CellTallies nD τ sig (HIx 2)) (Wr : Set (SemLoc sig × HIx 2)) (c : Dev nD) (t : Fin cfg3.N) (d) : (dats3 Vr O Wr c).before 36 t d = iblk3 Vr c 36 t :=
  ((dats3 Vr O Wr c).before_in_eq_fetched 36 rfl (fun _ => rfl) (fun _ _ _ => rfl) (fun t => by rw [after3_36]; unfold Pipeline.Dat.blockOf iblk3; rw [A3_eq]; try rfl) t d).trans
    (by unfold Pipeline.Dat.fetched Pipeline.Dat.blockOf iblk3; rw [A3_eq]; try rfl)
theorem before3_37 (O : CellTallies nD τ sig (HIx 2)) (Wr : Set (SemLoc sig × HIx 2)) (c : Dev nD) (t : Fin cfg3.N) (d) : (dats3 Vr O Wr c).before 37 t d = iblk3 Vr c 37 t :=
  ((dats3 Vr O Wr c).before_in_eq_fetched 37 rfl (fun _ => rfl) (fun _ _ _ => rfl) (fun t => by rw [after3_37]; unfold Pipeline.Dat.blockOf iblk3; rw [A3_eq]; try rfl) t d).trans
    (by unfold Pipeline.Dat.fetched Pipeline.Dat.blockOf iblk3; rw [A3_eq]; try rfl)

/-- What the body is called with at point `t`, the windows one by one, -/
def bodyPre3 (O : CellTallies nD τ sig (HIx 2)) (Wr : Set (SemLoc sig × HIx 2)) (c : Dev nD) (t : Fin cfg3.N) : sProp 𝕄 :=
  iprop((dats3 Vr O Wr c).Φ t.castSucc ∗ (dats3 Vr O Wr c).owesAt none t.castSucc
    ∗ (∃ d, owns (c : Thread nD τ) (st3_0 t) fullShare ((dats3 Vr O Wr c).before 0 t d))
    ∗ (∃ d, owns (c : Thread nD τ) (st3_1 t) fullShare ((dats3 Vr O Wr c).before 1 t d))
    ∗ (∃ d, owns (c : Thread nD τ) (st3_2 t) fullShare ((dats3 Vr O Wr c).before 2 t d))
    ∗ (∃ d, owns (c : Thread nD τ) (st3_3 t) fullShare ((dats3 Vr O Wr c).before 3 t d))
    ∗ (∃ d, owns (c : Thread nD τ) (st3_4 t) fullShare ((dats3 Vr O Wr c).before 4 t d))
    ∗ (∃ d, owns (c : Thread nD τ) (st3_5 t) fullShare ((dats3 Vr O Wr c).before 5 t d))
    ∗ (∃ d, owns (c : Thread nD τ) (st3_6 t) fullShare ((dats3 Vr O Wr c).before 6 t d))
    ∗ (∃ d, owns (c : Thread nD τ) (st3_7 t) fullShare ((dats3 Vr O Wr c).before 7 t d))
    ∗ (∃ d, owns (c : Thread nD τ) (st3_8 t) fullShare ((dats3 Vr O Wr c).before 8 t d))
    ∗ (∃ d, owns (c : Thread nD τ) (st3_9 t) fullShare ((dats3 Vr O Wr c).before 9 t d))
    ∗ (∃ d, owns (c : Thread nD τ) (st3_10 t) fullShare ((dats3 Vr O Wr c).before 10 t d))
    ∗ (∃ d, owns (c : Thread nD τ) (st3_11 t) fullShare ((dats3 Vr O Wr c).before 11 t d))
    ∗ (∃ d, owns (c : Thread nD τ) (st3_12 t) fullShare ((dats3 Vr O Wr c).before 12 t d))
    ∗ (∃ d, owns (c : Thread nD τ) (st3_13 t) fullShare ((dats3 Vr O Wr c).before 13 t d))
    ∗ (∃ d, owns (c : Thread nD τ) (st3_14 t) fullShare ((dats3 Vr O Wr c).before 14 t d))
    ∗ (∃ d, owns (c : Thread nD τ) (st3_15 t) fullShare ((dats3 Vr O Wr c).before 15 t d))
    ∗ (∃ d, owns (c : Thread nD τ) (st3_16 t) fullShare ((dats3 Vr O Wr c).before 16 t d))
    ∗ (∃ d, owns (c : Thread nD τ) (st3_17 t) fullShare ((dats3 Vr O Wr c).before 17 t d))
    ∗ (∃ d, owns (c : Thread nD τ) (st3_18 t) fullShare ((dats3 Vr O Wr c).before 18 t d))
    ∗ (∃ d, owns (c : Thread nD τ) (st3_19 t) fullShare ((dats3 Vr O Wr c).before 19 t d))
    ∗ (∃ d, owns (c : Thread nD τ) (st3_20 t) fullShare ((dats3 Vr O Wr c).before 20 t d))
    ∗ (∃ d, owns (c : Thread nD τ) (st3_21 t) fullShare ((dats3 Vr O Wr c).before 21 t d))
    ∗ (∃ d, owns (c : Thread nD τ) (st3_22 t) fullShare ((dats3 Vr O Wr c).before 22 t d))
    ∗ (∃ d, owns (c : Thread nD τ) (st3_23 t) fullShare ((dats3 Vr O Wr c).before 23 t d))
    ∗ (∃ d, owns (c : Thread nD τ) (st3_24 t) fullShare ((dats3 Vr O Wr c).before 24 t d))
    ∗ (∃ d, owns (c : Thread nD τ) (st3_25 t) fullShare ((dats3 Vr O Wr c).before 25 t d))
    ∗ (∃ d, owns (c : Thread nD τ) (st3_26 t) fullShare ((dats3 Vr O Wr c).before 26 t d))
    ∗ (∃ d, owns (c : Thread nD τ) (st3_27 t) fullShare ((dats3 Vr O Wr c).before 27 t d))
    ∗ (∃ d, owns (c : Thread nD τ) (st3_28 t) fullShare ((dats3 Vr O Wr c).before 28 t d))
    ∗ (∃ d, owns (c : Thread nD τ) (st3_29 t) fullShare ((dats3 Vr O Wr c).before 29 t d))
    ∗ (∃ d, owns (c : Thread nD τ) (st3_30 t) fullShare ((dats3 Vr O Wr c).before 30 t d))
    ∗ (∃ d, owns (c : Thread nD τ) (st3_31 t) fullShare ((dats3 Vr O Wr c).before 31 t d))
    ∗ (∃ d, owns (c : Thread nD τ) (st3_32 t) fullShare ((dats3 Vr O Wr c).before 32 t d))
    ∗ (∃ d, owns (c : Thread nD τ) (st3_33 t) fullShare ((dats3 Vr O Wr c).before 33 t d))
    ∗ (∃ d, owns (c : Thread nD τ) (st3_34 t) fullShare ((dats3 Vr O Wr c).before 34 t d))
    ∗ (∃ d, owns (c : Thread nD τ) (st3_35 t) fullShare ((dats3 Vr O Wr c).before 35 t d))
    ∗ (∃ d, owns (c : Thread nD τ) (st3_36 t) fullShare ((dats3 Vr O Wr c).before 36 t d))
    ∗ (∃ d, owns (c : Thread nD τ) (st3_37 t) fullShare ((dats3 Vr O Wr c).before 37 t d))
    ∗ (∃ d, owns (c : Thread nD τ) (st3_38 t) fullShare ((dats3 Vr O Wr c).before 38 t d)))

/-- and what it returns. -/
def bodyPost3 (O : CellTallies nD τ sig (HIx 2)) (Wr : Set (SemLoc sig × HIx 2)) (c : Dev nD) (t : Fin cfg3.N) : sProp 𝕄 :=
  iprop((dats3 Vr O Wr c).Φ t.succ ∗ (dats3 Vr O Wr c).owesAt none t.succ
    ∗ owns (c : Thread nD τ) (st3_0 t) fullShare ((dats3 Vr O Wr c).after 0 t)
    ∗ owns (c : Thread nD τ) (st3_1 t) fullShare ((dats3 Vr O Wr c).after 1 t)
    ∗ owns (c : Thread nD τ) (st3_2 t) fullShare ((dats3 Vr O Wr c).after 2 t)
    ∗ owns (c : Thread nD τ) (st3_3 t) fullShare ((dats3 Vr O Wr c).after 3 t)
    ∗ owns (c : Thread nD τ) (st3_4 t) fullShare ((dats3 Vr O Wr c).after 4 t)
    ∗ owns (c : Thread nD τ) (st3_5 t) fullShare ((dats3 Vr O Wr c).after 5 t)
    ∗ owns (c : Thread nD τ) (st3_6 t) fullShare ((dats3 Vr O Wr c).after 6 t)
    ∗ owns (c : Thread nD τ) (st3_7 t) fullShare ((dats3 Vr O Wr c).after 7 t)
    ∗ owns (c : Thread nD τ) (st3_8 t) fullShare ((dats3 Vr O Wr c).after 8 t)
    ∗ owns (c : Thread nD τ) (st3_9 t) fullShare ((dats3 Vr O Wr c).after 9 t)
    ∗ owns (c : Thread nD τ) (st3_10 t) fullShare ((dats3 Vr O Wr c).after 10 t)
    ∗ owns (c : Thread nD τ) (st3_11 t) fullShare ((dats3 Vr O Wr c).after 11 t)
    ∗ owns (c : Thread nD τ) (st3_12 t) fullShare ((dats3 Vr O Wr c).after 12 t)
    ∗ owns (c : Thread nD τ) (st3_13 t) fullShare ((dats3 Vr O Wr c).after 13 t)
    ∗ owns (c : Thread nD τ) (st3_14 t) fullShare ((dats3 Vr O Wr c).after 14 t)
    ∗ owns (c : Thread nD τ) (st3_15 t) fullShare ((dats3 Vr O Wr c).after 15 t)
    ∗ owns (c : Thread nD τ) (st3_16 t) fullShare ((dats3 Vr O Wr c).after 16 t)
    ∗ owns (c : Thread nD τ) (st3_17 t) fullShare ((dats3 Vr O Wr c).after 17 t)
    ∗ owns (c : Thread nD τ) (st3_18 t) fullShare ((dats3 Vr O Wr c).after 18 t)
    ∗ owns (c : Thread nD τ) (st3_19 t) fullShare ((dats3 Vr O Wr c).after 19 t)
    ∗ owns (c : Thread nD τ) (st3_20 t) fullShare ((dats3 Vr O Wr c).after 20 t)
    ∗ owns (c : Thread nD τ) (st3_21 t) fullShare ((dats3 Vr O Wr c).after 21 t)
    ∗ owns (c : Thread nD τ) (st3_22 t) fullShare ((dats3 Vr O Wr c).after 22 t)
    ∗ owns (c : Thread nD τ) (st3_23 t) fullShare ((dats3 Vr O Wr c).after 23 t)
    ∗ owns (c : Thread nD τ) (st3_24 t) fullShare ((dats3 Vr O Wr c).after 24 t)
    ∗ owns (c : Thread nD τ) (st3_25 t) fullShare ((dats3 Vr O Wr c).after 25 t)
    ∗ owns (c : Thread nD τ) (st3_26 t) fullShare ((dats3 Vr O Wr c).after 26 t)
    ∗ owns (c : Thread nD τ) (st3_27 t) fullShare ((dats3 Vr O Wr c).after 27 t)
    ∗ owns (c : Thread nD τ) (st3_28 t) fullShare ((dats3 Vr O Wr c).after 28 t)
    ∗ owns (c : Thread nD τ) (st3_29 t) fullShare ((dats3 Vr O Wr c).after 29 t)
    ∗ owns (c : Thread nD τ) (st3_30 t) fullShare ((dats3 Vr O Wr c).after 30 t)
    ∗ owns (c : Thread nD τ) (st3_31 t) fullShare ((dats3 Vr O Wr c).after 31 t)
    ∗ owns (c : Thread nD τ) (st3_32 t) fullShare ((dats3 Vr O Wr c).after 32 t)
    ∗ owns (c : Thread nD τ) (st3_33 t) fullShare ((dats3 Vr O Wr c).after 33 t)
    ∗ owns (c : Thread nD τ) (st3_34 t) fullShare ((dats3 Vr O Wr c).after 34 t)
    ∗ owns (c : Thread nD τ) (st3_35 t) fullShare ((dats3 Vr O Wr c).after 35 t)
    ∗ owns (c : Thread nD τ) (st3_36 t) fullShare ((dats3 Vr O Wr c).after 36 t)
    ∗ owns (c : Thread nD τ) (st3_37 t) fullShare ((dats3 Vr O Wr c).after 37 t)
    ∗ owns (c : Thread nD τ) (st3_38 t) fullShare ((dats3 Vr O Wr c).after 38 t))

set_option maxHeartbeats 4000000 in
set_option maxRecDepth 65536 in
/-- The body at any point: the inputs' memrefs hold their blocks, so the body's triple applies; the invariant and the
    core's `owes` pass through unread. -/
theorem sound_body3 (O : CellTallies nD τ sig (HIx 2)) (Wr : Set (SemLoc sig × HIx 2)) (c : Dev nD) (t : Fin cfg3.N) :
    bodyPre3 Vr O Wr c t ⊢ wp frame (wpE (defs₀ (F := F)) Variants.none c none) Set.univ (bodyAt3 t) (fun _ => bodyPost3 Vr O Wr c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22, before3_23, before3_24, before3_25, before3_26, before3_27, before3_28, before3_29, before3_30, before3_31, before3_32, before3_33, before3_34, before3_35, before3_36, before3_37]
  rw [show (dats3 Vr O Wr c).Φ t.succ = (dats3 Vr O Wr c).Φ t.castSucc from rfl,
    show (dats3 Vr O Wr c).owesAt none t.succ = (dats3 Vr O Wr c).owesAt none t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24, after3_25, after3_26, after3_27, after3_28, after3_29, after3_30, after3_31, after3_32, after3_33, after3_34, after3_35, after3_36, after3_37, after3_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_tc3 c Set.univ (grid3.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
set_option maxRecDepth 65536 in
/-- The library's body obligation, at every point. -/
theorem body_obligation3 (O : CellTallies nD τ sig (HIx 2)) (Wr : Set (SemLoc sig × HIx 2)) (c : Dev nD) : Pipeline.BodyObligation (dats3 (F := F) Vr O Wr c) (defs₀ (F := F)) Variants.none none Set.univ := fun t => by
  rw [bigSep_W3, bigSep_W3]
  exact sound_body3 Vr O Wr c t

end Region3

end Cert.Proof.KI

end
-- ==== Proof.Pins.lean ====
/-
  The pipelines' admissible tables (there are none: neither pipeline prefetches) and the launch's level assignment.
-/
import proofs.«205278_g66915590471714_cont_9to1_m_383_35_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

abbrev adm : (p : Fin 2) → (pcfgs (F := F) p).Adm := fun p => (cfgs p).toPCfg_adm
abbrev LK : GSem nD τ sig → Finset (HIx 2) := (K (F := F)).L
abbrev lvK : GSem nD τ sig → HIx 2 → ℕ := (K (F := F)).lev

end Cert.Proof.KI

end
-- ==== Proof.RegionArrays.lean ====
/-
  The two TensorCore pipelines' arrays at a region's entry and exit: the fourteen buffers behind each pipeline's windows
  against the windows' arrays at their shares.
-/
import proofs.«205278_g66915590471714_cont_9to1_m_383_35_alg».proof.Proof.Regions
import proofs.«205278_g66915590471714_cont_9to1_m_383_35_alg».proof.Proof.Pins
import proofs.«205278_g66915590471714_cont_9to1_m_383_35_alg».proof.Proof.Gen.KernelIdeal.Launch
import Idealize.ShloMosaic.Lib.Pipeline.Regions
import Idealize.ShloMosaic.Lib.Pipeline.Frame

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- Twenty-six conjoined one by one. -/
theorem bigSep_F26 {M : Type} [URA M] (Φ : Fin 26 → sProp M) : bigSep Finset.univ Φ = iprop(Φ (0 : Fin 26) ∗ Φ (1 : Fin 26) ∗ Φ (2 : Fin 26) ∗ Φ (3 : Fin 26) ∗ Φ (4 : Fin 26) ∗ Φ (5 : Fin 26) ∗ Φ (6 : Fin 26) ∗ Φ (7 : Fin 26) ∗ Φ (8 : Fin 26) ∗ Φ (9 : Fin 26) ∗ Φ (10 : Fin 26) ∗ Φ (11 : Fin 26) ∗ Φ (12 : Fin 26) ∗ Φ (13 : Fin 26) ∗ Φ (14 : Fin 26) ∗ Φ (15 : Fin 26) ∗ Φ (16 : Fin 26) ∗ Φ (17 : Fin 26) ∗ Φ (18 : Fin 26) ∗ Φ (19 : Fin 26) ∗ Φ (20 : Fin 26) ∗ Φ (21 : Fin 26) ∗ Φ (22 : Fin 26) ∗ Φ (23 : Fin 26) ∗ Φ (24 : Fin 26) ∗ Φ (25 : Fin 26)) :=
  bigSep_univ_eq_bigSepL [(0 : Fin 26), (1 : Fin 26), (2 : Fin 26), (3 : Fin 26), (4 : Fin 26), (5 : Fin 26), (6 : Fin 26), (7 : Fin 26), (8 : Fin 26), (9 : Fin 26), (10 : Fin 26), (11 : Fin 26), (12 : Fin 26), (13 : Fin 26), (14 : Fin 26), (15 : Fin 26), (16 : Fin 26), (17 : Fin 26), (18 : Fin 26), (19 : Fin 26), (20 : Fin 26), (21 : Fin 26), (22 : Fin 26), (23 : Fin 26), (24 : Fin 26), (25 : Fin 26)] (by decide) (by decide) Φ

/-- Nothing conjoined over no index. -/
theorem bigSep_Fin0 {M : Type} [URA M] (Φ : Fin 0 → sProp M) : bigSep Finset.univ Φ = (BI.emp : sProp M) := by
  rw [Finset.univ_eq_empty, BI.bigSep_empty]
/-- Neither pipeline has a prefetched table. -/
theorem prefHeld_none0 (c : Dev nD) (q) (pf) : (Pipeline.prefHeld (Ix := HIx 2) (Name := ℕ) (U := UU) (Lvl := ℕ) (Val := Elt F) (pcfgs (F := F) 0).pre c q pf : sProp 𝕄) = BI.emp :=
  bigSep_Fin0 _
theorem prefHeld_none1 (c : Dev nD) (q) (pf) : (Pipeline.prefHeld (Ix := HIx 2) (Name := ℕ) (U := UU) (Lvl := ℕ) (Val := Elt F) (pcfgs (F := F) 1).pre c q pf : sProp 𝕄) = BI.emp :=
  bigSep_Fin0 _

/-- An input window's array is never written: at every point it holds its entry contents. -/
theorem arrAt_of_in {cfg : Pipeline.Cfg sig Λ₀} {c : Dev nD} (dat : Pipeline.Dat τ (Elt F) (HIx 2) ℕ UU ℕ cfg c) (w : Fin cfg.W)
    (hw : (cfg.win w).isOut = false) : ∀ n, dat.arrAt w n = dat.A w
  | 0 => rfl
  | n + 1 => by
    rw [Pipeline.Dat.arrAt]
    by_cases h : n < cfg.N
    · simp only [h, ↓reduceDIte, (cfg.win w).flush_in hw, Bool.false_eq_true, ↓reduceIte]
      exact arrAt_of_in dat w hw n
    · simp only [h, ↓reduceDIte]
      exact arrAt_of_in dat w hw n

section Recs

variable (V0 V1 : Valuation τ sig (Elt F)) (O0 O1 : CellTallies nD τ sig (HIx 2)) (W0 W1 : Set (SemLoc sig × HIx 2))

/-- The proof data of both pipelines. -/
def pdats : (p : Fin 2) → (c : Dev nD) → Pipeline.Dat τ (Elt F) (HIx 2) ℕ UU ℕ (Pipeline.pin (pcfgs (F := F)) adm p) c
  | ⟨0, _⟩, c => dats1 V0 O0 W0 c
  | ⟨1, _⟩, c => dats3 V1 O1 W1 c

/-! ## Pipeline call 0 -/

/-- The distinct arrays of pipeline call 0's windows. -/
def arrSet1 : Finset (DevRef τ sig) :=
  {Proc.devRef .tc main_v23, Proc.devRef .tc main_v24, Proc.devRef .tc main_arg4, Proc.devRef .tc main_arg6, Proc.devRef .tc main_v10, Proc.devRef .tc main_v14, Proc.devRef .tc main_v11, Proc.devRef .tc main_v15, Proc.devRef .tc main_v12, Proc.devRef .tc main_v16, Proc.devRef .tc main_v13, Proc.devRef .tc main_v9, Proc.devRef .tc main_v22, Proc.devRef .tc main_v25}

theorem arrSet1_sub : arrSet1 ⊆ Pipeline.ucRefs τ sig := by
  intro b hb
  simp only [arrSet1, Finset.mem_insert, Finset.mem_singleton] at hb
  rcases hb with rfl | rfl | rfl | rfl | rfl | rfl | rfl | rfl | rfl | rfl | rfl | rfl | rfl | rfl <;>
    exact Finset.mem_filter.mpr ⟨StableHlo.devRef_mem_tcRefs _, by decide⟩

/-- The fourteen arrays one by one. -/
theorem held_arrSet1 (c : Dev nD) (V : Valuation τ sig (Elt F)) :
    (held (c : Thread nD τ) arrSet1 V : sProp 𝕄)
      = iprop(((((c : Dev nD), Proc.devRef .tc main_v23) : Loc nD τ sig) ↦{fullShare} V (Proc.devRef .tc main_v23))
        ∗ ((((c : Dev nD), Proc.devRef .tc main_v24) : Loc nD τ sig) ↦{fullShare} V (Proc.devRef .tc main_v24))
        ∗ ((((c : Dev nD), Proc.devRef .tc main_arg4) : Loc nD τ sig) ↦{fullShare} V (Proc.devRef .tc main_arg4))
        ∗ ((((c : Dev nD), Proc.devRef .tc main_arg6) : Loc nD τ sig) ↦{fullShare} V (Proc.devRef .tc main_arg6))
        ∗ ((((c : Dev nD), Proc.devRef .tc main_v10) : Loc nD τ sig) ↦{fullShare} V (Proc.devRef .tc main_v10))
        ∗ ((((c : Dev nD), Proc.devRef .tc main_v14) : Loc nD τ sig) ↦{fullShare} V (Proc.devRef .tc main_v14))
        ∗ ((((c : Dev nD), Proc.devRef .tc main_v11) : Loc nD τ sig) ↦{fullShare} V (Proc.devRef .tc main_v11))
        ∗ ((((c : Dev nD), Proc.devRef .tc main_v15) : Loc nD τ sig) ↦{fullShare} V (Proc.devRef .tc main_v15))
        ∗ ((((c : Dev nD), Proc.devRef .tc main_v12) : Loc nD τ sig) ↦{fullShare} V (Proc.devRef .tc main_v12))
        ∗ ((((c : Dev nD), Proc.devRef .tc main_v16) : Loc nD τ sig) ↦{fullShare} V (Proc.devRef .tc main_v16))
        ∗ ((((c : Dev nD), Proc.devRef .tc main_v13) : Loc nD τ sig) ↦{fullShare} V (Proc.devRef .tc main_v13))
        ∗ ((((c : Dev nD), Proc.devRef .tc main_v9) : Loc nD τ sig) ↦{fullShare} V (Proc.devRef .tc main_v9))
        ∗ ((((c : Dev nD), Proc.devRef .tc main_v22) : Loc nD τ sig) ↦{fullShare} V (Proc.devRef .tc main_v22))
        ∗ ((((c : Dev nD), Proc.devRef .tc main_v25) : Loc nD τ sig) ↦{fullShare} V (Proc.devRef .tc main_v25))) := by
  unfold StableHlo.held arrSet1
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers that bypass pipeline call 0 do not include its result array. -/
theorem rest1_congr (V : Valuation τ sig (Elt F)) (c : Dev nD) (f) :
    (held (c : Thread nD τ) (Pipeline.ucRefs τ sig \ arrSet1) (Function.update V (Proc.devRef .tc main_v25) f) : sProp 𝕄)
      = held (c : Thread nD τ) (Pipeline.ucRefs τ sig \ arrSet1) V :=
  StableHlo.held_congr (c : Thread nD τ) fun b hb => Function.update_of_ne (fun e => (Finset.mem_sdiff.mp hb).2 (by
    rw [e]; simp only [arrSet1, Finset.mem_insert, Finset.mem_singleton, or_true, true_or])) _ _

theorem arr1a_0 (c : Dev nD) :
    ((cfg1.win 0).arr.view.loc (c : Thread nD τ) ↦[(cfg1.win 0).arr.view.set]{(dats1 V0 O0 W0 c).share 0} ((dats1 V0 O0 W0 c).arrAt 0 0) : sProp 𝕄)
      = (((c : Dev nD), Proc.devRef .tc main_v23) : Loc nD τ sig) ↦{fullShare} V0 (Proc.devRef .tc main_v23) := by
  simp only [Memref.view_whole, View.set_whole]
  rfl
theorem arr1a_1 (c : Dev nD) :
    ((cfg1.win 1).arr.view.loc (c : Thread nD τ) ↦[(cfg1.win 1).arr.view.set]{(dats1 V0 O0 W0 c).share 1} ((dats1 V0 O0 W0 c).arrAt 1 0) : sProp 𝕄)
      = (((c : Dev nD), Proc.devRef .tc main_v24) : Loc nD τ sig) ↦{fullShare} V0 (Proc.devRef .tc main_v24) := by
  simp only [Memref.view_whole, View.set_whole]
  rfl
theorem arr1a_2 (c : Dev nD) :
    ((cfg1.win 2).arr.view.loc (c : Thread nD τ) ↦[(cfg1.win 2).arr.view.set]{(dats1 V0 O0 W0 c).share 2} ((dats1 V0 O0 W0 c).arrAt 2 0) : sProp 𝕄)
      = (((c : Dev nD), Proc.devRef .tc main_arg4) : Loc nD τ sig) ↦{fullShare} V0 (Proc.devRef .tc main_arg4) := by
  simp only [Memref.view_whole, View.set_whole]
  rfl
theorem arr1a_3 (c : Dev nD) :
    ((cfg1.win 3).arr.view.loc (c : Thread nD τ) ↦[(cfg1.win 3).arr.view.set]{(dats1 V0 O0 W0 c).share 3} ((dats1 V0 O0 W0 c).arrAt 3 0) : sProp 𝕄)
      = (((c : Dev nD), Proc.devRef .tc main_arg6) : Loc nD τ sig) ↦{fullShare} V0 (Proc.devRef .tc main_arg6) := by
  simp only [Memref.view_whole, View.set_whole]
  rfl
theorem arr1a_4 (c : Dev nD) :
    ((cfg1.win 4).arr.view.loc (c : Thread nD τ) ↦[(cfg1.win 4).arr.view.set]{(dats1 V0 O0 W0 c).share 4} ((dats1 V0 O0 W0 c).arrAt 4 0) : sProp 𝕄)
      = (((c : Dev nD), Proc.devRef .tc main_v10) : Loc nD τ sig) ↦{fullShare} V0 (Proc.devRef .tc main_v10) := by
  simp only [Memref.view_whole, View.set_whole]
  rfl
theorem arr1a_5 (c : Dev nD) :
    ((cfg1.win 5).arr.view.loc (c : Thread nD τ) ↦[(cfg1.win 5).arr.view.set]{(dats1 V0 O0 W0 c).share 5} ((dats1 V0 O0 W0 c).arrAt 5 0) : sProp 𝕄)
      = (((c : Dev nD), Proc.devRef .tc main_v14) : Loc nD τ sig) ↦{fullShare} V0 (Proc.devRef .tc main_v14) := by
  simp only [Memref.view_whole, View.set_whole]
  rfl
theorem arr1a_6 (c : Dev nD) :
    ((cfg1.win 6).arr.view.loc (c : Thread nD τ) ↦[(cfg1.win 6).arr.view.set]{(dats1 V0 O0 W0 c).share 6} ((dats1 V0 O0 W0 c).arrAt 6 0) : sProp 𝕄)
      = (((c : Dev nD), Proc.devRef .tc main_v11) : Loc nD τ sig) ↦{fullShare} V0 (Proc.devRef .tc main_v11) := by
  simp only [Memref.view_whole, View.set_whole]
  rfl
theorem arr1a_7 (c : Dev nD) :
    ((cfg1.win 7).arr.view.loc (c : Thread nD τ) ↦[(cfg1.win 7).arr.view.set]{(dats1 V0 O0 W0 c).share 7} ((dats1 V0 O0 W0 c).arrAt 7 0) : sProp 𝕄)
      = (((c : Dev nD), Proc.devRef .tc main_v15) : Loc nD τ sig) ↦{fullShare} V0 (Proc.devRef .tc main_v15) := by
  simp only [Memref.view_whole, View.set_whole]
  rfl
theorem arr1a_8 (c : Dev nD) :
    ((cfg1.win 8).arr.view.loc (c : Thread nD τ) ↦[(cfg1.win 8).arr.view.set]{(dats1 V0 O0 W0 c).share 8} ((dats1 V0 O0 W0 c).arrAt 8 0) : sProp 𝕄)
      = (((c : Dev nD), Proc.devRef .tc main_v12) : Loc nD τ sig) ↦{fullShare} V0 (Proc.devRef .tc main_v12) := by
  simp only [Memref.view_whole, View.set_whole]
  rfl
theorem arr1a_9 (c : Dev nD) :
    ((cfg1.win 9).arr.view.loc (c : Thread nD τ) ↦[(cfg1.win 9).arr.view.set]{(dats1 V0 O0 W0 c).share 9} ((dats1 V0 O0 W0 c).arrAt 9 0) : sProp 𝕄)
      = (((c : Dev nD), Proc.devRef .tc main_v16) : Loc nD τ sig) ↦{fullShare} V0 (Proc.devRef .tc main_v16) := by
  simp only [Memref.view_whole, View.set_whole]
  rfl
theorem arr1a_10 (c : Dev nD) :
    ((cfg1.win 10).arr.view.loc (c : Thread nD τ) ↦[(cfg1.win 10).arr.view.set]{(dats1 V0 O0 W0 c).share 10} ((dats1 V0 O0 W0 c).arrAt 10 0) : sProp 𝕄)
      = (((c : Dev nD), Proc.devRef .tc main_v13) : Loc nD τ sig) ↦{fullShare} V0 (Proc.devRef .tc main_v13) := by
  simp only [Memref.view_whole, View.set_whole]
  rfl
theorem arr1a_11 (c : Dev nD) :
    ((cfg1.win 11).arr.view.loc (c : Thread nD τ) ↦[(cfg1.win 11).arr.view.set]{(dats1 V0 O0 W0 c).share 11} ((dats1 V0 O0 W0 c).arrAt 11 0) : sProp 𝕄)
      = (((c : Dev nD), Proc.devRef .tc main_v9) : Loc nD τ sig) ↦{fullShare} V0 (Proc.devRef .tc main_v9) := by
  simp only [Memref.view_whole, View.set_whole]
  rfl
theorem arr1a_12 (c : Dev nD) :
    ((cfg1.win 12).arr.view.loc (c : Thread nD τ) ↦[(cfg1.win 12).arr.view.set]{(dats1 V0 O0 W0 c).share 12} ((dats1 V0 O0 W0 c).arrAt 12 0) : sProp 𝕄)
      = (((c : Dev nD), Proc.devRef .tc main_v22) : Loc nD τ sig) ↦{shareTokN fullShare 0} V0 (Proc.devRef .tc main_v22) := by
  simp only [Memref.view_whole, View.set_whole]
  rfl
theorem arr1a_13 (c : Dev nD) :
    ((cfg1.win 13).arr.view.loc (c : Thread nD τ) ↦[(cfg1.win 13).arr.view.set]{(dats1 V0 O0 W0 c).share 13} ((dats1 V0 O0 W0 c).arrAt 13 0) : sProp 𝕄)
      = (((c : Dev nD), Proc.devRef .tc main_v22) : Loc nD τ sig) ↦{shareTokN fullShare 1} V0 (Proc.devRef .tc main_v22) := by
  simp only [Memref.view_whole, View.set_whole]
  rfl
theorem arr1a_14 (c : Dev nD) :
    ((cfg1.win 14).arr.view.loc (c : Thread nD τ) ↦[(cfg1.win 14).arr.view.set]{(dats1 V0 O0 W0 c).share 14} ((dats1 V0 O0 W0 c).arrAt 14 0) : sProp 𝕄)
      = (((c : Dev nD), Proc.devRef .tc main_v22) : Loc nD τ sig) ↦{shareTokN fullShare 2} V0 (Proc.devRef .tc main_v22) := by
  simp only [Memref.view_whole, View.set_whole]
  rfl
theorem arr1a_15 (c : Dev nD) :
    ((cfg1.win 15).arr.view.loc (c : Thread nD τ) ↦[(cfg1.win 15).arr.view.set]{(dats1 V0 O0 W0 c).share 15} ((dats1 V0 O0 W0 c).arrAt 15 0) : sProp 𝕄)
      = (((c : Dev nD), Proc.devRef .tc main_v22) : Loc nD τ sig) ↦{shareTokN fullShare 3} V0 (Proc.devRef .tc main_v22) := by
  simp only [Memref.view_whole, View.set_whole]
  rfl
theorem arr1a_16 (c : Dev nD) :
    ((cfg1.win 16).arr.view.loc (c : Thread nD τ) ↦[(cfg1.win 16).arr.view.set]{(dats1 V0 O0 W0 c).share 16} ((dats1 V0 O0 W0 c).arrAt 16 0) : sProp 𝕄)
      = (((c : Dev nD), Proc.devRef .tc main_v22) : Loc nD τ sig) ↦{shareTokN fullShare 4} V0 (Proc.devRef .tc main_v22) := by
  simp only [Memref.view_whole, View.set_whole]
  rfl
theorem arr1a_17 (c : Dev nD) :
    ((cfg1.win 17).arr.view.loc (c : Thread nD τ) ↦[(cfg1.win 17).arr.view.set]{(dats1 V0 O0 W0 c).share 17} ((dats1 V0 O0 W0 c).arrAt 17 0) : sProp 𝕄)
      = (((c : Dev nD), Proc.devRef .tc main_v22) : Loc nD τ sig) ↦{shareTokN fullShare 5} V0 (Proc.devRef .tc main_v22) := by
  simp only [Memref.view_whole, View.set_whole]
  rfl
theorem arr1a_18 (c : Dev nD) :
    ((cfg1.win 18).arr.view.loc (c : Thread nD τ) ↦[(cfg1.win 18).arr.view.set]{(dats1 V0 O0 W0 c).share 18} ((dats1 V0 O0 W0 c).arrAt 18 0) : sProp 𝕄)
      = (((c : Dev nD), Proc.devRef .tc main_v22) : Loc nD τ sig) ↦{shareTokN fullShare 6} V0 (Proc.devRef .tc main_v22) := by
  simp only [Memref.view_whole, View.set_whole]
  rfl
theorem arr1a_19 (c : Dev nD) :
    ((cfg1.win 19).arr.view.loc (c : Thread nD τ) ↦[(cfg1.win 19).arr.view.set]{(dats1 V0 O0 W0 c).share 19} ((dats1 V0 O0 W0 c).arrAt 19 0) : sProp 𝕄)
      = (((c : Dev nD), Proc.devRef .tc main_v22) : Loc nD τ sig) ↦{shareTokN fullShare 7} V0 (Proc.devRef .tc main_v22) := by
  simp only [Memref.view_whole, View.set_whole]
  rfl
theorem arr1a_20 (c : Dev nD) :
    ((cfg1.win 20).arr.view.loc (c : Thread nD τ) ↦[(cfg1.win 20).arr.view.set]{(dats1 V0 O0 W0 c).share 20} ((dats1 V0 O0 W0 c).arrAt 20 0) : sProp 𝕄)
      = (((c : Dev nD), Proc.devRef .tc main_v22) : Loc nD τ sig) ↦{shareTokN fullShare 8} V0 (Proc.devRef .tc main_v22) := by
  simp only [Memref.view_whole, View.set_whole]
  rfl
theorem arr1a_21 (c : Dev nD) :
    ((cfg1.win 21).arr.view.loc (c : Thread nD τ) ↦[(cfg1.win 21).arr.view.set]{(dats1 V0 O0 W0 c).share 21} ((dats1 V0 O0 W0 c).arrAt 21 0) : sProp 𝕄)
      = (((c : Dev nD), Proc.devRef .tc main_v22) : Loc nD τ sig) ↦{shareTokN fullShare 9} V0 (Proc.devRef .tc main_v22) := by
  simp only [Memref.view_whole, View.set_whole]
  rfl
theorem arr1a_22 (c : Dev nD) :
    ((cfg1.win 22).arr.view.loc (c : Thread nD τ) ↦[(cfg1.win 22).arr.view.set]{(dats1 V0 O0 W0 c).share 22} ((dats1 V0 O0 W0 c).arrAt 22 0) : sProp 𝕄)
      = (((c : Dev nD), Proc.devRef .tc main_v22) : Loc nD τ sig) ↦{shareTokN fullShare 10} V0 (Proc.devRef .tc main_v22) := by
  simp only [Memref.view_whole, View.set_whole]
  rfl
theorem arr1a_23 (c : Dev nD) :
    ((cfg1.win 23).arr.view.loc (c : Thread nD τ) ↦[(cfg1.win 23).arr.view.set]{(dats1 V0 O0 W0 c).share 23} ((dats1 V0 O0 W0 c).arrAt 23 0) : sProp 𝕄)
      = (((c : Dev nD), Proc.devRef .tc main_v22) : Loc nD τ sig) ↦{shareTokN fullShare 11} V0 (Proc.devRef .tc main_v22) := by
  simp only [Memref.view_whole, View.set_whole]
  rfl
theorem arr1a_24 (c : Dev nD) :
    ((cfg1.win 24).arr.view.loc (c : Thread nD τ) ↦[(cfg1.win 24).arr.view.set]{(dats1 V0 O0 W0 c).share 24} ((dats1 V0 O0 W0 c).arrAt 24 0) : sProp 𝕄)
      = (((c : Dev nD), Proc.devRef .tc main_v22) : Loc nD τ sig) ↦{shareTokN fullShare 12} V0 (Proc.devRef .tc main_v22) := by
  simp only [Memref.view_whole, View.set_whole]
  rfl
theorem arr1a_25 (c : Dev nD) :
    ((cfg1.win 25).arr.view.loc (c : Thread nD τ) ↦[(cfg1.win 25).arr.view.set]{(dats1 V0 O0 W0 c).share 25} ((dats1 V0 O0 W0 c).arrAt 25 0) : sProp 𝕄)
      = (((c : Dev nD), Proc.devRef .tc main_v22) : Loc nD τ sig) ↦{shareTokN fullShare 13} V0 (Proc.devRef .tc main_v22) := by
  simp only [Memref.view_whole, View.set_whole]
  rfl
theorem arr1a_26 (c : Dev nD) :
    ((cfg1.win 26).arr.view.loc (c : Thread nD τ) ↦[(cfg1.win 26).arr.view.set]{(dats1 V0 O0 W0 c).share 26} ((dats1 V0 O0 W0 c).arrAt 26 0) : sProp 𝕄)
      = (((c : Dev nD), Proc.devRef .tc main_v22) : Loc nD τ sig) ↦{shareTokN fullShare 14} V0 (Proc.devRef .tc main_v22) := by
  simp only [Memref.view_whole, View.set_whole]
  rfl
theorem arr1a_27 (c : Dev nD) :
    ((cfg1.win 27).arr.view.loc (c : Thread nD τ) ↦[(cfg1.win 27).arr.view.set]{(dats1 V0 O0 W0 c).share 27} ((dats1 V0 O0 W0 c).arrAt 27 0) : sProp 𝕄)
      = (((c : Dev nD), Proc.devRef .tc main_v22) : Loc nD τ sig) ↦{shareTokN fullShare 15} V0 (Proc.devRef .tc main_v22) := by
  simp only [Memref.view_whole, View.set_whole]
  rfl
theorem arr1a_28 (c : Dev nD) :
    ((cfg1.win 28).arr.view.loc (c : Thread nD τ) ↦[(cfg1.win 28).arr.view.set]{(dats1 V0 O0 W0 c).share 28} ((dats1 V0 O0 W0 c).arrAt 28 0) : sProp 𝕄)
      = (((c : Dev nD), Proc.devRef .tc main_v22) : Loc nD τ sig) ↦{shareTokN fullShare 16} V0 (Proc.devRef .tc main_v22) := by
  simp only [Memref.view_whole, View.set_whole]
  rfl
theorem arr1a_29 (c : Dev nD) :
    ((cfg1.win 29).arr.view.loc (c : Thread nD τ) ↦[(cfg1.win 29).arr.view.set]{(dats1 V0 O0 W0 c).share 29} ((dats1 V0 O0 W0 c).arrAt 29 0) : sProp 𝕄)
      = (((c : Dev nD), Proc.devRef .tc main_v22) : Loc nD τ sig) ↦{shareTokN fullShare 17} V0 (Proc.devRef .tc main_v22) := by
  simp only [Memref.view_whole, View.set_whole]
  rfl
theorem arr1a_30 (c : Dev nD) :
    ((cfg1.win 30).arr.view.loc (c : Thread nD τ) ↦[(cfg1.win 30).arr.view.set]{(dats1 V0 O0 W0 c).share 30} ((dats1 V0 O0 W0 c).arrAt 30 0) : sProp 𝕄)
      = (((c : Dev nD), Proc.devRef .tc main_v22) : Loc nD τ sig) ↦{shareTokN fullShare 18} V0 (Proc.devRef .tc main_v22) := by
  simp only [Memref.view_whole, View.set_whole]
  rfl
theorem arr1a_31 (c : Dev nD) :
    ((cfg1.win 31).arr.view.loc (c : Thread nD τ) ↦[(cfg1.win 31).arr.view.set]{(dats1 V0 O0 W0 c).share 31} ((dats1 V0 O0 W0 c).arrAt 31 0) : sProp 𝕄)
      = (((c : Dev nD), Proc.devRef .tc main_v22) : Loc nD τ sig) ↦{shareTokN fullShare 19} V0 (Proc.devRef .tc main_v22) := by
  simp only [Memref.view_whole, View.set_whole]
  rfl
theorem arr1a_32 (c : Dev nD) :
    ((cfg1.win 32).arr.view.loc (c : Thread nD τ) ↦[(cfg1.win 32).arr.view.set]{(dats1 V0 O0 W0 c).share 32} ((dats1 V0 O0 W0 c).arrAt 32 0) : sProp 𝕄)
      = (((c : Dev nD), Proc.devRef .tc main_v22) : Loc nD τ sig) ↦{shareTokN fullShare 20} V0 (Proc.devRef .tc main_v22) := by
  simp only [Memref.view_whole, View.set_whole]
  rfl
theorem arr1a_33 (c : Dev nD) :
    ((cfg1.win 33).arr.view.loc (c : Thread nD τ) ↦[(cfg1.win 33).arr.view.set]{(dats1 V0 O0 W0 c).share 33} ((dats1 V0 O0 W0 c).arrAt 33 0) : sProp 𝕄)
      = (((c : Dev nD), Proc.devRef .tc main_v22) : Loc nD τ sig) ↦{shareTokN fullShare 21} V0 (Proc.devRef .tc main_v22) := by
  simp only [Memref.view_whole, View.set_whole]
  rfl
theorem arr1a_34 (c : Dev nD) :
    ((cfg1.win 34).arr.view.loc (c : Thread nD τ) ↦[(cfg1.win 34).arr.view.set]{(dats1 V0 O0 W0 c).share 34} ((dats1 V0 O0 W0 c).arrAt 34 0) : sProp 𝕄)
      = (((c : Dev nD), Proc.devRef .tc main_v22) : Loc nD τ sig) ↦{shareTokN fullShare 22} V0 (Proc.devRef .tc main_v22) := by
  simp only [Memref.view_whole, View.set_whole]
  rfl
theorem arr1a_35 (c : Dev nD) :
    ((cfg1.win 35).arr.view.loc (c : Thread nD τ) ↦[(cfg1.win 35).arr.view.set]{(dats1 V0 O0 W0 c).share 35} ((dats1 V0 O0 W0 c).arrAt 35 0) : sProp 𝕄)
      = (((c : Dev nD), Proc.devRef .tc main_v22) : Loc nD τ sig) ↦{shareTokN fullShare 23} V0 (Proc.devRef .tc main_v22) := by
  simp only [Memref.view_whole, View.set_whole]
  rfl
theorem arr1a_36 (c : Dev nD) :
    ((cfg1.win 36).arr.view.loc (c : Thread nD τ) ↦[(cfg1.win 36).arr.view.set]{(dats1 V0 O0 W0 c).share 36} ((dats1 V0 O0 W0 c).arrAt 36 0) : sProp 𝕄)
      = (((c : Dev nD), Proc.devRef .tc main_v22) : Loc nD τ sig) ↦{shareTokN fullShare 24} V0 (Proc.devRef .tc main_v22) := by
  simp only [Memref.view_whole, View.set_whole]
  rfl
theorem arr1a_37 (c : Dev nD) :
    ((cfg1.win 37).arr.view.loc (c : Thread nD τ) ↦[(cfg1.win 37).arr.view.set]{(dats1 V0 O0 W0 c).share 37} ((dats1 V0 O0 W0 c).arrAt 37 0) : sProp 𝕄)
      = (((c : Dev nD), Proc.devRef .tc main_v22) : Loc nD τ sig) ↦{shareTokN fullShare 25} V0 (Proc.devRef .tc main_v22) := by
  simp only [Memref.view_whole, View.set_whole]
  rfl
theorem arr1a_38 (c : Dev nD) :
    ((cfg1.win 38).arr.view.loc (c : Thread nD τ) ↦[(cfg1.win 38).arr.view.set]{(dats1 V0 O0 W0 c).share 38} ((dats1 V0 O0 W0 c).arrAt 38 0) : sProp 𝕄)
      = (((c : Dev nD), Proc.devRef .tc main_v25) : Loc nD τ sig) ↦{fullShare} V0 (Proc.devRef .tc main_v25) := by
  simp only [Memref.view_whole, View.set_whole]
  rfl
theorem arr1z_0 (c : Dev nD) :
    ((cfg1.win 0).arr.view.loc (c : Thread nD τ) ↦[(cfg1.win 0).arr.view.set]{(dats1 V0 O0 W0 c).share 0} ((dats1 V0 O0 W0 c).arrAt 0 cfg1.N) : sProp 𝕄)
      = (((c : Dev nD), Proc.devRef .tc main_v23) : Loc nD τ sig) ↦{fullShare} V0 (Proc.devRef .tc main_v23) := by
  rw [arrAt_of_in (dats1 V0 O0 W0 c) 0 rfl]
  simp only [Memref.view_whole, View.set_whole]
  rfl
theorem arr1z_1 (c : Dev nD) :
    ((cfg1.win 1).arr.view.loc (c : Thread nD τ) ↦[(cfg1.win 1).arr.view.set]{(dats1 V0 O0 W0 c).share 1} ((dats1 V0 O0 W0 c).arrAt 1 cfg1.N) : sProp 𝕄)
      = (((c : Dev nD), Proc.devRef .tc main_v24) : Loc nD τ sig) ↦{fullShare} V0 (Proc.devRef .tc main_v24) := by
  rw [arrAt_of_in (dats1 V0 O0 W0 c) 1 rfl]
  simp only [Memref.view_whole, View.set_whole]
  rfl
theorem arr1z_2 (c : Dev nD) :
    ((cfg1.win 2).arr.view.loc (c : Thread nD τ) ↦[(cfg1.win 2).arr.view.set]{(dats1 V0 O0 W0 c).share 2} ((dats1 V0 O0 W0 c).arrAt 2 cfg1.N) : sProp 𝕄)
      = (((c : Dev nD), Proc.devRef .tc main_arg4) : Loc nD τ sig) ↦{fullShare} V0 (Proc.devRef .tc main_arg4) := by
  rw [arrAt_of_in (dats1 V0 O0 W0 c) 2 rfl]
  simp only [Memref.view_whole, View.set_whole]
  rfl
theorem arr1z_3 (c : Dev nD) :
    ((cfg1.win 3).arr.view.loc (c : Thread nD τ) ↦[(cfg1.win 3).arr.view.set]{(dats1 V0 O0 W0 c).share 3} ((dats1 V0 O0 W0 c).arrAt 3 cfg1.N) : sProp 𝕄)
      = (((c : Dev nD), Proc.devRef .tc main_arg6) : Loc nD τ sig) ↦{fullShare} V0 (Proc.devRef .tc main_arg6) := by
  rw [arrAt_of_in (dats1 V0 O0 W0 c) 3 rfl]
  simp only [Memref.view_whole, View.set_whole]
  rfl
theorem arr1z_4 (c : Dev nD) :
    ((cfg1.win 4).arr.view.loc (c : Thread nD τ) ↦[(cfg1.win 4).arr.view.set]{(dats1 V0 O0 W0 c).share 4} ((dats1 V0 O0 W0 c).arrAt 4 cfg1.N) : sProp 𝕄)
      = (((c : Dev nD), Proc.devRef .tc main_v10) : Loc nD τ sig) ↦{fullShare} V0 (Proc.devRef .tc main_v10) := by
  rw [arrAt_of_in (dats1 V0 O0 W0 c) 4 rfl]
  simp only [Memref.view_whole, View.set_whole]
  rfl
theorem arr1z_5 (c : Dev nD) :
    ((cfg1.win 5).arr.view.loc (c : Thread nD τ) ↦[(cfg1.win 5).arr.view.set]{(dats1 V0 O0 W0 c).share 5} ((dats1 V0 O0 W0 c).arrAt 5 cfg1.N) : sProp 𝕄)
      = (((c : Dev nD), Proc.devRef .tc main_v14) : Loc nD τ sig) ↦{fullShare} V0 (Proc.devRef .tc main_v14) := by
  rw [arrAt_of_in (dats1 V0 O0 W0 c) 5 rfl]
  simp only [Memref.view_whole, View.set_whole]
  rfl
theorem arr1z_6 (c : Dev nD) :
    ((cfg1.win 6).arr.view.loc (c : Thread nD τ) ↦[(cfg1.win 6).arr.view.set]{(dats1 V0 O0 W0 c).share 6} ((dats1 V0 O0 W0 c).arrAt 6 cfg1.N) : sProp 𝕄)
      = (((c : Dev nD), Proc.devRef .tc main_v11) : Loc nD τ sig) ↦{fullShare} V0 (Proc.devRef .tc main_v11) := by
  rw [arrAt_of_in (dats1 V0 O0 W0 c) 6 rfl]
  simp only [Memref.view_whole, View.set_whole]
  rfl
theorem arr1z_7 (c : Dev nD) :
    ((cfg1.win 7).arr.view.loc (c : Thread nD τ) ↦[(cfg1.win 7).arr.view.set]{(dats1 V0 O0 W0 c).share 7} ((dats1 V0 O0 W0 c).arrAt 7 cfg1.N) : sProp 𝕄)
      = (((c : Dev nD), Proc.devRef .tc main_v15) : Loc nD τ sig) ↦{fullShare} V0 (Proc.devRef .tc main_v15) := by
  rw [arrAt_of_in (dats1 V0 O0 W0 c) 7 rfl]
  simp only [Memref.view_whole, View.set_whole]
  rfl
theorem arr1z_8 (c : Dev nD) :
    ((cfg1.win 8).arr.view.loc (c : Thread nD τ) ↦[(cfg1.win 8).arr.view.set]{(dats1 V0 O0 W0 c).share 8} ((dats1 V0 O0 W0 c).arrAt 8 cfg1.N) : sProp 𝕄)
      = (((c : Dev nD), Proc.devRef .tc main_v12) : Loc nD τ sig) ↦{fullShare} V0 (Proc.devRef .tc main_v12) := by
  rw [arrAt_of_in (dats1 V0 O0 W0 c) 8 rfl]
  simp only [Memref.view_whole, View.set_whole]
  rfl
theorem arr1z_9 (c : Dev nD) :
    ((cfg1.win 9).arr.view.loc (c : Thread nD τ) ↦[(cfg1.win 9).arr.view.set]{(dats1 V0 O0 W0 c).share 9} ((dats1 V0 O0 W0 c).arrAt 9 cfg1.N) : sProp 𝕄)
      = (((c : Dev nD), Proc.devRef .tc main_v16) : Loc nD τ sig) ↦{fullShare} V0 (Proc.devRef .tc main_v16) := by
  rw [arrAt_of_in (dats1 V0 O0 W0 c) 9 rfl]
  simp only [Memref.view_whole, View.set_whole]
  rfl
theorem arr1z_10 (c : Dev nD) :
    ((cfg1.win 10).arr.view.loc (c : Thread nD τ) ↦[(cfg1.win 10).arr.view.set]{(dats1 V0 O0 W0 c).share 10} ((dats1 V0 O0 W0 c).arrAt 10 cfg1.N) : sProp 𝕄)
      = (((c : Dev nD), Proc.devRef .tc main_v13) : Loc nD τ sig) ↦{fullShare} V0 (Proc.devRef .tc main_v13) := by
  rw [arrAt_of_in (dats1 V0 O0 W0 c) 10 rfl]
  simp only [Memref.view_whole, View.set_whole]
  rfl
theorem arr1z_11 (c : Dev nD) :
    ((cfg1.win 11).arr.view.loc (c : Thread nD τ) ↦[(cfg1.win 11).arr.view.set]{(dats1 V0 O0 W0 c).share 11} ((dats1 V0 O0 W0 c).arrAt 11 cfg1.N) : sProp 𝕄)
      = (((c : Dev nD), Proc.devRef .tc main_v9) : Loc nD τ sig) ↦{fullShare} V0 (Proc.devRef .tc main_v9) := by
  rw [arrAt_of_in (dats1 V0 O0 W0 c) 11 rfl]
  simp only [Memref.view_whole, View.set_whole]
  rfl
theorem arr1z_12 (c : Dev nD) :
    ((cfg1.win 12).arr.view.loc (c : Thread nD τ) ↦[(cfg1.win 12).arr.view.set]{(dats1 V0 O0 W0 c).share 12} ((dats1 V0 O0 W0 c).arrAt 12 cfg1.N) : sProp 𝕄)
      = (((c : Dev nD), Proc.devRef .tc main_v22) : Loc nD τ sig) ↦{shareTokN fullShare 0} V0 (Proc.devRef .tc main_v22) := by
  rw [arrAt_of_in (dats1 V0 O0 W0 c) 12 rfl]
  simp only [Memref.view_whole, View.set_whole]
  rfl
theorem arr1z_13 (c : Dev nD) :
    ((cfg1.win 13).arr.view.loc (c : Thread nD τ) ↦[(cfg1.win 13).arr.view.set]{(dats1 V0 O0 W0 c).share 13} ((dats1 V0 O0 W0 c).arrAt 13 cfg1.N) : sProp 𝕄)
      = (((c : Dev nD), Proc.devRef .tc main_v22) : Loc nD τ sig) ↦{shareTokN fullShare 1} V0 (Proc.devRef .tc main_v22) := by
  rw [arrAt_of_in (dats1 V0 O0 W0 c) 13 rfl]
  simp only [Memref.view_whole, View.set_whole]
  rfl
theorem arr1z_14 (c : Dev nD) :
    ((cfg1.win 14).arr.view.loc (c : Thread nD τ) ↦[(cfg1.win 14).arr.view.set]{(dats1 V0 O0 W0 c).share 14} ((dats1 V0 O0 W0 c).arrAt 14 cfg1.N) : sProp 𝕄)
      = (((c : Dev nD), Proc.devRef .tc main_v22) : Loc nD τ sig) ↦{shareTokN fullShare 2} V0 (Proc.devRef .tc main_v22) := by
  rw [arrAt_of_in (dats1 V0 O0 W0 c) 14 rfl]
  simp only [Memref.view_whole, View.set_whole]
  rfl
theorem arr1z_15 (c : Dev nD) :
    ((cfg1.win 15).arr.view.loc (c : Thread nD τ) ↦[(cfg1.win 15).arr.view.set]{(dats1 V0 O0 W0 c).share 15} ((dats1 V0 O0 W0 c).arrAt 15 cfg1.N) : sProp 𝕄)
      = (((c : Dev nD), Proc.devRef .tc main_v22) : Loc nD τ sig) ↦{shareTokN fullShare 3} V0 (Proc.devRef .tc main_v22) := by
  rw [arrAt_of_in (dats1 V0 O0 W0 c) 15 rfl]
  simp only [Memref.view_whole, View.set_whole]
  rfl
theorem arr1z_16 (c : Dev nD) :
    ((cfg1.win 16).arr.view.loc (c : Thread nD τ) ↦[(cfg1.win 16).arr.view.set]{(dats1 V0 O0 W0 c).share 16} ((dats1 V0 O0 W0 c).arrAt 16 cfg1.N) : sProp 𝕄)
      = (((c : Dev nD), Proc.devRef .tc main_v22) : Loc nD τ sig) ↦{shareTokN fullShare 4} V0 (Proc.devRef .tc main_v22) := by
  rw [arrAt_of_in (dats1 V0 O0 W0 c) 16 rfl]
  simp only [Memref.view_whole, View.set_whole]
  rfl
theorem arr1z_17 (c : Dev nD) :
    ((cfg1.win 17).arr.view.loc (c : Thread nD τ) ↦[(cfg1.win 17).arr.view.set]{(dats1 V0 O0 W0 c).share 17} ((dats1 V0 O0 W0 c).arrAt 17 cfg1.N) : sProp 𝕄)
      = (((c : Dev nD), Proc.devRef .tc main_v22) : Loc nD τ sig) ↦{shareTokN fullShare 5} V0 (Proc.devRef .tc main_v22) := by
  rw [arrAt_of_in (dats1 V0 O0 W0 c) 17 rfl]
  simp only [Memref.view_whole, View.set_whole]
  rfl
theorem arr1z_18 (c : Dev nD) :
    ((cfg1.win 18).arr.view.loc (c : Thread nD τ) ↦[(cfg1.win 18).arr.view.set]{(dats1 V0 O0 W0 c).share 18} ((dats1 V0 O0 W0 c).arrAt 18 cfg1.N) : sProp 𝕄)
      = (((c : Dev nD), Proc.devRef .tc main_v22) : Loc nD τ sig) ↦{shareTokN fullShare 6} V0 (Proc.devRef .tc main_v22) := by
  rw [arrAt_of_in (dats1 V0 O0 W0 c) 18 rfl]
  simp only [Memref.view_whole, View.set_whole]
  rfl
theorem arr1z_19 (c : Dev nD) :
    ((cfg1.win 19).arr.view.loc (c : Thread nD τ) ↦[(cfg1.win 19).arr.view.set]{(dats1 V0 O0 W0 c).share 19} ((dats1 V0 O0 W0 c).arrAt 19 cfg1.N) : sProp 𝕄)
      = (((c : Dev nD), Proc.devRef .tc main_v22) : Loc nD τ sig) ↦{shareTokN fullShare 7} V0 (Proc.devRef .tc main_v22) := by
  rw [arrAt_of_in (dats1 V0 O0 W0 c) 19 rfl]
  simp only [Memref.view_whole, View.set_whole]
  rfl
theorem arr1z_20 (c : Dev nD) :
    ((cfg1.win 20).arr.view.loc (c : Thread nD τ) ↦[(cfg1.win 20).arr.view.set]{(dats1 V0 O0 W0 c).share 20} ((dats1 V0 O0 W0 c).arrAt 20 cfg1.N) : sProp 𝕄)
      = (((c : Dev nD), Proc.devRef .tc main_v22) : Loc nD τ sig) ↦{shareTokN fullShare 8} V0 (Proc.devRef .tc main_v22) := by
  rw [arrAt_of_in (dats1 V0 O0 W0 c) 20 rfl]
  simp only [Memref.view_whole, View.set_whole]
  rfl
theorem arr1z_21 (c : Dev nD) :
    ((cfg1.win 21).arr.view.loc (c : Thread nD τ) ↦[(cfg1.win 21).arr.view.set]{(dats1 V0 O0 W0 c).share 21} ((dats1 V0 O0 W0 c).arrAt 21 cfg1.N) : sProp 𝕄)
      = (((c : Dev nD), Proc.devRef .tc main_v22) : Loc nD τ sig) ↦{shareTokN fullShare 9} V0 (Proc.devRef .tc main_v22) := by
  rw [arrAt_of_in (dats1 V0 O0 W0 c) 21 rfl]
  simp only [Memref.view_whole, View.set_whole]
  rfl
theorem arr1z_22 (c : Dev nD) :
    ((cfg1.win 22).arr.view.loc (c : Thread nD τ) ↦[(cfg1.win 22).arr.view.set]{(dats1 V0 O0 W0 c).share 22} ((dats1 V0 O0 W0 c).arrAt 22 cfg1.N) : sProp 𝕄)
      = (((c : Dev nD), Proc.devRef .tc main_v22) : Loc nD τ sig) ↦{shareTokN fullShare 10} V0 (Proc.devRef .tc main_v22) := by
  rw [arrAt_of_in (dats1 V0 O0 W0 c) 22 rfl]
  simp only [Memref.view_whole, View.set_whole]
  rfl
theorem arr1z_23 (c : Dev nD) :
    ((cfg1.win 23).arr.view.loc (c : Thread nD τ) ↦[(cfg1.win 23).arr.view.set]{(dats1 V0 O0 W0 c).share 23} ((dats1 V0 O0 W0 c).arrAt 23 cfg1.N) : sProp 𝕄)
      = (((c : Dev nD), Proc.devRef .tc main_v22) : Loc nD τ sig) ↦{shareTokN fullShare 11} V0 (Proc.devRef .tc main_v22) := by
  rw [arrAt_of_in (dats1 V0 O0 W0 c) 23 rfl]
  simp only [Memref.view_whole, View.set_whole]
  rfl
theorem arr1z_24 (c : Dev nD) :
    ((cfg1.win 24).arr.view.loc (c : Thread nD τ) ↦[(cfg1.win 24).arr.view.set]{(dats1 V0 O0 W0 c).share 24} ((dats1 V0 O0 W0 c).arrAt 24 cfg1.N) : sProp 𝕄)
      = (((c : Dev nD), Proc.devRef .tc main_v22) : Loc nD τ sig) ↦{shareTokN fullShare 12} V0 (Proc.devRef .tc main_v22) := by
  rw [arrAt_of_in (dats1 V0 O0 W0 c) 24 rfl]
  simp only [Memref.view_whole, View.set_whole]
  rfl
theorem arr1z_25 (c : Dev nD) :
    ((cfg1.win 25).arr.view.loc (c : Thread nD τ) ↦[(cfg1.win 25).arr.view.set]{(dats1 V0 O0 W0 c).share 25} ((dats1 V0 O0 W0 c).arrAt 25 cfg1.N) : sProp 𝕄)
      = (((c : Dev nD), Proc.devRef .tc main_v22) : Loc nD τ sig) ↦{shareTokN fullShare 13} V0 (Proc.devRef .tc main_v22) := by
  rw [arrAt_of_in (dats1 V0 O0 W0 c) 25 rfl]
  simp only [Memref.view_whole, View.set_whole]
  rfl
theorem arr1z_26 (c : Dev nD) :
    ((cfg1.win 26).arr.view.loc (c : Thread nD τ) ↦[(cfg1.win 26).arr.view.set]{(dats1 V0 O0 W0 c).share 26} ((dats1 V0 O0 W0 c).arrAt 26 cfg1.N) : sProp 𝕄)
      = (((c : Dev nD), Proc.devRef .tc main_v22) : Loc nD τ sig) ↦{shareTokN fullShare 14} V0 (Proc.devRef .tc main_v22) := by
  rw [arrAt_of_in (dats1 V0 O0 W0 c) 26 rfl]
  simp only [Memref.view_whole, View.set_whole]
  rfl
theorem arr1z_27 (c : Dev nD) :
    ((cfg1.win 27).arr.view.loc (c : Thread nD τ) ↦[(cfg1.win 27).arr.view.set]{(dats1 V0 O0 W0 c).share 27} ((dats1 V0 O0 W0 c).arrAt 27 cfg1.N) : sProp 𝕄)
      = (((c : Dev nD), Proc.devRef .tc main_v22) : Loc nD τ sig) ↦{shareTokN fullShare 15} V0 (Proc.devRef .tc main_v22) := by
  rw [arrAt_of_in (dats1 V0 O0 W0 c) 27 rfl]
  simp only [Memref.view_whole, View.set_whole]
  rfl
theorem arr1z_28 (c : Dev nD) :
    ((cfg1.win 28).arr.view.loc (c : Thread nD τ) ↦[(cfg1.win 28).arr.view.set]{(dats1 V0 O0 W0 c).share 28} ((dats1 V0 O0 W0 c).arrAt 28 cfg1.N) : sProp 𝕄)
      = (((c : Dev nD), Proc.devRef .tc main_v22) : Loc nD τ sig) ↦{shareTokN fullShare 16} V0 (Proc.devRef .tc main_v22) := by
  rw [arrAt_of_in (dats1 V0 O0 W0 c) 28 rfl]
  simp only [Memref.view_whole, View.set_whole]
  rfl
theorem arr1z_29 (c : Dev nD) :
    ((cfg1.win 29).arr.view.loc (c : Thread nD τ) ↦[(cfg1.win 29).arr.view.set]{(dats1 V0 O0 W0 c).share 29} ((dats1 V0 O0 W0 c).arrAt 29 cfg1.N) : sProp 𝕄)
      = (((c : Dev nD), Proc.devRef .tc main_v22) : Loc nD τ sig) ↦{shareTokN fullShare 17} V0 (Proc.devRef .tc main_v22) := by
  rw [arrAt_of_in (dats1 V0 O0 W0 c) 29 rfl]
  simp only [Memref.view_whole, View.set_whole]
  rfl
theorem arr1z_30 (c : Dev nD) :
    ((cfg1.win 30).arr.view.loc (c : Thread nD τ) ↦[(cfg1.win 30).arr.view.set]{(dats1 V0 O0 W0 c).share 30} ((dats1 V0 O0 W0 c).arrAt 30 cfg1.N) : sProp 𝕄)
      = (((c : Dev nD), Proc.devRef .tc main_v22) : Loc nD τ sig) ↦{shareTokN fullShare 18} V0 (Proc.devRef .tc main_v22) := by
  rw [arrAt_of_in (dats1 V0 O0 W0 c) 30 rfl]
  simp only [Memref.view_whole, View.set_whole]
  rfl
theorem arr1z_31 (c : Dev nD) :
    ((cfg1.win 31).arr.view.loc (c : Thread nD τ) ↦[(cfg1.win 31).arr.view.set]{(dats1 V0 O0 W0 c).share 31} ((dats1 V0 O0 W0 c).arrAt 31 cfg1.N) : sProp 𝕄)
      = (((c : Dev nD), Proc.devRef .tc main_v22) : Loc nD τ sig) ↦{shareTokN fullShare 19} V0 (Proc.devRef .tc main_v22) := by
  rw [arrAt_of_in (dats1 V0 O0 W0 c) 31 rfl]
  simp only [Memref.view_whole, View.set_whole]
  rfl
theorem arr1z_32 (c : Dev nD) :
    ((cfg1.win 32).arr.view.loc (c : Thread nD τ) ↦[(cfg1.win 32).arr.view.set]{(dats1 V0 O0 W0 c).share 32} ((dats1 V0 O0 W0 c).arrAt 32 cfg1.N) : sProp 𝕄)
      = (((c : Dev nD), Proc.devRef .tc main_v22) : Loc nD τ sig) ↦{shareTokN fullShare 20} V0 (Proc.devRef .tc main_v22) := by
  rw [arrAt_of_in (dats1 V0 O0 W0 c) 32 rfl]
  simp only [Memref.view_whole, View.set_whole]
  rfl
theorem arr1z_33 (c : Dev nD) :
    ((cfg1.win 33).arr.view.loc (c : Thread nD τ) ↦[(cfg1.win 33).arr.view.set]{(dats1 V0 O0 W0 c).share 33} ((dats1 V0 O0 W0 c).arrAt 33 cfg1.N) : sProp 𝕄)
      = (((c : Dev nD), Proc.devRef .tc main_v22) : Loc nD τ sig) ↦{shareTokN fullShare 21} V0 (Proc.devRef .tc main_v22) := by
  rw [arrAt_of_in (dats1 V0 O0 W0 c) 33 rfl]
  simp only [Memref.view_whole, View.set_whole]
  rfl
theorem arr1z_34 (c : Dev nD) :
    ((cfg1.win 34).arr.view.loc (c : Thread nD τ) ↦[(cfg1.win 34).arr.view.set]{(dats1 V0 O0 W0 c).share 34} ((dats1 V0 O0 W0 c).arrAt 34 cfg1.N) : sProp 𝕄)
      = (((c : Dev nD), Proc.devRef .tc main_v22) : Loc nD τ sig) ↦{shareTokN fullShare 22} V0 (Proc.devRef .tc main_v22) := by
  rw [arrAt_of_in (dats1 V0 O0 W0 c) 34 rfl]
  simp only [Memref.view_whole, View.set_whole]
  rfl
theorem arr1z_35 (c : Dev nD) :
    ((cfg1.win 35).arr.view.loc (c : Thread nD τ) ↦[(cfg1.win 35).arr.view.set]{(dats1 V0 O0 W0 c).share 35} ((dats1 V0 O0 W0 c).arrAt 35 cfg1.N) : sProp 𝕄)
      = (((c : Dev nD), Proc.devRef .tc main_v22) : Loc nD τ sig) ↦{shareTokN fullShare 23} V0 (Proc.devRef .tc main_v22) := by
  rw [arrAt_of_in (dats1 V0 O0 W0 c) 35 rfl]
  simp only [Memref.view_whole, View.set_whole]
  rfl
theorem arr1z_36 (c : Dev nD) :
    ((cfg1.win 36).arr.view.loc (c : Thread nD τ) ↦[(cfg1.win 36).arr.view.set]{(dats1 V0 O0 W0 c).share 36} ((dats1 V0 O0 W0 c).arrAt 36 cfg1.N) : sProp 𝕄)
      = (((c : Dev nD), Proc.devRef .tc main_v22) : Loc nD τ sig) ↦{shareTokN fullShare 24} V0 (Proc.devRef .tc main_v22) := by
  rw [arrAt_of_in (dats1 V0 O0 W0 c) 36 rfl]
  simp only [Memref.view_whole, View.set_whole]
  rfl
theorem arr1z_37 (c : Dev nD) :
    ((cfg1.win 37).arr.view.loc (c : Thread nD τ) ↦[(cfg1.win 37).arr.view.set]{(dats1 V0 O0 W0 c).share 37} ((dats1 V0 O0 W0 c).arrAt 37 cfg1.N) : sProp 𝕄)
      = (((c : Dev nD), Proc.devRef .tc main_v22) : Loc nD τ sig) ↦{shareTokN fullShare 25} V0 (Proc.devRef .tc main_v22) := by
  rw [arrAt_of_in (dats1 V0 O0 W0 c) 37 rfl]
  simp only [Memref.view_whole, View.set_whole]
  rfl
theorem arr1z_38 (c : Dev nD) :
    ((cfg1.win 38).arr.view.loc (c : Thread nD τ) ↦[(cfg1.win 38).arr.view.set]{(dats1 V0 O0 W0 c).share 38} ((dats1 V0 O0 W0 c).arrAt 38 cfg1.N) : sProp 𝕄)
      = (((c : Dev nD), Proc.devRef .tc main_v25) : Loc nD τ sig) ↦{fullShare} (dats1 V0 O0 W0 c).arrAt 38 cfg1.N := by
  simp only [Memref.view_whole, View.set_whole]
  rfl

/-- ENTRY, the arrays: the fourteen buffers behind the windows, whole at the full share, are the windows' arrays at the
    entry contents — the gathered-rows array split into one read token per window, the remainder set aside. -/
theorem arrays1_of_held (c : Dev nD) :
    (held (c : Thread nD τ) arrSet1 V0 : sProp 𝕄)
      ⊢ iprop((dats1 V0 O0 W0 c).arrays ((dats1 V0 O0 W0 c).arrAt · 0)
          ∗ ((((c : Dev nD), Proc.devRef .tc main_v22) : Loc nD τ sig) ↦{shareDrop fullShare 26} V0 (Proc.devRef .tc main_v22))) := by
  rw [held_arrSet1]
  iintro ⟨H_v23, H_v24, H_arg4, H_arg6, H_v10, H_v14, H_v11, H_v15, H_v12, H_v16, H_v13, H_v9, H_v22, H_v25⟩
  ihave Hs := (Transfers.pointsTo_toks_split (ℓ := (((c : Dev nD), Proc.devRef .tc main_v22) : Loc nD τ sig)) (S := Finset.univ) (f := V0 (Proc.devRef .tc main_v22)) fullShare 26) $$ H_v22
  icases Hs with ⟨Hrem, Htoks⟩
  ihave Ht := (Entails.of_eq (bigSep_F26 (fun i : Fin 26 => ((((c : Dev nD), Proc.devRef .tc main_v22) : Loc nD τ sig) ↦{shareTokN fullShare i.val} V0 (Proc.devRef .tc main_v22) : sProp 𝕄)))) $$ Htoks
  icases Ht with ⟨T0, T1, T2, T3, T4, T5, T6, T7, T8, T9, T10, T11, T12, T13, T14, T15, T16, T17, T18, T19, T20, T21, T22, T23, T24, T25⟩
  isplitr [Hrem]
  swap; · iexact Hrem
  unfold Pipeline.Dat.arrays
  rw [bigSep_W1]
  isplitl [H_v23]; · rw [arr1a_0]; iexact H_v23
  isplitl [H_v24]; · rw [arr1a_1]; iexact H_v24
  isplitl [H_arg4]; · rw [arr1a_2]; iexact H_arg4
  isplitl [H_arg6]; · rw [arr1a_3]; iexact H_arg6
  isplitl [H_v10]; · rw [arr1a_4]; iexact H_v10
  isplitl [H_v14]; · rw [arr1a_5]; iexact H_v14
  isplitl [H_v11]; · rw [arr1a_6]; iexact H_v11
  isplitl [H_v15]; · rw [arr1a_7]; iexact H_v15
  isplitl [H_v12]; · rw [arr1a_8]; iexact H_v12
  isplitl [H_v16]; · rw [arr1a_9]; iexact H_v16
  isplitl [H_v13]; · rw [arr1a_10]; iexact H_v13
  isplitl [H_v9]; · rw [arr1a_11]; iexact H_v9
  isplitl [T0]; · rw [arr1a_12]; iexact T0
  isplitl [T1]; · rw [arr1a_13]; iexact T1
  isplitl [T2]; · rw [arr1a_14]; iexact T2
  isplitl [T3]; · rw [arr1a_15]; iexact T3
  isplitl [T4]; · rw [arr1a_16]; iexact T4
  isplitl [T5]; · rw [arr1a_17]; iexact T5
  isplitl [T6]; · rw [arr1a_18]; iexact T6
  isplitl [T7]; · rw [arr1a_19]; iexact T7
  isplitl [T8]; · rw [arr1a_20]; iexact T8
  isplitl [T9]; · rw [arr1a_21]; iexact T9
  isplitl [T10]; · rw [arr1a_22]; iexact T10
  isplitl [T11]; · rw [arr1a_23]; iexact T11
  isplitl [T12]; · rw [arr1a_24]; iexact T12
  isplitl [T13]; · rw [arr1a_25]; iexact T13
  isplitl [T14]; · rw [arr1a_26]; iexact T14
  isplitl [T15]; · rw [arr1a_27]; iexact T15
  isplitl [T16]; · rw [arr1a_28]; iexact T16
  isplitl [T17]; · rw [arr1a_29]; iexact T17
  isplitl [T18]; · rw [arr1a_30]; iexact T18
  isplitl [T19]; · rw [arr1a_31]; iexact T19
  isplitl [T20]; · rw [arr1a_32]; iexact T20
  isplitl [T21]; · rw [arr1a_33]; iexact T21
  isplitl [T22]; · rw [arr1a_34]; iexact T22
  isplitl [T23]; · rw [arr1a_35]; iexact T23
  isplitl [T24]; · rw [arr1a_36]; iexact T24
  isplitl [T25]; · rw [arr1a_37]; iexact T25
  rw [arr1a_38]; iexact H_v25

/-- EXIT, the arrays: the windows' arrays at their final contents — the inputs as they were, the output at what the
    write-backs left — with the remainder of the gathered-rows array, are the fourteen buffers whole again. -/
theorem held_of_arrays1 (c : Dev nD) :
    iprop((dats1 V0 O0 W0 c).arrays ((dats1 V0 O0 W0 c).arrAt · cfg1.N)
        ∗ ((((c : Dev nD), Proc.devRef .tc main_v22) : Loc nD τ sig) ↦{shareDrop fullShare 26} V0 (Proc.devRef .tc main_v22)))
      ⊢ (held (c : Thread nD τ) arrSet1 (Function.update V0 (Proc.devRef .tc main_v25) ((dats1 V0 O0 W0 c).arrAt 38 cfg1.N)) : sProp 𝕄) := by
  rw [held_arrSet1]
  rw [Function.update_of_ne (show Proc.devRef .tc main_v23 ≠ Proc.devRef .tc main_v25 by decide), Function.update_of_ne (show Proc.devRef .tc main_v24 ≠ Proc.devRef .tc main_v25 by decide), Function.update_of_ne (show Proc.devRef .tc main_arg4 ≠ Proc.devRef .tc main_v25 by decide), Function.update_of_ne (show Proc.devRef .tc main_arg6 ≠ Proc.devRef .tc main_v25 by decide), Function.update_of_ne (show Proc.devRef .tc main_v10 ≠ Proc.devRef .tc main_v25 by decide), Function.update_of_ne (show Proc.devRef .tc main_v14 ≠ Proc.devRef .tc main_v25 by decide), Function.update_of_ne (show Proc.devRef .tc main_v11 ≠ Proc.devRef .tc main_v25 by decide), Function.update_of_ne (show Proc.devRef .tc main_v15 ≠ Proc.devRef .tc main_v25 by decide), Function.update_of_ne (show Proc.devRef .tc main_v12 ≠ Proc.devRef .tc main_v25 by decide), Function.update_of_ne (show Proc.devRef .tc main_v16 ≠ Proc.devRef .tc main_v25 by decide), Function.update_of_ne (show Proc.devRef .tc main_v13 ≠ Proc.devRef .tc main_v25 by decide), Function.update_of_ne (show Proc.devRef .tc main_v9 ≠ Proc.devRef .tc main_v25 by decide), Function.update_of_ne (show Proc.devRef .tc main_v22 ≠ Proc.devRef .tc main_v25 by decide), Function.update_self]
  unfold Pipeline.Dat.arrays
  rw [bigSep_W1]
  iintro ⟨⟨A0, A1, A2, A3, A4, A5, A6, A7, A8, A9, A10, A11, A12, A13, A14, A15, A16, A17, A18, A19, A20, A21, A22, A23, A24, A25, A26, A27, A28, A29, A30, A31, A32, A33, A34, A35, A36, A37, A38⟩, Hrem⟩
  ihave H_v23 := (Entails.of_eq (arr1z_0 V0 O0 W0 c)) $$ A0
  ihave H_v24 := (Entails.of_eq (arr1z_1 V0 O0 W0 c)) $$ A1
  ihave H_arg4 := (Entails.of_eq (arr1z_2 V0 O0 W0 c)) $$ A2
  ihave H_arg6 := (Entails.of_eq (arr1z_3 V0 O0 W0 c)) $$ A3
  ihave H_v10 := (Entails.of_eq (arr1z_4 V0 O0 W0 c)) $$ A4
  ihave H_v14 := (Entails.of_eq (arr1z_5 V0 O0 W0 c)) $$ A5
  ihave H_v11 := (Entails.of_eq (arr1z_6 V0 O0 W0 c)) $$ A6
  ihave H_v15 := (Entails.of_eq (arr1z_7 V0 O0 W0 c)) $$ A7
  ihave H_v12 := (Entails.of_eq (arr1z_8 V0 O0 W0 c)) $$ A8
  ihave H_v16 := (Entails.of_eq (arr1z_9 V0 O0 W0 c)) $$ A9
  ihave H_v13 := (Entails.of_eq (arr1z_10 V0 O0 W0 c)) $$ A10
  ihave H_v9 := (Entails.of_eq (arr1z_11 V0 O0 W0 c)) $$ A11
  ihave T0 := (Entails.of_eq (arr1z_12 V0 O0 W0 c)) $$ A12
  ihave T1 := (Entails.of_eq (arr1z_13 V0 O0 W0 c)) $$ A13
  ihave T2 := (Entails.of_eq (arr1z_14 V0 O0 W0 c)) $$ A14
  ihave T3 := (Entails.of_eq (arr1z_15 V0 O0 W0 c)) $$ A15
  ihave T4 := (Entails.of_eq (arr1z_16 V0 O0 W0 c)) $$ A16
  ihave T5 := (Entails.of_eq (arr1z_17 V0 O0 W0 c)) $$ A17
  ihave T6 := (Entails.of_eq (arr1z_18 V0 O0 W0 c)) $$ A18
  ihave T7 := (Entails.of_eq (arr1z_19 V0 O0 W0 c)) $$ A19
  ihave T8 := (Entails.of_eq (arr1z_20 V0 O0 W0 c)) $$ A20
  ihave T9 := (Entails.of_eq (arr1z_21 V0 O0 W0 c)) $$ A21
  ihave T10 := (Entails.of_eq (arr1z_22 V0 O0 W0 c)) $$ A22
  ihave T11 := (Entails.of_eq (arr1z_23 V0 O0 W0 c)) $$ A23
  ihave T12 := (Entails.of_eq (arr1z_24 V0 O0 W0 c)) $$ A24
  ihave T13 := (Entails.of_eq (arr1z_25 V0 O0 W0 c)) $$ A25
  ihave T14 := (Entails.of_eq (arr1z_26 V0 O0 W0 c)) $$ A26
  ihave T15 := (Entails.of_eq (arr1z_27 V0 O0 W0 c)) $$ A27
  ihave T16 := (Entails.of_eq (arr1z_28 V0 O0 W0 c)) $$ A28
  ihave T17 := (Entails.of_eq (arr1z_29 V0 O0 W0 c)) $$ A29
  ihave T18 := (Entails.of_eq (arr1z_30 V0 O0 W0 c)) $$ A30
  ihave T19 := (Entails.of_eq (arr1z_31 V0 O0 W0 c)) $$ A31
  ihave T20 := (Entails.of_eq (arr1z_32 V0 O0 W0 c)) $$ A32
  ihave T21 := (Entails.of_eq (arr1z_33 V0 O0 W0 c)) $$ A33
  ihave T22 := (Entails.of_eq (arr1z_34 V0 O0 W0 c)) $$ A34
  ihave T23 := (Entails.of_eq (arr1z_35 V0 O0 W0 c)) $$ A35
  ihave T24 := (Entails.of_eq (arr1z_36 V0 O0 W0 c)) $$ A36
  ihave T25 := (Entails.of_eq (arr1z_37 V0 O0 W0 c)) $$ A37
  ihave H_v25 := (Entails.of_eq (arr1z_38 V0 O0 W0 c)) $$ A38
  ihave Hg := (Transfers.pointsTo_toks_join (ℓ := (((c : Dev nD), Proc.devRef .tc main_v22) : Loc nD τ sig)) (S := Finset.univ) (f := V0 (Proc.devRef .tc main_v22)) fullShare 26) $$ [Hrem T0 T1 T2 T3 T4 T5 T6 T7 T8 T9 T10 T11 T12 T13 T14 T15 T16 T17 T18 T19 T20 T21 T22 T23 T24 T25]
  · isplitl [Hrem]; · iexact Hrem
    iapply (Entails.of_eq (bigSep_F26 (fun i : Fin 26 => ((((c : Dev nD), Proc.devRef .tc main_v22) : Loc nD τ sig) ↦{shareTokN fullShare i.val} V0 (Proc.devRef .tc main_v22) : sProp 𝕄))).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    iexact T25
  isplitl [H_v23]; · iexact H_v23
  isplitl [H_v24]; · iexact H_v24
  isplitl [H_arg4]; · iexact H_arg4
  isplitl [H_arg6]; · iexact H_arg6
  isplitl [H_v10]; · iexact H_v10
  isplitl [H_v14]; · iexact H_v14
  isplitl [H_v11]; · iexact H_v11
  isplitl [H_v15]; · iexact H_v15
  isplitl [H_v12]; · iexact H_v12
  isplitl [H_v16]; · iexact H_v16
  isplitl [H_v13]; · iexact H_v13
  isplitl [H_v9]; · iexact H_v9
  isplitl [Hg]; · iexact Hg
  iexact H_v25

/-! ## Pipeline call 1 -/

/-- The distinct arrays of pipeline call 1's windows. -/
def arrSet3 : Finset (DevRef τ sig) :=
  {Proc.devRef .tc main_v31, Proc.devRef .tc main_v32, Proc.devRef .tc main_arg4, Proc.devRef .tc main_arg6, Proc.devRef .tc main_v10, Proc.devRef .tc main_v14, Proc.devRef .tc main_v11, Proc.devRef .tc main_v15, Proc.devRef .tc main_v12, Proc.devRef .tc main_v16, Proc.devRef .tc main_v13, Proc.devRef .tc main_v9, Proc.devRef .tc main_v30, Proc.devRef .tc main_v33}

theorem arrSet3_sub : arrSet3 ⊆ Pipeline.ucRefs τ sig := by
  intro b hb
  simp only [arrSet3, Finset.mem_insert, Finset.mem_singleton] at hb
  rcases hb with rfl | rfl | rfl | rfl | rfl | rfl | rfl | rfl | rfl | rfl | rfl | rfl | rfl | rfl <;>
    exact Finset.mem_filter.mpr ⟨StableHlo.devRef_mem_tcRefs _, by decide⟩

/-- The fourteen arrays one by one. -/
theorem held_arrSet3 (c : Dev nD) (V : Valuation τ sig (Elt F)) :
    (held (c : Thread nD τ) arrSet3 V : sProp 𝕄)
      = iprop(((((c : Dev nD), Proc.devRef .tc main_v31) : Loc nD τ sig) ↦{fullShare} V (Proc.devRef .tc main_v31))
        ∗ ((((c : Dev nD), Proc.devRef .tc main_v32) : Loc nD τ sig) ↦{fullShare} V (Proc.devRef .tc main_v32))
        ∗ ((((c : Dev nD), Proc.devRef .tc main_arg4) : Loc nD τ sig) ↦{fullShare} V (Proc.devRef .tc main_arg4))
        ∗ ((((c : Dev nD), Proc.devRef .tc main_arg6) : Loc nD τ sig) ↦{fullShare} V (Proc.devRef .tc main_arg6))
        ∗ ((((c : Dev nD), Proc.devRef .tc main_v10) : Loc nD τ sig) ↦{fullShare} V (Proc.devRef .tc main_v10))
        ∗ ((((c : Dev nD), Proc.devRef .tc main_v14) : Loc nD τ sig) ↦{fullShare} V (Proc.devRef .tc main_v14))
        ∗ ((((c : Dev nD), Proc.devRef .tc main_v11) : Loc nD τ sig) ↦{fullShare} V (Proc.devRef .tc main_v11))
        ∗ ((((c : Dev nD), Proc.devRef .tc main_v15) : Loc nD τ sig) ↦{fullShare} V (Proc.devRef .tc main_v15))
        ∗ ((((c : Dev nD), Proc.devRef .tc main_v12) : Loc nD τ sig) ↦{fullShare} V (Proc.devRef .tc main_v12))
        ∗ ((((c : Dev nD), Proc.devRef .tc main_v16) : Loc nD τ sig) ↦{fullShare} V (Proc.devRef .tc main_v16))
        ∗ ((((c : Dev nD), Proc.devRef .tc main_v13) : Loc nD τ sig) ↦{fullShare} V (Proc.devRef .tc main_v13))
        ∗ ((((c : Dev nD), Proc.devRef .tc main_v9) : Loc nD τ sig) ↦{fullShare} V (Proc.devRef .tc main_v9))
        ∗ ((((c : Dev nD), Proc.devRef .tc main_v30) : Loc nD τ sig) ↦{fullShare} V (Proc.devRef .tc main_v30))
        ∗ ((((c : Dev nD), Proc.devRef .tc main_v33) : Loc nD τ sig) ↦{fullShare} V (Proc.devRef .tc main_v33))) := by
  unfold StableHlo.held arrSet3
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers that bypass pipeline call 1 do not include its result array. -/
theorem rest3_congr (V : Valuation τ sig (Elt F)) (c : Dev nD) (f) :
    (held (c : Thread nD τ) (Pipeline.ucRefs τ sig \ arrSet3) (Function.update V (Proc.devRef .tc main_v33) f) : sProp 𝕄)
      = held (c : Thread nD τ) (Pipeline.ucRefs τ sig \ arrSet3) V :=
  StableHlo.held_congr (c : Thread nD τ) fun b hb => Function.update_of_ne (fun e => (Finset.mem_sdiff.mp hb).2 (by
    rw [e]; simp only [arrSet3, Finset.mem_insert, Finset.mem_singleton, or_true, true_or])) _ _

theorem arr3a_0 (c : Dev nD) :
    ((cfg3.win 0).arr.view.loc (c : Thread nD τ) ↦[(cfg3.win 0).arr.view.set]{(dats3 V1 O1 W1 c).share 0} ((dats3 V1 O1 W1 c).arrAt 0 0) : sProp 𝕄)
      = (((c : Dev nD), Proc.devRef .tc main_v31) : Loc nD τ sig) ↦{fullShare} V1 (Proc.devRef .tc main_v31) := by
  simp only [Memref.view_whole, View.set_whole]
  rfl
theorem arr3a_1 (c : Dev nD) :
    ((cfg3.win 1).arr.view.loc (c : Thread nD τ) ↦[(cfg3.win 1).arr.view.set]{(dats3 V1 O1 W1 c).share 1} ((dats3 V1 O1 W1 c).arrAt 1 0) : sProp 𝕄)
      = (((c : Dev nD), Proc.devRef .tc main_v32) : Loc nD τ sig) ↦{fullShare} V1 (Proc.devRef .tc main_v32) := by
  simp only [Memref.view_whole, View.set_whole]
  rfl
theorem arr3a_2 (c : Dev nD) :
    ((cfg3.win 2).arr.view.loc (c : Thread nD τ) ↦[(cfg3.win 2).arr.view.set]{(dats3 V1 O1 W1 c).share 2} ((dats3 V1 O1 W1 c).arrAt 2 0) : sProp 𝕄)
      = (((c : Dev nD), Proc.devRef .tc main_arg4) : Loc nD τ sig) ↦{fullShare} V1 (Proc.devRef .tc main_arg4) := by
  simp only [Memref.view_whole, View.set_whole]
  rfl
theorem arr3a_3 (c : Dev nD) :
    ((cfg3.win 3).arr.view.loc (c : Thread nD τ) ↦[(cfg3.win 3).arr.view.set]{(dats3 V1 O1 W1 c).share 3} ((dats3 V1 O1 W1 c).arrAt 3 0) : sProp 𝕄)
      = (((c : Dev nD), Proc.devRef .tc main_arg6) : Loc nD τ sig) ↦{fullShare} V1 (Proc.devRef .tc main_arg6) := by
  simp only [Memref.view_whole, View.set_whole]
  rfl
theorem arr3a_4 (c : Dev nD) :
    ((cfg3.win 4).arr.view.loc (c : Thread nD τ) ↦[(cfg3.win 4).arr.view.set]{(dats3 V1 O1 W1 c).share 4} ((dats3 V1 O1 W1 c).arrAt 4 0) : sProp 𝕄)
      = (((c : Dev nD), Proc.devRef .tc main_v10) : Loc nD τ sig) ↦{fullShare} V1 (Proc.devRef .tc main_v10) := by
  simp only [Memref.view_whole, View.set_whole]
  rfl
theorem arr3a_5 (c : Dev nD) :
    ((cfg3.win 5).arr.view.loc (c : Thread nD τ) ↦[(cfg3.win 5).arr.view.set]{(dats3 V1 O1 W1 c).share 5} ((dats3 V1 O1 W1 c).arrAt 5 0) : sProp 𝕄)
      = (((c : Dev nD), Proc.devRef .tc main_v14) : Loc nD τ sig) ↦{fullShare} V1 (Proc.devRef .tc main_v14) := by
  simp only [Memref.view_whole, View.set_whole]
  rfl
theorem arr3a_6 (c : Dev nD) :
    ((cfg3.win 6).arr.view.loc (c : Thread nD τ) ↦[(cfg3.win 6).arr.view.set]{(dats3 V1 O1 W1 c).share 6} ((dats3 V1 O1 W1 c).arrAt 6 0) : sProp 𝕄)
      = (((c : Dev nD), Proc.devRef .tc main_v11) : Loc nD τ sig) ↦{fullShare} V1 (Proc.devRef .tc main_v11) := by
  simp only [Memref.view_whole, View.set_whole]
  rfl
theorem arr3a_7 (c : Dev nD) :
    ((cfg3.win 7).arr.view.loc (c : Thread nD τ) ↦[(cfg3.win 7).arr.view.set]{(dats3 V1 O1 W1 c).share 7} ((dats3 V1 O1 W1 c).arrAt 7 0) : sProp 𝕄)
      = (((c : Dev nD), Proc.devRef .tc main_v15) : Loc nD τ sig) ↦{fullShare} V1 (Proc.devRef .tc main_v15) := by
  simp only [Memref.view_whole, View.set_whole]
  rfl
theorem arr3a_8 (c : Dev nD) :
    ((cfg3.win 8).arr.view.loc (c : Thread nD τ) ↦[(cfg3.win 8).arr.view.set]{(dats3 V1 O1 W1 c).share 8} ((dats3 V1 O1 W1 c).arrAt 8 0) : sProp 𝕄)
      = (((c : Dev nD), Proc.devRef .tc main_v12) : Loc nD τ sig) ↦{fullShare} V1 (Proc.devRef .tc main_v12) := by
  simp only [Memref.view_whole, View.set_whole]
  rfl
theorem arr3a_9 (c : Dev nD) :
    ((cfg3.win 9).arr.view.loc (c : Thread nD τ) ↦[(cfg3.win 9).arr.view.set]{(dats3 V1 O1 W1 c).share 9} ((dats3 V1 O1 W1 c).arrAt 9 0) : sProp 𝕄)
      = (((c : Dev nD), Proc.devRef .tc main_v16) : Loc nD τ sig) ↦{fullShare} V1 (Proc.devRef .tc main_v16) := by
  simp only [Memref.view_whole, View.set_whole]
  rfl
theorem arr3a_10 (c : Dev nD) :
    ((cfg3.win 10).arr.view.loc (c : Thread nD τ) ↦[(cfg3.win 10).arr.view.set]{(dats3 V1 O1 W1 c).share 10} ((dats3 V1 O1 W1 c).arrAt 10 0) : sProp 𝕄)
      = (((c : Dev nD), Proc.devRef .tc main_v13) : Loc nD τ sig) ↦{fullShare} V1 (Proc.devRef .tc main_v13) := by
  simp only [Memref.view_whole, View.set_whole]
  rfl
theorem arr3a_11 (c : Dev nD) :
    ((cfg3.win 11).arr.view.loc (c : Thread nD τ) ↦[(cfg3.win 11).arr.view.set]{(dats3 V1 O1 W1 c).share 11} ((dats3 V1 O1 W1 c).arrAt 11 0) : sProp 𝕄)
      = (((c : Dev nD), Proc.devRef .tc main_v9) : Loc nD τ sig) ↦{fullShare} V1 (Proc.devRef .tc main_v9) := by
  simp only [Memref.view_whole, View.set_whole]
  rfl
theorem arr3a_12 (c : Dev nD) :
    ((cfg3.win 12).arr.view.loc (c : Thread nD τ) ↦[(cfg3.win 12).arr.view.set]{(dats3 V1 O1 W1 c).share 12} ((dats3 V1 O1 W1 c).arrAt 12 0) : sProp 𝕄)
      = (((c : Dev nD), Proc.devRef .tc main_v30) : Loc nD τ sig) ↦{shareTokN fullShare 0} V1 (Proc.devRef .tc main_v30) := by
  simp only [Memref.view_whole, View.set_whole]
  rfl
theorem arr3a_13 (c : Dev nD) :
    ((cfg3.win 13).arr.view.loc (c : Thread nD τ) ↦[(cfg3.win 13).arr.view.set]{(dats3 V1 O1 W1 c).share 13} ((dats3 V1 O1 W1 c).arrAt 13 0) : sProp 𝕄)
      = (((c : Dev nD), Proc.devRef .tc main_v30) : Loc nD τ sig) ↦{shareTokN fullShare 1} V1 (Proc.devRef .tc main_v30) := by
  simp only [Memref.view_whole, View.set_whole]
  rfl
theorem arr3a_14 (c : Dev nD) :
    ((cfg3.win 14).arr.view.loc (c : Thread nD τ) ↦[(cfg3.win 14).arr.view.set]{(dats3 V1 O1 W1 c).share 14} ((dats3 V1 O1 W1 c).arrAt 14 0) : sProp 𝕄)
      = (((c : Dev nD), Proc.devRef .tc main_v30) : Loc nD τ sig) ↦{shareTokN fullShare 2} V1 (Proc.devRef .tc main_v30) := by
  simp only [Memref.view_whole, View.set_whole]
  rfl
theorem arr3a_15 (c : Dev nD) :
    ((cfg3.win 15).arr.view.loc (c : Thread nD τ) ↦[(cfg3.win 15).arr.view.set]{(dats3 V1 O1 W1 c).share 15} ((dats3 V1 O1 W1 c).arrAt 15 0) : sProp 𝕄)
      = (((c : Dev nD), Proc.devRef .tc main_v30) : Loc nD τ sig) ↦{shareTokN fullShare 3} V1 (Proc.devRef .tc main_v30) := by
  simp only [Memref.view_whole, View.set_whole]
  rfl
theorem arr3a_16 (c : Dev nD) :
    ((cfg3.win 16).arr.view.loc (c : Thread nD τ) ↦[(cfg3.win 16).arr.view.set]{(dats3 V1 O1 W1 c).share 16} ((dats3 V1 O1 W1 c).arrAt 16 0) : sProp 𝕄)
      = (((c : Dev nD), Proc.devRef .tc main_v30) : Loc nD τ sig) ↦{shareTokN fullShare 4} V1 (Proc.devRef .tc main_v30) := by
  simp only [Memref.view_whole, View.set_whole]
  rfl
theorem arr3a_17 (c : Dev nD) :
    ((cfg3.win 17).arr.view.loc (c : Thread nD τ) ↦[(cfg3.win 17).arr.view.set]{(dats3 V1 O1 W1 c).share 17} ((dats3 V1 O1 W1 c).arrAt 17 0) : sProp 𝕄)
      = (((c : Dev nD), Proc.devRef .tc main_v30) : Loc nD τ sig) ↦{shareTokN fullShare 5} V1 (Proc.devRef .tc main_v30) := by
  simp only [Memref.view_whole, View.set_whole]
  rfl
theorem arr3a_18 (c : Dev nD) :
    ((cfg3.win 18).arr.view.loc (c : Thread nD τ) ↦[(cfg3.win 18).arr.view.set]{(dats3 V1 O1 W1 c).share 18} ((dats3 V1 O1 W1 c).arrAt 18 0) : sProp 𝕄)
      = (((c : Dev nD), Proc.devRef .tc main_v30) : Loc nD τ sig) ↦{shareTokN fullShare 6} V1 (Proc.devRef .tc main_v30) := by
  simp only [Memref.view_whole, View.set_whole]
  rfl
theorem arr3a_19 (c : Dev nD) :
    ((cfg3.win 19).arr.view.loc (c : Thread nD τ) ↦[(cfg3.win 19).arr.view.set]{(dats3 V1 O1 W1 c).share 19} ((dats3 V1 O1 W1 c).arrAt 19 0) : sProp 𝕄)
      = (((c : Dev nD), Proc.devRef .tc main_v30) : Loc nD τ sig) ↦{shareTokN fullShare 7} V1 (Proc.devRef .tc main_v30) := by
  simp only [Memref.view_whole, View.set_whole]
  rfl
theorem arr3a_20 (c : Dev nD) :
    ((cfg3.win 20).arr.view.loc (c : Thread nD τ) ↦[(cfg3.win 20).arr.view.set]{(dats3 V1 O1 W1 c).share 20} ((dats3 V1 O1 W1 c).arrAt 20 0) : sProp 𝕄)
      = (((c : Dev nD), Proc.devRef .tc main_v30) : Loc nD τ sig) ↦{shareTokN fullShare 8} V1 (Proc.devRef .tc main_v30) := by
  simp only [Memref.view_whole, View.set_whole]
  rfl
theorem arr3a_21 (c : Dev nD) :
    ((cfg3.win 21).arr.view.loc (c : Thread nD τ) ↦[(cfg3.win 21).arr.view.set]{(dats3 V1 O1 W1 c).share 21} ((dats3 V1 O1 W1 c).arrAt 21 0) : sProp 𝕄)
      = (((c : Dev nD), Proc.devRef .tc main_v30) : Loc nD τ sig) ↦{shareTokN fullShare 9} V1 (Proc.devRef .tc main_v30) := by
  simp only [Memref.view_whole, View.set_whole]
  rfl
theorem arr3a_22 (c : Dev nD) :
    ((cfg3.win 22).arr.view.loc (c : Thread nD τ) ↦[(cfg3.win 22).arr.view.set]{(dats3 V1 O1 W1 c).share 22} ((dats3 V1 O1 W1 c).arrAt 22 0) : sProp 𝕄)
      = (((c : Dev nD), Proc.devRef .tc main_v30) : Loc nD τ sig) ↦{shareTokN fullShare 10} V1 (Proc.devRef .tc main_v30) := by
  simp only [Memref.view_whole, View.set_whole]
  rfl
theorem arr3a_23 (c : Dev nD) :
    ((cfg3.win 23).arr.view.loc (c : Thread nD τ) ↦[(cfg3.win 23).arr.view.set]{(dats3 V1 O1 W1 c).share 23} ((dats3 V1 O1 W1 c).arrAt 23 0) : sProp 𝕄)
      = (((c : Dev nD), Proc.devRef .tc main_v30) : Loc nD τ sig) ↦{shareTokN fullShare 11} V1 (Proc.devRef .tc main_v30) := by
  simp only [Memref.view_whole, View.set_whole]
  rfl
theorem arr3a_24 (c : Dev nD) :
    ((cfg3.win 24).arr.view.loc (c : Thread nD τ) ↦[(cfg3.win 24).arr.view.set]{(dats3 V1 O1 W1 c).share 24} ((dats3 V1 O1 W1 c).arrAt 24 0) : sProp 𝕄)
      = (((c : Dev nD), Proc.devRef .tc main_v30) : Loc nD τ sig) ↦{shareTokN fullShare 12} V1 (Proc.devRef .tc main_v30) := by
  simp only [Memref.view_whole, View.set_whole]
  rfl
theorem arr3a_25 (c : Dev nD) :
    ((cfg3.win 25).arr.view.loc (c : Thread nD τ) ↦[(cfg3.win 25).arr.view.set]{(dats3 V1 O1 W1 c).share 25} ((dats3 V1 O1 W1 c).arrAt 25 0) : sProp 𝕄)
      = (((c : Dev nD), Proc.devRef .tc main_v30) : Loc nD τ sig) ↦{shareTokN fullShare 13} V1 (Proc.devRef .tc main_v30) := by
  simp only [Memref.view_whole, View.set_whole]
  rfl
theorem arr3a_26 (c : Dev nD) :
    ((cfg3.win 26).arr.view.loc (c : Thread nD τ) ↦[(cfg3.win 26).arr.view.set]{(dats3 V1 O1 W1 c).share 26} ((dats3 V1 O1 W1 c).arrAt 26 0) : sProp 𝕄)
      = (((c : Dev nD), Proc.devRef .tc main_v30) : Loc nD τ sig) ↦{shareTokN fullShare 14} V1 (Proc.devRef .tc main_v30) := by
  simp only [Memref.view_whole, View.set_whole]
  rfl
theorem arr3a_27 (c : Dev nD) :
    ((cfg3.win 27).arr.view.loc (c : Thread nD τ) ↦[(cfg3.win 27).arr.view.set]{(dats3 V1 O1 W1 c).share 27} ((dats3 V1 O1 W1 c).arrAt 27 0) : sProp 𝕄)
      = (((c : Dev nD), Proc.devRef .tc main_v30) : Loc nD τ sig) ↦{shareTokN fullShare 15} V1 (Proc.devRef .tc main_v30) := by
  simp only [Memref.view_whole, View.set_whole]
  rfl
theorem arr3a_28 (c : Dev nD) :
    ((cfg3.win 28).arr.view.loc (c : Thread nD τ) ↦[(cfg3.win 28).arr.view.set]{(dats3 V1 O1 W1 c).share 28} ((dats3 V1 O1 W1 c).arrAt 28 0) : sProp 𝕄)
      = (((c : Dev nD), Proc.devRef .tc main_v30) : Loc nD τ sig) ↦{shareTokN fullShare 16} V1 (Proc.devRef .tc main_v30) := by
  simp only [Memref.view_whole, View.set_whole]
  rfl
theorem arr3a_29 (c : Dev nD) :
    ((cfg3.win 29).arr.view.loc (c : Thread nD τ) ↦[(cfg3.win 29).arr.view.set]{(dats3 V1 O1 W1 c).share 29} ((dats3 V1 O1 W1 c).arrAt 29 0) : sProp 𝕄)
      = (((c : Dev nD), Proc.devRef .tc main_v30) : Loc nD τ sig) ↦{shareTokN fullShare 17} V1 (Proc.devRef .tc main_v30) := by
  simp only [Memref.view_whole, View.set_whole]
  rfl
theorem arr3a_30 (c : Dev nD) :
    ((cfg3.win 30).arr.view.loc (c : Thread nD τ) ↦[(cfg3.win 30).arr.view.set]{(dats3 V1 O1 W1 c).share 30} ((dats3 V1 O1 W1 c).arrAt 30 0) : sProp 𝕄)
      = (((c : Dev nD), Proc.devRef .tc main_v30) : Loc nD τ sig) ↦{shareTokN fullShare 18} V1 (Proc.devRef .tc main_v30) := by
  simp only [Memref.view_whole, View.set_whole]
  rfl
theorem arr3a_31 (c : Dev nD) :
    ((cfg3.win 31).arr.view.loc (c : Thread nD τ) ↦[(cfg3.win 31).arr.view.set]{(dats3 V1 O1 W1 c).share 31} ((dats3 V1 O1 W1 c).arrAt 31 0) : sProp 𝕄)
      = (((c : Dev nD), Proc.devRef .tc main_v30) : Loc nD τ sig) ↦{shareTokN fullShare 19} V1 (Proc.devRef .tc main_v30) := by
  simp only [Memref.view_whole, View.set_whole]
  rfl
theorem arr3a_32 (c : Dev nD) :
    ((cfg3.win 32).arr.view.loc (c : Thread nD τ) ↦[(cfg3.win 32).arr.view.set]{(dats3 V1 O1 W1 c).share 32} ((dats3 V1 O1 W1 c).arrAt 32 0) : sProp 𝕄)
      = (((c : Dev nD), Proc.devRef .tc main_v30) : Loc nD τ sig) ↦{shareTokN fullShare 20} V1 (Proc.devRef .tc main_v30) := by
  simp only [Memref.view_whole, View.set_whole]
  rfl
theorem arr3a_33 (c : Dev nD) :
    ((cfg3.win 33).arr.view.loc (c : Thread nD τ) ↦[(cfg3.win 33).arr.view.set]{(dats3 V1 O1 W1 c).share 33} ((dats3 V1 O1 W1 c).arrAt 33 0) : sProp 𝕄)
      = (((c : Dev nD), Proc.devRef .tc main_v30) : Loc nD τ sig) ↦{shareTokN fullShare 21} V1 (Proc.devRef .tc main_v30) := by
  simp only [Memref.view_whole, View.set_whole]
  rfl
theorem arr3a_34 (c : Dev nD) :
    ((cfg3.win 34).arr.view.loc (c : Thread nD τ) ↦[(cfg3.win 34).arr.view.set]{(dats3 V1 O1 W1 c).share 34} ((dats3 V1 O1 W1 c).arrAt 34 0) : sProp 𝕄)
      = (((c : Dev nD), Proc.devRef .tc main_v30) : Loc nD τ sig) ↦{shareTokN fullShare 22} V1 (Proc.devRef .tc main_v30) := by
  simp only [Memref.view_whole, View.set_whole]
  rfl
theorem arr3a_35 (c : Dev nD) :
    ((cfg3.win 35).arr.view.loc (c : Thread nD τ) ↦[(cfg3.win 35).arr.view.set]{(dats3 V1 O1 W1 c).share 35} ((dats3 V1 O1 W1 c).arrAt 35 0) : sProp 𝕄)
      = (((c : Dev nD), Proc.devRef .tc main_v30) : Loc nD τ sig) ↦{shareTokN fullShare 23} V1 (Proc.devRef .tc main_v30) := by
  simp only [Memref.view_whole, View.set_whole]
  rfl
theorem arr3a_36 (c : Dev nD) :
    ((cfg3.win 36).arr.view.loc (c : Thread nD τ) ↦[(cfg3.win 36).arr.view.set]{(dats3 V1 O1 W1 c).share 36} ((dats3 V1 O1 W1 c).arrAt 36 0) : sProp 𝕄)
      = (((c : Dev nD), Proc.devRef .tc main_v30) : Loc nD τ sig) ↦{shareTokN fullShare 24} V1 (Proc.devRef .tc main_v30) := by
  simp only [Memref.view_whole, View.set_whole]
  rfl
theorem arr3a_37 (c : Dev nD) :
    ((cfg3.win 37).arr.view.loc (c : Thread nD τ) ↦[(cfg3.win 37).arr.view.set]{(dats3 V1 O1 W1 c).share 37} ((dats3 V1 O1 W1 c).arrAt 37 0) : sProp 𝕄)
      = (((c : Dev nD), Proc.devRef .tc main_v30) : Loc nD τ sig) ↦{shareTokN fullShare 25} V1 (Proc.devRef .tc main_v30) := by
  simp only [Memref.view_whole, View.set_whole]
  rfl
theorem arr3a_38 (c : Dev nD) :
    ((cfg3.win 38).arr.view.loc (c : Thread nD τ) ↦[(cfg3.win 38).arr.view.set]{(dats3 V1 O1 W1 c).share 38} ((dats3 V1 O1 W1 c).arrAt 38 0) : sProp 𝕄)
      = (((c : Dev nD), Proc.devRef .tc main_v33) : Loc nD τ sig) ↦{fullShare} V1 (Proc.devRef .tc main_v33) := by
  simp only [Memref.view_whole, View.set_whole]
  rfl
theorem arr3z_0 (c : Dev nD) :
    ((cfg3.win 0).arr.view.loc (c : Thread nD τ) ↦[(cfg3.win 0).arr.view.set]{(dats3 V1 O1 W1 c).share 0} ((dats3 V1 O1 W1 c).arrAt 0 cfg3.N) : sProp 𝕄)
      = (((c : Dev nD), Proc.devRef .tc main_v31) : Loc nD τ sig) ↦{fullShare} V1 (Proc.devRef .tc main_v31) := by
  rw [arrAt_of_in (dats3 V1 O1 W1 c) 0 rfl]
  simp only [Memref.view_whole, View.set_whole]
  rfl
theorem arr3z_1 (c : Dev nD) :
    ((cfg3.win 1).arr.view.loc (c : Thread nD τ) ↦[(cfg3.win 1).arr.view.set]{(dats3 V1 O1 W1 c).share 1} ((dats3 V1 O1 W1 c).arrAt 1 cfg3.N) : sProp 𝕄)
      = (((c : Dev nD), Proc.devRef .tc main_v32) : Loc nD τ sig) ↦{fullShare} V1 (Proc.devRef .tc main_v32) := by
  rw [arrAt_of_in (dats3 V1 O1 W1 c) 1 rfl]
  simp only [Memref.view_whole, View.set_whole]
  rfl
theorem arr3z_2 (c : Dev nD) :
    ((cfg3.win 2).arr.view.loc (c : Thread nD τ) ↦[(cfg3.win 2).arr.view.set]{(dats3 V1 O1 W1 c).share 2} ((dats3 V1 O1 W1 c).arrAt 2 cfg3.N) : sProp 𝕄)
      = (((c : Dev nD), Proc.devRef .tc main_arg4) : Loc nD τ sig) ↦{fullShare} V1 (Proc.devRef .tc main_arg4) := by
  rw [arrAt_of_in (dats3 V1 O1 W1 c) 2 rfl]
  simp only [Memref.view_whole, View.set_whole]
  rfl
theorem arr3z_3 (c : Dev nD) :
    ((cfg3.win 3).arr.view.loc (c : Thread nD τ) ↦[(cfg3.win 3).arr.view.set]{(dats3 V1 O1 W1 c).share 3} ((dats3 V1 O1 W1 c).arrAt 3 cfg3.N) : sProp 𝕄)
      = (((c : Dev nD), Proc.devRef .tc main_arg6) : Loc nD τ sig) ↦{fullShare} V1 (Proc.devRef .tc main_arg6) := by
  rw [arrAt_of_in (dats3 V1 O1 W1 c) 3 rfl]
  simp only [Memref.view_whole, View.set_whole]
  rfl
theorem arr3z_4 (c : Dev nD) :
    ((cfg3.win 4).arr.view.loc (c : Thread nD τ) ↦[(cfg3.win 4).arr.view.set]{(dats3 V1 O1 W1 c).share 4} ((dats3 V1 O1 W1 c).arrAt 4 cfg3.N) : sProp 𝕄)
      = (((c : Dev nD), Proc.devRef .tc main_v10) : Loc nD τ sig) ↦{fullShare} V1 (Proc.devRef .tc main_v10) := by
  rw [arrAt_of_in (dats3 V1 O1 W1 c) 4 rfl]
  simp only [Memref.view_whole, View.set_whole]
  rfl
theorem arr3z_5 (c : Dev nD) :
    ((cfg3.win 5).arr.view.loc (c : Thread nD τ) ↦[(cfg3.win 5).arr.view.set]{(dats3 V1 O1 W1 c).share 5} ((dats3 V1 O1 W1 c).arrAt 5 cfg3.N) : sProp 𝕄)
      = (((c : Dev nD), Proc.devRef .tc main_v14) : Loc nD τ sig) ↦{fullShare} V1 (Proc.devRef .tc main_v14) := by
  rw [arrAt_of_in (dats3 V1 O1 W1 c) 5 rfl]
  simp only [Memref.view_whole, View.set_whole]
  rfl
theorem arr3z_6 (c : Dev nD) :
    ((cfg3.win 6).arr.view.loc (c : Thread nD τ) ↦[(cfg3.win 6).arr.view.set]{(dats3 V1 O1 W1 c).share 6} ((dats3 V1 O1 W1 c).arrAt 6 cfg3.N) : sProp 𝕄)
      = (((c : Dev nD), Proc.devRef .tc main_v11) : Loc nD τ sig) ↦{fullShare} V1 (Proc.devRef .tc main_v11) := by
  rw [arrAt_of_in (dats3 V1 O1 W1 c) 6 rfl]
  simp only [Memref.view_whole, View.set_whole]
  rfl
theorem arr3z_7 (c : Dev nD) :
    ((cfg3.win 7).arr.view.loc (c : Thread nD τ) ↦[(cfg3.win 7).arr.view.set]{(dats3 V1 O1 W1 c).share 7} ((dats3 V1 O1 W1 c).arrAt 7 cfg3.N) : sProp 𝕄)
      = (((c : Dev nD), Proc.devRef .tc main_v15) : Loc nD τ sig) ↦{fullShare} V1 (Proc.devRef .tc main_v15) := by
  rw [arrAt_of_in (dats3 V1 O1 W1 c) 7 rfl]
  simp only [Memref.view_whole, View.set_whole]
  rfl
theorem arr3z_8 (c : Dev nD) :
    ((cfg3.win 8).arr.view.loc (c : Thread nD τ) ↦[(cfg3.win 8).arr.view.set]{(dats3 V1 O1 W1 c).share 8} ((dats3 V1 O1 W1 c).arrAt 8 cfg3.N) : sProp 𝕄)
      = (((c : Dev nD), Proc.devRef .tc main_v12) : Loc nD τ sig) ↦{fullShare} V1 (Proc.devRef .tc main_v12) := by
  rw [arrAt_of_in (dats3 V1 O1 W1 c) 8 rfl]
  simp only [Memref.view_whole, View.set_whole]
  rfl
theorem arr3z_9 (c : Dev nD) :
    ((cfg3.win 9).arr.view.loc (c : Thread nD τ) ↦[(cfg3.win 9).arr.view.set]{(dats3 V1 O1 W1 c).share 9} ((dats3 V1 O1 W1 c).arrAt 9 cfg3.N) : sProp 𝕄)
      = (((c : Dev nD), Proc.devRef .tc main_v16) : Loc nD τ sig) ↦{fullShare} V1 (Proc.devRef .tc main_v16) := by
  rw [arrAt_of_in (dats3 V1 O1 W1 c) 9 rfl]
  simp only [Memref.view_whole, View.set_whole]
  rfl
theorem arr3z_10 (c : Dev nD) :
    ((cfg3.win 10).arr.view.loc (c : Thread nD τ) ↦[(cfg3.win 10).arr.view.set]{(dats3 V1 O1 W1 c).share 10} ((dats3 V1 O1 W1 c).arrAt 10 cfg3.N) : sProp 𝕄)
      = (((c : Dev nD), Proc.devRef .tc main_v13) : Loc nD τ sig) ↦{fullShare} V1 (Proc.devRef .tc main_v13) := by
  rw [arrAt_of_in (dats3 V1 O1 W1 c) 10 rfl]
  simp only [Memref.view_whole, View.set_whole]
  rfl
theorem arr3z_11 (c : Dev nD) :
    ((cfg3.win 11).arr.view.loc (c : Thread nD τ) ↦[(cfg3.win 11).arr.view.set]{(dats3 V1 O1 W1 c).share 11} ((dats3 V1 O1 W1 c).arrAt 11 cfg3.N) : sProp 𝕄)
      = (((c : Dev nD), Proc.devRef .tc main_v9) : Loc nD τ sig) ↦{fullShare} V1 (Proc.devRef .tc main_v9) := by
  rw [arrAt_of_in (dats3 V1 O1 W1 c) 11 rfl]
  simp only [Memref.view_whole, View.set_whole]
  rfl
theorem arr3z_12 (c : Dev nD) :
    ((cfg3.win 12).arr.view.loc (c : Thread nD τ) ↦[(cfg3.win 12).arr.view.set]{(dats3 V1 O1 W1 c).share 12} ((dats3 V1 O1 W1 c).arrAt 12 cfg3.N) : sProp 𝕄)
      = (((c : Dev nD), Proc.devRef .tc main_v30) : Loc nD τ sig) ↦{shareTokN fullShare 0} V1 (Proc.devRef .tc main_v30) := by
  rw [arrAt_of_in (dats3 V1 O1 W1 c) 12 rfl]
  simp only [Memref.view_whole, View.set_whole]
  rfl
theorem arr3z_13 (c : Dev nD) :
    ((cfg3.win 13).arr.view.loc (c : Thread nD τ) ↦[(cfg3.win 13).arr.view.set]{(dats3 V1 O1 W1 c).share 13} ((dats3 V1 O1 W1 c).arrAt 13 cfg3.N) : sProp 𝕄)
      = (((c : Dev nD), Proc.devRef .tc main_v30) : Loc nD τ sig) ↦{shareTokN fullShare 1} V1 (Proc.devRef .tc main_v30) := by
  rw [arrAt_of_in (dats3 V1 O1 W1 c) 13 rfl]
  simp only [Memref.view_whole, View.set_whole]
  rfl
theorem arr3z_14 (c : Dev nD) :
    ((cfg3.win 14).arr.view.loc (c : Thread nD τ) ↦[(cfg3.win 14).arr.view.set]{(dats3 V1 O1 W1 c).share 14} ((dats3 V1 O1 W1 c).arrAt 14 cfg3.N) : sProp 𝕄)
      = (((c : Dev nD), Proc.devRef .tc main_v30) : Loc nD τ sig) ↦{shareTokN fullShare 2} V1 (Proc.devRef .tc main_v30) := by
  rw [arrAt_of_in (dats3 V1 O1 W1 c) 14 rfl]
  simp only [Memref.view_whole, View.set_whole]
  rfl
theorem arr3z_15 (c : Dev nD) :
    ((cfg3.win 15).arr.view.loc (c : Thread nD τ) ↦[(cfg3.win 15).arr.view.set]{(dats3 V1 O1 W1 c).share 15} ((dats3 V1 O1 W1 c).arrAt 15 cfg3.N) : sProp 𝕄)
      = (((c : Dev nD), Proc.devRef .tc main_v30) : Loc nD τ sig) ↦{shareTokN fullShare 3} V1 (Proc.devRef .tc main_v30) := by
  rw [arrAt_of_in (dats3 V1 O1 W1 c) 15 rfl]
  simp only [Memref.view_whole, View.set_whole]
  rfl
theorem arr3z_16 (c : Dev nD) :
    ((cfg3.win 16).arr.view.loc (c : Thread nD τ) ↦[(cfg3.win 16).arr.view.set]{(dats3 V1 O1 W1 c).share 16} ((dats3 V1 O1 W1 c).arrAt 16 cfg3.N) : sProp 𝕄)
      = (((c : Dev nD), Proc.devRef .tc main_v30) : Loc nD τ sig) ↦{shareTokN fullShare 4} V1 (Proc.devRef .tc main_v30) := by
  rw [arrAt_of_in (dats3 V1 O1 W1 c) 16 rfl]
  simp only [Memref.view_whole, View.set_whole]
  rfl
theorem arr3z_17 (c : Dev nD) :
    ((cfg3.win 17).arr.view.loc (c : Thread nD τ) ↦[(cfg3.win 17).arr.view.set]{(dats3 V1 O1 W1 c).share 17} ((dats3 V1 O1 W1 c).arrAt 17 cfg3.N) : sProp 𝕄)
      = (((c : Dev nD), Proc.devRef .tc main_v30) : Loc nD τ sig) ↦{shareTokN fullShare 5} V1 (Proc.devRef .tc main_v30) := by
  rw [arrAt_of_in (dats3 V1 O1 W1 c) 17 rfl]
  simp only [Memref.view_whole, View.set_whole]
  rfl
theorem arr3z_18 (c : Dev nD) :
    ((cfg3.win 18).arr.view.loc (c : Thread nD τ) ↦[(cfg3.win 18).arr.view.set]{(dats3 V1 O1 W1 c).share 18} ((dats3 V1 O1 W1 c).arrAt 18 cfg3.N) : sProp 𝕄)
      = (((c : Dev nD), Proc.devRef .tc main_v30) : Loc nD τ sig) ↦{shareTokN fullShare 6} V1 (Proc.devRef .tc main_v30) := by
  rw [arrAt_of_in (dats3 V1 O1 W1 c) 18 rfl]
  simp only [Memref.view_whole, View.set_whole]
  rfl
theorem arr3z_19 (c : Dev nD) :
    ((cfg3.win 19).arr.view.loc (c : Thread nD τ) ↦[(cfg3.win 19).arr.view.set]{(dats3 V1 O1 W1 c).share 19} ((dats3 V1 O1 W1 c).arrAt 19 cfg3.N) : sProp 𝕄)
      = (((c : Dev nD), Proc.devRef .tc main_v30) : Loc nD τ sig) ↦{shareTokN fullShare 7} V1 (Proc.devRef .tc main_v30) := by
  rw [arrAt_of_in (dats3 V1 O1 W1 c) 19 rfl]
  simp only [Memref.view_whole, View.set_whole]
  rfl
theorem arr3z_20 (c : Dev nD) :
    ((cfg3.win 20).arr.view.loc (c : Thread nD τ) ↦[(cfg3.win 20).arr.view.set]{(dats3 V1 O1 W1 c).share 20} ((dats3 V1 O1 W1 c).arrAt 20 cfg3.N) : sProp 𝕄)
      = (((c : Dev nD), Proc.devRef .tc main_v30) : Loc nD τ sig) ↦{shareTokN fullShare 8} V1 (Proc.devRef .tc main_v30) := by
  rw [arrAt_of_in (dats3 V1 O1 W1 c) 20 rfl]
  simp only [Memref.view_whole, View.set_whole]
  rfl
theorem arr3z_21 (c : Dev nD) :
    ((cfg3.win 21).arr.view.loc (c : Thread nD τ) ↦[(cfg3.win 21).arr.view.set]{(dats3 V1 O1 W1 c).share 21} ((dats3 V1 O1 W1 c).arrAt 21 cfg3.N) : sProp 𝕄)
      = (((c : Dev nD), Proc.devRef .tc main_v30) : Loc nD τ sig) ↦{shareTokN fullShare 9} V1 (Proc.devRef .tc main_v30) := by
  rw [arrAt_of_in (dats3 V1 O1 W1 c) 21 rfl]
  simp only [Memref.view_whole, View.set_whole]
  rfl
theorem arr3z_22 (c : Dev nD) :
    ((cfg3.win 22).arr.view.loc (c : Thread nD τ) ↦[(cfg3.win 22).arr.view.set]{(dats3 V1 O1 W1 c).share 22} ((dats3 V1 O1 W1 c).arrAt 22 cfg3.N) : sProp 𝕄)
      = (((c : Dev nD), Proc.devRef .tc main_v30) : Loc nD τ sig) ↦{shareTokN fullShare 10} V1 (Proc.devRef .tc main_v30) := by
  rw [arrAt_of_in (dats3 V1 O1 W1 c) 22 rfl]
  simp only [Memref.view_whole, View.set_whole]
  rfl
theorem arr3z_23 (c : Dev nD) :
    ((cfg3.win 23).arr.view.loc (c : Thread nD τ) ↦[(cfg3.win 23).arr.view.set]{(dats3 V1 O1 W1 c).share 23} ((dats3 V1 O1 W1 c).arrAt 23 cfg3.N) : sProp 𝕄)
      = (((c : Dev nD), Proc.devRef .tc main_v30) : Loc nD τ sig) ↦{shareTokN fullShare 11} V1 (Proc.devRef .tc main_v30) := by
  rw [arrAt_of_in (dats3 V1 O1 W1 c) 23 rfl]
  simp only [Memref.view_whole, View.set_whole]
  rfl
theorem arr3z_24 (c : Dev nD) :
    ((cfg3.win 24).arr.view.loc (c : Thread nD τ) ↦[(cfg3.win 24).arr.view.set]{(dats3 V1 O1 W1 c).share 24} ((dats3 V1 O1 W1 c).arrAt 24 cfg3.N) : sProp 𝕄)
      = (((c : Dev nD), Proc.devRef .tc main_v30) : Loc nD τ sig) ↦{shareTokN fullShare 12} V1 (Proc.devRef .tc main_v30) := by
  rw [arrAt_of_in (dats3 V1 O1 W1 c) 24 rfl]
  simp only [Memref.view_whole, View.set_whole]
  rfl
theorem arr3z_25 (c : Dev nD) :
    ((cfg3.win 25).arr.view.loc (c : Thread nD τ) ↦[(cfg3.win 25).arr.view.set]{(dats3 V1 O1 W1 c).share 25} ((dats3 V1 O1 W1 c).arrAt 25 cfg3.N) : sProp 𝕄)
      = (((c : Dev nD), Proc.devRef .tc main_v30) : Loc nD τ sig) ↦{shareTokN fullShare 13} V1 (Proc.devRef .tc main_v30) := by
  rw [arrAt_of_in (dats3 V1 O1 W1 c) 25 rfl]
  simp only [Memref.view_whole, View.set_whole]
  rfl
theorem arr3z_26 (c : Dev nD) :
    ((cfg3.win 26).arr.view.loc (c : Thread nD τ) ↦[(cfg3.win 26).arr.view.set]{(dats3 V1 O1 W1 c).share 26} ((dats3 V1 O1 W1 c).arrAt 26 cfg3.N) : sProp 𝕄)
      = (((c : Dev nD), Proc.devRef .tc main_v30) : Loc nD τ sig) ↦{shareTokN fullShare 14} V1 (Proc.devRef .tc main_v30) := by
  rw [arrAt_of_in (dats3 V1 O1 W1 c) 26 rfl]
  simp only [Memref.view_whole, View.set_whole]
  rfl
theorem arr3z_27 (c : Dev nD) :
    ((cfg3.win 27).arr.view.loc (c : Thread nD τ) ↦[(cfg3.win 27).arr.view.set]{(dats3 V1 O1 W1 c).share 27} ((dats3 V1 O1 W1 c).arrAt 27 cfg3.N) : sProp 𝕄)
      = (((c : Dev nD), Proc.devRef .tc main_v30) : Loc nD τ sig) ↦{shareTokN fullShare 15} V1 (Proc.devRef .tc main_v30) := by
  rw [arrAt_of_in (dats3 V1 O1 W1 c) 27 rfl]
  simp only [Memref.view_whole, View.set_whole]
  rfl
theorem arr3z_28 (c : Dev nD) :
    ((cfg3.win 28).arr.view.loc (c : Thread nD τ) ↦[(cfg3.win 28).arr.view.set]{(dats3 V1 O1 W1 c).share 28} ((dats3 V1 O1 W1 c).arrAt 28 cfg3.N) : sProp 𝕄)
      = (((c : Dev nD), Proc.devRef .tc main_v30) : Loc nD τ sig) ↦{shareTokN fullShare 16} V1 (Proc.devRef .tc main_v30) := by
  rw [arrAt_of_in (dats3 V1 O1 W1 c) 28 rfl]
  simp only [Memref.view_whole, View.set_whole]
  rfl
theorem arr3z_29 (c : Dev nD) :
    ((cfg3.win 29).arr.view.loc (c : Thread nD τ) ↦[(cfg3.win 29).arr.view.set]{(dats3 V1 O1 W1 c).share 29} ((dats3 V1 O1 W1 c).arrAt 29 cfg3.N) : sProp 𝕄)
      = (((c : Dev nD), Proc.devRef .tc main_v30) : Loc nD τ sig) ↦{shareTokN fullShare 17} V1 (Proc.devRef .tc main_v30) := by
  rw [arrAt_of_in (dats3 V1 O1 W1 c) 29 rfl]
  simp only [Memref.view_whole, View.set_whole]
  rfl
theorem arr3z_30 (c : Dev nD) :
    ((cfg3.win 30).arr.view.loc (c : Thread nD τ) ↦[(cfg3.win 30).arr.view.set]{(dats3 V1 O1 W1 c).share 30} ((dats3 V1 O1 W1 c).arrAt 30 cfg3.N) : sProp 𝕄)
      = (((c : Dev nD), Proc.devRef .tc main_v30) : Loc nD τ sig) ↦{shareTokN fullShare 18} V1 (Proc.devRef .tc main_v30) := by
  rw [arrAt_of_in (dats3 V1 O1 W1 c) 30 rfl]
  simp only [Memref.view_whole, View.set_whole]
  rfl
theorem arr3z_31 (c : Dev nD) :
    ((cfg3.win 31).arr.view.loc (c : Thread nD τ) ↦[(cfg3.win 31).arr.view.set]{(dats3 V1 O1 W1 c).share 31} ((dats3 V1 O1 W1 c).arrAt 31 cfg3.N) : sProp 𝕄)
      = (((c : Dev nD), Proc.devRef .tc main_v30) : Loc nD τ sig) ↦{shareTokN fullShare 19} V1 (Proc.devRef .tc main_v30) := by
  rw [arrAt_of_in (dats3 V1 O1 W1 c) 31 rfl]
  simp only [Memref.view_whole, View.set_whole]
  rfl
theorem arr3z_32 (c : Dev nD) :
    ((cfg3.win 32).arr.view.loc (c : Thread nD τ) ↦[(cfg3.win 32).arr.view.set]{(dats3 V1 O1 W1 c).share 32} ((dats3 V1 O1 W1 c).arrAt 32 cfg3.N) : sProp 𝕄)
      = (((c : Dev nD), Proc.devRef .tc main_v30) : Loc nD τ sig) ↦{shareTokN fullShare 20} V1 (Proc.devRef .tc main_v30) := by
  rw [arrAt_of_in (dats3 V1 O1 W1 c) 32 rfl]
  simp only [Memref.view_whole, View.set_whole]
  rfl
theorem arr3z_33 (c : Dev nD) :
    ((cfg3.win 33).arr.view.loc (c : Thread nD τ) ↦[(cfg3.win 33).arr.view.set]{(dats3 V1 O1 W1 c).share 33} ((dats3 V1 O1 W1 c).arrAt 33 cfg3.N) : sProp 𝕄)
      = (((c : Dev nD), Proc.devRef .tc main_v30) : Loc nD τ sig) ↦{shareTokN fullShare 21} V1 (Proc.devRef .tc main_v30) := by
  rw [arrAt_of_in (dats3 V1 O1 W1 c) 33 rfl]
  simp only [Memref.view_whole, View.set_whole]
  rfl
theorem arr3z_34 (c : Dev nD) :
    ((cfg3.win 34).arr.view.loc (c : Thread nD τ) ↦[(cfg3.win 34).arr.view.set]{(dats3 V1 O1 W1 c).share 34} ((dats3 V1 O1 W1 c).arrAt 34 cfg3.N) : sProp 𝕄)
      = (((c : Dev nD), Proc.devRef .tc main_v30) : Loc nD τ sig) ↦{shareTokN fullShare 22} V1 (Proc.devRef .tc main_v30) := by
  rw [arrAt_of_in (dats3 V1 O1 W1 c) 34 rfl]
  simp only [Memref.view_whole, View.set_whole]
  rfl
theorem arr3z_35 (c : Dev nD) :
    ((cfg3.win 35).arr.view.loc (c : Thread nD τ) ↦[(cfg3.win 35).arr.view.set]{(dats3 V1 O1 W1 c).share 35} ((dats3 V1 O1 W1 c).arrAt 35 cfg3.N) : sProp 𝕄)
      = (((c : Dev nD), Proc.devRef .tc main_v30) : Loc nD τ sig) ↦{shareTokN fullShare 23} V1 (Proc.devRef .tc main_v30) := by
  rw [arrAt_of_in (dats3 V1 O1 W1 c) 35 rfl]
  simp only [Memref.view_whole, View.set_whole]
  rfl
theorem arr3z_36 (c : Dev nD) :
    ((cfg3.win 36).arr.view.loc (c : Thread nD τ) ↦[(cfg3.win 36).arr.view.set]{(dats3 V1 O1 W1 c).share 36} ((dats3 V1 O1 W1 c).arrAt 36 cfg3.N) : sProp 𝕄)
      = (((c : Dev nD), Proc.devRef .tc main_v30) : Loc nD τ sig) ↦{shareTokN fullShare 24} V1 (Proc.devRef .tc main_v30) := by
  rw [arrAt_of_in (dats3 V1 O1 W1 c) 36 rfl]
  simp only [Memref.view_whole, View.set_whole]
  rfl
theorem arr3z_37 (c : Dev nD) :
    ((cfg3.win 37).arr.view.loc (c : Thread nD τ) ↦[(cfg3.win 37).arr.view.set]{(dats3 V1 O1 W1 c).share 37} ((dats3 V1 O1 W1 c).arrAt 37 cfg3.N) : sProp 𝕄)
      = (((c : Dev nD), Proc.devRef .tc main_v30) : Loc nD τ sig) ↦{shareTokN fullShare 25} V1 (Proc.devRef .tc main_v30) := by
  rw [arrAt_of_in (dats3 V1 O1 W1 c) 37 rfl]
  simp only [Memref.view_whole, View.set_whole]
  rfl
theorem arr3z_38 (c : Dev nD) :
    ((cfg3.win 38).arr.view.loc (c : Thread nD τ) ↦[(cfg3.win 38).arr.view.set]{(dats3 V1 O1 W1 c).share 38} ((dats3 V1 O1 W1 c).arrAt 38 cfg3.N) : sProp 𝕄)
      = (((c : Dev nD), Proc.devRef .tc main_v33) : Loc nD τ sig) ↦{fullShare} (dats3 V1 O1 W1 c).arrAt 38 cfg3.N := by
  simp only [Memref.view_whole, View.set_whole]
  rfl

/-- ENTRY, the arrays: the fourteen buffers behind the windows, whole at the full share, are the windows' arrays at the
    entry contents — the gathered-rows array split into one read token per window, the remainder set aside. -/
theorem arrays3_of_held (c : Dev nD) :
    (held (c : Thread nD τ) arrSet3 V1 : sProp 𝕄)
      ⊢ iprop((dats3 V1 O1 W1 c).arrays ((dats3 V1 O1 W1 c).arrAt · 0)
          ∗ ((((c : Dev nD), Proc.devRef .tc main_v30) : Loc nD τ sig) ↦{shareDrop fullShare 26} V1 (Proc.devRef .tc main_v30))) := by
  rw [held_arrSet3]
  iintro ⟨H_v31, H_v32, H_arg4, H_arg6, H_v10, H_v14, H_v11, H_v15, H_v12, H_v16, H_v13, H_v9, H_v30, H_v33⟩
  ihave Hs := (Transfers.pointsTo_toks_split (ℓ := (((c : Dev nD), Proc.devRef .tc main_v30) : Loc nD τ sig)) (S := Finset.univ) (f := V1 (Proc.devRef .tc main_v30)) fullShare 26) $$ H_v30
  icases Hs with ⟨Hrem, Htoks⟩
  ihave Ht := (Entails.of_eq (bigSep_F26 (fun i : Fin 26 => ((((c : Dev nD), Proc.devRef .tc main_v30) : Loc nD τ sig) ↦{shareTokN fullShare i.val} V1 (Proc.devRef .tc main_v30) : sProp 𝕄)))) $$ Htoks
  icases Ht with ⟨T0, T1, T2, T3, T4, T5, T6, T7, T8, T9, T10, T11, T12, T13, T14, T15, T16, T17, T18, T19, T20, T21, T22, T23, T24, T25⟩
  isplitr [Hrem]
  swap; · iexact Hrem
  unfold Pipeline.Dat.arrays
  rw [bigSep_W3]
  isplitl [H_v31]; · rw [arr3a_0]; iexact H_v31
  isplitl [H_v32]; · rw [arr3a_1]; iexact H_v32
  isplitl [H_arg4]; · rw [arr3a_2]; iexact H_arg4
  isplitl [H_arg6]; · rw [arr3a_3]; iexact H_arg6
  isplitl [H_v10]; · rw [arr3a_4]; iexact H_v10
  isplitl [H_v14]; · rw [arr3a_5]; iexact H_v14
  isplitl [H_v11]; · rw [arr3a_6]; iexact H_v11
  isplitl [H_v15]; · rw [arr3a_7]; iexact H_v15
  isplitl [H_v12]; · rw [arr3a_8]; iexact H_v12
  isplitl [H_v16]; · rw [arr3a_9]; iexact H_v16
  isplitl [H_v13]; · rw [arr3a_10]; iexact H_v13
  isplitl [H_v9]; · rw [arr3a_11]; iexact H_v9
  isplitl [T0]; · rw [arr3a_12]; iexact T0
  isplitl [T1]; · rw [arr3a_13]; iexact T1
  isplitl [T2]; · rw [arr3a_14]; iexact T2
  isplitl [T3]; · rw [arr3a_15]; iexact T3
  isplitl [T4]; · rw [arr3a_16]; iexact T4
  isplitl [T5]; · rw [arr3a_17]; iexact T5
  isplitl [T6]; · rw [arr3a_18]; iexact T6
  isplitl [T7]; · rw [arr3a_19]; iexact T7
  isplitl [T8]; · rw [arr3a_20]; iexact T8
  isplitl [T9]; · rw [arr3a_21]; iexact T9
  isplitl [T10]; · rw [arr3a_22]; iexact T10
  isplitl [T11]; · rw [arr3a_23]; iexact T11
  isplitl [T12]; · rw [arr3a_24]; iexact T12
  isplitl [T13]; · rw [arr3a_25]; iexact T13
  isplitl [T14]; · rw [arr3a_26]; iexact T14
  isplitl [T15]; · rw [arr3a_27]; iexact T15
  isplitl [T16]; · rw [arr3a_28]; iexact T16
  isplitl [T17]; · rw [arr3a_29]; iexact T17
  isplitl [T18]; · rw [arr3a_30]; iexact T18
  isplitl [T19]; · rw [arr3a_31]; iexact T19
  isplitl [T20]; · rw [arr3a_32]; iexact T20
  isplitl [T21]; · rw [arr3a_33]; iexact T21
  isplitl [T22]; · rw [arr3a_34]; iexact T22
  isplitl [T23]; · rw [arr3a_35]; iexact T23
  isplitl [T24]; · rw [arr3a_36]; iexact T24
  isplitl [T25]; · rw [arr3a_37]; iexact T25
  rw [arr3a_38]; iexact H_v33

/-- EXIT, the arrays: the windows' arrays at their final contents — the inputs as they were, the output at what the
    write-backs left — with the remainder of the gathered-rows array, are the fourteen buffers whole again. -/
theorem held_of_arrays3 (c : Dev nD) :
    iprop((dats3 V1 O1 W1 c).arrays ((dats3 V1 O1 W1 c).arrAt · cfg3.N)
        ∗ ((((c : Dev nD), Proc.devRef .tc main_v30) : Loc nD τ sig) ↦{shareDrop fullShare 26} V1 (Proc.devRef .tc main_v30)))
      ⊢ (held (c : Thread nD τ) arrSet3 (Function.update V1 (Proc.devRef .tc main_v33) ((dats3 V1 O1 W1 c).arrAt 38 cfg3.N)) : sProp 𝕄) := by
  rw [held_arrSet3]
  rw [Function.update_of_ne (show Proc.devRef .tc main_v31 ≠ Proc.devRef .tc main_v33 by decide), Function.update_of_ne (show Proc.devRef .tc main_v32 ≠ Proc.devRef .tc main_v33 by decide), Function.update_of_ne (show Proc.devRef .tc main_arg4 ≠ Proc.devRef .tc main_v33 by decide), Function.update_of_ne (show Proc.devRef .tc main_arg6 ≠ Proc.devRef .tc main_v33 by decide), Function.update_of_ne (show Proc.devRef .tc main_v10 ≠ Proc.devRef .tc main_v33 by decide), Function.update_of_ne (show Proc.devRef .tc main_v14 ≠ Proc.devRef .tc main_v33 by decide), Function.update_of_ne (show Proc.devRef .tc main_v11 ≠ Proc.devRef .tc main_v33 by decide), Function.update_of_ne (show Proc.devRef .tc main_v15 ≠ Proc.devRef .tc main_v33 by decide), Function.update_of_ne (show Proc.devRef .tc main_v12 ≠ Proc.devRef .tc main_v33 by decide), Function.update_of_ne (show Proc.devRef .tc main_v16 ≠ Proc.devRef .tc main_v33 by decide), Function.update_of_ne (show Proc.devRef .tc main_v13 ≠ Proc.devRef .tc main_v33 by decide), Function.update_of_ne (show Proc.devRef .tc main_v9 ≠ Proc.devRef .tc main_v33 by decide), Function.update_of_ne (show Proc.devRef .tc main_v30 ≠ Proc.devRef .tc main_v33 by decide), Function.update_self]
  unfold Pipeline.Dat.arrays
  rw [bigSep_W3]
  iintro ⟨⟨A0, A1, A2, A3, A4, A5, A6, A7, A8, A9, A10, A11, A12, A13, A14, A15, A16, A17, A18, A19, A20, A21, A22, A23, A24, A25, A26, A27, A28, A29, A30, A31, A32, A33, A34, A35, A36, A37, A38⟩, Hrem⟩
  ihave H_v31 := (Entails.of_eq (arr3z_0 V1 O1 W1 c)) $$ A0
  ihave H_v32 := (Entails.of_eq (arr3z_1 V1 O1 W1 c)) $$ A1
  ihave H_arg4 := (Entails.of_eq (arr3z_2 V1 O1 W1 c)) $$ A2
  ihave H_arg6 := (Entails.of_eq (arr3z_3 V1 O1 W1 c)) $$ A3
  ihave H_v10 := (Entails.of_eq (arr3z_4 V1 O1 W1 c)) $$ A4
  ihave H_v14 := (Entails.of_eq (arr3z_5 V1 O1 W1 c)) $$ A5
  ihave H_v11 := (Entails.of_eq (arr3z_6 V1 O1 W1 c)) $$ A6
  ihave H_v15 := (Entails.of_eq (arr3z_7 V1 O1 W1 c)) $$ A7
  ihave H_v12 := (Entails.of_eq (arr3z_8 V1 O1 W1 c)) $$ A8
  ihave H_v16 := (Entails.of_eq (arr3z_9 V1 O1 W1 c)) $$ A9
  ihave H_v13 := (Entails.of_eq (arr3z_10 V1 O1 W1 c)) $$ A10
  ihave H_v9 := (Entails.of_eq (arr3z_11 V1 O1 W1 c)) $$ A11
  ihave T0 := (Entails.of_eq (arr3z_12 V1 O1 W1 c)) $$ A12
  ihave T1 := (Entails.of_eq (arr3z_13 V1 O1 W1 c)) $$ A13
  ihave T2 := (Entails.of_eq (arr3z_14 V1 O1 W1 c)) $$ A14
  ihave T3 := (Entails.of_eq (arr3z_15 V1 O1 W1 c)) $$ A15
  ihave T4 := (Entails.of_eq (arr3z_16 V1 O1 W1 c)) $$ A16
  ihave T5 := (Entails.of_eq (arr3z_17 V1 O1 W1 c)) $$ A17
  ihave T6 := (Entails.of_eq (arr3z_18 V1 O1 W1 c)) $$ A18
  ihave T7 := (Entails.of_eq (arr3z_19 V1 O1 W1 c)) $$ A19
  ihave T8 := (Entails.of_eq (arr3z_20 V1 O1 W1 c)) $$ A20
  ihave T9 := (Entails.of_eq (arr3z_21 V1 O1 W1 c)) $$ A21
  ihave T10 := (Entails.of_eq (arr3z_22 V1 O1 W1 c)) $$ A22
  ihave T11 := (Entails.of_eq (arr3z_23 V1 O1 W1 c)) $$ A23
  ihave T12 := (Entails.of_eq (arr3z_24 V1 O1 W1 c)) $$ A24
  ihave T13 := (Entails.of_eq (arr3z_25 V1 O1 W1 c)) $$ A25
  ihave T14 := (Entails.of_eq (arr3z_26 V1 O1 W1 c)) $$ A26
  ihave T15 := (Entails.of_eq (arr3z_27 V1 O1 W1 c)) $$ A27
  ihave T16 := (Entails.of_eq (arr3z_28 V1 O1 W1 c)) $$ A28
  ihave T17 := (Entails.of_eq (arr3z_29 V1 O1 W1 c)) $$ A29
  ihave T18 := (Entails.of_eq (arr3z_30 V1 O1 W1 c)) $$ A30
  ihave T19 := (Entails.of_eq (arr3z_31 V1 O1 W1 c)) $$ A31
  ihave T20 := (Entails.of_eq (arr3z_32 V1 O1 W1 c)) $$ A32
  ihave T21 := (Entails.of_eq (arr3z_33 V1 O1 W1 c)) $$ A33
  ihave T22 := (Entails.of_eq (arr3z_34 V1 O1 W1 c)) $$ A34
  ihave T23 := (Entails.of_eq (arr3z_35 V1 O1 W1 c)) $$ A35
  ihave T24 := (Entails.of_eq (arr3z_36 V1 O1 W1 c)) $$ A36
  ihave T25 := (Entails.of_eq (arr3z_37 V1 O1 W1 c)) $$ A37
  ihave H_v33 := (Entails.of_eq (arr3z_38 V1 O1 W1 c)) $$ A38
  ihave Hg := (Transfers.pointsTo_toks_join (ℓ := (((c : Dev nD), Proc.devRef .tc main_v30) : Loc nD τ sig)) (S := Finset.univ) (f := V1 (Proc.devRef .tc main_v30)) fullShare 26) $$ [Hrem T0 T1 T2 T3 T4 T5 T6 T7 T8 T9 T10 T11 T12 T13 T14 T15 T16 T17 T18 T19 T20 T21 T22 T23 T24 T25]
  · isplitl [Hrem]; · iexact Hrem
    iapply (Entails.of_eq (bigSep_F26 (fun i : Fin 26 => ((((c : Dev nD), Proc.devRef .tc main_v30) : Loc nD τ sig) ↦{shareTokN fullShare i.val} V1 (Proc.devRef .tc main_v30) : sProp 𝕄))).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    iexact T25
  isplitl [H_v31]; · iexact H_v31
  isplitl [H_v32]; · iexact H_v32
  isplitl [H_arg4]; · iexact H_arg4
  isplitl [H_arg6]; · iexact H_arg6
  isplitl [H_v10]; · iexact H_v10
  isplitl [H_v14]; · iexact H_v14
  isplitl [H_v11]; · iexact H_v11
  isplitl [H_v15]; · iexact H_v15
  isplitl [H_v12]; · iexact H_v12
  isplitl [H_v16]; · iexact H_v16
  isplitl [H_v13]; · iexact H_v13
  isplitl [H_v9]; · iexact H_v9
  isplitl [Hg]; · iexact Hg
  iexact H_v33

end Recs

end Cert.Proof.KI

end
-- ==== Proof.RegionRec.lean ====
/-
  The two TensorCore pipelines as kernel regions of @main: entry, invariant and exit of each.
-/
import proofs.«205278_g66915590471714_cont_9to1_m_383_35_alg».proof.Proof.RegionArrays

set_option maxRecDepth 65536
set_option maxHeartbeats 400000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Recs

variable (V0 V1 : Valuation τ sig (Elt F)) (O0 O1 : CellTallies nD τ sig (HIx 2)) (W0 W1 : Set (SemLoc sig × HIx 2))

/-- The invariant of pipeline call 0 is the scoped buffers no window stages, at both ends. -/
theorem Φ0_pd (c : Dev nD) (t) : (pdats V0 V1 O0 O1 W0 W1 0 c).Φ t = (dats1 V0 O0 W0 c).Φ t := rfl
theorem Φ0_dat (c : Dev nD) (t) : (dats1 V0 O0 W0 c).Φ t = (Pipeline.scopedRest spec1 c : sProp 𝕄) := rfl
theorem rest0_pin (c : Dev nD) :
    (Pipeline.scopedRest (Pipeline.pin (pcfgs (F := F)) adm 0).spec c : sProp 𝕄) = (Pipeline.scopedRest spec1 c : sProp 𝕄) := rfl
theorem Φ0_first (c : Dev nD) :
    (pdats V0 V1 O0 O1 W0 W1 0 c).Φ 0 = (Pipeline.scopedRest (Pipeline.pin (pcfgs (F := F)) adm 0).spec c : sProp 𝕄) :=
  (Φ0_pd V0 V1 O0 O1 W0 W1 c 0).trans ((Φ0_dat V0 O0 W0 c 0).trans (rest0_pin c).symm)
theorem Φ0_last (c : Dev nD) :
    (pdats V0 V1 O0 O1 W0 W1 0 c).Φ (Fin.last (Pipeline.pin (pcfgs (F := F)) adm 0).N)
      = (Pipeline.scopedRest (Pipeline.pin (pcfgs (F := F)) adm 0).spec c : sProp 𝕄) :=
  (Φ0_pd V0 V1 O0 O1 W0 W1 c _).trans ((Φ0_dat V0 O0 W0 c _).trans (rest0_pin c).symm)

/-- What the write-backs leave in a window's array depends on the arrays' entry contents and on what the body leaves
    only: not on the debts or the recorded pairs the proof data carries. -/
theorem arrAt1_indep (V : Valuation τ sig (Elt F)) (O O' : CellTallies nD τ sig (HIx 2)) (W W' : Set (SemLoc sig × HIx 2)) (c : Dev nD) (w : Fin cfg1.W) :
    ∀ n, (dats1 V O W c).arrAt w n = (dats1 V O' W' c).arrAt w n
  | 0 => rfl
  | n + 1 => by
    rw [Pipeline.Dat.arrAt, Pipeline.Dat.arrAt, arrAt1_indep V O O' W W' c w n]
    rfl

/-- What pipeline call 0 leaves in its result array, from the buffers it is entered with. -/
def resOf1 (V : Valuation τ sig (Elt F)) (c : Dev nD) : Buf (Elt F) ((c : Thread nD τ).loc main_v25) :=
  (dats1 V 0 ∅ c).arrAt 38 cfg1.N

/-- EXIT: the fourteen arrays, the result at its new contents, and the buffers that bypassed the pipeline are every
    unscoped buffer again. -/
theorem held_rejoin1 (V : Valuation τ sig (Elt F)) (c : Dev nD) (f) :
    iprop(held (c : Thread nD τ) arrSet1 (Function.update V (Proc.devRef .tc main_v25) f) ∗ held (c : Thread nD τ) (Pipeline.ucRefs τ sig \ arrSet1) V)
      ⊢ (held (c : Thread nD τ) (Pipeline.ucRefs τ sig) (Function.update V (Proc.devRef .tc main_v25) f) : sProp 𝕄) := by
  rw [StableHlo.held_sub_split (c : Thread nD τ) arrSet1_sub (Function.update V (Proc.devRef .tc main_v25) f), rest1_congr V c f]

/-- Pipeline call 0 as a kernel region of @main.  It is entered holding every unscoped buffer of the TensorCore at
    `V0` and the core's debts `O0` (no wait of the pipeline is above a debt: the pipeline's waits are recorded at the
    index of no call); the windows' arrays enter the pipeline, everything else bypasses it; it leaves every buffer as it
    was but the result array, at what the write-backs left. -/
def reg0 (hO : ∀ g, O0 g none = 0) : Pipeline.RegionSeg (pcfgs (F := F)) adm (pdats V0 V1 O0 O1 W0 W1) (none : HIx 2) defs₀ 𝒱₀ (LK (F := F)) (lvK (F := F)) 0 where
  win := winFacts₀1
  block_pos := block_pos1
  stage_whole := stage_whole1
  K := PEmpty
  osem k := k.elim
  ho := Pipeline.OwnSemFacts.none _
  hbody c := (body_obligation1 V0 O0 W0 c).loose
  hwaits c := Pipeline.cellsWaits_intro (Pipeline.pin (pcfgs (F := F)) adm) (pdats V0 V1 O0 O1 W0 W1) (none : HIx 2) 0 c
    (fun w s t => (K (F := F)).mayWait_none (thr := (c : Thread nD τ)) _ hO)
  pre c := iprop(held (c : Thread nD τ) (Pipeline.ucRefs τ sig) V0 ∗ Pipeline.owesWithin c O0 W0)
  post c := iprop(held (c : Thread nD τ) (Pipeline.ucRefs τ sig) (Function.update V0 (Proc.devRef .tc main_v25) ((dats1 V0 O0 W0 c).arrAt 38 cfg1.N))
    ∗ Pipeline.owesWithin c O0 (W0 ∪ cfg1.waitPairs none))
  X _ := iprop(emp)
  Y _ := iprop(emp)
  Z c := iprop(held (c : Thread nD τ) (Pipeline.ucRefs τ sig \ arrSet1) V0
    ∗ ((((c : Dev nD), Proc.devRef .tc main_v22) : Loc nD τ sig) ↦{shareDrop fullShare 26} V0 (Proc.devRef .tc main_v22)))
  hentry c := by
    rw [Pipeline.ownSems0_none, StableHlo.held_sub_split (c : Thread nD τ) arrSet1_sub V0]
    iintro ⟨⟨⟨Harr, Hrest⟩, HO⟩, -, -⟩
    ihave H := (arrays1_of_held V0 O0 W0 c) $$ Harr
    icases H with ⟨Harrs, Hrem⟩
    imodintro
    isplitl [Harrs]; · iexact Harrs
    isplitr
    · rw [prefHeld_none0]; iempintro
    isplitl [HO]
    · iapply (Pipeline.owesWithin_mono c O0 (Set.subset_union_left)); iexact HO
    isplitr; · iempintro
    isplitl [Hrest]; · iexact Hrest
    iexact Hrem
  hin c := by
    rw [Φ0_first]
    iintro ⟨-, -, H⟩; iexact H
  hout c := by
    rw [Φ0_last, Pipeline.ownSems0_none]
    iintro H
    isplitr; · iempintro
    isplitr; · iempintro
    iexact H
  hexit c := by
    iintro ⟨Harrs, HO, -, Hrest, Hrem⟩
    ihave H := (held_of_arrays1 V0 O0 W0 c) $$ [Harrs Hrem]
    · isplitl [Harrs]; · iexact Harrs
      iexact Hrem
    imodintro
    isplitr [HO]
    swap; · iexact HO
    iapply (held_rejoin1 V0 c ((dats1 V0 O0 W0 c).arrAt 38 cfg1.N))
    isplitl [H]; · iexact H
    iexact Hrest

/-- The invariant of pipeline call 1 is the scoped buffers no window stages, at both ends. -/
theorem Φ1_pd (c : Dev nD) (t) : (pdats V0 V1 O0 O1 W0 W1 1 c).Φ t = (dats3 V1 O1 W1 c).Φ t := rfl
theorem Φ1_dat (c : Dev nD) (t) : (dats3 V1 O1 W1 c).Φ t = (Pipeline.scopedRest spec3 c : sProp 𝕄) := rfl
theorem rest1_pin (c : Dev nD) :
    (Pipeline.scopedRest (Pipeline.pin (pcfgs (F := F)) adm 1).spec c : sProp 𝕄) = (Pipeline.scopedRest spec3 c : sProp 𝕄) := rfl
theorem Φ1_first (c : Dev nD) :
    (pdats V0 V1 O0 O1 W0 W1 1 c).Φ 0 = (Pipeline.scopedRest (Pipeline.pin (pcfgs (F := F)) adm 1).spec c : sProp 𝕄) :=
  (Φ1_pd V0 V1 O0 O1 W0 W1 c 0).trans ((Φ1_dat V1 O1 W1 c 0).trans (rest1_pin c).symm)
theorem Φ1_last (c : Dev nD) :
    (pdats V0 V1 O0 O1 W0 W1 1 c).Φ (Fin.last (Pipeline.pin (pcfgs (F := F)) adm 1).N)
      = (Pipeline.scopedRest (Pipeline.pin (pcfgs (F := F)) adm 1).spec c : sProp 𝕄) :=
  (Φ1_pd V0 V1 O0 O1 W0 W1 c _).trans ((Φ1_dat V1 O1 W1 c _).trans (rest1_pin c).symm)

/-- What the write-backs leave in a window's array depends on the arrays' entry contents and on what the body leaves
    only: not on the debts or the recorded pairs the proof data carries. -/
theorem arrAt3_indep (V : Valuation τ sig (Elt F)) (O O' : CellTallies nD τ sig (HIx 2)) (W W' : Set (SemLoc sig × HIx 2)) (c : Dev nD) (w : Fin cfg3.W) :
    ∀ n, (dats3 V O W c).arrAt w n = (dats3 V O' W' c).arrAt w n
  | 0 => rfl
  | n + 1 => by
    rw [Pipeline.Dat.arrAt, Pipeline.Dat.arrAt, arrAt3_indep V O O' W W' c w n]
    rfl

/-- What pipeline call 1 leaves in its result array, from the buffers it is entered with. -/
def resOf3 (V : Valuation τ sig (Elt F)) (c : Dev nD) : Buf (Elt F) ((c : Thread nD τ).loc main_v33) :=
  (dats3 V 0 ∅ c).arrAt 38 cfg3.N

/-- EXIT: the fourteen arrays, the result at its new contents, and the buffers that bypassed the pipeline are every
    unscoped buffer again. -/
theorem held_rejoin3 (V : Valuation τ sig (Elt F)) (c : Dev nD) (f) :
    iprop(held (c : Thread nD τ) arrSet3 (Function.update V (Proc.devRef .tc main_v33) f) ∗ held (c : Thread nD τ) (Pipeline.ucRefs τ sig \ arrSet3) V)
      ⊢ (held (c : Thread nD τ) (Pipeline.ucRefs τ sig) (Function.update V (Proc.devRef .tc main_v33) f) : sProp 𝕄) := by
  rw [StableHlo.held_sub_split (c : Thread nD τ) arrSet3_sub (Function.update V (Proc.devRef .tc main_v33) f), rest3_congr V c f]

/-- Pipeline call 1 as a kernel region of @main.  It is entered holding every unscoped buffer of the TensorCore at
    `V1` and the core's debts `O1` (no wait of the pipeline is above a debt: the pipeline's waits are recorded at the
    index of no call); the windows' arrays enter the pipeline, everything else bypasses it; it leaves every buffer as it
    was but the result array, at what the write-backs left. -/
def reg1 (hO : ∀ g, O1 g none = 0) : Pipeline.RegionSeg (pcfgs (F := F)) adm (pdats V0 V1 O0 O1 W0 W1) (none : HIx 2) defs₀ 𝒱₀ (LK (F := F)) (lvK (F := F)) 1 where
  win := winFacts₀3
  block_pos := block_pos3
  stage_whole := stage_whole3
  K := PEmpty
  osem k := k.elim
  ho := Pipeline.OwnSemFacts.none _
  hbody c := (body_obligation3 V1 O1 W1 c).loose
  hwaits c := Pipeline.cellsWaits_intro (Pipeline.pin (pcfgs (F := F)) adm) (pdats V0 V1 O0 O1 W0 W1) (none : HIx 2) 1 c
    (fun w s t => (K (F := F)).mayWait_none (thr := (c : Thread nD τ)) _ hO)
  pre c := iprop(held (c : Thread nD τ) (Pipeline.ucRefs τ sig) V1 ∗ Pipeline.owesWithin c O1 W1)
  post c := iprop(held (c : Thread nD τ) (Pipeline.ucRefs τ sig) (Function.update V1 (Proc.devRef .tc main_v33) ((dats3 V1 O1 W1 c).arrAt 38 cfg3.N))
    ∗ Pipeline.owesWithin c O1 (W1 ∪ cfg3.waitPairs none))
  X _ := iprop(emp)
  Y _ := iprop(emp)
  Z c := iprop(held (c : Thread nD τ) (Pipeline.ucRefs τ sig \ arrSet3) V1
    ∗ ((((c : Dev nD), Proc.devRef .tc main_v30) : Loc nD τ sig) ↦{shareDrop fullShare 26} V1 (Proc.devRef .tc main_v30)))
  hentry c := by
    rw [Pipeline.ownSems0_none, StableHlo.held_sub_split (c : Thread nD τ) arrSet3_sub V1]
    iintro ⟨⟨⟨Harr, Hrest⟩, HO⟩, -, -⟩
    ihave H := (arrays3_of_held V1 O1 W1 c) $$ Harr
    icases H with ⟨Harrs, Hrem⟩
    imodintro
    isplitl [Harrs]; · iexact Harrs
    isplitr
    · rw [prefHeld_none1]; iempintro
    isplitl [HO]
    · iapply (Pipeline.owesWithin_mono c O1 (Set.subset_union_left)); iexact HO
    isplitr; · iempintro
    isplitl [Hrest]; · iexact Hrest
    iexact Hrem
  hin c := by
    rw [Φ1_first]
    iintro ⟨-, -, H⟩; iexact H
  hout c := by
    rw [Φ1_last, Pipeline.ownSems0_none]
    iintro H
    isplitr; · iempintro
    isplitr; · iempintro
    iexact H
  hexit c := by
    iintro ⟨Harrs, HO, -, Hrest, Hrem⟩
    ihave H := (held_of_arrays3 V1 O1 W1 c) $$ [Harrs Hrem]
    · isplitl [Harrs]; · iexact Harrs
      iexact Hrem
    imodintro
    isplitr [HO]
    swap; · iexact HO
    iapply (held_rejoin3 V1 c ((dats3 V1 O1 W1 c).arrAt 38 cfg3.N))
    isplitl [H]; · iexact H
    iexact Hrest

end Recs

end Cert.Proof.KI

end
-- ==== Proof.LaunchDefs.lean ====
/-
  The launch: the ghost state's launch element, what it deals @main's proof for the two pipelines, and what the claim
  reads off the TensorCore's last assertion.
-/
import proofs.«205278_g66915590471714_cont_9to1_m_383_35_alg».proof.Proof.Pins
import proofs.«205278_g66915590471714_cont_9to1_m_383_35_alg».proof.Proof.Gen.KernelIdeal.Launch
import Idealize.ShloMosaic.Lib.Pipeline.Regions
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- The two pipelines' staging cells are pairwise distinct. -/
theorem cellOf_inj' : Function.Injective (Pipeline.cellOf (nD := nD) (τ := τ) (Pipeline.pin (pcfgs (F := F)) adm)) :=
  Cert.KernelIdeal.Gen.cellOf_inj

/-- The launch element: the handshakes' rounds at their cells and tokens, the pipelines' rounds at the staging cells and
    the loops' transfers, no counter yet. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What the launch leaves @main's proof on device `d`: each pipeline's staging cells' ghost state and duty tokens. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

/-- The sixteen argument arrays. -/
def argSet : Finset (DevRef τ sig) := {Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13, Proc.devRef .tc main_arg14, Proc.devRef .tc main_arg15}

section Ends

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- What @main leaves the claim on device `d`: the argument arrays at their launch contents. -/
def FIN (d : Dev nD) : sProp 𝕄 := held (SparseCore.T d) argSet (StableHlo.launchContents m d)

/-- The argument arrays of device `d` hold their launch contents in a final state. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)
  ∧ s'.mem.mem ((SparseCore.T d).loc main_arg12) = m ((SparseCore.T d).loc main_arg12)
  ∧ s'.mem.mem ((SparseCore.T d).loc main_arg13) = m ((SparseCore.T d).loc main_arg13)
  ∧ s'.mem.mem ((SparseCore.T d).loc main_arg14) = m ((SparseCore.T d).loc main_arg14)
  ∧ s'.mem.mem ((SparseCore.T d).loc main_arg15) = m ((SparseCore.T d).loc main_arg15)

end Ends

end Cert.Proof.KI

end
-- ==== Proof.Split.lean ====
/-
  How a gather call's operands split into its workers' payloads and join back.
-/
import proofs.«205278_g66915590471714_cont_9to1_m_383_35_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 2) (Elt F) ℕ UU ℕ

section Split

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-! ## Regrouping the workers and the row blocks -/

/-- Thirty-two workers are two cores' sixteen each, worker `2 i + c` on core `c`. -/
theorem bigSep_workers (Φ : ℕ → sProp 𝕄) :
    (bigSep Finset.univ fun w : Fin 32 => Φ w.val)
      = bigSep Finset.univ fun c : Fin 2 => bigSep Finset.univ fun i : Fin 16 => Φ (2 * i.val + c.val) :=
  calc (bigSep Finset.univ fun w : Fin 32 => Φ w.val)
      = bigSep Finset.univ fun p : Fin 16 × Fin 2 => Φ (p.2.val + 2 * p.1.val) :=
        bigSep_univ_equiv (finProdFinEquiv : Fin 16 × Fin 2 ≃ Fin (16 * 2)) (fun w => Φ w.val)
    _ = bigSep Finset.univ fun i : Fin 16 => bigSep Finset.univ fun c : Fin 2 => Φ (c.val + 2 * i.val) :=
        bigSep_univ_prod (fun p : Fin 16 × Fin 2 => Φ (p.2.val + 2 * p.1.val))
    _ = bigSep Finset.univ fun c : Fin 2 => bigSep Finset.univ fun i : Fin 16 => Φ (c.val + 2 * i.val) :=
        bigSep_univ_comm (fun (i : Fin 16) (c : Fin 2) => Φ (c.val + 2 * i.val))
    _ = _ := bigSep_congr fun c _ => bigSep_congr fun i _ => congrArg Φ (Nat.add_comm _ _)

/-- The 416 row blocks are thirty-two workers' thirteen each, block `13 w + k` with worker `w`. -/
theorem bigSep_blocks (G : ℕ → sProp 𝕄) :
    (bigSep Finset.univ fun t : Fin 416 => G t.val)
      = bigSep Finset.univ fun w : Fin 32 => bigSep Finset.univ fun k : Fin 13 => G (13 * w.val + k.val) :=
  calc (bigSep Finset.univ fun t : Fin 416 => G t.val)
      = bigSep Finset.univ fun p : Fin 32 × Fin 13 => G (p.2.val + 13 * p.1.val) :=
        bigSep_univ_equiv (finProdFinEquiv : Fin 32 × Fin 13 ≃ Fin (32 * 13)) (fun t => G t.val)
    _ = bigSep Finset.univ fun w : Fin 32 => bigSep Finset.univ fun k : Fin 13 => G (k.val + 13 * w.val) :=
        bigSep_univ_prod (fun p : Fin 32 × Fin 13 => G (p.2.val + 13 * p.1.val))
    _ = _ := bigSep_congr fun w _ => bigSep_congr fun k _ => congrArg G (Nat.add_comm _ _)

/-- What the two cores' sixteen workers hold — a share `A`, a share `B` and thirteen blocks `G` each — is the
    thirty-two shares `A`, the thirty-two shares `B` and the 416 blocks `G`. -/
theorem bigSep_cores (A B G : ℕ → sProp 𝕄) :
    (bigSep Finset.univ fun c : Fin 2 => bigSep Finset.univ fun i : Fin 16 =>
        iprop(A (2 * i.val + c.val) ∗ B (2 * i.val + c.val) ∗ bigSep Finset.univ fun k : Fin 13 => G (13 * (2 * i.val + c.val) + k.val)))
      = iprop((bigSep Finset.univ fun w : Fin 32 => A w.val) ∗ (bigSep Finset.univ fun w : Fin 32 => B w.val)
          ∗ bigSep Finset.univ fun t : Fin 416 => G t.val) := by
  rw [bigSep_blocks G, bigSep_workers A, bigSep_workers B,
    bigSep_workers (fun w => bigSep Finset.univ fun k : Fin 13 => G (13 * w + k.val))]
  simp only [bigSep_sep']

/-! ## The output arrays' row blocks -/

/-- A block's number names its block's elements. -/
theorem oSetN_val (t : Fin 416) : oSetN t.val = (oblk t).set := dif_pos t.isLt

theorem oset_disjoint : ∀ t ∈ (Finset.univ : Finset (Fin 416)), ∀ t' ∈ (Finset.univ : Finset (Fin 416)), t ≠ t' → Disjoint (oSetN t.val) (oSetN t'.val) :=
  fun t _ t' _ h => by rw [oSetN_val, oSetN_val]; exact Rect.part_disjoint odiv h

theorem oset_cover : (Finset.univ : Finset (Fin 416)).biUnion (fun t => oSetN t.val) = Finset.univ :=
  (Finset.biUnion_congr rfl fun t _ => oSetN_val t).trans (Rect.biUnion_part odiv)

/-- Call 0's output array, whole, is its 416 row blocks; -/
theorem out0_rows (d : Dev nD) (f : Buf (Elt F) (out0Loc d)) :
    (out0Loc d ↦{fullShare} f : sProp 𝕄) = bigSep Finset.univ fun t : Fin 416 => out0Loc d ↦[oSetN t.val]{fullShare} f := by
  rw [← pointsTo_biUnion Finset.univ (ℓ := out0Loc d) (fun t : Fin 416 => oSetN t.val) oset_disjoint, oset_cover]; try rfl

/-- and its row blocks, each at some contents, join into the array at some contents. -/
theorem out0_join (d : Dev nD) (f₀ : Buf (Elt F) (out0Loc d)) :
    (bigSep Finset.univ fun t : Fin 416 => iprop(∃ f, out0Loc d ↦[oSetN t.val]{fullShare} f)) ⊢ (iprop(∃ f, out0Loc d ↦{fullShare} f) : sProp 𝕄) := by
  haveI : Nonempty (Buf (Elt F) (out0Loc d)) := ⟨f₀⟩
  refine (bigSep_exists_pi Finset.univ (fun (t : Fin 416) (f : Buf (Elt F) (out0Loc d)) => out0Loc d ↦[oSetN t.val]{fullShare} f)).trans ?_
  iintro ⟨%fs, H⟩
  ihave H' := (pointsTo_biUnion_join (ℓ := out0Loc d) (q := fullShare) (Val := Elt F) Finset.univ (fun t : Fin 416 => oSetN t.val) fs (fs 0) oset_disjoint) $$ H
  icases H' with ⟨%g, -, Hg⟩
  rw [oset_cover]
  iexists g; iexact Hg

/-- Call 0 hands each SparseCore its sixteen workers' payloads and each worker its own: nothing to do. -/
theorem vecSplit0 : (K (F := F)).VecSplit' (P m tab ix0 ix1) 0 := by
  intro d c
  show (bigSep Finset.univ fun i : Fin 16 => tileIn0 m tab ix0 d (2 * i.val + c.val))
    ⊢ |={Set.univ}=> iprop((bigSep Finset.univ fun i : Fin 16 => tileIn0 m tab ix0 d (2 * i.val + c.val))
        ∗ ((bigSep Finset.univ fun i : Fin 16 => tileOut0 tab ix0 d (2 * i.val + c.val))
            -∗ bigSep Finset.univ fun i : Fin 16 => tileOut0 tab ix0 d (2 * i.val + c.val)))
  iintro H; imodintro
  isplitl [H]; · iexact H
  iintro H; iexact H

/-- The TensorCore's side of call 0: the table and the call's index array, whole at the full share, give every worker
    its read share (the remainders stay behind the wand), and the call's output array is its 416 row blocks, thirteen
    per worker; what the workers hand back joins into the three arrays again, the output at contents not named. -/
theorem call0_split (d : Dev nD) :
    iprop((tabLoc d ↦{fullShare} tab d) ∗ (idx0Loc d ↦{fullShare} ix0 d) ∗ (out0Loc d ↦{fullShare} m (out0Loc d)))
      ⊢ iprop((bigSep Finset.univ fun c : Fin ((K (F := F)).nCore 0) => (P m tab ix0 ix1).st 0 d c)
          ∗ ((bigSep Finset.univ fun c : Fin ((K (F := F)).nCore 0) => (P m tab ix0 ix1).dn 0 d c)
              -∗ iprop((tabLoc d ↦{fullShare} tab d) ∗ (idx0Loc d ↦{fullShare} ix0 d) ∗ ∃ f, out0Loc d ↦{fullShare} f))) := by
  show iprop((tabLoc d ↦{fullShare} tab d) ∗ (idx0Loc d ↦{fullShare} ix0 d) ∗ (out0Loc d ↦{fullShare} m (out0Loc d)))
    ⊢ iprop((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => out0Loc d ↦[oSetN (13 * (2 * i.val + c.val) + k.val)]{fullShare} m (out0Loc d)))
        ∗ ((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => iprop(∃ f, out0Loc d ↦[oSetN (13 * (2 * i.val + c.val) + k.val)]{fullShare} f)))
          -∗ iprop((tabLoc d ↦{fullShare} tab d) ∗ (idx0Loc d ↦{fullShare} ix0 d) ∗ ∃ f, out0Loc d ↦{fullShare} f)))
  rw [bigSep_cores (fun n => tabLoc d ↦{tq n} tab d) (fun n => idx0Loc d ↦{tq n} ix0 d) (fun n => out0Loc d ↦[oSetN n]{fullShare} m (out0Loc d)),
    bigSep_cores (fun n => tabLoc d ↦{tq n} tab d) (fun n => idx0Loc d ↦{tq n} ix0 d) (fun n => iprop(∃ f, out0Loc d ↦[oSetN n]{fullShare} f)),
    out0_rows (F := F) d (m (out0Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx0Loc d) (S := Finset.univ) (f := ix0 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx0Loc d) (S := Finset.univ) (f := ix0 d) fullShare 32)
    isplitl [Hid]; · iexact Hid
    iexact His
  iapply (out0_join d (m (out0Loc d))); iexact Ho

/-- Call 1's output array, whole, is its 416 row blocks; -/
theorem out1_rows (d : Dev nD) (f : Buf (Elt F) (out1Loc d)) :
    (out1Loc d ↦{fullShare} f : sProp 𝕄) = bigSep Finset.univ fun t : Fin 416 => out1Loc d ↦[oSetN t.val]{fullShare} f := by
  rw [← pointsTo_biUnion Finset.univ (ℓ := out1Loc d) (fun t : Fin 416 => oSetN t.val) oset_disjoint, oset_cover]; try rfl

/-- and its row blocks, each at some contents, join into the array at some contents. -/
theorem out1_join (d : Dev nD) (f₀ : Buf (Elt F) (out1Loc d)) :
    (bigSep Finset.univ fun t : Fin 416 => iprop(∃ f, out1Loc d ↦[oSetN t.val]{fullShare} f)) ⊢ (iprop(∃ f, out1Loc d ↦{fullShare} f) : sProp 𝕄) := by
  haveI : Nonempty (Buf (Elt F) (out1Loc d)) := ⟨f₀⟩
  refine (bigSep_exists_pi Finset.univ (fun (t : Fin 416) (f : Buf (Elt F) (out1Loc d)) => out1Loc d ↦[oSetN t.val]{fullShare} f)).trans ?_
  iintro ⟨%fs, H⟩
  ihave H' := (pointsTo_biUnion_join (ℓ := out1Loc d) (q := fullShare) (Val := Elt F) Finset.univ (fun t : Fin 416 => oSetN t.val) fs (fs 0) oset_disjoint) $$ H
  icases H' with ⟨%g, -, Hg⟩
  rw [oset_cover]
  iexists g; iexact Hg

/-- Call 1 hands each SparseCore its sixteen workers' payloads and each worker its own: nothing to do. -/
theorem vecSplit1 : (K (F := F)).VecSplit' (P m tab ix0 ix1) 1 := by
  intro d c
  show (bigSep Finset.univ fun i : Fin 16 => tileIn1 m tab ix1 d (2 * i.val + c.val))
    ⊢ |={Set.univ}=> iprop((bigSep Finset.univ fun i : Fin 16 => tileIn1 m tab ix1 d (2 * i.val + c.val))
        ∗ ((bigSep Finset.univ fun i : Fin 16 => tileOut1 tab ix1 d (2 * i.val + c.val))
            -∗ bigSep Finset.univ fun i : Fin 16 => tileOut1 tab ix1 d (2 * i.val + c.val)))
  iintro H; imodintro
  isplitl [H]; · iexact H
  iintro H; iexact H

/-- The TensorCore's side of call 1: the table and the call's index array, whole at the full share, give every worker
    its read share (the remainders stay behind the wand), and the call's output array is its 416 row blocks, thirteen
    per worker; what the workers hand back joins into the three arrays again, the output at contents not named. -/
theorem call1_split (d : Dev nD) :
    iprop((tabLoc d ↦{fullShare} tab d) ∗ (idx1Loc d ↦{fullShare} ix1 d) ∗ (out1Loc d ↦{fullShare} m (out1Loc d)))
      ⊢ iprop((bigSep Finset.univ fun c : Fin ((K (F := F)).nCore 1) => (P m tab ix0 ix1).st 1 d c)
          ∗ ((bigSep Finset.univ fun c : Fin ((K (F := F)).nCore 1) => (P m tab ix0 ix1).dn 1 d c)
              -∗ iprop((tabLoc d ↦{fullShare} tab d) ∗ (idx1Loc d ↦{fullShare} ix1 d) ∗ ∃ f, out1Loc d ↦{fullShare} f))) := by
  show iprop((tabLoc d ↦{fullShare} tab d) ∗ (idx1Loc d ↦{fullShare} ix1 d) ∗ (out1Loc d ↦{fullShare} m (out1Loc d)))
    ⊢ iprop((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => out1Loc d ↦[oSetN (13 * (2 * i.val + c.val) + k.val)]{fullShare} m (out1Loc d)))
        ∗ ((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => iprop(∃ f, out1Loc d ↦[oSetN (13 * (2 * i.val + c.val) + k.val)]{fullShare} f)))
          -∗ iprop((tabLoc d ↦{fullShare} tab d) ∗ (idx1Loc d ↦{fullShare} ix1 d) ∗ ∃ f, out1Loc d ↦{fullShare} f)))
  rw [bigSep_cores (fun n => tabLoc d ↦{tq n} tab d) (fun n => idx1Loc d ↦{tq n} ix1 d) (fun n => out1Loc d ↦[oSetN n]{fullShare} m (out1Loc d)),
    bigSep_cores (fun n => tabLoc d ↦{tq n} tab d) (fun n => idx1Loc d ↦{tq n} ix1 d) (fun n => iprop(∃ f, out1Loc d ↦[oSetN n]{fullShare} f)),
    out1_rows (F := F) d (m (out1Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx1Loc d) (S := Finset.univ) (f := ix1 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx1Loc d) (S := Finset.univ) (f := ix1 d) fullShare 32)
    isplitl [Hid]; · iexact Hid
    iexact His
  iapply (out1_join d (m (out1Loc d))); iexact Ho

end Split

end Cert.Proof.KI

end
-- ==== Proof.MainChain.lean ====
/-
  @main of the kernel program as a chain: four stretches of host operations, each followed by a SparseCore call
  or a TensorCore pipeline, in the printed order.
-/
import proofs.«205278_g66915590471714_cont_9to1_m_383_35_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held held_split held_sdiff_result wp_hlo_within)

variable {F : FTy → Type} [FloatOps F]

/-- The host operations before the first gather call: the table reshaped to 26000 rows, the flat indices long_cat + 1000 f, the summed bias, the weights narrowed, the biases as rows, the zero result, and the first half's indices transposed and cut into the workers' lists. -/
abbrev hostOps0 : List (HloOp τ sig (Elt F)) :=
  [ StableHlo.reshape main_arg3 main_v0 rfl shapeCasts_S26x1000x128_S26000x128,
    StableHlo.nullary main_v1 (iotaInDim S26 32 0),
    StableHlo.nullary main_c (constantI S_ 32 1000#32),
    StableHlo.unary main_c main_v2 (broadcastInDim S26 ![] bcast_S_S26 : (⟨S_, .i32⟩ : BufTy).Contents (Elt F) → (⟨S26, .i32⟩ : BufTy).Contents (Elt F)),
    StableHlo.binary main_v1 main_v2 main_v3 (muli : (⟨S26, .i32⟩ : BufTy).Contents (Elt F) → (⟨S26, .i32⟩ : BufTy).Contents (Elt F) → (⟨S26, .i32⟩ : BufTy).Contents (Elt F)),
    StableHlo.unary main_v3 main_v4 (broadcastInDim S1x26 ![1] bcast_S26_S1x26_1 : (⟨S26, .i32⟩ : BufTy).Contents (Elt F) → (⟨S1x26, .i32⟩ : BufTy).Contents (Elt F)),
    StableHlo.unary main_v4 main_v5 (broadcastInDim S4096x26 ![0, 1] bcast_S1x26_S4096x26_0_1 : (⟨S1x26, .i32⟩ : BufTy).Contents (Elt F) → (⟨S4096x26, .i32⟩ : BufTy).Contents (Elt F)),
    StableHlo.binary main_arg1 main_v5 main_v6 (addi : (⟨S4096x26, .i32⟩ : BufTy).Contents (Elt F) → (⟨S4096x26, .i32⟩ : BufTy).Contents (Elt F) → (⟨S4096x26, .i32⟩ : BufTy).Contents (Elt F)),
    StableHlo.binary main_arg5 main_arg7 main_v7 (addf : (⟨S1, .f32⟩ : BufTy).Contents (Elt F) → (⟨S1, .f32⟩ : BufTy).Contents (Elt F) → (⟨S1, .f32⟩ : BufTy).Contents (Elt F)),
    StableHlo.binary main_v7 main_arg15 main_v8 (addf : (⟨S1, .f32⟩ : BufTy).Contents (Elt F) → (⟨S1, .f32⟩ : BufTy).Contents (Elt F) → (⟨S1, .f32⟩ : BufTy).Contents (Elt F)),
    StableHlo.reshape main_v8 main_v9 rfl shapeCasts_S1_S1x1,
    StableHlo.unary main_arg8 main_v10 ((truncf .bf16 · bitsLt_bf16_f32) : (⟨S3484x1024, .f32⟩ : BufTy).Contents (Elt F) → (⟨S3484x1024, .bf16⟩ : BufTy).Contents (Elt F)),
    StableHlo.unary main_arg10 main_v11 ((truncf .bf16 · bitsLt_bf16_f32) : (⟨S1024x512, .f32⟩ : BufTy).Contents (Elt F) → (⟨S1024x512, .bf16⟩ : BufTy).Contents (Elt F)),
    StableHlo.unary main_arg12 main_v12 ((truncf .bf16 · bitsLt_bf16_f32) : (⟨S512x256, .f32⟩ : BufTy).Contents (Elt F) → (⟨S512x256, .bf16⟩ : BufTy).Contents (Elt F)),
    StableHlo.unary main_arg14 main_v13 ((truncf .bf16 · bitsLt_bf16_f32) : (⟨S256x1, .f32⟩ : BufTy).Contents (Elt F) → (⟨S256x1, .bf16⟩ : BufTy).Contents (Elt F)),
    StableHlo.reshape main_arg9 main_v14 rfl shapeCasts_S1024_S1x1024,
    StableHlo.reshape main_arg11 main_v15 rfl shapeCasts_S512_S1x512,
    StableHlo.reshape main_arg13 main_v16 rfl shapeCasts_S256_S1x256,
    StableHlo.nullary main_cst (constant S_ .f32 0x00000000#32),
    StableHlo.unary main_cst main_v17 (broadcastInDim S4096x1 ![] bcast_S_S4096x1 : (⟨S_, .f32⟩ : BufTy).Contents (Elt F) → (⟨S4096x1, .f32⟩ : BufTy).Contents (Elt F)),
    StableHlo.unary main_v6 main_v18 ((extractStridedSlice S2048x26 ![0, 0] · slices_S4096x26_S2048x26_0_0) : (⟨S4096x26, .i32⟩ : BufTy).Contents (Elt F) → (⟨S2048x26, .i32⟩ : BufTy).Contents (Elt F)),
    StableHlo.unary main_v18 main_v19 ((transpose S26x2048 [1, 0] · transposes_S2048x26_S26x2048_1_0) : (⟨S2048x26, .i32⟩ : BufTy).Contents (Elt F) → (⟨S26x2048, .i32⟩ : BufTy).Contents (Elt F)),
    StableHlo.reshape main_v19 main_v20 rfl shapeCasts_S26x2048_S416x1x128,
    StableHlo.reshape main_v20 main_v21 rfl shapeCasts_S416x1x128_S32x13x1x128 ]

/-- Between the first gather call and the first pipeline: the first half's rows of the two dense inputs, and the result buffer's copy. -/
abbrev hostOps1 : List (HloOp τ sig (Elt F)) :=
  [ StableHlo.unary main_arg0 main_v23 ((extractStridedSlice S2048x143 ![0, 0] · slices_S4096x143_S2048x143_0_0) : (⟨S4096x143, .f32⟩ : BufTy).Contents (Elt F) → (⟨S2048x143, .f32⟩ : BufTy).Contents (Elt F)),
    StableHlo.unary main_arg2 main_v24 ((extractStridedSlice S2048x13 ![0, 0] · slices_S4096x13_S2048x13_0_0) : (⟨S4096x13, .f32⟩ : BufTy).Contents (Elt F) → (⟨S2048x13, .f32⟩ : BufTy).Contents (Elt F)),
    StableHlo.unary main_v17 main_v25 id ]

/-- Between the first pipeline and the second gather call: the second half's indices transposed and cut into the workers' lists. -/
abbrev hostOps2 : List (HloOp τ sig (Elt F)) :=
  [ StableHlo.unary main_v6 main_v26 ((extractStridedSlice S2048x26 ![2048, 0] · slices_S4096x26_S2048x26_2048_0) : (⟨S4096x26, .i32⟩ : BufTy).Contents (Elt F) → (⟨S2048x26, .i32⟩ : BufTy).Contents (Elt F)),
    StableHlo.unary main_v26 main_v27 ((transpose S26x2048 [1, 0] · transposes_S2048x26_S26x2048_1_0) : (⟨S2048x26, .i32⟩ : BufTy).Contents (Elt F) → (⟨S26x2048, .i32⟩ : BufTy).Contents (Elt F)),
    StableHlo.reshape main_v27 main_v28 rfl shapeCasts_S26x2048_S416x1x128,
    StableHlo.reshape main_v28 main_v29 rfl shapeCasts_S416x1x128_S32x13x1x128 ]

/-- Between the second gather call and the second pipeline: the second half's rows of the two dense inputs, and the result buffer's copy. -/
abbrev hostOps3 : List (HloOp τ sig (Elt F)) :=
  [ StableHlo.unary main_arg0 main_v31 ((extractStridedSlice S2048x143 ![2048, 0] · slices_S4096x143_S2048x143_2048_0) : (⟨S4096x143, .f32⟩ : BufTy).Contents (Elt F) → (⟨S2048x143, .f32⟩ : BufTy).Contents (Elt F)),
    StableHlo.unary main_arg2 main_v32 ((extractStridedSlice S2048x13 ![2048, 0] · slices_S4096x13_S2048x13_2048_0) : (⟨S4096x13, .f32⟩ : BufTy).Contents (Elt F) → (⟨S2048x13, .f32⟩ : BufTy).Contents (Elt F)),
    StableHlo.unary main_v25 main_v33 id ]

/-- @main is the four stretches with the two gather calls and the two pipelines between them. -/
theorem main_eq (d : Dev nD) :
    main (F := F) d
      = (StableHlo.seq hostOps0 >>= fun _ => sc.run d 0 >>= fun _ =>
         StableHlo.seq hostOps1 >>= fun _ => Prog.lift (.customCall (SparseCore.inner (Pipeline.entry 0)) ()) >>= fun _ =>
         StableHlo.seq hostOps2 >>= fun _ => sc.run d 1 >>= fun _ =>
         StableHlo.seq hostOps3 >>= fun _ => Prog.lift (.customCall (SparseCore.inner (Pipeline.entry 1)) ()) >>= fun _ => pure ⟨⟩) := by
  rfl

end Cert.Proof.KI

end
-- ==== Proof.TileFacts.lean ====
/-
  Facts one vector subcore's task of the gather kernel rests on (both calls): the subcore's own semaphores and
  scratch buffers by name, the output blocks as the program slices them, and the index words as the gathers read them.
-/
import proofs.«205278_g66915590471714_cont_9to1_m_383_35_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 2) (Elt F) ℕ UU ℕ

/-! ## A product over a finite set with a listed part taken out -/

/-- The product over `s` is the chain over a duplicate-free list of members of `s` and the product over the rest. -/
theorem bigSep_take_list {I : Type} [DecidableEq I] (s : Finset I) (l : List I) (hl : l.Nodup) (hs : ∀ a ∈ l, a ∈ s)
    (Φ : I → sProp 𝕄) : bigSep s Φ = iprop(bigSepL l Φ ∗ bigSep (s \ l.toFinset) Φ) := by
  rw [SparseCore.bigSep_sdiff_split' (t := l.toFinset) (fun a ha => hs a (List.mem_toFinset.mp ha)), bigSep_eq_bigSepL l hl]

/-- A product over the thirteen list numbers, one factor after the other. -/
theorem bigSep_F13 (Φ : Fin 13 → sProp 𝕄) :
    bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

/-- Unit-stride rectangles with the same offsets and sizes are the same rectangle. -/
theorem rect_unit_congr {s : Shape} {off off' size size' : Fin s.rank → Nat} (ho : off = off') (hs : size = size')
    (h : ∀ a, off a + size a ≤ s.size a) (h' : ∀ a, off' a + size' a ≤ s.size a) :
    Rect.unit (s := s) off size h = Rect.unit (s := s) off' size' h' := by
  subst ho hs; rfl

/-- Worker `2 s + c`'s block numbers stay below 416. -/
theorem blk_lt (c : Fin 2) (s : Fin 16) (k : Fin 13) : 13 * (2 * s.val + c.val) + k.val < 416 := by
  have := c.isLt; have := s.isLt; have := k.isLt; omega

/-- Block `t` of the gathered-rows array, by offsets: rows from `128 t`, all 128 columns. -/
theorem oblk_eq_unit (t : Fin 416) (off : Fin 2 → Nat) (hoff : off = ![128 * t.val, 0])
    (h : ∀ a, off a + S128x128.size a ≤ S53248x128.size a) :
    Rect.unit (s := S53248x128) off S128x128.size h = oblk t := by
  subst hoff
  refine rect_unit_congr ?_ ?_ _ _
  · funext a
    match a with
    | 0 => simp [Shape.partIx, Shape.partSize]; omega
    | 1 => simp [Shape.partIx, Shape.partSize]
  · funext a
    match a with
    | 0 => simp [Shape.partSize]
    | 1 => simp [Shape.partSize]

/-- Recording one more wait at no call's index keeps "every recorded wait is an old one or at no call's index". -/
theorem waits_insert_none {W W' : Waits sig (HIx 2)} {s : SemLoc sig}
    (h : ∀ p ∈ W', p ∈ W ∨ p.2 = none) : ∀ p ∈ insert (s, (default : HIx 2)) W', p ∈ W ∨ p.2 = none := by
  intro p hp
  rcases Finset.mem_insert.mp hp with hp | hp
  · exact .inr (hp ▸ rfl)
  · exact h p hp

/-! ## Call 0: the subcore's semaphores and scratch buffers -/

/-- The sixteen DMA semaphores the kernel of call 0 uses: the two the gathers alternate on, and one per copy. -/
def semLocs0 : List (SemLoc sig) := [.dma cc0_scratch3.sem, .dma cc0_scratch4.sem, .dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem]
theorem semLocs0_nodup : (semLocs0).Nodup := by decide
theorem semLocs0_scoped : ∀ s ∈ semLocs0, s.isScoped .scVector = true := by decide

/-- A vector subcore's own semaphores at zero: the sixteen of call 0 by name, and the others. -/
theorem ownSems0_V0 (d : Dev nD) (c : Fin τ.nSC) (i : Fin τ.nSub) :
    (ownSems0 (V d c i) : sProp 𝕄)
      = iprop((semVal ((V d c i, .dma cc0_scratch3.sem) : GSem nD τ sig) 0
          ∗ semVal ((V d c i, .dma cc0_scratch4.sem) : GSem nD τ sig) 0
          ∗ semVal ((V d c i, .dma cc0_scoped0.sem) : GSem nD τ sig) 0
          ∗ semVal ((V d c i, .dma cc0_scoped1.sem) : GSem nD τ sig) 0
          ∗ semVal ((V d c i, .dma cc0_scoped2.sem) : GSem nD τ sig) 0
          ∗ semVal ((V d c i, .dma cc0_scoped3.sem) : GSem nD τ sig) 0
          ∗ semVal ((V d c i, .dma cc0_scoped4.sem) : GSem nD τ sig) 0
          ∗ semVal ((V d c i, .dma cc0_scoped5.sem) : GSem nD τ sig) 0
          ∗ semVal ((V d c i, .dma cc0_scoped6.sem) : GSem nD τ sig) 0
          ∗ semVal ((V d c i, .dma cc0_scoped7.sem) : GSem nD τ sig) 0
          ∗ semVal ((V d c i, .dma cc0_scoped8.sem) : GSem nD τ sig) 0
          ∗ semVal ((V d c i, .dma cc0_scoped9.sem) : GSem nD τ sig) 0
          ∗ semVal ((V d c i, .dma cc0_scoped10.sem) : GSem nD τ sig) 0
          ∗ semVal ((V d c i, .dma cc0_scoped11.sem) : GSem nD τ sig) 0
          ∗ semVal ((V d c i, .dma cc0_scoped12.sem) : GSem nD τ sig) 0
          ∗ semVal ((V d c i, .dma cc0_scoped13.sem) : GSem nD τ sig) 0)
          ∗ bigSep (ownCells (V d c i) \ ((semLocs0).map (Prod.mk (V d c i))).toFinset) fun g => semVal g 0) := by
  unfold SparseCore.Cfg.ownSems0
  exact bigSep_take_list (ownCells (V d c i)) ((semLocs0).map (Prod.mk (V d c i)))
    ((semLocs0_nodup).map (Prod.mk_right_injective _))
    (fun a ha => by
      obtain ⟨s, hs, rfl⟩ := List.mem_map.mp ha
      exact mem_ownCells.mpr ⟨rfl, semLocs0_scoped s hs⟩) _

/-- The three scratch buffers of call 0: the index scratch and the two row buffers. -/
def bufRefs0 : List (Ref sig .scVector) := [cc0_scratch0, cc0_scratch1, cc0_scratch2]
theorem bufRefs0_nodup : (bufRefs0).Nodup := by decide

/-- A vector subcore's own buffers: the three of call 0 by name, each at some contents, and the others. -/
theorem ownBufs_V0 (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ ((bufRefs0).map (Proc.scVector c i).devRef).toFinset)
              fun b => iprop(∃ f, ((d, b) : Loc nD τ sig) ↦{fullShare} f)) := by
  unfold SparseCore.Cfg.ownBufs
  exact bigSep_take_list (ownRefs (τ := τ) (.scVector c i)) ((bufRefs0).map (Proc.scVector c i).devRef)
    ((bufRefs0_nodup).map (Proc.devRef_injective _))
    (fun a ha => by
      obtain ⟨b, hb, rfl⟩ := List.mem_map.mp ha
      simp only [bufRefs0, List.mem_cons, List.not_mem_nil, or_false] at hb
      rcases hb with rfl | rfl | rfl <;> exact SparseCore.Cfg.mem_ownRefs_of_owner (p := Proc.scVector c i) rfl) _

/-! ## Call 0: the output blocks as the program slices them -/

/-- The offsets of block `k` of worker `2 (L 1) + (L 0)`: rows from `128 (13 w + k)`. -/
theorem k0_off2_closed : ∀ (L : grid0.Coords) (k : Fin 13),
    k0_off2 L (BitVec.ofNat 32 k.val) = ![128 * (13 * (2 * (L 1).val + (L 0).val) + k.val), 0] := by decide +kernel

/-- The slice of the output the program copies list `k`'s rows to holds exactly block `13 w + k`'s elements. -/
theorem set_oBlk0 (L : grid0.Coords) (k : Fin 13) (v : BitVec 32) (hv : v = BitVec.ofNat 32 k.val)
    (h : ∀ a, k0_off2 L v a + S128x128.size a ≤ S53248x128.size a) :
    ((Memref.whole main_v22_scv).slice (Rect.unit (s := S53248x128) (k0_off2 L v) S128x128.size h) (fun _ => rfl)).view.set
      = oSetN (13 * (2 * (L 1).val + (L 0).val) + k.val) := by
  subst hv
  have ht : 13 * (2 * (L 1).val + (L 0).val) + k.val < 416 := blk_lt (L 0) (L 1) k
  rw [oSetN, dif_pos ht, ← oblk_eq_unit ⟨_, ht⟩ _ (k0_off2_closed L k) h]
  show ((View.whole (main_v22_scv : Ref sig .scVector)).slice _).set = _
  rw [View.set_slice_whole]

/-- Held by the subcore as the program's slice, or by the TensorCore's name for the array as block `13 w + k`: the same. -/
theorem pts_oBlk0 (d : Dev nD) (c : Fin τ.nSC) (i : Fin τ.nSub) (L : grid0.Coords) (k : Fin 13) (v : BitVec 32)
    (hv : v = BitVec.ofNat 32 k.val) (h : ∀ a, k0_off2 L v a + S128x128.size a ≤ S53248x128.size a)
    (f : Buf (Elt F) (out0Loc d)) :
    (((Memref.whole main_v22_scv).slice (Rect.unit (s := S53248x128) (k0_off2 L v) S128x128.size h) (fun _ => rfl)).view.loc (V d c i)
        ↦[((Memref.whole main_v22_scv).slice (Rect.unit (s := S53248x128) (k0_off2 L v) S128x128.size h) (fun _ => rfl)).view.set]{fullShare} f : sProp 𝕄)
      = out0Loc d ↦[oSetN (13 * (2 * (L 1).val + (L 0).val) + k.val)]{fullShare} f := by
  rw [set_oBlk0 L k v hv h]

/-! ## Call 0: the arrays as the subcore's program names them -/

/-- The table as a vector subcore names it is the TensorCore's array. -/
theorem pts_tab0 (d : Dev nD) (c : Fin τ.nSC) (i : Fin τ.nSub) (q : PosShare TreeShare) (f : Buf (Elt F) (tabLoc d)) :
    ((Memref.whole main_v0_scv).view.loc (V d c i) ↦{q} f : sProp 𝕄) = tabLoc d ↦{q} f := rfl
/-- So is the call's index array. -/
theorem pts_idx0 (d : Dev nD) (c : Fin τ.nSC) (i : Fin τ.nSub) (q : PosShare TreeShare) (f : Buf (Elt F) (idx0Loc d)) :
    ((Memref.whole main_v21_scv).view.loc (V d c i) ↦{q} f : sProp 𝕄) = idx0Loc d ↦{q} f := rfl
/-- The subcore's scratch buffers, as the program names them. -/
theorem pts_sI0 (d : Dev nD) (c : Fin τ.nSC) (i : Fin τ.nSub) (f : Buf (Elt F) ((V d c i).loc cc0_scratch0)) :
    ((Memref.whole cc0_scratch0).view.loc (V d c i) ↦{fullShare} f : sProp 𝕄) = (V d c i).loc cc0_scratch0 ↦{fullShare} f := rfl
theorem pts_sA0 (d : Dev nD) (c : Fin τ.nSC) (i : Fin τ.nSub) (f : Buf (Elt F) ((V d c i).loc cc0_scratch1)) :
    ((Memref.whole cc0_scratch1).view.loc (V d c i) ↦{fullShare} f : sProp 𝕄) = (V d c i).loc cc0_scratch1 ↦{fullShare} f := rfl
theorem pts_sB0 (d : Dev nD) (c : Fin τ.nSC) (i : Fin τ.nSub) (f : Buf (Elt F) ((V d c i).loc cc0_scratch2)) :
    ((Memref.whole cc0_scratch2).view.loc (V d c i) ↦{fullShare} f : sProp 𝕄) = (V d c i).loc cc0_scratch2 ↦{fullShare} f := rfl

/-! ## Call 0: the index words as the gathers read them -/

/-- The worker's slice of the call's index array, as the program addresses it for the fetch. -/
abbrev iSliceK0 (L : grid0.Coords) : Memref sig .scVector .hbm S13x1x128 .i32 :=
  ((Memref.whole main_v21_scv).slice (Rect.unit (s := S32x13x1x128) (k0_off1 L) S1x13x1x128.size (k0_off1_inb L)) (fun _ => rfl)).squeeze
    S13x1x128 squeezes_S1x13x1x128_S13x1x128

/-- Every word of any one-row list window of the index scratch, once the fetch has filled the scratch with the
    worker's slice of the index array, is a word of the index array: it names a table row. For every window and every
    earlier contents of the scratch. -/
theorem idx_inb0 (ix0 : (d : Dev nD) → Buf (Elt F) (idx0Loc d))
    (hidx : ∀ (d : Dev nD) (j : S32x13x1x128.Idx), (ix0 d j).toNat < 26000)
    (d : Dev nD) (c : Fin τ.nSC) (i : Fin τ.nSub) (L : grid0.Coords)
    (g : Buf (Elt F) ((Memref.whole cc0_scratch0).view.loc (V d c i)))
    (pay : S13x1x128.Idx → Elt F .i32) (hpay : pay = ReadAs.same.apply (View.read (Elt F) (iSliceK0 L).view (ix0 d)))
    (row : Fin 3 → Nat) (hk : ∀ a, row a + S1x1x128.size a ≤ S13x1x128.size a)
    (hs : ∀ a, (Rect.unit (s := S13x1x128) row S1x1x128.size hk).stride a = 1) (hq : S1x1x128.Squeezes S128) :
    ∀ x, (View.read (Elt F) (((Memref.whole cc0_scratch0).slice (Rect.unit (s := S13x1x128) row S1x1x128.size hk) hs).squeeze S128 hq).view
        (View.write (Elt F) (Memref.whole cc0_scratch0).view g pay Finset.univ) x).toNat
      < S26000x128.size gathers_S26000x128_S128x128.axis := by
  subst hpay; intro x
  rw [View.write_whole_univ, View.read_apply, cast_eq, ReadAs.apply_same, View.read_apply, cast_eq]
  exact hidx d _

/-! ## Call 1: the subcore's semaphores and scratch buffers -/

/-- The sixteen DMA semaphores the kernel of call 1 uses: the two the gathers alternate on, and one per copy. -/
def semLocs1 : List (SemLoc sig) := [.dma cc2_scratch3.sem, .dma cc2_scratch4.sem, .dma cc2_scoped0.sem, .dma cc2_scoped1.sem, .dma cc2_scoped2.sem, .dma cc2_scoped3.sem, .dma cc2_scoped4.sem, .dma cc2_scoped5.sem, .dma cc2_scoped6.sem, .dma cc2_scoped7.sem, .dma cc2_scoped8.sem, .dma cc2_scoped9.sem, .dma cc2_scoped10.sem, .dma cc2_scoped11.sem, .dma cc2_scoped12.sem, .dma cc2_scoped13.sem]
theorem semLocs1_nodup : (semLocs1).Nodup := by decide
theorem semLocs1_scoped : ∀ s ∈ semLocs1, s.isScoped .scVector = true := by decide

/-- A vector subcore's own semaphores at zero: the sixteen of call 1 by name, and the others. -/
theorem ownSems0_V1 (d : Dev nD) (c : Fin τ.nSC) (i : Fin τ.nSub) :
    (ownSems0 (V d c i) : sProp 𝕄)
      = iprop((semVal ((V d c i, .dma cc2_scratch3.sem) : GSem nD τ sig) 0
          ∗ semVal ((V d c i, .dma cc2_scratch4.sem) : GSem nD τ sig) 0
          ∗ semVal ((V d c i, .dma cc2_scoped0.sem) : GSem nD τ sig) 0
          ∗ semVal ((V d c i, .dma cc2_scoped1.sem) : GSem nD τ sig) 0
          ∗ semVal ((V d c i, .dma cc2_scoped2.sem) : GSem nD τ sig) 0
          ∗ semVal ((V d c i, .dma cc2_scoped3.sem) : GSem nD τ sig) 0
          ∗ semVal ((V d c i, .dma cc2_scoped4.sem) : GSem nD τ sig) 0
          ∗ semVal ((V d c i, .dma cc2_scoped5.sem) : GSem nD τ sig) 0
          ∗ semVal ((V d c i, .dma cc2_scoped6.sem) : GSem nD τ sig) 0
          ∗ semVal ((V d c i, .dma cc2_scoped7.sem) : GSem nD τ sig) 0
          ∗ semVal ((V d c i, .dma cc2_scoped8.sem) : GSem nD τ sig) 0
          ∗ semVal ((V d c i, .dma cc2_scoped9.sem) : GSem nD τ sig) 0
          ∗ semVal ((V d c i, .dma cc2_scoped10.sem) : GSem nD τ sig) 0
          ∗ semVal ((V d c i, .dma cc2_scoped11.sem) : GSem nD τ sig) 0
          ∗ semVal ((V d c i, .dma cc2_scoped12.sem) : GSem nD τ sig) 0
          ∗ semVal ((V d c i, .dma cc2_scoped13.sem) : GSem nD τ sig) 0)
          ∗ bigSep (ownCells (V d c i) \ ((semLocs1).map (Prod.mk (V d c i))).toFinset) fun g => semVal g 0) := by
  unfold SparseCore.Cfg.ownSems0
  exact bigSep_take_list (ownCells (V d c i)) ((semLocs1).map (Prod.mk (V d c i)))
    ((semLocs1_nodup).map (Prod.mk_right_injective _))
    (fun a ha => by
      obtain ⟨s, hs, rfl⟩ := List.mem_map.mp ha
      exact mem_ownCells.mpr ⟨rfl, semLocs1_scoped s hs⟩) _

/-- The three scratch buffers of call 1: the index scratch and the two row buffers. -/
def bufRefs1 : List (Ref sig .scVector) := [cc2_scratch0, cc2_scratch1, cc2_scratch2]
theorem bufRefs1_nodup : (bufRefs1).Nodup := by decide

/-- A vector subcore's own buffers: the three of call 1 by name, each at some contents, and the others. -/
theorem ownBufs_V1 (d : Dev nD) (c : Fin τ.nSC) (i : Fin τ.nSub) :
    (ownBufs (V d c i) : sProp 𝕄)
      = iprop(((∃ f, (V d c i).loc cc2_scratch0 ↦{fullShare} f) ∗ (∃ f, (V d c i).loc cc2_scratch1 ↦{fullShare} f)
            ∗ (∃ f, (V d c i).loc cc2_scratch2 ↦{fullShare} f))
          ∗ bigSep (ownRefs (τ := τ) (.scVector c i) \ ((bufRefs1).map (Proc.scVector c i).devRef).toFinset)
              fun b => iprop(∃ f, ((d, b) : Loc nD τ sig) ↦{fullShare} f)) := by
  unfold SparseCore.Cfg.ownBufs
  exact bigSep_take_list (ownRefs (τ := τ) (.scVector c i)) ((bufRefs1).map (Proc.scVector c i).devRef)
    ((bufRefs1_nodup).map (Proc.devRef_injective _))
    (fun a ha => by
      obtain ⟨b, hb, rfl⟩ := List.mem_map.mp ha
      simp only [bufRefs1, List.mem_cons, List.not_mem_nil, or_false] at hb
      rcases hb with rfl | rfl | rfl <;> exact SparseCore.Cfg.mem_ownRefs_of_owner (p := Proc.scVector c i) rfl) _

/-! ## Call 1: the output blocks as the program slices them -/

/-- The offsets of block `k` of worker `2 (L 1) + (L 0)`: rows from `128 (13 w + k)`. -/
theorem k2_off2_closed : ∀ (L : grid2.Coords) (k : Fin 13),
    k2_off2 L (BitVec.ofNat 32 k.val) = ![128 * (13 * (2 * (L 1).val + (L 0).val) + k.val), 0] := by decide +kernel

/-- The slice of the output the program copies list `k`'s rows to holds exactly block `13 w + k`'s elements. -/
theorem set_oBlk1 (L : grid2.Coords) (k : Fin 13) (v : BitVec 32) (hv : v = BitVec.ofNat 32 k.val)
    (h : ∀ a, k2_off2 L v a + S128x128.size a ≤ S53248x128.size a) :
    ((Memref.whole main_v30_scv).slice (Rect.unit (s := S53248x128) (k2_off2 L v) S128x128.size h) (fun _ => rfl)).view.set
      = oSetN (13 * (2 * (L 1).val + (L 0).val) + k.val) := by
  subst hv
  have ht : 13 * (2 * (L 1).val + (L 0).val) + k.val < 416 := blk_lt (L 0) (L 1) k
  rw [oSetN, dif_pos ht, ← oblk_eq_unit ⟨_, ht⟩ _ (k2_off2_closed L k) h]
  show ((View.whole (main_v30_scv : Ref sig .scVector)).slice _).set = _
  rw [View.set_slice_whole]

/-- Held by the subcore as the program's slice, or by the TensorCore's name for the array as block `13 w + k`: the same. -/
theorem pts_oBlk1 (d : Dev nD) (c : Fin τ.nSC) (i : Fin τ.nSub) (L : grid2.Coords) (k : Fin 13) (v : BitVec 32)
    (hv : v = BitVec.ofNat 32 k.val) (h : ∀ a, k2_off2 L v a + S128x128.size a ≤ S53248x128.size a)
    (f : Buf (Elt F) (out1Loc d)) :
    (((Memref.whole main_v30_scv).slice (Rect.unit (s := S53248x128) (k2_off2 L v) S128x128.size h) (fun _ => rfl)).view.loc (V d c i)
        ↦[((Memref.whole main_v30_scv).slice (Rect.unit (s := S53248x128) (k2_off2 L v) S128x128.size h) (fun _ => rfl)).view.set]{fullShare} f : sProp 𝕄)
      = out1Loc d ↦[oSetN (13 * (2 * (L 1).val + (L 0).val) + k.val)]{fullShare} f := by
  rw [set_oBlk1 L k v hv h]

/-! ## Call 1: the arrays as the subcore's program names them -/

/-- The table as a vector subcore names it is the TensorCore's array. -/
theorem pts_tab1 (d : Dev nD) (c : Fin τ.nSC) (i : Fin τ.nSub) (q : PosShare TreeShare) (f : Buf (Elt F) (tabLoc d)) :
    ((Memref.whole main_v0_scv).view.loc (V d c i) ↦{q} f : sProp 𝕄) = tabLoc d ↦{q} f := rfl
/-- So is the call's index array. -/
theorem pts_idx1 (d : Dev nD) (c : Fin τ.nSC) (i : Fin τ.nSub) (q : PosShare TreeShare) (f : Buf (Elt F) (idx1Loc d)) :
    ((Memref.whole main_v29_scv).view.loc (V d c i) ↦{q} f : sProp 𝕄) = idx1Loc d ↦{q} f := rfl
/-- The subcore's scratch buffers, as the program names them. -/
theorem pts_sI1 (d : Dev nD) (c : Fin τ.nSC) (i : Fin τ.nSub) (f : Buf (Elt F) ((V d c i).loc cc2_scratch0)) :
    ((Memref.whole cc2_scratch0).view.loc (V d c i) ↦{fullShare} f : sProp 𝕄) = (V d c i).loc cc2_scratch0 ↦{fullShare} f := rfl
theorem pts_sA1 (d : Dev nD) (c : Fin τ.nSC) (i : Fin τ.nSub) (f : Buf (Elt F) ((V d c i).loc cc2_scratch1)) :
    ((Memref.whole cc2_scratch1).view.loc (V d c i) ↦{fullShare} f : sProp 𝕄) = (V d c i).loc cc2_scratch1 ↦{fullShare} f := rfl
theorem pts_sB1 (d : Dev nD) (c : Fin τ.nSC) (i : Fin τ.nSub) (f : Buf (Elt F) ((V d c i).loc cc2_scratch2)) :
    ((Memref.whole cc2_scratch2).view.loc (V d c i) ↦{fullShare} f : sProp 𝕄) = (V d c i).loc cc2_scratch2 ↦{fullShare} f := rfl

/-! ## Call 1: the index words as the gathers read them -/

/-- The worker's slice of the call's index array, as the program addresses it for the fetch. -/
abbrev iSliceK1 (L : grid2.Coords) : Memref sig .scVector .hbm S13x1x128 .i32 :=
  ((Memref.whole main_v29_scv).slice (Rect.unit (s := S32x13x1x128) (k2_off1 L) S1x13x1x128.size (k2_off1_inb L)) (fun _ => rfl)).squeeze
    S13x1x128 squeezes_S1x13x1x128_S13x1x128

/-- Every word of any one-row list window of the index scratch, once the fetch has filled the scratch with the
    worker's slice of the index array, is a word of the index array: it names a table row. For every window and every
    earlier contents of the scratch. -/
theorem idx_inb1 (ix1 : (d : Dev nD) → Buf (Elt F) (idx1Loc d))
    (hidx : ∀ (d : Dev nD) (j : S32x13x1x128.Idx), (ix1 d j).toNat < 26000)
    (d : Dev nD) (c : Fin τ.nSC) (i : Fin τ.nSub) (L : grid2.Coords)
    (g : Buf (Elt F) ((Memref.whole cc2_scratch0).view.loc (V d c i)))
    (pay : S13x1x128.Idx → Elt F .i32) (hpay : pay = ReadAs.same.apply (View.read (Elt F) (iSliceK1 L).view (ix1 d)))
    (row : Fin 3 → Nat) (hk : ∀ a, row a + S1x1x128.size a ≤ S13x1x128.size a)
    (hs : ∀ a, (Rect.unit (s := S13x1x128) row S1x1x128.size hk).stride a = 1) (hq : S1x1x128.Squeezes S128) :
    ∀ x, (View.read (Elt F) (((Memref.whole cc2_scratch0).slice (Rect.unit (s := S13x1x128) row S1x1x128.size hk) hs).squeeze S128 hq).view
        (View.write (Elt F) (Memref.whole cc2_scratch0).view g pay Finset.univ) x).toNat
      < S26000x128.size gathers_S26000x128_S128x128.axis := by
  subst hpay; intro x
  rw [View.write_whole_univ, View.read_apply, cast_eq, ReadAs.apply_same, View.read_apply, cast_eq]
  exact hidx d _

end Cert.Proof.KI

end
-- ==== Proof.Tile.lean ====
/-
  One vector subcore's task of the gather kernel (both calls).
-/
import proofs.«205278_g66915590471714_cont_9to1_m_383_35_alg».proof.Proof.TileFacts

set_option maxHeartbeats 4000000
set_option maxRecDepth 65536

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

section Tile

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))
  (d : Dev nD)

/-- Every word of call 0's index array names a row of the 26000-row table. -/
def IdxOK0 : Prop := ∀ (d : Dev nD) (j : S32x13x1x128.Idx), (ix0 d j).toNat < 26000

abbrev cV0 (L : grid0.Coords) : Fin τ.nSC := (L 0).castLE hcore0
abbrev jV0 (L : grid0.Coords) : Fin τ.nSub := (L 1).castLE hsub0

/-- The gather kernel of call 0 as worker `2 (L 1) + (L 0)`'s task: the worker's slice of the index array is fetched
    into its index scratch; thirteen times a list of 128 table rows is gathered into one of two row buffers (the next
    gather started before the current buffer is written out, on the other buffer and the other semaphore: one gather
    per semaphore at a time, and a buffer is written out only after its gather has been waited for) and the buffer is
    copied to block `13 w + k` of the output.  Every list entry names a table row (`IdxOK0`), so no gather is
    abandoned; the table and index shares come back as they were, the thirteen blocks at contents not named. -/
theorem tile_body0 (hF : (K (F := F)).Facts) (hidx : IdxOK0 ix0) (L : grid0.Coords)
    (O : CellTallies nD τ sig (HIx 2)) (W : Waits sig (HIx 2)) (hO : ∀ g, O g none = 0) :
    iprop(levAts (K (F := F)).L (K (F := F)).lev ∗ emp
        ∗ tileIn0 m tab ix0 d (2 * (L 1).val + (L 0).val)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__sc_gather_body L (Memref.whole main_v0_scv) (Memref.isWhole_whole _) (Memref.whole main_v21_scv) (Memref.isWhole_whole _)
            (Memref.whole main_v22_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(tileOut0 tab ix0 d (2 * (L 1).val + (L 0).val)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  simp only [cc0__sc_gather_body_eq_skeleton]; unfold cc0__sc_gather_body_skel
  rw [(K (F := F)).scopedBufs_V hF d (cV0 L) (jV0 L), SparseCore.Cfg.scopedSems0_V (Val := Elt F) d (cV0 L) (jV0 L),
    ownSems0_V0, ownBufs_V0]
  unfold tileIn0
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV0 L) (jV0 L)) (none : HIx 2) O from
    (K (F := F)).mayWaits_none (thr := V d (cV0 L) (jV0 L)) hO) $$ Hlv
  -- every held array under the name the program gives it
  ihave Htab' := (Entails.of_eq (pts_tab0 (F := F) d (cV0 L) (jV0 L) _ _).symm) $$ Htab
  ihave Hidx' := (Entails.of_eq (pts_idx0 (F := F) d (cV0 L) (jV0 L) _ _).symm) $$ Hidx
  ihave HsI' := (Entails.of_eq (pts_sI0 (F := F) d (cV0 L) (jV0 L) _).symm) $$ HsI
  ihave HsA' := (Entails.of_eq (pts_sA0 (F := F) d (cV0 L) (jV0 L) _).symm) $$ HsA
  ihave HsB' := (Entails.of_eq (pts_sB0 (F := F) d (cV0 L) (jV0 L) _).symm) $$ HsB
  ihave Ho0' := (Entails.of_eq (pts_oBlk0 (F := F) d (cV0 L) (jV0 L) L 0 0#32 rfl (k0_off2_inb L 0) _).symm) $$ Ho0
  ihave Ho1' := (Entails.of_eq (pts_oBlk0 (F := F) d (cV0 L) (jV0 L) L 1 1#32 rfl (k0_off2_inb L 1) _).symm) $$ Ho1
  ihave Ho2' := (Entails.of_eq (pts_oBlk0 (F := F) d (cV0 L) (jV0 L) L 2 2#32 rfl (k0_off2_inb L 2) _).symm) $$ Ho2
  ihave Ho3' := (Entails.of_eq (pts_oBlk0 (F := F) d (cV0 L) (jV0 L) L 3 3#32 rfl (k0_off2_inb L 3) _).symm) $$ Ho3
  ihave Ho4' := (Entails.of_eq (pts_oBlk0 (F := F) d (cV0 L) (jV0 L) L 4 4#32 rfl (k0_off2_inb L 4) _).symm) $$ Ho4
  ihave Ho5' := (Entails.of_eq (pts_oBlk0 (F := F) d (cV0 L) (jV0 L) L 5 5#32 rfl (k0_off2_inb L 5) _).symm) $$ Ho5
  ihave Ho6' := (Entails.of_eq (pts_oBlk0 (F := F) d (cV0 L) (jV0 L) L 6 6#32 rfl (k0_off2_inb L 6) _).symm) $$ Ho6
  ihave Ho7' := (Entails.of_eq (pts_oBlk0 (F := F) d (cV0 L) (jV0 L) L 7 7#32 rfl (k0_off2_inb L 7) _).symm) $$ Ho7
  ihave Ho8' := (Entails.of_eq (pts_oBlk0 (F := F) d (cV0 L) (jV0 L) L 8 8#32 rfl (k0_off2_inb L 8) _).symm) $$ Ho8
  ihave Ho9' := (Entails.of_eq (pts_oBlk0 (F := F) d (cV0 L) (jV0 L) L 9 9#32 rfl (k0_off2_inb L 9) _).symm) $$ Ho9
  ihave Ho10' := (Entails.of_eq (pts_oBlk0 (F := F) d (cV0 L) (jV0 L) L 10 10#32 rfl (k0_off2_inb L 10) _).symm) $$ Ho10
  ihave Ho11' := (Entails.of_eq (pts_oBlk0 (F := F) d (cV0 L) (jV0 L) L 11 11#32 rfl (k0_off2_inb L 11) _).symm) $$ Ho11
  ihave Ho12' := (Entails.of_eq (pts_oBlk0 (F := F) d (cV0 L) (jV0 L) L 12 12#32 rfl (k0_off2_inb L 12) _).symm) $$ Ho12
  -- the index fetch and its wait
  sl_exec
  -- every list the gathers read is a row of what the fetch landed: words of the index array, each naming a table row
  have hin := fun g row hk hs hq => idx_inb0 ix0 hidx d (cV0 L) (jV0 L) L g (tile_body0.sl.dma0 ix0 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOut0
    rw [bigSep_F13]
    isplitl [Htab']; · iexact Htab'
    isplitl [Hidx']; · iexact Hidx'
    isplitl [Ho0']; · iexists _; iapply (Entails.of_eq (pts_oBlk0 (F := F) d (cV0 L) (jV0 L) L 0 0#32 rfl (k0_off2_inb L 0) _)); iexact Ho0'
    isplitl [Ho1']; · iexists _; iapply (Entails.of_eq (pts_oBlk0 (F := F) d (cV0 L) (jV0 L) L 1 1#32 rfl (k0_off2_inb L 1) _)); iexact Ho1'
    isplitl [Ho2']; · iexists _; iapply (Entails.of_eq (pts_oBlk0 (F := F) d (cV0 L) (jV0 L) L 2 2#32 rfl (k0_off2_inb L 2) _)); iexact Ho2'
    isplitl [Ho3']; · iexists _; iapply (Entails.of_eq (pts_oBlk0 (F := F) d (cV0 L) (jV0 L) L 3 3#32 rfl (k0_off2_inb L 3) _)); iexact Ho3'
    isplitl [Ho4']; · iexists _; iapply (Entails.of_eq (pts_oBlk0 (F := F) d (cV0 L) (jV0 L) L 4 4#32 rfl (k0_off2_inb L 4) _)); iexact Ho4'
    isplitl [Ho5']; · iexists _; iapply (Entails.of_eq (pts_oBlk0 (F := F) d (cV0 L) (jV0 L) L 5 5#32 rfl (k0_off2_inb L 5) _)); iexact Ho5'
    isplitl [Ho6']; · iexists _; iapply (Entails.of_eq (pts_oBlk0 (F := F) d (cV0 L) (jV0 L) L 6 6#32 rfl (k0_off2_inb L 6) _)); iexact Ho6'
    isplitl [Ho7']; · iexists _; iapply (Entails.of_eq (pts_oBlk0 (F := F) d (cV0 L) (jV0 L) L 7 7#32 rfl (k0_off2_inb L 7) _)); iexact Ho7'
    isplitl [Ho8']; · iexists _; iapply (Entails.of_eq (pts_oBlk0 (F := F) d (cV0 L) (jV0 L) L 8 8#32 rfl (k0_off2_inb L 8) _)); iexact Ho8'
    isplitl [Ho9']; · iexists _; iapply (Entails.of_eq (pts_oBlk0 (F := F) d (cV0 L) (jV0 L) L 9 9#32 rfl (k0_off2_inb L 9) _)); iexact Ho9'
    isplitl [Ho10']; · iexists _; iapply (Entails.of_eq (pts_oBlk0 (F := F) d (cV0 L) (jV0 L) L 10 10#32 rfl (k0_off2_inb L 10) _)); iexact Ho10'
    isplitl [Ho11']; · iexists _; iapply (Entails.of_eq (pts_oBlk0 (F := F) d (cV0 L) (jV0 L) L 11 11#32 rfl (k0_off2_inb L 11) _)); iexact Ho11'
    iexists _; iapply (Entails.of_eq (pts_oBlk0 (F := F) d (cV0 L) (jV0 L) L 12 12#32 rfl (k0_off2_inb L 12) _)); iexact Ho12'
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

/-- Every word of call 1's index array names a row of the 26000-row table. -/
def IdxOK1 : Prop := ∀ (d : Dev nD) (j : S32x13x1x128.Idx), (ix1 d j).toNat < 26000

abbrev cV1 (L : grid2.Coords) : Fin τ.nSC := (L 0).castLE hcore2
abbrev jV1 (L : grid2.Coords) : Fin τ.nSub := (L 1).castLE hsub2

/-- The gather kernel of call 1 as worker `2 (L 1) + (L 0)`'s task: the worker's slice of the index array is fetched
    into its index scratch; thirteen times a list of 128 table rows is gathered into one of two row buffers (the next
    gather started before the current buffer is written out, on the other buffer and the other semaphore: one gather
    per semaphore at a time, and a buffer is written out only after its gather has been waited for) and the buffer is
    copied to block `13 w + k` of the output.  Every list entry names a table row (`IdxOK1`), so no gather is
    abandoned; the table and index shares come back as they were, the thirteen blocks at contents not named. -/
theorem tile_body1 (hF : (K (F := F)).Facts) (hidx : IdxOK1 ix1) (L : grid2.Coords)
    (O : CellTallies nD τ sig (HIx 2)) (W : Waits sig (HIx 2)) (hO : ∀ g, O g none = 0) :
    iprop(levAts (K (F := F)).L (K (F := F)).lev ∗ emp
        ∗ tileIn1 m tab ix1 d (2 * (L 1).val + (L 0).val)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc2__sc_gather_body L (Memref.whole main_v0_scv) (Memref.isWhole_whole _) (Memref.whole main_v29_scv) (Memref.isWhole_whole _)
            (Memref.whole main_v30_scv) (Memref.isWhole_whole _) (Memref.whole cc2_scratch0) (Memref.isWhole_whole _)
            (Memref.whole cc2_scratch1) (Memref.isWhole_whole _) (Memref.whole cc2_scratch2) (Memref.isWhole_whole _)
            cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13)
          fun _ => iprop(tileOut1 tab ix1 d (2 * (L 1).val + (L 0).val)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  simp only [cc2__sc_gather_body_eq_skeleton]; unfold cc2__sc_gather_body_skel
  rw [(K (F := F)).scopedBufs_V hF d (cV1 L) (jV1 L), SparseCore.Cfg.scopedSems0_V (Val := Elt F) d (cV1 L) (jV1 L),
    ownSems0_V1, ownBufs_V1]
  unfold tileIn1
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV1 L) (jV1 L)) (none : HIx 2) O from
    (K (F := F)).mayWaits_none (thr := V d (cV1 L) (jV1 L)) hO) $$ Hlv
  -- every held array under the name the program gives it
  ihave Htab' := (Entails.of_eq (pts_tab1 (F := F) d (cV1 L) (jV1 L) _ _).symm) $$ Htab
  ihave Hidx' := (Entails.of_eq (pts_idx1 (F := F) d (cV1 L) (jV1 L) _ _).symm) $$ Hidx
  ihave HsI' := (Entails.of_eq (pts_sI1 (F := F) d (cV1 L) (jV1 L) _).symm) $$ HsI
  ihave HsA' := (Entails.of_eq (pts_sA1 (F := F) d (cV1 L) (jV1 L) _).symm) $$ HsA
  ihave HsB' := (Entails.of_eq (pts_sB1 (F := F) d (cV1 L) (jV1 L) _).symm) $$ HsB
  ihave Ho0' := (Entails.of_eq (pts_oBlk1 (F := F) d (cV1 L) (jV1 L) L 0 0#32 rfl (k2_off2_inb L 0) _).symm) $$ Ho0
  ihave Ho1' := (Entails.of_eq (pts_oBlk1 (F := F) d (cV1 L) (jV1 L) L 1 1#32 rfl (k2_off2_inb L 1) _).symm) $$ Ho1
  ihave Ho2' := (Entails.of_eq (pts_oBlk1 (F := F) d (cV1 L) (jV1 L) L 2 2#32 rfl (k2_off2_inb L 2) _).symm) $$ Ho2
  ihave Ho3' := (Entails.of_eq (pts_oBlk1 (F := F) d (cV1 L) (jV1 L) L 3 3#32 rfl (k2_off2_inb L 3) _).symm) $$ Ho3
  ihave Ho4' := (Entails.of_eq (pts_oBlk1 (F := F) d (cV1 L) (jV1 L) L 4 4#32 rfl (k2_off2_inb L 4) _).symm) $$ Ho4
  ihave Ho5' := (Entails.of_eq (pts_oBlk1 (F := F) d (cV1 L) (jV1 L) L 5 5#32 rfl (k2_off2_inb L 5) _).symm) $$ Ho5
  ihave Ho6' := (Entails.of_eq (pts_oBlk1 (F := F) d (cV1 L) (jV1 L) L 6 6#32 rfl (k2_off2_inb L 6) _).symm) $$ Ho6
  ihave Ho7' := (Entails.of_eq (pts_oBlk1 (F := F) d (cV1 L) (jV1 L) L 7 7#32 rfl (k2_off2_inb L 7) _).symm) $$ Ho7
  ihave Ho8' := (Entails.of_eq (pts_oBlk1 (F := F) d (cV1 L) (jV1 L) L 8 8#32 rfl (k2_off2_inb L 8) _).symm) $$ Ho8
  ihave Ho9' := (Entails.of_eq (pts_oBlk1 (F := F) d (cV1 L) (jV1 L) L 9 9#32 rfl (k2_off2_inb L 9) _).symm) $$ Ho9
  ihave Ho10' := (Entails.of_eq (pts_oBlk1 (F := F) d (cV1 L) (jV1 L) L 10 10#32 rfl (k2_off2_inb L 10) _).symm) $$ Ho10
  ihave Ho11' := (Entails.of_eq (pts_oBlk1 (F := F) d (cV1 L) (jV1 L) L 11 11#32 rfl (k2_off2_inb L 11) _).symm) $$ Ho11
  ihave Ho12' := (Entails.of_eq (pts_oBlk1 (F := F) d (cV1 L) (jV1 L) L 12 12#32 rfl (k2_off2_inb L 12) _).symm) $$ Ho12
  -- the index fetch and its wait
  sl_exec
  -- every list the gathers read is a row of what the fetch landed: words of the index array, each naming a table row
  have hin := fun g row hk hs hq => idx_inb1 ix1 hidx d (cV1 L) (jV1 L) L g (tile_body1.sl.dma0 ix1 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOut1
    rw [bigSep_F13]
    isplitl [Htab']; · iexact Htab'
    isplitl [Hidx']; · iexact Hidx'
    isplitl [Ho0']; · iexists _; iapply (Entails.of_eq (pts_oBlk1 (F := F) d (cV1 L) (jV1 L) L 0 0#32 rfl (k2_off2_inb L 0) _)); iexact Ho0'
    isplitl [Ho1']; · iexists _; iapply (Entails.of_eq (pts_oBlk1 (F := F) d (cV1 L) (jV1 L) L 1 1#32 rfl (k2_off2_inb L 1) _)); iexact Ho1'
    isplitl [Ho2']; · iexists _; iapply (Entails.of_eq (pts_oBlk1 (F := F) d (cV1 L) (jV1 L) L 2 2#32 rfl (k2_off2_inb L 2) _)); iexact Ho2'
    isplitl [Ho3']; · iexists _; iapply (Entails.of_eq (pts_oBlk1 (F := F) d (cV1 L) (jV1 L) L 3 3#32 rfl (k2_off2_inb L 3) _)); iexact Ho3'
    isplitl [Ho4']; · iexists _; iapply (Entails.of_eq (pts_oBlk1 (F := F) d (cV1 L) (jV1 L) L 4 4#32 rfl (k2_off2_inb L 4) _)); iexact Ho4'
    isplitl [Ho5']; · iexists _; iapply (Entails.of_eq (pts_oBlk1 (F := F) d (cV1 L) (jV1 L) L 5 5#32 rfl (k2_off2_inb L 5) _)); iexact Ho5'
    isplitl [Ho6']; · iexists _; iapply (Entails.of_eq (pts_oBlk1 (F := F) d (cV1 L) (jV1 L) L 6 6#32 rfl (k2_off2_inb L 6) _)); iexact Ho6'
    isplitl [Ho7']; · iexists _; iapply (Entails.of_eq (pts_oBlk1 (F := F) d (cV1 L) (jV1 L) L 7 7#32 rfl (k2_off2_inb L 7) _)); iexact Ho7'
    isplitl [Ho8']; · iexists _; iapply (Entails.of_eq (pts_oBlk1 (F := F) d (cV1 L) (jV1 L) L 8 8#32 rfl (k2_off2_inb L 8) _)); iexact Ho8'
    isplitl [Ho9']; · iexists _; iapply (Entails.of_eq (pts_oBlk1 (F := F) d (cV1 L) (jV1 L) L 9 9#32 rfl (k2_off2_inb L 9) _)); iexact Ho9'
    isplitl [Ho10']; · iexists _; iapply (Entails.of_eq (pts_oBlk1 (F := F) d (cV1 L) (jV1 L) L 10 10#32 rfl (k2_off2_inb L 10) _)); iexact Ho10'
    isplitl [Ho11']; · iexists _; iapply (Entails.of_eq (pts_oBlk1 (F := F) d (cV1 L) (jV1 L) L 11 11#32 rfl (k2_off2_inb L 11) _)); iexact Ho11'
    iexists _; iapply (Entails.of_eq (pts_oBlk1 (F := F) d (cV1 L) (jV1 L) L 12 12#32 rfl (k2_off2_inb L 12) _)); iexact Ho12'
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

end Tile

end Cert.Proof.KI

end
-- ==== Proof.IdxFacts.lean ====
/-
  The index arrays @main hands the gather calls, and that every entry names a row of the table.
-/
import proofs.«205278_g66915590471714_cont_9to1_m_383_35_alg».proof.Proof.MainChain
import proofs.«205278_g66915590471714_cont_9to1_m_383_35_alg».proof.Proof.Tile
import proofs.«205278_g66915590471714_cont_9to1_m_383_35_alg».proof.Proof.Gen.Pre_input_domain
import Idealize.ShloMosaic.Lib.ReduceAll
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

/-- The precondition, of a memory of the kernel program at any float instance: every float input finite and
    0 ≤ long_cat ≤ 999 (the printed predicate all ones on every device). -/
def PreOK (m : (ℓ : Loc nD τ sig) → Buf (Elt F) ℓ) : Prop :=
  ∀ c : Dev nD,
    (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = (fun _ => 1#1)

/-- The table as call 0 and call 1 read it: what the first host stretch leaves in the reshaped-table buffer. -/
def tabC (m : (ℓ : Loc nD τ sig) → Buf (Elt F) ℓ) (d : Dev nD) : Buf (Elt F) (tabLoc d) :=
  StableHlo.after hostOps0 (StableHlo.launchContents m d) (Proc.devRef .tc main_v0)
/-- Call 0's index array: what the first host stretch leaves in it. -/
def ix0C (m : (ℓ : Loc nD τ sig) → Buf (Elt F) ℓ) (d : Dev nD) : Buf (Elt F) (idx0Loc d) :=
  StableHlo.after hostOps0 (StableHlo.launchContents m d) (Proc.devRef .tc main_v21)
/-- Call 1's index array: what the third host stretch computes from the flat indices the first one left. -/
def ix1C (m : (ℓ : Loc nD τ sig) → Buf (Elt F) ℓ) (d : Dev nD) : Buf (Elt F) (idx1Loc d) :=
  StableHlo.after hostOps2 (StableHlo.after hostOps0 (StableHlo.launchContents m d)) (Proc.devRef .tc main_v29)

/-! ## What the precondition says of the categorical input -/

instance : Subsingleton S_.Idx := ⟨fun a b => funext fun d => d.elim0⟩

/-- The precondition's last conjunct, entry by entry: every entry of the categorical input lies in [0, 999] as a signed
    word. -/
theorem pre_arg1 (m : (ℓ : Loc nD τ sig) → Buf (Elt F) ℓ) (hpre : PreOK m) (c : Dev nD) (x : S4096x26.Idx) :
    IntOp.cmpi .sge (m ((c.tc : Thread nD τ).loc main_arg1) x) 0#32 = 1#1
      ∧ IntOp.cmpi .sle (m ((c.tc : Thread nD τ).loc main_arg1) x) 999#32 = 1#1 := by
  have h := congrFun (hpre c) ValueIdx.ix0
  have h2 : IntOp.andi _ _ = 1#1 := h
  obtain ⟨-, h79⟩ := IntOp.andi_eq_one.mp h2
  have h78 := Host.reduce_andi_all _ _ _ _ _ h79 x
  exact IntOp.andi_eq_one.mp h78

/-- A word in [0, 999] plus 1000 f, for a field f < 26, does not wrap and stays below 26000. -/
theorem word_lt (a : BitVec 32) (f : Fin 26) (h0 : IntOp.cmpi .sge a 0#32 = 1#1) (h1 : IntOp.cmpi .sle a 999#32 = 1#1) :
    (IntOp.addi a (IntOp.muli (BitVec.ofNat 32 f.val) 1000#32)).toNat < 26000 := by
  have hb : ∀ b : Bool, BitVec.ofBool b = 1#1 → b = true := by decide
  have h0' : (0#32).toInt ≤ a.toInt := by simpa [BitVec.sle] using hb _ h0
  have h1' : a.toInt ≤ (999#32).toInt := by simpa [BitVec.sle] using hb _ h1
  have e0 : (0#32).toInt = 0 := by decide
  have e1 : (999#32).toInt = 999 := by decide
  have ea := BitVec.toInt_eq_toNat_cond a
  have hf := f.isLt
  have ha : a.toNat ≤ 999 := by
    rw [e0] at h0'; rw [e1] at h1'
    split at ea <;> omega
  show (a + BitVec.ofNat 32 f.val * 1000#32).toNat < 26000
  rw [BitVec.toNat_add, BitVec.toNat_mul, BitVec.toNat_ofNat]
  have e2 : f.val % 2 ^ 32 = f.val := Nat.mod_eq_of_lt (by omega)
  have e3 : f.val * 1000 % 2 ^ 32 = f.val * 1000 := Nat.mod_eq_of_lt (by omega)
  have e4 : (a.toNat + f.val * 1000) % 2 ^ 32 = a.toNat + f.val * 1000 := Nat.mod_eq_of_lt (by omega)
  show (a.toNat + f.val % 2 ^ 32 * 1000 % 2 ^ 32) % 2 ^ 32 < 26000
  rw [e2, e3, e4]
  omega

/-! ## The flat indices and the two calls' lists -/

/-- The flat indices `long_cat + 1000 f`: what the first host stretch leaves in their buffer. -/
def flat (m : (ℓ : Loc nD τ sig) → Buf (Elt F) ℓ) (d : Dev nD) : IVec S4096x26 32 :=
  addi (StableHlo.launchContents m d (Proc.devRef .tc main_arg1))
    (broadcastInDim S4096x26 ![0, 1] bcast_S1x26_S4096x26_0_1
      (broadcastInDim S1x26 ![1] bcast_S26_S1x26_1
        (muli (iotaInDim S26 32 0) (broadcastInDim S26 ![] bcast_S_S26 (constantI S_ 32 1000#32)))))

/-- Under the precondition every flat index names a table row. -/
theorem flat_lt (m : (ℓ : Loc nD τ sig) → Buf (Elt F) ℓ) (hpre : PreOK m) (d : Dev nD) (x : S4096x26.Idx) :
    (flat m d x).toNat < 26000 := by
  obtain ⟨h0, h1⟩ := pre_arg1 m hpre d x
  show (IntOp.addi (m ((d.tc : Thread nD τ).loc main_arg1) x) (IntOp.muli (BitVec.ofNat 32 (x 1).val) 1000#32)).toNat < 26000
  exact word_lt _ ⟨(x 1).val, (x 1).isLt⟩ h0 h1

/-- Rows cut from an array, transposed and cut into lists: every entry is an entry of the array. -/
theorem lists_lt (g : IVec S4096x26 32) (hg : ∀ x, (g x).toNat < 26000) (off : Fin 2 → Nat) (hs : S4096x26.Slices off S2048x26)
    (j : S32x13x1x128.Idx) :
    ((shapeCast S32x13x1x128 (shapeCast S416x1x128 (transpose S26x2048 [1, 0] (extractStridedSlice S2048x26 off g hs)
        transposes_S2048x26_S26x2048_1_0) shapeCasts_S26x2048_S416x1x128) shapeCasts_S416x1x128_S32x13x1x128) j).toNat < 26000 :=
  hg _

/-- Call 0's index array is the first 2048 rows of the flat indices, transposed and cut into lists. -/
theorem ix0C_eq (m : (ℓ : Loc nD τ sig) → Buf (Elt F) ℓ) (d : Dev nD) :
    ix0C m d = shapeCast S32x13x1x128 (shapeCast S416x1x128 (transpose S26x2048 [1, 0]
      (extractStridedSlice S2048x26 ![0, 0] (flat m d) slices_S4096x26_S2048x26_0_0)
        transposes_S2048x26_S26x2048_1_0) shapeCasts_S26x2048_S416x1x128) shapeCasts_S416x1x128_S32x13x1x128 := by
  unfold ix0C
  dsimp only [hostOps0]
  after_results
  rfl

/-- Call 1's is the last 2048 rows, likewise. -/
theorem ix1C_eq (m : (ℓ : Loc nD τ sig) → Buf (Elt F) ℓ) (d : Dev nD) :
    ix1C m d = shapeCast S32x13x1x128 (shapeCast S416x1x128 (transpose S26x2048 [1, 0]
      (extractStridedSlice S2048x26 ![2048, 0] (flat m d) slices_S4096x26_S2048x26_2048_0)
        transposes_S2048x26_S26x2048_1_0) shapeCasts_S26x2048_S416x1x128) shapeCasts_S416x1x128_S32x13x1x128 := by
  unfold ix1C
  dsimp only [hostOps2, hostOps0]
  after_results
  rfl

/-- The third host stretch reads only the flat indices: from any contents that agree on them it leaves call 1's index
    array the same. -/
theorem ix1_congr (V V' : Valuation τ sig (Elt F)) (h : V (Proc.devRef .tc main_v6) = V' (Proc.devRef .tc main_v6)) :
    StableHlo.after hostOps2 V (Proc.devRef .tc main_v29) = StableHlo.after hostOps2 V' (Proc.devRef .tc main_v29) := by
  dsimp only [hostOps2]
  after_results
  rw [h]

/-- Under the precondition every entry of call 0's index array is long_cat + 1000 f for a field f < 26 and
    0 ≤ long_cat ≤ 999: below 26000. -/
theorem idxOK0_of_pre (m : (ℓ : Loc nD τ sig) → Buf (Elt F) ℓ) (hpre : PreOK m) : IdxOK0 (ix0C m) := by
  intro d j
  rw [ix0C_eq]
  exact lists_lt (flat m d) (flat_lt m hpre d) _ _ j

/-- The same of call 1's. -/
theorem idxOK1_of_pre (m : (ℓ : Loc nD τ sig) → Buf (Elt F) ℓ) (hpre : PreOK m) : IdxOK1 (ix1C m) := by
  intro d j
  rw [ix1C_eq]
  exact lists_lt (flat m d) (flat_lt m hpre d) _ _ j

end Cert.Proof.KI

end
-- ==== Proof.Calls.lean ====
/-
  The two gather calls as steps of @main's proof.
-/
import proofs.«205278_g66915590471714_cont_9to1_m_383_35_alg».proof.Proof.Split
import proofs.«205278_g66915590471714_cont_9to1_m_383_35_alg».proof.Proof.IdxFacts
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held)

variable {F : FTy → Type} [FloatOps F]

local notation "𝕄" => MT nD τ sig (HIx 2) (Elt F) ℕ UU ℕ

/-- What the handshakes carry, at the contents @main computes: the table and the two index arrays as the host stretches
    leave them. -/
abbrev Pm (m : (ℓ : Loc nD τ sig) → Buf (Elt F) ℓ) : (K (F := F)).Pay (nD := nD) (Val := Elt F) (Name := ℕ) (U := UU) :=
  P m (tabC m) (ix0C m) (ix1C m)

section Calls

variable (m : (ℓ : Loc nD τ sig) → Buf (Elt F) ℓ)

/-- The three arrays gather call 0 hands over: the table, the call's index array, its output array. -/
def callBufs0 : Finset (DevRef τ sig) := {Proc.devRef .tc main_v0, Proc.devRef .tc main_v21, Proc.devRef .tc main_v22}

omit [FloatOps F] in
/-- They are unscoped buffers of the TensorCore. -/
theorem callBufs0_sub : callBufs0 ⊆ Pipeline.ucRefs τ sig := by
  intro b hb
  simp only [callBufs0, Finset.mem_insert, Finset.mem_singleton] at hb
  rcases hb with rfl | rfl | rfl <;> exact Finset.mem_filter.mpr ⟨StableHlo.devRef_mem_tcRefs _, by decide⟩

/-- Holding the three arrays at a valuation is holding each at its contents there. -/
theorem held_callBufs0 (d : Dev nD) (V : Valuation τ sig (Elt F)) :
    (held (SparseCore.T d) callBufs0 V : sProp 𝕄)
      = iprop((tabLoc d ↦{fullShare} V (Proc.devRef .tc main_v0)) ∗ (idx0Loc d ↦{fullShare} V (Proc.devRef .tc main_v21))
          ∗ (out0Loc d ↦{fullShare} V (Proc.devRef .tc main_v22))) := by
  unfold StableHlo.held callBufs0
  rw [SparseCore.bigSep_insert' (by decide), SparseCore.bigSep_insert' (by decide), bigSep_singleton]

/-- All the unscoped buffers before call 0: the three arrays at the contents the call expects, and the rest. -/
theorem held_before0 (d : Dev nD) (V : Valuation τ sig (Elt F))
    (hT : V (Proc.devRef .tc main_v0) = tabC m d) (hI : V (Proc.devRef .tc main_v21) = ix0C m d)
    (hO : V (Proc.devRef .tc main_v22) = m (out0Loc d)) :
    (held (SparseCore.T d) (Pipeline.ucRefs τ sig) V : sProp 𝕄)
      = iprop(((tabLoc d ↦{fullShare} tabC m d) ∗ (idx0Loc d ↦{fullShare} ix0C m d) ∗ (out0Loc d ↦{fullShare} m (out0Loc d)))
          ∗ held (SparseCore.T d) (Pipeline.ucRefs τ sig \ callBufs0) V) := by
  rw [StableHlo.held_sub_split (SparseCore.T d) callBufs0_sub V, held_callBufs0, hT, hI, hO]

/-- And after it: the output array at what came back, everything else as it was. -/
theorem held_after0 (d : Dev nD) (V : Valuation τ sig (Elt F))
    (hT : V (Proc.devRef .tc main_v0) = tabC m d) (hI : V (Proc.devRef .tc main_v21) = ix0C m d) (f : Buf (Elt F) (out0Loc d)) :
    (held (SparseCore.T d) (Pipeline.ucRefs τ sig) (Function.update V (Proc.devRef .tc main_v22) f) : sProp 𝕄)
      = iprop(((tabLoc d ↦{fullShare} tabC m d) ∗ (idx0Loc d ↦{fullShare} ix0C m d) ∗ (out0Loc d ↦{fullShare} f))
          ∗ held (SparseCore.T d) (Pipeline.ucRefs τ sig \ callBufs0) V) := by
  -- the output array is none of the others: they are read at the old valuation
  have hrest : (held (SparseCore.T d) (Pipeline.ucRefs τ sig \ callBufs0) (Function.update V (Proc.devRef .tc main_v22) f) : sProp 𝕄)
      = held (SparseCore.T d) (Pipeline.ucRefs τ sig \ callBufs0) V :=
    StableHlo.held_congr (SparseCore.T d) fun b hb => Function.update_of_ne
      (by intro e; subst e; exact (Finset.mem_sdiff.mp hb).2 (by simp [callBufs0])) _ _
  rw [StableHlo.held_sub_split (SparseCore.T d) callBufs0_sub, hrest, held_callBufs0,
    Function.update_of_ne (by decide), Function.update_of_ne (by decide), Function.update_self, hT, hI]

/-- The three arrays gather call 1 hands over: the table, the call's index array, its output array. -/
def callBufs1 : Finset (DevRef τ sig) := {Proc.devRef .tc main_v0, Proc.devRef .tc main_v29, Proc.devRef .tc main_v30}

omit [FloatOps F] in
/-- They are unscoped buffers of the TensorCore. -/
theorem callBufs1_sub : callBufs1 ⊆ Pipeline.ucRefs τ sig := by
  intro b hb
  simp only [callBufs1, Finset.mem_insert, Finset.mem_singleton] at hb
  rcases hb with rfl | rfl | rfl <;> exact Finset.mem_filter.mpr ⟨StableHlo.devRef_mem_tcRefs _, by decide⟩

/-- Holding the three arrays at a valuation is holding each at its contents there. -/
theorem held_callBufs1 (d : Dev nD) (V : Valuation τ sig (Elt F)) :
    (held (SparseCore.T d) callBufs1 V : sProp 𝕄)
      = iprop((tabLoc d ↦{fullShare} V (Proc.devRef .tc main_v0)) ∗ (idx1Loc d ↦{fullShare} V (Proc.devRef .tc main_v29))
          ∗ (out1Loc d ↦{fullShare} V (Proc.devRef .tc main_v30))) := by
  unfold StableHlo.held callBufs1
  rw [SparseCore.bigSep_insert' (by decide), SparseCore.bigSep_insert' (by decide), bigSep_singleton]

/-- All the unscoped buffers before call 1: the three arrays at the contents the call expects, and the rest. -/
theorem held_before1 (d : Dev nD) (V : Valuation τ sig (Elt F))
    (hT : V (Proc.devRef .tc main_v0) = tabC m d) (hI : V (Proc.devRef .tc main_v29) = ix1C m d)
    (hO : V (Proc.devRef .tc main_v30) = m (out1Loc d)) :
    (held (SparseCore.T d) (Pipeline.ucRefs τ sig) V : sProp 𝕄)
      = iprop(((tabLoc d ↦{fullShare} tabC m d) ∗ (idx1Loc d ↦{fullShare} ix1C m d) ∗ (out1Loc d ↦{fullShare} m (out1Loc d)))
          ∗ held (SparseCore.T d) (Pipeline.ucRefs τ sig \ callBufs1) V) := by
  rw [StableHlo.held_sub_split (SparseCore.T d) callBufs1_sub V, held_callBufs1, hT, hI, hO]

/-- And after it: the output array at what came back, everything else as it was. -/
theorem held_after1 (d : Dev nD) (V : Valuation τ sig (Elt F))
    (hT : V (Proc.devRef .tc main_v0) = tabC m d) (hI : V (Proc.devRef .tc main_v29) = ix1C m d) (f : Buf (Elt F) (out1Loc d)) :
    (held (SparseCore.T d) (Pipeline.ucRefs τ sig) (Function.update V (Proc.devRef .tc main_v30) f) : sProp 𝕄)
      = iprop(((tabLoc d ↦{fullShare} tabC m d) ∗ (idx1Loc d ↦{fullShare} ix1C m d) ∗ (out1Loc d ↦{fullShare} f))
          ∗ held (SparseCore.T d) (Pipeline.ucRefs τ sig \ callBufs1) V) := by
  -- the output array is none of the others: they are read at the old valuation
  have hrest : (held (SparseCore.T d) (Pipeline.ucRefs τ sig \ callBufs1) (Function.update V (Proc.devRef .tc main_v30) f) : sProp 𝕄)
      = held (SparseCore.T d) (Pipeline.ucRefs τ sig \ callBufs1) V :=
    StableHlo.held_congr (SparseCore.T d) fun b hb => Function.update_of_ne
      (by intro e; subst e; exact (Finset.mem_sdiff.mp hb).2 (by simp [callBufs1])) _ _
  rw [StableHlo.held_sub_split (SparseCore.T d) callBufs1_sub, hrest, held_callBufs1,
    Function.update_of_ne (by decide), Function.update_of_ne (by decide), Function.update_self, hT, hI]

/-- Gather call 0 from @main: the TensorCore hands the table, the call's index array and its output array to the
    SparseCores' workers and gets them back, the output at contents not named; every other buffer is untouched. -/
theorem call_step0 [∀ e, Nonempty (Elt F e)] (κ : GSem nD τ sig → ℕ) (d : Dev nD) (V : Valuation τ sig (Elt F))
    (hT : V (Proc.devRef .tc main_v0) = tabC m d) (hI : V (Proc.devRef .tc main_v21) = ix0C m d)
    (hO : V (Proc.devRef .tc main_v22) = m (out0Loc d)) (Φ : PUnit → sProp 𝕄) :
    iprop((K (F := F)).ctx EH (Pm m) κ ∗ (K (F := F)).tcSt EH d 0 ∗ held (SparseCore.T d) (Pipeline.ucRefs τ sig) V
        ∗ (∀ f, iprop((K (F := F)).tcSt EH d 1 ∗ held (SparseCore.T d) (Pipeline.ucRefs τ sig) (Function.update V (Proc.devRef .tc main_v22) f)) -∗ Φ ⟨⟩))
      ⊢ wp frame (wpE ((K (F := F)).defs (D (F := F))) 𝒱 (SparseCore.T d) none) Set.univ (sc.run d 0) Φ := by
  rw [held_before0 m d V hT hI hO]
  iintro ⟨#Hctx, Hst, ⟨⟨Ht, Hi, Ho⟩, Hrest⟩, Hk⟩
  -- the three arrays dealt to the SparseCores' workers, with the way back
  ihave Hsp := (call0_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := Pm m) κ d 0) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, %f, Ho⟩
  iapply Hk $$ %f
  isplitl [Hst]; · iexact Hst
  rw [held_after0 m d V hT hI f]
  isplitl [Ht Hi Ho]
  · isplitl [Ht]; · iexact Ht
    isplitl [Hi]; · iexact Hi
    iexact Ho
  iexact Hrest

/-- Gather call 1 from @main: the TensorCore hands the table, the call's index array and its output array to the
    SparseCores' workers and gets them back, the output at contents not named; every other buffer is untouched. -/
theorem call_step1 [∀ e, Nonempty (Elt F e)] (κ : GSem nD τ sig → ℕ) (d : Dev nD) (V : Valuation τ sig (Elt F))
    (hT : V (Proc.devRef .tc main_v0) = tabC m d) (hI : V (Proc.devRef .tc main_v29) = ix1C m d)
    (hO : V (Proc.devRef .tc main_v30) = m (out1Loc d)) (Φ : PUnit → sProp 𝕄) :
    iprop((K (F := F)).ctx EH (Pm m) κ ∗ (K (F := F)).tcSt EH d 1 ∗ held (SparseCore.T d) (Pipeline.ucRefs τ sig) V
        ∗ (∀ f, iprop((K (F := F)).tcSt EH d 2 ∗ held (SparseCore.T d) (Pipeline.ucRefs τ sig) (Function.update V (Proc.devRef .tc main_v30) f)) -∗ Φ ⟨⟩))
      ⊢ wp frame (wpE ((K (F := F)).defs (D (F := F))) 𝒱 (SparseCore.T d) none) Set.univ (sc.run d 1) Φ := by
  rw [held_before1 m d V hT hI hO]
  iintro ⟨#Hctx, Hst, ⟨⟨Ht, Hi, Ho⟩, Hrest⟩, Hk⟩
  -- the three arrays dealt to the SparseCores' workers, with the way back
  ihave Hsp := (call1_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := Pm m) κ d 1) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, %f, Ho⟩
  iapply Hk $$ %f
  isplitl [Hst]; · iexact Hst
  rw [held_after1 m d V hT hI f]
  isplitl [Ht Hi Ho]
  · isplitl [Ht]; · iexact Ht
    isplitl [Hi]; · iexact Hi
    iexact Ho
  iexact Hrest

end Calls

end Cert.Proof.KI

end
-- ==== Proof.RegionSteps.lean ====
/-
  The two TensorCore pipelines as steps of @main's proof.
-/
import proofs.«205278_g66915590471714_cont_9to1_m_383_35_alg».proof.Proof.RegionRec
import proofs.«205278_g66915590471714_cont_9to1_m_383_35_alg».proof.Proof.LaunchDefs
import proofs.«205278_g66915590471714_cont_9to1_m_383_35_alg».proof.Proof.Calls

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Steps

/-- The TensorCore owes nothing at the index of no call. -/
theorem Otc_none0 (d : Dev nD) (g : GSem nD τ sig) : (K (F := F)).Otc d 1 g none = 0 := by
  by_contra h
  have := SparseCore.Cfg.lev_of_Otc_pos (K := K (F := F)) (Nat.pos_of_ne_zero h)
  rw [SparseCore.Cfg.lev_none] at this; omega

/-- Pipeline call 0 from @main: entered through the launch's lifting of the certificate's programs, run as a kernel
    region, left with every buffer as it was but the result array, which holds what the write-backs left; the TensorCore's handshake state passes through (the
    pipeline's waits are recorded at the index of no call, level zero). -/
theorem region_step0 [∀ e, Nonempty (Elt F e)] (Pp : (K (F := F)).Pay (nD := nD) (Val := Elt F) (Name := ℕ) (U := UU)) (κ : GSem nD τ sig → ℕ) (d : Dev nD) (V : Valuation τ sig (Elt F)) (Φ : PUnit → sProp 𝕄) :
    iprop((K (F := F)).ctx EH Pp κ ∗ boundary (SparseCore.T d) ∗ (K (F := F)).tcSt EH d 1
        ∗ held (SparseCore.T d) (Pipeline.ucRefs τ sig) V
        ∗ Pipeline.cellsGhost (Pipeline.pin (pcfgs (F := F)) adm) EP 0 d ∗ Pipeline.toksInit (Pipeline.pin (pcfgs (F := F)) adm) EP 0 d
        ∗ (iprop(boundary (SparseCore.T d) ∗ (K (F := F)).tcSt EH d 1
            ∗ held (SparseCore.T d) (Pipeline.ucRefs τ sig) (Function.update V (Proc.devRef .tc main_v25) (resOf1 V d))) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  iintro ⟨#Hctx, Hb, ⟨⟨%W, %hW, HO⟩, Hat, Hrd, Hrs, Htoks⟩, Hheld, Hcg, Hti, Hk⟩
  ihave Hlev := (SparseCore.Cfg.ctx_levAts κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) adm (pdats V V ((K (F := F)).Otc d 1) ((K (F := F)).Otc d 1) (↑W) (↑W)) (none : HIx 2) cellOf_inj' EP defs₀ 𝒱₀ (LK (F := F)) (lvK (F := F))
    (reg0 V V ((K (F := F)).Otc d 1) ((K (F := F)).Otc d 1) (↑W) (↑W) (Otc_none0 d)) d none (fun u hu => by cases hu) (fun _ => .ret ⟨⟩) Φ)
  rw [show (reg0 V V ((K (F := F)).Otc d 1) ((K (F := F)).Otc d 1) (↑W) (↑W) (Otc_none0 d)).post d
      = iprop(held (SparseCore.T d) (Pipeline.ucRefs τ sig) (Function.update V (Proc.devRef .tc main_v25) ((dats1 V ((K (F := F)).Otc d 1) (↑W) d).arrAt 38 cfg1.N))
          ∗ Pipeline.owesWithin d ((K (F := F)).Otc d 1) (↑W ∪ cfg1.waitPairs none)) from rfl,
    show (reg0 V V ((K (F := F)).Otc d 1) ((K (F := F)).Otc d 1) (↑W) (↑W) (Otc_none0 d)).pre d
      = iprop(held (SparseCore.T d) (Pipeline.ucRefs τ sig) V ∗ Pipeline.owesWithin d ((K (F := F)).Otc d 1) (↑W)) from rfl]
  isplitl [Hk Hat Hrd Hrs Htoks]
  · iintro ⟨Hb, Hheld, ⟨%W', %hW', HO⟩⟩
    rw [wp_ret]; imodintro
    iapply Hk
    isplitl [Hb]; · iexact Hb
    isplitr [Hheld]
    swap
    · rw [show resOf1 V d = (dats1 V ((K (F := F)).Otc d 1) (↑W) d).arrAt 38 cfg1.N from arrAt1_indep V _ _ _ _ d 38 cfg1.N]
      iexact Hheld
    isplitl [HO]
    · iexists W'; isplitr
      · ipureintro
        intro p hp
        rcases hW' hp with h | ⟨w, s, rfl⟩
        · exact hW p h
        · exact (SparseCore.Cfg.lev_none (K := K (F := F)) _).le.trans (Nat.zero_le _)
      · iexact HO
    isplitl [Hat]; · iexact Hat
    isplitl [Hrd]; · iexact Hrd
    isplitl [Hrs]; · iexact Hrs
    iexact Htoks
  isplitl [Hb]; · iexact Hb
  isplitl [Hheld HO]
  · isplitl [Hheld]; · iexact Hheld
    iexists W; isplitr
    · ipureintro; exact subset_rfl
    · iexact HO
  isplitl [Hlev]; · iexact Hlev
  isplitl [Hcg]; · iexact Hcg
  iexact Hti

/-- The TensorCore owes nothing at the index of no call. -/
theorem Otc_none1 (d : Dev nD) (g : GSem nD τ sig) : (K (F := F)).Otc d 2 g none = 0 := by
  by_contra h
  have := SparseCore.Cfg.lev_of_Otc_pos (K := K (F := F)) (Nat.pos_of_ne_zero h)
  rw [SparseCore.Cfg.lev_none] at this; omega

/-- Pipeline call 1 from @main: entered through the launch's lifting of the certificate's programs, run as a kernel
    region, left with every buffer as it was but the result array, which holds what the write-backs left; the TensorCore's handshake state passes through (the
    pipeline's waits are recorded at the index of no call, level zero). -/
theorem region_step1 [∀ e, Nonempty (Elt F e)] (Pp : (K (F := F)).Pay (nD := nD) (Val := Elt F) (Name := ℕ) (U := UU)) (κ : GSem nD τ sig → ℕ) (d : Dev nD) (V : Valuation τ sig (Elt F)) (Φ : PUnit → sProp 𝕄) :
    iprop((K (F := F)).ctx EH Pp κ ∗ boundary (SparseCore.T d) ∗ (K (F := F)).tcSt EH d 2
        ∗ held (SparseCore.T d) (Pipeline.ucRefs τ sig) V
        ∗ Pipeline.cellsGhost (Pipeline.pin (pcfgs (F := F)) adm) EP 1 d ∗ Pipeline.toksInit (Pipeline.pin (pcfgs (F := F)) adm) EP 1 d
        ∗ (iprop(boundary (SparseCore.T d) ∗ (K (F := F)).tcSt EH d 2
            ∗ held (SparseCore.T d) (Pipeline.ucRefs τ sig) (Function.update V (Proc.devRef .tc main_v33) (resOf3 V d))) -∗ Φ ⟨⟩))
      ⊢ wp frame (wpE ((K (F := F)).defs (D (F := F))) 𝒱 (SparseCore.T d) none) Set.univ
          (Prog.lift (.customCall (SparseCore.inner (Pipeline.entry 1)) ())) Φ := by
  unfold SparseCore.Cfg.tcSt
  iintro ⟨#Hctx, Hb, ⟨⟨%W, %hW, HO⟩, Hat, Hrd, Hrs, Htoks⟩, Hheld, Hcg, Hti, Hk⟩
  ihave Hlev := (SparseCore.Cfg.ctx_levAts κ) $$ Hctx
  iapply ((K (F := F)).wp_liftProg (D (F := F)) 𝒱 (SparseCore.T d) Set.univ none (Prog.lift (.customCall (Pipeline.entry 1) ())) Φ)
  iapply (Pipeline.RegionSeg.wp (pcfgs (F := F)) adm (pdats V V ((K (F := F)).Otc d 2) ((K (F := F)).Otc d 2) (↑W) (↑W)) (none : HIx 2) cellOf_inj' EP defs₀ 𝒱₀ (LK (F := F)) (lvK (F := F))
    (reg1 V V ((K (F := F)).Otc d 2) ((K (F := F)).Otc d 2) (↑W) (↑W) (Otc_none1 d)) d none (fun u hu => by cases hu) (fun _ => .ret ⟨⟩) Φ)
  rw [show (reg1 V V ((K (F := F)).Otc d 2) ((K (F := F)).Otc d 2) (↑W) (↑W) (Otc_none1 d)).post d
      = iprop(held (SparseCore.T d) (Pipeline.ucRefs τ sig) (Function.update V (Proc.devRef .tc main_v33) ((dats3 V ((K (F := F)).Otc d 2) (↑W) d).arrAt 38 cfg3.N))
          ∗ Pipeline.owesWithin d ((K (F := F)).Otc d 2) (↑W ∪ cfg3.waitPairs none)) from rfl,
    show (reg1 V V ((K (F := F)).Otc d 2) ((K (F := F)).Otc d 2) (↑W) (↑W) (Otc_none1 d)).pre d
      = iprop(held (SparseCore.T d) (Pipeline.ucRefs τ sig) V ∗ Pipeline.owesWithin d ((K (F := F)).Otc d 2) (↑W)) from rfl]
  isplitl [Hk Hat Hrd Hrs Htoks]
  · iintro ⟨Hb, Hheld, ⟨%W', %hW', HO⟩⟩
    rw [wp_ret]; imodintro
    iapply Hk
    isplitl [Hb]; · iexact Hb
    isplitr [Hheld]
    swap
    · rw [show resOf3 V d = (dats3 V ((K (F := F)).Otc d 2) (↑W) d).arrAt 38 cfg3.N from arrAt3_indep V _ _ _ _ d 38 cfg3.N]
      iexact Hheld
    isplitl [HO]
    · iexists W'; isplitr
      · ipureintro
        intro p hp
        rcases hW' hp with h | ⟨w, s, rfl⟩
        · exact hW p h
        · exact (SparseCore.Cfg.lev_none (K := K (F := F)) _).le.trans (Nat.zero_le _)
      · iexact HO
    isplitl [Hat]; · iexact Hat
    isplitl [Hrd]; · iexact Hrd
    isplitl [Hrs]; · iexact Hrs
    iexact Htoks
  isplitl [Hb]; · iexact Hb
  isplitl [Hheld HO]
  · isplitl [Hheld]; · iexact Hheld
    iexists W; isplitr
    · ipureintro; exact subset_rfl
    · iexact HO
  isplitl [Hlev]; · iexact Hlev
  isplitl [Hcg]; · iexact Hcg
  iexact Hti

end Steps

end Cert.Proof.KI

end
-- ==== Proof.HostFacts.lean ====
/-
  Side facts of @main's four host stretches: which buffers they touch, and that the others keep their contents.
-/
import proofs.«205278_g66915590471714_cont_9to1_m_383_35_alg».proof.Proof.MainChain
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

/-- Stretch 0 names only unscoped buffers of the TensorCore, -/
theorem hostOps0_sub : ∀ op ∈ (hostOps0 : List (HloOp τ sig (Elt F))), op.bufs ⊆ Pipeline.ucRefs τ sig := by
  intro op h
  refine Pipeline.sub_ucRefs op ?_
  simp only [hostOps0, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps0_fresh : ∀ op ∈ (hostOps0 : List (HloOp τ sig (Elt F))), op.fresh = ∅ := by
  intro op h
  simp only [hostOps0, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl <;> rfl
/-- and a buffer none of its operations writes keeps its contents. -/
theorem after_hostOps0_of_not_written (V : Valuation τ sig (Elt F)) (b : DevRef τ sig)
    (hb : ∀ op ∈ (hostOps0 : List (HloOp τ sig (Elt F))), b ∉ op.writes) :
    StableHlo.after hostOps0 V b = V b := by
  exact StableHlo.after_of_forall_not_mem hostOps0 V hb

/-- Stretch 1 names only unscoped buffers of the TensorCore, -/
theorem hostOps1_sub : ∀ op ∈ (hostOps1 : List (HloOp τ sig (Elt F))), op.bufs ⊆ Pipeline.ucRefs τ sig := by
  intro op h
  refine Pipeline.sub_ucRefs op ?_
  simp only [hostOps1, List.mem_cons, List.not_mem_nil, or_false] at h
  rcases h with rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps1_fresh : ∀ op ∈ (hostOps1 : List (HloOp τ sig (Elt F))), op.fresh = ∅ := by
  intro op h
  simp only [hostOps1, List.mem_cons, List.not_mem_nil, or_false] at h
  rcases h with rfl | rfl | rfl <;> rfl
/-- and a buffer none of its operations writes keeps its contents. -/
theorem after_hostOps1_of_not_written (V : Valuation τ sig (Elt F)) (b : DevRef τ sig)
    (hb : ∀ op ∈ (hostOps1 : List (HloOp τ sig (Elt F))), b ∉ op.writes) :
    StableHlo.after hostOps1 V b = V b := by
  exact StableHlo.after_of_forall_not_mem hostOps1 V hb

/-- Stretch 2 names only unscoped buffers of the TensorCore, -/
theorem hostOps2_sub : ∀ op ∈ (hostOps2 : List (HloOp τ sig (Elt F))), op.bufs ⊆ Pipeline.ucRefs τ sig := by
  intro op h
  refine Pipeline.sub_ucRefs op ?_
  simp only [hostOps2, List.mem_cons, List.not_mem_nil, or_false] at h
  rcases h with rfl | rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps2_fresh : ∀ op ∈ (hostOps2 : List (HloOp τ sig (Elt F))), op.fresh = ∅ := by
  intro op h
  simp only [hostOps2, List.mem_cons, List.not_mem_nil, or_false] at h
  rcases h with rfl | rfl | rfl | rfl <;> rfl
/-- and a buffer none of its operations writes keeps its contents. -/
theorem after_hostOps2_of_not_written (V : Valuation τ sig (Elt F)) (b : DevRef τ sig)
    (hb : ∀ op ∈ (hostOps2 : List (HloOp τ sig (Elt F))), b ∉ op.writes) :
    StableHlo.after hostOps2 V b = V b := by
  exact StableHlo.after_of_forall_not_mem hostOps2 V hb

/-- Stretch 3 names only unscoped buffers of the TensorCore, -/
theorem hostOps3_sub : ∀ op ∈ (hostOps3 : List (HloOp τ sig (Elt F))), op.bufs ⊆ Pipeline.ucRefs τ sig := by
  intro op h
  refine Pipeline.sub_ucRefs op ?_
  simp only [hostOps3, List.mem_cons, List.not_mem_nil, or_false] at h
  rcases h with rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps3_fresh : ∀ op ∈ (hostOps3 : List (HloOp τ sig (Elt F))), op.fresh = ∅ := by
  intro op h
  simp only [hostOps3, List.mem_cons, List.not_mem_nil, or_false] at h
  rcases h with rfl | rfl | rfl <;> rfl
/-- and a buffer none of its operations writes keeps its contents. -/
theorem after_hostOps3_of_not_written (V : Valuation τ sig (Elt F)) (b : DevRef τ sig)
    (hb : ∀ op ∈ (hostOps3 : List (HloOp τ sig (Elt F))), b ∉ op.writes) :
    StableHlo.after hostOps3 V b = V b := by
  exact StableHlo.after_of_forall_not_mem hostOps3 V hb

end Cert.Proof.KI

end
-- ==== Proof.Keep.lean ====
/-
  The TensorCore's buffers along @main: the contents after each stretch, call and pipeline, and which of them a later
  step still finds as an earlier one left them.
-/
import proofs.«205278_g66915590471714_cont_9to1_m_383_35_alg».proof.Proof.HostFacts
import proofs.«205278_g66915590471714_cont_9to1_m_383_35_alg».proof.Proof.IdxFacts
import proofs.«205278_g66915590471714_cont_9to1_m_383_35_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

/-- The two pipelines' result arrays, as device `d`'s TensorCore addresses them. -/
abbrev res0Loc (d : Dev nD) : Loc nD τ sig := (SparseCore.T d).loc main_v25
abbrev res1Loc (d : Dev nD) : Loc nD τ sig := (SparseCore.T d).loc main_v33

section Keep

variable (m : (ℓ : Loc nD τ sig) → Buf (Elt F) ℓ) (d : Dev nD)

/-- The buffers at launch; -/
abbrev Vl : Valuation τ sig (Elt F) := StableHlo.launchContents m d
/-- after the first host stretch; -/
def Va : Valuation τ sig (Elt F) := StableHlo.after hostOps0 (Vl m d)
/-- after the first gather call left `f` in its output; -/
def Vb (f : Buf (Elt F) (out0Loc d)) : Valuation τ sig (Elt F) := Function.update (Va m d) (Proc.devRef .tc main_v22) f
/-- after the second stretch; -/
def Vc (f : Buf (Elt F) (out0Loc d)) : Valuation τ sig (Elt F) := StableHlo.after hostOps1 (Vb m d f)
/-- after the first pipeline left `g` in its result; -/
def Vd (f : Buf (Elt F) (out0Loc d)) (g : Buf (Elt F) (res0Loc d)) : Valuation τ sig (Elt F) :=
  Function.update (Vc m d f) (Proc.devRef .tc main_v25) g
/-- after the third stretch; -/
def Ve (f : Buf (Elt F) (out0Loc d)) (g : Buf (Elt F) (res0Loc d)) : Valuation τ sig (Elt F) :=
  StableHlo.after hostOps2 (Vd m d f g)
/-- after the second gather call left `f'`; -/
def Vf (f : Buf (Elt F) (out0Loc d)) (g : Buf (Elt F) (res0Loc d)) (f' : Buf (Elt F) (out1Loc d)) : Valuation τ sig (Elt F) :=
  Function.update (Ve m d f g) (Proc.devRef .tc main_v30) f'
/-- after the fourth stretch; -/
def Vg (f : Buf (Elt F) (out0Loc d)) (g : Buf (Elt F) (res0Loc d)) (f' : Buf (Elt F) (out1Loc d)) : Valuation τ sig (Elt F) :=
  StableHlo.after hostOps3 (Vf m d f g f')
/-- after the second pipeline left `g'` in the program's result. -/
def Vh (f : Buf (Elt F) (out0Loc d)) (g : Buf (Elt F) (res0Loc d)) (f' : Buf (Elt F) (out1Loc d))
    (g' : Buf (Elt F) (res1Loc d)) : Valuation τ sig (Elt F) :=
  Function.update (Vg m d f g f') (Proc.devRef .tc main_v33) g'

/-! ## What each host stretch writes -/

/-- The buffers the first stretch writes. -/
def wrote0 : List (Ref sig .tc) := [main_v0, main_v1, main_c, main_v2, main_v3, main_v4, main_v5, main_v6, main_v7, main_v8, main_v9, main_v10, main_v11, main_v12, main_v13, main_v14, main_v15, main_v16, main_cst, main_v17, main_v18, main_v19, main_v20, main_v21]
/-- Each of its operations writes one of them. -/
theorem hostOps0_writes : (hostOps0 : List (HloOp τ sig (Elt F))).Forall fun op =>
    op.writes ⊆ ((wrote0).map (Proc.devRef (τ := τ) .tc)).toFinset := by
  simp only [hostOps0, List.forall_cons, List.Forall, StableHlo.nullary_writes, StableHlo.unary_writes, StableHlo.binary_writes,
    StableHlo.reshape_writes]
  decide
/-- So a buffer that is none of them keeps its contents across the stretch. -/
theorem keep0 (V : Valuation τ sig (Elt F)) (r : Ref sig .tc) (hr : r ∉ wrote0) :
    StableHlo.after hostOps0 V (Proc.devRef .tc r) = V (Proc.devRef .tc r) :=
  StableHlo.after_of_writes_sub hostOps0 V hostOps0_writes hr

/-- The buffers the second stretch writes. -/
def wrote1 : List (Ref sig .tc) := [main_v23, main_v24, main_v25]
/-- Each of its operations writes one of them. -/
theorem hostOps1_writes : (hostOps1 : List (HloOp τ sig (Elt F))).Forall fun op =>
    op.writes ⊆ ((wrote1).map (Proc.devRef (τ := τ) .tc)).toFinset := by
  simp only [hostOps1, List.forall_cons, List.Forall, StableHlo.nullary_writes, StableHlo.unary_writes, StableHlo.binary_writes,
    StableHlo.reshape_writes]
  decide
/-- So a buffer that is none of them keeps its contents across the stretch. -/
theorem keep1 (V : Valuation τ sig (Elt F)) (r : Ref sig .tc) (hr : r ∉ wrote1) :
    StableHlo.after hostOps1 V (Proc.devRef .tc r) = V (Proc.devRef .tc r) :=
  StableHlo.after_of_writes_sub hostOps1 V hostOps1_writes hr

/-- The buffers the third stretch writes. -/
def wrote2 : List (Ref sig .tc) := [main_v26, main_v27, main_v28, main_v29]
/-- Each of its operations writes one of them. -/
theorem hostOps2_writes : (hostOps2 : List (HloOp τ sig (Elt F))).Forall fun op =>
    op.writes ⊆ ((wrote2).map (Proc.devRef (τ := τ) .tc)).toFinset := by
  simp only [hostOps2, List.forall_cons, List.Forall, StableHlo.nullary_writes, StableHlo.unary_writes, StableHlo.binary_writes,
    StableHlo.reshape_writes]
  decide
/-- So a buffer that is none of them keeps its contents across the stretch. -/
theorem keep2 (V : Valuation τ sig (Elt F)) (r : Ref sig .tc) (hr : r ∉ wrote2) :
    StableHlo.after hostOps2 V (Proc.devRef .tc r) = V (Proc.devRef .tc r) :=
  StableHlo.after_of_writes_sub hostOps2 V hostOps2_writes hr

/-- The buffers the fourth stretch writes. -/
def wrote3 : List (Ref sig .tc) := [main_v31, main_v32, main_v33]
/-- Each of its operations writes one of them. -/
theorem hostOps3_writes : (hostOps3 : List (HloOp τ sig (Elt F))).Forall fun op =>
    op.writes ⊆ ((wrote3).map (Proc.devRef (τ := τ) .tc)).toFinset := by
  simp only [hostOps3, List.forall_cons, List.Forall, StableHlo.nullary_writes, StableHlo.unary_writes, StableHlo.binary_writes,
    StableHlo.reshape_writes]
  decide
/-- So a buffer that is none of them keeps its contents across the stretch. -/
theorem keep3 (V : Valuation τ sig (Elt F)) (r : Ref sig .tc) (hr : r ∉ wrote3) :
    StableHlo.after hostOps3 V (Proc.devRef .tc r) = V (Proc.devRef .tc r) :=
  StableHlo.after_of_writes_sub hostOps3 V hostOps3_writes hr

/-! ## The buffers the calls are entered with, and the argument arrays -/

/-- What the first gather call is entered with. -/
theorem Va_tab : Va m d (Proc.devRef .tc main_v0) = tabC m d := by
  rfl
theorem Va_ix0 : Va m d (Proc.devRef .tc main_v21) = ix0C m d := by
  rfl
theorem Va_out0 : Va m d (Proc.devRef .tc main_v22) = m (out0Loc d) := by
  unfold Va
  rw [keep0 _ main_v22 (by decide)]

/-- What the second gather call is entered with: the table and the flat indices are as the first stretch left them, the
    output array as at launch. -/
theorem Ve_tab (f g) : Ve m d f g (Proc.devRef .tc main_v0) = tabC m d := by
  unfold Ve Vd Vc Vb
  rw [keep2 _ main_v0 (by decide), Function.update_of_ne (by decide), keep1 _ main_v0 (by decide), Function.update_of_ne (by decide)]
  rfl
theorem Ve_ix1 (f g) : Ve m d f g (Proc.devRef .tc main_v29) = ix1C m d := by
  unfold Ve ix1C
  refine ix1_congr _ _ ?_
  unfold Vd Vc Vb
  rw [Function.update_of_ne (by decide), keep1 _ main_v6 (by decide), Function.update_of_ne (by decide)]
  rfl
theorem Ve_out1 (f g) : Ve m d f g (Proc.devRef .tc main_v30) = m (out1Loc d) := by
  unfold Ve Vd Vc Vb Va
  rw [keep2 _ main_v30 (by decide), Function.update_of_ne (by decide), keep1 _ main_v30 (by decide), Function.update_of_ne (by decide), keep0 _ main_v30 (by decide)]

/-- No step writes an argument array. -/
theorem Vh_arg (f g f' g') : ∀ b ∈ argSet, Vh m d f g f' g' b = Vl m d b := by
  intro b hb
  simp only [argSet, Finset.mem_insert, Finset.mem_singleton] at hb
  unfold Vh Vg Vf Ve Vd Vc Vb Va
  rcases hb with rfl | rfl | rfl | rfl | rfl | rfl | rfl | rfl | rfl | rfl | rfl | rfl | rfl | rfl | rfl | rfl
  all_goals
    rw [Function.update_of_ne (by decide), keep3 _ _ (by decide), Function.update_of_ne (by decide), keep2 _ _ (by decide), Function.update_of_ne (by decide), keep1 _ _ (by decide), Function.update_of_ne (by decide),
      keep0 _ _ (by decide)]

end Keep

end Cert.Proof.KI

end
-- ==== Proof.LaunchEnds.lean ====
/-
  The two ends of the launch: the launch element dealt out, and the claim read off the final state.
-/
import proofs.«205278_g66915590471714_cont_9to1_m_383_35_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Ends

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Nothing, over any index set, is nothing. -/
theorem bigSep_emp' {I : Type} (s : Finset I) : (bigSep s fun _ => iprop(emp)) = (iprop(emp) : sProp 𝕄) := bigSep_emp_const s

/-- The gather kernels' proofs are dealt nothing at the launch. -/
theorem x_emp : (bigSep Finset.univ fun thr : Thread nD τ => bigSep Finset.univ fun q : Fin 2 => (P m tab ix0 ix1).x q thr) = (iprop(emp) : sProp 𝕄) := by
  show (bigSep Finset.univ fun _ : Thread nD τ => bigSep Finset.univ fun _ : Fin 2 => (iprop(emp) : sProp 𝕄)) = iprop(emp)
  rw [bigSep_congr fun _ _ => bigSep_emp' _, bigSep_emp']

/-- Each device's share of the pipelines' part, over the devices, is every pipeline's cells' ghost state and every
    pipeline's duty tokens, over the devices. -/
theorem bigSep_G : (bigSep Finset.univ fun d : Dev nD => G (F := F) d)
    = iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄))) := by
  unfold G
  simp only [bigSep_sep']

/-- The pipelines' half of the launch element's second component is owned through `EP`; the counters' half is dropped. -/
theorem own_pipes (a : UP) (b : Counters) : (BI.own (embR (a, b)) : sProp 𝕄) ⊢ BI.own (EP a) :=
  (own_pair_emb embR a b).trans sep_elim_left

/-- The launch element splits into the handshakes' part, which the launch theorem takes, and the pipelines' part, which
    funds every staging cell's ghost state and every transfer's duty token, device by device; the gather kernels' proofs
    consume nothing of it. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m tab ix0 ix1).x q thr) := by
  unfold u₀
  rw [x_emp, bigSep_G]
  iintro Hu
  ihave H := (ownU_pair _ _) $$ Hu
  icases H with ⟨HH, HR⟩
  ihave HP := (own_pipes _ _) $$ HR
  imod (Pipeline.fund_ghost (Pipeline.pin (pcfgs (F := F)) adm) EP cellOf_inj') $$ HP with ⟨Hg, Ht⟩
  imodintro
  isplitl [HH]; · iexact HH
  isplitl [Hg Ht]
  · isplitl [Hg]; · iexact Hg
    iexact Ht
  iempintro

/-- Holding the argument arrays at their launch contents beside the state's interpretation, the state's memory holds
    those contents. -/
theorem hfin (d : Dev nD) (s' : Phys nD τ sig (Elt F)) : iprop(FIN m d ∗ SI s') ⊢ (⌜fq m d s'⌝ : sProp 𝕄) := by
  unfold FIN held argSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  iintro ⟨⟨H0, H1, H2, H3, H4, H5, H6, H7, H8, H9, H10, H11, H12, H13, H14, H15⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  icombine HSI H10 gives %h10
  icombine HSI H11 gives %h11
  icombine HSI H12 gives %h12
  icombine HSI H13 gives %h13
  icombine HSI H14 gives %h14
  icombine HSI H15 gives %h15
  ipureintro
  exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11, Buf.eq_of_forall_mem_univ h12, Buf.eq_of_forall_mem_univ h13, Buf.eq_of_forall_mem_univ h14, Buf.eq_of_forall_mem_univ h15⟩

end Ends

end Cert.Proof.KI

end
-- ==== Proof.Main.lean ====
/-
  @main on the TensorCore: the four host stretches, the two gather calls and the two pipelines, in order, from what the
  launch deals the TensorCore to the argument arrays at their launch contents.
-/
import proofs.«205278_g66915590471714_cont_9to1_m_383_35_alg».proof.Proof.RegionSteps
import proofs.«205278_g66915590471714_cont_9to1_m_383_35_alg».proof.Proof.Keep
import proofs.«205278_g66915590471714_cont_9to1_m_383_35_alg».proof.Proof.LaunchEnds

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- Two conjoined one by one. -/
theorem bigSep_Fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

section Main

variable (m : (ℓ : Loc nD τ sig) → Buf (Elt F) ℓ) (ρ : Dev nD → PrngReg)

/-- The argument arrays out of every unscoped buffer, at the end of @main: no step wrote them. -/
theorem fin_of_held (d : Dev nD) (f g f' g') :
    (held (SparseCore.T d) (Pipeline.ucRefs τ sig) (Vh m d f g f' g') : sProp 𝕄) ⊢ FIN m d := by
  unfold FIN
  have hsub : argSet ⊆ Pipeline.ucRefs τ sig := by
    intro b hb
    simp only [argSet, Finset.mem_insert, Finset.mem_singleton] at hb
    rcases hb with rfl | rfl | rfl | rfl | rfl | rfl | rfl | rfl | rfl | rfl | rfl | rfl | rfl | rfl | rfl | rfl <;>
      exact Finset.mem_filter.mpr ⟨StableHlo.devRef_mem_tcRefs _, by decide⟩
  rw [StableHlo.held_sub_split (SparseCore.T d) hsub, StableHlo.held_congr (SparseCore.T d) (S := argSet) (Vh_arg m d f g f' g')]
  exact sep_elim_left

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes G
  rw [show (unscopedBufs d (fun b => m ((SparseCore.T d).loc b)) : sProp 𝕄) = held (SparseCore.T d) (Pipeline.ucRefs τ sig) (Vl m d) from
    Pipeline.unscopedBufs_held d (Vl m d)]
  rw [main_eq, bigSep_Fin2]
  iintro ⟨#Hctx, Hst, ⟨Hb, Hheld, -, -⟩, ⟨Hcg0, Hti0⟩, ⟨Hcg1, Hti1⟩⟩
  -- the first host stretch
  iapply (StableHlo.wp_seq (defs := (K (F := F)).defs (D (F := F))) 𝒱 none Set.univ d (Pipeline.ucRefs τ sig) _ hostOps0 hostOps0_sub hostOps0_fresh (Vl m d)) $$ [Hb Hheld]
  · isplitl [Hb] <;> iassumption
  iintro ⟨Hb, Hheld⟩
  rw [show StableHlo.after hostOps0 (Vl m d) = Va m d from rfl, wp_bind]
  -- the first gather call
  iapply (call_step0 m κ d (Va m d) (Va_tab m d) (Va_ix0 m d) (Va_out0 m d) _)
  isplitr; · iexact Hctx
  isplitl [Hst]; · iexact Hst
  isplitl [Hheld]; · iexact Hheld
  iintro %f ⟨Hst, Hheld⟩
  rw [show Function.update (Va m d) (Proc.devRef .tc main_v22) f = Vb m d f from rfl]
  -- the second host stretch
  iapply (StableHlo.wp_seq (defs := (K (F := F)).defs (D (F := F))) 𝒱 none Set.univ d (Pipeline.ucRefs τ sig) _ hostOps1 hostOps1_sub hostOps1_fresh (Vb m d f)) $$ [Hb Hheld]
  · isplitl [Hb] <;> iassumption
  iintro ⟨Hb, Hheld⟩
  rw [show StableHlo.after hostOps1 (Vb m d f) = Vc m d f from rfl, wp_bind]
  -- the first pipeline
  iapply (region_step0 (Pm m) κ d (Vc m d f) _)
  isplitr; · iexact Hctx
  isplitl [Hb]; · iexact Hb
  isplitl [Hst]; · iexact Hst
  isplitl [Hheld]; · iexact Hheld
  isplitl [Hcg0]; · iexact Hcg0
  isplitl [Hti0]; · iexact Hti0
  iintro ⟨Hb, Hst, Hheld⟩
  generalize resOf1 (Vc m d f) d = g
  rw [show Function.update (Vc m d f) (Proc.devRef .tc main_v25) g = Vd m d f g from rfl]
  -- the third host stretch
  iapply (StableHlo.wp_seq (defs := (K (F := F)).defs (D (F := F))) 𝒱 none Set.univ d (Pipeline.ucRefs τ sig) _ hostOps2 hostOps2_sub hostOps2_fresh (Vd m d f g)) $$ [Hb Hheld]
  · isplitl [Hb] <;> iassumption
  iintro ⟨Hb, Hheld⟩
  rw [show StableHlo.after hostOps2 (Vd m d f g) = Ve m d f g from rfl, wp_bind]
  -- the second gather call
  iapply (call_step1 m κ d (Ve m d f g) (Ve_tab m d f g) (Ve_ix1 m d f g) (Ve_out1 m d f g) _)
  isplitr; · iexact Hctx
  isplitl [Hst]; · iexact Hst
  isplitl [Hheld]; · iexact Hheld
  iintro %f' ⟨Hst, Hheld⟩
  rw [show Function.update (Ve m d f g) (Proc.devRef .tc main_v30) f' = Vf m d f g f' from rfl]
  -- the fourth host stretch
  iapply (StableHlo.wp_seq (defs := (K (F := F)).defs (D (F := F))) 𝒱 none Set.univ d (Pipeline.ucRefs τ sig) _ hostOps3 hostOps3_sub hostOps3_fresh (Vf m d f g f')) $$ [Hb Hheld]
  · isplitl [Hb] <;> iassumption
  iintro ⟨Hb, Hheld⟩
  rw [show StableHlo.after hostOps3 (Vf m d f g f') = Vg m d f g f' from rfl, wp_bind]
  -- the second pipeline
  iapply (region_step1 (Pm m) κ d (Vg m d f g f') _)
  isplitr; · iexact Hctx
  isplitl [Hb]; · iexact Hb
  isplitl [Hst]; · iexact Hst
  isplitl [Hheld]; · iexact Hheld
  isplitl [Hcg1]; · iexact Hcg1
  isplitl [Hti1]; · iexact Hti1
  iintro ⟨Hb, Hst, Hheld⟩
  generalize resOf3 (Vg m d f g f') d = g'
  rw [show Function.update (Vg m d f g f') (Proc.devRef .tc main_v33) g' = Vh m d f g f' g' from rfl]
  rw [wp_pure]; imodintro
  isplitl [Hst]; · iexact Hst
  iapply (fin_of_held m d f g f' g'); iexact Hheld

end Main

end Cert.Proof.KI

end
-- ==== Proof.TileObl.lean ====
/-
  The gather kernel's tasks as the launch theorem's obligations (both calls).
-/
import proofs.«205278_g66915590471714_cont_9to1_m_383_35_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

omit [FloatOps F] in
/-- A task that records waits only at no call's index records none outside its own call's either. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

/-- A point of call 0's 2 x 16 grid from its core and subcore numbers. -/
def coordsV0 (c : Fin (grid0.bound 0)) (s : Fin (grid0.bound 1)) : grid0.Coords :=
  fun | 0 => c | 1 => s | ⟨_ + 2, h⟩ => absurd h (Nat.not_lt.2 (Nat.le_add_left _ _))

/-- The body table's entry for call 0's kernel on a vector subcore: the kernel at the subcore's grid point. -/
theorem defs₀_vector0 (c : Fin τ.nSC) (s : Fin τ.nSub) :
    defs₀ (F := F) (.scVector c s) 0 ⟨⟩
      = SparseCore.onTile hcore0 hsub0 (fun c s => cc0__sc_gather_body (coordsV0 c s)
          (Memref.whole main_v0_scv) (Memref.isWhole_whole _) (Memref.whole main_v21_scv) (Memref.isWhole_whole _)
          (Memref.whole main_v22_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

/-- A point of call 1's 2 x 16 grid from its core and subcore numbers. -/
def coordsV1 (c : Fin (grid2.bound 0)) (s : Fin (grid2.bound 1)) : grid2.Coords :=
  fun | 0 => c | 1 => s | ⟨_ + 2, h⟩ => absurd h (Nat.not_lt.2 (Nat.le_add_left _ _))

/-- The body table's entry for call 1's kernel on a vector subcore: the kernel at the subcore's grid point. -/
theorem defs₀_vector1 (c : Fin τ.nSC) (s : Fin τ.nSub) :
    defs₀ (F := F) (.scVector c s) 2 ⟨⟩
      = SparseCore.onTile hcore2 hsub2 (fun c s => cc2__sc_gather_body (coordsV1 c s)
          (Memref.whole main_v0_scv) (Memref.isWhole_whole _) (Memref.whole main_v29_scv) (Memref.isWhole_whole _)
          (Memref.whole main_v30_scv) (Memref.isWhole_whole _) (Memref.whole cc2_scratch0) (Memref.isWhole_whole _)
          (Memref.whole cc2_scratch1) (Memref.isWhole_whole _) (Memref.whole cc2_scratch2) (Memref.isWhole_whole _)
          cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13) ⟨⟩ c s := rfl

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Call 0's task on every vector subcore of its grid is `tile_body0` at that subcore's coordinates. -/
theorem tileObl0 (hF : (K (F := F)).Facts) (hidx : IdxOK0 ix0) : (K (F := F)).TileObl (D (F := F)) 𝒱 (P m tab ix0 ix1) v₀ 0 := by
  intro d c i O W hO _ _
  simp only [show (P m tab ix0 ix1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 m tab ix0 d hF hidx (coordsV0 ⟨_, hci.1⟩ ⟨_, hci.2⟩) O W hO).trans (wp_mono frame _ _ fun _ => obl_post)

/-- Call 1's task on every vector subcore of its grid is `tile_body1` at that subcore's coordinates. -/
theorem tileObl1 (hF : (K (F := F)).Facts) (hidx : IdxOK1 ix1) : (K (F := F)).TileObl (D (F := F)) 𝒱 (P m tab ix0 ix1) v₀ 1 := by
  intro d c i O W hO _ _
  simp only [show (P m tab ix0 ix1).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 m tab ix1 d hF hidx (coordsV1 ⟨_, hci.1⟩ ⟨_, hci.2⟩) O W hO).trans (wp_mono frame _ _ fun _ => obl_post)

end Obl

end Cert.Proof.KI

end
-- ==== Proof.Final.lean ====
/-
  The kernel program's run: the launch theorem applied to the gather kernel's tasks, their splits, @main's proof, the
  launch element and the final reading — every weakly fair execution of the TensorCore, the sequencers and the thirty-two
  vector subcores ends, nothing faulting, the argument arrays as at launch.
-/
import proofs.«205278_g66915590471714_cont_9to1_m_383_35_alg».proof.Proof.Main
import proofs.«205278_g66915590471714_cont_9to1_m_383_35_alg».proof.Proof.TileObl

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Run

variable (m : (ℓ : Loc nD τ sig) → Buf (Elt F) ℓ) (ρ : Dev nD → PrngReg)

/-- The argument arrays of every device hold their launch contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)
  ∧ r.2.mem ((SparseCore.T c).loc main_arg7) = m ((SparseCore.T c).loc main_arg7)
  ∧ r.2.mem ((SparseCore.T c).loc main_arg8) = m ((SparseCore.T c).loc main_arg8)
  ∧ r.2.mem ((SparseCore.T c).loc main_arg9) = m ((SparseCore.T c).loc main_arg9)
  ∧ r.2.mem ((SparseCore.T c).loc main_arg10) = m ((SparseCore.T c).loc main_arg10)
  ∧ r.2.mem ((SparseCore.T c).loc main_arg11) = m ((SparseCore.T c).loc main_arg11)
  ∧ r.2.mem ((SparseCore.T c).loc main_arg12) = m ((SparseCore.T c).loc main_arg12)
  ∧ r.2.mem ((SparseCore.T c).loc main_arg13) = m ((SparseCore.T c).loc main_arg13)
  ∧ r.2.mem ((SparseCore.T c).loc main_arg14) = m ((SparseCore.T c).loc main_arg14)
  ∧ r.2.mem ((SparseCore.T c).loc main_arg15) = m ((SparseCore.T c).loc main_arg15)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq | 1 => nomatch hq)
    (fun q _ => match q with
      | 0 => tileObl0 m (tabC m) (ix0C m) (ix1C m) facts (idxOK0_of_pre m hpre)
      | 1 => tileObl1 m (tabC m) (ix0C m) (ix1C m) facts (idxOK1_of_pre m hpre))
    (fun q _ => match q with
      | 0 => SparseCore.Cfg.VecSplit.of_plain (vecSplit0 m (tabC m) (ix0C m) (ix1C m))
      | 1 => SparseCore.Cfg.VecSplit.of_plain (vecSplit1 m (tabC m) (ix0C m) (ix1C m)))
    m ρ main (G (F := F)) (FIN m) (u₀ (F := F)) (sep_elim_left.trans (hu₀ m (tabC m) (ix0C m) (ix1C m))) (hmain m ρ) (fq m) (hfin m) (QC m) (fun _ h => h)

end Run

end Cert.Proof.KI

end
-- ==== Proof.KB.Setup.lean ====
/-
  The kernel program as the SparseCore launch theorem sees it, and what its handshakes carry.

  The program makes two calls of one gather kernel on the 2 x 16 vector subcores, each followed by a
  TensorCore pipeline over four row blocks.  Tile (core c, subcore s) of a call is worker w = 2 s + c; it
  reads the whole embedding table and the whole index array (read shares, one per worker) and writes the
  thirteen 128-row blocks t = 13 w + k (k < 13) of the call's gathered-rows array, rows [128 t, 128 t + 128).
  So what a call hands a tile is: a share of the table, a share of the index array, and those thirteen
  blocks of the output; what the tile hands back is the same with the blocks at contents not named.
-/
import proofs.«205278_g66915590471714_cont_9to1_m_383_35_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205278_g66915590471714_cont_9to1_m_383_35_alg».proof.Proof.Gen.Kernel
import proofs.«205278_g66915590471714_cont_9to1_m_383_35_alg».proof.Proof.Gen.Kernel.Skeleton
import proofs.«205278_g66915590471714_cont_9to1_m_383_35_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP; infer_instance

/-! ## The arrays the calls move, and how they are cut -/

/-- The embedding table (the reshaped `emb`), as device `d`'s TensorCore addresses it. -/
abbrev tabLoc (d : Dev nD) : Loc nD τ sig := (SparseCore.T d).loc main_v0

/-- Call 0's index array and gathered-rows array, as device `d`'s TensorCore addresses them. -/
abbrev idx0Loc (d : Dev nD) : Loc nD τ sig := (SparseCore.T d).loc main_v21
abbrev out0Loc (d : Dev nD) : Loc nD τ sig := (SparseCore.T d).loc main_v22

/-- Call 1's index array and gathered-rows array, as device `d`'s TensorCore addresses them. -/
abbrev idx1Loc (d : Dev nD) : Loc nD τ sig := (SparseCore.T d).loc main_v29
abbrev out1Loc (d : Dev nD) : Loc nD τ sig := (SparseCore.T d).loc main_v30

/-- Worker `w`'s read share of an array every worker reads whole: the full share halved `w` times, then its right half. -/
abbrev tq (w : ℕ) : PosShare TreeShare := shareTokN fullShare w

/-- The gathered-rows arrays have 53248 = 416 · 128 rows: block `t` is rows [128 t, 128 t + 128). -/
theorem odiv : 416 ∣ S53248x128.size 0 := ⟨128, rfl⟩
abbrev oblk (t : Fin 416) : Rect S53248x128 := Rect.part (s := S53248x128) (a₀ := 0) odiv t
/-- Block `t`'s elements; no elements for a number that names no block. -/
def oSetN (t : ℕ) : Finset S53248x128.Idx := if h : t < 416 then (oblk ⟨t, h⟩).set else ∅

/-! ## What the handshakes carry -/

section Payload

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- What call 0 hands worker `w`: its read shares of the table and of the call's index array, and its thirteen
    row blocks of the call's output at the launch contents; -/
def tileIn0 (d : Dev nD) (w : ℕ) : sProp 𝕄 :=
  iprop((tabLoc d ↦{tq w} tab d) ∗ (idx0Loc d ↦{tq w} ix0 d)
    ∗ bigSep (Finset.univ : Finset (Fin 13)) fun k => out0Loc d ↦[oSetN (13 * w + k.val)]{fullShare} m (out0Loc d))
/-- and what the worker hands back: the shares, and the blocks at contents the frame does not name. -/
def tileOut0 (d : Dev nD) (w : ℕ) : sProp 𝕄 :=
  iprop((tabLoc d ↦{tq w} tab d) ∗ (idx0Loc d ↦{tq w} ix0 d)
    ∗ bigSep (Finset.univ : Finset (Fin 13)) fun k => iprop(∃ f, out0Loc d ↦[oSetN (13 * w + k.val)]{fullShare} f))

/-- What call 1 hands worker `w`: its read shares of the table and of the call's index array, and its thirteen
    row blocks of the call's output at the launch contents; -/
def tileIn1 (d : Dev nD) (w : ℕ) : sProp 𝕄 :=
  iprop((tabLoc d ↦{tq w} tab d) ∗ (idx1Loc d ↦{tq w} ix1 d)
    ∗ bigSep (Finset.univ : Finset (Fin 13)) fun k => out1Loc d ↦[oSetN (13 * w + k.val)]{fullShare} m (out1Loc d))
/-- and what the worker hands back: the shares, and the blocks at contents the frame does not name. -/
def tileOut1 (d : Dev nD) (w : ℕ) : sProp 𝕄 :=
  iprop((tabLoc d ↦{tq w} tab d) ∗ (idx1Loc d ↦{tq w} ix1 d)
    ∗ bigSep (Finset.univ : Finset (Fin 13)) fun k => iprop(∃ f, out1Loc d ↦[oSetN (13 * w + k.val)]{fullShare} f))

/-- Each call hands SparseCore `c` what its sixteen workers `2 i + c` need, each worker that, and takes it back. -/
def P : (K (F := F)).Pay (nD := nD) (Val := Elt F) (Name := ℕ) (U := UU) where
  st := fun q d c => match q with
    | 0 => bigSep (Finset.univ : Finset (Fin 16)) fun i => tileIn0 m tab ix0 d (2 * i.val + c.val)
    | 1 => bigSep (Finset.univ : Finset (Fin 16)) fun i => tileIn1 m tab ix1 d (2 * i.val + c.val)
  dn := fun q d c => match q with
    | 0 => bigSep (Finset.univ : Finset (Fin 16)) fun i => tileOut0 tab ix0 d (2 * i.val + c.val)
    | 1 => bigSep (Finset.univ : Finset (Fin 16)) fun i => tileOut1 tab ix1 d (2 * i.val + c.val)
  go := fun q d c i => match q with
    | 0 => tileIn0 m tab ix0 d (2 * i.val + c.val)
    | 1 => tileIn1 m tab ix1 d (2 * i.val + c.val)
  td := fun q d c i => match q with
    | 0 => tileOut0 tab ix0 d (2 * i.val + c.val)
    | 1 => tileOut1 tab ix1 d (2 * i.val + c.val)
  x := fun _ _ => iprop(emp)

instance P_storable : (P (F := F) m tab ix0 ix1).IsStorable where
  st q d c := match q with
    | 0 => by unfold P tileIn0; infer_instance
    | 1 => by unfold P tileIn1; infer_instance
  dn q d c := match q with
    | 0 => by unfold P tileOut0; infer_instance
    | 1 => by unfold P tileOut1; infer_instance
  go q d c i := match q with
    | 0 => by unfold P tileIn0; infer_instance
    | 1 => by unfold P tileIn1; infer_instance
  td q d c i := match q with
    | 0 => by unfold P tileOut0; infer_instance
    | 1 => by unfold P tileOut1; infer_instance

end Payload

end Cert.Proof.KB

end
-- ==== Proof.KB.TcBody.lean ====
/-
  The TensorCore kernel body at one grid point, as a pure function of its input blocks (both pipeline calls).
-/
import proofs.«205278_g66915590471714_cont_9to1_m_383_35_alg».proof.Proof.KB.Setup
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe

variable {F : FTy → Type} [FloatOps F]

local notation "𝕄" => MT nD τ sig (HIx 2) (Elt F) ℕ UU ℕ

/-- The one store's rectangle is the whole 512 x 1 block: it covers the block. -/
theorem tcOut_cover (p0 : Vec F S512x1 .f32) (y : S512x1.Idx) :
    ∃ pc ∈ ([⟨Rect.unit (s := S512x1) ![0, 0] S512x1.size inb_S512x1_S512x1_0_0, p0⟩] : List (View.Piece (Elt F) S512x1 .f32)), y ∈ pc.1.set :=
  View.cover_of_tiled [⟨Rect.unit (s := S512x1) ![0, 0] S512x1.size inb_S512x1_S512x1_0_0, p0⟩] S512x1.size (by rfl) y

/-- What the body of pipeline call 1 leaves in its output block (512 rows x 1), from what its thirty-eight input
    blocks hold: the one store's payload, the skeleton's payloads composed in the body's order — the per-field
    blocks e_f, their pairwise sums and squares, the lane sum of (Σ e)² − Σ e², the two small products, the three
    rectified dense layers over the concatenated row, and the read-out. -/
def tcOut1 (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) : Vec F S512x1 .f32 :=
  let e0 : Vec F S512x128 .f32 := View.ld x13 (Rect.unit (s := S512x128) ![0, 0] S512x128.size inb_S512x128_S512x128_0_0)
  let e1 : Vec F S512x128 .f32 := View.ld x14 (Rect.unit (s := S512x128) ![0, 0] S512x128.size inb_S512x128_S512x128_0_0)
  let e2 : Vec F S512x128 .f32 := View.ld x15 (Rect.unit (s := S512x128) ![0, 0] S512x128.size inb_S512x128_S512x128_0_0)
  let e3 : Vec F S512x128 .f32 := View.ld x16 (Rect.unit (s := S512x128) ![0, 0] S512x128.size inb_S512x128_S512x128_0_0)
  let e4 : Vec F S512x128 .f32 := View.ld x17 (Rect.unit (s := S512x128) ![0, 0] S512x128.size inb_S512x128_S512x128_0_0)
  let e5 : Vec F S512x128 .f32 := View.ld x18 (Rect.unit (s := S512x128) ![0, 0] S512x128.size inb_S512x128_S512x128_0_0)
  let e6 : Vec F S512x128 .f32 := View.ld x19 (Rect.unit (s := S512x128) ![0, 0] S512x128.size inb_S512x128_S512x128_0_0)
  let e7 : Vec F S512x128 .f32 := View.ld x20 (Rect.unit (s := S512x128) ![0, 0] S512x128.size inb_S512x128_S512x128_0_0)
  let e8 : Vec F S512x128 .f32 := View.ld x21 (Rect.unit (s := S512x128) ![0, 0] S512x128.size inb_S512x128_S512x128_0_0)
  let e9 : Vec F S512x128 .f32 := View.ld x22 (Rect.unit (s := S512x128) ![0, 0] S512x128.size inb_S512x128_S512x128_0_0)
  let e10 : Vec F S512x128 .f32 := View.ld x23 (Rect.unit (s := S512x128) ![0, 0] S512x128.size inb_S512x128_S512x128_0_0)
  let e11 : Vec F S512x128 .f32 := View.ld x24 (Rect.unit (s := S512x128) ![0, 0] S512x128.size inb_S512x128_S512x128_0_0)
  let e12 : Vec F S512x128 .f32 := View.ld x25 (Rect.unit (s := S512x128) ![0, 0] S512x128.size inb_S512x128_S512x128_0_0)
  let e13 : Vec F S512x128 .f32 := View.ld x26 (Rect.unit (s := S512x128) ![0, 0] S512x128.size inb_S512x128_S512x128_0_0)
  let e14 : Vec F S512x128 .f32 := View.ld x27 (Rect.unit (s := S512x128) ![0, 0] S512x128.size inb_S512x128_S512x128_0_0)
  let e15 : Vec F S512x128 .f32 := View.ld x28 (Rect.unit (s := S512x128) ![0, 0] S512x128.size inb_S512x128_S512x128_0_0)
  let e16 : Vec F S512x128 .f32 := View.ld x29 (Rect.unit (s := S512x128) ![0, 0] S512x128.size inb_S512x128_S512x128_0_0)
  let e17 : Vec F S512x128 .f32 := View.ld x30 (Rect.unit (s := S512x128) ![0, 0] S512x128.size inb_S512x128_S512x128_0_0)
  let e18 : Vec F S512x128 .f32 := View.ld x31 (Rect.unit (s := S512x128) ![0, 0] S512x128.size inb_S512x128_S512x128_0_0)
  let e19 : Vec F S512x128 .f32 := View.ld x32 (Rect.unit (s := S512x128) ![0, 0] S512x128.size inb_S512x128_S512x128_0_0)
  let e20 : Vec F S512x128 .f32 := View.ld x33 (Rect.unit (s := S512x128) ![0, 0] S512x128.size inb_S512x128_S512x128_0_0)
  let e21 : Vec F S512x128 .f32 := View.ld x34 (Rect.unit (s := S512x128) ![0, 0] S512x128.size inb_S512x128_S512x128_0_0)
  let e22 : Vec F S512x128 .f32 := View.ld x35 (Rect.unit (s := S512x128) ![0, 0] S512x128.size inb_S512x128_S512x128_0_0)
  let e23 : Vec F S512x128 .f32 := View.ld x36 (Rect.unit (s := S512x128) ![0, 0] S512x128.size inb_S512x128_S512x128_0_0)
  let e24 : Vec F S512x128 .f32 := View.ld x37 (Rect.unit (s := S512x128) ![0, 0] S512x128.size inb_S512x128_S512x128_0_0)
  let e25 : Vec F S512x128 .f32 := View.ld x38 (Rect.unit (s := S512x128) ![0, 0] S512x128.size inb_S512x128_S512x128_0_0)
  let v1 := k1_pay2 e0
  let v3 := k1_pay3 e1
  let v5 := k1_pay4 e2
  let v7 := k1_pay5 e3
  let v9 := k1_pay6 e4
  let v11 := k1_pay7 e5
  let v13 := k1_pay8 e6
  let v15 := k1_pay9 e7
  let v17 := k1_pay10 e8
  let v19 := k1_pay11 e9
  let v21 := k1_pay12 e10
  let v23 := k1_pay13 e11
  let v25 := k1_pay14 e12
  let v27 := k1_pay15 e13
  let v29 := k1_pay16 e14
  let v31 := k1_pay17 e15
  let v33 := k1_pay18 e16
  let v35 := k1_pay19 e17
  let v37 := k1_pay20 e18
  let v39 := k1_pay21 e19
  let v41 := k1_pay22 e20
  let v43 := k1_pay23 e21
  let v45 := k1_pay24 e22
  let v47 := k1_pay25 e23
  let v49 := k1_pay26 e24
  let v51 := k1_pay27 e25
  let v56 := k1_pay28 v17 v19
  let v57 := k1_pay29 v21 v23
  let v58 := k1_pay30 v25 v27
  let v59 := k1_pay31 e14 e15
  let v60 := k1_pay32 e16 e17
  let v61 := k1_pay33 e18 e19
  let v62 := k1_pay34 e20 e21
  let v63 := k1_pay35 e22 e23
  let v64 := k1_pay36 e24 e25
  let v65 := k1_pay37 v1 v3 v5 v7
  let v66 := k1_pay38 v9 v11 v13 v15
  let v76 := k1_pay39 v56 v57 v58 v59 v60 v61 v62 v63 v64 v65 v66
  let v125 := k1_pay40 v1 v3 v5 v7 v9 v11 v13 v15 v17 v19 v21 v23 v25 v27 v29 v31
  let v126 := k1_pay41 v33 v35 v37 v39 v41 v43 v45 v47 v49 v51
  let v133 := k1_pay42 v76 v125 v126
  let v134 : Vec F S512x143 .f32 := View.ld x1 (Rect.unit (s := S512x143) ![0, 0] S512x143.size inb_S512x143_S512x143_0_0)
  let v136 : Vec F S512x13 .f32 := View.ld x2 (Rect.unit (s := S512x13) ![0, 0] S512x13.size inb_S512x13_S512x13_0_0)
  let v138 : Vec F S143x1 .f32 := View.ld x3 (Rect.unit (s := S143x1) ![0, 0] S143x1.size inb_S143x1_S143x1_0_0)
  let v140 : Vec F S13x1 .f32 := View.ld x4 (Rect.unit (s := S13x1) ![0, 0] S13x1.size inb_S13x1_S13x1_0_0)
  let v144 : Vec F S143x1024 .bf16 := View.ld x5 (Rect.unit (s := S3484x1024) ![0, 0] S143x1024.size inb_S3484x1024_S143x1024_0_0)
  let v148 : Vec F S13x1024 .bf16 := View.ld x5 (Rect.unit (s := S3484x1024) ![143, 0] S13x1024.size inb_S3484x1024_S13x1024_143_0)
  let v153 : Vec F S3328x1024 .bf16 := View.ld x5 (Rect.unit (s := S3484x1024) ![156, 0] S3328x1024.size inb_S3484x1024_S3328x1024_156_0)
  let v158 : Vec F S1x1024 .f32 := View.ld x6 (Rect.unit (s := S1x1024) ![0, 0] S1x1024.size inb_S1x1024_S1x1024_0_0)
  let v142 := k1_pay45 v134 v136 v138 v140
  let v161 := k1_pay46 v1 v3 v5 v7 v9 v11 v13 v15 v17 v19 v21 v23 v25 v27 v29 v31 v33 v35 v37 v39 v41 v43 v45 v47 v49 v51 v134 v136 v144 v148 v153 v158
  let v162 : FVec F S512x1024 .f32 := k1_pay47 (F := F)
  View.canon [⟨(Rect.unit (s := S512x1) ![0, 0] S512x1.size inb_S512x1_S512x1_0_0), k1_pay1 v133 v142 v161 v162 (View.ld x7 (Rect.unit (s := S1024x512) ![0, 0] S1024x512.size inb_S1024x512_S1024x512_0_0)) (View.ld x8 (Rect.unit (s := S1x512) ![0, 0] S1x512.size inb_S1x512_S1x512_0_0)) (View.ld x9 (Rect.unit (s := S512x256) ![0, 0] S512x256.size inb_S512x256_S512x256_0_0)) (View.ld x10 (Rect.unit (s := S1x256) ![0, 0] S1x256.size inb_S1x256_S1x256_0_0)) (View.ld x11 (Rect.unit (s := S256x1) ![0, 0] S256x1.size inb_S256x1_S256x1_0_0)) (View.ld x12 (Rect.unit (s := S1x1) ![0, 0] S1x1.size inb_S1x1_S1x1_0_0))⟩]

set_option maxHeartbeats 1000000 in
set_option maxRecDepth 65536 in
/-- The TensorCore body of call 1 on whole staging memrefs — the inputs' at contents `x1 … x38`, the output's at
    anything — runs to the continuation holding the inputs' as they were and the output's at `tcOut1` of them; the
    HBM operand `arg39` (the aliased result, memory space ANY) is not touched. -/
theorem sound_tc1 (c : Dev nD) (E : Set ℕ) (i : grid1.Coords) (arg1 : Memref sig .tc .vmem S512x143 .f32) (harg1 : arg1.IsWhole) (arg2 : Memref sig .tc .vmem S512x13 .f32) (harg2 : arg2.IsWhole) (arg3 : Memref sig .tc .vmem S143x1 .f32) (harg3 : arg3.IsWhole) (arg4 : Memref sig .tc .vmem S13x1 .f32) (harg4 : arg4.IsWhole) (arg5 : Memref sig .tc .vmem S3484x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x1 .bf16) (harg11 : arg11.IsWhole) (arg12 : Memref sig .tc .vmem S1x1 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S512x128 .f32) (harg33 : arg33.IsWhole) (arg34 : Memref sig .tc .vmem S512x128 .f32) (harg34 : arg34.IsWhole) (arg35 : Memref sig .tc .vmem S512x128 .f32) (harg35 : arg35.IsWhole) (arg36 : Memref sig .tc .vmem S512x128 .f32) (harg36 : arg36.IsWhole) (arg37 : Memref sig .tc .vmem S512x128 .f32) (harg37 : arg37.IsWhole) (arg38 : Memref sig .tc .vmem S512x128 .f32) (harg38 : arg38.IsWhole) (arg39 : Memref sig .tc .hbm S4096x1 .f32) (harg39 : arg39.IsWhole) (arg40 : Memref sig .tc .vmem S512x1 .f32) (harg40 : arg40.IsWhole)
    (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) (Kc : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ (∃ d, owns (c : Thread nD τ) arg40 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg40 fullShare (tcOut1 x1 x2 x3 x4 x5 x6 x7 x8 x9 x10 x11 x12 x13 x14 x15 x16 x17 x18 x19 x20 x21 x22 x23 x24 x25 x26 x27 x28 x29 x30 x31 x32 x33 x34 x35 x36 x37 x38)) -∗ Kc ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) Kc := by
  simp only [cc1__tc_body_eq_skeleton]; unfold cc1__tc_body_skel
  simp only [k1_part1_eq_skeleton, k1_part2_eq_skeleton, k1_part3_eq_skeleton, k1_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%d40, %f40, -, H40⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  iexists _; isplitr
  swap; · iexact H40
  ipureintro
  exact View.read_writes_eq_canon _ _ _ (tcOut_cover _)

/-- What the body of pipeline call 3 leaves in its output block (512 rows x 1), from what its thirty-eight input
    blocks hold: the one store's payload, the skeleton's payloads composed in the body's order — the per-field
    blocks e_f, their pairwise sums and squares, the lane sum of (Σ e)² − Σ e², the two small products, the three
    rectified dense layers over the concatenated row, and the read-out. -/
def tcOut3 (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) : Vec F S512x1 .f32 :=
  let e0 : Vec F S512x128 .f32 := View.ld x13 (Rect.unit (s := S512x128) ![0, 0] S512x128.size inb_S512x128_S512x128_0_0)
  let e1 : Vec F S512x128 .f32 := View.ld x14 (Rect.unit (s := S512x128) ![0, 0] S512x128.size inb_S512x128_S512x128_0_0)
  let e2 : Vec F S512x128 .f32 := View.ld x15 (Rect.unit (s := S512x128) ![0, 0] S512x128.size inb_S512x128_S512x128_0_0)
  let e3 : Vec F S512x128 .f32 := View.ld x16 (Rect.unit (s := S512x128) ![0, 0] S512x128.size inb_S512x128_S512x128_0_0)
  let e4 : Vec F S512x128 .f32 := View.ld x17 (Rect.unit (s := S512x128) ![0, 0] S512x128.size inb_S512x128_S512x128_0_0)
  let e5 : Vec F S512x128 .f32 := View.ld x18 (Rect.unit (s := S512x128) ![0, 0] S512x128.size inb_S512x128_S512x128_0_0)
  let e6 : Vec F S512x128 .f32 := View.ld x19 (Rect.unit (s := S512x128) ![0, 0] S512x128.size inb_S512x128_S512x128_0_0)
  let e7 : Vec F S512x128 .f32 := View.ld x20 (Rect.unit (s := S512x128) ![0, 0] S512x128.size inb_S512x128_S512x128_0_0)
  let e8 : Vec F S512x128 .f32 := View.ld x21 (Rect.unit (s := S512x128) ![0, 0] S512x128.size inb_S512x128_S512x128_0_0)
  let e9 : Vec F S512x128 .f32 := View.ld x22 (Rect.unit (s := S512x128) ![0, 0] S512x128.size inb_S512x128_S512x128_0_0)
  let e10 : Vec F S512x128 .f32 := View.ld x23 (Rect.unit (s := S512x128) ![0, 0] S512x128.size inb_S512x128_S512x128_0_0)
  let e11 : Vec F S512x128 .f32 := View.ld x24 (Rect.unit (s := S512x128) ![0, 0] S512x128.size inb_S512x128_S512x128_0_0)
  let e12 : Vec F S512x128 .f32 := View.ld x25 (Rect.unit (s := S512x128) ![0, 0] S512x128.size inb_S512x128_S512x128_0_0)
  let e13 : Vec F S512x128 .f32 := View.ld x26 (Rect.unit (s := S512x128) ![0, 0] S512x128.size inb_S512x128_S512x128_0_0)
  let e14 : Vec F S512x128 .f32 := View.ld x27 (Rect.unit (s := S512x128) ![0, 0] S512x128.size inb_S512x128_S512x128_0_0)
  let e15 : Vec F S512x128 .f32 := View.ld x28 (Rect.unit (s := S512x128) ![0, 0] S512x128.size inb_S512x128_S512x128_0_0)
  let e16 : Vec F S512x128 .f32 := View.ld x29 (Rect.unit (s := S512x128) ![0, 0] S512x128.size inb_S512x128_S512x128_0_0)
  let e17 : Vec F S512x128 .f32 := View.ld x30 (Rect.unit (s := S512x128) ![0, 0] S512x128.size inb_S512x128_S512x128_0_0)
  let e18 : Vec F S512x128 .f32 := View.ld x31 (Rect.unit (s := S512x128) ![0, 0] S512x128.size inb_S512x128_S512x128_0_0)
  let e19 : Vec F S512x128 .f32 := View.ld x32 (Rect.unit (s := S512x128) ![0, 0] S512x128.size inb_S512x128_S512x128_0_0)
  let e20 : Vec F S512x128 .f32 := View.ld x33 (Rect.unit (s := S512x128) ![0, 0] S512x128.size inb_S512x128_S512x128_0_0)
  let e21 : Vec F S512x128 .f32 := View.ld x34 (Rect.unit (s := S512x128) ![0, 0] S512x128.size inb_S512x128_S512x128_0_0)
  let e22 : Vec F S512x128 .f32 := View.ld x35 (Rect.unit (s := S512x128) ![0, 0] S512x128.size inb_S512x128_S512x128_0_0)
  let e23 : Vec F S512x128 .f32 := View.ld x36 (Rect.unit (s := S512x128) ![0, 0] S512x128.size inb_S512x128_S512x128_0_0)
  let e24 : Vec F S512x128 .f32 := View.ld x37 (Rect.unit (s := S512x128) ![0, 0] S512x128.size inb_S512x128_S512x128_0_0)
  let e25 : Vec F S512x128 .f32 := View.ld x38 (Rect.unit (s := S512x128) ![0, 0] S512x128.size inb_S512x128_S512x128_0_0)
  let v1 := k3_pay2 e0
  let v3 := k3_pay3 e1
  let v5 := k3_pay4 e2
  let v7 := k3_pay5 e3
  let v9 := k3_pay6 e4
  let v11 := k3_pay7 e5
  let v13 := k3_pay8 e6
  let v15 := k3_pay9 e7
  let v17 := k3_pay10 e8
  let v19 := k3_pay11 e9
  let v21 := k3_pay12 e10
  let v23 := k3_pay13 e11
  let v25 := k3_pay14 e12
  let v27 := k3_pay15 e13
  let v29 := k3_pay16 e14
  let v31 := k3_pay17 e15
  let v33 := k3_pay18 e16
  let v35 := k3_pay19 e17
  let v37 := k3_pay20 e18
  let v39 := k3_pay21 e19
  let v41 := k3_pay22 e20
  let v43 := k3_pay23 e21
  let v45 := k3_pay24 e22
  let v47 := k3_pay25 e23
  let v49 := k3_pay26 e24
  let v51 := k3_pay27 e25
  let v56 := k3_pay28 v17 v19
  let v57 := k3_pay29 v21 v23
  let v58 := k3_pay30 v25 v27
  let v59 := k3_pay31 e14 e15
  let v60 := k3_pay32 e16 e17
  let v61 := k3_pay33 e18 e19
  let v62 := k3_pay34 e20 e21
  let v63 := k3_pay35 e22 e23
  let v64 := k3_pay36 e24 e25
  let v65 := k3_pay37 v1 v3 v5 v7
  let v66 := k3_pay38 v9 v11 v13 v15
  let v76 := k3_pay39 v56 v57 v58 v59 v60 v61 v62 v63 v64 v65 v66
  let v125 := k3_pay40 v1 v3 v5 v7 v9 v11 v13 v15 v17 v19 v21 v23 v25 v27 v29 v31
  let v126 := k3_pay41 v33 v35 v37 v39 v41 v43 v45 v47 v49 v51
  let v133 := k3_pay42 v76 v125 v126
  let v134 : Vec F S512x143 .f32 := View.ld x1 (Rect.unit (s := S512x143) ![0, 0] S512x143.size inb_S512x143_S512x143_0_0)
  let v136 : Vec F S512x13 .f32 := View.ld x2 (Rect.unit (s := S512x13) ![0, 0] S512x13.size inb_S512x13_S512x13_0_0)
  let v138 : Vec F S143x1 .f32 := View.ld x3 (Rect.unit (s := S143x1) ![0, 0] S143x1.size inb_S143x1_S143x1_0_0)
  let v140 : Vec F S13x1 .f32 := View.ld x4 (Rect.unit (s := S13x1) ![0, 0] S13x1.size inb_S13x1_S13x1_0_0)
  let v144 : Vec F S143x1024 .bf16 := View.ld x5 (Rect.unit (s := S3484x1024) ![0, 0] S143x1024.size inb_S3484x1024_S143x1024_0_0)
  let v148 : Vec F S13x1024 .bf16 := View.ld x5 (Rect.unit (s := S3484x1024) ![143, 0] S13x1024.size inb_S3484x1024_S13x1024_143_0)
  let v153 : Vec F S3328x1024 .bf16 := View.ld x5 (Rect.unit (s := S3484x1024) ![156, 0] S3328x1024.size inb_S3484x1024_S3328x1024_156_0)
  let v158 : Vec F S1x1024 .f32 := View.ld x6 (Rect.unit (s := S1x1024) ![0, 0] S1x1024.size inb_S1x1024_S1x1024_0_0)
  let v142 := k3_pay45 v134 v136 v138 v140
  let v161 := k3_pay46 v1 v3 v5 v7 v9 v11 v13 v15 v17 v19 v21 v23 v25 v27 v29 v31 v33 v35 v37 v39 v41 v43 v45 v47 v49 v51 v134 v136 v144 v148 v153 v158
  let v162 : FVec F S512x1024 .f32 := k3_pay47 (F := F)
  View.canon [⟨(Rect.unit (s := S512x1) ![0, 0] S512x1.size inb_S512x1_S512x1_0_0), k3_pay1 v133 v142 v161 v162 (View.ld x7 (Rect.unit (s := S1024x512) ![0, 0] S1024x512.size inb_S1024x512_S1024x512_0_0)) (View.ld x8 (Rect.unit (s := S1x512) ![0, 0] S1x512.size inb_S1x512_S1x512_0_0)) (View.ld x9 (Rect.unit (s := S512x256) ![0, 0] S512x256.size inb_S512x256_S512x256_0_0)) (View.ld x10 (Rect.unit (s := S1x256) ![0, 0] S1x256.size inb_S1x256_S1x256_0_0)) (View.ld x11 (Rect.unit (s := S256x1) ![0, 0] S256x1.size inb_S256x1_S256x1_0_0)) (View.ld x12 (Rect.unit (s := S1x1) ![0, 0] S1x1.size inb_S1x1_S1x1_0_0))⟩]

set_option maxHeartbeats 1000000 in
set_option maxRecDepth 65536 in
/-- The TensorCore body of call 3 on whole staging memrefs — the inputs' at contents `x1 … x38`, the output's at
    anything — runs to the continuation holding the inputs' as they were and the output's at `tcOut3` of them; the
    HBM operand `arg39` (the aliased result, memory space ANY) is not touched. -/
theorem sound_tc3 (c : Dev nD) (E : Set ℕ) (i : grid3.Coords) (arg1 : Memref sig .tc .vmem S512x143 .f32) (harg1 : arg1.IsWhole) (arg2 : Memref sig .tc .vmem S512x13 .f32) (harg2 : arg2.IsWhole) (arg3 : Memref sig .tc .vmem S143x1 .f32) (harg3 : arg3.IsWhole) (arg4 : Memref sig .tc .vmem S13x1 .f32) (harg4 : arg4.IsWhole) (arg5 : Memref sig .tc .vmem S3484x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x1 .bf16) (harg11 : arg11.IsWhole) (arg12 : Memref sig .tc .vmem S1x1 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S512x128 .f32) (harg33 : arg33.IsWhole) (arg34 : Memref sig .tc .vmem S512x128 .f32) (harg34 : arg34.IsWhole) (arg35 : Memref sig .tc .vmem S512x128 .f32) (harg35 : arg35.IsWhole) (arg36 : Memref sig .tc .vmem S512x128 .f32) (harg36 : arg36.IsWhole) (arg37 : Memref sig .tc .vmem S512x128 .f32) (harg37 : arg37.IsWhole) (arg38 : Memref sig .tc .vmem S512x128 .f32) (harg38 : arg38.IsWhole) (arg39 : Memref sig .tc .hbm S4096x1 .f32) (harg39 : arg39.IsWhole) (arg40 : Memref sig .tc .vmem S512x1 .f32) (harg40 : arg40.IsWhole)
    (x1 : Vec F S512x143 .f32) (x2 : Vec F S512x13 .f32) (x3 : Vec F S143x1 .f32) (x4 : Vec F S13x1 .f32) (x5 : Vec F S3484x1024 .bf16) (x6 : Vec F S1x1024 .f32) (x7 : Vec F S1024x512 .bf16) (x8 : Vec F S1x512 .f32) (x9 : Vec F S512x256 .bf16) (x10 : Vec F S1x256 .f32) (x11 : Vec F S256x1 .bf16) (x12 : Vec F S1x1 .f32) (x13 : Vec F S512x128 .f32) (x14 : Vec F S512x128 .f32) (x15 : Vec F S512x128 .f32) (x16 : Vec F S512x128 .f32) (x17 : Vec F S512x128 .f32) (x18 : Vec F S512x128 .f32) (x19 : Vec F S512x128 .f32) (x20 : Vec F S512x128 .f32) (x21 : Vec F S512x128 .f32) (x22 : Vec F S512x128 .f32) (x23 : Vec F S512x128 .f32) (x24 : Vec F S512x128 .f32) (x25 : Vec F S512x128 .f32) (x26 : Vec F S512x128 .f32) (x27 : Vec F S512x128 .f32) (x28 : Vec F S512x128 .f32) (x29 : Vec F S512x128 .f32) (x30 : Vec F S512x128 .f32) (x31 : Vec F S512x128 .f32) (x32 : Vec F S512x128 .f32) (x33 : Vec F S512x128 .f32) (x34 : Vec F S512x128 .f32) (x35 : Vec F S512x128 .f32) (x36 : Vec F S512x128 .f32) (x37 : Vec F S512x128 .f32) (x38 : Vec F S512x128 .f32) (Kc : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ (∃ d, owns (c : Thread nD τ) arg40 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg40 fullShare (tcOut3 x1 x2 x3 x4 x5 x6 x7 x8 x9 x10 x11 x12 x13 x14 x15 x16 x17 x18 x19 x20 x21 x22 x23 x24 x25 x26 x27 x28 x29 x30 x31 x32 x33 x34 x35 x36 x37 x38)) -∗ Kc ⟨⟩))
      ⊢ wp frame (wpE (defs₀ (F := F)) Variants.none c none) E (cc3__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) Kc := by
  simp only [cc3__tc_body_eq_skeleton]; unfold cc3__tc_body_skel
  simp only [k3_part1_eq_skeleton, k3_part2_eq_skeleton, k3_part3_eq_skeleton, k3_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%d40, %f40, -, H40⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  iexists _; isplitr
  swap; · iexact H40
  ipureintro
  exact View.read_writes_eq_canon _ _ _ (tcOut_cover _)

end Cert.Proof.KB

end
-- ==== Proof.KB.Regions.lean ====
/-
  The two TensorCore pipelines: their proof data (what every window's staging buffer holds after the body at each grid
  point) and the body obligation at a generic point, from the body's triple.
-/
import proofs.«205278_g66915590471714_cont_9to1_m_383_35_alg».proof.Proof.KB.TcBody
import proofs.«205278_g66915590471714_cont_9to1_m_383_35_alg».proof.Proof.Gen.Kernel.Points
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe

variable {F : FTy → Type} [FloatOps F]

local notation "𝕄" => MT nD τ sig (HIx 2) (Elt F) ℕ UU ℕ

/-! ## Pipeline call 0 (custom_call 1) -/

section Region1

variable (Vr : Valuation τ sig (Elt F))

/-- A TensorCore array's contents at the region's entry. -/
abbrev Vb1 (c : Dev nD) (b : Ref sig .tc) : Buf (Elt F) ((c : Thread nD τ).loc b) := Vr (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb1 Vr c (Pipeline.arrRef spec1 w))

/-- The share each input window holds its array at: the twenty-six windows of the gathered-rows array one read token
    each, every other window its array whole. -/
def qW1 (w : Fin cfg1.W) : PosShare TreeShare := if 12 ≤ w.val ∧ w.val ≤ 37 then shareTokN fullShare (w.val - 12) else fullShare

/-- The proof data of the pipeline on core `c`: the arrays as the region finds them; after the body at point `t` each
    input's buffer at its block and the output's at the body's function of the input blocks; the invariant the scoped
    buffers no window stages; the core owing `O` throughout. -/
def dats1 (O : CellTallies nD τ sig (HIx 2)) (Wr : Set (SemLoc sig × HIx 2)) (c : Dev nD) : Pipeline.Dat τ (Elt F) (HIx 2) ℕ UU ℕ cfg1 c where
  A w := Vb1 Vr c (Pipeline.arrRef spec1 w)
  after w t := match w with
    | ⟨0, _⟩ => iblk1 Vr c 0 t
    | ⟨1, _⟩ => iblk1 Vr c 1 t
    | ⟨2, _⟩ => iblk1 Vr c 2 t
    | ⟨3, _⟩ => iblk1 Vr c 3 t
    | ⟨4, _⟩ => iblk1 Vr c 4 t
    | ⟨5, _⟩ => iblk1 Vr c 5 t
    | ⟨6, _⟩ => iblk1 Vr c 6 t
    | ⟨7, _⟩ => iblk1 Vr c 7 t
    | ⟨8, _⟩ => iblk1 Vr c 8 t
    | ⟨9, _⟩ => iblk1 Vr c 9 t
    | ⟨10, _⟩ => iblk1 Vr c 10 t
    | ⟨11, _⟩ => iblk1 Vr c 11 t
    | ⟨12, _⟩ => iblk1 Vr c 12 t
    | ⟨13, _⟩ => iblk1 Vr c 13 t
    | ⟨14, _⟩ => iblk1 Vr c 14 t
    | ⟨15, _⟩ => iblk1 Vr c 15 t
    | ⟨16, _⟩ => iblk1 Vr c 16 t
    | ⟨17, _⟩ => iblk1 Vr c 17 t
    | ⟨18, _⟩ => iblk1 Vr c 18 t
    | ⟨19, _⟩ => iblk1 Vr c 19 t
    | ⟨20, _⟩ => iblk1 Vr c 20 t
    | ⟨21, _⟩ => iblk1 Vr c 21 t
    | ⟨22, _⟩ => iblk1 Vr c 22 t
    | ⟨23, _⟩ => iblk1 Vr c 23 t
    | ⟨24, _⟩ => iblk1 Vr c 24 t
    | ⟨25, _⟩ => iblk1 Vr c 25 t
    | ⟨26, _⟩ => iblk1 Vr c 26 t
    | ⟨27, _⟩ => iblk1 Vr c 27 t
    | ⟨28, _⟩ => iblk1 Vr c 28 t
    | ⟨29, _⟩ => iblk1 Vr c 29 t
    | ⟨30, _⟩ => iblk1 Vr c 30 t
    | ⟨31, _⟩ => iblk1 Vr c 31 t
    | ⟨32, _⟩ => iblk1 Vr c 32 t
    | ⟨33, _⟩ => iblk1 Vr c 33 t
    | ⟨34, _⟩ => iblk1 Vr c 34 t
    | ⟨35, _⟩ => iblk1 Vr c 35 t
    | ⟨36, _⟩ => iblk1 Vr c 36 t
    | ⟨37, _⟩ => iblk1 Vr c 37 t
    | ⟨38, _⟩ => tcOut1 (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t)
    | ⟨_ + 39, h⟩ => absurd h (Nat.not_lt.2 (Nat.le_add_left _ _))
  Φ _ := Pipeline.scopedRest spec1 c
  q w := qW1 w
  owed _ := O
  recorded _ := Wr

theorem A1_eq (O : CellTallies nD τ sig (HIx 2)) (Wr : Set (SemLoc sig × HIx 2)) (c : Dev nD) (w : Fin cfg1.W) : (dats1 Vr O Wr c).A w = Vb1 Vr c (Pipeline.arrRef spec1 w) := by
  dsimp only [dats1]

theorem after1_0 (O : CellTallies nD τ sig (HIx 2)) (Wr : Set (SemLoc sig × HIx 2)) (c : Dev nD) (t : Fin cfg1.N) : (dats1 Vr O Wr c).after 0 t = iblk1 Vr c 0 t := by dsimp only [dats1]
theorem after1_1 (O : CellTallies nD τ sig (HIx 2)) (Wr : Set (SemLoc sig × HIx 2)) (c : Dev nD) (t : Fin cfg1.N) : (dats1 Vr O Wr c).after 1 t = iblk1 Vr c 1 t := by dsimp only [dats1]
theorem after1_2 (O : CellTallies nD τ sig (HIx 2)) (Wr : Set (SemLoc sig × HIx 2)) (c : Dev nD) (t : Fin cfg1.N) : (dats1 Vr O Wr c).after 2 t = iblk1 Vr c 2 t := by dsimp only [dats1]
theorem after1_3 (O : CellTallies nD τ sig (HIx 2)) (Wr : Set (SemLoc sig × HIx 2)) (c : Dev nD) (t : Fin cfg1.N) : (dats1 Vr O Wr c).after 3 t = iblk1 Vr c 3 t := by dsimp only [dats1]
theorem after1_4 (O : CellTallies nD τ sig (HIx 2)) (Wr : Set (SemLoc sig × HIx 2)) (c : Dev nD) (t : Fin cfg1.N) : (dats1 Vr O Wr c).after 4 t = iblk1 Vr c 4 t := by dsimp only [dats1]
theorem after1_5 (O : CellTallies nD τ sig (HIx 2)) (Wr : Set (SemLoc sig × HIx 2)) (c : Dev nD) (t : Fin cfg1.N) : (dats1 Vr O Wr c).after 5 t = iblk1 Vr c 5 t := by dsimp only [dats1]
theorem after1_6 (O : CellTallies nD τ sig (HIx 2)) (Wr : Set (SemLoc sig × HIx 2)) (c : Dev nD) (t : Fin cfg1.N) : (dats1 Vr O Wr c).after 6 t = iblk1 Vr c 6 t := by dsimp only [dats1]
theorem after1_7 (O : CellTallies nD τ sig (HIx 2)) (Wr : Set (SemLoc sig × HIx 2)) (c : Dev nD) (t : Fin cfg1.N) : (dats1 Vr O Wr c).after 7 t = iblk1 Vr c 7 t := by dsimp only [dats1]
theorem after1_8 (O : CellTallies nD τ sig (HIx 2)) (Wr : Set (SemLoc sig × HIx 2)) (c : Dev nD) (t : Fin cfg1.N) : (dats1 Vr O Wr c).after 8 t = iblk1 Vr c 8 t := by dsimp only [dats1]
theorem after1_9 (O : CellTallies nD τ sig (HIx 2)) (Wr : Set (SemLoc sig × HIx 2)) (c : Dev nD) (t : Fin cfg1.N) : (dats1 Vr O Wr c).after 9 t = iblk1 Vr c 9 t := by dsimp only [dats1]
theorem after1_10 (O : CellTallies nD τ sig (HIx 2)) (Wr : Set (SemLoc sig × HIx 2)) (c : Dev nD) (t : Fin cfg1.N) : (dats1 Vr O Wr c).after 10 t = iblk1 Vr c 10 t := by dsimp only [dats1]
theorem after1_11 (O : CellTallies nD τ sig (HIx 2)) (Wr : Set (SemLoc sig × HIx 2)) (c : Dev nD) (t : Fin cfg1.N) : (dats1 Vr O Wr c).after 11 t = iblk1 Vr c 11 t := by dsimp only [dats1]
theorem after1_12 (O : CellTallies nD τ sig (HIx 2)) (Wr : Set (SemLoc sig × HIx 2)) (c : Dev nD) (t : Fin cfg1.N) : (dats1 Vr O Wr c).after 12 t = iblk1 Vr c 12 t := by dsimp only [dats1]
theorem after1_13 (O : CellTallies nD τ sig (HIx 2)) (Wr : Set (SemLoc sig × HIx 2)) (c : Dev nD) (t : Fin cfg1.N) : (dats1 Vr O Wr c).after 13 t = iblk1 Vr c 13 t := by dsimp only [dats1]
theorem after1_14 (O : CellTallies nD τ sig (HIx 2)) (Wr : Set (SemLoc sig × HIx 2)) (c : Dev nD) (t : Fin cfg1.N) : (dats1 Vr O Wr c).after 14 t = iblk1 Vr c 14 t := by dsimp only [dats1]
theorem after1_15 (O : CellTallies nD τ sig (HIx 2)) (Wr : Set (SemLoc sig × HIx 2)) (c : Dev nD) (t : Fin cfg1.N) : (dats1 Vr O Wr c).after 15 t = iblk1 Vr c 15 t := by dsimp only [dats1]
theorem after1_16 (O : CellTallies nD τ sig (HIx 2)) (Wr : Set (SemLoc sig × HIx 2)) (c : Dev nD) (t : Fin cfg1.N) : (dats1 Vr O Wr c).after 16 t = iblk1 Vr c 16 t := by dsimp only [dats1]
theorem after1_17 (O : CellTallies nD τ sig (HIx 2)) (Wr : Set (SemLoc sig × HIx 2)) (c : Dev nD) (t : Fin cfg1.N) : (dats1 Vr O Wr c).after 17 t = iblk1 Vr c 17 t := by dsimp only [dats1]
theorem after1_18 (O : CellTallies nD τ sig (HIx 2)) (Wr : Set (SemLoc sig × HIx 2)) (c : Dev nD) (t : Fin cfg1.N) : (dats1 Vr O Wr c).after 18 t = iblk1 Vr c 18 t := by dsimp only [dats1]
theorem after1_19 (O : CellTallies nD τ sig (HIx 2)) (Wr : Set (SemLoc sig × HIx 2)) (c : Dev nD) (t : Fin cfg1.N) : (dats1 Vr O Wr c).after 19 t = iblk1 Vr c 19 t := by dsimp only [dats1]
theorem after1_20 (O : CellTallies nD τ sig (HIx 2)) (Wr : Set (SemLoc sig × HIx 2)) (c : Dev nD) (t : Fin cfg1.N) : (dats1 Vr O Wr c).after 20 t = iblk1 Vr c 20 t := by dsimp only [dats1]
theorem after1_21 (O : CellTallies nD τ sig (HIx 2)) (Wr : Set (SemLoc sig × HIx 2)) (c : Dev nD) (t : Fin cfg1.N) : (dats1 Vr O Wr c).after 21 t = iblk1 Vr c 21 t := by dsimp only [dats1]
theorem after1_22 (O : CellTallies nD τ sig (HIx 2)) (Wr : Set (SemLoc sig × HIx 2)) (c : Dev nD) (t : Fin cfg1.N) : (dats1 Vr O Wr c).after 22 t = iblk1 Vr c 22 t := by dsimp only [dats1]
theorem after1_23 (O : CellTallies nD τ sig (HIx 2)) (Wr : Set (SemLoc sig × HIx 2)) (c : Dev nD) (t : Fin cfg1.N) : (dats1 Vr O Wr c).after 23 t = iblk1 Vr c 23 t := by dsimp only [dats1]
theorem after1_24 (O : CellTallies nD τ sig (HIx 2)) (Wr : Set (SemLoc sig × HIx 2)) (c : Dev nD) (t : Fin cfg1.N) : (dats1 Vr O Wr c).after 24 t = iblk1 Vr c 24 t := by dsimp only [dats1]
theorem after1_25 (O : CellTallies nD τ sig (HIx 2)) (Wr : Set (SemLoc sig × HIx 2)) (c : Dev nD) (t : Fin cfg1.N) : (dats1 Vr O Wr c).after 25 t = iblk1 Vr c 25 t := by dsimp only [dats1]
theorem after1_26 (O : CellTallies nD τ sig (HIx 2)) (Wr : Set (SemLoc sig × HIx 2)) (c : Dev nD) (t : Fin cfg1.N) : (dats1 Vr O Wr c).after 26 t = iblk1 Vr c 26 t := by dsimp only [dats1]
theorem after1_27 (O : CellTallies nD τ sig (HIx 2)) (Wr : Set (SemLoc sig × HIx 2)) (c : Dev nD) (t : Fin cfg1.N) : (dats1 Vr O Wr c).after 27 t = iblk1 Vr c 27 t := by dsimp only [dats1]
theorem after1_28 (O : CellTallies nD τ sig (HIx 2)) (Wr : Set (SemLoc sig × HIx 2)) (c : Dev nD) (t : Fin cfg1.N) : (dats1 Vr O Wr c).after 28 t = iblk1 Vr c 28 t := by dsimp only [dats1]
theorem after1_29 (O : CellTallies nD τ sig (HIx 2)) (Wr : Set (SemLoc sig × HIx 2)) (c : Dev nD) (t : Fin cfg1.N) : (dats1 Vr O Wr c).after 29 t = iblk1 Vr c 29 t := by dsimp only [dats1]
theorem after1_30 (O : CellTallies nD τ sig (HIx 2)) (Wr : Set (SemLoc sig × HIx 2)) (c : Dev nD) (t : Fin cfg1.N) : (dats1 Vr O Wr c).after 30 t = iblk1 Vr c 30 t := by dsimp only [dats1]
theorem after1_31 (O : CellTallies nD τ sig (HIx 2)) (Wr : Set (SemLoc sig × HIx 2)) (c : Dev nD) (t : Fin cfg1.N) : (dats1 Vr O Wr c).after 31 t = iblk1 Vr c 31 t := by dsimp only [dats1]
theorem after1_32 (O : CellTallies nD τ sig (HIx 2)) (Wr : Set (SemLoc sig × HIx 2)) (c : Dev nD) (t : Fin cfg1.N) : (dats1 Vr O Wr c).after 32 t = iblk1 Vr c 32 t := by dsimp only [dats1]
theorem after1_33 (O : CellTallies nD τ sig (HIx 2)) (Wr : Set (SemLoc sig × HIx 2)) (c : Dev nD) (t : Fin cfg1.N) : (dats1 Vr O Wr c).after 33 t = iblk1 Vr c 33 t := by dsimp only [dats1]
theorem after1_34 (O : CellTallies nD τ sig (HIx 2)) (Wr : Set (SemLoc sig × HIx 2)) (c : Dev nD) (t : Fin cfg1.N) : (dats1 Vr O Wr c).after 34 t = iblk1 Vr c 34 t := by dsimp only [dats1]
theorem after1_35 (O : CellTallies nD τ sig (HIx 2)) (Wr : Set (SemLoc sig × HIx 2)) (c : Dev nD) (t : Fin cfg1.N) : (dats1 Vr O Wr c).after 35 t = iblk1 Vr c 35 t := by dsimp only [dats1]
theorem after1_36 (O : CellTallies nD τ sig (HIx 2)) (Wr : Set (SemLoc sig × HIx 2)) (c : Dev nD) (t : Fin cfg1.N) : (dats1 Vr O Wr c).after 36 t = iblk1 Vr c 36 t := by dsimp only [dats1]
theorem after1_37 (O : CellTallies nD τ sig (HIx 2)) (Wr : Set (SemLoc sig × HIx 2)) (c : Dev nD) (t : Fin cfg1.N) : (dats1 Vr O Wr c).after 37 t = iblk1 Vr c 37 t := by dsimp only [dats1]
theorem after1_38 (O : CellTallies nD τ sig (HIx 2)) (Wr : Set (SemLoc sig × HIx 2)) (c : Dev nD) (t : Fin cfg1.N) : (dats1 Vr O Wr c).after 38 t = tcOut1 (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t) := by dsimp only [dats1]

theorem before1_0 (O : CellTallies nD τ sig (HIx 2)) (Wr : Set (SemLoc sig × HIx 2)) (c : Dev nD) (t : Fin cfg1.N) (d) : (dats1 Vr O Wr c).before 0 t d = iblk1 Vr c 0 t :=
  ((dats1 Vr O Wr c).before_in_eq_fetched 0 rfl (fun _ => rfl) (fun _ _ _ => rfl) (fun t => by rw [after1_0]; unfold Pipeline.Dat.blockOf iblk1; rw [A1_eq]; try rfl) t d).trans
    (by unfold Pipeline.Dat.fetched Pipeline.Dat.blockOf iblk1; rw [A1_eq]; try rfl)
theorem before1_1 (O : CellTallies nD τ sig (HIx 2)) (Wr : Set (SemLoc sig × HIx 2)) (c : Dev nD) (t : Fin cfg1.N) (d) : (dats1 Vr O Wr c).before 1 t d = iblk1 Vr c 1 t :=
  ((dats1 Vr O Wr c).before_in_eq_fetched 1 rfl (fun _ => rfl) (fun _ _ _ => rfl) (fun t => by rw [after1_1]; unfold Pipeline.Dat.blockOf iblk1; rw [A1_eq]; try rfl) t d).trans
    (by unfold Pipeline.Dat.fetched Pipeline.Dat.blockOf iblk1; rw [A1_eq]; try rfl)
theorem before1_2 (O : CellTallies nD τ sig (HIx 2)) (Wr : Set (SemLoc sig × HIx 2)) (c : Dev nD) (t : Fin cfg1.N) (d) : (dats1 Vr O Wr c).before 2 t d = iblk1 Vr c 2 t :=
  ((dats1 Vr O Wr c).before_in_eq_fetched 2 rfl (fun _ => rfl) (fun _ _ _ => rfl) (fun t => by rw [after1_2]; unfold Pipeline.Dat.blockOf iblk1; rw [A1_eq]; try rfl) t d).trans
    (by unfold Pipeline.Dat.fetched Pipeline.Dat.blockOf iblk1; rw [A1_eq]; try rfl)
theorem before1_3 (O : CellTallies nD τ sig (HIx 2)) (Wr : Set (SemLoc sig × HIx 2)) (c : Dev nD) (t : Fin cfg1.N) (d) : (dats1 Vr O Wr c).before 3 t d = iblk1 Vr c 3 t :=
  ((dats1 Vr O Wr c).before_in_eq_fetched 3 rfl (fun _ => rfl) (fun _ _ _ => rfl) (fun t => by rw [after1_3]; unfold Pipeline.Dat.blockOf iblk1; rw [A1_eq]; try rfl) t d).trans
    (by unfold Pipeline.Dat.fetched Pipeline.Dat.blockOf iblk1; rw [A1_eq]; try rfl)
theorem before1_4 (O : CellTallies nD τ sig (HIx 2)) (Wr : Set (SemLoc sig × HIx 2)) (c : Dev nD) (t : Fin cfg1.N) (d) : (dats1 Vr O Wr c).before 4 t d = iblk1 Vr c 4 t :=
  ((dats1 Vr O Wr c).before_in_eq_fetched 4 rfl (fun _ => rfl) (fun _ _ _ => rfl) (fun t => by rw [after1_4]; unfold Pipeline.Dat.blockOf iblk1; rw [A1_eq]; try rfl) t d).trans
    (by unfold Pipeline.Dat.fetched Pipeline.Dat.blockOf iblk1; rw [A1_eq]; try rfl)
theorem before1_5 (O : CellTallies nD τ sig (HIx 2)) (Wr : Set (SemLoc sig × HIx 2)) (c : Dev nD) (t : Fin cfg1.N) (d) : (dats1 Vr O Wr c).before 5 t d = iblk1 Vr c 5 t :=
  ((dats1 Vr O Wr c).before_in_eq_fetched 5 rfl (fun _ => rfl) (fun _ _ _ => rfl) (fun t => by rw [after1_5]; unfold Pipeline.Dat.blockOf iblk1; rw [A1_eq]; try rfl) t d).trans
    (by unfold Pipeline.Dat.fetched Pipeline.Dat.blockOf iblk1; rw [A1_eq]; try rfl)
theorem before1_6 (O : CellTallies nD τ sig (HIx 2)) (Wr : Set (SemLoc sig × HIx 2)) (c : Dev nD) (t : Fin cfg1.N) (d) : (dats1 Vr O Wr c).before 6 t d = iblk1 Vr c 6 t :=
  ((dats1 Vr O Wr c).before_in_eq_fetched 6 rfl (fun _ => rfl) (fun _ _ _ => rfl) (fun t => by rw [after1_6]; unfold Pipeline.Dat.blockOf iblk1; rw [A1_eq]; try rfl) t d).trans
    (by unfold Pipeline.Dat.fetched Pipeline.Dat.blockOf iblk1; rw [A1_eq]; try rfl)
theorem before1_7 (O : CellTallies nD τ sig (HIx 2)) (Wr : Set (SemLoc sig × HIx 2)) (c : Dev nD) (t : Fin cfg1.N) (d) : (dats1 Vr O Wr c).before 7 t d = iblk1 Vr c 7 t :=
  ((dats1 Vr O Wr c).before_in_eq_fetched 7 rfl (fun _ => rfl) (fun _ _ _ => rfl) (fun t => by rw [after1_7]; unfold Pipeline.Dat.blockOf iblk1; rw [A1_eq]; try rfl) t d).trans
    (by unfold Pipeline.Dat.fetched Pipeline.Dat.blockOf iblk1; rw [A1_eq]; try rfl)
theorem before1_8 (O : CellTallies nD τ sig (HIx 2)) (Wr : Set (SemLoc sig × HIx 2)) (c : Dev nD) (t : Fin cfg1.N) (d) : (dats1 Vr O Wr c).before 8 t d = iblk1 Vr c 8 t :=
  ((dats1 Vr O Wr c).before_in_eq_fetched 8 rfl (fun _ => rfl) (fun _ _ _ => rfl) (fun t => by rw [after1_8]; unfold Pipeline.Dat.blockOf iblk1; rw [A1_eq]; try rfl) t d).trans
    (by unfold Pipeline.Dat.fetched Pipeline.Dat.blockOf iblk1; rw [A1_eq]; try rfl)
theorem before1_9 (O : CellTallies nD τ sig (HIx 2)) (Wr : Set (SemLoc sig × HIx 2)) (c : Dev nD) (t : Fin cfg1.N) (d) : (dats1 Vr O Wr c).before 9 t d = iblk1 Vr c 9 t :=
  ((dats1 Vr O Wr c).before_in_eq_fetched 9 rfl (fun _ => rfl) (fun _ _ _ => rfl) (fun t => by rw [after1_9]; unfold Pipeline.Dat.blockOf iblk1; rw [A1_eq]; try rfl) t d).trans
    (by unfold Pipeline.Dat.fetched Pipeline.Dat.blockOf iblk1; rw [A1_eq]; try rfl)
theorem before1_10 (O : CellTallies nD τ sig (HIx 2)) (Wr : Set (SemLoc sig × HIx 2)) (c : Dev nD) (t : Fin cfg1.N) (d) : (dats1 Vr O Wr c).before 10 t d = iblk1 Vr c 10 t :=
  ((dats1 Vr O Wr c).before_in_eq_fetched 10 rfl (fun _ => rfl) (fun _ _ _ => rfl) (fun t => by rw [after1_10]; unfold Pipeline.Dat.blockOf iblk1; rw [A1_eq]; try rfl) t d).trans
    (by unfold Pipeline.Dat.fetched Pipeline.Dat.blockOf iblk1; rw [A1_eq]; try rfl)
theorem before1_11 (O : CellTallies nD τ sig (HIx 2)) (Wr : Set (SemLoc sig × HIx 2)) (c : Dev nD) (t : Fin cfg1.N) (d) : (dats1 Vr O Wr c).before 11 t d = iblk1 Vr c 11 t :=
  ((dats1 Vr O Wr c).before_in_eq_fetched 11 rfl (fun _ => rfl) (fun _ _ _ => rfl) (fun t => by rw [after1_11]; unfold Pipeline.Dat.blockOf iblk1; rw [A1_eq]; try rfl) t d).trans
    (by unfold Pipeline.Dat.fetched Pipeline.Dat.blockOf iblk1; rw [A1_eq]; try rfl)
theorem before1_12 (O : CellTallies nD τ sig (HIx 2)) (Wr : Set (SemLoc sig × HIx 2)) (c : Dev nD) (t : Fin cfg1.N) (d) : (dats1 Vr O Wr c).before 12 t d = iblk1 Vr c 12 t :=
  ((dats1 Vr O Wr c).before_in_eq_fetched 12 rfl (fun _ => rfl) (fun _ _ _ => rfl) (fun t => by rw [after1_12]; unfold Pipeline.Dat.blockOf iblk1; rw [A1_eq]; try rfl) t d).trans
    (by unfold Pipeline.Dat.fetched Pipeline.Dat.blockOf iblk1; rw [A1_eq]; try rfl)
theorem before1_13 (O : CellTallies nD τ sig (HIx 2)) (Wr : Set (SemLoc sig × HIx 2)) (c : Dev nD) (t : Fin cfg1.N) (d) : (dats1 Vr O Wr c).before 13 t d = iblk1 Vr c 13 t :=
  ((dats1 Vr O Wr c).before_in_eq_fetched 13 rfl (fun _ => rfl) (fun _ _ _ => rfl) (fun t => by rw [after1_13]; unfold Pipeline.Dat.blockOf iblk1; rw [A1_eq]; try rfl) t d).trans
    (by unfold Pipeline.Dat.fetched Pipeline.Dat.blockOf iblk1; rw [A1_eq]; try rfl)
theorem before1_14 (O : CellTallies nD τ sig (HIx 2)) (Wr : Set (SemLoc sig × HIx 2)) (c : Dev nD) (t : Fin cfg1.N) (d) : (dats1 Vr O Wr c).before 14 t d = iblk1 Vr c 14 t :=
  ((dats1 Vr O Wr c).before_in_eq_fetched 14 rfl (fun _ => rfl) (fun _ _ _ => rfl) (fun t => by rw [after1_14]; unfold Pipeline.Dat.blockOf iblk1; rw [A1_eq]; try rfl) t d).trans
    (by unfold Pipeline.Dat.fetched Pipeline.Dat.blockOf iblk1; rw [A1_eq]; try rfl)
theorem before1_15 (O : CellTallies nD τ sig (HIx 2)) (Wr : Set (SemLoc sig × HIx 2)) (c : Dev nD) (t : Fin cfg1.N) (d) : (dats1 Vr O Wr c).before 15 t d = iblk1 Vr c 15 t :=
  ((dats1 Vr O Wr c).before_in_eq_fetched 15 rfl (fun _ => rfl) (fun _ _ _ => rfl) (fun t => by rw [after1_15]; unfold Pipeline.Dat.blockOf iblk1; rw [A1_eq]; try rfl) t d).trans
    (by unfold Pipeline.Dat.fetched Pipeline.Dat.blockOf iblk1; rw [A1_eq]; try rfl)
theorem before1_16 (O : CellTallies nD τ sig (HIx 2)) (Wr : Set (SemLoc sig × HIx 2)) (c : Dev nD) (t : Fin cfg1.N) (d) : (dats1 Vr O Wr c).before 16 t d = iblk1 Vr c 16 t :=
  ((dats1 Vr O Wr c).before_in_eq_fetched 16 rfl (fun _ => rfl) (fun _ _ _ => rfl) (fun t => by rw [after1_16]; unfold Pipeline.Dat.blockOf iblk1; rw [A1_eq]; try rfl) t d).trans
    (by unfold Pipeline.Dat.fetched Pipeline.Dat.blockOf iblk1; rw [A1_eq]; try rfl)
theorem before1_17 (O : CellTallies nD τ sig (HIx 2)) (Wr : Set (SemLoc sig × HIx 2)) (c : Dev nD) (t : Fin cfg1.N) (d) : (dats1 Vr O Wr c).before 17 t d = iblk1 Vr c 17 t :=
  ((dats1 Vr O Wr c).before_in_eq_fetched 17 rfl (fun _ => rfl) (fun _ _ _ => rfl) (fun t => by rw [after1_17]; unfold Pipeline.Dat.blockOf iblk1; rw [A1_eq]; try rfl) t d).trans
    (by unfold Pipeline.Dat.fetched Pipeline.Dat.blockOf iblk1; rw [A1_eq]; try rfl)
theorem before1_18 (O : CellTallies nD τ sig (HIx 2)) (Wr : Set (SemLoc sig × HIx 2)) (c : Dev nD) (t : Fin cfg1.N) (d) : (dats1 Vr O Wr c).before 18 t d = iblk1 Vr c 18 t :=
  ((dats1 Vr O Wr c).before_in_eq_fetched 18 rfl (fun _ => rfl) (fun _ _ _ => rfl) (fun t => by rw [after1_18]; unfold Pipeline.Dat.blockOf iblk1; rw [A1_eq]; try rfl) t d).trans
    (by unfold Pipeline.Dat.fetched Pipeline.Dat.blockOf iblk1; rw [A1_eq]; try rfl)
theorem before1_19 (O : CellTallies nD τ sig (HIx 2)) (Wr : Set (SemLoc sig × HIx 2)) (c : Dev nD) (t : Fin cfg1.N) (d) : (dats1 Vr O Wr c).before 19 t d = iblk1 Vr c 19 t :=
  ((dats1 Vr O Wr c).before_in_eq_fetched 19 rfl (fun _ => rfl) (fun _ _ _ => rfl) (fun t => by rw [after1_19]; unfold Pipeline.Dat.blockOf iblk1; rw [A1_eq]; try rfl) t d).trans
    (by unfold Pipeline.Dat.fetched Pipeline.Dat.blockOf iblk1; rw [A1_eq]; try rfl)
theorem before1_20 (O : CellTallies nD τ sig (HIx 2)) (Wr : Set (SemLoc sig × HIx 2)) (c : Dev nD) (t : Fin cfg1.N) (d) : (dats1 Vr O Wr c).before 20 t d = iblk1 Vr c 20 t :=
  ((dats1 Vr O Wr c).before_in_eq_fetched 20 rfl (fun _ => rfl) (fun _ _ _ => rfl) (fun t => by rw [after1_20]; unfold Pipeline.Dat.blockOf iblk1; rw [A1_eq]; try rfl) t d).trans
    (by unfold Pipeline.Dat.fetched Pipeline.Dat.blockOf iblk1; rw [A1_eq]; try rfl)
theorem before1_21 (O : CellTallies nD τ sig (HIx 2)) (Wr : Set (SemLoc sig × HIx 2)) (c : Dev nD) (t : Fin cfg1.N) (d) : (dats1 Vr O Wr c).before 21 t d = iblk1 Vr c 21 t :=
  ((dats1 Vr O Wr c).before_in_eq_fetched 21 rfl (fun _ => rfl) (fun _ _ _ => rfl) (fun t => by rw [after1_21]; unfold Pipeline.Dat.blockOf iblk1; rw [A1_eq]; try rfl) t d).trans
    (by unfold Pipeline.Dat.fetched Pipeline.Dat.blockOf iblk1; rw [A1_eq]; try rfl)
theorem before1_22 (O : CellTallies nD τ sig (HIx 2)) (Wr : Set (SemLoc sig × HIx 2)) (c : Dev nD) (t : Fin cfg1.N) (d) : (dats1 Vr O Wr c).before 22 t d = iblk1 Vr c 22 t :=
  ((dats1 Vr O Wr c).before_in_eq_fetched 22 rfl (fun _ => rfl) (fun _ _ _ => rfl) (fun t => by rw [after1_22]; unfold Pipeline.Dat.blockOf iblk1; rw [A1_eq]; try rfl) t d).trans
    (by unfold Pipeline.Dat.fetched Pipeline.Dat.blockOf iblk1; rw [A1_eq]; try rfl)
theorem before1_23 (O : CellTallies nD τ sig (HIx 2)) (Wr : Set (SemLoc sig × HIx 2)) (c : Dev nD) (t : Fin cfg1.N) (d) : (dats1 Vr O Wr c).before 23 t d = iblk1 Vr c 23 t :=
  ((dats1 Vr O Wr c).before_in_eq_fetched 23 rfl (fun _ => rfl) (fun _ _ _ => rfl) (fun t => by rw [after1_23]; unfold Pipeline.Dat.blockOf iblk1; rw [A1_eq]; try rfl) t d).trans
    (by unfold Pipeline.Dat.fetched Pipeline.Dat.blockOf iblk1; rw [A1_eq]; try rfl)
theorem before1_24 (O : CellTallies nD τ sig (HIx 2)) (Wr : Set (SemLoc sig × HIx 2)) (c : Dev nD) (t : Fin cfg1.N) (d) : (dats1 Vr O Wr c).before 24 t d = iblk1 Vr c 24 t :=
  ((dats1 Vr O Wr c).before_in_eq_fetched 24 rfl (fun _ => rfl) (fun _ _ _ => rfl) (fun t => by rw [after1_24]; unfold Pipeline.Dat.blockOf iblk1; rw [A1_eq]; try rfl) t d).trans
    (by unfold Pipeline.Dat.fetched Pipeline.Dat.blockOf iblk1; rw [A1_eq]; try rfl)
theorem before1_25 (O : CellTallies nD τ sig (HIx 2)) (Wr : Set (SemLoc sig × HIx 2)) (c : Dev nD) (t : Fin cfg1.N) (d) : (dats1 Vr O Wr c).before 25 t d = iblk1 Vr c 25 t :=
  ((dats1 Vr O Wr c).before_in_eq_fetched 25 rfl (fun _ => rfl) (fun _ _ _ => rfl) (fun t => by rw [after1_25]; unfold Pipeline.Dat.blockOf iblk1; rw [A1_eq]; try rfl) t d).trans
    (by unfold Pipeline.Dat.fetched Pipeline.Dat.blockOf iblk1; rw [A1_eq]; try rfl)
theorem before1_26 (O : CellTallies nD τ sig (HIx 2)) (Wr : Set (SemLoc sig × HIx 2)) (c : Dev nD) (t : Fin cfg1.N) (d) : (dats1 Vr O Wr c).before 26 t d = iblk1 Vr c 26 t :=
  ((dats1 Vr O Wr c).before_in_eq_fetched 26 rfl (fun _ => rfl) (fun _ _ _ => rfl) (fun t => by rw [after1_26]; unfold Pipeline.Dat.blockOf iblk1; rw [A1_eq]; try rfl) t d).trans
    (by unfold Pipeline.Dat.fetched Pipeline.Dat.blockOf iblk1; rw [A1_eq]; try rfl)
theorem before1_27 (O : CellTallies nD τ sig (HIx 2)) (Wr : Set (SemLoc sig × HIx 2)) (c : Dev nD) (t : Fin cfg1.N) (d) : (dats1 Vr O Wr c).before 27 t d = iblk1 Vr c 27 t :=
  ((dats1 Vr O Wr c).before_in_eq_fetched 27 rfl (fun _ => rfl) (fun _ _ _ => rfl) (fun t => by rw [after1_27]; unfold Pipeline.Dat.blockOf iblk1; rw [A1_eq]; try rfl) t d).trans
    (by unfold Pipeline.Dat.fetched Pipeline.Dat.blockOf iblk1; rw [A1_eq]; try rfl)
theorem before1_28 (O : CellTallies nD τ sig (HIx 2)) (Wr : Set (SemLoc sig × HIx 2)) (c : Dev nD) (t : Fin cfg1.N) (d) : (dats1 Vr O Wr c).before 28 t d = iblk1 Vr c 28 t :=
  ((dats1 Vr O Wr c).before_in_eq_fetched 28 rfl (fun _ => rfl) (fun _ _ _ => rfl) (fun t => by rw [after1_28]; unfold Pipeline.Dat.blockOf iblk1; rw [A1_eq]; try rfl) t d).trans
    (by unfold Pipeline.Dat.fetched Pipeline.Dat.blockOf iblk1; rw [A1_eq]; try rfl)
theorem before1_29 (O : CellTallies nD τ sig (HIx 2)) (Wr : Set (SemLoc sig × HIx 2)) (c : Dev nD) (t : Fin cfg1.N) (d) : (dats1 Vr O Wr c).before 29 t d = iblk1 Vr c 29 t :=
  ((dats1 Vr O Wr c).before_in_eq_fetched 29 rfl (fun _ => rfl) (fun _ _ _ => rfl) (fun t => by rw [after1_29]; unfold Pipeline.Dat.blockOf iblk1; rw [A1_eq]; try rfl) t d).trans
    (by unfold Pipeline.Dat.fetched Pipeline.Dat.blockOf iblk1; rw [A1_eq]; try rfl)
theorem before1_30 (O : CellTallies nD τ sig (HIx 2)) (Wr : Set (SemLoc sig × HIx 2)) (c : Dev nD) (t : Fin cfg1.N) (d) : (dats1 Vr O Wr c).before 30 t d = iblk1 Vr c 30 t :=
  ((dats1 Vr O Wr c).before_in_eq_fetched 30 rfl (fun _ => rfl) (fun _ _ _ => rfl) (fun t => by rw [after1_30]; unfold Pipeline.Dat.blockOf iblk1; rw [A1_eq]; try rfl) t d).trans
    (by unfold Pipeline.Dat.fetched Pipeline.Dat.blockOf iblk1; rw [A1_eq]; try rfl)
theorem before1_31 (O : CellTallies nD τ sig (HIx 2)) (Wr : Set (SemLoc sig × HIx 2)) (c : Dev nD) (t : Fin cfg1.N) (d) : (dats1 Vr O Wr c).before 31 t d = iblk1 Vr c 31 t :=
  ((dats1 Vr O Wr c).before_in_eq_fetched 31 rfl (fun _ => rfl) (fun _ _ _ => rfl) (fun t => by rw [after1_31]; unfold Pipeline.Dat.blockOf iblk1; rw [A1_eq]; try rfl) t d).trans
    (by unfold Pipeline.Dat.fetched Pipeline.Dat.blockOf iblk1; rw [A1_eq]; try rfl)
theorem before1_32 (O : CellTallies nD τ sig (HIx 2)) (Wr : Set (SemLoc sig × HIx 2)) (c : Dev nD) (t : Fin cfg1.N) (d) : (dats1 Vr O Wr c).before 32 t d = iblk1 Vr c 32 t :=
  ((dats1 Vr O Wr c).before_in_eq_fetched 32 rfl (fun _ => rfl) (fun _ _ _ => rfl) (fun t => by rw [after1_32]; unfold Pipeline.Dat.blockOf iblk1; rw [A1_eq]; try rfl) t d).trans
    (by unfold Pipeline.Dat.fetched Pipeline.Dat.blockOf iblk1; rw [A1_eq]; try rfl)
theorem before1_33 (O : CellTallies nD τ sig (HIx 2)) (Wr : Set (SemLoc sig × HIx 2)) (c : Dev nD) (t : Fin cfg1.N) (d) : (dats1 Vr O Wr c).before 33 t d = iblk1 Vr c 33 t :=
  ((dats1 Vr O Wr c).before_in_eq_fetched 33 rfl (fun _ => rfl) (fun _ _ _ => rfl) (fun t => by rw [after1_33]; unfold Pipeline.Dat.blockOf iblk1; rw [A1_eq]; try rfl) t d).trans
    (by unfold Pipeline.Dat.fetched Pipeline.Dat.blockOf iblk1; rw [A1_eq]; try rfl)
theorem before1_34 (O : CellTallies nD τ sig (HIx 2)) (Wr : Set (SemLoc sig × HIx 2)) (c : Dev nD) (t : Fin cfg1.N) (d) : (dats1 Vr O Wr c).before 34 t d = iblk1 Vr c 34 t :=
  ((dats1 Vr O Wr c).before_in_eq_fetched 34 rfl (fun _ => rfl) (fun _ _ _ => rfl) (fun t => by rw [after1_34]; unfold Pipeline.Dat.blockOf iblk1; rw [A1_eq]; try rfl) t d).trans
    (by unfold Pipeline.Dat.fetched Pipeline.Dat.blockOf iblk1; rw [A1_eq]; try rfl)
theorem before1_35 (O : CellTallies nD τ sig (HIx 2)) (Wr : Set (SemLoc sig × HIx 2)) (c : Dev nD) (t : Fin cfg1.N) (d) : (dats1 Vr O Wr c).before 35 t d = iblk1 Vr c 35 t :=
  ((dats1 Vr O Wr c).before_in_eq_fetched 35 rfl (fun _ => rfl) (fun _ _ _ => rfl) (fun t => by rw [after1_35]; unfold Pipeline.Dat.blockOf iblk1; rw [A1_eq]; try rfl) t d).trans
    (by unfold Pipeline.Dat.fetched Pipeline.Dat.blockOf iblk1; rw [A1_eq]; try rfl)
theorem before1_36 (O : CellTallies nD τ sig (HIx 2)) (Wr : Set (SemLoc sig × HIx 2)) (c : Dev nD) (t : Fin cfg1.N) (d) : (dats1 Vr O Wr c).before 36 t d = iblk1 Vr c 36 t :=
  ((dats1 Vr O Wr c).before_in_eq_fetched 36 rfl (fun _ => rfl) (fun _ _ _ => rfl) (fun t => by rw [after1_36]; unfold Pipeline.Dat.blockOf iblk1; rw [A1_eq]; try rfl) t d).trans
    (by unfold Pipeline.Dat.fetched Pipeline.Dat.blockOf iblk1; rw [A1_eq]; try rfl)
theorem before1_37 (O : CellTallies nD τ sig (HIx 2)) (Wr : Set (SemLoc sig × HIx 2)) (c : Dev nD) (t : Fin cfg1.N) (d) : (dats1 Vr O Wr c).before 37 t d = iblk1 Vr c 37 t :=
  ((dats1 Vr O Wr c).before_in_eq_fetched 37 rfl (fun _ => rfl) (fun _ _ _ => rfl) (fun t => by rw [after1_37]; unfold Pipeline.Dat.blockOf iblk1; rw [A1_eq]; try rfl) t d).trans
    (by unfold Pipeline.Dat.fetched Pipeline.Dat.blockOf iblk1; rw [A1_eq]; try rfl)

/-- What the body is called with at point `t`, the windows one by one, -/
def bodyPre1 (O : CellTallies nD τ sig (HIx 2)) (Wr : Set (SemLoc sig × HIx 2)) (c : Dev nD) (t : Fin cfg1.N) : sProp 𝕄 :=
  iprop((dats1 Vr O Wr c).Φ t.castSucc ∗ (dats1 Vr O Wr c).owesAt none t.castSucc
    ∗ (∃ d, owns (c : Thread nD τ) (st1_0 t) fullShare ((dats1 Vr O Wr c).before 0 t d))
    ∗ (∃ d, owns (c : Thread nD τ) (st1_1 t) fullShare ((dats1 Vr O Wr c).before 1 t d))
    ∗ (∃ d, owns (c : Thread nD τ) (st1_2 t) fullShare ((dats1 Vr O Wr c).before 2 t d))
    ∗ (∃ d, owns (c : Thread nD τ) (st1_3 t) fullShare ((dats1 Vr O Wr c).before 3 t d))
    ∗ (∃ d, owns (c : Thread nD τ) (st1_4 t) fullShare ((dats1 Vr O Wr c).before 4 t d))
    ∗ (∃ d, owns (c : Thread nD τ) (st1_5 t) fullShare ((dats1 Vr O Wr c).before 5 t d))
    ∗ (∃ d, owns (c : Thread nD τ) (st1_6 t) fullShare ((dats1 Vr O Wr c).before 6 t d))
    ∗ (∃ d, owns (c : Thread nD τ) (st1_7 t) fullShare ((dats1 Vr O Wr c).before 7 t d))
    ∗ (∃ d, owns (c : Thread nD τ) (st1_8 t) fullShare ((dats1 Vr O Wr c).before 8 t d))
    ∗ (∃ d, owns (c : Thread nD τ) (st1_9 t) fullShare ((dats1 Vr O Wr c).before 9 t d))
    ∗ (∃ d, owns (c : Thread nD τ) (st1_10 t) fullShare ((dats1 Vr O Wr c).before 10 t d))
    ∗ (∃ d, owns (c : Thread nD τ) (st1_11 t) fullShare ((dats1 Vr O Wr c).before 11 t d))
    ∗ (∃ d, owns (c : Thread nD τ) (st1_12 t) fullShare ((dats1 Vr O Wr c).before 12 t d))
    ∗ (∃ d, owns (c : Thread nD τ) (st1_13 t) fullShare ((dats1 Vr O Wr c).before 13 t d))
    ∗ (∃ d, owns (c : Thread nD τ) (st1_14 t) fullShare ((dats1 Vr O Wr c).before 14 t d))
    ∗ (∃ d, owns (c : Thread nD τ) (st1_15 t) fullShare ((dats1 Vr O Wr c).before 15 t d))
    ∗ (∃ d, owns (c : Thread nD τ) (st1_16 t) fullShare ((dats1 Vr O Wr c).before 16 t d))
    ∗ (∃ d, owns (c : Thread nD τ) (st1_17 t) fullShare ((dats1 Vr O Wr c).before 17 t d))
    ∗ (∃ d, owns (c : Thread nD τ) (st1_18 t) fullShare ((dats1 Vr O Wr c).before 18 t d))
    ∗ (∃ d, owns (c : Thread nD τ) (st1_19 t) fullShare ((dats1 Vr O Wr c).before 19 t d))
    ∗ (∃ d, owns (c : Thread nD τ) (st1_20 t) fullShare ((dats1 Vr O Wr c).before 20 t d))
    ∗ (∃ d, owns (c : Thread nD τ) (st1_21 t) fullShare ((dats1 Vr O Wr c).before 21 t d))
    ∗ (∃ d, owns (c : Thread nD τ) (st1_22 t) fullShare ((dats1 Vr O Wr c).before 22 t d))
    ∗ (∃ d, owns (c : Thread nD τ) (st1_23 t) fullShare ((dats1 Vr O Wr c).before 23 t d))
    ∗ (∃ d, owns (c : Thread nD τ) (st1_24 t) fullShare ((dats1 Vr O Wr c).before 24 t d))
    ∗ (∃ d, owns (c : Thread nD τ) (st1_25 t) fullShare ((dats1 Vr O Wr c).before 25 t d))
    ∗ (∃ d, owns (c : Thread nD τ) (st1_26 t) fullShare ((dats1 Vr O Wr c).before 26 t d))
    ∗ (∃ d, owns (c : Thread nD τ) (st1_27 t) fullShare ((dats1 Vr O Wr c).before 27 t d))
    ∗ (∃ d, owns (c : Thread nD τ) (st1_28 t) fullShare ((dats1 Vr O Wr c).before 28 t d))
    ∗ (∃ d, owns (c : Thread nD τ) (st1_29 t) fullShare ((dats1 Vr O Wr c).before 29 t d))
    ∗ (∃ d, owns (c : Thread nD τ) (st1_30 t) fullShare ((dats1 Vr O Wr c).before 30 t d))
    ∗ (∃ d, owns (c : Thread nD τ) (st1_31 t) fullShare ((dats1 Vr O Wr c).before 31 t d))
    ∗ (∃ d, owns (c : Thread nD τ) (st1_32 t) fullShare ((dats1 Vr O Wr c).before 32 t d))
    ∗ (∃ d, owns (c : Thread nD τ) (st1_33 t) fullShare ((dats1 Vr O Wr c).before 33 t d))
    ∗ (∃ d, owns (c : Thread nD τ) (st1_34 t) fullShare ((dats1 Vr O Wr c).before 34 t d))
    ∗ (∃ d, owns (c : Thread nD τ) (st1_35 t) fullShare ((dats1 Vr O Wr c).before 35 t d))
    ∗ (∃ d, owns (c : Thread nD τ) (st1_36 t) fullShare ((dats1 Vr O Wr c).before 36 t d))
    ∗ (∃ d, owns (c : Thread nD τ) (st1_37 t) fullShare ((dats1 Vr O Wr c).before 37 t d))
    ∗ (∃ d, owns (c : Thread nD τ) (st1_38 t) fullShare ((dats1 Vr O Wr c).before 38 t d)))

/-- and what it returns. -/
def bodyPost1 (O : CellTallies nD τ sig (HIx 2)) (Wr : Set (SemLoc sig × HIx 2)) (c : Dev nD) (t : Fin cfg1.N) : sProp 𝕄 :=
  iprop((dats1 Vr O Wr c).Φ t.succ ∗ (dats1 Vr O Wr c).owesAt none t.succ
    ∗ owns (c : Thread nD τ) (st1_0 t) fullShare ((dats1 Vr O Wr c).after 0 t)
    ∗ owns (c : Thread nD τ) (st1_1 t) fullShare ((dats1 Vr O Wr c).after 1 t)
    ∗ owns (c : Thread nD τ) (st1_2 t) fullShare ((dats1 Vr O Wr c).after 2 t)
    ∗ owns (c : Thread nD τ) (st1_3 t) fullShare ((dats1 Vr O Wr c).after 3 t)
    ∗ owns (c : Thread nD τ) (st1_4 t) fullShare ((dats1 Vr O Wr c).after 4 t)
    ∗ owns (c : Thread nD τ) (st1_5 t) fullShare ((dats1 Vr O Wr c).after 5 t)
    ∗ owns (c : Thread nD τ) (st1_6 t) fullShare ((dats1 Vr O Wr c).after 6 t)
    ∗ owns (c : Thread nD τ) (st1_7 t) fullShare ((dats1 Vr O Wr c).after 7 t)
    ∗ owns (c : Thread nD τ) (st1_8 t) fullShare ((dats1 Vr O Wr c).after 8 t)
    ∗ owns (c : Thread nD τ) (st1_9 t) fullShare ((dats1 Vr O Wr c).after 9 t)
    ∗ owns (c : Thread nD τ) (st1_10 t) fullShare ((dats1 Vr O Wr c).after 10 t)
    ∗ owns (c : Thread nD τ) (st1_11 t) fullShare ((dats1 Vr O Wr c).after 11 t)
    ∗ owns (c : Thread nD τ) (st1_12 t) fullShare ((dats1 Vr O Wr c).after 12 t)
    ∗ owns (c : Thread nD τ) (st1_13 t) fullShare ((dats1 Vr O Wr c).after 13 t)
    ∗ owns (c : Thread nD τ) (st1_14 t) fullShare ((dats1 Vr O Wr c).after 14 t)
    ∗ owns (c : Thread nD τ) (st1_15 t) fullShare ((dats1 Vr O Wr c).after 15 t)
    ∗ owns (c : Thread nD τ) (st1_16 t) fullShare ((dats1 Vr O Wr c).after 16 t)
    ∗ owns (c : Thread nD τ) (st1_17 t) fullShare ((dats1 Vr O Wr c).after 17 t)
    ∗ owns (c : Thread nD τ) (st1_18 t) fullShare ((dats1 Vr O Wr c).after 18 t)
    ∗ owns (c : Thread nD τ) (st1_19 t) fullShare ((dats1 Vr O Wr c).after 19 t)
    ∗ owns (c : Thread nD τ) (st1_20 t) fullShare ((dats1 Vr O Wr c).after 20 t)
    ∗ owns (c : Thread nD τ) (st1_21 t) fullShare ((dats1 Vr O Wr c).after 21 t)
    ∗ owns (c : Thread nD τ) (st1_22 t) fullShare ((dats1 Vr O Wr c).after 22 t)
    ∗ owns (c : Thread nD τ) (st1_23 t) fullShare ((dats1 Vr O Wr c).after 23 t)
    ∗ owns (c : Thread nD τ) (st1_24 t) fullShare ((dats1 Vr O Wr c).after 24 t)
    ∗ owns (c : Thread nD τ) (st1_25 t) fullShare ((dats1 Vr O Wr c).after 25 t)
    ∗ owns (c : Thread nD τ) (st1_26 t) fullShare ((dats1 Vr O Wr c).after 26 t)
    ∗ owns (c : Thread nD τ) (st1_27 t) fullShare ((dats1 Vr O Wr c).after 27 t)
    ∗ owns (c : Thread nD τ) (st1_28 t) fullShare ((dats1 Vr O Wr c).after 28 t)
    ∗ owns (c : Thread nD τ) (st1_29 t) fullShare ((dats1 Vr O Wr c).after 29 t)
    ∗ owns (c : Thread nD τ) (st1_30 t) fullShare ((dats1 Vr O Wr c).after 30 t)
    ∗ owns (c : Thread nD τ) (st1_31 t) fullShare ((dats1 Vr O Wr c).after 31 t)
    ∗ owns (c : Thread nD τ) (st1_32 t) fullShare ((dats1 Vr O Wr c).after 32 t)
    ∗ owns (c : Thread nD τ) (st1_33 t) fullShare ((dats1 Vr O Wr c).after 33 t)
    ∗ owns (c : Thread nD τ) (st1_34 t) fullShare ((dats1 Vr O Wr c).after 34 t)
    ∗ owns (c : Thread nD τ) (st1_35 t) fullShare ((dats1 Vr O Wr c).after 35 t)
    ∗ owns (c : Thread nD τ) (st1_36 t) fullShare ((dats1 Vr O Wr c).after 36 t)
    ∗ owns (c : Thread nD τ) (st1_37 t) fullShare ((dats1 Vr O Wr c).after 37 t)
    ∗ owns (c : Thread nD τ) (st1_38 t) fullShare ((dats1 Vr O Wr c).after 38 t))

set_option maxHeartbeats 4000000 in
set_option maxRecDepth 65536 in
/-- The body at any point: the inputs' memrefs hold their blocks, so the body's triple applies; the invariant and the
    core's `owes` pass through unread. -/
theorem sound_body1 (O : CellTallies nD τ sig (HIx 2)) (Wr : Set (SemLoc sig × HIx 2)) (c : Dev nD) (t : Fin cfg1.N) :
    bodyPre1 Vr O Wr c t ⊢ wp frame (wpE (defs₀ (F := F)) Variants.none c none) Set.univ (bodyAt1 t) (fun _ => bodyPost1 Vr O Wr c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29, before1_30, before1_31, before1_32, before1_33, before1_34, before1_35, before1_36, before1_37]
  rw [show (dats1 Vr O Wr c).Φ t.succ = (dats1 Vr O Wr c).Φ t.castSucc from rfl,
    show (dats1 Vr O Wr c).owesAt none t.succ = (dats1 Vr O Wr c).owesAt none t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30, after1_31, after1_32, after1_33, after1_34, after1_35, after1_36, after1_37, after1_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_tc1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 Vr c 0 t) (iblk1 Vr c 1 t) (iblk1 Vr c 2 t) (iblk1 Vr c 3 t) (iblk1 Vr c 4 t) (iblk1 Vr c 5 t) (iblk1 Vr c 6 t) (iblk1 Vr c 7 t) (iblk1 Vr c 8 t) (iblk1 Vr c 9 t) (iblk1 Vr c 10 t) (iblk1 Vr c 11 t) (iblk1 Vr c 12 t) (iblk1 Vr c 13 t) (iblk1 Vr c 14 t) (iblk1 Vr c 15 t) (iblk1 Vr c 16 t) (iblk1 Vr c 17 t) (iblk1 Vr c 18 t) (iblk1 Vr c 19 t) (iblk1 Vr c 20 t) (iblk1 Vr c 21 t) (iblk1 Vr c 22 t) (iblk1 Vr c 23 t) (iblk1 Vr c 24 t) (iblk1 Vr c 25 t) (iblk1 Vr c 26 t) (iblk1 Vr c 27 t) (iblk1 Vr c 28 t) (iblk1 Vr c 29 t) (iblk1 Vr c 30 t) (iblk1 Vr c 31 t) (iblk1 Vr c 32 t) (iblk1 Vr c 33 t) (iblk1 Vr c 34 t) (iblk1 Vr c 35 t) (iblk1 Vr c 36 t) (iblk1 Vr c 37 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
set_option maxRecDepth 65536 in
/-- The library's body obligation, at every point. -/
theorem body_obligation1 (O : CellTallies nD τ sig (HIx 2)) (Wr : Set (SemLoc sig × HIx 2)) (c : Dev nD) : Pipeline.BodyObligation (dats1 (F := F) Vr O Wr c) (defs₀ (F := F)) Variants.none none Set.univ := fun t => by
  rw [bigSep_W1, bigSep_W1]
  exact sound_body1 Vr O Wr c t

end Region1

/-! ## Pipeline call 1 (custom_call 3) -/

section Region3

variable (Vr : Valuation τ sig (Elt F))

/-- A TensorCore array's contents at the region's entry. -/
abbrev Vb3 (c : Dev nD) (b : Ref sig .tc) : Buf (Elt F) ((c : Thread nD τ).loc b) := Vr (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (Vb3 Vr c (Pipeline.arrRef spec3 w))

/-- The share each input window holds its array at: the twenty-six windows of the gathered-rows array one read token
    each, every other window its array whole. -/
def qW3 (w : Fin cfg3.W) : PosShare TreeShare := if 12 ≤ w.val ∧ w.val ≤ 37 then shareTokN fullShare (w.val - 12) else fullShare

/-- The proof data of the pipeline on core `c`: the arrays as the region finds them; after the body at point `t` each
    input's buffer at its block and the output's at the body's function of the input blocks; the invariant the scoped
    buffers no window stages; the core owing `O` throughout. -/
def dats3 (O : CellTallies nD τ sig (HIx 2)) (Wr : Set (SemLoc sig × HIx 2)) (c : Dev nD) : Pipeline.Dat τ (Elt F) (HIx 2) ℕ UU ℕ cfg3 c where
  A w := Vb3 Vr c (Pipeline.arrRef spec3 w)
  after w t := match w with
    | ⟨0, _⟩ => iblk3 Vr c 0 t
    | ⟨1, _⟩ => iblk3 Vr c 1 t
    | ⟨2, _⟩ => iblk3 Vr c 2 t
    | ⟨3, _⟩ => iblk3 Vr c 3 t
    | ⟨4, _⟩ => iblk3 Vr c 4 t
    | ⟨5, _⟩ => iblk3 Vr c 5 t
    | ⟨6, _⟩ => iblk3 Vr c 6 t
    | ⟨7, _⟩ => iblk3 Vr c 7 t
    | ⟨8, _⟩ => iblk3 Vr c 8 t
    | ⟨9, _⟩ => iblk3 Vr c 9 t
    | ⟨10, _⟩ => iblk3 Vr c 10 t
    | ⟨11, _⟩ => iblk3 Vr c 11 t
    | ⟨12, _⟩ => iblk3 Vr c 12 t
    | ⟨13, _⟩ => iblk3 Vr c 13 t
    | ⟨14, _⟩ => iblk3 Vr c 14 t
    | ⟨15, _⟩ => iblk3 Vr c 15 t
    | ⟨16, _⟩ => iblk3 Vr c 16 t
    | ⟨17, _⟩ => iblk3 Vr c 17 t
    | ⟨18, _⟩ => iblk3 Vr c 18 t
    | ⟨19, _⟩ => iblk3 Vr c 19 t
    | ⟨20, _⟩ => iblk3 Vr c 20 t
    | ⟨21, _⟩ => iblk3 Vr c 21 t
    | ⟨22, _⟩ => iblk3 Vr c 22 t
    | ⟨23, _⟩ => iblk3 Vr c 23 t
    | ⟨24, _⟩ => iblk3 Vr c 24 t
    | ⟨25, _⟩ => iblk3 Vr c 25 t
    | ⟨26, _⟩ => iblk3 Vr c 26 t
    | ⟨27, _⟩ => iblk3 Vr c 27 t
    | ⟨28, _⟩ => iblk3 Vr c 28 t
    | ⟨29, _⟩ => iblk3 Vr c 29 t
    | ⟨30, _⟩ => iblk3 Vr c 30 t
    | ⟨31, _⟩ => iblk3 Vr c 31 t
    | ⟨32, _⟩ => iblk3 Vr c 32 t
    | ⟨33, _⟩ => iblk3 Vr c 33 t
    | ⟨34, _⟩ => iblk3 Vr c 34 t
    | ⟨35, _⟩ => iblk3 Vr c 35 t
    | ⟨36, _⟩ => iblk3 Vr c 36 t
    | ⟨37, _⟩ => iblk3 Vr c 37 t
    | ⟨38, _⟩ => tcOut3 (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t)
    | ⟨_ + 39, h⟩ => absurd h (Nat.not_lt.2 (Nat.le_add_left _ _))
  Φ _ := Pipeline.scopedRest spec3 c
  q w := qW3 w
  owed _ := O
  recorded _ := Wr

theorem A3_eq (O : CellTallies nD τ sig (HIx 2)) (Wr : Set (SemLoc sig × HIx 2)) (c : Dev nD) (w : Fin cfg3.W) : (dats3 Vr O Wr c).A w = Vb3 Vr c (Pipeline.arrRef spec3 w) := by
  dsimp only [dats3]

theorem after3_0 (O : CellTallies nD τ sig (HIx 2)) (Wr : Set (SemLoc sig × HIx 2)) (c : Dev nD) (t : Fin cfg3.N) : (dats3 Vr O Wr c).after 0 t = iblk3 Vr c 0 t := by dsimp only [dats3]
theorem after3_1 (O : CellTallies nD τ sig (HIx 2)) (Wr : Set (SemLoc sig × HIx 2)) (c : Dev nD) (t : Fin cfg3.N) : (dats3 Vr O Wr c).after 1 t = iblk3 Vr c 1 t := by dsimp only [dats3]
theorem after3_2 (O : CellTallies nD τ sig (HIx 2)) (Wr : Set (SemLoc sig × HIx 2)) (c : Dev nD) (t : Fin cfg3.N) : (dats3 Vr O Wr c).after 2 t = iblk3 Vr c 2 t := by dsimp only [dats3]
theorem after3_3 (O : CellTallies nD τ sig (HIx 2)) (Wr : Set (SemLoc sig × HIx 2)) (c : Dev nD) (t : Fin cfg3.N) : (dats3 Vr O Wr c).after 3 t = iblk3 Vr c 3 t := by dsimp only [dats3]
theorem after3_4 (O : CellTallies nD τ sig (HIx 2)) (Wr : Set (SemLoc sig × HIx 2)) (c : Dev nD) (t : Fin cfg3.N) : (dats3 Vr O Wr c).after 4 t = iblk3 Vr c 4 t := by dsimp only [dats3]
theorem after3_5 (O : CellTallies nD τ sig (HIx 2)) (Wr : Set (SemLoc sig × HIx 2)) (c : Dev nD) (t : Fin cfg3.N) : (dats3 Vr O Wr c).after 5 t = iblk3 Vr c 5 t := by dsimp only [dats3]
theorem after3_6 (O : CellTallies nD τ sig (HIx 2)) (Wr : Set (SemLoc sig × HIx 2)) (c : Dev nD) (t : Fin cfg3.N) : (dats3 Vr O Wr c).after 6 t = iblk3 Vr c 6 t := by dsimp only [dats3]
theorem after3_7 (O : CellTallies nD τ sig (HIx 2)) (Wr : Set (SemLoc sig × HIx 2)) (c : Dev nD) (t : Fin cfg3.N) : (dats3 Vr O Wr c).after 7 t = iblk3 Vr c 7 t := by dsimp only [dats3]
theorem after3_8 (O : CellTallies nD τ sig (HIx 2)) (Wr : Set (SemLoc sig × HIx 2)) (c : Dev nD) (t : Fin cfg3.N) : (dats3 Vr O Wr c).after 8 t = iblk3 Vr c 8 t := by dsimp only [dats3]
theorem after3_9 (O : CellTallies nD τ sig (HIx 2)) (Wr : Set (SemLoc sig × HIx 2)) (c : Dev nD) (t : Fin cfg3.N) : (dats3 Vr O Wr c).after 9 t = iblk3 Vr c 9 t := by dsimp only [dats3]
theorem after3_10 (O : CellTallies nD τ sig (HIx 2)) (Wr : Set (SemLoc sig × HIx 2)) (c : Dev nD) (t : Fin cfg3.N) : (dats3 Vr O Wr c).after 10 t = iblk3 Vr c 10 t := by dsimp only [dats3]
theorem after3_11 (O : CellTallies nD τ sig (HIx 2)) (Wr : Set (SemLoc sig × HIx 2)) (c : Dev nD) (t : Fin cfg3.N) : (dats3 Vr O Wr c).after 11 t = iblk3 Vr c 11 t := by dsimp only [dats3]
theorem after3_12 (O : CellTallies nD τ sig (HIx 2)) (Wr : Set (SemLoc sig × HIx 2)) (c : Dev nD) (t : Fin cfg3.N) : (dats3 Vr O Wr c).after 12 t = iblk3 Vr c 12 t := by dsimp only [dats3]
theorem after3_13 (O : CellTallies nD τ sig (HIx 2)) (Wr : Set (SemLoc sig × HIx 2)) (c : Dev nD) (t : Fin cfg3.N) : (dats3 Vr O Wr c).after 13 t = iblk3 Vr c 13 t := by dsimp only [dats3]
theorem after3_14 (O : CellTallies nD τ sig (HIx 2)) (Wr : Set (SemLoc sig × HIx 2)) (c : Dev nD) (t : Fin cfg3.N) : (dats3 Vr O Wr c).after 14 t = iblk3 Vr c 14 t := by dsimp only [dats3]
theorem after3_15 (O : CellTallies nD τ sig (HIx 2)) (Wr : Set (SemLoc sig × HIx 2)) (c : Dev nD) (t : Fin cfg3.N) : (dats3 Vr O Wr c).after 15 t = iblk3 Vr c 15 t := by dsimp only [dats3]
theorem after3_16 (O : CellTallies nD τ sig (HIx 2)) (Wr : Set (SemLoc sig × HIx 2)) (c : Dev nD) (t : Fin cfg3.N) : (dats3 Vr O Wr c).after 16 t = iblk3 Vr c 16 t := by dsimp only [dats3]
theorem after3_17 (O : CellTallies nD τ sig (HIx 2)) (Wr : Set (SemLoc sig × HIx 2)) (c : Dev nD) (t : Fin cfg3.N) : (dats3 Vr O Wr c).after 17 t = iblk3 Vr c 17 t := by dsimp only [dats3]
theorem after3_18 (O : CellTallies nD τ sig (HIx 2)) (Wr : Set (SemLoc sig × HIx 2)) (c : Dev nD) (t : Fin cfg3.N) : (dats3 Vr O Wr c).after 18 t = iblk3 Vr c 18 t := by dsimp only [dats3]
theorem after3_19 (O : CellTallies nD τ sig (HIx 2)) (Wr : Set (SemLoc sig × HIx 2)) (c : Dev nD) (t : Fin cfg3.N) : (dats3 Vr O Wr c).after 19 t = iblk3 Vr c 19 t := by dsimp only [dats3]
theorem after3_20 (O : CellTallies nD τ sig (HIx 2)) (Wr : Set (SemLoc sig × HIx 2)) (c : Dev nD) (t : Fin cfg3.N) : (dats3 Vr O Wr c).after 20 t = iblk3 Vr c 20 t := by dsimp only [dats3]
theorem after3_21 (O : CellTallies nD τ sig (HIx 2)) (Wr : Set (SemLoc sig × HIx 2)) (c : Dev nD) (t : Fin cfg3.N) : (dats3 Vr O Wr c).after 21 t = iblk3 Vr c 21 t := by dsimp only [dats3]
theorem after3_22 (O : CellTallies nD τ sig (HIx 2)) (Wr : Set (SemLoc sig × HIx 2)) (c : Dev nD) (t : Fin cfg3.N) : (dats3 Vr O Wr c).after 22 t = iblk3 Vr c 22 t := by dsimp only [dats3]
theorem after3_23 (O : CellTallies nD τ sig (HIx 2)) (Wr : Set (SemLoc sig × HIx 2)) (c : Dev nD) (t : Fin cfg3.N) : (dats3 Vr O Wr c).after 23 t = iblk3 Vr c 23 t := by dsimp only [dats3]
theorem after3_24 (O : CellTallies nD τ sig (HIx 2)) (Wr : Set (SemLoc sig × HIx 2)) (c : Dev nD) (t : Fin cfg3.N) : (dats3 Vr O Wr c).after 24 t = iblk3 Vr c 24 t := by dsimp only [dats3]
theorem after3_25 (O : CellTallies nD τ sig (HIx 2)) (Wr : Set (SemLoc sig × HIx 2)) (c : Dev nD) (t : Fin cfg3.N) : (dats3 Vr O Wr c).after 25 t = iblk3 Vr c 25 t := by dsimp only [dats3]
theorem after3_26 (O : CellTallies nD τ sig (HIx 2)) (Wr : Set (SemLoc sig × HIx 2)) (c : Dev nD) (t : Fin cfg3.N) : (dats3 Vr O Wr c).after 26 t = iblk3 Vr c 26 t := by dsimp only [dats3]
theorem after3_27 (O : CellTallies nD τ sig (HIx 2)) (Wr : Set (SemLoc sig × HIx 2)) (c : Dev nD) (t : Fin cfg3.N) : (dats3 Vr O Wr c).after 27 t = iblk3 Vr c 27 t := by dsimp only [dats3]
theorem after3_28 (O : CellTallies nD τ sig (HIx 2)) (Wr : Set (SemLoc sig × HIx 2)) (c : Dev nD) (t : Fin cfg3.N) : (dats3 Vr O Wr c).after 28 t = iblk3 Vr c 28 t := by dsimp only [dats3]
theorem after3_29 (O : CellTallies nD τ sig (HIx 2)) (Wr : Set (SemLoc sig × HIx 2)) (c : Dev nD) (t : Fin cfg3.N) : (dats3 Vr O Wr c).after 29 t = iblk3 Vr c 29 t := by dsimp only [dats3]
theorem after3_30 (O : CellTallies nD τ sig (HIx 2)) (Wr : Set (SemLoc sig × HIx 2)) (c : Dev nD) (t : Fin cfg3.N) : (dats3 Vr O Wr c).after 30 t = iblk3 Vr c 30 t := by dsimp only [dats3]
theorem after3_31 (O : CellTallies nD τ sig (HIx 2)) (Wr : Set (SemLoc sig × HIx 2)) (c : Dev nD) (t : Fin cfg3.N) : (dats3 Vr O Wr c).after 31 t = iblk3 Vr c 31 t := by dsimp only [dats3]
theorem after3_32 (O : CellTallies nD τ sig (HIx 2)) (Wr : Set (SemLoc sig × HIx 2)) (c : Dev nD) (t : Fin cfg3.N) : (dats3 Vr O Wr c).after 32 t = iblk3 Vr c 32 t := by dsimp only [dats3]
theorem after3_33 (O : CellTallies nD τ sig (HIx 2)) (Wr : Set (SemLoc sig × HIx 2)) (c : Dev nD) (t : Fin cfg3.N) : (dats3 Vr O Wr c).after 33 t = iblk3 Vr c 33 t := by dsimp only [dats3]
theorem after3_34 (O : CellTallies nD τ sig (HIx 2)) (Wr : Set (SemLoc sig × HIx 2)) (c : Dev nD) (t : Fin cfg3.N) : (dats3 Vr O Wr c).after 34 t = iblk3 Vr c 34 t := by dsimp only [dats3]
theorem after3_35 (O : CellTallies nD τ sig (HIx 2)) (Wr : Set (SemLoc sig × HIx 2)) (c : Dev nD) (t : Fin cfg3.N) : (dats3 Vr O Wr c).after 35 t = iblk3 Vr c 35 t := by dsimp only [dats3]
theorem after3_36 (O : CellTallies nD τ sig (HIx 2)) (Wr : Set (SemLoc sig × HIx 2)) (c : Dev nD) (t : Fin cfg3.N) : (dats3 Vr O Wr c).after 36 t = iblk3 Vr c 36 t := by dsimp only [dats3]
theorem after3_37 (O : CellTallies nD τ sig (HIx 2)) (Wr : Set (SemLoc sig × HIx 2)) (c : Dev nD) (t : Fin cfg3.N) : (dats3 Vr O Wr c).after 37 t = iblk3 Vr c 37 t := by dsimp only [dats3]
theorem after3_38 (O : CellTallies nD τ sig (HIx 2)) (Wr : Set (SemLoc sig × HIx 2)) (c : Dev nD) (t : Fin cfg3.N) : (dats3 Vr O Wr c).after 38 t = tcOut3 (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t) := by dsimp only [dats3]

theorem before3_0 (O : CellTallies nD τ sig (HIx 2)) (Wr : Set (SemLoc sig × HIx 2)) (c : Dev nD) (t : Fin cfg3.N) (d) : (dats3 Vr O Wr c).before 0 t d = iblk3 Vr c 0 t :=
  ((dats3 Vr O Wr c).before_in_eq_fetched 0 rfl (fun _ => rfl) (fun _ _ _ => rfl) (fun t => by rw [after3_0]; unfold Pipeline.Dat.blockOf iblk3; rw [A3_eq]; try rfl) t d).trans
    (by unfold Pipeline.Dat.fetched Pipeline.Dat.blockOf iblk3; rw [A3_eq]; try rfl)
theorem before3_1 (O : CellTallies nD τ sig (HIx 2)) (Wr : Set (SemLoc sig × HIx 2)) (c : Dev nD) (t : Fin cfg3.N) (d) : (dats3 Vr O Wr c).before 1 t d = iblk3 Vr c 1 t :=
  ((dats3 Vr O Wr c).before_in_eq_fetched 1 rfl (fun _ => rfl) (fun _ _ _ => rfl) (fun t => by rw [after3_1]; unfold Pipeline.Dat.blockOf iblk3; rw [A3_eq]; try rfl) t d).trans
    (by unfold Pipeline.Dat.fetched Pipeline.Dat.blockOf iblk3; rw [A3_eq]; try rfl)
theorem before3_2 (O : CellTallies nD τ sig (HIx 2)) (Wr : Set (SemLoc sig × HIx 2)) (c : Dev nD) (t : Fin cfg3.N) (d) : (dats3 Vr O Wr c).before 2 t d = iblk3 Vr c 2 t :=
  ((dats3 Vr O Wr c).before_in_eq_fetched 2 rfl (fun _ => rfl) (fun _ _ _ => rfl) (fun t => by rw [after3_2]; unfold Pipeline.Dat.blockOf iblk3; rw [A3_eq]; try rfl) t d).trans
    (by unfold Pipeline.Dat.fetched Pipeline.Dat.blockOf iblk3; rw [A3_eq]; try rfl)
theorem before3_3 (O : CellTallies nD τ sig (HIx 2)) (Wr : Set (SemLoc sig × HIx 2)) (c : Dev nD) (t : Fin cfg3.N) (d) : (dats3 Vr O Wr c).before 3 t d = iblk3 Vr c 3 t :=
  ((dats3 Vr O Wr c).before_in_eq_fetched 3 rfl (fun _ => rfl) (fun _ _ _ => rfl) (fun t => by rw [after3_3]; unfold Pipeline.Dat.blockOf iblk3; rw [A3_eq]; try rfl) t d).trans
    (by unfold Pipeline.Dat.fetched Pipeline.Dat.blockOf iblk3; rw [A3_eq]; try rfl)
theorem before3_4 (O : CellTallies nD τ sig (HIx 2)) (Wr : Set (SemLoc sig × HIx 2)) (c : Dev nD) (t : Fin cfg3.N) (d) : (dats3 Vr O Wr c).before 4 t d = iblk3 Vr c 4 t :=
  ((dats3 Vr O Wr c).before_in_eq_fetched 4 rfl (fun _ => rfl) (fun _ _ _ => rfl) (fun t => by rw [after3_4]; unfold Pipeline.Dat.blockOf iblk3; rw [A3_eq]; try rfl) t d).trans
    (by unfold Pipeline.Dat.fetched Pipeline.Dat.blockOf iblk3; rw [A3_eq]; try rfl)
theorem before3_5 (O : CellTallies nD τ sig (HIx 2)) (Wr : Set (SemLoc sig × HIx 2)) (c : Dev nD) (t : Fin cfg3.N) (d) : (dats3 Vr O Wr c).before 5 t d = iblk3 Vr c 5 t :=
  ((dats3 Vr O Wr c).before_in_eq_fetched 5 rfl (fun _ => rfl) (fun _ _ _ => rfl) (fun t => by rw [after3_5]; unfold Pipeline.Dat.blockOf iblk3; rw [A3_eq]; try rfl) t d).trans
    (by unfold Pipeline.Dat.fetched Pipeline.Dat.blockOf iblk3; rw [A3_eq]; try rfl)
theorem before3_6 (O : CellTallies nD τ sig (HIx 2)) (Wr : Set (SemLoc sig × HIx 2)) (c : Dev nD) (t : Fin cfg3.N) (d) : (dats3 Vr O Wr c).before 6 t d = iblk3 Vr c 6 t :=
  ((dats3 Vr O Wr c).before_in_eq_fetched 6 rfl (fun _ => rfl) (fun _ _ _ => rfl) (fun t => by rw [after3_6]; unfold Pipeline.Dat.blockOf iblk3; rw [A3_eq]; try rfl) t d).trans
    (by unfold Pipeline.Dat.fetched Pipeline.Dat.blockOf iblk3; rw [A3_eq]; try rfl)
theorem before3_7 (O : CellTallies nD τ sig (HIx 2)) (Wr : Set (SemLoc sig × HIx 2)) (c : Dev nD) (t : Fin cfg3.N) (d) : (dats3 Vr O Wr c).before 7 t d = iblk3 Vr c 7 t :=
  ((dats3 Vr O Wr c).before_in_eq_fetched 7 rfl (fun _ => rfl) (fun _ _ _ => rfl) (fun t => by rw [after3_7]; unfold Pipeline.Dat.blockOf iblk3; rw [A3_eq]; try rfl) t d).trans
    (by unfold Pipeline.Dat.fetched Pipeline.Dat.blockOf iblk3; rw [A3_eq]; try rfl)
theorem before3_8 (O : CellTallies nD τ sig (HIx 2)) (Wr : Set (SemLoc sig × HIx 2)) (c : Dev nD) (t : Fin cfg3.N) (d) : (dats3 Vr O Wr c).before 8 t d = iblk3 Vr c 8 t :=
  ((dats3 Vr O Wr c).before_in_eq_fetched 8 rfl (fun _ => rfl) (fun _ _ _ => rfl) (fun t => by rw [after3_8]; unfold Pipeline.Dat.blockOf iblk3; rw [A3_eq]; try rfl) t d).trans
    (by unfold Pipeline.Dat.fetched Pipeline.Dat.blockOf iblk3; rw [A3_eq]; try rfl)
theorem before3_9 (O : CellTallies nD τ sig (HIx 2)) (Wr : Set (SemLoc sig × HIx 2)) (c : Dev nD) (t : Fin cfg3.N) (d) : (dats3 Vr O Wr c).before 9 t d = iblk3 Vr c 9 t :=
  ((dats3 Vr O Wr c).before_in_eq_fetched 9 rfl (fun _ => rfl) (fun _ _ _ => rfl) (fun t => by rw [after3_9]; unfold Pipeline.Dat.blockOf iblk3; rw [A3_eq]; try rfl) t d).trans
    (by unfold Pipeline.Dat.fetched Pipeline.Dat.blockOf iblk3; rw [A3_eq]; try rfl)
theorem before3_10 (O : CellTallies nD τ sig (HIx 2)) (Wr : Set (SemLoc sig × HIx 2)) (c : Dev nD) (t : Fin cfg3.N) (d) : (dats3 Vr O Wr c).before 10 t d = iblk3 Vr c 10 t :=
  ((dats3 Vr O Wr c).before_in_eq_fetched 10 rfl (fun _ => rfl) (fun _ _ _ => rfl) (fun t => by rw [after3_10]; unfold Pipeline.Dat.blockOf iblk3; rw [A3_eq]; try rfl) t d).trans
    (by unfold Pipeline.Dat.fetched Pipeline.Dat.blockOf iblk3; rw [A3_eq]; try rfl)
theorem before3_11 (O : CellTallies nD τ sig (HIx 2)) (Wr : Set (SemLoc sig × HIx 2)) (c : Dev nD) (t : Fin cfg3.N) (d) : (dats3 Vr O Wr c).before 11 t d = iblk3 Vr c 11 t :=
  ((dats3 Vr O Wr c).before_in_eq_fetched 11 rfl (fun _ => rfl) (fun _ _ _ => rfl) (fun t => by rw [after3_11]; unfold Pipeline.Dat.blockOf iblk3; rw [A3_eq]; try rfl) t d).trans
    (by unfold Pipeline.Dat.fetched Pipeline.Dat.blockOf iblk3; rw [A3_eq]; try rfl)
theorem before3_12 (O : CellTallies nD τ sig (HIx 2)) (Wr : Set (SemLoc sig × HIx 2)) (c : Dev nD) (t : Fin cfg3.N) (d) : (dats3 Vr O Wr c).before 12 t d = iblk3 Vr c 12 t :=
  ((dats3 Vr O Wr c).before_in_eq_fetched 12 rfl (fun _ => rfl) (fun _ _ _ => rfl) (fun t => by rw [after3_12]; unfold Pipeline.Dat.blockOf iblk3; rw [A3_eq]; try rfl) t d).trans
    (by unfold Pipeline.Dat.fetched Pipeline.Dat.blockOf iblk3; rw [A3_eq]; try rfl)
theorem before3_13 (O : CellTallies nD τ sig (HIx 2)) (Wr : Set (SemLoc sig × HIx 2)) (c : Dev nD) (t : Fin cfg3.N) (d) : (dats3 Vr O Wr c).before 13 t d = iblk3 Vr c 13 t :=
  ((dats3 Vr O Wr c).before_in_eq_fetched 13 rfl (fun _ => rfl) (fun _ _ _ => rfl) (fun t => by rw [after3_13]; unfold Pipeline.Dat.blockOf iblk3; rw [A3_eq]; try rfl) t d).trans
    (by unfold Pipeline.Dat.fetched Pipeline.Dat.blockOf iblk3; rw [A3_eq]; try rfl)
theorem before3_14 (O : CellTallies nD τ sig (HIx 2)) (Wr : Set (SemLoc sig × HIx 2)) (c : Dev nD) (t : Fin cfg3.N) (d) : (dats3 Vr O Wr c).before 14 t d = iblk3 Vr c 14 t :=
  ((dats3 Vr O Wr c).before_in_eq_fetched 14 rfl (fun _ => rfl) (fun _ _ _ => rfl) (fun t => by rw [after3_14]; unfold Pipeline.Dat.blockOf iblk3; rw [A3_eq]; try rfl) t d).trans
    (by unfold Pipeline.Dat.fetched Pipeline.Dat.blockOf iblk3; rw [A3_eq]; try rfl)
theorem before3_15 (O : CellTallies nD τ sig (HIx 2)) (Wr : Set (SemLoc sig × HIx 2)) (c : Dev nD) (t : Fin cfg3.N) (d) : (dats3 Vr O Wr c).before 15 t d = iblk3 Vr c 15 t :=
  ((dats3 Vr O Wr c).before_in_eq_fetched 15 rfl (fun _ => rfl) (fun _ _ _ => rfl) (fun t => by rw [after3_15]; unfold Pipeline.Dat.blockOf iblk3; rw [A3_eq]; try rfl) t d).trans
    (by unfold Pipeline.Dat.fetched Pipeline.Dat.blockOf iblk3; rw [A3_eq]; try rfl)
theorem before3_16 (O : CellTallies nD τ sig (HIx 2)) (Wr : Set (SemLoc sig × HIx 2)) (c : Dev nD) (t : Fin cfg3.N) (d) : (dats3 Vr O Wr c).before 16 t d = iblk3 Vr c 16 t :=
  ((dats3 Vr O Wr c).before_in_eq_fetched 16 rfl (fun _ => rfl) (fun _ _ _ => rfl) (fun t => by rw [after3_16]; unfold Pipeline.Dat.blockOf iblk3; rw [A3_eq]; try rfl) t d).trans
    (by unfold Pipeline.Dat.fetched Pipeline.Dat.blockOf iblk3; rw [A3_eq]; try rfl)
theorem before3_17 (O : CellTallies nD τ sig (HIx 2)) (Wr : Set (SemLoc sig × HIx 2)) (c : Dev nD) (t : Fin cfg3.N) (d) : (dats3 Vr O Wr c).before 17 t d = iblk3 Vr c 17 t :=
  ((dats3 Vr O Wr c).before_in_eq_fetched 17 rfl (fun _ => rfl) (fun _ _ _ => rfl) (fun t => by rw [after3_17]; unfold Pipeline.Dat.blockOf iblk3; rw [A3_eq]; try rfl) t d).trans
    (by unfold Pipeline.Dat.fetched Pipeline.Dat.blockOf iblk3; rw [A3_eq]; try rfl)
theorem before3_18 (O : CellTallies nD τ sig (HIx 2)) (Wr : Set (SemLoc sig × HIx 2)) (c : Dev nD) (t : Fin cfg3.N) (d) : (dats3 Vr O Wr c).before 18 t d = iblk3 Vr c 18 t :=
  ((dats3 Vr O Wr c).before_in_eq_fetched 18 rfl (fun _ => rfl) (fun _ _ _ => rfl) (fun t => by rw [after3_18]; unfold Pipeline.Dat.blockOf iblk3; rw [A3_eq]; try rfl) t d).trans
    (by unfold Pipeline.Dat.fetched Pipeline.Dat.blockOf iblk3; rw [A3_eq]; try rfl)
theorem before3_19 (O : CellTallies nD τ sig (HIx 2)) (Wr : Set (SemLoc sig × HIx 2)) (c : Dev nD) (t : Fin cfg3.N) (d) : (dats3 Vr O Wr c).before 19 t d = iblk3 Vr c 19 t :=
  ((dats3 Vr O Wr c).before_in_eq_fetched 19 rfl (fun _ => rfl) (fun _ _ _ => rfl) (fun t => by rw [after3_19]; unfold Pipeline.Dat.blockOf iblk3; rw [A3_eq]; try rfl) t d).trans
    (by unfold Pipeline.Dat.fetched Pipeline.Dat.blockOf iblk3; rw [A3_eq]; try rfl)
theorem before3_20 (O : CellTallies nD τ sig (HIx 2)) (Wr : Set (SemLoc sig × HIx 2)) (c : Dev nD) (t : Fin cfg3.N) (d) : (dats3 Vr O Wr c).before 20 t d = iblk3 Vr c 20 t :=
  ((dats3 Vr O Wr c).before_in_eq_fetched 20 rfl (fun _ => rfl) (fun _ _ _ => rfl) (fun t => by rw [after3_20]; unfold Pipeline.Dat.blockOf iblk3; rw [A3_eq]; try rfl) t d).trans
    (by unfold Pipeline.Dat.fetched Pipeline.Dat.blockOf iblk3; rw [A3_eq]; try rfl)
theorem before3_21 (O : CellTallies nD τ sig (HIx 2)) (Wr : Set (SemLoc sig × HIx 2)) (c : Dev nD) (t : Fin cfg3.N) (d) : (dats3 Vr O Wr c).before 21 t d = iblk3 Vr c 21 t :=
  ((dats3 Vr O Wr c).before_in_eq_fetched 21 rfl (fun _ => rfl) (fun _ _ _ => rfl) (fun t => by rw [after3_21]; unfold Pipeline.Dat.blockOf iblk3; rw [A3_eq]; try rfl) t d).trans
    (by unfold Pipeline.Dat.fetched Pipeline.Dat.blockOf iblk3; rw [A3_eq]; try rfl)
theorem before3_22 (O : CellTallies nD τ sig (HIx 2)) (Wr : Set (SemLoc sig × HIx 2)) (c : Dev nD) (t : Fin cfg3.N) (d) : (dats3 Vr O Wr c).before 22 t d = iblk3 Vr c 22 t :=
  ((dats3 Vr O Wr c).before_in_eq_fetched 22 rfl (fun _ => rfl) (fun _ _ _ => rfl) (fun t => by rw [after3_22]; unfold Pipeline.Dat.blockOf iblk3; rw [A3_eq]; try rfl) t d).trans
    (by unfold Pipeline.Dat.fetched Pipeline.Dat.blockOf iblk3; rw [A3_eq]; try rfl)
theorem before3_23 (O : CellTallies nD τ sig (HIx 2)) (Wr : Set (SemLoc sig × HIx 2)) (c : Dev nD) (t : Fin cfg3.N) (d) : (dats3 Vr O Wr c).before 23 t d = iblk3 Vr c 23 t :=
  ((dats3 Vr O Wr c).before_in_eq_fetched 23 rfl (fun _ => rfl) (fun _ _ _ => rfl) (fun t => by rw [after3_23]; unfold Pipeline.Dat.blockOf iblk3; rw [A3_eq]; try rfl) t d).trans
    (by unfold Pipeline.Dat.fetched Pipeline.Dat.blockOf iblk3; rw [A3_eq]; try rfl)
theorem before3_24 (O : CellTallies nD τ sig (HIx 2)) (Wr : Set (SemLoc sig × HIx 2)) (c : Dev nD) (t : Fin cfg3.N) (d) : (dats3 Vr O Wr c).before 24 t d = iblk3 Vr c 24 t :=
  ((dats3 Vr O Wr c).before_in_eq_fetched 24 rfl (fun _ => rfl) (fun _ _ _ => rfl) (fun t => by rw [after3_24]; unfold Pipeline.Dat.blockOf iblk3; rw [A3_eq]; try rfl) t d).trans
    (by unfold Pipeline.Dat.fetched Pipeline.Dat.blockOf iblk3; rw [A3_eq]; try rfl)
theorem before3_25 (O : CellTallies nD τ sig (HIx 2)) (Wr : Set (SemLoc sig × HIx 2)) (c : Dev nD) (t : Fin cfg3.N) (d) : (dats3 Vr O Wr c).before 25 t d = iblk3 Vr c 25 t :=
  ((dats3 Vr O Wr c).before_in_eq_fetched 25 rfl (fun _ => rfl) (fun _ _ _ => rfl) (fun t => by rw [after3_25]; unfold Pipeline.Dat.blockOf iblk3; rw [A3_eq]; try rfl) t d).trans
    (by unfold Pipeline.Dat.fetched Pipeline.Dat.blockOf iblk3; rw [A3_eq]; try rfl)
theorem before3_26 (O : CellTallies nD τ sig (HIx 2)) (Wr : Set (SemLoc sig × HIx 2)) (c : Dev nD) (t : Fin cfg3.N) (d) : (dats3 Vr O Wr c).before 26 t d = iblk3 Vr c 26 t :=
  ((dats3 Vr O Wr c).before_in_eq_fetched 26 rfl (fun _ => rfl) (fun _ _ _ => rfl) (fun t => by rw [after3_26]; unfold Pipeline.Dat.blockOf iblk3; rw [A3_eq]; try rfl) t d).trans
    (by unfold Pipeline.Dat.fetched Pipeline.Dat.blockOf iblk3; rw [A3_eq]; try rfl)
theorem before3_27 (O : CellTallies nD τ sig (HIx 2)) (Wr : Set (SemLoc sig × HIx 2)) (c : Dev nD) (t : Fin cfg3.N) (d) : (dats3 Vr O Wr c).before 27 t d = iblk3 Vr c 27 t :=
  ((dats3 Vr O Wr c).before_in_eq_fetched 27 rfl (fun _ => rfl) (fun _ _ _ => rfl) (fun t => by rw [after3_27]; unfold Pipeline.Dat.blockOf iblk3; rw [A3_eq]; try rfl) t d).trans
    (by unfold Pipeline.Dat.fetched Pipeline.Dat.blockOf iblk3; rw [A3_eq]; try rfl)
theorem before3_28 (O : CellTallies nD τ sig (HIx 2)) (Wr : Set (SemLoc sig × HIx 2)) (c : Dev nD) (t : Fin cfg3.N) (d) : (dats3 Vr O Wr c).before 28 t d = iblk3 Vr c 28 t :=
  ((dats3 Vr O Wr c).before_in_eq_fetched 28 rfl (fun _ => rfl) (fun _ _ _ => rfl) (fun t => by rw [after3_28]; unfold Pipeline.Dat.blockOf iblk3; rw [A3_eq]; try rfl) t d).trans
    (by unfold Pipeline.Dat.fetched Pipeline.Dat.blockOf iblk3; rw [A3_eq]; try rfl)
theorem before3_29 (O : CellTallies nD τ sig (HIx 2)) (Wr : Set (SemLoc sig × HIx 2)) (c : Dev nD) (t : Fin cfg3.N) (d) : (dats3 Vr O Wr c).before 29 t d = iblk3 Vr c 29 t :=
  ((dats3 Vr O Wr c).before_in_eq_fetched 29 rfl (fun _ => rfl) (fun _ _ _ => rfl) (fun t => by rw [after3_29]; unfold Pipeline.Dat.blockOf iblk3; rw [A3_eq]; try rfl) t d).trans
    (by unfold Pipeline.Dat.fetched Pipeline.Dat.blockOf iblk3; rw [A3_eq]; try rfl)
theorem before3_30 (O : CellTallies nD τ sig (HIx 2)) (Wr : Set (SemLoc sig × HIx 2)) (c : Dev nD) (t : Fin cfg3.N) (d) : (dats3 Vr O Wr c).before 30 t d = iblk3 Vr c 30 t :=
  ((dats3 Vr O Wr c).before_in_eq_fetched 30 rfl (fun _ => rfl) (fun _ _ _ => rfl) (fun t => by rw [after3_30]; unfold Pipeline.Dat.blockOf iblk3; rw [A3_eq]; try rfl) t d).trans
    (by unfold Pipeline.Dat.fetched Pipeline.Dat.blockOf iblk3; rw [A3_eq]; try rfl)
theorem before3_31 (O : CellTallies nD τ sig (HIx 2)) (Wr : Set (SemLoc sig × HIx 2)) (c : Dev nD) (t : Fin cfg3.N) (d) : (dats3 Vr O Wr c).before 31 t d = iblk3 Vr c 31 t :=
  ((dats3 Vr O Wr c).before_in_eq_fetched 31 rfl (fun _ => rfl) (fun _ _ _ => rfl) (fun t => by rw [after3_31]; unfold Pipeline.Dat.blockOf iblk3; rw [A3_eq]; try rfl) t d).trans
    (by unfold Pipeline.Dat.fetched Pipeline.Dat.blockOf iblk3; rw [A3_eq]; try rfl)
theorem before3_32 (O : CellTallies nD τ sig (HIx 2)) (Wr : Set (SemLoc sig × HIx 2)) (c : Dev nD) (t : Fin cfg3.N) (d) : (dats3 Vr O Wr c).before 32 t d = iblk3 Vr c 32 t :=
  ((dats3 Vr O Wr c).before_in_eq_fetched 32 rfl (fun _ => rfl) (fun _ _ _ => rfl) (fun t => by rw [after3_32]; unfold Pipeline.Dat.blockOf iblk3; rw [A3_eq]; try rfl) t d).trans
    (by unfold Pipeline.Dat.fetched Pipeline.Dat.blockOf iblk3; rw [A3_eq]; try rfl)
theorem before3_33 (O : CellTallies nD τ sig (HIx 2)) (Wr : Set (SemLoc sig × HIx 2)) (c : Dev nD) (t : Fin cfg3.N) (d) : (dats3 Vr O Wr c).before 33 t d = iblk3 Vr c 33 t :=
  ((dats3 Vr O Wr c).before_in_eq_fetched 33 rfl (fun _ => rfl) (fun _ _ _ => rfl) (fun t => by rw [after3_33]; unfold Pipeline.Dat.blockOf iblk3; rw [A3_eq]; try rfl) t d).trans
    (by unfold Pipeline.Dat.fetched Pipeline.Dat.blockOf iblk3; rw [A3_eq]; try rfl)
theorem before3_34 (O : CellTallies nD τ sig (HIx 2)) (Wr : Set (SemLoc sig × HIx 2)) (c : Dev nD) (t : Fin cfg3.N) (d) : (dats3 Vr O Wr c).before 34 t d = iblk3 Vr c 34 t :=
  ((dats3 Vr O Wr c).before_in_eq_fetched 34 rfl (fun _ => rfl) (fun _ _ _ => rfl) (fun t => by rw [after3_34]; unfold Pipeline.Dat.blockOf iblk3; rw [A3_eq]; try rfl) t d).trans
    (by unfold Pipeline.Dat.fetched Pipeline.Dat.blockOf iblk3; rw [A3_eq]; try rfl)
theorem before3_35 (O : CellTallies nD τ sig (HIx 2)) (Wr : Set (SemLoc sig × HIx 2)) (c : Dev nD) (t : Fin cfg3.N) (d) : (dats3 Vr O Wr c).before 35 t d = iblk3 Vr c 35 t :=
  ((dats3 Vr O Wr c).before_in_eq_fetched 35 rfl (fun _ => rfl) (fun _ _ _ => rfl) (fun t => by rw [after3_35]; unfold Pipeline.Dat.blockOf iblk3; rw [A3_eq]; try rfl) t d).trans
    (by unfold Pipeline.Dat.fetched Pipeline.Dat.blockOf iblk3; rw [A3_eq]; try rfl)
theorem before3_36 (O : CellTallies nD τ sig (HIx 2)) (Wr : Set (SemLoc sig × HIx 2)) (c : Dev nD) (t : Fin cfg3.N) (d) : (dats3 Vr O Wr c).before 36 t d = iblk3 Vr c 36 t :=
  ((dats3 Vr O Wr c).before_in_eq_fetched 36 rfl (fun _ => rfl) (fun _ _ _ => rfl) (fun t => by rw [after3_36]; unfold Pipeline.Dat.blockOf iblk3; rw [A3_eq]; try rfl) t d).trans
    (by unfold Pipeline.Dat.fetched Pipeline.Dat.blockOf iblk3; rw [A3_eq]; try rfl)
theorem before3_37 (O : CellTallies nD τ sig (HIx 2)) (Wr : Set (SemLoc sig × HIx 2)) (c : Dev nD) (t : Fin cfg3.N) (d) : (dats3 Vr O Wr c).before 37 t d = iblk3 Vr c 37 t :=
  ((dats3 Vr O Wr c).before_in_eq_fetched 37 rfl (fun _ => rfl) (fun _ _ _ => rfl) (fun t => by rw [after3_37]; unfold Pipeline.Dat.blockOf iblk3; rw [A3_eq]; try rfl) t d).trans
    (by unfold Pipeline.Dat.fetched Pipeline.Dat.blockOf iblk3; rw [A3_eq]; try rfl)

/-- What the body is called with at point `t`, the windows one by one, -/
def bodyPre3 (O : CellTallies nD τ sig (HIx 2)) (Wr : Set (SemLoc sig × HIx 2)) (c : Dev nD) (t : Fin cfg3.N) : sProp 𝕄 :=
  iprop((dats3 Vr O Wr c).Φ t.castSucc ∗ (dats3 Vr O Wr c).owesAt none t.castSucc
    ∗ (∃ d, owns (c : Thread nD τ) (st3_0 t) fullShare ((dats3 Vr O Wr c).before 0 t d))
    ∗ (∃ d, owns (c : Thread nD τ) (st3_1 t) fullShare ((dats3 Vr O Wr c).before 1 t d))
    ∗ (∃ d, owns (c : Thread nD τ) (st3_2 t) fullShare ((dats3 Vr O Wr c).before 2 t d))
    ∗ (∃ d, owns (c : Thread nD τ) (st3_3 t) fullShare ((dats3 Vr O Wr c).before 3 t d))
    ∗ (∃ d, owns (c : Thread nD τ) (st3_4 t) fullShare ((dats3 Vr O Wr c).before 4 t d))
    ∗ (∃ d, owns (c : Thread nD τ) (st3_5 t) fullShare ((dats3 Vr O Wr c).before 5 t d))
    ∗ (∃ d, owns (c : Thread nD τ) (st3_6 t) fullShare ((dats3 Vr O Wr c).before 6 t d))
    ∗ (∃ d, owns (c : Thread nD τ) (st3_7 t) fullShare ((dats3 Vr O Wr c).before 7 t d))
    ∗ (∃ d, owns (c : Thread nD τ) (st3_8 t) fullShare ((dats3 Vr O Wr c).before 8 t d))
    ∗ (∃ d, owns (c : Thread nD τ) (st3_9 t) fullShare ((dats3 Vr O Wr c).before 9 t d))
    ∗ (∃ d, owns (c : Thread nD τ) (st3_10 t) fullShare ((dats3 Vr O Wr c).before 10 t d))
    ∗ (∃ d, owns (c : Thread nD τ) (st3_11 t) fullShare ((dats3 Vr O Wr c).before 11 t d))
    ∗ (∃ d, owns (c : Thread nD τ) (st3_12 t) fullShare ((dats3 Vr O Wr c).before 12 t d))
    ∗ (∃ d, owns (c : Thread nD τ) (st3_13 t) fullShare ((dats3 Vr O Wr c).before 13 t d))
    ∗ (∃ d, owns (c : Thread nD τ) (st3_14 t) fullShare ((dats3 Vr O Wr c).before 14 t d))
    ∗ (∃ d, owns (c : Thread nD τ) (st3_15 t) fullShare ((dats3 Vr O Wr c).before 15 t d))
    ∗ (∃ d, owns (c : Thread nD τ) (st3_16 t) fullShare ((dats3 Vr O Wr c).before 16 t d))
    ∗ (∃ d, owns (c : Thread nD τ) (st3_17 t) fullShare ((dats3 Vr O Wr c).before 17 t d))
    ∗ (∃ d, owns (c : Thread nD τ) (st3_18 t) fullShare ((dats3 Vr O Wr c).before 18 t d))
    ∗ (∃ d, owns (c : Thread nD τ) (st3_19 t) fullShare ((dats3 Vr O Wr c).before 19 t d))
    ∗ (∃ d, owns (c : Thread nD τ) (st3_20 t) fullShare ((dats3 Vr O Wr c).before 20 t d))
    ∗ (∃ d, owns (c : Thread nD τ) (st3_21 t) fullShare ((dats3 Vr O Wr c).before 21 t d))
    ∗ (∃ d, owns (c : Thread nD τ) (st3_22 t) fullShare ((dats3 Vr O Wr c).before 22 t d))
    ∗ (∃ d, owns (c : Thread nD τ) (st3_23 t) fullShare ((dats3 Vr O Wr c).before 23 t d))
    ∗ (∃ d, owns (c : Thread nD τ) (st3_24 t) fullShare ((dats3 Vr O Wr c).before 24 t d))
    ∗ (∃ d, owns (c : Thread nD τ) (st3_25 t) fullShare ((dats3 Vr O Wr c).before 25 t d))
    ∗ (∃ d, owns (c : Thread nD τ) (st3_26 t) fullShare ((dats3 Vr O Wr c).before 26 t d))
    ∗ (∃ d, owns (c : Thread nD τ) (st3_27 t) fullShare ((dats3 Vr O Wr c).before 27 t d))
    ∗ (∃ d, owns (c : Thread nD τ) (st3_28 t) fullShare ((dats3 Vr O Wr c).before 28 t d))
    ∗ (∃ d, owns (c : Thread nD τ) (st3_29 t) fullShare ((dats3 Vr O Wr c).before 29 t d))
    ∗ (∃ d, owns (c : Thread nD τ) (st3_30 t) fullShare ((dats3 Vr O Wr c).before 30 t d))
    ∗ (∃ d, owns (c : Thread nD τ) (st3_31 t) fullShare ((dats3 Vr O Wr c).before 31 t d))
    ∗ (∃ d, owns (c : Thread nD τ) (st3_32 t) fullShare ((dats3 Vr O Wr c).before 32 t d))
    ∗ (∃ d, owns (c : Thread nD τ) (st3_33 t) fullShare ((dats3 Vr O Wr c).before 33 t d))
    ∗ (∃ d, owns (c : Thread nD τ) (st3_34 t) fullShare ((dats3 Vr O Wr c).before 34 t d))
    ∗ (∃ d, owns (c : Thread nD τ) (st3_35 t) fullShare ((dats3 Vr O Wr c).before 35 t d))
    ∗ (∃ d, owns (c : Thread nD τ) (st3_36 t) fullShare ((dats3 Vr O Wr c).before 36 t d))
    ∗ (∃ d, owns (c : Thread nD τ) (st3_37 t) fullShare ((dats3 Vr O Wr c).before 37 t d))
    ∗ (∃ d, owns (c : Thread nD τ) (st3_38 t) fullShare ((dats3 Vr O Wr c).before 38 t d)))

/-- and what it returns. -/
def bodyPost3 (O : CellTallies nD τ sig (HIx 2)) (Wr : Set (SemLoc sig × HIx 2)) (c : Dev nD) (t : Fin cfg3.N) : sProp 𝕄 :=
  iprop((dats3 Vr O Wr c).Φ t.succ ∗ (dats3 Vr O Wr c).owesAt none t.succ
    ∗ owns (c : Thread nD τ) (st3_0 t) fullShare ((dats3 Vr O Wr c).after 0 t)
    ∗ owns (c : Thread nD τ) (st3_1 t) fullShare ((dats3 Vr O Wr c).after 1 t)
    ∗ owns (c : Thread nD τ) (st3_2 t) fullShare ((dats3 Vr O Wr c).after 2 t)
    ∗ owns (c : Thread nD τ) (st3_3 t) fullShare ((dats3 Vr O Wr c).after 3 t)
    ∗ owns (c : Thread nD τ) (st3_4 t) fullShare ((dats3 Vr O Wr c).after 4 t)
    ∗ owns (c : Thread nD τ) (st3_5 t) fullShare ((dats3 Vr O Wr c).after 5 t)
    ∗ owns (c : Thread nD τ) (st3_6 t) fullShare ((dats3 Vr O Wr c).after 6 t)
    ∗ owns (c : Thread nD τ) (st3_7 t) fullShare ((dats3 Vr O Wr c).after 7 t)
    ∗ owns (c : Thread nD τ) (st3_8 t) fullShare ((dats3 Vr O Wr c).after 8 t)
    ∗ owns (c : Thread nD τ) (st3_9 t) fullShare ((dats3 Vr O Wr c).after 9 t)
    ∗ owns (c : Thread nD τ) (st3_10 t) fullShare ((dats3 Vr O Wr c).after 10 t)
    ∗ owns (c : Thread nD τ) (st3_11 t) fullShare ((dats3 Vr O Wr c).after 11 t)
    ∗ owns (c : Thread nD τ) (st3_12 t) fullShare ((dats3 Vr O Wr c).after 12 t)
    ∗ owns (c : Thread nD τ) (st3_13 t) fullShare ((dats3 Vr O Wr c).after 13 t)
    ∗ owns (c : Thread nD τ) (st3_14 t) fullShare ((dats3 Vr O Wr c).after 14 t)
    ∗ owns (c : Thread nD τ) (st3_15 t) fullShare ((dats3 Vr O Wr c).after 15 t)
    ∗ owns (c : Thread nD τ) (st3_16 t) fullShare ((dats3 Vr O Wr c).after 16 t)
    ∗ owns (c : Thread nD τ) (st3_17 t) fullShare ((dats3 Vr O Wr c).after 17 t)
    ∗ owns (c : Thread nD τ) (st3_18 t) fullShare ((dats3 Vr O Wr c).after 18 t)
    ∗ owns (c : Thread nD τ) (st3_19 t) fullShare ((dats3 Vr O Wr c).after 19 t)
    ∗ owns (c : Thread nD τ) (st3_20 t) fullShare ((dats3 Vr O Wr c).after 20 t)
    ∗ owns (c : Thread nD τ) (st3_21 t) fullShare ((dats3 Vr O Wr c).after 21 t)
    ∗ owns (c : Thread nD τ) (st3_22 t) fullShare ((dats3 Vr O Wr c).after 22 t)
    ∗ owns (c : Thread nD τ) (st3_23 t) fullShare ((dats3 Vr O Wr c).after 23 t)
    ∗ owns (c : Thread nD τ) (st3_24 t) fullShare ((dats3 Vr O Wr c).after 24 t)
    ∗ owns (c : Thread nD τ) (st3_25 t) fullShare ((dats3 Vr O Wr c).after 25 t)
    ∗ owns (c : Thread nD τ) (st3_26 t) fullShare ((dats3 Vr O Wr c).after 26 t)
    ∗ owns (c : Thread nD τ) (st3_27 t) fullShare ((dats3 Vr O Wr c).after 27 t)
    ∗ owns (c : Thread nD τ) (st3_28 t) fullShare ((dats3 Vr O Wr c).after 28 t)
    ∗ owns (c : Thread nD τ) (st3_29 t) fullShare ((dats3 Vr O Wr c).after 29 t)
    ∗ owns (c : Thread nD τ) (st3_30 t) fullShare ((dats3 Vr O Wr c).after 30 t)
    ∗ owns (c : Thread nD τ) (st3_31 t) fullShare ((dats3 Vr O Wr c).after 31 t)
    ∗ owns (c : Thread nD τ) (st3_32 t) fullShare ((dats3 Vr O Wr c).after 32 t)
    ∗ owns (c : Thread nD τ) (st3_33 t) fullShare ((dats3 Vr O Wr c).after 33 t)
    ∗ owns (c : Thread nD τ) (st3_34 t) fullShare ((dats3 Vr O Wr c).after 34 t)
    ∗ owns (c : Thread nD τ) (st3_35 t) fullShare ((dats3 Vr O Wr c).after 35 t)
    ∗ owns (c : Thread nD τ) (st3_36 t) fullShare ((dats3 Vr O Wr c).after 36 t)
    ∗ owns (c : Thread nD τ) (st3_37 t) fullShare ((dats3 Vr O Wr c).after 37 t)
    ∗ owns (c : Thread nD τ) (st3_38 t) fullShare ((dats3 Vr O Wr c).after 38 t))

set_option maxHeartbeats 4000000 in
set_option maxRecDepth 65536 in
/-- The body at any point: the inputs' memrefs hold their blocks, so the body's triple applies; the invariant and the
    core's `owes` pass through unread. -/
theorem sound_body3 (O : CellTallies nD τ sig (HIx 2)) (Wr : Set (SemLoc sig × HIx 2)) (c : Dev nD) (t : Fin cfg3.N) :
    bodyPre3 Vr O Wr c t ⊢ wp frame (wpE (defs₀ (F := F)) Variants.none c none) Set.univ (bodyAt3 t) (fun _ => bodyPost3 Vr O Wr c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22, before3_23, before3_24, before3_25, before3_26, before3_27, before3_28, before3_29, before3_30, before3_31, before3_32, before3_33, before3_34, before3_35, before3_36, before3_37]
  rw [show (dats3 Vr O Wr c).Φ t.succ = (dats3 Vr O Wr c).Φ t.castSucc from rfl,
    show (dats3 Vr O Wr c).owesAt none t.succ = (dats3 Vr O Wr c).owesAt none t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24, after3_25, after3_26, after3_27, after3_28, after3_29, after3_30, after3_31, after3_32, after3_33, after3_34, after3_35, after3_36, after3_37, after3_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_tc3 c Set.univ (grid3.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk3 Vr c 0 t) (iblk3 Vr c 1 t) (iblk3 Vr c 2 t) (iblk3 Vr c 3 t) (iblk3 Vr c 4 t) (iblk3 Vr c 5 t) (iblk3 Vr c 6 t) (iblk3 Vr c 7 t) (iblk3 Vr c 8 t) (iblk3 Vr c 9 t) (iblk3 Vr c 10 t) (iblk3 Vr c 11 t) (iblk3 Vr c 12 t) (iblk3 Vr c 13 t) (iblk3 Vr c 14 t) (iblk3 Vr c 15 t) (iblk3 Vr c 16 t) (iblk3 Vr c 17 t) (iblk3 Vr c 18 t) (iblk3 Vr c 19 t) (iblk3 Vr c 20 t) (iblk3 Vr c 21 t) (iblk3 Vr c 22 t) (iblk3 Vr c 23 t) (iblk3 Vr c 24 t) (iblk3 Vr c 25 t) (iblk3 Vr c 26 t) (iblk3 Vr c 27 t) (iblk3 Vr c 28 t) (iblk3 Vr c 29 t) (iblk3 Vr c 30 t) (iblk3 Vr c 31 t) (iblk3 Vr c 32 t) (iblk3 Vr c 33 t) (iblk3 Vr c 34 t) (iblk3 Vr c 35 t) (iblk3 Vr c 36 t) (iblk3 Vr c 37 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
set_option maxRecDepth 65536 in
/-- The library's body obligation, at every point. -/
theorem body_obligation3 (O : CellTallies nD τ sig (HIx 2)) (Wr : Set (SemLoc sig × HIx 2)) (c : Dev nD) : Pipeline.BodyObligation (dats3 (F := F) Vr O Wr c) (defs₀ (F := F)) Variants.none none Set.univ := fun t => by
  rw [bigSep_W3, bigSep_W3]
  exact sound_body3 Vr O Wr c t

end Region3

end Cert.Proof.KB

end
-- ==== Proof.KB.Pins.lean ====
/-
  The pipelines' admissible tables (there are none: neither pipeline prefetches) and the launch's level assignment.
-/
import proofs.«205278_g66915590471714_cont_9to1_m_383_35_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

abbrev adm : (p : Fin 2) → (pcfgs (F := F) p).Adm := fun p => (cfgs p).toPCfg_adm
abbrev LK : GSem nD τ sig → Finset (HIx 2) := (K (F := F)).L
abbrev lvK : GSem nD τ sig → HIx 2 → ℕ := (K (F := F)).lev

end Cert.Proof.KB

end
-- ==== Proof.KB.RegionArrays.lean ====
/-
  The two TensorCore pipelines' arrays at a region's entry and exit: the fourteen buffers behind each pipeline's windows
  against the windows' arrays at their shares.
-/
import proofs.«205278_g66915590471714_cont_9to1_m_383_35_alg».proof.Proof.KB.Regions
import proofs.«205278_g66915590471714_cont_9to1_m_383_35_alg».proof.Proof.KB.Pins
import proofs.«205278_g66915590471714_cont_9to1_m_383_35_alg».proof.Proof.Gen.Kernel.Launch
import Idealize.ShloMosaic.Lib.Pipeline.Regions
import Idealize.ShloMosaic.Lib.Pipeline.Frame

set_option maxRecDepth 65536
set_option maxHeartbeats 2000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- Twenty-six conjoined one by one. -/
theorem bigSep_F26 {M : Type} [URA M] (Φ : Fin 26 → sProp M) : bigSep Finset.univ Φ = iprop(Φ (0 : Fin 26) ∗ Φ (1 : Fin 26) ∗ Φ (2 : Fin 26) ∗ Φ (3 : Fin 26) ∗ Φ (4 : Fin 26) ∗ Φ (5 : Fin 26) ∗ Φ (6 : Fin 26) ∗ Φ (7 : Fin 26) ∗ Φ (8 : Fin 26) ∗ Φ (9 : Fin 26) ∗ Φ (10 : Fin 26) ∗ Φ (11 : Fin 26) ∗ Φ (12 : Fin 26) ∗ Φ (13 : Fin 26) ∗ Φ (14 : Fin 26) ∗ Φ (15 : Fin 26) ∗ Φ (16 : Fin 26) ∗ Φ (17 : Fin 26) ∗ Φ (18 : Fin 26) ∗ Φ (19 : Fin 26) ∗ Φ (20 : Fin 26) ∗ Φ (21 : Fin 26) ∗ Φ (22 : Fin 26) ∗ Φ (23 : Fin 26) ∗ Φ (24 : Fin 26) ∗ Φ (25 : Fin 26)) :=
  bigSep_univ_eq_bigSepL [(0 : Fin 26), (1 : Fin 26), (2 : Fin 26), (3 : Fin 26), (4 : Fin 26), (5 : Fin 26), (6 : Fin 26), (7 : Fin 26), (8 : Fin 26), (9 : Fin 26), (10 : Fin 26), (11 : Fin 26), (12 : Fin 26), (13 : Fin 26), (14 : Fin 26), (15 : Fin 26), (16 : Fin 26), (17 : Fin 26), (18 : Fin 26), (19 : Fin 26), (20 : Fin 26), (21 : Fin 26), (22 : Fin 26), (23 : Fin 26), (24 : Fin 26), (25 : Fin 26)] (by decide) (by decide) Φ

/-- Nothing conjoined over no index. -/
theorem bigSep_Fin0 {M : Type} [URA M] (Φ : Fin 0 → sProp M) : bigSep Finset.univ Φ = (BI.emp : sProp M) := by
  rw [Finset.univ_eq_empty, BI.bigSep_empty]
/-- Neither pipeline has a prefetched table. -/
theorem prefHeld_none0 (c : Dev nD) (q) (pf) : (Pipeline.prefHeld (Ix := HIx 2) (Name := ℕ) (U := UU) (Lvl := ℕ) (Val := Elt F) (pcfgs (F := F) 0).pre c q pf : sProp 𝕄) = BI.emp :=
  bigSep_Fin0 _
theorem prefHeld_none1 (c : Dev nD) (q) (pf) : (Pipeline.prefHeld (Ix := HIx 2) (Name := ℕ) (U := UU) (Lvl := ℕ) (Val := Elt F) (pcfgs (F := F) 1).pre c q pf : sProp 𝕄) = BI.emp :=
  bigSep_Fin0 _

/-- An input window's array is never written: at every point it holds its entry contents. -/
theorem arrAt_of_in {cfg : Pipeline.Cfg sig Λ₀} {c : Dev nD} (dat : Pipeline.Dat τ (Elt F) (HIx 2) ℕ UU ℕ cfg c) (w : Fin cfg.W)
    (hw : (cfg.win w).isOut = false) : ∀ n, dat.arrAt w n = dat.A w
  | 0 => rfl
  | n + 1 => by
    rw [Pipeline.Dat.arrAt]
    by_cases h : n < cfg.N
    · simp only [h, ↓reduceDIte, (cfg.win w).flush_in hw, Bool.false_eq_true, ↓reduceIte]
      exact arrAt_of_in dat w hw n
    · simp only [h, ↓reduceDIte]
      exact arrAt_of_in dat w hw n

section Recs

variable (V0 V1 : Valuation τ sig (Elt F)) (O0 O1 : CellTallies nD τ sig (HIx 2)) (W0 W1 : Set (SemLoc sig × HIx 2))

/-- The proof data of both pipelines. -/
def pdats : (p : Fin 2) → (c : Dev nD) → Pipeline.Dat τ (Elt F) (HIx 2) ℕ UU ℕ (Pipeline.pin (pcfgs (F := F)) adm p) c
  | ⟨0, _⟩, c => dats1 V0 O0 W0 c
  | ⟨1, _⟩, c => dats3 V1 O1 W1 c

/-! ## Pipeline call 0 -/

/-- The distinct arrays of pipeline call 0's windows. -/
def arrSet1 : Finset (DevRef τ sig) :=
  {Proc.devRef .tc main_v23, Proc.devRef .tc main_v24, Proc.devRef .tc main_arg4, Proc.devRef .tc main_arg6, Proc.devRef .tc main_v10, Proc.devRef .tc main_v14, Proc.devRef .tc main_v11, Proc.devRef .tc main_v15, Proc.devRef .tc main_v12, Proc.devRef .tc main_v16, Proc.devRef .tc main_v13, Proc.devRef .tc main_v9, Proc.devRef .tc main_v22, Proc.devRef .tc main_v25}

theorem arrSet1_sub : arrSet1 ⊆ Pipeline.ucRefs τ sig := by
  intro b hb
  simp only [arrSet1, Finset.mem_insert, Finset.mem_singleton] at hb
  rcases hb with rfl | rfl | rfl | rfl | rfl | rfl | rfl | rfl | rfl | rfl | rfl | rfl | rfl | rfl <;>
    exact Finset.mem_filter.mpr ⟨StableHlo.devRef_mem_tcRefs _, by decide⟩

/-- The fourteen arrays one by one. -/
theorem held_arrSet1 (c : Dev nD) (V : Valuation τ sig (Elt F)) :
    (held (c : Thread nD τ) arrSet1 V : sProp 𝕄)
      = iprop(((((c : Dev nD), Proc.devRef .tc main_v23) : Loc nD τ sig) ↦{fullShare} V (Proc.devRef .tc main_v23))
        ∗ ((((c : Dev nD), Proc.devRef .tc main_v24) : Loc nD τ sig) ↦{fullShare} V (Proc.devRef .tc main_v24))
        ∗ ((((c : Dev nD), Proc.devRef .tc main_arg4) : Loc nD τ sig) ↦{fullShare} V (Proc.devRef .tc main_arg4))
        ∗ ((((c : Dev nD), Proc.devRef .tc main_arg6) : Loc nD τ sig) ↦{fullShare} V (Proc.devRef .tc main_arg6))
        ∗ ((((c : Dev nD), Proc.devRef .tc main_v10) : Loc nD τ sig) ↦{fullShare} V (Proc.devRef .tc main_v10))
        ∗ ((((c : Dev nD), Proc.devRef .tc main_v14) : Loc nD τ sig) ↦{fullShare} V (Proc.devRef .tc main_v14))
        ∗ ((((c : Dev nD), Proc.devRef .tc main_v11) : Loc nD τ sig) ↦{fullShare} V (Proc.devRef .tc main_v11))
        ∗ ((((c : Dev nD), Proc.devRef .tc main_v15) : Loc nD τ sig) ↦{fullShare} V (Proc.devRef .tc main_v15))
        ∗ ((((c : Dev nD), Proc.devRef .tc main_v12) : Loc nD τ sig) ↦{fullShare} V (Proc.devRef .tc main_v12))
        ∗ ((((c : Dev nD), Proc.devRef .tc main_v16) : Loc nD τ sig) ↦{fullShare} V (Proc.devRef .tc main_v16))
        ∗ ((((c : Dev nD), Proc.devRef .tc main_v13) : Loc nD τ sig) ↦{fullShare} V (Proc.devRef .tc main_v13))
        ∗ ((((c : Dev nD), Proc.devRef .tc main_v9) : Loc nD τ sig) ↦{fullShare} V (Proc.devRef .tc main_v9))
        ∗ ((((c : Dev nD), Proc.devRef .tc main_v22) : Loc nD τ sig) ↦{fullShare} V (Proc.devRef .tc main_v22))
        ∗ ((((c : Dev nD), Proc.devRef .tc main_v25) : Loc nD τ sig) ↦{fullShare} V (Proc.devRef .tc main_v25))) := by
  unfold StableHlo.held arrSet1
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers that bypass pipeline call 0 do not include its result array. -/
theorem rest1_congr (V : Valuation τ sig (Elt F)) (c : Dev nD) (f) :
    (held (c : Thread nD τ) (Pipeline.ucRefs τ sig \ arrSet1) (Function.update V (Proc.devRef .tc main_v25) f) : sProp 𝕄)
      = held (c : Thread nD τ) (Pipeline.ucRefs τ sig \ arrSet1) V :=
  StableHlo.held_congr (c : Thread nD τ) fun b hb => Function.update_of_ne (fun e => (Finset.mem_sdiff.mp hb).2 (by
    rw [e]; simp only [arrSet1, Finset.mem_insert, Finset.mem_singleton, or_true, true_or])) _ _

theorem arr1a_0 (c : Dev nD) :
    ((cfg1.win 0).arr.view.loc (c : Thread nD τ) ↦[(cfg1.win 0).arr.view.set]{(dats1 V0 O0 W0 c).share 0} ((dats1 V0 O0 W0 c).arrAt 0 0) : sProp 𝕄)
      = (((c : Dev nD), Proc.devRef .tc main_v23) : Loc nD τ sig) ↦{fullShare} V0 (Proc.devRef .tc main_v23) := by
  simp only [Memref.view_whole, View.set_whole]
  rfl
theorem arr1a_1 (c : Dev nD) :
    ((cfg1.win 1).arr.view.loc (c : Thread nD τ) ↦[(cfg1.win 1).arr.view.set]{(dats1 V0 O0 W0 c).share 1} ((dats1 V0 O0 W0 c).arrAt 1 0) : sProp 𝕄)
      = (((c : Dev nD), Proc.devRef .tc main_v24) : Loc nD τ sig) ↦{fullShare} V0 (Proc.devRef .tc main_v24) := by
  simp only [Memref.view_whole, View.set_whole]
  rfl
theorem arr1a_2 (c : Dev nD) :
    ((cfg1.win 2).arr.view.loc (c : Thread nD τ) ↦[(cfg1.win 2).arr.view.set]{(dats1 V0 O0 W0 c).share 2} ((dats1 V0 O0 W0 c).arrAt 2 0) : sProp 𝕄)
      = (((c : Dev nD), Proc.devRef .tc main_arg4) : Loc nD τ sig) ↦{fullShare} V0 (Proc.devRef .tc main_arg4) := by
  simp only [Memref.view_whole, View.set_whole]
  rfl
theorem arr1a_3 (c : Dev nD) :
    ((cfg1.win 3).arr.view.loc (c : Thread nD τ) ↦[(cfg1.win 3).arr.view.set]{(dats1 V0 O0 W0 c).share 3} ((dats1 V0 O0 W0 c).arrAt 3 0) : sProp 𝕄)
      = (((c : Dev nD), Proc.devRef .tc main_arg6) : Loc nD τ sig) ↦{fullShare} V0 (Proc.devRef .tc main_arg6) := by
  simp only [Memref.view_whole, View.set_whole]
  rfl
theorem arr1a_4 (c : Dev nD) :
    ((cfg1.win 4).arr.view.loc (c : Thread nD τ) ↦[(cfg1.win 4).arr.view.set]{(dats1 V0 O0 W0 c).share 4} ((dats1 V0 O0 W0 c).arrAt 4 0) : sProp 𝕄)
      = (((c : Dev nD), Proc.devRef .tc main_v10) : Loc nD τ sig) ↦{fullShare} V0 (Proc.devRef .tc main_v10) := by
  simp only [Memref.view_whole, View.set_whole]
  rfl
theorem arr1a_5 (c : Dev nD) :
    ((cfg1.win 5).arr.view.loc (c : Thread nD τ) ↦[(cfg1.win 5).arr.view.set]{(dats1 V0 O0 W0 c).share 5} ((dats1 V0 O0 W0 c).arrAt 5 0) : sProp 𝕄)
      = (((c : Dev nD), Proc.devRef .tc main_v14) : Loc nD τ sig) ↦{fullShare} V0 (Proc.devRef .tc main_v14) := by
  simp only [Memref.view_whole, View.set_whole]
  rfl
theorem arr1a_6 (c : Dev nD) :
    ((cfg1.win 6).arr.view.loc (c : Thread nD τ) ↦[(cfg1.win 6).arr.view.set]{(dats1 V0 O0 W0 c).share 6} ((dats1 V0 O0 W0 c).arrAt 6 0) : sProp 𝕄)
      = (((c : Dev nD), Proc.devRef .tc main_v11) : Loc nD τ sig) ↦{fullShare} V0 (Proc.devRef .tc main_v11) := by
  simp only [Memref.view_whole, View.set_whole]
  rfl
theorem arr1a_7 (c : Dev nD) :
    ((cfg1.win 7).arr.view.loc (c : Thread nD τ) ↦[(cfg1.win 7).arr.view.set]{(dats1 V0 O0 W0 c).share 7} ((dats1 V0 O0 W0 c).arrAt 7 0) : sProp 𝕄)
      = (((c : Dev nD), Proc.devRef .tc main_v15) : Loc nD τ sig) ↦{fullShare} V0 (Proc.devRef .tc main_v15) := by
  simp only [Memref.view_whole, View.set_whole]
  rfl
theorem arr1a_8 (c : Dev nD) :
    ((cfg1.win 8).arr.view.loc (c : Thread nD τ) ↦[(cfg1.win 8).arr.view.set]{(dats1 V0 O0 W0 c).share 8} ((dats1 V0 O0 W0 c).arrAt 8 0) : sProp 𝕄)
      = (((c : Dev nD), Proc.devRef .tc main_v12) : Loc nD τ sig) ↦{fullShare} V0 (Proc.devRef .tc main_v12) := by
  simp only [Memref.view_whole, View.set_whole]
  rfl
theorem arr1a_9 (c : Dev nD) :
    ((cfg1.win 9).arr.view.loc (c : Thread nD τ) ↦[(cfg1.win 9).arr.view.set]{(dats1 V0 O0 W0 c).share 9} ((dats1 V0 O0 W0 c).arrAt 9 0) : sProp 𝕄)
      = (((c : Dev nD), Proc.devRef .tc main_v16) : Loc nD τ sig) ↦{fullShare} V0 (Proc.devRef .tc main_v16) := by
  simp only [Memref.view_whole, View.set_whole]
  rfl
theorem arr1a_10 (c : Dev nD) :
    ((cfg1.win 10).arr.view.loc (c : Thread nD τ) ↦[(cfg1.win 10).arr.view.set]{(dats1 V0 O0 W0 c).share 10} ((dats1 V0 O0 W0 c).arrAt 10 0) : sProp 𝕄)
      = (((c : Dev nD), Proc.devRef .tc main_v13) : Loc nD τ sig) ↦{fullShare} V0 (Proc.devRef .tc main_v13) := by
  simp only [Memref.view_whole, View.set_whole]
  rfl
theorem arr1a_11 (c : Dev nD) :
    ((cfg1.win 11).arr.view.loc (c : Thread nD τ) ↦[(cfg1.win 11).arr.view.set]{(dats1 V0 O0 W0 c).share 11} ((dats1 V0 O0 W0 c).arrAt 11 0) : sProp 𝕄)
      = (((c : Dev nD), Proc.devRef .tc main_v9) : Loc nD τ sig) ↦{fullShare} V0 (Proc.devRef .tc main_v9) := by
  simp only [Memref.view_whole, View.set_whole]
  rfl
theorem arr1a_12 (c : Dev nD) :
    ((cfg1.win 12).arr.view.loc (c : Thread nD τ) ↦[(cfg1.win 12).arr.view.set]{(dats1 V0 O0 W0 c).share 12} ((dats1 V0 O0 W0 c).arrAt 12 0) : sProp 𝕄)
      = (((c : Dev nD), Proc.devRef .tc main_v22) : Loc nD τ sig) ↦{shareTokN fullShare 0} V0 (Proc.devRef .tc main_v22) := by
  simp only [Memref.view_whole, View.set_whole]
  rfl
theorem arr1a_13 (c : Dev nD) :
    ((cfg1.win 13).arr.view.loc (c : Thread nD τ) ↦[(cfg1.win 13).arr.view.set]{(dats1 V0 O0 W0 c).share 13} ((dats1 V0 O0 W0 c).arrAt 13 0) : sProp 𝕄)
      = (((c : Dev nD), Proc.devRef .tc main_v22) : Loc nD τ sig) ↦{shareTokN fullShare 1} V0 (Proc.devRef .tc main_v22) := by
  simp only [Memref.view_whole, View.set_whole]
  rfl
theorem arr1a_14 (c : Dev nD) :
    ((cfg1.win 14).arr.view.loc (c : Thread nD τ) ↦[(cfg1.win 14).arr.view.set]{(dats1 V0 O0 W0 c).share 14} ((dats1 V0 O0 W0 c).arrAt 14 0) : sProp 𝕄)
      = (((c : Dev nD), Proc.devRef .tc main_v22) : Loc nD τ sig) ↦{shareTokN fullShare 2} V0 (Proc.devRef .tc main_v22) := by
  simp only [Memref.view_whole, View.set_whole]
  rfl
theorem arr1a_15 (c : Dev nD) :
    ((cfg1.win 15).arr.view.loc (c : Thread nD τ) ↦[(cfg1.win 15).arr.view.set]{(dats1 V0 O0 W0 c).share 15} ((dats1 V0 O0 W0 c).arrAt 15 0) : sProp 𝕄)
      = (((c : Dev nD), Proc.devRef .tc main_v22) : Loc nD τ sig) ↦{shareTokN fullShare 3} V0 (Proc.devRef .tc main_v22) := by
  simp only [Memref.view_whole, View.set_whole]
  rfl
theorem arr1a_16 (c : Dev nD) :
    ((cfg1.win 16).arr.view.loc (c : Thread nD τ) ↦[(cfg1.win 16).arr.view.set]{(dats1 V0 O0 W0 c).share 16} ((dats1 V0 O0 W0 c).arrAt 16 0) : sProp 𝕄)
      = (((c : Dev nD), Proc.devRef .tc main_v22) : Loc nD τ sig) ↦{shareTokN fullShare 4} V0 (Proc.devRef .tc main_v22) := by
  simp only [Memref.view_whole, View.set_whole]
  rfl
theorem arr1a_17 (c : Dev nD) :
    ((cfg1.win 17).arr.view.loc (c : Thread nD τ) ↦[(cfg1.win 17).arr.view.set]{(dats1 V0 O0 W0 c).share 17} ((dats1 V0 O0 W0 c).arrAt 17 0) : sProp 𝕄)
      = (((c : Dev nD), Proc.devRef .tc main_v22) : Loc nD τ sig) ↦{shareTokN fullShare 5} V0 (Proc.devRef .tc main_v22) := by
  simp only [Memref.view_whole, View.set_whole]
  rfl
theorem arr1a_18 (c : Dev nD) :
    ((cfg1.win 18).arr.view.loc (c : Thread nD τ) ↦[(cfg1.win 18).arr.view.set]{(dats1 V0 O0 W0 c).share 18} ((dats1 V0 O0 W0 c).arrAt 18 0) : sProp 𝕄)
      = (((c : Dev nD), Proc.devRef .tc main_v22) : Loc nD τ sig) ↦{shareTokN fullShare 6} V0 (Proc.devRef .tc main_v22) := by
  simp only [Memref.view_whole, View.set_whole]
  rfl
theorem arr1a_19 (c : Dev nD) :
    ((cfg1.win 19).arr.view.loc (c : Thread nD τ) ↦[(cfg1.win 19).arr.view.set]{(dats1 V0 O0 W0 c).share 19} ((dats1 V0 O0 W0 c).arrAt 19 0) : sProp 𝕄)
      = (((c : Dev nD), Proc.devRef .tc main_v22) : Loc nD τ sig) ↦{shareTokN fullShare 7} V0 (Proc.devRef .tc main_v22) := by
  simp only [Memref.view_whole, View.set_whole]
  rfl
theorem arr1a_20 (c : Dev nD) :
    ((cfg1.win 20).arr.view.loc (c : Thread nD τ) ↦[(cfg1.win 20).arr.view.set]{(dats1 V0 O0 W0 c).share 20} ((dats1 V0 O0 W0 c).arrAt 20 0) : sProp 𝕄)
      = (((c : Dev nD), Proc.devRef .tc main_v22) : Loc nD τ sig) ↦{shareTokN fullShare 8} V0 (Proc.devRef .tc main_v22) := by
  simp only [Memref.view_whole, View.set_whole]
  rfl
theorem arr1a_21 (c : Dev nD) :
    ((cfg1.win 21).arr.view.loc (c : Thread nD τ) ↦[(cfg1.win 21).arr.view.set]{(dats1 V0 O0 W0 c).share 21} ((dats1 V0 O0 W0 c).arrAt 21 0) : sProp 𝕄)
      = (((c : Dev nD), Proc.devRef .tc main_v22) : Loc nD τ sig) ↦{shareTokN fullShare 9} V0 (Proc.devRef .tc main_v22) := by
  simp only [Memref.view_whole, View.set_whole]
  rfl
theorem arr1a_22 (c : Dev nD) :
    ((cfg1.win 22).arr.view.loc (c : Thread nD τ) ↦[(cfg1.win 22).arr.view.set]{(dats1 V0 O0 W0 c).share 22} ((dats1 V0 O0 W0 c).arrAt 22 0) : sProp 𝕄)
      = (((c : Dev nD), Proc.devRef .tc main_v22) : Loc nD τ sig) ↦{shareTokN fullShare 10} V0 (Proc.devRef .tc main_v22) := by
  simp only [Memref.view_whole, View.set_whole]
  rfl
theorem arr1a_23 (c : Dev nD) :
    ((cfg1.win 23).arr.view.loc (c : Thread nD τ) ↦[(cfg1.win 23).arr.view.set]{(dats1 V0 O0 W0 c).share 23} ((dats1 V0 O0 W0 c).arrAt 23 0) : sProp 𝕄)
      = (((c : Dev nD), Proc.devRef .tc main_v22) : Loc nD τ sig) ↦{shareTokN fullShare 11} V0 (Proc.devRef .tc main_v22) := by
  simp only [Memref.view_whole, View.set_whole]
  rfl
theorem arr1a_24 (c : Dev nD) :
    ((cfg1.win 24).arr.view.loc (c : Thread nD τ) ↦[(cfg1.win 24).arr.view.set]{(dats1 V0 O0 W0 c).share 24} ((dats1 V0 O0 W0 c).arrAt 24 0) : sProp 𝕄)
      = (((c : Dev nD), Proc.devRef .tc main_v22) : Loc nD τ sig) ↦{shareTokN fullShare 12} V0 (Proc.devRef .tc main_v22) := by
  simp only [Memref.view_whole, View.set_whole]
  rfl
theorem arr1a_25 (c : Dev nD) :
    ((cfg1.win 25).arr.view.loc (c : Thread nD τ) ↦[(cfg1.win 25).arr.view.set]{(dats1 V0 O0 W0 c).share 25} ((dats1 V0 O0 W0 c).arrAt 25 0) : sProp 𝕄)
      = (((c : Dev nD), Proc.devRef .tc main_v22) : Loc nD τ sig) ↦{shareTokN fullShare 13} V0 (Proc.devRef .tc main_v22) := by
  simp only [Memref.view_whole, View.set_whole]
  rfl
theorem arr1a_26 (c : Dev nD) :
    ((cfg1.win 26).arr.view.loc (c : Thread nD τ) ↦[(cfg1.win 26).arr.view.set]{(dats1 V0 O0 W0 c).share 26} ((dats1 V0 O0 W0 c).arrAt 26 0) : sProp 𝕄)
      = (((c : Dev nD), Proc.devRef .tc main_v22) : Loc nD τ sig) ↦{shareTokN fullShare 14} V0 (Proc.devRef .tc main_v22) := by
  simp only [Memref.view_whole, View.set_whole]
  rfl
theorem arr1a_27 (c : Dev nD) :
    ((cfg1.win 27).arr.view.loc (c : Thread nD τ) ↦[(cfg1.win 27).arr.view.set]{(dats1 V0 O0 W0 c).share 27} ((dats1 V0 O0 W0 c).arrAt 27 0) : sProp 𝕄)
      = (((c : Dev nD), Proc.devRef .tc main_v22) : Loc nD τ sig) ↦{shareTokN fullShare 15} V0 (Proc.devRef .tc main_v22) := by
  simp only [Memref.view_whole, View.set_whole]
  rfl
theorem arr1a_28 (c : Dev nD) :
    ((cfg1.win 28).arr.view.loc (c : Thread nD τ) ↦[(cfg1.win 28).arr.view.set]{(dats1 V0 O0 W0 c).share 28} ((dats1 V0 O0 W0 c).arrAt 28 0) : sProp 𝕄)
      = (((c : Dev nD), Proc.devRef .tc main_v22) : Loc nD τ sig) ↦{shareTokN fullShare 16} V0 (Proc.devRef .tc main_v22) := by
  simp only [Memref.view_whole, View.set_whole]
  rfl
theorem arr1a_29 (c : Dev nD) :
    ((cfg1.win 29).arr.view.loc (c : Thread nD τ) ↦[(cfg1.win 29).arr.view.set]{(dats1 V0 O0 W0 c).share 29} ((dats1 V0 O0 W0 c).arrAt 29 0) : sProp 𝕄)
      = (((c : Dev nD), Proc.devRef .tc main_v22) : Loc nD τ sig) ↦{shareTokN fullShare 17} V0 (Proc.devRef .tc main_v22) := by
  simp only [Memref.view_whole, View.set_whole]
  rfl
theorem arr1a_30 (c : Dev nD) :
    ((cfg1.win 30).arr.view.loc (c : Thread nD τ) ↦[(cfg1.win 30).arr.view.set]{(dats1 V0 O0 W0 c).share 30} ((dats1 V0 O0 W0 c).arrAt 30 0) : sProp 𝕄)
      = (((c : Dev nD), Proc.devRef .tc main_v22) : Loc nD τ sig) ↦{shareTokN fullShare 18} V0 (Proc.devRef .tc main_v22) := by
  simp only [Memref.view_whole, View.set_whole]
  rfl
theorem arr1a_31 (c : Dev nD) :
    ((cfg1.win 31).arr.view.loc (c : Thread nD τ) ↦[(cfg1.win 31).arr.view.set]{(dats1 V0 O0 W0 c).share 31} ((dats1 V0 O0 W0 c).arrAt 31 0) : sProp 𝕄)
      = (((c : Dev nD), Proc.devRef .tc main_v22) : Loc nD τ sig) ↦{shareTokN fullShare 19} V0 (Proc.devRef .tc main_v22) := by
  simp only [Memref.view_whole, View.set_whole]
  rfl
theorem arr1a_32 (c : Dev nD) :
    ((cfg1.win 32).arr.view.loc (c : Thread nD τ) ↦[(cfg1.win 32).arr.view.set]{(dats1 V0 O0 W0 c).share 32} ((dats1 V0 O0 W0 c).arrAt 32 0) : sProp 𝕄)
      = (((c : Dev nD), Proc.devRef .tc main_v22) : Loc nD τ sig) ↦{shareTokN fullShare 20} V0 (Proc.devRef .tc main_v22) := by
  simp only [Memref.view_whole, View.set_whole]
  rfl
theorem arr1a_33 (c : Dev nD) :
    ((cfg1.win 33).arr.view.loc (c : Thread nD τ) ↦[(cfg1.win 33).arr.view.set]{(dats1 V0 O0 W0 c).share 33} ((dats1 V0 O0 W0 c).arrAt 33 0) : sProp 𝕄)
      = (((c : Dev nD), Proc.devRef .tc main_v22) : Loc nD τ sig) ↦{shareTokN fullShare 21} V0 (Proc.devRef .tc main_v22) := by
  simp only [Memref.view_whole, View.set_whole]
  rfl
theorem arr1a_34 (c : Dev nD) :
    ((cfg1.win 34).arr.view.loc (c : Thread nD τ) ↦[(cfg1.win 34).arr.view.set]{(dats1 V0 O0 W0 c).share 34} ((dats1 V0 O0 W0 c).arrAt 34 0) : sProp 𝕄)
      = (((c : Dev nD), Proc.devRef .tc main_v22) : Loc nD τ sig) ↦{shareTokN fullShare 22} V0 (Proc.devRef .tc main_v22) := by
  simp only [Memref.view_whole, View.set_whole]
  rfl
theorem arr1a_35 (c : Dev nD) :
    ((cfg1.win 35).arr.view.loc (c : Thread nD τ) ↦[(cfg1.win 35).arr.view.set]{(dats1 V0 O0 W0 c).share 35} ((dats1 V0 O0 W0 c).arrAt 35 0) : sProp 𝕄)
      = (((c : Dev nD), Proc.devRef .tc main_v22) : Loc nD τ sig) ↦{shareTokN fullShare 23} V0 (Proc.devRef .tc main_v22) := by
  simp only [Memref.view_whole, View.set_whole]
  rfl
theorem arr1a_36 (c : Dev nD) :
    ((cfg1.win 36).arr.view.loc (c : Thread nD τ) ↦[(cfg1.win 36).arr.view.set]{(dats1 V0 O0 W0 c).share 36} ((dats1 V0 O0 W0 c).arrAt 36 0) : sProp 𝕄)
      = (((c : Dev nD), Proc.devRef .tc main_v22) : Loc nD τ sig) ↦{shareTokN fullShare 24} V0 (Proc.devRef .tc main_v22) := by
  simp only [Memref.view_whole, View.set_whole]
  rfl
theorem arr1a_37 (c : Dev nD) :
    ((cfg1.win 37).arr.view.loc (c : Thread nD τ) ↦[(cfg1.win 37).arr.view.set]{(dats1 V0 O0 W0 c).share 37} ((dats1 V0 O0 W0 c).arrAt 37 0) : sProp 𝕄)
      = (((c : Dev nD), Proc.devRef .tc main_v22) : Loc nD τ sig) ↦{shareTokN fullShare 25} V0 (Proc.devRef .tc main_v22) := by
  simp only [Memref.view_whole, View.set_whole]
  rfl
theorem arr1a_38 (c : Dev nD) :
    ((cfg1.win 38).arr.view.loc (c : Thread nD τ) ↦[(cfg1.win 38).arr.view.set]{(dats1 V0 O0 W0 c).share 38} ((dats1 V0 O0 W0 c).arrAt 38 0) : sProp 𝕄)
      = (((c : Dev nD), Proc.devRef .tc main_v25) : Loc nD τ sig) ↦{fullShare} V0 (Proc.devRef .tc main_v25) := by
  simp only [Memref.view_whole, View.set_whole]
  rfl
theorem arr1z_0 (c : Dev nD) :
    ((cfg1.win 0).arr.view.loc (c : Thread nD τ) ↦[(cfg1.win 0).arr.view.set]{(dats1 V0 O0 W0 c).share 0} ((dats1 V0 O0 W0 c).arrAt 0 cfg1.N) : sProp 𝕄)
      = (((c : Dev nD), Proc.devRef .tc main_v23) : Loc nD τ sig) ↦{fullShare} V0 (Proc.devRef .tc main_v23) := by
  rw [arrAt_of_in (dats1 V0 O0 W0 c) 0 rfl]
  simp only [Memref.view_whole, View.set_whole]
  rfl
theorem arr1z_1 (c : Dev nD) :
    ((cfg1.win 1).arr.view.loc (c : Thread nD τ) ↦[(cfg1.win 1).arr.view.set]{(dats1 V0 O0 W0 c).share 1} ((dats1 V0 O0 W0 c).arrAt 1 cfg1.N) : sProp 𝕄)
      = (((c : Dev nD), Proc.devRef .tc main_v24) : Loc nD τ sig) ↦{fullShare} V0 (Proc.devRef .tc main_v24) := by
  rw [arrAt_of_in (dats1 V0 O0 W0 c) 1 rfl]
  simp only [Memref.view_whole, View.set_whole]
  rfl
theorem arr1z_2 (c : Dev nD) :
    ((cfg1.win 2).arr.view.loc (c : Thread nD τ) ↦[(cfg1.win 2).arr.view.set]{(dats1 V0 O0 W0 c).share 2} ((dats1 V0 O0 W0 c).arrAt 2 cfg1.N) : sProp 𝕄)
      = (((c : Dev nD), Proc.devRef .tc main_arg4) : Loc nD τ sig) ↦{fullShare} V0 (Proc.devRef .tc main_arg4) := by
  rw [arrAt_of_in (dats1 V0 O0 W0 c) 2 rfl]
  simp only [Memref.view_whole, View.set_whole]
  rfl
theorem arr1z_3 (c : Dev nD) :
    ((cfg1.win 3).arr.view.loc (c : Thread nD τ) ↦[(cfg1.win 3).arr.view.set]{(dats1 V0 O0 W0 c).share 3} ((dats1 V0 O0 W0 c).arrAt 3 cfg1.N) : sProp 𝕄)
      = (((c : Dev nD), Proc.devRef .tc main_arg6) : Loc nD τ sig) ↦{fullShare} V0 (Proc.devRef .tc main_arg6) := by
  rw [arrAt_of_in (dats1 V0 O0 W0 c) 3 rfl]
  simp only [Memref.view_whole, View.set_whole]
  rfl
theorem arr1z_4 (c : Dev nD) :
    ((cfg1.win 4).arr.view.loc (c : Thread nD τ) ↦[(cfg1.win 4).arr.view.set]{(dats1 V0 O0 W0 c).share 4} ((dats1 V0 O0 W0 c).arrAt 4 cfg1.N) : sProp 𝕄)
      = (((c : Dev nD), Proc.devRef .tc main_v10) : Loc nD τ sig) ↦{fullShare} V0 (Proc.devRef .tc main_v10) := by
  rw [arrAt_of_in (dats1 V0 O0 W0 c) 4 rfl]
  simp only [Memref.view_whole, View.set_whole]
  rfl
theorem arr1z_5 (c : Dev nD) :
    ((cfg1.win 5).arr.view.loc (c : Thread nD τ) ↦[(cfg1.win 5).arr.view.set]{(dats1 V0 O0 W0 c).share 5} ((dats1 V0 O0 W0 c).arrAt 5 cfg1.N) : sProp 𝕄)
      = (((c : Dev nD), Proc.devRef .tc main_v14) : Loc nD τ sig) ↦{fullShare} V0 (Proc.devRef .tc main_v14) := by
  rw [arrAt_of_in (dats1 V0 O0 W0 c) 5 rfl]
  simp only [Memref.view_whole, View.set_whole]
  rfl
theorem arr1z_6 (c : Dev nD) :
    ((cfg1.win 6).arr.view.loc (c : Thread nD τ) ↦[(cfg1.win 6).arr.view.set]{(dats1 V0 O0 W0 c).share 6} ((dats1 V0 O0 W0 c).arrAt 6 cfg1.N) : sProp 𝕄)
      = (((c : Dev nD), Proc.devRef .tc main_v11) : Loc nD τ sig) ↦{fullShare} V0 (Proc.devRef .tc main_v11) := by
  rw [arrAt_of_in (dats1 V0 O0 W0 c) 6 rfl]
  simp only [Memref.view_whole, View.set_whole]
  rfl
theorem arr1z_7 (c : Dev nD) :
    ((cfg1.win 7).arr.view.loc (c : Thread nD τ) ↦[(cfg1.win 7).arr.view.set]{(dats1 V0 O0 W0 c).share 7} ((dats1 V0 O0 W0 c).arrAt 7 cfg1.N) : sProp 𝕄)
      = (((c : Dev nD), Proc.devRef .tc main_v15) : Loc nD τ sig) ↦{fullShare} V0 (Proc.devRef .tc main_v15) := by
  rw [arrAt_of_in (dats1 V0 O0 W0 c) 7 rfl]
  simp only [Memref.view_whole, View.set_whole]
  rfl
theorem arr1z_8 (c : Dev nD) :
    ((cfg1.win 8).arr.view.loc (c : Thread nD τ) ↦[(cfg1.win 8).arr.view.set]{(dats1 V0 O0 W0 c).share 8} ((dats1 V0 O0 W0 c).arrAt 8 cfg1.N) : sProp 𝕄)
      = (((c : Dev nD), Proc.devRef .tc main_v12) : Loc nD τ sig) ↦{fullShare} V0 (Proc.devRef .tc main_v12) := by
  rw [arrAt_of_in (dats1 V0 O0 W0 c) 8 rfl]
  simp only [Memref.view_whole, View.set_whole]
  rfl
theorem arr1z_9 (c : Dev nD) :
    ((cfg1.win 9).arr.view.loc (c : Thread nD τ) ↦[(cfg1.win 9).arr.view.set]{(dats1 V0 O0 W0 c).share 9} ((dats1 V0 O0 W0 c).arrAt 9 cfg1.N) : sProp 𝕄)
      = (((c : Dev nD), Proc.devRef .tc main_v16) : Loc nD τ sig) ↦{fullShare} V0 (Proc.devRef .tc main_v16) := by
  rw [arrAt_of_in (dats1 V0 O0 W0 c) 9 rfl]
  simp only [Memref.view_whole, View.set_whole]
  rfl
theorem arr1z_10 (c : Dev nD) :
    ((cfg1.win 10).arr.view.loc (c : Thread nD τ) ↦[(cfg1.win 10).arr.view.set]{(dats1 V0 O0 W0 c).share 10} ((dats1 V0 O0 W0 c).arrAt 10 cfg1.N) : sProp 𝕄)
      = (((c : Dev nD), Proc.devRef .tc main_v13) : Loc nD τ sig) ↦{fullShare} V0 (Proc.devRef .tc main_v13) := by
  rw [arrAt_of_in (dats1 V0 O0 W0 c) 10 rfl]
  simp only [Memref.view_whole, View.set_whole]
  rfl
theorem arr1z_11 (c : Dev nD) :
    ((cfg1.win 11).arr.view.loc (c : Thread nD τ) ↦[(cfg1.win 11).arr.view.set]{(dats1 V0 O0 W0 c).share 11} ((dats1 V0 O0 W0 c).arrAt 11 cfg1.N) : sProp 𝕄)
      = (((c : Dev nD), Proc.devRef .tc main_v9) : Loc nD τ sig) ↦{fullShare} V0 (Proc.devRef .tc main_v9) := by
  rw [arrAt_of_in (dats1 V0 O0 W0 c) 11 rfl]
  simp only [Memref.view_whole, View.set_whole]
  rfl
theorem arr1z_12 (c : Dev nD) :
    ((cfg1.win 12).arr.view.loc (c : Thread nD τ) ↦[(cfg1.win 12).arr.view.set]{(dats1 V0 O0 W0 c).share 12} ((dats1 V0 O0 W0 c).arrAt 12 cfg1.N) : sProp 𝕄)
      = (((c : Dev nD), Proc.devRef .tc main_v22) : Loc nD τ sig) ↦{shareTokN fullShare 0} V0 (Proc.devRef .tc main_v22) := by
  rw [arrAt_of_in (dats1 V0 O0 W0 c) 12 rfl]
  simp only [Memref.view_whole, View.set_whole]
  rfl
theorem arr1z_13 (c : Dev nD) :
    ((cfg1.win 13).arr.view.loc (c : Thread nD τ) ↦[(cfg1.win 13).arr.view.set]{(dats1 V0 O0 W0 c).share 13} ((dats1 V0 O0 W0 c).arrAt 13 cfg1.N) : sProp 𝕄)
      = (((c : Dev nD), Proc.devRef .tc main_v22) : Loc nD τ sig) ↦{shareTokN fullShare 1} V0 (Proc.devRef .tc main_v22) := by
  rw [arrAt_of_in (dats1 V0 O0 W0 c) 13 rfl]
  simp only [Memref.view_whole, View.set_whole]
  rfl
theorem arr1z_14 (c : Dev nD) :
    ((cfg1.win 14).arr.view.loc (c : Thread nD τ) ↦[(cfg1.win 14).arr.view.set]{(dats1 V0 O0 W0 c).share 14} ((dats1 V0 O0 W0 c).arrAt 14 cfg1.N) : sProp 𝕄)
      = (((c : Dev nD), Proc.devRef .tc main_v22) : Loc nD τ sig) ↦{shareTokN fullShare 2} V0 (Proc.devRef .tc main_v22) := by
  rw [arrAt_of_in (dats1 V0 O0 W0 c) 14 rfl]
  simp only [Memref.view_whole, View.set_whole]
  rfl
theorem arr1z_15 (c : Dev nD) :
    ((cfg1.win 15).arr.view.loc (c : Thread nD τ) ↦[(cfg1.win 15).arr.view.set]{(dats1 V0 O0 W0 c).share 15} ((dats1 V0 O0 W0 c).arrAt 15 cfg1.N) : sProp 𝕄)
      = (((c : Dev nD), Proc.devRef .tc main_v22) : Loc nD τ sig) ↦{shareTokN fullShare 3} V0 (Proc.devRef .tc main_v22) := by
  rw [arrAt_of_in (dats1 V0 O0 W0 c) 15 rfl]
  simp only [Memref.view_whole, View.set_whole]
  rfl
theorem arr1z_16 (c : Dev nD) :
    ((cfg1.win 16).arr.view.loc (c : Thread nD τ) ↦[(cfg1.win 16).arr.view.set]{(dats1 V0 O0 W0 c).share 16} ((dats1 V0 O0 W0 c).arrAt 16 cfg1.N) : sProp 𝕄)
      = (((c : Dev nD), Proc.devRef .tc main_v22) : Loc nD τ sig) ↦{shareTokN fullShare 4} V0 (Proc.devRef .tc main_v22) := by
  rw [arrAt_of_in (dats1 V0 O0 W0 c) 16 rfl]
  simp only [Memref.view_whole, View.set_whole]
  rfl
theorem arr1z_17 (c : Dev nD) :
    ((cfg1.win 17).arr.view.loc (c : Thread nD τ) ↦[(cfg1.win 17).arr.view.set]{(dats1 V0 O0 W0 c).share 17} ((dats1 V0 O0 W0 c).arrAt 17 cfg1.N) : sProp 𝕄)
      = (((c : Dev nD), Proc.devRef .tc main_v22) : Loc nD τ sig) ↦{shareTokN fullShare 5} V0 (Proc.devRef .tc main_v22) := by
  rw [arrAt_of_in (dats1 V0 O0 W0 c) 17 rfl]
  simp only [Memref.view_whole, View.set_whole]
  rfl
theorem arr1z_18 (c : Dev nD) :
    ((cfg1.win 18).arr.view.loc (c : Thread nD τ) ↦[(cfg1.win 18).arr.view.set]{(dats1 V0 O0 W0 c).share 18} ((dats1 V0 O0 W0 c).arrAt 18 cfg1.N) : sProp 𝕄)
      = (((c : Dev nD), Proc.devRef .tc main_v22) : Loc nD τ sig) ↦{shareTokN fullShare 6} V0 (Proc.devRef .tc main_v22) := by
  rw [arrAt_of_in (dats1 V0 O0 W0 c) 18 rfl]
  simp only [Memref.view_whole, View.set_whole]
  rfl
theorem arr1z_19 (c : Dev nD) :
    ((cfg1.win 19).arr.view.loc (c : Thread nD τ) ↦[(cfg1.win 19).arr.view.set]{(dats1 V0 O0 W0 c).share 19} ((dats1 V0 O0 W0 c).arrAt 19 cfg1.N) : sProp 𝕄)
      = (((c : Dev nD), Proc.devRef .tc main_v22) : Loc nD τ sig) ↦{shareTokN fullShare 7} V0 (Proc.devRef .tc main_v22) := by
  rw [arrAt_of_in (dats1 V0 O0 W0 c) 19 rfl]
  simp only [Memref.view_whole, View.set_whole]
  rfl
theorem arr1z_20 (c : Dev nD) :
    ((cfg1.win 20).arr.view.loc (c : Thread nD τ) ↦[(cfg1.win 20).arr.view.set]{(dats1 V0 O0 W0 c).share 20} ((dats1 V0 O0 W0 c).arrAt 20 cfg1.N) : sProp 𝕄)
      = (((c : Dev nD), Proc.devRef .tc main_v22) : Loc nD τ sig) ↦{shareTokN fullShare 8} V0 (Proc.devRef .tc main_v22) := by
  rw [arrAt_of_in (dats1 V0 O0 W0 c) 20 rfl]
  simp only [Memref.view_whole, View.set_whole]
  rfl
theorem arr1z_21 (c : Dev nD) :
    ((cfg1.win 21).arr.view.loc (c : Thread nD τ) ↦[(cfg1.win 21).arr.view.set]{(dats1 V0 O0 W0 c).share 21} ((dats1 V0 O0 W0 c).arrAt 21 cfg1.N) : sProp 𝕄)
      = (((c : Dev nD), Proc.devRef .tc main_v22) : Loc nD τ sig) ↦{shareTokN fullShare 9} V0 (Proc.devRef .tc main_v22) := by
  rw [arrAt_of_in (dats1 V0 O0 W0 c) 21 rfl]
  simp only [Memref.view_whole, View.set_whole]
  rfl
theorem arr1z_22 (c : Dev nD) :
    ((cfg1.win 22).arr.view.loc (c : Thread nD τ) ↦[(cfg1.win 22).arr.view.set]{(dats1 V0 O0 W0 c).share 22} ((dats1 V0 O0 W0 c).arrAt 22 cfg1.N) : sProp 𝕄)
      = (((c : Dev nD), Proc.devRef .tc main_v22) : Loc nD τ sig) ↦{shareTokN fullShare 10} V0 (Proc.devRef .tc main_v22) := by
  rw [arrAt_of_in (dats1 V0 O0 W0 c) 22 rfl]
  simp only [Memref.view_whole, View.set_whole]
  rfl
theorem arr1z_23 (c : Dev nD) :
    ((cfg1.win 23).arr.view.loc (c : Thread nD τ) ↦[(cfg1.win 23).arr.view.set]{(dats1 V0 O0 W0 c).share 23} ((dats1 V0 O0 W0 c).arrAt 23 cfg1.N) : sProp 𝕄)
      = (((c : Dev nD), Proc.devRef .tc main_v22) : Loc nD τ sig) ↦{shareTokN fullShare 11} V0 (Proc.devRef .tc main_v22) := by
  rw [arrAt_of_in (dats1 V0 O0 W0 c) 23 rfl]
  simp only [Memref.view_whole, View.set_whole]
  rfl
theorem arr1z_24 (c : Dev nD) :
    ((cfg1.win 24).arr.view.loc (c : Thread nD τ) ↦[(cfg1.win 24).arr.view.set]{(dats1 V0 O0 W0 c).share 24} ((dats1 V0 O0 W0 c).arrAt 24 cfg1.N) : sProp 𝕄)
      = (((c : Dev nD), Proc.devRef .tc main_v22) : Loc nD τ sig) ↦{shareTokN fullShare 12} V0 (Proc.devRef .tc main_v22) := by
  rw [arrAt_of_in (dats1 V0 O0 W0 c) 24 rfl]
  simp only [Memref.view_whole, View.set_whole]
  rfl
theorem arr1z_25 (c : Dev nD) :
    ((cfg1.win 25).arr.view.loc (c : Thread nD τ) ↦[(cfg1.win 25).arr.view.set]{(dats1 V0 O0 W0 c).share 25} ((dats1 V0 O0 W0 c).arrAt 25 cfg1.N) : sProp 𝕄)
      = (((c : Dev nD), Proc.devRef .tc main_v22) : Loc nD τ sig) ↦{shareTokN fullShare 13} V0 (Proc.devRef .tc main_v22) := by
  rw [arrAt_of_in (dats1 V0 O0 W0 c) 25 rfl]
  simp only [Memref.view_whole, View.set_whole]
  rfl
theorem arr1z_26 (c : Dev nD) :
    ((cfg1.win 26).arr.view.loc (c : Thread nD τ) ↦[(cfg1.win 26).arr.view.set]{(dats1 V0 O0 W0 c).share 26} ((dats1 V0 O0 W0 c).arrAt 26 cfg1.N) : sProp 𝕄)
      = (((c : Dev nD), Proc.devRef .tc main_v22) : Loc nD τ sig) ↦{shareTokN fullShare 14} V0 (Proc.devRef .tc main_v22) := by
  rw [arrAt_of_in (dats1 V0 O0 W0 c) 26 rfl]
  simp only [Memref.view_whole, View.set_whole]
  rfl
theorem arr1z_27 (c : Dev nD) :
    ((cfg1.win 27).arr.view.loc (c : Thread nD τ) ↦[(cfg1.win 27).arr.view.set]{(dats1 V0 O0 W0 c).share 27} ((dats1 V0 O0 W0 c).arrAt 27 cfg1.N) : sProp 𝕄)
      = (((c : Dev nD), Proc.devRef .tc main_v22) : Loc nD τ sig) ↦{shareTokN fullShare 15} V0 (Proc.devRef .tc main_v22) := by
  rw [arrAt_of_in (dats1 V0 O0 W0 c) 27 rfl]
  simp only [Memref.view_whole, View.set_whole]
  rfl
theorem arr1z_28 (c : Dev nD) :
    ((cfg1.win 28).arr.view.loc (c : Thread nD τ) ↦[(cfg1.win 28).arr.view.set]{(dats1 V0 O0 W0 c).share 28} ((dats1 V0 O0 W0 c).arrAt 28 cfg1.N) : sProp 𝕄)
      = (((c : Dev nD), Proc.devRef .tc main_v22) : Loc nD τ sig) ↦{shareTokN fullShare 16} V0 (Proc.devRef .tc main_v22) := by
  rw [arrAt_of_in (dats1 V0 O0 W0 c) 28 rfl]
  simp only [Memref.view_whole, View.set_whole]
  rfl
theorem arr1z_29 (c : Dev nD) :
    ((cfg1.win 29).arr.view.loc (c : Thread nD τ) ↦[(cfg1.win 29).arr.view.set]{(dats1 V0 O0 W0 c).share 29} ((dats1 V0 O0 W0 c).arrAt 29 cfg1.N) : sProp 𝕄)
      = (((c : Dev nD), Proc.devRef .tc main_v22) : Loc nD τ sig) ↦{shareTokN fullShare 17} V0 (Proc.devRef .tc main_v22) := by
  rw [arrAt_of_in (dats1 V0 O0 W0 c) 29 rfl]
  simp only [Memref.view_whole, View.set_whole]
  rfl
theorem arr1z_30 (c : Dev nD) :
    ((cfg1.win 30).arr.view.loc (c : Thread nD τ) ↦[(cfg1.win 30).arr.view.set]{(dats1 V0 O0 W0 c).share 30} ((dats1 V0 O0 W0 c).arrAt 30 cfg1.N) : sProp 𝕄)
      = (((c : Dev nD), Proc.devRef .tc main_v22) : Loc nD τ sig) ↦{shareTokN fullShare 18} V0 (Proc.devRef .tc main_v22) := by
  rw [arrAt_of_in (dats1 V0 O0 W0 c) 30 rfl]
  simp only [Memref.view_whole, View.set_whole]
  rfl
theorem arr1z_31 (c : Dev nD) :
    ((cfg1.win 31).arr.view.loc (c : Thread nD τ) ↦[(cfg1.win 31).arr.view.set]{(dats1 V0 O0 W0 c).share 31} ((dats1 V0 O0 W0 c).arrAt 31 cfg1.N) : sProp 𝕄)
      = (((c : Dev nD), Proc.devRef .tc main_v22) : Loc nD τ sig) ↦{shareTokN fullShare 19} V0 (Proc.devRef .tc main_v22) := by
  rw [arrAt_of_in (dats1 V0 O0 W0 c) 31 rfl]
  simp only [Memref.view_whole, View.set_whole]
  rfl
theorem arr1z_32 (c : Dev nD) :
    ((cfg1.win 32).arr.view.loc (c : Thread nD τ) ↦[(cfg1.win 32).arr.view.set]{(dats1 V0 O0 W0 c).share 32} ((dats1 V0 O0 W0 c).arrAt 32 cfg1.N) : sProp 𝕄)
      = (((c : Dev nD), Proc.devRef .tc main_v22) : Loc nD τ sig) ↦{shareTokN fullShare 20} V0 (Proc.devRef .tc main_v22) := by
  rw [arrAt_of_in (dats1 V0 O0 W0 c) 32 rfl]
  simp only [Memref.view_whole, View.set_whole]
  rfl
theorem arr1z_33 (c : Dev nD) :
    ((cfg1.win 33).arr.view.loc (c : Thread nD τ) ↦[(cfg1.win 33).arr.view.set]{(dats1 V0 O0 W0 c).share 33} ((dats1 V0 O0 W0 c).arrAt 33 cfg1.N) : sProp 𝕄)
      = (((c : Dev nD), Proc.devRef .tc main_v22) : Loc nD τ sig) ↦{shareTokN fullShare 21} V0 (Proc.devRef .tc main_v22) := by
  rw [arrAt_of_in (dats1 V0 O0 W0 c) 33 rfl]
  simp only [Memref.view_whole, View.set_whole]
  rfl
theorem arr1z_34 (c : Dev nD) :
    ((cfg1.win 34).arr.view.loc (c : Thread nD τ) ↦[(cfg1.win 34).arr.view.set]{(dats1 V0 O0 W0 c).share 34} ((dats1 V0 O0 W0 c).arrAt 34 cfg1.N) : sProp 𝕄)
      = (((c : Dev nD), Proc.devRef .tc main_v22) : Loc nD τ sig) ↦{shareTokN fullShare 22} V0 (Proc.devRef .tc main_v22) := by
  rw [arrAt_of_in (dats1 V0 O0 W0 c) 34 rfl]
  simp only [Memref.view_whole, View.set_whole]
  rfl
theorem arr1z_35 (c : Dev nD) :
    ((cfg1.win 35).arr.view.loc (c : Thread nD τ) ↦[(cfg1.win 35).arr.view.set]{(dats1 V0 O0 W0 c).share 35} ((dats1 V0 O0 W0 c).arrAt 35 cfg1.N) : sProp 𝕄)
      = (((c : Dev nD), Proc.devRef .tc main_v22) : Loc nD τ sig) ↦{shareTokN fullShare 23} V0 (Proc.devRef .tc main_v22) := by
  rw [arrAt_of_in (dats1 V0 O0 W0 c) 35 rfl]
  simp only [Memref.view_whole, View.set_whole]
  rfl
theorem arr1z_36 (c : Dev nD) :
    ((cfg1.win 36).arr.view.loc (c : Thread nD τ) ↦[(cfg1.win 36).arr.view.set]{(dats1 V0 O0 W0 c).share 36} ((dats1 V0 O0 W0 c).arrAt 36 cfg1.N) : sProp 𝕄)
      = (((c : Dev nD), Proc.devRef .tc main_v22) : Loc nD τ sig) ↦{shareTokN fullShare 24} V0 (Proc.devRef .tc main_v22) := by
  rw [arrAt_of_in (dats1 V0 O0 W0 c) 36 rfl]
  simp only [Memref.view_whole, View.set_whole]
  rfl
theorem arr1z_37 (c : Dev nD) :
    ((cfg1.win 37).arr.view.loc (c : Thread nD τ) ↦[(cfg1.win 37).arr.view.set]{(dats1 V0 O0 W0 c).share 37} ((dats1 V0 O0 W0 c).arrAt 37 cfg1.N) : sProp 𝕄)
      = (((c : Dev nD), Proc.devRef .tc main_v22) : Loc nD τ sig) ↦{shareTokN fullShare 25} V0 (Proc.devRef .tc main_v22) := by
  rw [arrAt_of_in (dats1 V0 O0 W0 c) 37 rfl]
  simp only [Memref.view_whole, View.set_whole]
  rfl
theorem arr1z_38 (c : Dev nD) :
    ((cfg1.win 38).arr.view.loc (c : Thread nD τ) ↦[(cfg1.win 38).arr.view.set]{(dats1 V0 O0 W0 c).share 38} ((dats1 V0 O0 W0 c).arrAt 38 cfg1.N) : sProp 𝕄)
      = (((c : Dev nD), Proc.devRef .tc main_v25) : Loc nD τ sig) ↦{fullShare} (dats1 V0 O0 W0 c).arrAt 38 cfg1.N := by
  simp only [Memref.view_whole, View.set_whole]
  rfl

/-- ENTRY, the arrays: the fourteen buffers behind the windows, whole at the full share, are the windows' arrays at the
    entry contents — the gathered-rows array split into one read token per window, the remainder set aside. -/
theorem arrays1_of_held (c : Dev nD) :
    (held (c : Thread nD τ) arrSet1 V0 : sProp 𝕄)
      ⊢ iprop((dats1 V0 O0 W0 c).arrays ((dats1 V0 O0 W0 c).arrAt · 0)
          ∗ ((((c : Dev nD), Proc.devRef .tc main_v22) : Loc nD τ sig) ↦{shareDrop fullShare 26} V0 (Proc.devRef .tc main_v22))) := by
  rw [held_arrSet1]
  iintro ⟨H_v23, H_v24, H_arg4, H_arg6, H_v10, H_v14, H_v11, H_v15, H_v12, H_v16, H_v13, H_v9, H_v22, H_v25⟩
  ihave Hs := (Transfers.pointsTo_toks_split (ℓ := (((c : Dev nD), Proc.devRef .tc main_v22) : Loc nD τ sig)) (S := Finset.univ) (f := V0 (Proc.devRef .tc main_v22)) fullShare 26) $$ H_v22
  icases Hs with ⟨Hrem, Htoks⟩
  ihave Ht := (Entails.of_eq (bigSep_F26 (fun i : Fin 26 => ((((c : Dev nD), Proc.devRef .tc main_v22) : Loc nD τ sig) ↦{shareTokN fullShare i.val} V0 (Proc.devRef .tc main_v22) : sProp 𝕄)))) $$ Htoks
  icases Ht with ⟨T0, T1, T2, T3, T4, T5, T6, T7, T8, T9, T10, T11, T12, T13, T14, T15, T16, T17, T18, T19, T20, T21, T22, T23, T24, T25⟩
  isplitr [Hrem]
  swap; · iexact Hrem
  unfold Pipeline.Dat.arrays
  rw [bigSep_W1]
  isplitl [H_v23]; · rw [arr1a_0]; iexact H_v23
  isplitl [H_v24]; · rw [arr1a_1]; iexact H_v24
  isplitl [H_arg4]; · rw [arr1a_2]; iexact H_arg4
  isplitl [H_arg6]; · rw [arr1a_3]; iexact H_arg6
  isplitl [H_v10]; · rw [arr1a_4]; iexact H_v10
  isplitl [H_v14]; · rw [arr1a_5]; iexact H_v14
  isplitl [H_v11]; · rw [arr1a_6]; iexact H_v11
  isplitl [H_v15]; · rw [arr1a_7]; iexact H_v15
  isplitl [H_v12]; · rw [arr1a_8]; iexact H_v12
  isplitl [H_v16]; · rw [arr1a_9]; iexact H_v16
  isplitl [H_v13]; · rw [arr1a_10]; iexact H_v13
  isplitl [H_v9]; · rw [arr1a_11]; iexact H_v9
  isplitl [T0]; · rw [arr1a_12]; iexact T0
  isplitl [T1]; · rw [arr1a_13]; iexact T1
  isplitl [T2]; · rw [arr1a_14]; iexact T2
  isplitl [T3]; · rw [arr1a_15]; iexact T3
  isplitl [T4]; · rw [arr1a_16]; iexact T4
  isplitl [T5]; · rw [arr1a_17]; iexact T5
  isplitl [T6]; · rw [arr1a_18]; iexact T6
  isplitl [T7]; · rw [arr1a_19]; iexact T7
  isplitl [T8]; · rw [arr1a_20]; iexact T8
  isplitl [T9]; · rw [arr1a_21]; iexact T9
  isplitl [T10]; · rw [arr1a_22]; iexact T10
  isplitl [T11]; · rw [arr1a_23]; iexact T11
  isplitl [T12]; · rw [arr1a_24]; iexact T12
  isplitl [T13]; · rw [arr1a_25]; iexact T13
  isplitl [T14]; · rw [arr1a_26]; iexact T14
  isplitl [T15]; · rw [arr1a_27]; iexact T15
  isplitl [T16]; · rw [arr1a_28]; iexact T16
  isplitl [T17]; · rw [arr1a_29]; iexact T17
  isplitl [T18]; · rw [arr1a_30]; iexact T18
  isplitl [T19]; · rw [arr1a_31]; iexact T19
  isplitl [T20]; · rw [arr1a_32]; iexact T20
  isplitl [T21]; · rw [arr1a_33]; iexact T21
  isplitl [T22]; · rw [arr1a_34]; iexact T22
  isplitl [T23]; · rw [arr1a_35]; iexact T23
  isplitl [T24]; · rw [arr1a_36]; iexact T24
  isplitl [T25]; · rw [arr1a_37]; iexact T25
  rw [arr1a_38]; iexact H_v25

/-- EXIT, the arrays: the windows' arrays at their final contents — the inputs as they were, the output at what the
    write-backs left — with the remainder of the gathered-rows array, are the fourteen buffers whole again. -/
theorem held_of_arrays1 (c : Dev nD) :
    iprop((dats1 V0 O0 W0 c).arrays ((dats1 V0 O0 W0 c).arrAt · cfg1.N)
        ∗ ((((c : Dev nD), Proc.devRef .tc main_v22) : Loc nD τ sig) ↦{shareDrop fullShare 26} V0 (Proc.devRef .tc main_v22)))
      ⊢ (held (c : Thread nD τ) arrSet1 (Function.update V0 (Proc.devRef .tc main_v25) ((dats1 V0 O0 W0 c).arrAt 38 cfg1.N)) : sProp 𝕄) := by
  rw [held_arrSet1]
  rw [Function.update_of_ne (show Proc.devRef .tc main_v23 ≠ Proc.devRef .tc main_v25 by decide), Function.update_of_ne (show Proc.devRef .tc main_v24 ≠ Proc.devRef .tc main_v25 by decide), Function.update_of_ne (show Proc.devRef .tc main_arg4 ≠ Proc.devRef .tc main_v25 by decide), Function.update_of_ne (show Proc.devRef .tc main_arg6 ≠ Proc.devRef .tc main_v25 by decide), Function.update_of_ne (show Proc.devRef .tc main_v10 ≠ Proc.devRef .tc main_v25 by decide), Function.update_of_ne (show Proc.devRef .tc main_v14 ≠ Proc.devRef .tc main_v25 by decide), Function.update_of_ne (show Proc.devRef .tc main_v11 ≠ Proc.devRef .tc main_v25 by decide), Function.update_of_ne (show Proc.devRef .tc main_v15 ≠ Proc.devRef .tc main_v25 by decide), Function.update_of_ne (show Proc.devRef .tc main_v12 ≠ Proc.devRef .tc main_v25 by decide), Function.update_of_ne (show Proc.devRef .tc main_v16 ≠ Proc.devRef .tc main_v25 by decide), Function.update_of_ne (show Proc.devRef .tc main_v13 ≠ Proc.devRef .tc main_v25 by decide), Function.update_of_ne (show Proc.devRef .tc main_v9 ≠ Proc.devRef .tc main_v25 by decide), Function.update_of_ne (show Proc.devRef .tc main_v22 ≠ Proc.devRef .tc main_v25 by decide), Function.update_self]
  unfold Pipeline.Dat.arrays
  rw [bigSep_W1]
  iintro ⟨⟨A0, A1, A2, A3, A4, A5, A6, A7, A8, A9, A10, A11, A12, A13, A14, A15, A16, A17, A18, A19, A20, A21, A22, A23, A24, A25, A26, A27, A28, A29, A30, A31, A32, A33, A34, A35, A36, A37, A38⟩, Hrem⟩
  ihave H_v23 := (Entails.of_eq (arr1z_0 V0 O0 W0 c)) $$ A0
  ihave H_v24 := (Entails.of_eq (arr1z_1 V0 O0 W0 c)) $$ A1
  ihave H_arg4 := (Entails.of_eq (arr1z_2 V0 O0 W0 c)) $$ A2
  ihave H_arg6 := (Entails.of_eq (arr1z_3 V0 O0 W0 c)) $$ A3
  ihave H_v10 := (Entails.of_eq (arr1z_4 V0 O0 W0 c)) $$ A4
  ihave H_v14 := (Entails.of_eq (arr1z_5 V0 O0 W0 c)) $$ A5
  ihave H_v11 := (Entails.of_eq (arr1z_6 V0 O0 W0 c)) $$ A6
  ihave H_v15 := (Entails.of_eq (arr1z_7 V0 O0 W0 c)) $$ A7
  ihave H_v12 := (Entails.of_eq (arr1z_8 V0 O0 W0 c)) $$ A8
  ihave H_v16 := (Entails.of_eq (arr1z_9 V0 O0 W0 c)) $$ A9
  ihave H_v13 := (Entails.of_eq (arr1z_10 V0 O0 W0 c)) $$ A10
  ihave H_v9 := (Entails.of_eq (arr1z_11 V0 O0 W0 c)) $$ A11
  ihave T0 := (Entails.of_eq (arr1z_12 V0 O0 W0 c)) $$ A12
  ihave T1 := (Entails.of_eq (arr1z_13 V0 O0 W0 c)) $$ A13
  ihave T2 := (Entails.of_eq (arr1z_14 V0 O0 W0 c)) $$ A14
  ihave T3 := (Entails.of_eq (arr1z_15 V0 O0 W0 c)) $$ A15
  ihave T4 := (Entails.of_eq (arr1z_16 V0 O0 W0 c)) $$ A16
  ihave T5 := (Entails.of_eq (arr1z_17 V0 O0 W0 c)) $$ A17
  ihave T6 := (Entails.of_eq (arr1z_18 V0 O0 W0 c)) $$ A18
  ihave T7 := (Entails.of_eq (arr1z_19 V0 O0 W0 c)) $$ A19
  ihave T8 := (Entails.of_eq (arr1z_20 V0 O0 W0 c)) $$ A20
  ihave T9 := (Entails.of_eq (arr1z_21 V0 O0 W0 c)) $$ A21
  ihave T10 := (Entails.of_eq (arr1z_22 V0 O0 W0 c)) $$ A22
  ihave T11 := (Entails.of_eq (arr1z_23 V0 O0 W0 c)) $$ A23
  ihave T12 := (Entails.of_eq (arr1z_24 V0 O0 W0 c)) $$ A24
  ihave T13 := (Entails.of_eq (arr1z_25 V0 O0 W0 c)) $$ A25
  ihave T14 := (Entails.of_eq (arr1z_26 V0 O0 W0 c)) $$ A26
  ihave T15 := (Entails.of_eq (arr1z_27 V0 O0 W0 c)) $$ A27
  ihave T16 := (Entails.of_eq (arr1z_28 V0 O0 W0 c)) $$ A28
  ihave T17 := (Entails.of_eq (arr1z_29 V0 O0 W0 c)) $$ A29
  ihave T18 := (Entails.of_eq (arr1z_30 V0 O0 W0 c)) $$ A30
  ihave T19 := (Entails.of_eq (arr1z_31 V0 O0 W0 c)) $$ A31
  ihave T20 := (Entails.of_eq (arr1z_32 V0 O0 W0 c)) $$ A32
  ihave T21 := (Entails.of_eq (arr1z_33 V0 O0 W0 c)) $$ A33
  ihave T22 := (Entails.of_eq (arr1z_34 V0 O0 W0 c)) $$ A34
  ihave T23 := (Entails.of_eq (arr1z_35 V0 O0 W0 c)) $$ A35
  ihave T24 := (Entails.of_eq (arr1z_36 V0 O0 W0 c)) $$ A36
  ihave T25 := (Entails.of_eq (arr1z_37 V0 O0 W0 c)) $$ A37
  ihave H_v25 := (Entails.of_eq (arr1z_38 V0 O0 W0 c)) $$ A38
  ihave Hg := (Transfers.pointsTo_toks_join (ℓ := (((c : Dev nD), Proc.devRef .tc main_v22) : Loc nD τ sig)) (S := Finset.univ) (f := V0 (Proc.devRef .tc main_v22)) fullShare 26) $$ [Hrem T0 T1 T2 T3 T4 T5 T6 T7 T8 T9 T10 T11 T12 T13 T14 T15 T16 T17 T18 T19 T20 T21 T22 T23 T24 T25]
  · isplitl [Hrem]; · iexact Hrem
    iapply (Entails.of_eq (bigSep_F26 (fun i : Fin 26 => ((((c : Dev nD), Proc.devRef .tc main_v22) : Loc nD τ sig) ↦{shareTokN fullShare i.val} V0 (Proc.devRef .tc main_v22) : sProp 𝕄))).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    iexact T25
  isplitl [H_v23]; · iexact H_v23
  isplitl [H_v24]; · iexact H_v24
  isplitl [H_arg4]; · iexact H_arg4
  isplitl [H_arg6]; · iexact H_arg6
  isplitl [H_v10]; · iexact H_v10
  isplitl [H_v14]; · iexact H_v14
  isplitl [H_v11]; · iexact H_v11
  isplitl [H_v15]; · iexact H_v15
  isplitl [H_v12]; · iexact H_v12
  isplitl [H_v16]; · iexact H_v16
  isplitl [H_v13]; · iexact H_v13
  isplitl [H_v9]; · iexact H_v9
  isplitl [Hg]; · iexact Hg
  iexact H_v25

/-! ## Pipeline call 1 -/

/-- The distinct arrays of pipeline call 1's windows. -/
def arrSet3 : Finset (DevRef τ sig) :=
  {Proc.devRef .tc main_v31, Proc.devRef .tc main_v32, Proc.devRef .tc main_arg4, Proc.devRef .tc main_arg6, Proc.devRef .tc main_v10, Proc.devRef .tc main_v14, Proc.devRef .tc main_v11, Proc.devRef .tc main_v15, Proc.devRef .tc main_v12, Proc.devRef .tc main_v16, Proc.devRef .tc main_v13, Proc.devRef .tc main_v9, Proc.devRef .tc main_v30, Proc.devRef .tc main_v33}

theorem arrSet3_sub : arrSet3 ⊆ Pipeline.ucRefs τ sig := by
  intro b hb
  simp only [arrSet3, Finset.mem_insert, Finset.mem_singleton] at hb
  rcases hb with rfl | rfl | rfl | rfl | rfl | rfl | rfl | rfl | rfl | rfl | rfl | rfl | rfl | rfl <;>
    exact Finset.mem_filter.mpr ⟨StableHlo.devRef_mem_tcRefs _, by decide⟩

/-- The fourteen arrays one by one. -/
theorem held_arrSet3 (c : Dev nD) (V : Valuation τ sig (Elt F)) :
    (held (c : Thread nD τ) arrSet3 V : sProp 𝕄)
      = iprop(((((c : Dev nD), Proc.devRef .tc main_v31) : Loc nD τ sig) ↦{fullShare} V (Proc.devRef .tc main_v31))
        ∗ ((((c : Dev nD), Proc.devRef .tc main_v32) : Loc nD τ sig) ↦{fullShare} V (Proc.devRef .tc main_v32))
        ∗ ((((c : Dev nD), Proc.devRef .tc main_arg4) : Loc nD τ sig) ↦{fullShare} V (Proc.devRef .tc main_arg4))
        ∗ ((((c : Dev nD), Proc.devRef .tc main_arg6) : Loc nD τ sig) ↦{fullShare} V (Proc.devRef .tc main_arg6))
        ∗ ((((c : Dev nD), Proc.devRef .tc main_v10) : Loc nD τ sig) ↦{fullShare} V (Proc.devRef .tc main_v10))
        ∗ ((((c : Dev nD), Proc.devRef .tc main_v14) : Loc nD τ sig) ↦{fullShare} V (Proc.devRef .tc main_v14))
        ∗ ((((c : Dev nD), Proc.devRef .tc main_v11) : Loc nD τ sig) ↦{fullShare} V (Proc.devRef .tc main_v11))
        ∗ ((((c : Dev nD), Proc.devRef .tc main_v15) : Loc nD τ sig) ↦{fullShare} V (Proc.devRef .tc main_v15))
        ∗ ((((c : Dev nD), Proc.devRef .tc main_v12) : Loc nD τ sig) ↦{fullShare} V (Proc.devRef .tc main_v12))
        ∗ ((((c : Dev nD), Proc.devRef .tc main_v16) : Loc nD τ sig) ↦{fullShare} V (Proc.devRef .tc main_v16))
        ∗ ((((c : Dev nD), Proc.devRef .tc main_v13) : Loc nD τ sig) ↦{fullShare} V (Proc.devRef .tc main_v13))
        ∗ ((((c : Dev nD), Proc.devRef .tc main_v9) : Loc nD τ sig) ↦{fullShare} V (Proc.devRef .tc main_v9))
        ∗ ((((c : Dev nD), Proc.devRef .tc main_v30) : Loc nD τ sig) ↦{fullShare} V (Proc.devRef .tc main_v30))
        ∗ ((((c : Dev nD), Proc.devRef .tc main_v33) : Loc nD τ sig) ↦{fullShare} V (Proc.devRef .tc main_v33))) := by
  unfold StableHlo.held arrSet3
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers that bypass pipeline call 1 do not include its result array. -/
theorem rest3_congr (V : Valuation τ sig (Elt F)) (c : Dev nD) (f) :
    (held (c : Thread nD τ) (Pipeline.ucRefs τ sig \ arrSet3) (Function.update V (Proc.devRef .tc main_v33) f) : sProp 𝕄)
      = held (c : Thread nD τ) (Pipeline.ucRefs τ sig \ arrSet3) V :=
  StableHlo.held_congr (c : Thread nD τ) fun b hb => Function.update_of_ne (fun e => (Finset.mem_sdiff.mp hb).2 (by
    rw [e]; simp only [arrSet3, Finset.mem_insert, Finset.mem_singleton, or_true, true_or])) _ _

theorem arr3a_0 (c : Dev nD) :
    ((cfg3.win 0).arr.view.loc (c : Thread nD τ) ↦[(cfg3.win 0).arr.view.set]{(dats3 V1 O1 W1 c).share 0} ((dats3 V1 O1 W1 c).arrAt 0 0) : sProp 𝕄)
      = (((c : Dev nD), Proc.devRef .tc main_v31) : Loc nD τ sig) ↦{fullShare} V1 (Proc.devRef .tc main_v31) := by
  simp only [Memref.view_whole, View.set_whole]
  rfl
theorem arr3a_1 (c : Dev nD) :
    ((cfg3.win 1).arr.view.loc (c : Thread nD τ) ↦[(cfg3.win 1).arr.view.set]{(dats3 V1 O1 W1 c).share 1} ((dats3 V1 O1 W1 c).arrAt 1 0) : sProp 𝕄)
      = (((c : Dev nD), Proc.devRef .tc main_v32) : Loc nD τ sig) ↦{fullShare} V1 (Proc.devRef .tc main_v32) := by
  simp only [Memref.view_whole, View.set_whole]
  rfl
theorem arr3a_2 (c : Dev nD) :
    ((cfg3.win 2).arr.view.loc (c : Thread nD τ) ↦[(cfg3.win 2).arr.view.set]{(dats3 V1 O1 W1 c).share 2} ((dats3 V1 O1 W1 c).arrAt 2 0) : sProp 𝕄)
      = (((c : Dev nD), Proc.devRef .tc main_arg4) : Loc nD τ sig) ↦{fullShare} V1 (Proc.devRef .tc main_arg4) := by
  simp only [Memref.view_whole, View.set_whole]
  rfl
theorem arr3a_3 (c : Dev nD) :
    ((cfg3.win 3).arr.view.loc (c : Thread nD τ) ↦[(cfg3.win 3).arr.view.set]{(dats3 V1 O1 W1 c).share 3} ((dats3 V1 O1 W1 c).arrAt 3 0) : sProp 𝕄)
      = (((c : Dev nD), Proc.devRef .tc main_arg6) : Loc nD τ sig) ↦{fullShare} V1 (Proc.devRef .tc main_arg6) := by
  simp only [Memref.view_whole, View.set_whole]
  rfl
theorem arr3a_4 (c : Dev nD) :
    ((cfg3.win 4).arr.view.loc (c : Thread nD τ) ↦[(cfg3.win 4).arr.view.set]{(dats3 V1 O1 W1 c).share 4} ((dats3 V1 O1 W1 c).arrAt 4 0) : sProp 𝕄)
      = (((c : Dev nD), Proc.devRef .tc main_v10) : Loc nD τ sig) ↦{fullShare} V1 (Proc.devRef .tc main_v10) := by
  simp only [Memref.view_whole, View.set_whole]
  rfl
theorem arr3a_5 (c : Dev nD) :
    ((cfg3.win 5).arr.view.loc (c : Thread nD τ) ↦[(cfg3.win 5).arr.view.set]{(dats3 V1 O1 W1 c).share 5} ((dats3 V1 O1 W1 c).arrAt 5 0) : sProp 𝕄)
      = (((c : Dev nD), Proc.devRef .tc main_v14) : Loc nD τ sig) ↦{fullShare} V1 (Proc.devRef .tc main_v14) := by
  simp only [Memref.view_whole, View.set_whole]
  rfl
theorem arr3a_6 (c : Dev nD) :
    ((cfg3.win 6).arr.view.loc (c : Thread nD τ) ↦[(cfg3.win 6).arr.view.set]{(dats3 V1 O1 W1 c).share 6} ((dats3 V1 O1 W1 c).arrAt 6 0) : sProp 𝕄)
      = (((c : Dev nD), Proc.devRef .tc main_v11) : Loc nD τ sig) ↦{fullShare} V1 (Proc.devRef .tc main_v11) := by
  simp only [Memref.view_whole, View.set_whole]
  rfl
theorem arr3a_7 (c : Dev nD) :
    ((cfg3.win 7).arr.view.loc (c : Thread nD τ) ↦[(cfg3.win 7).arr.view.set]{(dats3 V1 O1 W1 c).share 7} ((dats3 V1 O1 W1 c).arrAt 7 0) : sProp 𝕄)
      = (((c : Dev nD), Proc.devRef .tc main_v15) : Loc nD τ sig) ↦{fullShare} V1 (Proc.devRef .tc main_v15) := by
  simp only [Memref.view_whole, View.set_whole]
  rfl
theorem arr3a_8 (c : Dev nD) :
    ((cfg3.win 8).arr.view.loc (c : Thread nD τ) ↦[(cfg3.win 8).arr.view.set]{(dats3 V1 O1 W1 c).share 8} ((dats3 V1 O1 W1 c).arrAt 8 0) : sProp 𝕄)
      = (((c : Dev nD), Proc.devRef .tc main_v12) : Loc nD τ sig) ↦{fullShare} V1 (Proc.devRef .tc main_v12) := by
  simp only [Memref.view_whole, View.set_whole]
  rfl
theorem arr3a_9 (c : Dev nD) :
    ((cfg3.win 9).arr.view.loc (c : Thread nD τ) ↦[(cfg3.win 9).arr.view.set]{(dats3 V1 O1 W1 c).share 9} ((dats3 V1 O1 W1 c).arrAt 9 0) : sProp 𝕄)
      = (((c : Dev nD), Proc.devRef .tc main_v16) : Loc nD τ sig) ↦{fullShare} V1 (Proc.devRef .tc main_v16) := by
  simp only [Memref.view_whole, View.set_whole]
  rfl
theorem arr3a_10 (c : Dev nD) :
    ((cfg3.win 10).arr.view.loc (c : Thread nD τ) ↦[(cfg3.win 10).arr.view.set]{(dats3 V1 O1 W1 c).share 10} ((dats3 V1 O1 W1 c).arrAt 10 0) : sProp 𝕄)
      = (((c : Dev nD), Proc.devRef .tc main_v13) : Loc nD τ sig) ↦{fullShare} V1 (Proc.devRef .tc main_v13) := by
  simp only [Memref.view_whole, View.set_whole]
  rfl
theorem arr3a_11 (c : Dev nD) :
    ((cfg3.win 11).arr.view.loc (c : Thread nD τ) ↦[(cfg3.win 11).arr.view.set]{(dats3 V1 O1 W1 c).share 11} ((dats3 V1 O1 W1 c).arrAt 11 0) : sProp 𝕄)
      = (((c : Dev nD), Proc.devRef .tc main_v9) : Loc nD τ sig) ↦{fullShare} V1 (Proc.devRef .tc main_v9) := by
  simp only [Memref.view_whole, View.set_whole]
  rfl
theorem arr3a_12 (c : Dev nD) :
    ((cfg3.win 12).arr.view.loc (c : Thread nD τ) ↦[(cfg3.win 12).arr.view.set]{(dats3 V1 O1 W1 c).share 12} ((dats3 V1 O1 W1 c).arrAt 12 0) : sProp 𝕄)
      = (((c : Dev nD), Proc.devRef .tc main_v30) : Loc nD τ sig) ↦{shareTokN fullShare 0} V1 (Proc.devRef .tc main_v30) := by
  simp only [Memref.view_whole, View.set_whole]
  rfl
theorem arr3a_13 (c : Dev nD) :
    ((cfg3.win 13).arr.view.loc (c : Thread nD τ) ↦[(cfg3.win 13).arr.view.set]{(dats3 V1 O1 W1 c).share 13} ((dats3 V1 O1 W1 c).arrAt 13 0) : sProp 𝕄)
      = (((c : Dev nD), Proc.devRef .tc main_v30) : Loc nD τ sig) ↦{shareTokN fullShare 1} V1 (Proc.devRef .tc main_v30) := by
  simp only [Memref.view_whole, View.set_whole]
  rfl
theorem arr3a_14 (c : Dev nD) :
    ((cfg3.win 14).arr.view.loc (c : Thread nD τ) ↦[(cfg3.win 14).arr.view.set]{(dats3 V1 O1 W1 c).share 14} ((dats3 V1 O1 W1 c).arrAt 14 0) : sProp 𝕄)
      = (((c : Dev nD), Proc.devRef .tc main_v30) : Loc nD τ sig) ↦{shareTokN fullShare 2} V1 (Proc.devRef .tc main_v30) := by
  simp only [Memref.view_whole, View.set_whole]
  rfl
theorem arr3a_15 (c : Dev nD) :
    ((cfg3.win 15).arr.view.loc (c : Thread nD τ) ↦[(cfg3.win 15).arr.view.set]{(dats3 V1 O1 W1 c).share 15} ((dats3 V1 O1 W1 c).arrAt 15 0) : sProp 𝕄)
      = (((c : Dev nD), Proc.devRef .tc main_v30) : Loc nD τ sig) ↦{shareTokN fullShare 3} V1 (Proc.devRef .tc main_v30) := by
  simp only [Memref.view_whole, View.set_whole]
  rfl
theorem arr3a_16 (c : Dev nD) :
    ((cfg3.win 16).arr.view.loc (c : Thread nD τ) ↦[(cfg3.win 16).arr.view.set]{(dats3 V1 O1 W1 c).share 16} ((dats3 V1 O1 W1 c).arrAt 16 0) : sProp 𝕄)
      = (((c : Dev nD), Proc.devRef .tc main_v30) : Loc nD τ sig) ↦{shareTokN fullShare 4} V1 (Proc.devRef .tc main_v30) := by
  simp only [Memref.view_whole, View.set_whole]
  rfl
theorem arr3a_17 (c : Dev nD) :
    ((cfg3.win 17).arr.view.loc (c : Thread nD τ) ↦[(cfg3.win 17).arr.view.set]{(dats3 V1 O1 W1 c).share 17} ((dats3 V1 O1 W1 c).arrAt 17 0) : sProp 𝕄)
      = (((c : Dev nD), Proc.devRef .tc main_v30) : Loc nD τ sig) ↦{shareTokN fullShare 5} V1 (Proc.devRef .tc main_v30) := by
  simp only [Memref.view_whole, View.set_whole]
  rfl
theorem arr3a_18 (c : Dev nD) :
    ((cfg3.win 18).arr.view.loc (c : Thread nD τ) ↦[(cfg3.win 18).arr.view.set]{(dats3 V1 O1 W1 c).share 18} ((dats3 V1 O1 W1 c).arrAt 18 0) : sProp 𝕄)
      = (((c : Dev nD), Proc.devRef .tc main_v30) : Loc nD τ sig) ↦{shareTokN fullShare 6} V1 (Proc.devRef .tc main_v30) := by
  simp only [Memref.view_whole, View.set_whole]
  rfl
theorem arr3a_19 (c : Dev nD) :
    ((cfg3.win 19).arr.view.loc (c : Thread nD τ) ↦[(cfg3.win 19).arr.view.set]{(dats3 V1 O1 W1 c).share 19} ((dats3 V1 O1 W1 c).arrAt 19 0) : sProp 𝕄)
      = (((c : Dev nD), Proc.devRef .tc main_v30) : Loc nD τ sig) ↦{shareTokN fullShare 7} V1 (Proc.devRef .tc main_v30) := by
  simp only [Memref.view_whole, View.set_whole]
  rfl
theorem arr3a_20 (c : Dev nD) :
    ((cfg3.win 20).arr.view.loc (c : Thread nD τ) ↦[(cfg3.win 20).arr.view.set]{(dats3 V1 O1 W1 c).share 20} ((dats3 V1 O1 W1 c).arrAt 20 0) : sProp 𝕄)
      = (((c : Dev nD), Proc.devRef .tc main_v30) : Loc nD τ sig) ↦{shareTokN fullShare 8} V1 (Proc.devRef .tc main_v30) := by
  simp only [Memref.view_whole, View.set_whole]
  rfl
theorem arr3a_21 (c : Dev nD) :
    ((cfg3.win 21).arr.view.loc (c : Thread nD τ) ↦[(cfg3.win 21).arr.view.set]{(dats3 V1 O1 W1 c).share 21} ((dats3 V1 O1 W1 c).arrAt 21 0) : sProp 𝕄)
      = (((c : Dev nD), Proc.devRef .tc main_v30) : Loc nD τ sig) ↦{shareTokN fullShare 9} V1 (Proc.devRef .tc main_v30) := by
  simp only [Memref.view_whole, View.set_whole]
  rfl
theorem arr3a_22 (c : Dev nD) :
    ((cfg3.win 22).arr.view.loc (c : Thread nD τ) ↦[(cfg3.win 22).arr.view.set]{(dats3 V1 O1 W1 c).share 22} ((dats3 V1 O1 W1 c).arrAt 22 0) : sProp 𝕄)
      = (((c : Dev nD), Proc.devRef .tc main_v30) : Loc nD τ sig) ↦{shareTokN fullShare 10} V1 (Proc.devRef .tc main_v30) := by
  simp only [Memref.view_whole, View.set_whole]
  rfl
theorem arr3a_23 (c : Dev nD) :
    ((cfg3.win 23).arr.view.loc (c : Thread nD τ) ↦[(cfg3.win 23).arr.view.set]{(dats3 V1 O1 W1 c).share 23} ((dats3 V1 O1 W1 c).arrAt 23 0) : sProp 𝕄)
      = (((c : Dev nD), Proc.devRef .tc main_v30) : Loc nD τ sig) ↦{shareTokN fullShare 11} V1 (Proc.devRef .tc main_v30) := by
  simp only [Memref.view_whole, View.set_whole]
  rfl
theorem arr3a_24 (c : Dev nD) :
    ((cfg3.win 24).arr.view.loc (c : Thread nD τ) ↦[(cfg3.win 24).arr.view.set]{(dats3 V1 O1 W1 c).share 24} ((dats3 V1 O1 W1 c).arrAt 24 0) : sProp 𝕄)
      = (((c : Dev nD), Proc.devRef .tc main_v30) : Loc nD τ sig) ↦{shareTokN fullShare 12} V1 (Proc.devRef .tc main_v30) := by
  simp only [Memref.view_whole, View.set_whole]
  rfl
theorem arr3a_25 (c : Dev nD) :
    ((cfg3.win 25).arr.view.loc (c : Thread nD τ) ↦[(cfg3.win 25).arr.view.set]{(dats3 V1 O1 W1 c).share 25} ((dats3 V1 O1 W1 c).arrAt 25 0) : sProp 𝕄)
      = (((c : Dev nD), Proc.devRef .tc main_v30) : Loc nD τ sig) ↦{shareTokN fullShare 13} V1 (Proc.devRef .tc main_v30) := by
  simp only [Memref.view_whole, View.set_whole]
  rfl
theorem arr3a_26 (c : Dev nD) :
    ((cfg3.win 26).arr.view.loc (c : Thread nD τ) ↦[(cfg3.win 26).arr.view.set]{(dats3 V1 O1 W1 c).share 26} ((dats3 V1 O1 W1 c).arrAt 26 0) : sProp 𝕄)
      = (((c : Dev nD), Proc.devRef .tc main_v30) : Loc nD τ sig) ↦{shareTokN fullShare 14} V1 (Proc.devRef .tc main_v30) := by
  simp only [Memref.view_whole, View.set_whole]
  rfl
theorem arr3a_27 (c : Dev nD) :
    ((cfg3.win 27).arr.view.loc (c : Thread nD τ) ↦[(cfg3.win 27).arr.view.set]{(dats3 V1 O1 W1 c).share 27} ((dats3 V1 O1 W1 c).arrAt 27 0) : sProp 𝕄)
      = (((c : Dev nD), Proc.devRef .tc main_v30) : Loc nD τ sig) ↦{shareTokN fullShare 15} V1 (Proc.devRef .tc main_v30) := by
  simp only [Memref.view_whole, View.set_whole]
  rfl
theorem arr3a_28 (c : Dev nD) :
    ((cfg3.win 28).arr.view.loc (c : Thread nD τ) ↦[(cfg3.win 28).arr.view.set]{(dats3 V1 O1 W1 c).share 28} ((dats3 V1 O1 W1 c).arrAt 28 0) : sProp 𝕄)
      = (((c : Dev nD), Proc.devRef .tc main_v30) : Loc nD τ sig) ↦{shareTokN fullShare 16} V1 (Proc.devRef .tc main_v30) := by
  simp only [Memref.view_whole, View.set_whole]
  rfl
theorem arr3a_29 (c : Dev nD) :
    ((cfg3.win 29).arr.view.loc (c : Thread nD τ) ↦[(cfg3.win 29).arr.view.set]{(dats3 V1 O1 W1 c).share 29} ((dats3 V1 O1 W1 c).arrAt 29 0) : sProp 𝕄)
      = (((c : Dev nD), Proc.devRef .tc main_v30) : Loc nD τ sig) ↦{shareTokN fullShare 17} V1 (Proc.devRef .tc main_v30) := by
  simp only [Memref.view_whole, View.set_whole]
  rfl
theorem arr3a_30 (c : Dev nD) :
    ((cfg3.win 30).arr.view.loc (c : Thread nD τ) ↦[(cfg3.win 30).arr.view.set]{(dats3 V1 O1 W1 c).share 30} ((dats3 V1 O1 W1 c).arrAt 30 0) : sProp 𝕄)
      = (((c : Dev nD), Proc.devRef .tc main_v30) : Loc nD τ sig) ↦{shareTokN fullShare 18} V1 (Proc.devRef .tc main_v30) := by
  simp only [Memref.view_whole, View.set_whole]
  rfl
theorem arr3a_31 (c : Dev nD) :
    ((cfg3.win 31).arr.view.loc (c : Thread nD τ) ↦[(cfg3.win 31).arr.view.set]{(dats3 V1 O1 W1 c).share 31} ((dats3 V1 O1 W1 c).arrAt 31 0) : sProp 𝕄)
      = (((c : Dev nD), Proc.devRef .tc main_v30) : Loc nD τ sig) ↦{shareTokN fullShare 19} V1 (Proc.devRef .tc main_v30) := by
  simp only [Memref.view_whole, View.set_whole]
  rfl
theorem arr3a_32 (c : Dev nD) :
    ((cfg3.win 32).arr.view.loc (c : Thread nD τ) ↦[(cfg3.win 32).arr.view.set]{(dats3 V1 O1 W1 c).share 32} ((dats3 V1 O1 W1 c).arrAt 32 0) : sProp 𝕄)
      = (((c : Dev nD), Proc.devRef .tc main_v30) : Loc nD τ sig) ↦{shareTokN fullShare 20} V1 (Proc.devRef .tc main_v30) := by
  simp only [Memref.view_whole, View.set_whole]
  rfl
theorem arr3a_33 (c : Dev nD) :
    ((cfg3.win 33).arr.view.loc (c : Thread nD τ) ↦[(cfg3.win 33).arr.view.set]{(dats3 V1 O1 W1 c).share 33} ((dats3 V1 O1 W1 c).arrAt 33 0) : sProp 𝕄)
      = (((c : Dev nD), Proc.devRef .tc main_v30) : Loc nD τ sig) ↦{shareTokN fullShare 21} V1 (Proc.devRef .tc main_v30) := by
  simp only [Memref.view_whole, View.set_whole]
  rfl
theorem arr3a_34 (c : Dev nD) :
    ((cfg3.win 34).arr.view.loc (c : Thread nD τ) ↦[(cfg3.win 34).arr.view.set]{(dats3 V1 O1 W1 c).share 34} ((dats3 V1 O1 W1 c).arrAt 34 0) : sProp 𝕄)
      = (((c : Dev nD), Proc.devRef .tc main_v30) : Loc nD τ sig) ↦{shareTokN fullShare 22} V1 (Proc.devRef .tc main_v30) := by
  simp only [Memref.view_whole, View.set_whole]
  rfl
theorem arr3a_35 (c : Dev nD) :
    ((cfg3.win 35).arr.view.loc (c : Thread nD τ) ↦[(cfg3.win 35).arr.view.set]{(dats3 V1 O1 W1 c).share 35} ((dats3 V1 O1 W1 c).arrAt 35 0) : sProp 𝕄)
      = (((c : Dev nD), Proc.devRef .tc main_v30) : Loc nD τ sig) ↦{shareTokN fullShare 23} V1 (Proc.devRef .tc main_v30) := by
  simp only [Memref.view_whole, View.set_whole]
  rfl
theorem arr3a_36 (c : Dev nD) :
    ((cfg3.win 36).arr.view.loc (c : Thread nD τ) ↦[(cfg3.win 36).arr.view.set]{(dats3 V1 O1 W1 c).share 36} ((dats3 V1 O1 W1 c).arrAt 36 0) : sProp 𝕄)
      = (((c : Dev nD), Proc.devRef .tc main_v30) : Loc nD τ sig) ↦{shareTokN fullShare 24} V1 (Proc.devRef .tc main_v30) := by
  simp only [Memref.view_whole, View.set_whole]
  rfl
theorem arr3a_37 (c : Dev nD) :
    ((cfg3.win 37).arr.view.loc (c : Thread nD τ) ↦[(cfg3.win 37).arr.view.set]{(dats3 V1 O1 W1 c).share 37} ((dats3 V1 O1 W1 c).arrAt 37 0) : sProp 𝕄)
      = (((c : Dev nD), Proc.devRef .tc main_v30) : Loc nD τ sig) ↦{shareTokN fullShare 25} V1 (Proc.devRef .tc main_v30) := by
  simp only [Memref.view_whole, View.set_whole]
  rfl
theorem arr3a_38 (c : Dev nD) :
    ((cfg3.win 38).arr.view.loc (c : Thread nD τ) ↦[(cfg3.win 38).arr.view.set]{(dats3 V1 O1 W1 c).share 38} ((dats3 V1 O1 W1 c).arrAt 38 0) : sProp 𝕄)
      = (((c : Dev nD), Proc.devRef .tc main_v33) : Loc nD τ sig) ↦{fullShare} V1 (Proc.devRef .tc main_v33) := by
  simp only [Memref.view_whole, View.set_whole]
  rfl
theorem arr3z_0 (c : Dev nD) :
    ((cfg3.win 0).arr.view.loc (c : Thread nD τ) ↦[(cfg3.win 0).arr.view.set]{(dats3 V1 O1 W1 c).share 0} ((dats3 V1 O1 W1 c).arrAt 0 cfg3.N) : sProp 𝕄)
      = (((c : Dev nD), Proc.devRef .tc main_v31) : Loc nD τ sig) ↦{fullShare} V1 (Proc.devRef .tc main_v31) := by
  rw [arrAt_of_in (dats3 V1 O1 W1 c) 0 rfl]
  simp only [Memref.view_whole, View.set_whole]
  rfl
theorem arr3z_1 (c : Dev nD) :
    ((cfg3.win 1).arr.view.loc (c : Thread nD τ) ↦[(cfg3.win 1).arr.view.set]{(dats3 V1 O1 W1 c).share 1} ((dats3 V1 O1 W1 c).arrAt 1 cfg3.N) : sProp 𝕄)
      = (((c : Dev nD), Proc.devRef .tc main_v32) : Loc nD τ sig) ↦{fullShare} V1 (Proc.devRef .tc main_v32) := by
  rw [arrAt_of_in (dats3 V1 O1 W1 c) 1 rfl]
  simp only [Memref.view_whole, View.set_whole]
  rfl
theorem arr3z_2 (c : Dev nD) :
    ((cfg3.win 2).arr.view.loc (c : Thread nD τ) ↦[(cfg3.win 2).arr.view.set]{(dats3 V1 O1 W1 c).share 2} ((dats3 V1 O1 W1 c).arrAt 2 cfg3.N) : sProp 𝕄)
      = (((c : Dev nD), Proc.devRef .tc main_arg4) : Loc nD τ sig) ↦{fullShare} V1 (Proc.devRef .tc main_arg4) := by
  rw [arrAt_of_in (dats3 V1 O1 W1 c) 2 rfl]
  simp only [Memref.view_whole, View.set_whole]
  rfl
theorem arr3z_3 (c : Dev nD) :
    ((cfg3.win 3).arr.view.loc (c : Thread nD τ) ↦[(cfg3.win 3).arr.view.set]{(dats3 V1 O1 W1 c).share 3} ((dats3 V1 O1 W1 c).arrAt 3 cfg3.N) : sProp 𝕄)
      = (((c : Dev nD), Proc.devRef .tc main_arg6) : Loc nD τ sig) ↦{fullShare} V1 (Proc.devRef .tc main_arg6) := by
  rw [arrAt_of_in (dats3 V1 O1 W1 c) 3 rfl]
  simp only [Memref.view_whole, View.set_whole]
  rfl
theorem arr3z_4 (c : Dev nD) :
    ((cfg3.win 4).arr.view.loc (c : Thread nD τ) ↦[(cfg3.win 4).arr.view.set]{(dats3 V1 O1 W1 c).share 4} ((dats3 V1 O1 W1 c).arrAt 4 cfg3.N) : sProp 𝕄)
      = (((c : Dev nD), Proc.devRef .tc main_v10) : Loc nD τ sig) ↦{fullShare} V1 (Proc.devRef .tc main_v10) := by
  rw [arrAt_of_in (dats3 V1 O1 W1 c) 4 rfl]
  simp only [Memref.view_whole, View.set_whole]
  rfl
theorem arr3z_5 (c : Dev nD) :
    ((cfg3.win 5).arr.view.loc (c : Thread nD τ) ↦[(cfg3.win 5).arr.view.set]{(dats3 V1 O1 W1 c).share 5} ((dats3 V1 O1 W1 c).arrAt 5 cfg3.N) : sProp 𝕄)
      = (((c : Dev nD), Proc.devRef .tc main_v14) : Loc nD τ sig) ↦{fullShare} V1 (Proc.devRef .tc main_v14) := by
  rw [arrAt_of_in (dats3 V1 O1 W1 c) 5 rfl]
  simp only [Memref.view_whole, View.set_whole]
  rfl
theorem arr3z_6 (c : Dev nD) :
    ((cfg3.win 6).arr.view.loc (c : Thread nD τ) ↦[(cfg3.win 6).arr.view.set]{(dats3 V1 O1 W1 c).share 6} ((dats3 V1 O1 W1 c).arrAt 6 cfg3.N) : sProp 𝕄)
      = (((c : Dev nD), Proc.devRef .tc main_v11) : Loc nD τ sig) ↦{fullShare} V1 (Proc.devRef .tc main_v11) := by
  rw [arrAt_of_in (dats3 V1 O1 W1 c) 6 rfl]
  simp only [Memref.view_whole, View.set_whole]
  rfl
theorem arr3z_7 (c : Dev nD) :
    ((cfg3.win 7).arr.view.loc (c : Thread nD τ) ↦[(cfg3.win 7).arr.view.set]{(dats3 V1 O1 W1 c).share 7} ((dats3 V1 O1 W1 c).arrAt 7 cfg3.N) : sProp 𝕄)
      = (((c : Dev nD), Proc.devRef .tc main_v15) : Loc nD τ sig) ↦{fullShare} V1 (Proc.devRef .tc main_v15) := by
  rw [arrAt_of_in (dats3 V1 O1 W1 c) 7 rfl]
  simp only [Memref.view_whole, View.set_whole]
  rfl
theorem arr3z_8 (c : Dev nD) :
    ((cfg3.win 8).arr.view.loc (c : Thread nD τ) ↦[(cfg3.win 8).arr.view.set]{(dats3 V1 O1 W1 c).share 8} ((dats3 V1 O1 W1 c).arrAt 8 cfg3.N) : sProp 𝕄)
      = (((c : Dev nD), Proc.devRef .tc main_v12) : Loc nD τ sig) ↦{fullShare} V1 (Proc.devRef .tc main_v12) := by
  rw [arrAt_of_in (dats3 V1 O1 W1 c) 8 rfl]
  simp only [Memref.view_whole, View.set_whole]
  rfl
theorem arr3z_9 (c : Dev nD) :
    ((cfg3.win 9).arr.view.loc (c : Thread nD τ) ↦[(cfg3.win 9).arr.view.set]{(dats3 V1 O1 W1 c).share 9} ((dats3 V1 O1 W1 c).arrAt 9 cfg3.N) : sProp 𝕄)
      = (((c : Dev nD), Proc.devRef .tc main_v16) : Loc nD τ sig) ↦{fullShare} V1 (Proc.devRef .tc main_v16) := by
  rw [arrAt_of_in (dats3 V1 O1 W1 c) 9 rfl]
  simp only [Memref.view_whole, View.set_whole]
  rfl
theorem arr3z_10 (c : Dev nD) :
    ((cfg3.win 10).arr.view.loc (c : Thread nD τ) ↦[(cfg3.win 10).arr.view.set]{(dats3 V1 O1 W1 c).share 10} ((dats3 V1 O1 W1 c).arrAt 10 cfg3.N) : sProp 𝕄)
      = (((c : Dev nD), Proc.devRef .tc main_v13) : Loc nD τ sig) ↦{fullShare} V1 (Proc.devRef .tc main_v13) := by
  rw [arrAt_of_in (dats3 V1 O1 W1 c) 10 rfl]
  simp only [Memref.view_whole, View.set_whole]
  rfl
theorem arr3z_11 (c : Dev nD) :
    ((cfg3.win 11).arr.view.loc (c : Thread nD τ) ↦[(cfg3.win 11).arr.view.set]{(dats3 V1 O1 W1 c).share 11} ((dats3 V1 O1 W1 c).arrAt 11 cfg3.N) : sProp 𝕄)
      = (((c : Dev nD), Proc.devRef .tc main_v9) : Loc nD τ sig) ↦{fullShare} V1 (Proc.devRef .tc main_v9) := by
  rw [arrAt_of_in (dats3 V1 O1 W1 c) 11 rfl]
  simp only [Memref.view_whole, View.set_whole]
  rfl
theorem arr3z_12 (c : Dev nD) :
    ((cfg3.win 12).arr.view.loc (c : Thread nD τ) ↦[(cfg3.win 12).arr.view.set]{(dats3 V1 O1 W1 c).share 12} ((dats3 V1 O1 W1 c).arrAt 12 cfg3.N) : sProp 𝕄)
      = (((c : Dev nD), Proc.devRef .tc main_v30) : Loc nD τ sig) ↦{shareTokN fullShare 0} V1 (Proc.devRef .tc main_v30) := by
  rw [arrAt_of_in (dats3 V1 O1 W1 c) 12 rfl]
  simp only [Memref.view_whole, View.set_whole]
  rfl
theorem arr3z_13 (c : Dev nD) :
    ((cfg3.win 13).arr.view.loc (c : Thread nD τ) ↦[(cfg3.win 13).arr.view.set]{(dats3 V1 O1 W1 c).share 13} ((dats3 V1 O1 W1 c).arrAt 13 cfg3.N) : sProp 𝕄)
      = (((c : Dev nD), Proc.devRef .tc main_v30) : Loc nD τ sig) ↦{shareTokN fullShare 1} V1 (Proc.devRef .tc main_v30) := by
  rw [arrAt_of_in (dats3 V1 O1 W1 c) 13 rfl]
  simp only [Memref.view_whole, View.set_whole]
  rfl
theorem arr3z_14 (c : Dev nD) :
    ((cfg3.win 14).arr.view.loc (c : Thread nD τ) ↦[(cfg3.win 14).arr.view.set]{(dats3 V1 O1 W1 c).share 14} ((dats3 V1 O1 W1 c).arrAt 14 cfg3.N) : sProp 𝕄)
      = (((c : Dev nD), Proc.devRef .tc main_v30) : Loc nD τ sig) ↦{shareTokN fullShare 2} V1 (Proc.devRef .tc main_v30) := by
  rw [arrAt_of_in (dats3 V1 O1 W1 c) 14 rfl]
  simp only [Memref.view_whole, View.set_whole]
  rfl
theorem arr3z_15 (c : Dev nD) :
    ((cfg3.win 15).arr.view.loc (c : Thread nD τ) ↦[(cfg3.win 15).arr.view.set]{(dats3 V1 O1 W1 c).share 15} ((dats3 V1 O1 W1 c).arrAt 15 cfg3.N) : sProp 𝕄)
      = (((c : Dev nD), Proc.devRef .tc main_v30) : Loc nD τ sig) ↦{shareTokN fullShare 3} V1 (Proc.devRef .tc main_v30) := by
  rw [arrAt_of_in (dats3 V1 O1 W1 c) 15 rfl]
  simp only [Memref.view_whole, View.set_whole]
  rfl
theorem arr3z_16 (c : Dev nD) :
    ((cfg3.win 16).arr.view.loc (c : Thread nD τ) ↦[(cfg3.win 16).arr.view.set]{(dats3 V1 O1 W1 c).share 16} ((dats3 V1 O1 W1 c).arrAt 16 cfg3.N) : sProp 𝕄)
      = (((c : Dev nD), Proc.devRef .tc main_v30) : Loc nD τ sig) ↦{shareTokN fullShare 4} V1 (Proc.devRef .tc main_v30) := by
  rw [arrAt_of_in (dats3 V1 O1 W1 c) 16 rfl]
  simp only [Memref.view_whole, View.set_whole]
  rfl
theorem arr3z_17 (c : Dev nD) :
    ((cfg3.win 17).arr.view.loc (c : Thread nD τ) ↦[(cfg3.win 17).arr.view.set]{(dats3 V1 O1 W1 c).share 17} ((dats3 V1 O1 W1 c).arrAt 17 cfg3.N) : sProp 𝕄)
      = (((c : Dev nD), Proc.devRef .tc main_v30) : Loc nD τ sig) ↦{shareTokN fullShare 5} V1 (Proc.devRef .tc main_v30) := by
  rw [arrAt_of_in (dats3 V1 O1 W1 c) 17 rfl]
  simp only [Memref.view_whole, View.set_whole]
  rfl
theorem arr3z_18 (c : Dev nD) :
    ((cfg3.win 18).arr.view.loc (c : Thread nD τ) ↦[(cfg3.win 18).arr.view.set]{(dats3 V1 O1 W1 c).share 18} ((dats3 V1 O1 W1 c).arrAt 18 cfg3.N) : sProp 𝕄)
      = (((c : Dev nD), Proc.devRef .tc main_v30) : Loc nD τ sig) ↦{shareTokN fullShare 6} V1 (Proc.devRef .tc main_v30) := by
  rw [arrAt_of_in (dats3 V1 O1 W1 c) 18 rfl]
  simp only [Memref.view_whole, View.set_whole]
  rfl
theorem arr3z_19 (c : Dev nD) :
    ((cfg3.win 19).arr.view.loc (c : Thread nD τ) ↦[(cfg3.win 19).arr.view.set]{(dats3 V1 O1 W1 c).share 19} ((dats3 V1 O1 W1 c).arrAt 19 cfg3.N) : sProp 𝕄)
      = (((c : Dev nD), Proc.devRef .tc main_v30) : Loc nD τ sig) ↦{shareTokN fullShare 7} V1 (Proc.devRef .tc main_v30) := by
  rw [arrAt_of_in (dats3 V1 O1 W1 c) 19 rfl]
  simp only [Memref.view_whole, View.set_whole]
  rfl
theorem arr3z_20 (c : Dev nD) :
    ((cfg3.win 20).arr.view.loc (c : Thread nD τ) ↦[(cfg3.win 20).arr.view.set]{(dats3 V1 O1 W1 c).share 20} ((dats3 V1 O1 W1 c).arrAt 20 cfg3.N) : sProp 𝕄)
      = (((c : Dev nD), Proc.devRef .tc main_v30) : Loc nD τ sig) ↦{shareTokN fullShare 8} V1 (Proc.devRef .tc main_v30) := by
  rw [arrAt_of_in (dats3 V1 O1 W1 c) 20 rfl]
  simp only [Memref.view_whole, View.set_whole]
  rfl
theorem arr3z_21 (c : Dev nD) :
    ((cfg3.win 21).arr.view.loc (c : Thread nD τ) ↦[(cfg3.win 21).arr.view.set]{(dats3 V1 O1 W1 c).share 21} ((dats3 V1 O1 W1 c).arrAt 21 cfg3.N) : sProp 𝕄)
      = (((c : Dev nD), Proc.devRef .tc main_v30) : Loc nD τ sig) ↦{shareTokN fullShare 9} V1 (Proc.devRef .tc main_v30) := by
  rw [arrAt_of_in (dats3 V1 O1 W1 c) 21 rfl]
  simp only [Memref.view_whole, View.set_whole]
  rfl
theorem arr3z_22 (c : Dev nD) :
    ((cfg3.win 22).arr.view.loc (c : Thread nD τ) ↦[(cfg3.win 22).arr.view.set]{(dats3 V1 O1 W1 c).share 22} ((dats3 V1 O1 W1 c).arrAt 22 cfg3.N) : sProp 𝕄)
      = (((c : Dev nD), Proc.devRef .tc main_v30) : Loc nD τ sig) ↦{shareTokN fullShare 10} V1 (Proc.devRef .tc main_v30) := by
  rw [arrAt_of_in (dats3 V1 O1 W1 c) 22 rfl]
  simp only [Memref.view_whole, View.set_whole]
  rfl
theorem arr3z_23 (c : Dev nD) :
    ((cfg3.win 23).arr.view.loc (c : Thread nD τ) ↦[(cfg3.win 23).arr.view.set]{(dats3 V1 O1 W1 c).share 23} ((dats3 V1 O1 W1 c).arrAt 23 cfg3.N) : sProp 𝕄)
      = (((c : Dev nD), Proc.devRef .tc main_v30) : Loc nD τ sig) ↦{shareTokN fullShare 11} V1 (Proc.devRef .tc main_v30) := by
  rw [arrAt_of_in (dats3 V1 O1 W1 c) 23 rfl]
  simp only [Memref.view_whole, View.set_whole]
  rfl
theorem arr3z_24 (c : Dev nD) :
    ((cfg3.win 24).arr.view.loc (c : Thread nD τ) ↦[(cfg3.win 24).arr.view.set]{(dats3 V1 O1 W1 c).share 24} ((dats3 V1 O1 W1 c).arrAt 24 cfg3.N) : sProp 𝕄)
      = (((c : Dev nD), Proc.devRef .tc main_v30) : Loc nD τ sig) ↦{shareTokN fullShare 12} V1 (Proc.devRef .tc main_v30) := by
  rw [arrAt_of_in (dats3 V1 O1 W1 c) 24 rfl]
  simp only [Memref.view_whole, View.set_whole]
  rfl
theorem arr3z_25 (c : Dev nD) :
    ((cfg3.win 25).arr.view.loc (c : Thread nD τ) ↦[(cfg3.win 25).arr.view.set]{(dats3 V1 O1 W1 c).share 25} ((dats3 V1 O1 W1 c).arrAt 25 cfg3.N) : sProp 𝕄)
      = (((c : Dev nD), Proc.devRef .tc main_v30) : Loc nD τ sig) ↦{shareTokN fullShare 13} V1 (Proc.devRef .tc main_v30) := by
  rw [arrAt_of_in (dats3 V1 O1 W1 c) 25 rfl]
  simp only [Memref.view_whole, View.set_whole]
  rfl
theorem arr3z_26 (c : Dev nD) :
    ((cfg3.win 26).arr.view.loc (c : Thread nD τ) ↦[(cfg3.win 26).arr.view.set]{(dats3 V1 O1 W1 c).share 26} ((dats3 V1 O1 W1 c).arrAt 26 cfg3.N) : sProp 𝕄)
      = (((c : Dev nD), Proc.devRef .tc main_v30) : Loc nD τ sig) ↦{shareTokN fullShare 14} V1 (Proc.devRef .tc main_v30) := by
  rw [arrAt_of_in (dats3 V1 O1 W1 c) 26 rfl]
  simp only [Memref.view_whole, View.set_whole]
  rfl
theorem arr3z_27 (c : Dev nD) :
    ((cfg3.win 27).arr.view.loc (c : Thread nD τ) ↦[(cfg3.win 27).arr.view.set]{(dats3 V1 O1 W1 c).share 27} ((dats3 V1 O1 W1 c).arrAt 27 cfg3.N) : sProp 𝕄)
      = (((c : Dev nD), Proc.devRef .tc main_v30) : Loc nD τ sig) ↦{shareTokN fullShare 15} V1 (Proc.devRef .tc main_v30) := by
  rw [arrAt_of_in (dats3 V1 O1 W1 c) 27 rfl]
  simp only [Memref.view_whole, View.set_whole]
  rfl
theorem arr3z_28 (c : Dev nD) :
    ((cfg3.win 28).arr.view.loc (c : Thread nD τ) ↦[(cfg3.win 28).arr.view.set]{(dats3 V1 O1 W1 c).share 28} ((dats3 V1 O1 W1 c).arrAt 28 cfg3.N) : sProp 𝕄)
      = (((c : Dev nD), Proc.devRef .tc main_v30) : Loc nD τ sig) ↦{shareTokN fullShare 16} V1 (Proc.devRef .tc main_v30) := by
  rw [arrAt_of_in (dats3 V1 O1 W1 c) 28 rfl]
  simp only [Memref.view_whole, View.set_whole]
  rfl
theorem arr3z_29 (c : Dev nD) :
    ((cfg3.win 29).arr.view.loc (c : Thread nD τ) ↦[(cfg3.win 29).arr.view.set]{(dats3 V1 O1 W1 c).share 29} ((dats3 V1 O1 W1 c).arrAt 29 cfg3.N) : sProp 𝕄)
      = (((c : Dev nD), Proc.devRef .tc main_v30) : Loc nD τ sig) ↦{shareTokN fullShare 17} V1 (Proc.devRef .tc main_v30) := by
  rw [arrAt_of_in (dats3 V1 O1 W1 c) 29 rfl]
  simp only [Memref.view_whole, View.set_whole]
  rfl
theorem arr3z_30 (c : Dev nD) :
    ((cfg3.win 30).arr.view.loc (c : Thread nD τ) ↦[(cfg3.win 30).arr.view.set]{(dats3 V1 O1 W1 c).share 30} ((dats3 V1 O1 W1 c).arrAt 30 cfg3.N) : sProp 𝕄)
      = (((c : Dev nD), Proc.devRef .tc main_v30) : Loc nD τ sig) ↦{shareTokN fullShare 18} V1 (Proc.devRef .tc main_v30) := by
  rw [arrAt_of_in (dats3 V1 O1 W1 c) 30 rfl]
  simp only [Memref.view_whole, View.set_whole]
  rfl
theorem arr3z_31 (c : Dev nD) :
    ((cfg3.win 31).arr.view.loc (c : Thread nD τ) ↦[(cfg3.win 31).arr.view.set]{(dats3 V1 O1 W1 c).share 31} ((dats3 V1 O1 W1 c).arrAt 31 cfg3.N) : sProp 𝕄)
      = (((c : Dev nD), Proc.devRef .tc main_v30) : Loc nD τ sig) ↦{shareTokN fullShare 19} V1 (Proc.devRef .tc main_v30) := by
  rw [arrAt_of_in (dats3 V1 O1 W1 c) 31 rfl]
  simp only [Memref.view_whole, View.set_whole]
  rfl
theorem arr3z_32 (c : Dev nD) :
    ((cfg3.win 32).arr.view.loc (c : Thread nD τ) ↦[(cfg3.win 32).arr.view.set]{(dats3 V1 O1 W1 c).share 32} ((dats3 V1 O1 W1 c).arrAt 32 cfg3.N) : sProp 𝕄)
      = (((c : Dev nD), Proc.devRef .tc main_v30) : Loc nD τ sig) ↦{shareTokN fullShare 20} V1 (Proc.devRef .tc main_v30) := by
  rw [arrAt_of_in (dats3 V1 O1 W1 c) 32 rfl]
  simp only [Memref.view_whole, View.set_whole]
  rfl
theorem arr3z_33 (c : Dev nD) :
    ((cfg3.win 33).arr.view.loc (c : Thread nD τ) ↦[(cfg3.win 33).arr.view.set]{(dats3 V1 O1 W1 c).share 33} ((dats3 V1 O1 W1 c).arrAt 33 cfg3.N) : sProp 𝕄)
      = (((c : Dev nD), Proc.devRef .tc main_v30) : Loc nD τ sig) ↦{shareTokN fullShare 21} V1 (Proc.devRef .tc main_v30) := by
  rw [arrAt_of_in (dats3 V1 O1 W1 c) 33 rfl]
  simp only [Memref.view_whole, View.set_whole]
  rfl
theorem arr3z_34 (c : Dev nD) :
    ((cfg3.win 34).arr.view.loc (c : Thread nD τ) ↦[(cfg3.win 34).arr.view.set]{(dats3 V1 O1 W1 c).share 34} ((dats3 V1 O1 W1 c).arrAt 34 cfg3.N) : sProp 𝕄)
      = (((c : Dev nD), Proc.devRef .tc main_v30) : Loc nD τ sig) ↦{shareTokN fullShare 22} V1 (Proc.devRef .tc main_v30) := by
  rw [arrAt_of_in (dats3 V1 O1 W1 c) 34 rfl]
  simp only [Memref.view_whole, View.set_whole]
  rfl
theorem arr3z_35 (c : Dev nD) :
    ((cfg3.win 35).arr.view.loc (c : Thread nD τ) ↦[(cfg3.win 35).arr.view.set]{(dats3 V1 O1 W1 c).share 35} ((dats3 V1 O1 W1 c).arrAt 35 cfg3.N) : sProp 𝕄)
      = (((c : Dev nD), Proc.devRef .tc main_v30) : Loc nD τ sig) ↦{shareTokN fullShare 23} V1 (Proc.devRef .tc main_v30) := by
  rw [arrAt_of_in (dats3 V1 O1 W1 c) 35 rfl]
  simp only [Memref.view_whole, View.set_whole]
  rfl
theorem arr3z_36 (c : Dev nD) :
    ((cfg3.win 36).arr.view.loc (c : Thread nD τ) ↦[(cfg3.win 36).arr.view.set]{(dats3 V1 O1 W1 c).share 36} ((dats3 V1 O1 W1 c).arrAt 36 cfg3.N) : sProp 𝕄)
      = (((c : Dev nD), Proc.devRef .tc main_v30) : Loc nD τ sig) ↦{shareTokN fullShare 24} V1 (Proc.devRef .tc main_v30) := by
  rw [arrAt_of_in (dats3 V1 O1 W1 c) 36 rfl]
  simp only [Memref.view_whole, View.set_whole]
  rfl
theorem arr3z_37 (c : Dev nD) :
    ((cfg3.win 37).arr.view.loc (c : Thread nD τ) ↦[(cfg3.win 37).arr.view.set]{(dats3 V1 O1 W1 c).share 37} ((dats3 V1 O1 W1 c).arrAt 37 cfg3.N) : sProp 𝕄)
      = (((c : Dev nD), Proc.devRef .tc main_v30) : Loc nD τ sig) ↦{shareTokN fullShare 25} V1 (Proc.devRef .tc main_v30) := by
  rw [arrAt_of_in (dats3 V1 O1 W1 c) 37 rfl]
  simp only [Memref.view_whole, View.set_whole]
  rfl
theorem arr3z_38 (c : Dev nD) :
    ((cfg3.win 38).arr.view.loc (c : Thread nD τ) ↦[(cfg3.win 38).arr.view.set]{(dats3 V1 O1 W1 c).share 38} ((dats3 V1 O1 W1 c).arrAt 38 cfg3.N) : sProp 𝕄)
      = (((c : Dev nD), Proc.devRef .tc main_v33) : Loc nD τ sig) ↦{fullShare} (dats3 V1 O1 W1 c).arrAt 38 cfg3.N := by
  simp only [Memref.view_whole, View.set_whole]
  rfl

/-- ENTRY, the arrays: the fourteen buffers behind the windows, whole at the full share, are the windows' arrays at the
    entry contents — the gathered-rows array split into one read token per window, the remainder set aside. -/
theorem arrays3_of_held (c : Dev nD) :
    (held (c : Thread nD τ) arrSet3 V1 : sProp 𝕄)
      ⊢ iprop((dats3 V1 O1 W1 c).arrays ((dats3 V1 O1 W1 c).arrAt · 0)
          ∗ ((((c : Dev nD), Proc.devRef .tc main_v30) : Loc nD τ sig) ↦{shareDrop fullShare 26} V1 (Proc.devRef .tc main_v30))) := by
  rw [held_arrSet3]
  iintro ⟨H_v31, H_v32, H_arg4, H_arg6, H_v10, H_v14, H_v11, H_v15, H_v12, H_v16, H_v13, H_v9, H_v30, H_v33⟩
  ihave Hs := (Transfers.pointsTo_toks_split (ℓ := (((c : Dev nD), Proc.devRef .tc main_v30) : Loc nD τ sig)) (S := Finset.univ) (f := V1 (Proc.devRef .tc main_v30)) fullShare 26) $$ H_v30
  icases Hs with ⟨Hrem, Htoks⟩
  ihave Ht := (Entails.of_eq (bigSep_F26 (fun i : Fin 26 => ((((c : Dev nD), Proc.devRef .tc main_v30) : Loc nD τ sig) ↦{shareTokN fullShare i.val} V1 (Proc.devRef .tc main_v30) : sProp 𝕄)))) $$ Htoks
  icases Ht with ⟨T0, T1, T2, T3, T4, T5, T6, T7, T8, T9, T10, T11, T12, T13, T14, T15, T16, T17, T18, T19, T20, T21, T22, T23, T24, T25⟩
  isplitr [Hrem]
  swap; · iexact Hrem
  unfold Pipeline.Dat.arrays
  rw [bigSep_W3]
  isplitl [H_v31]; · rw [arr3a_0]; iexact H_v31
  isplitl [H_v32]; · rw [arr3a_1]; iexact H_v32
  isplitl [H_arg4]; · rw [arr3a_2]; iexact H_arg4
  isplitl [H_arg6]; · rw [arr3a_3]; iexact H_arg6
  isplitl [H_v10]; · rw [arr3a_4]; iexact H_v10
  isplitl [H_v14]; · rw [arr3a_5]; iexact H_v14
  isplitl [H_v11]; · rw [arr3a_6]; iexact H_v11
  isplitl [H_v15]; · rw [arr3a_7]; iexact H_v15
  isplitl [H_v12]; · rw [arr3a_8]; iexact H_v12
  isplitl [H_v16]; · rw [arr3a_9]; iexact H_v16
  isplitl [H_v13]; · rw [arr3a_10]; iexact H_v13
  isplitl [H_v9]; · rw [arr3a_11]; iexact H_v9
  isplitl [T0]; · rw [arr3a_12]; iexact T0
  isplitl [T1]; · rw [arr3a_13]; iexact T1
  isplitl [T2]; · rw [arr3a_14]; iexact T2
  isplitl [T3]; · rw [arr3a_15]; iexact T3
  isplitl [T4]; · rw [arr3a_16]; iexact T4
  isplitl [T5]; · rw [arr3a_17]; iexact T5
  isplitl [T6]; · rw [arr3a_18]; iexact T6
  isplitl [T7]; · rw [arr3a_19]; iexact T7
  isplitl [T8]; · rw [arr3a_20]; iexact T8
  isplitl [T9]; · rw [arr3a_21]; iexact T9
  isplitl [T10]; · rw [arr3a_22]; iexact T10
  isplitl [T11]; · rw [arr3a_23]; iexact T11
  isplitl [T12]; · rw [arr3a_24]; iexact T12
  isplitl [T13]; · rw [arr3a_25]; iexact T13
  isplitl [T14]; · rw [arr3a_26]; iexact T14
  isplitl [T15]; · rw [arr3a_27]; iexact T15
  isplitl [T16]; · rw [arr3a_28]; iexact T16
  isplitl [T17]; · rw [arr3a_29]; iexact T17
  isplitl [T18]; · rw [arr3a_30]; iexact T18
  isplitl [T19]; · rw [arr3a_31]; iexact T19
  isplitl [T20]; · rw [arr3a_32]; iexact T20
  isplitl [T21]; · rw [arr3a_33]; iexact T21
  isplitl [T22]; · rw [arr3a_34]; iexact T22
  isplitl [T23]; · rw [arr3a_35]; iexact T23
  isplitl [T24]; · rw [arr3a_36]; iexact T24
  isplitl [T25]; · rw [arr3a_37]; iexact T25
  rw [arr3a_38]; iexact H_v33

/-- EXIT, the arrays: the windows' arrays at their final contents — the inputs as they were, the output at what the
    write-backs left — with the remainder of the gathered-rows array, are the fourteen buffers whole again. -/
theorem held_of_arrays3 (c : Dev nD) :
    iprop((dats3 V1 O1 W1 c).arrays ((dats3 V1 O1 W1 c).arrAt · cfg3.N)
        ∗ ((((c : Dev nD), Proc.devRef .tc main_v30) : Loc nD τ sig) ↦{shareDrop fullShare 26} V1 (Proc.devRef .tc main_v30)))
      ⊢ (held (c : Thread nD τ) arrSet3 (Function.update V1 (Proc.devRef .tc main_v33) ((dats3 V1 O1 W1 c).arrAt 38 cfg3.N)) : sProp 𝕄) := by
  rw [held_arrSet3]
  rw [Function.update_of_ne (show Proc.devRef .tc main_v31 ≠ Proc.devRef .tc main_v33 by decide), Function.update_of_ne (show Proc.devRef .tc main_v32 ≠ Proc.devRef .tc main_v33 by decide), Function.update_of_ne (show Proc.devRef .tc main_arg4 ≠ Proc.devRef .tc main_v33 by decide), Function.update_of_ne (show Proc.devRef .tc main_arg6 ≠ Proc.devRef .tc main_v33 by decide), Function.update_of_ne (show Proc.devRef .tc main_v10 ≠ Proc.devRef .tc main_v33 by decide), Function.update_of_ne (show Proc.devRef .tc main_v14 ≠ Proc.devRef .tc main_v33 by decide), Function.update_of_ne (show Proc.devRef .tc main_v11 ≠ Proc.devRef .tc main_v33 by decide), Function.update_of_ne (show Proc.devRef .tc main_v15 ≠ Proc.devRef .tc main_v33 by decide), Function.update_of_ne (show Proc.devRef .tc main_v12 ≠ Proc.devRef .tc main_v33 by decide), Function.update_of_ne (show Proc.devRef .tc main_v16 ≠ Proc.devRef .tc main_v33 by decide), Function.update_of_ne (show Proc.devRef .tc main_v13 ≠ Proc.devRef .tc main_v33 by decide), Function.update_of_ne (show Proc.devRef .tc main_v9 ≠ Proc.devRef .tc main_v33 by decide), Function.update_of_ne (show Proc.devRef .tc main_v30 ≠ Proc.devRef .tc main_v33 by decide), Function.update_self]
  unfold Pipeline.Dat.arrays
  rw [bigSep_W3]
  iintro ⟨⟨A0, A1, A2, A3, A4, A5, A6, A7, A8, A9, A10, A11, A12, A13, A14, A15, A16, A17, A18, A19, A20, A21, A22, A23, A24, A25, A26, A27, A28, A29, A30, A31, A32, A33, A34, A35, A36, A37, A38⟩, Hrem⟩
  ihave H_v31 := (Entails.of_eq (arr3z_0 V1 O1 W1 c)) $$ A0
  ihave H_v32 := (Entails.of_eq (arr3z_1 V1 O1 W1 c)) $$ A1
  ihave H_arg4 := (Entails.of_eq (arr3z_2 V1 O1 W1 c)) $$ A2
  ihave H_arg6 := (Entails.of_eq (arr3z_3 V1 O1 W1 c)) $$ A3
  ihave H_v10 := (Entails.of_eq (arr3z_4 V1 O1 W1 c)) $$ A4
  ihave H_v14 := (Entails.of_eq (arr3z_5 V1 O1 W1 c)) $$ A5
  ihave H_v11 := (Entails.of_eq (arr3z_6 V1 O1 W1 c)) $$ A6
  ihave H_v15 := (Entails.of_eq (arr3z_7 V1 O1 W1 c)) $$ A7
  ihave H_v12 := (Entails.of_eq (arr3z_8 V1 O1 W1 c)) $$ A8
  ihave H_v16 := (Entails.of_eq (arr3z_9 V1 O1 W1 c)) $$ A9
  ihave H_v13 := (Entails.of_eq (arr3z_10 V1 O1 W1 c)) $$ A10
  ihave H_v9 := (Entails.of_eq (arr3z_11 V1 O1 W1 c)) $$ A11
  ihave T0 := (Entails.of_eq (arr3z_12 V1 O1 W1 c)) $$ A12
  ihave T1 := (Entails.of_eq (arr3z_13 V1 O1 W1 c)) $$ A13
  ihave T2 := (Entails.of_eq (arr3z_14 V1 O1 W1 c)) $$ A14
  ihave T3 := (Entails.of_eq (arr3z_15 V1 O1 W1 c)) $$ A15
  ihave T4 := (Entails.of_eq (arr3z_16 V1 O1 W1 c)) $$ A16
  ihave T5 := (Entails.of_eq (arr3z_17 V1 O1 W1 c)) $$ A17
  ihave T6 := (Entails.of_eq (arr3z_18 V1 O1 W1 c)) $$ A18
  ihave T7 := (Entails.of_eq (arr3z_19 V1 O1 W1 c)) $$ A19
  ihave T8 := (Entails.of_eq (arr3z_20 V1 O1 W1 c)) $$ A20
  ihave T9 := (Entails.of_eq (arr3z_21 V1 O1 W1 c)) $$ A21
  ihave T10 := (Entails.of_eq (arr3z_22 V1 O1 W1 c)) $$ A22
  ihave T11 := (Entails.of_eq (arr3z_23 V1 O1 W1 c)) $$ A23
  ihave T12 := (Entails.of_eq (arr3z_24 V1 O1 W1 c)) $$ A24
  ihave T13 := (Entails.of_eq (arr3z_25 V1 O1 W1 c)) $$ A25
  ihave T14 := (Entails.of_eq (arr3z_26 V1 O1 W1 c)) $$ A26
  ihave T15 := (Entails.of_eq (arr3z_27 V1 O1 W1 c)) $$ A27
  ihave T16 := (Entails.of_eq (arr3z_28 V1 O1 W1 c)) $$ A28
  ihave T17 := (Entails.of_eq (arr3z_29 V1 O1 W1 c)) $$ A29
  ihave T18 := (Entails.of_eq (arr3z_30 V1 O1 W1 c)) $$ A30
  ihave T19 := (Entails.of_eq (arr3z_31 V1 O1 W1 c)) $$ A31
  ihave T20 := (Entails.of_eq (arr3z_32 V1 O1 W1 c)) $$ A32
  ihave T21 := (Entails.of_eq (arr3z_33 V1 O1 W1 c)) $$ A33
  ihave T22 := (Entails.of_eq (arr3z_34 V1 O1 W1 c)) $$ A34
  ihave T23 := (Entails.of_eq (arr3z_35 V1 O1 W1 c)) $$ A35
  ihave T24 := (Entails.of_eq (arr3z_36 V1 O1 W1 c)) $$ A36
  ihave T25 := (Entails.of_eq (arr3z_37 V1 O1 W1 c)) $$ A37
  ihave H_v33 := (Entails.of_eq (arr3z_38 V1 O1 W1 c)) $$ A38
  ihave Hg := (Transfers.pointsTo_toks_join (ℓ := (((c : Dev nD), Proc.devRef .tc main_v30) : Loc nD τ sig)) (S := Finset.univ) (f := V1 (Proc.devRef .tc main_v30)) fullShare 26) $$ [Hrem T0 T1 T2 T3 T4 T5 T6 T7 T8 T9 T10 T11 T12 T13 T14 T15 T16 T17 T18 T19 T20 T21 T22 T23 T24 T25]
  · isplitl [Hrem]; · iexact Hrem
    iapply (Entails.of_eq (bigSep_F26 (fun i : Fin 26 => ((((c : Dev nD), Proc.devRef .tc main_v30) : Loc nD τ sig) ↦{shareTokN fullShare i.val} V1 (Proc.devRef .tc main_v30) : sProp 𝕄))).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    iexact T25
  isplitl [H_v31]; · iexact H_v31
  isplitl [H_v32]; · iexact H_v32
  isplitl [H_arg4]; · iexact H_arg4
  isplitl [H_arg6]; · iexact H_arg6
  isplitl [H_v10]; · iexact H_v10
  isplitl [H_v14]; · iexact H_v14
  isplitl [H_v11]; · iexact H_v11
  isplitl [H_v15]; · iexact H_v15
  isplitl [H_v12]; · iexact H_v12
  isplitl [H_v16]; · iexact H_v16
  isplitl [H_v13]; · iexact H_v13
  isplitl [H_v9]; · iexact H_v9
  isplitl [Hg]; · iexact Hg
  iexact H_v33

end Recs

end Cert.Proof.KB

end
-- ==== Proof.KB.RegionRec.lean ====
/-
  The two TensorCore pipelines as kernel regions of @main: entry, invariant and exit of each.
-/
import proofs.«205278_g66915590471714_cont_9to1_m_383_35_alg».proof.Proof.KB.RegionArrays

set_option maxRecDepth 65536
set_option maxHeartbeats 400000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Recs

variable (V0 V1 : Valuation τ sig (Elt F)) (O0 O1 : CellTallies nD τ sig (HIx 2)) (W0 W1 : Set (SemLoc sig × HIx 2))

/-- The invariant of pipeline call 0 is the scoped buffers no window stages, at both ends. -/
theorem Φ0_pd (c : Dev nD) (t) : (pdats V0 V1 O0 O1 W0 W1 0 c).Φ t = (dats1 V0 O0 W0 c).Φ t := rfl
theorem Φ0_dat (c : Dev nD) (t) : (dats1 V0 O0 W0 c).Φ t = (Pipeline.scopedRest spec1 c : sProp 𝕄) := rfl
theorem rest0_pin (c : Dev nD) :
    (Pipeline.scopedRest (Pipeline.pin (pcfgs (F := F)) adm 0).spec c : sProp 𝕄) = (Pipeline.scopedRest spec1 c : sProp 𝕄) := rfl
theorem Φ0_first (c : Dev nD) :
    (pdats V0 V1 O0 O1 W0 W1 0 c).Φ 0 = (Pipeline.scopedRest (Pipeline.pin (pcfgs (F := F)) adm 0).spec c : sProp 𝕄) :=
  (Φ0_pd V0 V1 O0 O1 W0 W1 c 0).trans ((Φ0_dat V0 O0 W0 c 0).trans (rest0_pin c).symm)
theorem Φ0_last (c : Dev nD) :
    (pdats V0 V1 O0 O1 W0 W1 0 c).Φ (Fin.last (Pipeline.pin (pcfgs (F := F)) adm 0).N)
      = (Pipeline.scopedRest (Pipeline.pin (pcfgs (F := F)) adm 0).spec c : sProp 𝕄) :=
  (Φ0_pd V0 V1 O0 O1 W0 W1 c _).trans ((Φ0_dat V0 O0 W0 c _).trans (rest0_pin c).symm)

/-- What the write-backs leave in a window's array depends on the arrays' entry contents and on what the body leaves
    only: not on the debts or the recorded pairs the proof data carries. -/
theorem arrAt1_indep (V : Valuation τ sig (Elt F)) (O O' : CellTallies nD τ sig (HIx 2)) (W W' : Set (SemLoc sig × HIx 2)) (c : Dev nD) (w : Fin cfg1.W) :
    ∀ n, (dats1 V O W c).arrAt w n = (dats1 V O' W' c).arrAt w n
  | 0 => rfl
  | n + 1 => by
    rw [Pipeline.Dat.arrAt, Pipeline.Dat.arrAt, arrAt1_indep V O O' W W' c w n]
    rfl

/-- What pipeline call 0 leaves in its result array, from the buffers it is entered with. -/
def resOf1 (V : Valuation τ sig (Elt F)) (c : Dev nD) : Buf (Elt F) ((c : Thread nD τ).loc main_v25) :=
  (dats1 V 0 ∅ c).arrAt 38 cfg1.N

/-- EXIT: the fourteen arrays, the result at its new contents, and the buffers that bypassed the pipeline are every
    unscoped buffer again. -/
theorem held_rejoin1 (V : Valuation τ sig (Elt F)) (c : Dev nD) (f) :
    iprop(held (c : Thread nD τ) arrSet1 (Function.update V (Proc.devRef .tc main_v25) f) ∗ held (c : Thread nD τ) (Pipeline.ucRefs τ sig \ arrSet1) V)
      ⊢ (held (c : Thread nD τ) (Pipeline.ucRefs τ sig) (Function.update V (Proc.devRef .tc main_v25) f) : sProp 𝕄) := by
  rw [StableHlo.held_sub_split (c : Thread nD τ) arrSet1_sub (Function.update V (Proc.devRef .tc main_v25) f), rest1_congr V c f]

/-- Pipeline call 0 as a kernel region of @main.  It is entered holding every unscoped buffer of the TensorCore at
    `V0` and the core's debts `O0` (no wait of the pipeline is above a debt: the pipeline's waits are recorded at the
    index of no call); the windows' arrays enter the pipeline, everything else bypasses it; it leaves every buffer as it
    was but the result array, at what the write-backs left. -/
def reg0 (hO : ∀ g, O0 g none = 0) : Pipeline.RegionSeg (pcfgs (F := F)) adm (pdats V0 V1 O0 O1 W0 W1) (none : HIx 2) defs₀ 𝒱₀ (LK (F := F)) (lvK (F := F)) 0 where
  win := winFacts₀1
  block_pos := block_pos1
  stage_whole := stage_whole1
  K := PEmpty
  osem k := k.elim
  ho := Pipeline.OwnSemFacts.none _
  hbody c := (body_obligation1 V0 O0 W0 c).loose
  hwaits c := Pipeline.cellsWaits_intro (Pipeline.pin (pcfgs (F := F)) adm) (pdats V0 V1 O0 O1 W0 W1) (none : HIx 2) 0 c
    (fun w s t => (K (F := F)).mayWait_none (thr := (c : Thread nD τ)) _ hO)
  pre c := iprop(held (c : Thread nD τ) (Pipeline.ucRefs τ sig) V0 ∗ Pipeline.owesWithin c O0 W0)
  post c := iprop(held (c : Thread nD τ) (Pipeline.ucRefs τ sig) (Function.update V0 (Proc.devRef .tc main_v25) ((dats1 V0 O0 W0 c).arrAt 38 cfg1.N))
    ∗ Pipeline.owesWithin c O0 (W0 ∪ cfg1.waitPairs none))
  X _ := iprop(emp)
  Y _ := iprop(emp)
  Z c := iprop(held (c : Thread nD τ) (Pipeline.ucRefs τ sig \ arrSet1) V0
    ∗ ((((c : Dev nD), Proc.devRef .tc main_v22) : Loc nD τ sig) ↦{shareDrop fullShare 26} V0 (Proc.devRef .tc main_v22)))
  hentry c := by
    rw [Pipeline.ownSems0_none, StableHlo.held_sub_split (c : Thread nD τ) arrSet1_sub V0]
    iintro ⟨⟨⟨Harr, Hrest⟩, HO⟩, -, -⟩
    ihave H := (arrays1_of_held V0 O0 W0 c) $$ Harr
    icases H with ⟨Harrs, Hrem⟩
    imodintro
    isplitl [Harrs]; · iexact Harrs
    isplitr
    · rw [prefHeld_none0]; iempintro
    isplitl [HO]
    · iapply (Pipeline.owesWithin_mono c O0 (Set.subset_union_left)); iexact HO
    isplitr; · iempintro
    isplitl [Hrest]; · iexact Hrest
    iexact Hrem
  hin c := by
    rw [Φ0_first]
    iintro ⟨-, -, H⟩; iexact H
  hout c := by
    rw [Φ0_last, Pipeline.ownSems0_none]
    iintro H
    isplitr; · iempintro
    isplitr; · iempintro
    iexact H
  hexit c := by
    iintro ⟨Harrs, HO, -, Hrest, Hrem⟩
    ihave H := (held_of_arrays1 V0 O0 W0 c) $$ [Harrs Hrem]
    · isplitl [Harrs]; · iexact Harrs
      iexact Hrem
    imodintro
    isplitr [HO]
    swap; · iexact HO
    iapply (held_rejoin1 V0 c ((dats1 V0 O0 W0 c).arrAt 38 cfg1.N))
    isplitl [H]; · iexact H
    iexact Hrest

/-- The invariant of pipeline call 1 is the scoped buffers no window stages, at both ends. -/
theorem Φ1_pd (c : Dev nD) (t) : (pdats V0 V1 O0 O1 W0 W1 1 c).Φ t = (dats3 V1 O1 W1 c).Φ t := rfl
theorem Φ1_dat (c : Dev nD) (t) : (dats3 V1 O1 W1 c).Φ t = (Pipeline.scopedRest spec3 c : sProp 𝕄) := rfl
theorem rest1_pin (c : Dev nD) :
    (Pipeline.scopedRest (Pipeline.pin (pcfgs (F := F)) adm 1).spec c : sProp 𝕄) = (Pipeline.scopedRest spec3 c : sProp 𝕄) := rfl
theorem Φ1_first (c : Dev nD) :
    (pdats V0 V1 O0 O1 W0 W1 1 c).Φ 0 = (Pipeline.scopedRest (Pipeline.pin (pcfgs (F := F)) adm 1).spec c : sProp 𝕄) :=
  (Φ1_pd V0 V1 O0 O1 W0 W1 c 0).trans ((Φ1_dat V1 O1 W1 c 0).trans (rest1_pin c).symm)
theorem Φ1_last (c : Dev nD) :
    (pdats V0 V1 O0 O1 W0 W1 1 c).Φ (Fin.last (Pipeline.pin (pcfgs (F := F)) adm 1).N)
      = (Pipeline.scopedRest (Pipeline.pin (pcfgs (F := F)) adm 1).spec c : sProp 𝕄) :=
  (Φ1_pd V0 V1 O0 O1 W0 W1 c _).trans ((Φ1_dat V1 O1 W1 c _).trans (rest1_pin c).symm)

/-- What the write-backs leave in a window's array depends on the arrays' entry contents and on what the body leaves
    only: not on the debts or the recorded pairs the proof data carries. -/
theorem arrAt3_indep (V : Valuation τ sig (Elt F)) (O O' : CellTallies nD τ sig (HIx 2)) (W W' : Set (SemLoc sig × HIx 2)) (c : Dev nD) (w : Fin cfg3.W) :
    ∀ n, (dats3 V O W c).arrAt w n = (dats3 V O' W' c).arrAt w n
  | 0 => rfl
  | n + 1 => by
    rw [Pipeline.Dat.arrAt, Pipeline.Dat.arrAt, arrAt3_indep V O O' W W' c w n]
    rfl

/-- What pipeline call 1 leaves in its result array, from the buffers it is entered with. -/
def resOf3 (V : Valuation τ sig (Elt F)) (c : Dev nD) : Buf (Elt F) ((c : Thread nD τ).loc main_v33) :=
  (dats3 V 0 ∅ c).arrAt 38 cfg3.N

/-- EXIT: the fourteen arrays, the result at its new contents, and the buffers that bypassed the pipeline are every
    unscoped buffer again. -/
theorem held_rejoin3 (V : Valuation τ sig (Elt F)) (c : Dev nD) (f) :
    iprop(held (c : Thread nD τ) arrSet3 (Function.update V (Proc.devRef .tc main_v33) f) ∗ held (c : Thread nD τ) (Pipeline.ucRefs τ sig \ arrSet3) V)
      ⊢ (held (c : Thread nD τ) (Pipeline.ucRefs τ sig) (Function.update V (Proc.devRef .tc main_v33) f) : sProp 𝕄) := by
  rw [StableHlo.held_sub_split (c : Thread nD τ) arrSet3_sub (Function.update V (Proc.devRef .tc main_v33) f), rest3_congr V c f]

/-- Pipeline call 1 as a kernel region of @main.  It is entered holding every unscoped buffer of the TensorCore at
    `V1` and the core's debts `O1` (no wait of the pipeline is above a debt: the pipeline's waits are recorded at the
    index of no call); the windows' arrays enter the pipeline, everything else bypasses it; it leaves every buffer as it
    was but the result array, at what the write-backs left. -/
def reg1 (hO : ∀ g, O1 g none = 0) : Pipeline.RegionSeg (pcfgs (F := F)) adm (pdats V0 V1 O0 O1 W0 W1) (none : HIx 2) defs₀ 𝒱₀ (LK (F := F)) (lvK (F := F)) 1 where
  win := winFacts₀3
  block_pos := block_pos3
  stage_whole := stage_whole3
  K := PEmpty
  osem k := k.elim
  ho := Pipeline.OwnSemFacts.none _
  hbody c := (body_obligation3 V1 O1 W1 c).loose
  hwaits c := Pipeline.cellsWaits_intro (Pipeline.pin (pcfgs (F := F)) adm) (pdats V0 V1 O0 O1 W0 W1) (none : HIx 2) 1 c
    (fun w s t => (K (F := F)).mayWait_none (thr := (c : Thread nD τ)) _ hO)
  pre c := iprop(held (c : Thread nD τ) (Pipeline.ucRefs τ sig) V1 ∗ Pipeline.owesWithin c O1 W1)
  post c := iprop(held (c : Thread nD τ) (Pipeline.ucRefs τ sig) (Function.update V1 (Proc.devRef .tc main_v33) ((dats3 V1 O1 W1 c).arrAt 38 cfg3.N))
    ∗ Pipeline.owesWithin c O1 (W1 ∪ cfg3.waitPairs none))
  X _ := iprop(emp)
  Y _ := iprop(emp)
  Z c := iprop(held (c : Thread nD τ) (Pipeline.ucRefs τ sig \ arrSet3) V1
    ∗ ((((c : Dev nD), Proc.devRef .tc main_v30) : Loc nD τ sig) ↦{shareDrop fullShare 26} V1 (Proc.devRef .tc main_v30)))
  hentry c := by
    rw [Pipeline.ownSems0_none, StableHlo.held_sub_split (c : Thread nD τ) arrSet3_sub V1]
    iintro ⟨⟨⟨Harr, Hrest⟩, HO⟩, -, -⟩
    ihave H := (arrays3_of_held V1 O1 W1 c) $$ Harr
    icases H with ⟨Harrs, Hrem⟩
    imodintro
    isplitl [Harrs]; · iexact Harrs
    isplitr
    · rw [prefHeld_none1]; iempintro
    isplitl [HO]
    · iapply (Pipeline.owesWithin_mono c O1 (Set.subset_union_left)); iexact HO
    isplitr; · iempintro
    isplitl [Hrest]; · iexact Hrest
    iexact Hrem
  hin c := by
    rw [Φ1_first]
    iintro ⟨-, -, H⟩; iexact H
  hout c := by
    rw [Φ1_last, Pipeline.ownSems0_none]
    iintro H
    isplitr; · iempintro
    isplitr; · iempintro
    iexact H
  hexit c := by
    iintro ⟨Harrs, HO, -, Hrest, Hrem⟩
    ihave H := (held_of_arrays3 V1 O1 W1 c) $$ [Harrs Hrem]
    · isplitl [Harrs]; · iexact Harrs
      iexact Hrem
    imodintro
    isplitr [HO]
    swap; · iexact HO
    iapply (held_rejoin3 V1 c ((dats3 V1 O1 W1 c).arrAt 38 cfg3.N))
    isplitl [H]; · iexact H
    iexact Hrest

end Recs

end Cert.Proof.KB

end
-- ==== Proof.KB.LaunchDefs.lean ====
/-
  The launch: the ghost state's launch element, what it deals @main's proof for the two pipelines, and what the claim
  reads off the TensorCore's last assertion.
-/
import proofs.«205278_g66915590471714_cont_9to1_m_383_35_alg».proof.Proof.KB.Pins
import proofs.«205278_g66915590471714_cont_9to1_m_383_35_alg».proof.Proof.Gen.Kernel.Launch
import Idealize.ShloMosaic.Lib.Pipeline.Regions
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- The two pipelines' staging cells are pairwise distinct. -/
theorem cellOf_inj' : Function.Injective (Pipeline.cellOf (nD := nD) (τ := τ) (Pipeline.pin (pcfgs (F := F)) adm)) :=
  Cert.Kernel.Gen.cellOf_inj

/-- The launch element: the handshakes' rounds at their cells and tokens, the pipelines' rounds at the staging cells and
    the loops' transfers, no counter yet. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What the launch leaves @main's proof on device `d`: each pipeline's staging cells' ghost state and duty tokens. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

/-- The sixteen argument arrays. -/
def argSet : Finset (DevRef τ sig) := {Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13, Proc.devRef .tc main_arg14, Proc.devRef .tc main_arg15}

section Ends

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- What @main leaves the claim on device `d`: the argument arrays at their launch contents. -/
def FIN (d : Dev nD) : sProp 𝕄 := held (SparseCore.T d) argSet (StableHlo.launchContents m d)

/-- The argument arrays of device `d` hold their launch contents in a final state. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)
  ∧ s'.mem.mem ((SparseCore.T d).loc main_arg12) = m ((SparseCore.T d).loc main_arg12)
  ∧ s'.mem.mem ((SparseCore.T d).loc main_arg13) = m ((SparseCore.T d).loc main_arg13)
  ∧ s'.mem.mem ((SparseCore.T d).loc main_arg14) = m ((SparseCore.T d).loc main_arg14)
  ∧ s'.mem.mem ((SparseCore.T d).loc main_arg15) = m ((SparseCore.T d).loc main_arg15)

end Ends

end Cert.Proof.KB

end
-- ==== Proof.KB.Split.lean ====
/-
  How a gather call's operands split into its workers' payloads and join back.
-/
import proofs.«205278_g66915590471714_cont_9to1_m_383_35_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 2) (Elt F) ℕ UU ℕ

section Split

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-! ## Regrouping the workers and the row blocks -/

/-- Thirty-two workers are two cores' sixteen each, worker `2 i + c` on core `c`. -/
theorem bigSep_workers (Φ : ℕ → sProp 𝕄) :
    (bigSep Finset.univ fun w : Fin 32 => Φ w.val)
      = bigSep Finset.univ fun c : Fin 2 => bigSep Finset.univ fun i : Fin 16 => Φ (2 * i.val + c.val) :=
  calc (bigSep Finset.univ fun w : Fin 32 => Φ w.val)
      = bigSep Finset.univ fun p : Fin 16 × Fin 2 => Φ (p.2.val + 2 * p.1.val) :=
        bigSep_univ_equiv (finProdFinEquiv : Fin 16 × Fin 2 ≃ Fin (16 * 2)) (fun w => Φ w.val)
    _ = bigSep Finset.univ fun i : Fin 16 => bigSep Finset.univ fun c : Fin 2 => Φ (c.val + 2 * i.val) :=
        bigSep_univ_prod (fun p : Fin 16 × Fin 2 => Φ (p.2.val + 2 * p.1.val))
    _ = bigSep Finset.univ fun c : Fin 2 => bigSep Finset.univ fun i : Fin 16 => Φ (c.val + 2 * i.val) :=
        bigSep_univ_comm (fun (i : Fin 16) (c : Fin 2) => Φ (c.val + 2 * i.val))
    _ = _ := bigSep_congr fun c _ => bigSep_congr fun i _ => congrArg Φ (Nat.add_comm _ _)

/-- The 416 row blocks are thirty-two workers' thirteen each, block `13 w + k` with worker `w`. -/
theorem bigSep_blocks (G : ℕ → sProp 𝕄) :
    (bigSep Finset.univ fun t : Fin 416 => G t.val)
      = bigSep Finset.univ fun w : Fin 32 => bigSep Finset.univ fun k : Fin 13 => G (13 * w.val + k.val) :=
  calc (bigSep Finset.univ fun t : Fin 416 => G t.val)
      = bigSep Finset.univ fun p : Fin 32 × Fin 13 => G (p.2.val + 13 * p.1.val) :=
        bigSep_univ_equiv (finProdFinEquiv : Fin 32 × Fin 13 ≃ Fin (32 * 13)) (fun t => G t.val)
    _ = bigSep Finset.univ fun w : Fin 32 => bigSep Finset.univ fun k : Fin 13 => G (k.val + 13 * w.val) :=
        bigSep_univ_prod (fun p : Fin 32 × Fin 13 => G (p.2.val + 13 * p.1.val))
    _ = _ := bigSep_congr fun w _ => bigSep_congr fun k _ => congrArg G (Nat.add_comm _ _)

/-- What the two cores' sixteen workers hold — a share `A`, a share `B` and thirteen blocks `G` each — is the
    thirty-two shares `A`, the thirty-two shares `B` and the 416 blocks `G`. -/
theorem bigSep_cores (A B G : ℕ → sProp 𝕄) :
    (bigSep Finset.univ fun c : Fin 2 => bigSep Finset.univ fun i : Fin 16 =>
        iprop(A (2 * i.val + c.val) ∗ B (2 * i.val + c.val) ∗ bigSep Finset.univ fun k : Fin 13 => G (13 * (2 * i.val + c.val) + k.val)))
      = iprop((bigSep Finset.univ fun w : Fin 32 => A w.val) ∗ (bigSep Finset.univ fun w : Fin 32 => B w.val)
          ∗ bigSep Finset.univ fun t : Fin 416 => G t.val) := by
  rw [bigSep_blocks G, bigSep_workers A, bigSep_workers B,
    bigSep_workers (fun w => bigSep Finset.univ fun k : Fin 13 => G (13 * w + k.val))]
  simp only [bigSep_sep']

/-! ## The output arrays' row blocks -/

/-- A block's number names its block's elements. -/
theorem oSetN_val (t : Fin 416) : oSetN t.val = (oblk t).set := dif_pos t.isLt

theorem oset_disjoint : ∀ t ∈ (Finset.univ : Finset (Fin 416)), ∀ t' ∈ (Finset.univ : Finset (Fin 416)), t ≠ t' → Disjoint (oSetN t.val) (oSetN t'.val) :=
  fun t _ t' _ h => by rw [oSetN_val, oSetN_val]; exact Rect.part_disjoint odiv h

theorem oset_cover : (Finset.univ : Finset (Fin 416)).biUnion (fun t => oSetN t.val) = Finset.univ :=
  (Finset.biUnion_congr rfl fun t _ => oSetN_val t).trans (Rect.biUnion_part odiv)

/-- Call 0's output array, whole, is its 416 row blocks; -/
theorem out0_rows (d : Dev nD) (f : Buf (Elt F) (out0Loc d)) :
    (out0Loc d ↦{fullShare} f : sProp 𝕄) = bigSep Finset.univ fun t : Fin 416 => out0Loc d ↦[oSetN t.val]{fullShare} f := by
  rw [← pointsTo_biUnion Finset.univ (ℓ := out0Loc d) (fun t : Fin 416 => oSetN t.val) oset_disjoint, oset_cover]; try rfl

/-- and its row blocks, each at some contents, join into the array at some contents. -/
theorem out0_join (d : Dev nD) (f₀ : Buf (Elt F) (out0Loc d)) :
    (bigSep Finset.univ fun t : Fin 416 => iprop(∃ f, out0Loc d ↦[oSetN t.val]{fullShare} f)) ⊢ (iprop(∃ f, out0Loc d ↦{fullShare} f) : sProp 𝕄) := by
  haveI : Nonempty (Buf (Elt F) (out0Loc d)) := ⟨f₀⟩
  refine (bigSep_exists_pi Finset.univ (fun (t : Fin 416) (f : Buf (Elt F) (out0Loc d)) => out0Loc d ↦[oSetN t.val]{fullShare} f)).trans ?_
  iintro ⟨%fs, H⟩
  ihave H' := (pointsTo_biUnion_join (ℓ := out0Loc d) (q := fullShare) (Val := Elt F) Finset.univ (fun t : Fin 416 => oSetN t.val) fs (fs 0) oset_disjoint) $$ H
  icases H' with ⟨%g, -, Hg⟩
  rw [oset_cover]
  iexists g; iexact Hg

/-- Call 0 hands each SparseCore its sixteen workers' payloads and each worker its own: nothing to do. -/
theorem vecSplit0 : (K (F := F)).VecSplit' (P m tab ix0 ix1) 0 := by
  intro d c
  show (bigSep Finset.univ fun i : Fin 16 => tileIn0 m tab ix0 d (2 * i.val + c.val))
    ⊢ |={Set.univ}=> iprop((bigSep Finset.univ fun i : Fin 16 => tileIn0 m tab ix0 d (2 * i.val + c.val))
        ∗ ((bigSep Finset.univ fun i : Fin 16 => tileOut0 tab ix0 d (2 * i.val + c.val))
            -∗ bigSep Finset.univ fun i : Fin 16 => tileOut0 tab ix0 d (2 * i.val + c.val)))
  iintro H; imodintro
  isplitl [H]; · iexact H
  iintro H; iexact H

/-- The TensorCore's side of call 0: the table and the call's index array, whole at the full share, give every worker
    its read share (the remainders stay behind the wand), and the call's output array is its 416 row blocks, thirteen
    per worker; what the workers hand back joins into the three arrays again, the output at contents not named. -/
theorem call0_split (d : Dev nD) :
    iprop((tabLoc d ↦{fullShare} tab d) ∗ (idx0Loc d ↦{fullShare} ix0 d) ∗ (out0Loc d ↦{fullShare} m (out0Loc d)))
      ⊢ iprop((bigSep Finset.univ fun c : Fin ((K (F := F)).nCore 0) => (P m tab ix0 ix1).st 0 d c)
          ∗ ((bigSep Finset.univ fun c : Fin ((K (F := F)).nCore 0) => (P m tab ix0 ix1).dn 0 d c)
              -∗ iprop((tabLoc d ↦{fullShare} tab d) ∗ (idx0Loc d ↦{fullShare} ix0 d) ∗ ∃ f, out0Loc d ↦{fullShare} f))) := by
  show iprop((tabLoc d ↦{fullShare} tab d) ∗ (idx0Loc d ↦{fullShare} ix0 d) ∗ (out0Loc d ↦{fullShare} m (out0Loc d)))
    ⊢ iprop((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => out0Loc d ↦[oSetN (13 * (2 * i.val + c.val) + k.val)]{fullShare} m (out0Loc d)))
        ∗ ((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => iprop(∃ f, out0Loc d ↦[oSetN (13 * (2 * i.val + c.val) + k.val)]{fullShare} f)))
          -∗ iprop((tabLoc d ↦{fullShare} tab d) ∗ (idx0Loc d ↦{fullShare} ix0 d) ∗ ∃ f, out0Loc d ↦{fullShare} f)))
  rw [bigSep_cores (fun n => tabLoc d ↦{tq n} tab d) (fun n => idx0Loc d ↦{tq n} ix0 d) (fun n => out0Loc d ↦[oSetN n]{fullShare} m (out0Loc d)),
    bigSep_cores (fun n => tabLoc d ↦{tq n} tab d) (fun n => idx0Loc d ↦{tq n} ix0 d) (fun n => iprop(∃ f, out0Loc d ↦[oSetN n]{fullShare} f)),
    out0_rows (F := F) d (m (out0Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx0Loc d) (S := Finset.univ) (f := ix0 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx0Loc d) (S := Finset.univ) (f := ix0 d) fullShare 32)
    isplitl [Hid]; · iexact Hid
    iexact His
  iapply (out0_join d (m (out0Loc d))); iexact Ho

/-- Call 1's output array, whole, is its 416 row blocks; -/
theorem out1_rows (d : Dev nD) (f : Buf (Elt F) (out1Loc d)) :
    (out1Loc d ↦{fullShare} f : sProp 𝕄) = bigSep Finset.univ fun t : Fin 416 => out1Loc d ↦[oSetN t.val]{fullShare} f := by
  rw [← pointsTo_biUnion Finset.univ (ℓ := out1Loc d) (fun t : Fin 416 => oSetN t.val) oset_disjoint, oset_cover]; try rfl

/-- and its row blocks, each at some contents, join into the array at some contents. -/
theorem out1_join (d : Dev nD) (f₀ : Buf (Elt F) (out1Loc d)) :
    (bigSep Finset.univ fun t : Fin 416 => iprop(∃ f, out1Loc d ↦[oSetN t.val]{fullShare} f)) ⊢ (iprop(∃ f, out1Loc d ↦{fullShare} f) : sProp 𝕄) := by
  haveI : Nonempty (Buf (Elt F) (out1Loc d)) := ⟨f₀⟩
  refine (bigSep_exists_pi Finset.univ (fun (t : Fin 416) (f : Buf (Elt F) (out1Loc d)) => out1Loc d ↦[oSetN t.val]{fullShare} f)).trans ?_
  iintro ⟨%fs, H⟩
  ihave H' := (pointsTo_biUnion_join (ℓ := out1Loc d) (q := fullShare) (Val := Elt F) Finset.univ (fun t : Fin 416 => oSetN t.val) fs (fs 0) oset_disjoint) $$ H
  icases H' with ⟨%g, -, Hg⟩
  rw [oset_cover]
  iexists g; iexact Hg

/-- Call 1 hands each SparseCore its sixteen workers' payloads and each worker its own: nothing to do. -/
theorem vecSplit1 : (K (F := F)).VecSplit' (P m tab ix0 ix1) 1 := by
  intro d c
  show (bigSep Finset.univ fun i : Fin 16 => tileIn1 m tab ix1 d (2 * i.val + c.val))
    ⊢ |={Set.univ}=> iprop((bigSep Finset.univ fun i : Fin 16 => tileIn1 m tab ix1 d (2 * i.val + c.val))
        ∗ ((bigSep Finset.univ fun i : Fin 16 => tileOut1 tab ix1 d (2 * i.val + c.val))
            -∗ bigSep Finset.univ fun i : Fin 16 => tileOut1 tab ix1 d (2 * i.val + c.val)))
  iintro H; imodintro
  isplitl [H]; · iexact H
  iintro H; iexact H

/-- The TensorCore's side of call 1: the table and the call's index array, whole at the full share, give every worker
    its read share (the remainders stay behind the wand), and the call's output array is its 416 row blocks, thirteen
    per worker; what the workers hand back joins into the three arrays again, the output at contents not named. -/
theorem call1_split (d : Dev nD) :
    iprop((tabLoc d ↦{fullShare} tab d) ∗ (idx1Loc d ↦{fullShare} ix1 d) ∗ (out1Loc d ↦{fullShare} m (out1Loc d)))
      ⊢ iprop((bigSep Finset.univ fun c : Fin ((K (F := F)).nCore 1) => (P m tab ix0 ix1).st 1 d c)
          ∗ ((bigSep Finset.univ fun c : Fin ((K (F := F)).nCore 1) => (P m tab ix0 ix1).dn 1 d c)
              -∗ iprop((tabLoc d ↦{fullShare} tab d) ∗ (idx1Loc d ↦{fullShare} ix1 d) ∗ ∃ f, out1Loc d ↦{fullShare} f))) := by
  show iprop((tabLoc d ↦{fullShare} tab d) ∗ (idx1Loc d ↦{fullShare} ix1 d) ∗ (out1Loc d ↦{fullShare} m (out1Loc d)))
    ⊢ iprop((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => out1Loc d ↦[oSetN (13 * (2 * i.val + c.val) + k.val)]{fullShare} m (out1Loc d)))
        ∗ ((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => iprop(∃ f, out1Loc d ↦[oSetN (13 * (2 * i.val + c.val) + k.val)]{fullShare} f)))
          -∗ iprop((tabLoc d ↦{fullShare} tab d) ∗ (idx1Loc d ↦{fullShare} ix1 d) ∗ ∃ f, out1Loc d ↦{fullShare} f)))
  rw [bigSep_cores (fun n => tabLoc d ↦{tq n} tab d) (fun n => idx1Loc d ↦{tq n} ix1 d) (fun n => out1Loc d ↦[oSetN n]{fullShare} m (out1Loc d)),
    bigSep_cores (fun n => tabLoc d ↦{tq n} tab d) (fun n => idx1Loc d ↦{tq n} ix1 d) (fun n => iprop(∃ f, out1Loc d ↦[oSetN n]{fullShare} f)),
    out1_rows (F := F) d (m (out1Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx1Loc d) (S := Finset.univ) (f := ix1 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx1Loc d) (S := Finset.univ) (f := ix1 d) fullShare 32)
    isplitl [Hid]; · iexact Hid
    iexact His
  iapply (out1_join d (m (out1Loc d))); iexact Ho

end Split

end Cert.Proof.KB

end
-- ==== Proof.KB.MainChain.lean ====
/-
  @main of the kernel program as a chain: four stretches of host operations, each followed by a SparseCore call
  or a TensorCore pipeline, in the printed order.
-/
import proofs.«205278_g66915590471714_cont_9to1_m_383_35_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held held_split held_sdiff_result wp_hlo_within)

variable {F : FTy → Type} [FloatOps F]

/-- The host operations before the first gather call: the table reshaped to 26000 rows, the flat indices long_cat + 1000 f, the summed bias, the weights narrowed, the biases as rows, the zero result, and the first half's indices transposed and cut into the workers' lists. -/
abbrev hostOps0 : List (HloOp τ sig (Elt F)) :=
  [ StableHlo.reshape main_arg3 main_v0 rfl shapeCasts_S26x1000x128_S26000x128,
    StableHlo.nullary main_v1 (iotaInDim S26 32 0),
    StableHlo.nullary main_c (constantI S_ 32 1000#32),
    StableHlo.unary main_c main_v2 (broadcastInDim S26 ![] bcast_S_S26 : (⟨S_, .i32⟩ : BufTy).Contents (Elt F) → (⟨S26, .i32⟩ : BufTy).Contents (Elt F)),
    StableHlo.binary main_v1 main_v2 main_v3 (muli : (⟨S26, .i32⟩ : BufTy).Contents (Elt F) → (⟨S26, .i32⟩ : BufTy).Contents (Elt F) → (⟨S26, .i32⟩ : BufTy).Contents (Elt F)),
    StableHlo.unary main_v3 main_v4 (broadcastInDim S1x26 ![1] bcast_S26_S1x26_1 : (⟨S26, .i32⟩ : BufTy).Contents (Elt F) → (⟨S1x26, .i32⟩ : BufTy).Contents (Elt F)),
    StableHlo.unary main_v4 main_v5 (broadcastInDim S4096x26 ![0, 1] bcast_S1x26_S4096x26_0_1 : (⟨S1x26, .i32⟩ : BufTy).Contents (Elt F) → (⟨S4096x26, .i32⟩ : BufTy).Contents (Elt F)),
    StableHlo.binary main_arg1 main_v5 main_v6 (addi : (⟨S4096x26, .i32⟩ : BufTy).Contents (Elt F) → (⟨S4096x26, .i32⟩ : BufTy).Contents (Elt F) → (⟨S4096x26, .i32⟩ : BufTy).Contents (Elt F)),
    StableHlo.binary main_arg5 main_arg7 main_v7 (addf : (⟨S1, .f32⟩ : BufTy).Contents (Elt F) → (⟨S1, .f32⟩ : BufTy).Contents (Elt F) → (⟨S1, .f32⟩ : BufTy).Contents (Elt F)),
    StableHlo.binary main_v7 main_arg15 main_v8 (addf : (⟨S1, .f32⟩ : BufTy).Contents (Elt F) → (⟨S1, .f32⟩ : BufTy).Contents (Elt F) → (⟨S1, .f32⟩ : BufTy).Contents (Elt F)),
    StableHlo.reshape main_v8 main_v9 rfl shapeCasts_S1_S1x1,
    StableHlo.unary main_arg8 main_v10 ((truncf .bf16 · bitsLt_bf16_f32) : (⟨S3484x1024, .f32⟩ : BufTy).Contents (Elt F) → (⟨S3484x1024, .bf16⟩ : BufTy).Contents (Elt F)),
    StableHlo.unary main_arg10 main_v11 ((truncf .bf16 · bitsLt_bf16_f32) : (⟨S1024x512, .f32⟩ : BufTy).Contents (Elt F) → (⟨S1024x512, .bf16⟩ : BufTy).Contents (Elt F)),
    StableHlo.unary main_arg12 main_v12 ((truncf .bf16 · bitsLt_bf16_f32) : (⟨S512x256, .f32⟩ : BufTy).Contents (Elt F) → (⟨S512x256, .bf16⟩ : BufTy).Contents (Elt F)),
    StableHlo.unary main_arg14 main_v13 ((truncf .bf16 · bitsLt_bf16_f32) : (⟨S256x1, .f32⟩ : BufTy).Contents (Elt F) → (⟨S256x1, .bf16⟩ : BufTy).Contents (Elt F)),
    StableHlo.reshape main_arg9 main_v14 rfl shapeCasts_S1024_S1x1024,
    StableHlo.reshape main_arg11 main_v15 rfl shapeCasts_S512_S1x512,
    StableHlo.reshape main_arg13 main_v16 rfl shapeCasts_S256_S1x256,
    StableHlo.nullary main_cst (constant S_ .f32 0x00000000#32),
    StableHlo.unary main_cst main_v17 (broadcastInDim S4096x1 ![] bcast_S_S4096x1 : (⟨S_, .f32⟩ : BufTy).Contents (Elt F) → (⟨S4096x1, .f32⟩ : BufTy).Contents (Elt F)),
    StableHlo.unary main_v6 main_v18 ((extractStridedSlice S2048x26 ![0, 0] · slices_S4096x26_S2048x26_0_0) : (⟨S4096x26, .i32⟩ : BufTy).Contents (Elt F) → (⟨S2048x26, .i32⟩ : BufTy).Contents (Elt F)),
    StableHlo.unary main_v18 main_v19 ((transpose S26x2048 [1, 0] · transposes_S2048x26_S26x2048_1_0) : (⟨S2048x26, .i32⟩ : BufTy).Contents (Elt F) → (⟨S26x2048, .i32⟩ : BufTy).Contents (Elt F)),
    StableHlo.reshape main_v19 main_v20 rfl shapeCasts_S26x2048_S416x1x128,
    StableHlo.reshape main_v20 main_v21 rfl shapeCasts_S416x1x128_S32x13x1x128 ]

/-- Between the first gather call and the first pipeline: the first half's rows of the two dense inputs, and the result buffer's copy. -/
abbrev hostOps1 : List (HloOp τ sig (Elt F)) :=
  [ StableHlo.unary main_arg0 main_v23 ((extractStridedSlice S2048x143 ![0, 0] · slices_S4096x143_S2048x143_0_0) : (⟨S4096x143, .f32⟩ : BufTy).Contents (Elt F) → (⟨S2048x143, .f32⟩ : BufTy).Contents (Elt F)),
    StableHlo.unary main_arg2 main_v24 ((extractStridedSlice S2048x13 ![0, 0] · slices_S4096x13_S2048x13_0_0) : (⟨S4096x13, .f32⟩ : BufTy).Contents (Elt F) → (⟨S2048x13, .f32⟩ : BufTy).Contents (Elt F)),
    StableHlo.unary main_v17 main_v25 id ]

/-- Between the first pipeline and the second gather call: the second half's indices transposed and cut into the workers' lists. -/
abbrev hostOps2 : List (HloOp τ sig (Elt F)) :=
  [ StableHlo.unary main_v6 main_v26 ((extractStridedSlice S2048x26 ![2048, 0] · slices_S4096x26_S2048x26_2048_0) : (⟨S4096x26, .i32⟩ : BufTy).Contents (Elt F) → (⟨S2048x26, .i32⟩ : BufTy).Contents (Elt F)),
    StableHlo.unary main_v26 main_v27 ((transpose S26x2048 [1, 0] · transposes_S2048x26_S26x2048_1_0) : (⟨S2048x26, .i32⟩ : BufTy).Contents (Elt F) → (⟨S26x2048, .i32⟩ : BufTy).Contents (Elt F)),
    StableHlo.reshape main_v27 main_v28 rfl shapeCasts_S26x2048_S416x1x128,
    StableHlo.reshape main_v28 main_v29 rfl shapeCasts_S416x1x128_S32x13x1x128 ]

/-- Between the second gather call and the second pipeline: the second half's rows of the two dense inputs, and the result buffer's copy. -/
abbrev hostOps3 : List (HloOp τ sig (Elt F)) :=
  [ StableHlo.unary main_arg0 main_v31 ((extractStridedSlice S2048x143 ![2048, 0] · slices_S4096x143_S2048x143_2048_0) : (⟨S4096x143, .f32⟩ : BufTy).Contents (Elt F) → (⟨S2048x143, .f32⟩ : BufTy).Contents (Elt F)),
    StableHlo.unary main_arg2 main_v32 ((extractStridedSlice S2048x13 ![2048, 0] · slices_S4096x13_S2048x13_2048_0) : (⟨S4096x13, .f32⟩ : BufTy).Contents (Elt F) → (⟨S2048x13, .f32⟩ : BufTy).Contents (Elt F)),
    StableHlo.unary main_v25 main_v33 id ]

/-- @main is the four stretches with the two gather calls and the two pipelines between them. -/
theorem main_eq (d : Dev nD) :
    main (F := F) d
      = (StableHlo.seq hostOps0 >>= fun _ => sc.run d 0 >>= fun _ =>
         StableHlo.seq hostOps1 >>= fun _ => Prog.lift (.customCall (SparseCore.inner (Pipeline.entry 0)) ()) >>= fun _ =>
         StableHlo.seq hostOps2 >>= fun _ => sc.run d 1 >>= fun _ =>
         StableHlo.seq hostOps3 >>= fun _ => Prog.lift (.customCall (SparseCore.inner (Pipeline.entry 1)) ()) >>= fun _ => pure ⟨⟩) := by
  rfl

end Cert.Proof.KB

end
-- ==== Proof.KB.TileFacts.lean ====
/-
  Facts one vector subcore's task of the gather kernel rests on (both calls): the subcore's own semaphores and
  scratch buffers by name, the output blocks as the program slices them, and the index words as the gathers read them.
-/
import proofs.«205278_g66915590471714_cont_9to1_m_383_35_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 2) (Elt F) ℕ UU ℕ

/-! ## A product over a finite set with a listed part taken out -/

/-- The product over `s` is the chain over a duplicate-free list of members of `s` and the product over the rest. -/
theorem bigSep_take_list {I : Type} [DecidableEq I] (s : Finset I) (l : List I) (hl : l.Nodup) (hs : ∀ a ∈ l, a ∈ s)
    (Φ : I → sProp 𝕄) : bigSep s Φ = iprop(bigSepL l Φ ∗ bigSep (s \ l.toFinset) Φ) := by
  rw [SparseCore.bigSep_sdiff_split' (t := l.toFinset) (fun a ha => hs a (List.mem_toFinset.mp ha)), bigSep_eq_bigSepL l hl]

/-- A product over the thirteen list numbers, one factor after the other. -/
theorem bigSep_F13 (Φ : Fin 13 → sProp 𝕄) :
    bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

/-- Unit-stride rectangles with the same offsets and sizes are the same rectangle. -/
theorem rect_unit_congr {s : Shape} {off off' size size' : Fin s.rank → Nat} (ho : off = off') (hs : size = size')
    (h : ∀ a, off a + size a ≤ s.size a) (h' : ∀ a, off' a + size' a ≤ s.size a) :
    Rect.unit (s := s) off size h = Rect.unit (s := s) off' size' h' := by
  subst ho hs; rfl

/-- Worker `2 s + c`'s block numbers stay below 416. -/
theorem blk_lt (c : Fin 2) (s : Fin 16) (k : Fin 13) : 13 * (2 * s.val + c.val) + k.val < 416 := by
  have := c.isLt; have := s.isLt; have := k.isLt; omega

/-- Block `t` of the gathered-rows array, by offsets: rows from `128 t`, all 128 columns. -/
theorem oblk_eq_unit (t : Fin 416) (off : Fin 2 → Nat) (hoff : off = ![128 * t.val, 0])
    (h : ∀ a, off a + S128x128.size a ≤ S53248x128.size a) :
    Rect.unit (s := S53248x128) off S128x128.size h = oblk t := by
  subst hoff
  refine rect_unit_congr ?_ ?_ _ _
  · funext a
    match a with
    | 0 => simp [Shape.partIx, Shape.partSize]; omega
    | 1 => simp [Shape.partIx, Shape.partSize]
  · funext a
    match a with
    | 0 => simp [Shape.partSize]
    | 1 => simp [Shape.partSize]

/-- Recording one more wait at no call's index keeps "every recorded wait is an old one or at no call's index". -/
theorem waits_insert_none {W W' : Waits sig (HIx 2)} {s : SemLoc sig}
    (h : ∀ p ∈ W', p ∈ W ∨ p.2 = none) : ∀ p ∈ insert (s, (default : HIx 2)) W', p ∈ W ∨ p.2 = none := by
  intro p hp
  rcases Finset.mem_insert.mp hp with hp | hp
  · exact .inr (hp ▸ rfl)
  · exact h p hp

/-! ## Call 0: the subcore's semaphores and scratch buffers -/

/-- The sixteen DMA semaphores the kernel of call 0 uses: the two the gathers alternate on, and one per copy. -/
def semLocs0 : List (SemLoc sig) := [.dma cc0_scratch3.sem, .dma cc0_scratch4.sem, .dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem]
theorem semLocs0_nodup : (semLocs0).Nodup := by decide
theorem semLocs0_scoped : ∀ s ∈ semLocs0, s.isScoped .scVector = true := by decide

/-- A vector subcore's own semaphores at zero: the sixteen of call 0 by name, and the others. -/
theorem ownSems0_V0 (d : Dev nD) (c : Fin τ.nSC) (i : Fin τ.nSub) :
    (ownSems0 (V d c i) : sProp 𝕄)
      = iprop((semVal ((V d c i, .dma cc0_scratch3.sem) : GSem nD τ sig) 0
          ∗ semVal ((V d c i, .dma cc0_scratch4.sem) : GSem nD τ sig) 0
          ∗ semVal ((V d c i, .dma cc0_scoped0.sem) : GSem nD τ sig) 0
          ∗ semVal ((V d c i, .dma cc0_scoped1.sem) : GSem nD τ sig) 0
          ∗ semVal ((V d c i, .dma cc0_scoped2.sem) : GSem nD τ sig) 0
          ∗ semVal ((V d c i, .dma cc0_scoped3.sem) : GSem nD τ sig) 0
          ∗ semVal ((V d c i, .dma cc0_scoped4.sem) : GSem nD τ sig) 0
          ∗ semVal ((V d c i, .dma cc0_scoped5.sem) : GSem nD τ sig) 0
          ∗ semVal ((V d c i, .dma cc0_scoped6.sem) : GSem nD τ sig) 0
          ∗ semVal ((V d c i, .dma cc0_scoped7.sem) : GSem nD τ sig) 0
          ∗ semVal ((V d c i, .dma cc0_scoped8.sem) : GSem nD τ sig) 0
          ∗ semVal ((V d c i, .dma cc0_scoped9.sem) : GSem nD τ sig) 0
          ∗ semVal ((V d c i, .dma cc0_scoped10.sem) : GSem nD τ sig) 0
          ∗ semVal ((V d c i, .dma cc0_scoped11.sem) : GSem nD τ sig) 0
          ∗ semVal ((V d c i, .dma cc0_scoped12.sem) : GSem nD τ sig) 0
          ∗ semVal ((V d c i, .dma cc0_scoped13.sem) : GSem nD τ sig) 0)
          ∗ bigSep (ownCells (V d c i) \ ((semLocs0).map (Prod.mk (V d c i))).toFinset) fun g => semVal g 0) := by
  unfold SparseCore.Cfg.ownSems0
  exact bigSep_take_list (ownCells (V d c i)) ((semLocs0).map (Prod.mk (V d c i)))
    ((semLocs0_nodup).map (Prod.mk_right_injective _))
    (fun a ha => by
      obtain ⟨s, hs, rfl⟩ := List.mem_map.mp ha
      exact mem_ownCells.mpr ⟨rfl, semLocs0_scoped s hs⟩) _

/-- The three scratch buffers of call 0: the index scratch and the two row buffers. -/
def bufRefs0 : List (Ref sig .scVector) := [cc0_scratch0, cc0_scratch1, cc0_scratch2]
theorem bufRefs0_nodup : (bufRefs0).Nodup := by decide

/-- A vector subcore's own buffers: the three of call 0 by name, each at some contents, and the others. -/
theorem ownBufs_V0 (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ ((bufRefs0).map (Proc.scVector c i).devRef).toFinset)
              fun b => iprop(∃ f, ((d, b) : Loc nD τ sig) ↦{fullShare} f)) := by
  unfold SparseCore.Cfg.ownBufs
  exact bigSep_take_list (ownRefs (τ := τ) (.scVector c i)) ((bufRefs0).map (Proc.scVector c i).devRef)
    ((bufRefs0_nodup).map (Proc.devRef_injective _))
    (fun a ha => by
      obtain ⟨b, hb, rfl⟩ := List.mem_map.mp ha
      simp only [bufRefs0, List.mem_cons, List.not_mem_nil, or_false] at hb
      rcases hb with rfl | rfl | rfl <;> exact SparseCore.Cfg.mem_ownRefs_of_owner (p := Proc.scVector c i) rfl) _

/-! ## Call 0: the output blocks as the program slices them -/

/-- The offsets of block `k` of worker `2 (L 1) + (L 0)`: rows from `128 (13 w + k)`. -/
theorem k0_off2_closed : ∀ (L : grid0.Coords) (k : Fin 13),
    k0_off2 L (BitVec.ofNat 32 k.val) = ![128 * (13 * (2 * (L 1).val + (L 0).val) + k.val), 0] := by decide +kernel

/-- The slice of the output the program copies list `k`'s rows to holds exactly block `13 w + k`'s elements. -/
theorem set_oBlk0 (L : grid0.Coords) (k : Fin 13) (v : BitVec 32) (hv : v = BitVec.ofNat 32 k.val)
    (h : ∀ a, k0_off2 L v a + S128x128.size a ≤ S53248x128.size a) :
    ((Memref.whole main_v22_scv).slice (Rect.unit (s := S53248x128) (k0_off2 L v) S128x128.size h) (fun _ => rfl)).view.set
      = oSetN (13 * (2 * (L 1).val + (L 0).val) + k.val) := by
  subst hv
  have ht : 13 * (2 * (L 1).val + (L 0).val) + k.val < 416 := blk_lt (L 0) (L 1) k
  rw [oSetN, dif_pos ht, ← oblk_eq_unit ⟨_, ht⟩ _ (k0_off2_closed L k) h]
  show ((View.whole (main_v22_scv : Ref sig .scVector)).slice _).set = _
  rw [View.set_slice_whole]

/-- Held by the subcore as the program's slice, or by the TensorCore's name for the array as block `13 w + k`: the same. -/
theorem pts_oBlk0 (d : Dev nD) (c : Fin τ.nSC) (i : Fin τ.nSub) (L : grid0.Coords) (k : Fin 13) (v : BitVec 32)
    (hv : v = BitVec.ofNat 32 k.val) (h : ∀ a, k0_off2 L v a + S128x128.size a ≤ S53248x128.size a)
    (f : Buf (Elt F) (out0Loc d)) :
    (((Memref.whole main_v22_scv).slice (Rect.unit (s := S53248x128) (k0_off2 L v) S128x128.size h) (fun _ => rfl)).view.loc (V d c i)
        ↦[((Memref.whole main_v22_scv).slice (Rect.unit (s := S53248x128) (k0_off2 L v) S128x128.size h) (fun _ => rfl)).view.set]{fullShare} f : sProp 𝕄)
      = out0Loc d ↦[oSetN (13 * (2 * (L 1).val + (L 0).val) + k.val)]{fullShare} f := by
  rw [set_oBlk0 L k v hv h]

/-! ## Call 0: the arrays as the subcore's program names them -/

/-- The table as a vector subcore names it is the TensorCore's array. -/
theorem pts_tab0 (d : Dev nD) (c : Fin τ.nSC) (i : Fin τ.nSub) (q : PosShare TreeShare) (f : Buf (Elt F) (tabLoc d)) :
    ((Memref.whole main_v0_scv).view.loc (V d c i) ↦{q} f : sProp 𝕄) = tabLoc d ↦{q} f := rfl
/-- So is the call's index array. -/
theorem pts_idx0 (d : Dev nD) (c : Fin τ.nSC) (i : Fin τ.nSub) (q : PosShare TreeShare) (f : Buf (Elt F) (idx0Loc d)) :
    ((Memref.whole main_v21_scv).view.loc (V d c i) ↦{q} f : sProp 𝕄) = idx0Loc d ↦{q} f := rfl
/-- The subcore's scratch buffers, as the program names them. -/
theorem pts_sI0 (d : Dev nD) (c : Fin τ.nSC) (i : Fin τ.nSub) (f : Buf (Elt F) ((V d c i).loc cc0_scratch0)) :
    ((Memref.whole cc0_scratch0).view.loc (V d c i) ↦{fullShare} f : sProp 𝕄) = (V d c i).loc cc0_scratch0 ↦{fullShare} f := rfl
theorem pts_sA0 (d : Dev nD) (c : Fin τ.nSC) (i : Fin τ.nSub) (f : Buf (Elt F) ((V d c i).loc cc0_scratch1)) :
    ((Memref.whole cc0_scratch1).view.loc (V d c i) ↦{fullShare} f : sProp 𝕄) = (V d c i).loc cc0_scratch1 ↦{fullShare} f := rfl
theorem pts_sB0 (d : Dev nD) (c : Fin τ.nSC) (i : Fin τ.nSub) (f : Buf (Elt F) ((V d c i).loc cc0_scratch2)) :
    ((Memref.whole cc0_scratch2).view.loc (V d c i) ↦{fullShare} f : sProp 𝕄) = (V d c i).loc cc0_scratch2 ↦{fullShare} f := rfl

/-! ## Call 0: the index words as the gathers read them -/

/-- The worker's slice of the call's index array, as the program addresses it for the fetch. -/
abbrev iSliceK0 (L : grid0.Coords) : Memref sig .scVector .hbm S13x1x128 .i32 :=
  ((Memref.whole main_v21_scv).slice (Rect.unit (s := S32x13x1x128) (k0_off1 L) S1x13x1x128.size (k0_off1_inb L)) (fun _ => rfl)).squeeze
    S13x1x128 squeezes_S1x13x1x128_S13x1x128

/-- Every word of any one-row list window of the index scratch, once the fetch has filled the scratch with the
    worker's slice of the index array, is a word of the index array: it names a table row. For every window and every
    earlier contents of the scratch. -/
theorem idx_inb0 (ix0 : (d : Dev nD) → Buf (Elt F) (idx0Loc d))
    (hidx : ∀ (d : Dev nD) (j : S32x13x1x128.Idx), (ix0 d j).toNat < 26000)
    (d : Dev nD) (c : Fin τ.nSC) (i : Fin τ.nSub) (L : grid0.Coords)
    (g : Buf (Elt F) ((Memref.whole cc0_scratch0).view.loc (V d c i)))
    (pay : S13x1x128.Idx → Elt F .i32) (hpay : pay = ReadAs.same.apply (View.read (Elt F) (iSliceK0 L).view (ix0 d)))
    (row : Fin 3 → Nat) (hk : ∀ a, row a + S1x1x128.size a ≤ S13x1x128.size a)
    (hs : ∀ a, (Rect.unit (s := S13x1x128) row S1x1x128.size hk).stride a = 1) (hq : S1x1x128.Squeezes S128) :
    ∀ x, (View.read (Elt F) (((Memref.whole cc0_scratch0).slice (Rect.unit (s := S13x1x128) row S1x1x128.size hk) hs).squeeze S128 hq).view
        (View.write (Elt F) (Memref.whole cc0_scratch0).view g pay Finset.univ) x).toNat
      < S26000x128.size gathers_S26000x128_S128x128.axis := by
  subst hpay; intro x
  rw [View.write_whole_univ, View.read_apply, cast_eq, ReadAs.apply_same, View.read_apply, cast_eq]
  exact hidx d _

/-! ## Call 1: the subcore's semaphores and scratch buffers -/

/-- The sixteen DMA semaphores the kernel of call 1 uses: the two the gathers alternate on, and one per copy. -/
def semLocs1 : List (SemLoc sig) := [.dma cc2_scratch3.sem, .dma cc2_scratch4.sem, .dma cc2_scoped0.sem, .dma cc2_scoped1.sem, .dma cc2_scoped2.sem, .dma cc2_scoped3.sem, .dma cc2_scoped4.sem, .dma cc2_scoped5.sem, .dma cc2_scoped6.sem, .dma cc2_scoped7.sem, .dma cc2_scoped8.sem, .dma cc2_scoped9.sem, .dma cc2_scoped10.sem, .dma cc2_scoped11.sem, .dma cc2_scoped12.sem, .dma cc2_scoped13.sem]
theorem semLocs1_nodup : (semLocs1).Nodup := by decide
theorem semLocs1_scoped : ∀ s ∈ semLocs1, s.isScoped .scVector = true := by decide

/-- A vector subcore's own semaphores at zero: the sixteen of call 1 by name, and the others. -/
theorem ownSems0_V1 (d : Dev nD) (c : Fin τ.nSC) (i : Fin τ.nSub) :
    (ownSems0 (V d c i) : sProp 𝕄)
      = iprop((semVal ((V d c i, .dma cc2_scratch3.sem) : GSem nD τ sig) 0
          ∗ semVal ((V d c i, .dma cc2_scratch4.sem) : GSem nD τ sig) 0
          ∗ semVal ((V d c i, .dma cc2_scoped0.sem) : GSem nD τ sig) 0
          ∗ semVal ((V d c i, .dma cc2_scoped1.sem) : GSem nD τ sig) 0
          ∗ semVal ((V d c i, .dma cc2_scoped2.sem) : GSem nD τ sig) 0
          ∗ semVal ((V d c i, .dma cc2_scoped3.sem) : GSem nD τ sig) 0
          ∗ semVal ((V d c i, .dma cc2_scoped4.sem) : GSem nD τ sig) 0
          ∗ semVal ((V d c i, .dma cc2_scoped5.sem) : GSem nD τ sig) 0
          ∗ semVal ((V d c i, .dma cc2_scoped6.sem) : GSem nD τ sig) 0
          ∗ semVal ((V d c i, .dma cc2_scoped7.sem) : GSem nD τ sig) 0
          ∗ semVal ((V d c i, .dma cc2_scoped8.sem) : GSem nD τ sig) 0
          ∗ semVal ((V d c i, .dma cc2_scoped9.sem) : GSem nD τ sig) 0
          ∗ semVal ((V d c i, .dma cc2_scoped10.sem) : GSem nD τ sig) 0
          ∗ semVal ((V d c i, .dma cc2_scoped11.sem) : GSem nD τ sig) 0
          ∗ semVal ((V d c i, .dma cc2_scoped12.sem) : GSem nD τ sig) 0
          ∗ semVal ((V d c i, .dma cc2_scoped13.sem) : GSem nD τ sig) 0)
          ∗ bigSep (ownCells (V d c i) \ ((semLocs1).map (Prod.mk (V d c i))).toFinset) fun g => semVal g 0) := by
  unfold SparseCore.Cfg.ownSems0
  exact bigSep_take_list (ownCells (V d c i)) ((semLocs1).map (Prod.mk (V d c i)))
    ((semLocs1_nodup).map (Prod.mk_right_injective _))
    (fun a ha => by
      obtain ⟨s, hs, rfl⟩ := List.mem_map.mp ha
      exact mem_ownCells.mpr ⟨rfl, semLocs1_scoped s hs⟩) _

/-- The three scratch buffers of call 1: the index scratch and the two row buffers. -/
def bufRefs1 : List (Ref sig .scVector) := [cc2_scratch0, cc2_scratch1, cc2_scratch2]
theorem bufRefs1_nodup : (bufRefs1).Nodup := by decide

/-- A vector subcore's own buffers: the three of call 1 by name, each at some contents, and the others. -/
theorem ownBufs_V1 (d : Dev nD) (c : Fin τ.nSC) (i : Fin τ.nSub) :
    (ownBufs (V d c i) : sProp 𝕄)
      = iprop(((∃ f, (V d c i).loc cc2_scratch0 ↦{fullShare} f) ∗ (∃ f, (V d c i).loc cc2_scratch1 ↦{fullShare} f)
            ∗ (∃ f, (V d c i).loc cc2_scratch2 ↦{fullShare} f))
          ∗ bigSep (ownRefs (τ := τ) (.scVector c i) \ ((bufRefs1).map (Proc.scVector c i).devRef).toFinset)
              fun b => iprop(∃ f, ((d, b) : Loc nD τ sig) ↦{fullShare} f)) := by
  unfold SparseCore.Cfg.ownBufs
  exact bigSep_take_list (ownRefs (τ := τ) (.scVector c i)) ((bufRefs1).map (Proc.scVector c i).devRef)
    ((bufRefs1_nodup).map (Proc.devRef_injective _))
    (fun a ha => by
      obtain ⟨b, hb, rfl⟩ := List.mem_map.mp ha
      simp only [bufRefs1, List.mem_cons, List.not_mem_nil, or_false] at hb
      rcases hb with rfl | rfl | rfl <;> exact SparseCore.Cfg.mem_ownRefs_of_owner (p := Proc.scVector c i) rfl) _

/-! ## Call 1: the output blocks as the program slices them -/

/-- The offsets of block `k` of worker `2 (L 1) + (L 0)`: rows from `128 (13 w + k)`. -/
theorem k2_off2_closed : ∀ (L : grid2.Coords) (k : Fin 13),
    k2_off2 L (BitVec.ofNat 32 k.val) = ![128 * (13 * (2 * (L 1).val + (L 0).val) + k.val), 0] := by decide +kernel

/-- The slice of the output the program copies list `k`'s rows to holds exactly block `13 w + k`'s elements. -/
theorem set_oBlk1 (L : grid2.Coords) (k : Fin 13) (v : BitVec 32) (hv : v = BitVec.ofNat 32 k.val)
    (h : ∀ a, k2_off2 L v a + S128x128.size a ≤ S53248x128.size a) :
    ((Memref.whole main_v30_scv).slice (Rect.unit (s := S53248x128) (k2_off2 L v) S128x128.size h) (fun _ => rfl)).view.set
      = oSetN (13 * (2 * (L 1).val + (L 0).val) + k.val) := by
  subst hv
  have ht : 13 * (2 * (L 1).val + (L 0).val) + k.val < 416 := blk_lt (L 0) (L 1) k
  rw [oSetN, dif_pos ht, ← oblk_eq_unit ⟨_, ht⟩ _ (k2_off2_closed L k) h]
  show ((View.whole (main_v30_scv : Ref sig .scVector)).slice _).set = _
  rw [View.set_slice_whole]

/-- Held by the subcore as the program's slice, or by the TensorCore's name for the array as block `13 w + k`: the same. -/
theorem pts_oBlk1 (d : Dev nD) (c : Fin τ.nSC) (i : Fin τ.nSub) (L : grid2.Coords) (k : Fin 13) (v : BitVec 32)
    (hv : v = BitVec.ofNat 32 k.val) (h : ∀ a, k2_off2 L v a + S128x128.size a ≤ S53248x128.size a)
    (f : Buf (Elt F) (out1Loc d)) :
    (((Memref.whole main_v30_scv).slice (Rect.unit (s := S53248x128) (k2_off2 L v) S128x128.size h) (fun _ => rfl)).view.loc (V d c i)
        ↦[((Memref.whole main_v30_scv).slice (Rect.unit (s := S53248x128) (k2_off2 L v) S128x128.size h) (fun _ => rfl)).view.set]{fullShare} f : sProp 𝕄)
      = out1Loc d ↦[oSetN (13 * (2 * (L 1).val + (L 0).val) + k.val)]{fullShare} f := by
  rw [set_oBlk1 L k v hv h]

/-! ## Call 1: the arrays as the subcore's program names them -/

/-- The table as a vector subcore names it is the TensorCore's array. -/
theorem pts_tab1 (d : Dev nD) (c : Fin τ.nSC) (i : Fin τ.nSub) (q : PosShare TreeShare) (f : Buf (Elt F) (tabLoc d)) :
    ((Memref.whole main_v0_scv).view.loc (V d c i) ↦{q} f : sProp 𝕄) = tabLoc d ↦{q} f := rfl
/-- So is the call's index array. -/
theorem pts_idx1 (d : Dev nD) (c : Fin τ.nSC) (i : Fin τ.nSub) (q : PosShare TreeShare) (f : Buf (Elt F) (idx1Loc d)) :
    ((Memref.whole main_v29_scv).view.loc (V d c i) ↦{q} f : sProp 𝕄) = idx1Loc d ↦{q} f := rfl
/-- The subcore's scratch buffers, as the program names them. -/
theorem pts_sI1 (d : Dev nD) (c : Fin τ.nSC) (i : Fin τ.nSub) (f : Buf (Elt F) ((V d c i).loc cc2_scratch0)) :
    ((Memref.whole cc2_scratch0).view.loc (V d c i) ↦{fullShare} f : sProp 𝕄) = (V d c i).loc cc2_scratch0 ↦{fullShare} f := rfl
theorem pts_sA1 (d : Dev nD) (c : Fin τ.nSC) (i : Fin τ.nSub) (f : Buf (Elt F) ((V d c i).loc cc2_scratch1)) :
    ((Memref.whole cc2_scratch1).view.loc (V d c i) ↦{fullShare} f : sProp 𝕄) = (V d c i).loc cc2_scratch1 ↦{fullShare} f := rfl
theorem pts_sB1 (d : Dev nD) (c : Fin τ.nSC) (i : Fin τ.nSub) (f : Buf (Elt F) ((V d c i).loc cc2_scratch2)) :
    ((Memref.whole cc2_scratch2).view.loc (V d c i) ↦{fullShare} f : sProp 𝕄) = (V d c i).loc cc2_scratch2 ↦{fullShare} f := rfl

/-! ## Call 1: the index words as the gathers read them -/

/-- The worker's slice of the call's index array, as the program addresses it for the fetch. -/
abbrev iSliceK1 (L : grid2.Coords) : Memref sig .scVector .hbm S13x1x128 .i32 :=
  ((Memref.whole main_v29_scv).slice (Rect.unit (s := S32x13x1x128) (k2_off1 L) S1x13x1x128.size (k2_off1_inb L)) (fun _ => rfl)).squeeze
    S13x1x128 squeezes_S1x13x1x128_S13x1x128

/-- Every word of any one-row list window of the index scratch, once the fetch has filled the scratch with the
    worker's slice of the index array, is a word of the index array: it names a table row. For every window and every
    earlier contents of the scratch. -/
theorem idx_inb1 (ix1 : (d : Dev nD) → Buf (Elt F) (idx1Loc d))
    (hidx : ∀ (d : Dev nD) (j : S32x13x1x128.Idx), (ix1 d j).toNat < 26000)
    (d : Dev nD) (c : Fin τ.nSC) (i : Fin τ.nSub) (L : grid2.Coords)
    (g : Buf (Elt F) ((Memref.whole cc2_scratch0).view.loc (V d c i)))
    (pay : S13x1x128.Idx → Elt F .i32) (hpay : pay = ReadAs.same.apply (View.read (Elt F) (iSliceK1 L).view (ix1 d)))
    (row : Fin 3 → Nat) (hk : ∀ a, row a + S1x1x128.size a ≤ S13x1x128.size a)
    (hs : ∀ a, (Rect.unit (s := S13x1x128) row S1x1x128.size hk).stride a = 1) (hq : S1x1x128.Squeezes S128) :
    ∀ x, (View.read (Elt F) (((Memref.whole cc2_scratch0).slice (Rect.unit (s := S13x1x128) row S1x1x128.size hk) hs).squeeze S128 hq).view
        (View.write (Elt F) (Memref.whole cc2_scratch0).view g pay Finset.univ) x).toNat
      < S26000x128.size gathers_S26000x128_S128x128.axis := by
  subst hpay; intro x
  rw [View.write_whole_univ, View.read_apply, cast_eq, ReadAs.apply_same, View.read_apply, cast_eq]
  exact hidx d _

end Cert.Proof.KB

end
-- ==== Proof.KB.Tile.lean ====
/-
  One vector subcore's task of the gather kernel (both calls).
-/
import proofs.«205278_g66915590471714_cont_9to1_m_383_35_alg».proof.Proof.KB.TileFacts

set_option maxHeartbeats 4000000
set_option maxRecDepth 65536

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

section Tile

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))
  (d : Dev nD)

/-- Every word of call 0's index array names a row of the 26000-row table. -/
def IdxOK0 : Prop := ∀ (d : Dev nD) (j : S32x13x1x128.Idx), (ix0 d j).toNat < 26000

abbrev cV0 (L : grid0.Coords) : Fin τ.nSC := (L 0).castLE hcore0
abbrev jV0 (L : grid0.Coords) : Fin τ.nSub := (L 1).castLE hsub0

/-- The gather kernel of call 0 as worker `2 (L 1) + (L 0)`'s task: the worker's slice of the index array is fetched
    into its index scratch; thirteen times a list of 128 table rows is gathered into one of two row buffers (the next
    gather started before the current buffer is written out, on the other buffer and the other semaphore: one gather
    per semaphore at a time, and a buffer is written out only after its gather has been waited for) and the buffer is
    copied to block `13 w + k` of the output.  Every list entry names a table row (`IdxOK0`), so no gather is
    abandoned; the table and index shares come back as they were, the thirteen blocks at contents not named. -/
theorem tile_body0 (hF : (K (F := F)).Facts) (hidx : IdxOK0 ix0) (L : grid0.Coords)
    (O : CellTallies nD τ sig (HIx 2)) (W : Waits sig (HIx 2)) (hO : ∀ g, O g none = 0) :
    iprop(levAts (K (F := F)).L (K (F := F)).lev ∗ emp
        ∗ tileIn0 m tab ix0 d (2 * (L 1).val + (L 0).val)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__sc_gather_body L (Memref.whole main_v0_scv) (Memref.isWhole_whole _) (Memref.whole main_v21_scv) (Memref.isWhole_whole _)
            (Memref.whole main_v22_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(tileOut0 tab ix0 d (2 * (L 1).val + (L 0).val)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  simp only [cc0__sc_gather_body_eq_skeleton]; unfold cc0__sc_gather_body_skel
  rw [(K (F := F)).scopedBufs_V hF d (cV0 L) (jV0 L), SparseCore.Cfg.scopedSems0_V (Val := Elt F) d (cV0 L) (jV0 L),
    ownSems0_V0, ownBufs_V0]
  unfold tileIn0
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV0 L) (jV0 L)) (none : HIx 2) O from
    (K (F := F)).mayWaits_none (thr := V d (cV0 L) (jV0 L)) hO) $$ Hlv
  -- every held array under the name the program gives it
  ihave Htab' := (Entails.of_eq (pts_tab0 (F := F) d (cV0 L) (jV0 L) _ _).symm) $$ Htab
  ihave Hidx' := (Entails.of_eq (pts_idx0 (F := F) d (cV0 L) (jV0 L) _ _).symm) $$ Hidx
  ihave HsI' := (Entails.of_eq (pts_sI0 (F := F) d (cV0 L) (jV0 L) _).symm) $$ HsI
  ihave HsA' := (Entails.of_eq (pts_sA0 (F := F) d (cV0 L) (jV0 L) _).symm) $$ HsA
  ihave HsB' := (Entails.of_eq (pts_sB0 (F := F) d (cV0 L) (jV0 L) _).symm) $$ HsB
  ihave Ho0' := (Entails.of_eq (pts_oBlk0 (F := F) d (cV0 L) (jV0 L) L 0 0#32 rfl (k0_off2_inb L 0) _).symm) $$ Ho0
  ihave Ho1' := (Entails.of_eq (pts_oBlk0 (F := F) d (cV0 L) (jV0 L) L 1 1#32 rfl (k0_off2_inb L 1) _).symm) $$ Ho1
  ihave Ho2' := (Entails.of_eq (pts_oBlk0 (F := F) d (cV0 L) (jV0 L) L 2 2#32 rfl (k0_off2_inb L 2) _).symm) $$ Ho2
  ihave Ho3' := (Entails.of_eq (pts_oBlk0 (F := F) d (cV0 L) (jV0 L) L 3 3#32 rfl (k0_off2_inb L 3) _).symm) $$ Ho3
  ihave Ho4' := (Entails.of_eq (pts_oBlk0 (F := F) d (cV0 L) (jV0 L) L 4 4#32 rfl (k0_off2_inb L 4) _).symm) $$ Ho4
  ihave Ho5' := (Entails.of_eq (pts_oBlk0 (F := F) d (cV0 L) (jV0 L) L 5 5#32 rfl (k0_off2_inb L 5) _).symm) $$ Ho5
  ihave Ho6' := (Entails.of_eq (pts_oBlk0 (F := F) d (cV0 L) (jV0 L) L 6 6#32 rfl (k0_off2_inb L 6) _).symm) $$ Ho6
  ihave Ho7' := (Entails.of_eq (pts_oBlk0 (F := F) d (cV0 L) (jV0 L) L 7 7#32 rfl (k0_off2_inb L 7) _).symm) $$ Ho7
  ihave Ho8' := (Entails.of_eq (pts_oBlk0 (F := F) d (cV0 L) (jV0 L) L 8 8#32 rfl (k0_off2_inb L 8) _).symm) $$ Ho8
  ihave Ho9' := (Entails.of_eq (pts_oBlk0 (F := F) d (cV0 L) (jV0 L) L 9 9#32 rfl (k0_off2_inb L 9) _).symm) $$ Ho9
  ihave Ho10' := (Entails.of_eq (pts_oBlk0 (F := F) d (cV0 L) (jV0 L) L 10 10#32 rfl (k0_off2_inb L 10) _).symm) $$ Ho10
  ihave Ho11' := (Entails.of_eq (pts_oBlk0 (F := F) d (cV0 L) (jV0 L) L 11 11#32 rfl (k0_off2_inb L 11) _).symm) $$ Ho11
  ihave Ho12' := (Entails.of_eq (pts_oBlk0 (F := F) d (cV0 L) (jV0 L) L 12 12#32 rfl (k0_off2_inb L 12) _).symm) $$ Ho12
  -- the index fetch and its wait
  sl_exec
  -- every list the gathers read is a row of what the fetch landed: words of the index array, each naming a table row
  have hin := fun g row hk hs hq => idx_inb0 ix0 hidx d (cV0 L) (jV0 L) L g (tile_body0.sl.dma0 ix0 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOut0
    rw [bigSep_F13]
    isplitl [Htab']; · iexact Htab'
    isplitl [Hidx']; · iexact Hidx'
    isplitl [Ho0']; · iexists _; iapply (Entails.of_eq (pts_oBlk0 (F := F) d (cV0 L) (jV0 L) L 0 0#32 rfl (k0_off2_inb L 0) _)); iexact Ho0'
    isplitl [Ho1']; · iexists _; iapply (Entails.of_eq (pts_oBlk0 (F := F) d (cV0 L) (jV0 L) L 1 1#32 rfl (k0_off2_inb L 1) _)); iexact Ho1'
    isplitl [Ho2']; · iexists _; iapply (Entails.of_eq (pts_oBlk0 (F := F) d (cV0 L) (jV0 L) L 2 2#32 rfl (k0_off2_inb L 2) _)); iexact Ho2'
    isplitl [Ho3']; · iexists _; iapply (Entails.of_eq (pts_oBlk0 (F := F) d (cV0 L) (jV0 L) L 3 3#32 rfl (k0_off2_inb L 3) _)); iexact Ho3'
    isplitl [Ho4']; · iexists _; iapply (Entails.of_eq (pts_oBlk0 (F := F) d (cV0 L) (jV0 L) L 4 4#32 rfl (k0_off2_inb L 4) _)); iexact Ho4'
    isplitl [Ho5']; · iexists _; iapply (Entails.of_eq (pts_oBlk0 (F := F) d (cV0 L) (jV0 L) L 5 5#32 rfl (k0_off2_inb L 5) _)); iexact Ho5'
    isplitl [Ho6']; · iexists _; iapply (Entails.of_eq (pts_oBlk0 (F := F) d (cV0 L) (jV0 L) L 6 6#32 rfl (k0_off2_inb L 6) _)); iexact Ho6'
    isplitl [Ho7']; · iexists _; iapply (Entails.of_eq (pts_oBlk0 (F := F) d (cV0 L) (jV0 L) L 7 7#32 rfl (k0_off2_inb L 7) _)); iexact Ho7'
    isplitl [Ho8']; · iexists _; iapply (Entails.of_eq (pts_oBlk0 (F := F) d (cV0 L) (jV0 L) L 8 8#32 rfl (k0_off2_inb L 8) _)); iexact Ho8'
    isplitl [Ho9']; · iexists _; iapply (Entails.of_eq (pts_oBlk0 (F := F) d (cV0 L) (jV0 L) L 9 9#32 rfl (k0_off2_inb L 9) _)); iexact Ho9'
    isplitl [Ho10']; · iexists _; iapply (Entails.of_eq (pts_oBlk0 (F := F) d (cV0 L) (jV0 L) L 10 10#32 rfl (k0_off2_inb L 10) _)); iexact Ho10'
    isplitl [Ho11']; · iexists _; iapply (Entails.of_eq (pts_oBlk0 (F := F) d (cV0 L) (jV0 L) L 11 11#32 rfl (k0_off2_inb L 11) _)); iexact Ho11'
    iexists _; iapply (Entails.of_eq (pts_oBlk0 (F := F) d (cV0 L) (jV0 L) L 12 12#32 rfl (k0_off2_inb L 12) _)); iexact Ho12'
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

/-- Every word of call 1's index array names a row of the 26000-row table. -/
def IdxOK1 : Prop := ∀ (d : Dev nD) (j : S32x13x1x128.Idx), (ix1 d j).toNat < 26000

abbrev cV1 (L : grid2.Coords) : Fin τ.nSC := (L 0).castLE hcore2
abbrev jV1 (L : grid2.Coords) : Fin τ.nSub := (L 1).castLE hsub2

/-- The gather kernel of call 1 as worker `2 (L 1) + (L 0)`'s task: the worker's slice of the index array is fetched
    into its index scratch; thirteen times a list of 128 table rows is gathered into one of two row buffers (the next
    gather started before the current buffer is written out, on the other buffer and the other semaphore: one gather
    per semaphore at a time, and a buffer is written out only after its gather has been waited for) and the buffer is
    copied to block `13 w + k` of the output.  Every list entry names a table row (`IdxOK1`), so no gather is
    abandoned; the table and index shares come back as they were, the thirteen blocks at contents not named. -/
theorem tile_body1 (hF : (K (F := F)).Facts) (hidx : IdxOK1 ix1) (L : grid2.Coords)
    (O : CellTallies nD τ sig (HIx 2)) (W : Waits sig (HIx 2)) (hO : ∀ g, O g none = 0) :
    iprop(levAts (K (F := F)).L (K (F := F)).lev ∗ emp
        ∗ tileIn1 m tab ix1 d (2 * (L 1).val + (L 0).val)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc2__sc_gather_body L (Memref.whole main_v0_scv) (Memref.isWhole_whole _) (Memref.whole main_v29_scv) (Memref.isWhole_whole _)
            (Memref.whole main_v30_scv) (Memref.isWhole_whole _) (Memref.whole cc2_scratch0) (Memref.isWhole_whole _)
            (Memref.whole cc2_scratch1) (Memref.isWhole_whole _) (Memref.whole cc2_scratch2) (Memref.isWhole_whole _)
            cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13)
          fun _ => iprop(tileOut1 tab ix1 d (2 * (L 1).val + (L 0).val)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  simp only [cc2__sc_gather_body_eq_skeleton]; unfold cc2__sc_gather_body_skel
  rw [(K (F := F)).scopedBufs_V hF d (cV1 L) (jV1 L), SparseCore.Cfg.scopedSems0_V (Val := Elt F) d (cV1 L) (jV1 L),
    ownSems0_V1, ownBufs_V1]
  unfold tileIn1
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV1 L) (jV1 L)) (none : HIx 2) O from
    (K (F := F)).mayWaits_none (thr := V d (cV1 L) (jV1 L)) hO) $$ Hlv
  -- every held array under the name the program gives it
  ihave Htab' := (Entails.of_eq (pts_tab1 (F := F) d (cV1 L) (jV1 L) _ _).symm) $$ Htab
  ihave Hidx' := (Entails.of_eq (pts_idx1 (F := F) d (cV1 L) (jV1 L) _ _).symm) $$ Hidx
  ihave HsI' := (Entails.of_eq (pts_sI1 (F := F) d (cV1 L) (jV1 L) _).symm) $$ HsI
  ihave HsA' := (Entails.of_eq (pts_sA1 (F := F) d (cV1 L) (jV1 L) _).symm) $$ HsA
  ihave HsB' := (Entails.of_eq (pts_sB1 (F := F) d (cV1 L) (jV1 L) _).symm) $$ HsB
  ihave Ho0' := (Entails.of_eq (pts_oBlk1 (F := F) d (cV1 L) (jV1 L) L 0 0#32 rfl (k2_off2_inb L 0) _).symm) $$ Ho0
  ihave Ho1' := (Entails.of_eq (pts_oBlk1 (F := F) d (cV1 L) (jV1 L) L 1 1#32 rfl (k2_off2_inb L 1) _).symm) $$ Ho1
  ihave Ho2' := (Entails.of_eq (pts_oBlk1 (F := F) d (cV1 L) (jV1 L) L 2 2#32 rfl (k2_off2_inb L 2) _).symm) $$ Ho2
  ihave Ho3' := (Entails.of_eq (pts_oBlk1 (F := F) d (cV1 L) (jV1 L) L 3 3#32 rfl (k2_off2_inb L 3) _).symm) $$ Ho3
  ihave Ho4' := (Entails.of_eq (pts_oBlk1 (F := F) d (cV1 L) (jV1 L) L 4 4#32 rfl (k2_off2_inb L 4) _).symm) $$ Ho4
  ihave Ho5' := (Entails.of_eq (pts_oBlk1 (F := F) d (cV1 L) (jV1 L) L 5 5#32 rfl (k2_off2_inb L 5) _).symm) $$ Ho5
  ihave Ho6' := (Entails.of_eq (pts_oBlk1 (F := F) d (cV1 L) (jV1 L) L 6 6#32 rfl (k2_off2_inb L 6) _).symm) $$ Ho6
  ihave Ho7' := (Entails.of_eq (pts_oBlk1 (F := F) d (cV1 L) (jV1 L) L 7 7#32 rfl (k2_off2_inb L 7) _).symm) $$ Ho7
  ihave Ho8' := (Entails.of_eq (pts_oBlk1 (F := F) d (cV1 L) (jV1 L) L 8 8#32 rfl (k2_off2_inb L 8) _).symm) $$ Ho8
  ihave Ho9' := (Entails.of_eq (pts_oBlk1 (F := F) d (cV1 L) (jV1 L) L 9 9#32 rfl (k2_off2_inb L 9) _).symm) $$ Ho9
  ihave Ho10' := (Entails.of_eq (pts_oBlk1 (F := F) d (cV1 L) (jV1 L) L 10 10#32 rfl (k2_off2_inb L 10) _).symm) $$ Ho10
  ihave Ho11' := (Entails.of_eq (pts_oBlk1 (F := F) d (cV1 L) (jV1 L) L 11 11#32 rfl (k2_off2_inb L 11) _).symm) $$ Ho11
  ihave Ho12' := (Entails.of_eq (pts_oBlk1 (F := F) d (cV1 L) (jV1 L) L 12 12#32 rfl (k2_off2_inb L 12) _).symm) $$ Ho12
  -- the index fetch and its wait
  sl_exec
  -- every list the gathers read is a row of what the fetch landed: words of the index array, each naming a table row
  have hin := fun g row hk hs hq => idx_inb1 ix1 hidx d (cV1 L) (jV1 L) L g (tile_body1.sl.dma0 ix1 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOut1
    rw [bigSep_F13]
    isplitl [Htab']; · iexact Htab'
    isplitl [Hidx']; · iexact Hidx'
    isplitl [Ho0']; · iexists _; iapply (Entails.of_eq (pts_oBlk1 (F := F) d (cV1 L) (jV1 L) L 0 0#32 rfl (k2_off2_inb L 0) _)); iexact Ho0'
    isplitl [Ho1']; · iexists _; iapply (Entails.of_eq (pts_oBlk1 (F := F) d (cV1 L) (jV1 L) L 1 1#32 rfl (k2_off2_inb L 1) _)); iexact Ho1'
    isplitl [Ho2']; · iexists _; iapply (Entails.of_eq (pts_oBlk1 (F := F) d (cV1 L) (jV1 L) L 2 2#32 rfl (k2_off2_inb L 2) _)); iexact Ho2'
    isplitl [Ho3']; · iexists _; iapply (Entails.of_eq (pts_oBlk1 (F := F) d (cV1 L) (jV1 L) L 3 3#32 rfl (k2_off2_inb L 3) _)); iexact Ho3'
    isplitl [Ho4']; · iexists _; iapply (Entails.of_eq (pts_oBlk1 (F := F) d (cV1 L) (jV1 L) L 4 4#32 rfl (k2_off2_inb L 4) _)); iexact Ho4'
    isplitl [Ho5']; · iexists _; iapply (Entails.of_eq (pts_oBlk1 (F := F) d (cV1 L) (jV1 L) L 5 5#32 rfl (k2_off2_inb L 5) _)); iexact Ho5'
    isplitl [Ho6']; · iexists _; iapply (Entails.of_eq (pts_oBlk1 (F := F) d (cV1 L) (jV1 L) L 6 6#32 rfl (k2_off2_inb L 6) _)); iexact Ho6'
    isplitl [Ho7']; · iexists _; iapply (Entails.of_eq (pts_oBlk1 (F := F) d (cV1 L) (jV1 L) L 7 7#32 rfl (k2_off2_inb L 7) _)); iexact Ho7'
    isplitl [Ho8']; · iexists _; iapply (Entails.of_eq (pts_oBlk1 (F := F) d (cV1 L) (jV1 L) L 8 8#32 rfl (k2_off2_inb L 8) _)); iexact Ho8'
    isplitl [Ho9']; · iexists _; iapply (Entails.of_eq (pts_oBlk1 (F := F) d (cV1 L) (jV1 L) L 9 9#32 rfl (k2_off2_inb L 9) _)); iexact Ho9'
    isplitl [Ho10']; · iexists _; iapply (Entails.of_eq (pts_oBlk1 (F := F) d (cV1 L) (jV1 L) L 10 10#32 rfl (k2_off2_inb L 10) _)); iexact Ho10'
    isplitl [Ho11']; · iexists _; iapply (Entails.of_eq (pts_oBlk1 (F := F) d (cV1 L) (jV1 L) L 11 11#32 rfl (k2_off2_inb L 11) _)); iexact Ho11'
    iexists _; iapply (Entails.of_eq (pts_oBlk1 (F := F) d (cV1 L) (jV1 L) L 12 12#32 rfl (k2_off2_inb L 12) _)); iexact Ho12'
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

end Tile

end Cert.Proof.KB

end
-- ==== Proof.KB.IdxFacts.lean ====
/-
  The index arrays @main hands the gather calls, and that every entry names a row of the table.
-/
import proofs.«205278_g66915590471714_cont_9to1_m_383_35_alg».proof.Proof.KB.MainChain
import proofs.«205278_g66915590471714_cont_9to1_m_383_35_alg».proof.Proof.KB.Tile
import proofs.«205278_g66915590471714_cont_9to1_m_383_35_alg».proof.Proof.Gen.Pre_input_domain
import Idealize.ShloMosaic.Lib.ReduceAll
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

/-- The precondition, of a memory of the kernel program at any float instance: every float input finite and
    0 ≤ long_cat ≤ 999 (the printed predicate all ones on every device). -/
def PreOK (m : (ℓ : Loc nD τ sig) → Buf (Elt F) ℓ) : Prop :=
  ∀ c : Dev nD,
    (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = (fun _ => 1#1)

/-- The table as call 0 and call 1 read it: what the first host stretch leaves in the reshaped-table buffer. -/
def tabC (m : (ℓ : Loc nD τ sig) → Buf (Elt F) ℓ) (d : Dev nD) : Buf (Elt F) (tabLoc d) :=
  StableHlo.after hostOps0 (StableHlo.launchContents m d) (Proc.devRef .tc main_v0)
/-- Call 0's index array: what the first host stretch leaves in it. -/
def ix0C (m : (ℓ : Loc nD τ sig) → Buf (Elt F) ℓ) (d : Dev nD) : Buf (Elt F) (idx0Loc d) :=
  StableHlo.after hostOps0 (StableHlo.launchContents m d) (Proc.devRef .tc main_v21)
/-- Call 1's index array: what the third host stretch computes from the flat indices the first one left. -/
def ix1C (m : (ℓ : Loc nD τ sig) → Buf (Elt F) ℓ) (d : Dev nD) : Buf (Elt F) (idx1Loc d) :=
  StableHlo.after hostOps2 (StableHlo.after hostOps0 (StableHlo.launchContents m d)) (Proc.devRef .tc main_v29)

/-! ## What the precondition says of the categorical input -/

instance : Subsingleton S_.Idx := ⟨fun a b => funext fun d => d.elim0⟩

/-- The precondition's last conjunct, entry by entry: every entry of the categorical input lies in [0, 999] as a signed
    word. -/
theorem pre_arg1 (m : (ℓ : Loc nD τ sig) → Buf (Elt F) ℓ) (hpre : PreOK m) (c : Dev nD) (x : S4096x26.Idx) :
    IntOp.cmpi .sge (m ((c.tc : Thread nD τ).loc main_arg1) x) 0#32 = 1#1
      ∧ IntOp.cmpi .sle (m ((c.tc : Thread nD τ).loc main_arg1) x) 999#32 = 1#1 := by
  have h := congrFun (hpre c) ValueIdx.ix0
  have h2 : IntOp.andi _ _ = 1#1 := h
  obtain ⟨-, h79⟩ := IntOp.andi_eq_one.mp h2
  have h78 := Host.reduce_andi_all _ _ _ _ _ h79 x
  exact IntOp.andi_eq_one.mp h78

/-- A word in [0, 999] plus 1000 f, for a field f < 26, does not wrap and stays below 26000. -/
theorem word_lt (a : BitVec 32) (f : Fin 26) (h0 : IntOp.cmpi .sge a 0#32 = 1#1) (h1 : IntOp.cmpi .sle a 999#32 = 1#1) :
    (IntOp.addi a (IntOp.muli (BitVec.ofNat 32 f.val) 1000#32)).toNat < 26000 := by
  have hb : ∀ b : Bool, BitVec.ofBool b = 1#1 → b = true := by decide
  have h0' : (0#32).toInt ≤ a.toInt := by simpa [BitVec.sle] using hb _ h0
  have h1' : a.toInt ≤ (999#32).toInt := by simpa [BitVec.sle] using hb _ h1
  have e0 : (0#32).toInt = 0 := by decide
  have e1 : (999#32).toInt = 999 := by decide
  have ea := BitVec.toInt_eq_toNat_cond a
  have hf := f.isLt
  have ha : a.toNat ≤ 999 := by
    rw [e0] at h0'; rw [e1] at h1'
    split at ea <;> omega
  show (a + BitVec.ofNat 32 f.val * 1000#32).toNat < 26000
  rw [BitVec.toNat_add, BitVec.toNat_mul, BitVec.toNat_ofNat]
  have e2 : f.val % 2 ^ 32 = f.val := Nat.mod_eq_of_lt (by omega)
  have e3 : f.val * 1000 % 2 ^ 32 = f.val * 1000 := Nat.mod_eq_of_lt (by omega)
  have e4 : (a.toNat + f.val * 1000) % 2 ^ 32 = a.toNat + f.val * 1000 := Nat.mod_eq_of_lt (by omega)
  show (a.toNat + f.val % 2 ^ 32 * 1000 % 2 ^ 32) % 2 ^ 32 < 26000
  rw [e2, e3, e4]
  omega

/-! ## The flat indices and the two calls' lists -/

/-- The flat indices `long_cat + 1000 f`: what the first host stretch leaves in their buffer. -/
def flat (m : (ℓ : Loc nD τ sig) → Buf (Elt F) ℓ) (d : Dev nD) : IVec S4096x26 32 :=
  addi (StableHlo.launchContents m d (Proc.devRef .tc main_arg1))
    (broadcastInDim S4096x26 ![0, 1] bcast_S1x26_S4096x26_0_1
      (broadcastInDim S1x26 ![1] bcast_S26_S1x26_1
        (muli (iotaInDim S26 32 0) (broadcastInDim S26 ![] bcast_S_S26 (constantI S_ 32 1000#32)))))

/-- Under the precondition every flat index names a table row. -/
theorem flat_lt (m : (ℓ : Loc nD τ sig) → Buf (Elt F) ℓ) (hpre : PreOK m) (d : Dev nD) (x : S4096x26.Idx) :
    (flat m d x).toNat < 26000 := by
  obtain ⟨h0, h1⟩ := pre_arg1 m hpre d x
  show (IntOp.addi (m ((d.tc : Thread nD τ).loc main_arg1) x) (IntOp.muli (BitVec.ofNat 32 (x 1).val) 1000#32)).toNat < 26000
  exact word_lt _ ⟨(x 1).val, (x 1).isLt⟩ h0 h1

/-- Rows cut from an array, transposed and cut into lists: every entry is an entry of the array. -/
theorem lists_lt (g : IVec S4096x26 32) (hg : ∀ x, (g x).toNat < 26000) (off : Fin 2 → Nat) (hs : S4096x26.Slices off S2048x26)
    (j : S32x13x1x128.Idx) :
    ((shapeCast S32x13x1x128 (shapeCast S416x1x128 (transpose S26x2048 [1, 0] (extractStridedSlice S2048x26 off g hs)
        transposes_S2048x26_S26x2048_1_0) shapeCasts_S26x2048_S416x1x128) shapeCasts_S416x1x128_S32x13x1x128) j).toNat < 26000 :=
  hg _

/-- Call 0's index array is the first 2048 rows of the flat indices, transposed and cut into lists. -/
theorem ix0C_eq (m : (ℓ : Loc nD τ sig) → Buf (Elt F) ℓ) (d : Dev nD) :
    ix0C m d = shapeCast S32x13x1x128 (shapeCast S416x1x128 (transpose S26x2048 [1, 0]
      (extractStridedSlice S2048x26 ![0, 0] (flat m d) slices_S4096x26_S2048x26_0_0)
        transposes_S2048x26_S26x2048_1_0) shapeCasts_S26x2048_S416x1x128) shapeCasts_S416x1x128_S32x13x1x128 := by
  unfold ix0C
  dsimp only [hostOps0]
  after_results
  rfl

/-- Call 1's is the last 2048 rows, likewise. -/
theorem ix1C_eq (m : (ℓ : Loc nD τ sig) → Buf (Elt F) ℓ) (d : Dev nD) :
    ix1C m d = shapeCast S32x13x1x128 (shapeCast S416x1x128 (transpose S26x2048 [1, 0]
      (extractStridedSlice S2048x26 ![2048, 0] (flat m d) slices_S4096x26_S2048x26_2048_0)
        transposes_S2048x26_S26x2048_1_0) shapeCasts_S26x2048_S416x1x128) shapeCasts_S416x1x128_S32x13x1x128 := by
  unfold ix1C
  dsimp only [hostOps2, hostOps0]
  after_results
  rfl

/-- The third host stretch reads only the flat indices: from any contents that agree on them it leaves call 1's index
    array the same. -/
theorem ix1_congr (V V' : Valuation τ sig (Elt F)) (h : V (Proc.devRef .tc main_v6) = V' (Proc.devRef .tc main_v6)) :
    StableHlo.after hostOps2 V (Proc.devRef .tc main_v29) = StableHlo.after hostOps2 V' (Proc.devRef .tc main_v29) := by
  dsimp only [hostOps2]
  after_results
  rw [h]

/-- Under the precondition every entry of call 0's index array is long_cat + 1000 f for a field f < 26 and
    0 ≤ long_cat ≤ 999: below 26000. -/
theorem idxOK0_of_pre (m : (ℓ : Loc nD τ sig) → Buf (Elt F) ℓ) (hpre : PreOK m) : IdxOK0 (ix0C m) := by
  intro d j
  rw [ix0C_eq]
  exact lists_lt (flat m d) (flat_lt m hpre d) _ _ j

/-- The same of call 1's. -/
theorem idxOK1_of_pre (m : (ℓ : Loc nD τ sig) → Buf (Elt F) ℓ) (hpre : PreOK m) : IdxOK1 (ix1C m) := by
  intro d j
  rw [ix1C_eq]
  exact lists_lt (flat m d) (flat_lt m hpre d) _ _ j

end Cert.Proof.KB

end
-- ==== Proof.KB.Calls.lean ====
/-
  The two gather calls as steps of @main's proof.
-/
import proofs.«205278_g66915590471714_cont_9to1_m_383_35_alg».proof.Proof.KB.Split
import proofs.«205278_g66915590471714_cont_9to1_m_383_35_alg».proof.Proof.KB.IdxFacts
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held)

variable {F : FTy → Type} [FloatOps F]

local notation "𝕄" => MT nD τ sig (HIx 2) (Elt F) ℕ UU ℕ

/-- What the handshakes carry, at the contents @main computes: the table and the two index arrays as the host stretches
    leave them. -/
abbrev Pm (m : (ℓ : Loc nD τ sig) → Buf (Elt F) ℓ) : (K (F := F)).Pay (nD := nD) (Val := Elt F) (Name := ℕ) (U := UU) :=
  P m (tabC m) (ix0C m) (ix1C m)

section Calls

variable (m : (ℓ : Loc nD τ sig) → Buf (Elt F) ℓ)

/-- The three arrays gather call 0 hands over: the table, the call's index array, its output array. -/
def callBufs0 : Finset (DevRef τ sig) := {Proc.devRef .tc main_v0, Proc.devRef .tc main_v21, Proc.devRef .tc main_v22}

omit [FloatOps F] in
/-- They are unscoped buffers of the TensorCore. -/
theorem callBufs0_sub : callBufs0 ⊆ Pipeline.ucRefs τ sig := by
  intro b hb
  simp only [callBufs0, Finset.mem_insert, Finset.mem_singleton] at hb
  rcases hb with rfl | rfl | rfl <;> exact Finset.mem_filter.mpr ⟨StableHlo.devRef_mem_tcRefs _, by decide⟩

/-- Holding the three arrays at a valuation is holding each at its contents there. -/
theorem held_callBufs0 (d : Dev nD) (V : Valuation τ sig (Elt F)) :
    (held (SparseCore.T d) callBufs0 V : sProp 𝕄)
      = iprop((tabLoc d ↦{fullShare} V (Proc.devRef .tc main_v0)) ∗ (idx0Loc d ↦{fullShare} V (Proc.devRef .tc main_v21))
          ∗ (out0Loc d ↦{fullShare} V (Proc.devRef .tc main_v22))) := by
  unfold StableHlo.held callBufs0
  rw [SparseCore.bigSep_insert' (by decide), SparseCore.bigSep_insert' (by decide), bigSep_singleton]

/-- All the unscoped buffers before call 0: the three arrays at the contents the call expects, and the rest. -/
theorem held_before0 (d : Dev nD) (V : Valuation τ sig (Elt F))
    (hT : V (Proc.devRef .tc main_v0) = tabC m d) (hI : V (Proc.devRef .tc main_v21) = ix0C m d)
    (hO : V (Proc.devRef .tc main_v22) = m (out0Loc d)) :
    (held (SparseCore.T d) (Pipeline.ucRefs τ sig) V : sProp 𝕄)
      = iprop(((tabLoc d ↦{fullShare} tabC m d) ∗ (idx0Loc d ↦{fullShare} ix0C m d) ∗ (out0Loc d ↦{fullShare} m (out0Loc d)))
          ∗ held (SparseCore.T d) (Pipeline.ucRefs τ sig \ callBufs0) V) := by
  rw [StableHlo.held_sub_split (SparseCore.T d) callBufs0_sub V, held_callBufs0, hT, hI, hO]

/-- And after it: the output array at what came back, everything else as it was. -/
theorem held_after0 (d : Dev nD) (V : Valuation τ sig (Elt F))
    (hT : V (Proc.devRef .tc main_v0) = tabC m d) (hI : V (Proc.devRef .tc main_v21) = ix0C m d) (f : Buf (Elt F) (out0Loc d)) :
    (held (SparseCore.T d) (Pipeline.ucRefs τ sig) (Function.update V (Proc.devRef .tc main_v22) f) : sProp 𝕄)
      = iprop(((tabLoc d ↦{fullShare} tabC m d) ∗ (idx0Loc d ↦{fullShare} ix0C m d) ∗ (out0Loc d ↦{fullShare} f))
          ∗ held (SparseCore.T d) (Pipeline.ucRefs τ sig \ callBufs0) V) := by
  -- the output array is none of the others: they are read at the old valuation
  have hrest : (held (SparseCore.T d) (Pipeline.ucRefs τ sig \ callBufs0) (Function.update V (Proc.devRef .tc main_v22) f) : sProp 𝕄)
      = held (SparseCore.T d) (Pipeline.ucRefs τ sig \ callBufs0) V :=
    StableHlo.held_congr (SparseCore.T d) fun b hb => Function.update_of_ne
      (by intro e; subst e; exact (Finset.mem_sdiff.mp hb).2 (by simp [callBufs0])) _ _
  rw [StableHlo.held_sub_split (SparseCore.T d) callBufs0_sub, hrest, held_callBufs0,
    Function.update_of_ne (by decide), Function.update_of_ne (by decide), Function.update_self, hT, hI]

/-- The three arrays gather call 1 hands over: the table, the call's index array, its output array. -/
def callBufs1 : Finset (DevRef τ sig) := {Proc.devRef .tc main_v0, Proc.devRef .tc main_v29, Proc.devRef .tc main_v30}

omit [FloatOps F] in
/-- They are unscoped buffers of the TensorCore. -/
theorem callBufs1_sub : callBufs1 ⊆ Pipeline.ucRefs τ sig := by
  intro b hb
  simp only [callBufs1, Finset.mem_insert, Finset.mem_singleton] at hb
  rcases hb with rfl | rfl | rfl <;> exact Finset.mem_filter.mpr ⟨StableHlo.devRef_mem_tcRefs _, by decide⟩

/-- Holding the three arrays at a valuation is holding each at its contents there. -/
theorem held_callBufs1 (d : Dev nD) (V : Valuation τ sig (Elt F)) :
    (held (SparseCore.T d) callBufs1 V : sProp 𝕄)
      = iprop((tabLoc d ↦{fullShare} V (Proc.devRef .tc main_v0)) ∗ (idx1Loc d ↦{fullShare} V (Proc.devRef .tc main_v29))
          ∗ (out1Loc d ↦{fullShare} V (Proc.devRef .tc main_v30))) := by
  unfold StableHlo.held callBufs1
  rw [SparseCore.bigSep_insert' (by decide), SparseCore.bigSep_insert' (by decide), bigSep_singleton]

/-- All the unscoped buffers before call 1: the three arrays at the contents the call expects, and the rest. -/
theorem held_before1 (d : Dev nD) (V : Valuation τ sig (Elt F))
    (hT : V (Proc.devRef .tc main_v0) = tabC m d) (hI : V (Proc.devRef .tc main_v29) = ix1C m d)
    (hO : V (Proc.devRef .tc main_v30) = m (out1Loc d)) :
    (held (SparseCore.T d) (Pipeline.ucRefs τ sig) V : sProp 𝕄)
      = iprop(((tabLoc d ↦{fullShare} tabC m d) ∗ (idx1Loc d ↦{fullShare} ix1C m d) ∗ (out1Loc d ↦{fullShare} m (out1Loc d)))
          ∗ held (SparseCore.T d) (Pipeline.ucRefs τ sig \ callBufs1) V) := by
  rw [StableHlo.held_sub_split (SparseCore.T d) callBufs1_sub V, held_callBufs1, hT, hI, hO]

/-- And after it: the output array at what came back, everything else as it was. -/
theorem held_after1 (d : Dev nD) (V : Valuation τ sig (Elt F))
    (hT : V (Proc.devRef .tc main_v0) = tabC m d) (hI : V (Proc.devRef .tc main_v29) = ix1C m d) (f : Buf (Elt F) (out1Loc d)) :
    (held (SparseCore.T d) (Pipeline.ucRefs τ sig) (Function.update V (Proc.devRef .tc main_v30) f) : sProp 𝕄)
      = iprop(((tabLoc d ↦{fullShare} tabC m d) ∗ (idx1Loc d ↦{fullShare} ix1C m d) ∗ (out1Loc d ↦{fullShare} f))
          ∗ held (SparseCore.T d) (Pipeline.ucRefs τ sig \ callBufs1) V) := by
  -- the output array is none of the others: they are read at the old valuation
  have hrest : (held (SparseCore.T d) (Pipeline.ucRefs τ sig \ callBufs1) (Function.update V (Proc.devRef .tc main_v30) f) : sProp 𝕄)
      = held (SparseCore.T d) (Pipeline.ucRefs τ sig \ callBufs1) V :=
    StableHlo.held_congr (SparseCore.T d) fun b hb => Function.update_of_ne
      (by intro e; subst e; exact (Finset.mem_sdiff.mp hb).2 (by simp [callBufs1])) _ _
  rw [StableHlo.held_sub_split (SparseCore.T d) callBufs1_sub, hrest, held_callBufs1,
    Function.update_of_ne (by decide), Function.update_of_ne (by decide), Function.update_self, hT, hI]

/-- Gather call 0 from @main: the TensorCore hands the table, the call's index array and its output array to the
    SparseCores' workers and gets them back, the output at contents not named; every other buffer is untouched. -/
theorem call_step0 [∀ e, Nonempty (Elt F e)] (κ : GSem nD τ sig → ℕ) (d : Dev nD) (V : Valuation τ sig (Elt F))
    (hT : V (Proc.devRef .tc main_v0) = tabC m d) (hI : V (Proc.devRef .tc main_v21) = ix0C m d)
    (hO : V (Proc.devRef .tc main_v22) = m (out0Loc d)) (Φ : PUnit → sProp 𝕄) :
    iprop((K (F := F)).ctx EH (Pm m) κ ∗ (K (F := F)).tcSt EH d 0 ∗ held (SparseCore.T d) (Pipeline.ucRefs τ sig) V
        ∗ (∀ f, iprop((K (F := F)).tcSt EH d 1 ∗ held (SparseCore.T d) (Pipeline.ucRefs τ sig) (Function.update V (Proc.devRef .tc main_v22) f)) -∗ Φ ⟨⟩))
      ⊢ wp frame (wpE ((K (F := F)).defs (D (F := F))) 𝒱 (SparseCore.T d) none) Set.univ (sc.run d 0) Φ := by
  rw [held_before0 m d V hT hI hO]
  iintro ⟨#Hctx, Hst, ⟨⟨Ht, Hi, Ho⟩, Hrest⟩, Hk⟩
  -- the three arrays dealt to the SparseCores' workers, with the way back
  ihave Hsp := (call0_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := Pm m) κ d 0) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, %f, Ho⟩
  iapply Hk $$ %f
  isplitl [Hst]; · iexact Hst
  rw [held_after0 m d V hT hI f]
  isplitl [Ht Hi Ho]
  · isplitl [Ht]; · iexact Ht
    isplitl [Hi]; · iexact Hi
    iexact Ho
  iexact Hrest

/-- Gather call 1 from @main: the TensorCore hands the table, the call's index array and its output array to the
    SparseCores' workers and gets them back, the output at contents not named; every other buffer is untouched. -/
theorem call_step1 [∀ e, Nonempty (Elt F e)] (κ : GSem nD τ sig → ℕ) (d : Dev nD) (V : Valuation τ sig (Elt F))
    (hT : V (Proc.devRef .tc main_v0) = tabC m d) (hI : V (Proc.devRef .tc main_v29) = ix1C m d)
    (hO : V (Proc.devRef .tc main_v30) = m (out1Loc d)) (Φ : PUnit → sProp 𝕄) :
    iprop((K (F := F)).ctx EH (Pm m) κ ∗ (K (F := F)).tcSt EH d 1 ∗ held (SparseCore.T d) (Pipeline.ucRefs τ sig) V
        ∗ (∀ f, iprop((K (F := F)).tcSt EH d 2 ∗ held (SparseCore.T d) (Pipeline.ucRefs τ sig) (Function.update V (Proc.devRef .tc main_v30) f)) -∗ Φ ⟨⟩))
      ⊢ wp frame (wpE ((K (F := F)).defs (D (F := F))) 𝒱 (SparseCore.T d) none) Set.univ (sc.run d 1) Φ := by
  rw [held_before1 m d V hT hI hO]
  iintro ⟨#Hctx, Hst, ⟨⟨Ht, Hi, Ho⟩, Hrest⟩, Hk⟩
  -- the three arrays dealt to the SparseCores' workers, with the way back
  ihave Hsp := (call1_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := Pm m) κ d 1) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, %f, Ho⟩
  iapply Hk $$ %f
  isplitl [Hst]; · iexact Hst
  rw [held_after1 m d V hT hI f]
  isplitl [Ht Hi Ho]
  · isplitl [Ht]; · iexact Ht
    isplitl [Hi]; · iexact Hi
    iexact Ho
  iexact Hrest

end Calls

end Cert.Proof.KB

end
-- ==== Proof.KB.RegionSteps.lean ====
/-
  The two TensorCore pipelines as steps of @main's proof.
-/
import proofs.«205278_g66915590471714_cont_9to1_m_383_35_alg».proof.Proof.KB.RegionRec
import proofs.«205278_g66915590471714_cont_9to1_m_383_35_alg».proof.Proof.KB.LaunchDefs
import proofs.«205278_g66915590471714_cont_9to1_m_383_35_alg».proof.Proof.KB.Calls

set_option maxRecDepth 65536
set_option maxHeartbeats 2000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Steps

/-- The TensorCore owes nothing at the index of no call. -/
theorem Otc_none0 (d : Dev nD) (g : GSem nD τ sig) : (K (F := F)).Otc d 1 g none = 0 := by
  by_contra h
  have := SparseCore.Cfg.lev_of_Otc_pos (K := K (F := F)) (Nat.pos_of_ne_zero h)
  rw [SparseCore.Cfg.lev_none] at this; omega

/-- Pipeline call 0 from @main: entered through the launch's lifting of the certificate's programs, run as a kernel
    region, left with every buffer as it was but the result array, which holds what the write-backs left; the TensorCore's handshake state passes through (the
    pipeline's waits are recorded at the index of no call, level zero). -/
theorem region_step0 [∀ e, Nonempty (Elt F e)] (Pp : (K (F := F)).Pay (nD := nD) (Val := Elt F) (Name := ℕ) (U := UU)) (κ : GSem nD τ sig → ℕ) (d : Dev nD) (V : Valuation τ sig (Elt F)) (Φ : PUnit → sProp 𝕄) :
    iprop((K (F := F)).ctx EH Pp κ ∗ boundary (SparseCore.T d) ∗ (K (F := F)).tcSt EH d 1
        ∗ held (SparseCore.T d) (Pipeline.ucRefs τ sig) V
        ∗ Pipeline.cellsGhost (Pipeline.pin (pcfgs (F := F)) adm) EP 0 d ∗ Pipeline.toksInit (Pipeline.pin (pcfgs (F := F)) adm) EP 0 d
        ∗ (iprop(boundary (SparseCore.T d) ∗ (K (F := F)).tcSt EH d 1
            ∗ held (SparseCore.T d) (Pipeline.ucRefs τ sig) (Function.update V (Proc.devRef .tc main_v25) (resOf1 V d))) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  iintro ⟨#Hctx, Hb, ⟨⟨%W, %hW, HO⟩, Hat, Hrd, Hrs, Htoks⟩, Hheld, Hcg, Hti, Hk⟩
  ihave Hlev := (SparseCore.Cfg.ctx_levAts κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) adm (pdats V V ((K (F := F)).Otc d 1) ((K (F := F)).Otc d 1) (↑W) (↑W)) (none : HIx 2) cellOf_inj' EP defs₀ 𝒱₀ (LK (F := F)) (lvK (F := F))
    (reg0 V V ((K (F := F)).Otc d 1) ((K (F := F)).Otc d 1) (↑W) (↑W) (Otc_none0 d)) d none (fun u hu => by cases hu) (fun _ => .ret ⟨⟩) Φ)
  rw [show (reg0 V V ((K (F := F)).Otc d 1) ((K (F := F)).Otc d 1) (↑W) (↑W) (Otc_none0 d)).post d
      = iprop(held (SparseCore.T d) (Pipeline.ucRefs τ sig) (Function.update V (Proc.devRef .tc main_v25) ((dats1 V ((K (F := F)).Otc d 1) (↑W) d).arrAt 38 cfg1.N))
          ∗ Pipeline.owesWithin d ((K (F := F)).Otc d 1) (↑W ∪ cfg1.waitPairs none)) from rfl,
    show (reg0 V V ((K (F := F)).Otc d 1) ((K (F := F)).Otc d 1) (↑W) (↑W) (Otc_none0 d)).pre d
      = iprop(held (SparseCore.T d) (Pipeline.ucRefs τ sig) V ∗ Pipeline.owesWithin d ((K (F := F)).Otc d 1) (↑W)) from rfl]
  isplitl [Hk Hat Hrd Hrs Htoks]
  · iintro ⟨Hb, Hheld, ⟨%W', %hW', HO⟩⟩
    rw [wp_ret]; imodintro
    iapply Hk
    isplitl [Hb]; · iexact Hb
    isplitr [Hheld]
    swap
    · rw [show resOf1 V d = (dats1 V ((K (F := F)).Otc d 1) (↑W) d).arrAt 38 cfg1.N from arrAt1_indep V _ _ _ _ d 38 cfg1.N]
      iexact Hheld
    isplitl [HO]
    · iexists W'; isplitr
      · ipureintro
        intro p hp
        rcases hW' hp with h | ⟨w, s, rfl⟩
        · exact hW p h
        · exact (SparseCore.Cfg.lev_none (K := K (F := F)) _).le.trans (Nat.zero_le _)
      · iexact HO
    isplitl [Hat]; · iexact Hat
    isplitl [Hrd]; · iexact Hrd
    isplitl [Hrs]; · iexact Hrs
    iexact Htoks
  isplitl [Hb]; · iexact Hb
  isplitl [Hheld HO]
  · isplitl [Hheld]; · iexact Hheld
    iexists W; isplitr
    · ipureintro; exact subset_rfl
    · iexact HO
  isplitl [Hlev]; · iexact Hlev
  isplitl [Hcg]; · iexact Hcg
  iexact Hti

/-- The TensorCore owes nothing at the index of no call. -/
theorem Otc_none1 (d : Dev nD) (g : GSem nD τ sig) : (K (F := F)).Otc d 2 g none = 0 := by
  by_contra h
  have := SparseCore.Cfg.lev_of_Otc_pos (K := K (F := F)) (Nat.pos_of_ne_zero h)
  rw [SparseCore.Cfg.lev_none] at this; omega

/-- Pipeline call 1 from @main: entered through the launch's lifting of the certificate's programs, run as a kernel
    region, left with every buffer as it was but the result array, which holds what the write-backs left; the TensorCore's handshake state passes through (the
    pipeline's waits are recorded at the index of no call, level zero). -/
theorem region_step1 [∀ e, Nonempty (Elt F e)] (Pp : (K (F := F)).Pay (nD := nD) (Val := Elt F) (Name := ℕ) (U := UU)) (κ : GSem nD τ sig → ℕ) (d : Dev nD) (V : Valuation τ sig (Elt F)) (Φ : PUnit → sProp 𝕄) :
    iprop((K (F := F)).ctx EH Pp κ ∗ boundary (SparseCore.T d) ∗ (K (F := F)).tcSt EH d 2
        ∗ held (SparseCore.T d) (Pipeline.ucRefs τ sig) V
        ∗ Pipeline.cellsGhost (Pipeline.pin (pcfgs (F := F)) adm) EP 1 d ∗ Pipeline.toksInit (Pipeline.pin (pcfgs (F := F)) adm) EP 1 d
        ∗ (iprop(boundary (SparseCore.T d) ∗ (K (F := F)).tcSt EH d 2
            ∗ held (SparseCore.T d) (Pipeline.ucRefs τ sig) (Function.update V (Proc.devRef .tc main_v33) (resOf3 V d))) -∗ Φ ⟨⟩))
      ⊢ wp frame (wpE ((K (F := F)).defs (D (F := F))) 𝒱 (SparseCore.T d) none) Set.univ
          (Prog.lift (.customCall (SparseCore.inner (Pipeline.entry 1)) ())) Φ := by
  unfold SparseCore.Cfg.tcSt
  iintro ⟨#Hctx, Hb, ⟨⟨%W, %hW, HO⟩, Hat, Hrd, Hrs, Htoks⟩, Hheld, Hcg, Hti, Hk⟩
  ihave Hlev := (SparseCore.Cfg.ctx_levAts κ) $$ Hctx
  iapply ((K (F := F)).wp_liftProg (D (F := F)) 𝒱 (SparseCore.T d) Set.univ none (Prog.lift (.customCall (Pipeline.entry 1) ())) Φ)
  iapply (Pipeline.RegionSeg.wp (pcfgs (F := F)) adm (pdats V V ((K (F := F)).Otc d 2) ((K (F := F)).Otc d 2) (↑W) (↑W)) (none : HIx 2) cellOf_inj' EP defs₀ 𝒱₀ (LK (F := F)) (lvK (F := F))
    (reg1 V V ((K (F := F)).Otc d 2) ((K (F := F)).Otc d 2) (↑W) (↑W) (Otc_none1 d)) d none (fun u hu => by cases hu) (fun _ => .ret ⟨⟩) Φ)
  rw [show (reg1 V V ((K (F := F)).Otc d 2) ((K (F := F)).Otc d 2) (↑W) (↑W) (Otc_none1 d)).post d
      = iprop(held (SparseCore.T d) (Pipeline.ucRefs τ sig) (Function.update V (Proc.devRef .tc main_v33) ((dats3 V ((K (F := F)).Otc d 2) (↑W) d).arrAt 38 cfg3.N))
          ∗ Pipeline.owesWithin d ((K (F := F)).Otc d 2) (↑W ∪ cfg3.waitPairs none)) from rfl,
    show (reg1 V V ((K (F := F)).Otc d 2) ((K (F := F)).Otc d 2) (↑W) (↑W) (Otc_none1 d)).pre d
      = iprop(held (SparseCore.T d) (Pipeline.ucRefs τ sig) V ∗ Pipeline.owesWithin d ((K (F := F)).Otc d 2) (↑W)) from rfl]
  isplitl [Hk Hat Hrd Hrs Htoks]
  · iintro ⟨Hb, Hheld, ⟨%W', %hW', HO⟩⟩
    rw [wp_ret]; imodintro
    iapply Hk
    isplitl [Hb]; · iexact Hb
    isplitr [Hheld]
    swap
    · rw [show resOf3 V d = (dats3 V ((K (F := F)).Otc d 2) (↑W) d).arrAt 38 cfg3.N from arrAt3_indep V _ _ _ _ d 38 cfg3.N]
      iexact Hheld
    isplitl [HO]
    · iexists W'; isplitr
      · ipureintro
        intro p hp
        rcases hW' hp with h | ⟨w, s, rfl⟩
        · exact hW p h
        · exact (SparseCore.Cfg.lev_none (K := K (F := F)) _).le.trans (Nat.zero_le _)
      · iexact HO
    isplitl [Hat]; · iexact Hat
    isplitl [Hrd]; · iexact Hrd
    isplitl [Hrs]; · iexact Hrs
    iexact Htoks
  isplitl [Hb]; · iexact Hb
  isplitl [Hheld HO]
  · isplitl [Hheld]; · iexact Hheld
    iexists W; isplitr
    · ipureintro; exact subset_rfl
    · iexact HO
  isplitl [Hlev]; · iexact Hlev
  isplitl [Hcg]; · iexact Hcg
  iexact Hti

end Steps

end Cert.Proof.KB

end
-- ==== Proof.KB.HostFacts.lean ====
/-
  Side facts of @main's four host stretches: which buffers they touch, and that the others keep their contents.
-/
import proofs.«205278_g66915590471714_cont_9to1_m_383_35_alg».proof.Proof.KB.MainChain
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

/-- Stretch 0 names only unscoped buffers of the TensorCore, -/
theorem hostOps0_sub : ∀ op ∈ (hostOps0 : List (HloOp τ sig (Elt F))), op.bufs ⊆ Pipeline.ucRefs τ sig := by
  intro op h
  refine Pipeline.sub_ucRefs op ?_
  simp only [hostOps0, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps0_fresh : ∀ op ∈ (hostOps0 : List (HloOp τ sig (Elt F))), op.fresh = ∅ := by
  intro op h
  simp only [hostOps0, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl <;> rfl
/-- and a buffer none of its operations writes keeps its contents. -/
theorem after_hostOps0_of_not_written (V : Valuation τ sig (Elt F)) (b : DevRef τ sig)
    (hb : ∀ op ∈ (hostOps0 : List (HloOp τ sig (Elt F))), b ∉ op.writes) :
    StableHlo.after hostOps0 V b = V b := by
  exact StableHlo.after_of_forall_not_mem hostOps0 V hb

/-- Stretch 1 names only unscoped buffers of the TensorCore, -/
theorem hostOps1_sub : ∀ op ∈ (hostOps1 : List (HloOp τ sig (Elt F))), op.bufs ⊆ Pipeline.ucRefs τ sig := by
  intro op h
  refine Pipeline.sub_ucRefs op ?_
  simp only [hostOps1, List.mem_cons, List.not_mem_nil, or_false] at h
  rcases h with rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps1_fresh : ∀ op ∈ (hostOps1 : List (HloOp τ sig (Elt F))), op.fresh = ∅ := by
  intro op h
  simp only [hostOps1, List.mem_cons, List.not_mem_nil, or_false] at h
  rcases h with rfl | rfl | rfl <;> rfl
/-- and a buffer none of its operations writes keeps its contents. -/
theorem after_hostOps1_of_not_written (V : Valuation τ sig (Elt F)) (b : DevRef τ sig)
    (hb : ∀ op ∈ (hostOps1 : List (HloOp τ sig (Elt F))), b ∉ op.writes) :
    StableHlo.after hostOps1 V b = V b := by
  exact StableHlo.after_of_forall_not_mem hostOps1 V hb

/-- Stretch 2 names only unscoped buffers of the TensorCore, -/
theorem hostOps2_sub : ∀ op ∈ (hostOps2 : List (HloOp τ sig (Elt F))), op.bufs ⊆ Pipeline.ucRefs τ sig := by
  intro op h
  refine Pipeline.sub_ucRefs op ?_
  simp only [hostOps2, List.mem_cons, List.not_mem_nil, or_false] at h
  rcases h with rfl | rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps2_fresh : ∀ op ∈ (hostOps2 : List (HloOp τ sig (Elt F))), op.fresh = ∅ := by
  intro op h
  simp only [hostOps2, List.mem_cons, List.not_mem_nil, or_false] at h
  rcases h with rfl | rfl | rfl | rfl <;> rfl
/-- and a buffer none of its operations writes keeps its contents. -/
theorem after_hostOps2_of_not_written (V : Valuation τ sig (Elt F)) (b : DevRef τ sig)
    (hb : ∀ op ∈ (hostOps2 : List (HloOp τ sig (Elt F))), b ∉ op.writes) :
    StableHlo.after hostOps2 V b = V b := by
  exact StableHlo.after_of_forall_not_mem hostOps2 V hb

/-- Stretch 3 names only unscoped buffers of the TensorCore, -/
theorem hostOps3_sub : ∀ op ∈ (hostOps3 : List (HloOp τ sig (Elt F))), op.bufs ⊆ Pipeline.ucRefs τ sig := by
  intro op h
  refine Pipeline.sub_ucRefs op ?_
  simp only [hostOps3, List.mem_cons, List.not_mem_nil, or_false] at h
  rcases h with rfl | rfl | rfl
  all_goals first
    | exact StableHlo.reshape_bufs_sub ..
    | exact StableHlo.nullary_bufs_sub ..
    | exact StableHlo.unary_bufs_sub ..
    | exact StableHlo.binary_bufs_sub ..
/-- allocates none, -/
theorem hostOps3_fresh : ∀ op ∈ (hostOps3 : List (HloOp τ sig (Elt F))), op.fresh = ∅ := by
  intro op h
  simp only [hostOps3, List.mem_cons, List.not_mem_nil, or_false] at h
  rcases h with rfl | rfl | rfl <;> rfl
/-- and a buffer none of its operations writes keeps its contents. -/
theorem after_hostOps3_of_not_written (V : Valuation τ sig (Elt F)) (b : DevRef τ sig)
    (hb : ∀ op ∈ (hostOps3 : List (HloOp τ sig (Elt F))), b ∉ op.writes) :
    StableHlo.after hostOps3 V b = V b := by
  exact StableHlo.after_of_forall_not_mem hostOps3 V hb

end Cert.Proof.KB

end
-- ==== Proof.KB.Keep.lean ====
/-
  The TensorCore's buffers along @main: the contents after each stretch, call and pipeline, and which of them a later
  step still finds as an earlier one left them.
-/
import proofs.«205278_g66915590471714_cont_9to1_m_383_35_alg».proof.Proof.KB.HostFacts
import proofs.«205278_g66915590471714_cont_9to1_m_383_35_alg».proof.Proof.KB.IdxFacts
import proofs.«205278_g66915590471714_cont_9to1_m_383_35_alg».proof.Proof.KB.LaunchDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

/-- The two pipelines' result arrays, as device `d`'s TensorCore addresses them. -/
abbrev res0Loc (d : Dev nD) : Loc nD τ sig := (SparseCore.T d).loc main_v25
abbrev res1Loc (d : Dev nD) : Loc nD τ sig := (SparseCore.T d).loc main_v33

section Keep

variable (m : (ℓ : Loc nD τ sig) → Buf (Elt F) ℓ) (d : Dev nD)

/-- The buffers at launch; -/
abbrev Vl : Valuation τ sig (Elt F) := StableHlo.launchContents m d
/-- after the first host stretch; -/
def Va : Valuation τ sig (Elt F) := StableHlo.after hostOps0 (Vl m d)
/-- after the first gather call left `f` in its output; -/
def Vb (f : Buf (Elt F) (out0Loc d)) : Valuation τ sig (Elt F) := Function.update (Va m d) (Proc.devRef .tc main_v22) f
/-- after the second stretch; -/
def Vc (f : Buf (Elt F) (out0Loc d)) : Valuation τ sig (Elt F) := StableHlo.after hostOps1 (Vb m d f)
/-- after the first pipeline left `g` in its result; -/
def Vd (f : Buf (Elt F) (out0Loc d)) (g : Buf (Elt F) (res0Loc d)) : Valuation τ sig (Elt F) :=
  Function.update (Vc m d f) (Proc.devRef .tc main_v25) g
/-- after the third stretch; -/
def Ve (f : Buf (Elt F) (out0Loc d)) (g : Buf (Elt F) (res0Loc d)) : Valuation τ sig (Elt F) :=
  StableHlo.after hostOps2 (Vd m d f g)
/-- after the second gather call left `f'`; -/
def Vf (f : Buf (Elt F) (out0Loc d)) (g : Buf (Elt F) (res0Loc d)) (f' : Buf (Elt F) (out1Loc d)) : Valuation τ sig (Elt F) :=
  Function.update (Ve m d f g) (Proc.devRef .tc main_v30) f'
/-- after the fourth stretch; -/
def Vg (f : Buf (Elt F) (out0Loc d)) (g : Buf (Elt F) (res0Loc d)) (f' : Buf (Elt F) (out1Loc d)) : Valuation τ sig (Elt F) :=
  StableHlo.after hostOps3 (Vf m d f g f')
/-- after the second pipeline left `g'` in the program's result. -/
def Vh (f : Buf (Elt F) (out0Loc d)) (g : Buf (Elt F) (res0Loc d)) (f' : Buf (Elt F) (out1Loc d))
    (g' : Buf (Elt F) (res1Loc d)) : Valuation τ sig (Elt F) :=
  Function.update (Vg m d f g f') (Proc.devRef .tc main_v33) g'

/-! ## What each host stretch writes -/

/-- The buffers the first stretch writes. -/
def wrote0 : List (Ref sig .tc) := [main_v0, main_v1, main_c, main_v2, main_v3, main_v4, main_v5, main_v6, main_v7, main_v8, main_v9, main_v10, main_v11, main_v12, main_v13, main_v14, main_v15, main_v16, main_cst, main_v17, main_v18, main_v19, main_v20, main_v21]
/-- Each of its operations writes one of them. -/
theorem hostOps0_writes : (hostOps0 : List (HloOp τ sig (Elt F))).Forall fun op =>
    op.writes ⊆ ((wrote0).map (Proc.devRef (τ := τ) .tc)).toFinset := by
  simp only [hostOps0, List.forall_cons, List.Forall, StableHlo.nullary_writes, StableHlo.unary_writes, StableHlo.binary_writes,
    StableHlo.reshape_writes]
  decide
/-- So a buffer that is none of them keeps its contents across the stretch. -/
theorem keep0 (V : Valuation τ sig (Elt F)) (r : Ref sig .tc) (hr : r ∉ wrote0) :
    StableHlo.after hostOps0 V (Proc.devRef .tc r) = V (Proc.devRef .tc r) :=
  StableHlo.after_of_writes_sub hostOps0 V hostOps0_writes hr

/-- The buffers the second stretch writes. -/
def wrote1 : List (Ref sig .tc) := [main_v23, main_v24, main_v25]
/-- Each of its operations writes one of them. -/
theorem hostOps1_writes : (hostOps1 : List (HloOp τ sig (Elt F))).Forall fun op =>
    op.writes ⊆ ((wrote1).map (Proc.devRef (τ := τ) .tc)).toFinset := by
  simp only [hostOps1, List.forall_cons, List.Forall, StableHlo.nullary_writes, StableHlo.unary_writes, StableHlo.binary_writes,
    StableHlo.reshape_writes]
  decide
/-- So a buffer that is none of them keeps its contents across the stretch. -/
theorem keep1 (V : Valuation τ sig (Elt F)) (r : Ref sig .tc) (hr : r ∉ wrote1) :
    StableHlo.after hostOps1 V (Proc.devRef .tc r) = V (Proc.devRef .tc r) :=
  StableHlo.after_of_writes_sub hostOps1 V hostOps1_writes hr

/-- The buffers the third stretch writes. -/
def wrote2 : List (Ref sig .tc) := [main_v26, main_v27, main_v28, main_v29]
/-- Each of its operations writes one of them. -/
theorem hostOps2_writes : (hostOps2 : List (HloOp τ sig (Elt F))).Forall fun op =>
    op.writes ⊆ ((wrote2).map (Proc.devRef (τ := τ) .tc)).toFinset := by
  simp only [hostOps2, List.forall_cons, List.Forall, StableHlo.nullary_writes, StableHlo.unary_writes, StableHlo.binary_writes,
    StableHlo.reshape_writes]
  decide
/-- So a buffer that is none of them keeps its contents across the stretch. -/
theorem keep2 (V : Valuation τ sig (Elt F)) (r : Ref sig .tc) (hr : r ∉ wrote2) :
    StableHlo.after hostOps2 V (Proc.devRef .tc r) = V (Proc.devRef .tc r) :=
  StableHlo.after_of_writes_sub hostOps2 V hostOps2_writes hr

/-- The buffers the fourth stretch writes. -/
def wrote3 : List (Ref sig .tc) := [main_v31, main_v32, main_v33]
/-- Each of its operations writes one of them. -/
theorem hostOps3_writes : (hostOps3 : List (HloOp τ sig (Elt F))).Forall fun op =>
    op.writes ⊆ ((wrote3).map (Proc.devRef (τ := τ) .tc)).toFinset := by
  simp only [hostOps3, List.forall_cons, List.Forall, StableHlo.nullary_writes, StableHlo.unary_writes, StableHlo.binary_writes,
    StableHlo.reshape_writes]
  decide
/-- So a buffer that is none of them keeps its contents across the stretch. -/
theorem keep3 (V : Valuation τ sig (Elt F)) (r : Ref sig .tc) (hr : r ∉ wrote3) :
    StableHlo.after hostOps3 V (Proc.devRef .tc r) = V (Proc.devRef .tc r) :=
  StableHlo.after_of_writes_sub hostOps3 V hostOps3_writes hr

/-! ## The buffers the calls are entered with, and the argument arrays -/

/-- What the first gather call is entered with. -/
theorem Va_tab : Va m d (Proc.devRef .tc main_v0) = tabC m d := by
  rfl
theorem Va_ix0 : Va m d (Proc.devRef .tc main_v21) = ix0C m d := by
  rfl
theorem Va_out0 : Va m d (Proc.devRef .tc main_v22) = m (out0Loc d) := by
  unfold Va
  rw [keep0 _ main_v22 (by decide)]

/-- What the second gather call is entered with: the table and the flat indices are as the first stretch left them, the
    output array as at launch. -/
theorem Ve_tab (f g) : Ve m d f g (Proc.devRef .tc main_v0) = tabC m d := by
  unfold Ve Vd Vc Vb
  rw [keep2 _ main_v0 (by decide), Function.update_of_ne (by decide), keep1 _ main_v0 (by decide), Function.update_of_ne (by decide)]
  rfl
theorem Ve_ix1 (f g) : Ve m d f g (Proc.devRef .tc main_v29) = ix1C m d := by
  unfold Ve ix1C
  refine ix1_congr _ _ ?_
  unfold Vd Vc Vb
  rw [Function.update_of_ne (by decide), keep1 _ main_v6 (by decide), Function.update_of_ne (by decide)]
  rfl
theorem Ve_out1 (f g) : Ve m d f g (Proc.devRef .tc main_v30) = m (out1Loc d) := by
  unfold Ve Vd Vc Vb Va
  rw [keep2 _ main_v30 (by decide), Function.update_of_ne (by decide), keep1 _ main_v30 (by decide), Function.update_of_ne (by decide), keep0 _ main_v30 (by decide)]

/-- No step writes an argument array. -/
theorem Vh_arg (f g f' g') : ∀ b ∈ argSet, Vh m d f g f' g' b = Vl m d b := by
  intro b hb
  simp only [argSet, Finset.mem_insert, Finset.mem_singleton] at hb
  unfold Vh Vg Vf Ve Vd Vc Vb Va
  rcases hb with rfl | rfl | rfl | rfl | rfl | rfl | rfl | rfl | rfl | rfl | rfl | rfl | rfl | rfl | rfl | rfl
  all_goals
    rw [Function.update_of_ne (by decide), keep3 _ _ (by decide), Function.update_of_ne (by decide), keep2 _ _ (by decide), Function.update_of_ne (by decide), keep1 _ _ (by decide), Function.update_of_ne (by decide),
      keep0 _ _ (by decide)]

end Keep

end Cert.Proof.KB

end
-- ==== Proof.KB.LaunchEnds.lean ====
/-
  The two ends of the launch: the launch element dealt out, and the claim read off the final state.
-/
import proofs.«205278_g66915590471714_cont_9to1_m_383_35_alg».proof.Proof.KB.LaunchDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Ends

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Nothing, over any index set, is nothing. -/
theorem bigSep_emp' {I : Type} (s : Finset I) : (bigSep s fun _ => iprop(emp)) = (iprop(emp) : sProp 𝕄) := bigSep_emp_const s

/-- The gather kernels' proofs are dealt nothing at the launch. -/
theorem x_emp : (bigSep Finset.univ fun thr : Thread nD τ => bigSep Finset.univ fun q : Fin 2 => (P m tab ix0 ix1).x q thr) = (iprop(emp) : sProp 𝕄) := by
  show (bigSep Finset.univ fun _ : Thread nD τ => bigSep Finset.univ fun _ : Fin 2 => (iprop(emp) : sProp 𝕄)) = iprop(emp)
  rw [bigSep_congr fun _ _ => bigSep_emp' _, bigSep_emp']

/-- Each device's share of the pipelines' part, over the devices, is every pipeline's cells' ghost state and every
    pipeline's duty tokens, over the devices. -/
theorem bigSep_G : (bigSep Finset.univ fun d : Dev nD => G (F := F) d)
    = iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄))) := by
  unfold G
  simp only [bigSep_sep']

/-- The pipelines' half of the launch element's second component is owned through `EP`; the counters' half is dropped. -/
theorem own_pipes (a : UP) (b : Counters) : (BI.own (embR (a, b)) : sProp 𝕄) ⊢ BI.own (EP a) :=
  (own_pair_emb embR a b).trans sep_elim_left

/-- The launch element splits into the handshakes' part, which the launch theorem takes, and the pipelines' part, which
    funds every staging cell's ghost state and every transfer's duty token, device by device; the gather kernels' proofs
    consume nothing of it. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m tab ix0 ix1).x q thr) := by
  unfold u₀
  rw [x_emp, bigSep_G]
  iintro Hu
  ihave H := (ownU_pair _ _) $$ Hu
  icases H with ⟨HH, HR⟩
  ihave HP := (own_pipes _ _) $$ HR
  imod (Pipeline.fund_ghost (Pipeline.pin (pcfgs (F := F)) adm) EP cellOf_inj') $$ HP with ⟨Hg, Ht⟩
  imodintro
  isplitl [HH]; · iexact HH
  isplitl [Hg Ht]
  · isplitl [Hg]; · iexact Hg
    iexact Ht
  iempintro

/-- Holding the argument arrays at their launch contents beside the state's interpretation, the state's memory holds
    those contents. -/
theorem hfin (d : Dev nD) (s' : Phys nD τ sig (Elt F)) : iprop(FIN m d ∗ SI s') ⊢ (⌜fq m d s'⌝ : sProp 𝕄) := by
  unfold FIN held argSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  iintro ⟨⟨H0, H1, H2, H3, H4, H5, H6, H7, H8, H9, H10, H11, H12, H13, H14, H15⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  icombine HSI H10 gives %h10
  icombine HSI H11 gives %h11
  icombine HSI H12 gives %h12
  icombine HSI H13 gives %h13
  icombine HSI H14 gives %h14
  icombine HSI H15 gives %h15
  ipureintro
  exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11, Buf.eq_of_forall_mem_univ h12, Buf.eq_of_forall_mem_univ h13, Buf.eq_of_forall_mem_univ h14, Buf.eq_of_forall_mem_univ h15⟩

end Ends

end Cert.Proof.KB

end
-- ==== Proof.KB.Main.lean ====
/-
  @main on the TensorCore: the four host stretches, the two gather calls and the two pipelines, in order, from what the
  launch deals the TensorCore to the argument arrays at their launch contents.
-/
import proofs.«205278_g66915590471714_cont_9to1_m_383_35_alg».proof.Proof.KB.RegionSteps
import proofs.«205278_g66915590471714_cont_9to1_m_383_35_alg».proof.Proof.KB.Keep
import proofs.«205278_g66915590471714_cont_9to1_m_383_35_alg».proof.Proof.KB.LaunchEnds

set_option maxRecDepth 65536
set_option maxHeartbeats 2000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- Two conjoined one by one. -/
theorem bigSep_Fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

section Main

variable (m : (ℓ : Loc nD τ sig) → Buf (Elt F) ℓ) (ρ : Dev nD → PrngReg)

/-- The argument arrays out of every unscoped buffer, at the end of @main: no step wrote them. -/
theorem fin_of_held (d : Dev nD) (f g f' g') :
    (held (SparseCore.T d) (Pipeline.ucRefs τ sig) (Vh m d f g f' g') : sProp 𝕄) ⊢ FIN m d := by
  unfold FIN
  have hsub : argSet ⊆ Pipeline.ucRefs τ sig := by
    intro b hb
    simp only [argSet, Finset.mem_insert, Finset.mem_singleton] at hb
    rcases hb with rfl | rfl | rfl | rfl | rfl | rfl | rfl | rfl | rfl | rfl | rfl | rfl | rfl | rfl | rfl | rfl <;>
      exact Finset.mem_filter.mpr ⟨StableHlo.devRef_mem_tcRefs _, by decide⟩
  rw [StableHlo.held_sub_split (SparseCore.T d) hsub, StableHlo.held_congr (SparseCore.T d) (S := argSet) (Vh_arg m d f g f' g')]
  exact sep_elim_left

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes G
  rw [show (unscopedBufs d (fun b => m ((SparseCore.T d).loc b)) : sProp 𝕄) = held (SparseCore.T d) (Pipeline.ucRefs τ sig) (Vl m d) from
    Pipeline.unscopedBufs_held d (Vl m d)]
  rw [main_eq, bigSep_Fin2]
  iintro ⟨#Hctx, Hst, ⟨Hb, Hheld, -, -⟩, ⟨Hcg0, Hti0⟩, ⟨Hcg1, Hti1⟩⟩
  -- the first host stretch
  iapply (StableHlo.wp_seq (defs := (K (F := F)).defs (D (F := F))) 𝒱 none Set.univ d (Pipeline.ucRefs τ sig) _ hostOps0 hostOps0_sub hostOps0_fresh (Vl m d)) $$ [Hb Hheld]
  · isplitl [Hb] <;> iassumption
  iintro ⟨Hb, Hheld⟩
  rw [show StableHlo.after hostOps0 (Vl m d) = Va m d from rfl, wp_bind]
  -- the first gather call
  iapply (call_step0 m κ d (Va m d) (Va_tab m d) (Va_ix0 m d) (Va_out0 m d) _)
  isplitr; · iexact Hctx
  isplitl [Hst]; · iexact Hst
  isplitl [Hheld]; · iexact Hheld
  iintro %f ⟨Hst, Hheld⟩
  rw [show Function.update (Va m d) (Proc.devRef .tc main_v22) f = Vb m d f from rfl]
  -- the second host stretch
  iapply (StableHlo.wp_seq (defs := (K (F := F)).defs (D (F := F))) 𝒱 none Set.univ d (Pipeline.ucRefs τ sig) _ hostOps1 hostOps1_sub hostOps1_fresh (Vb m d f)) $$ [Hb Hheld]
  · isplitl [Hb] <;> iassumption
  iintro ⟨Hb, Hheld⟩
  rw [show StableHlo.after hostOps1 (Vb m d f) = Vc m d f from rfl, wp_bind]
  -- the first pipeline
  iapply (region_step0 (Pm m) κ d (Vc m d f) _)
  isplitr; · iexact Hctx
  isplitl [Hb]; · iexact Hb
  isplitl [Hst]; · iexact Hst
  isplitl [Hheld]; · iexact Hheld
  isplitl [Hcg0]; · iexact Hcg0
  isplitl [Hti0]; · iexact Hti0
  iintro ⟨Hb, Hst, Hheld⟩
  generalize resOf1 (Vc m d f) d = g
  rw [show Function.update (Vc m d f) (Proc.devRef .tc main_v25) g = Vd m d f g from rfl]
  -- the third host stretch
  iapply (StableHlo.wp_seq (defs := (K (F := F)).defs (D (F := F))) 𝒱 none Set.univ d (Pipeline.ucRefs τ sig) _ hostOps2 hostOps2_sub hostOps2_fresh (Vd m d f g)) $$ [Hb Hheld]
  · isplitl [Hb] <;> iassumption
  iintro ⟨Hb, Hheld⟩
  rw [show StableHlo.after hostOps2 (Vd m d f g) = Ve m d f g from rfl, wp_bind]
  -- the second gather call
  iapply (call_step1 m κ d (Ve m d f g) (Ve_tab m d f g) (Ve_ix1 m d f g) (Ve_out1 m d f g) _)
  isplitr; · iexact Hctx
  isplitl [Hst]; · iexact Hst
  isplitl [Hheld]; · iexact Hheld
  iintro %f' ⟨Hst, Hheld⟩
  rw [show Function.update (Ve m d f g) (Proc.devRef .tc main_v30) f' = Vf m d f g f' from rfl]
  -- the fourth host stretch
  iapply (StableHlo.wp_seq (defs := (K (F := F)).defs (D (F := F))) 𝒱 none Set.univ d (Pipeline.ucRefs τ sig) _ hostOps3 hostOps3_sub hostOps3_fresh (Vf m d f g f')) $$ [Hb Hheld]
  · isplitl [Hb] <;> iassumption
  iintro ⟨Hb, Hheld⟩
  rw [show StableHlo.after hostOps3 (Vf m d f g f') = Vg m d f g f' from rfl, wp_bind]
  -- the second pipeline
  iapply (region_step1 (Pm m) κ d (Vg m d f g f') _)
  isplitr; · iexact Hctx
  isplitl [Hb]; · iexact Hb
  isplitl [Hst]; · iexact Hst
  isplitl [Hheld]; · iexact Hheld
  isplitl [Hcg1]; · iexact Hcg1
  isplitl [Hti1]; · iexact Hti1
  iintro ⟨Hb, Hst, Hheld⟩
  generalize resOf3 (Vg m d f g f') d = g'
  rw [show Function.update (Vg m d f g f') (Proc.devRef .tc main_v33) g' = Vh m d f g f' g' from rfl]
  rw [wp_pure]; imodintro
  isplitl [Hst]; · iexact Hst
  iapply (fin_of_held m d f g f' g'); iexact Hheld

end Main

end Cert.Proof.KB

end
-- ==== Proof.KB.TileObl.lean ====
/-
  The gather kernel's tasks as the launch theorem's obligations (both calls).
-/
import proofs.«205278_g66915590471714_cont_9to1_m_383_35_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

omit [FloatOps F] in
/-- A task that records waits only at no call's index records none outside its own call's either. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

/-- A point of call 0's 2 x 16 grid from its core and subcore numbers. -/
def coordsV0 (c : Fin (grid0.bound 0)) (s : Fin (grid0.bound 1)) : grid0.Coords :=
  fun | 0 => c | 1 => s | ⟨_ + 2, h⟩ => absurd h (Nat.not_lt.2 (Nat.le_add_left _ _))

/-- The body table's entry for call 0's kernel on a vector subcore: the kernel at the subcore's grid point. -/
theorem defs₀_vector0 (c : Fin τ.nSC) (s : Fin τ.nSub) :
    defs₀ (F := F) (.scVector c s) 0 ⟨⟩
      = SparseCore.onTile hcore0 hsub0 (fun c s => cc0__sc_gather_body (coordsV0 c s)
          (Memref.whole main_v0_scv) (Memref.isWhole_whole _) (Memref.whole main_v21_scv) (Memref.isWhole_whole _)
          (Memref.whole main_v22_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

/-- A point of call 1's 2 x 16 grid from its core and subcore numbers. -/
def coordsV1 (c : Fin (grid2.bound 0)) (s : Fin (grid2.bound 1)) : grid2.Coords :=
  fun | 0 => c | 1 => s | ⟨_ + 2, h⟩ => absurd h (Nat.not_lt.2 (Nat.le_add_left _ _))

/-- The body table's entry for call 1's kernel on a vector subcore: the kernel at the subcore's grid point. -/
theorem defs₀_vector1 (c : Fin τ.nSC) (s : Fin τ.nSub) :
    defs₀ (F := F) (.scVector c s) 2 ⟨⟩
      = SparseCore.onTile hcore2 hsub2 (fun c s => cc2__sc_gather_body (coordsV1 c s)
          (Memref.whole main_v0_scv) (Memref.isWhole_whole _) (Memref.whole main_v29_scv) (Memref.isWhole_whole _)
          (Memref.whole main_v30_scv) (Memref.isWhole_whole _) (Memref.whole cc2_scratch0) (Memref.isWhole_whole _)
          (Memref.whole cc2_scratch1) (Memref.isWhole_whole _) (Memref.whole cc2_scratch2) (Memref.isWhole_whole _)
          cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13) ⟨⟩ c s := rfl

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Call 0's task on every vector subcore of its grid is `tile_body0` at that subcore's coordinates. -/
theorem tileObl0 (hF : (K (F := F)).Facts) (hidx : IdxOK0 ix0) : (K (F := F)).TileObl (D (F := F)) 𝒱 (P m tab ix0 ix1) v₀ 0 := by
  intro d c i O W hO _ _
  simp only [show (P m tab ix0 ix1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 m tab ix0 d hF hidx (coordsV0 ⟨_, hci.1⟩ ⟨_, hci.2⟩) O W hO).trans (wp_mono frame _ _ fun _ => obl_post)

/-- Call 1's task on every vector subcore of its grid is `tile_body1` at that subcore's coordinates. -/
theorem tileObl1 (hF : (K (F := F)).Facts) (hidx : IdxOK1 ix1) : (K (F := F)).TileObl (D (F := F)) 𝒱 (P m tab ix0 ix1) v₀ 1 := by
  intro d c i O W hO _ _
  simp only [show (P m tab ix0 ix1).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 m tab ix1 d hF hidx (coordsV1 ⟨_, hci.1⟩ ⟨_, hci.2⟩) O W hO).trans (wp_mono frame _ _ fun _ => obl_post)

end Obl

end Cert.Proof.KB

end
-- ==== Proof.KB.Final.lean ====
/-
  The kernel program's run: the launch theorem applied to the gather kernel's tasks, their splits, @main's proof, the
  launch element and the final reading — every weakly fair execution of the TensorCore, the sequencers and the thirty-two
  vector subcores ends, nothing faulting, the argument arrays as at launch.
-/
import proofs.«205278_g66915590471714_cont_9to1_m_383_35_alg».proof.Proof.KB.Main
import proofs.«205278_g66915590471714_cont_9to1_m_383_35_alg».proof.Proof.KB.TileObl

set_option maxRecDepth 65536
set_option maxHeartbeats 2000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section Run

variable (m : (ℓ : Loc nD τ sig) → Buf (Elt F) ℓ) (ρ : Dev nD → PrngReg)

/-- The argument arrays of every device hold their launch contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)
  ∧ r.2.mem ((SparseCore.T c).loc main_arg7) = m ((SparseCore.T c).loc main_arg7)
  ∧ r.2.mem ((SparseCore.T c).loc main_arg8) = m ((SparseCore.T c).loc main_arg8)
  ∧ r.2.mem ((SparseCore.T c).loc main_arg9) = m ((SparseCore.T c).loc main_arg9)
  ∧ r.2.mem ((SparseCore.T c).loc main_arg10) = m ((SparseCore.T c).loc main_arg10)
  ∧ r.2.mem ((SparseCore.T c).loc main_arg11) = m ((SparseCore.T c).loc main_arg11)
  ∧ r.2.mem ((SparseCore.T c).loc main_arg12) = m ((SparseCore.T c).loc main_arg12)
  ∧ r.2.mem ((SparseCore.T c).loc main_arg13) = m ((SparseCore.T c).loc main_arg13)
  ∧ r.2.mem ((SparseCore.T c).loc main_arg14) = m ((SparseCore.T c).loc main_arg14)
  ∧ r.2.mem ((SparseCore.T c).loc main_arg15) = m ((SparseCore.T c).loc main_arg15)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq | 1 => nomatch hq)
    (fun q _ => match q with
      | 0 => tileObl0 m (tabC m) (ix0C m) (ix1C m) facts (idxOK0_of_pre m hpre)
      | 1 => tileObl1 m (tabC m) (ix0C m) (ix1C m) facts (idxOK1_of_pre m hpre))
    (fun q _ => match q with
      | 0 => SparseCore.Cfg.VecSplit.of_plain (vecSplit0 m (tabC m) (ix0C m) (ix1C m))
      | 1 => SparseCore.Cfg.VecSplit.of_plain (vecSplit1 m (tabC m) (ix0C m) (ix1C m)))
    m ρ main (G (F := F)) (FIN m) (u₀ (F := F)) (sep_elim_left.trans (hu₀ m (tabC m) (ix0C m) (ix1C m))) (hmain m ρ) (fq m) (hfin m) (QC m) (fun _ h => h)

end Run

end Cert.Proof.KB

end
-- ==== Proof.RefFrame.lean ====
/-
  The reference program's frame: it is a straight-line host program, so every weakly fair execution
  runs its operations in order, ends, and leaves the argument arrays as they were; the run read back
  also names the result as the operations' composed term of the arguments, which the frame forgets.
-/
import proofs.«205278_g66915590471714_cont_9to1_m_383_35_alg».proof.Defs
import proofs.«205278_g66915590471714_cont_9to1_m_383_35_alg».proof.Proof.Gen.ReferenceIdeal
import proofs.«205278_g66915590471714_cont_9to1_m_383_35_alg».proof.Proof.Gen.ReferenceIdeal.Run
import proofs.«205278_g66915590471714_cont_9to1_m_383_35_alg».proof.Proof.Gen.ReferenceIdeal.Read

noncomputable section

open Idealize.ShloMosaic Idealize.SL.Sem

namespace Cert.Proof.RefClaims

/-- The reference runs to the end with its arguments unchanged: its run with the result dropped. -/
theorem frame_ri [hR : Cert.ReferenceIdeal.Facts] [hP : Cert.Pre_input_domain.Facts] : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.FrameClaims.lean ====
/-
  The certificate's claims but the value claim: the three programs run to the end with their arguments unchanged, and the
  idealized kernel is the kernel's own text read on the extended reals (the ideal pass rewrote nothing).
-/
import proofs.«205278_g66915590471714_cont_9to1_m_383_35_alg».proof.Defs
import proofs.«205278_g66915590471714_cont_9to1_m_383_35_alg».proof.Proof.Final
import proofs.«205278_g66915590471714_cont_9to1_m_383_35_alg».proof.Proof.KB.Final
import proofs.«205278_g66915590471714_cont_9to1_m_383_35_alg».proof.Proof.RefFrame
import proofs.«205278_g66915590471714_cont_9to1_m_383_35_alg».proof.Proof.Gen.Kernel
import proofs.«205278_g66915590471714_cont_9to1_m_383_35_alg».proof.Proof.Gen.KernelIdeal
import proofs.«205278_g66915590471714_cont_9to1_m_383_35_alg».proof.Proof.Gen.ReferenceIdeal
import proofs.«205278_g66915590471714_cont_9to1_m_383_35_alg».proof.Proof.Gen.Pre_input_domain

noncomputable section

namespace Cert.Proof.FrameClaims

open Idealize.ShloMosaic Idealize.SL.Sem

/-- The word-level kernel program: its run with nothing but the arguments read off. -/
theorem frame_k : Cert.frame_Kernel := fun m ρ hpre =>
  (θ_run Cert.Kernel.defs _ _).mono (fun _ h c => h c) (Cert.Proof.KB.run_main (F := Bits) m ρ hpre)

/-- The idealized kernel program: the same run at the extended reals. -/
theorem frame_ki : Cert.frame_KernelIdeal := fun m ρ hpre =>
  (θ_run Cert.KernelIdeal.defs _ _).mono (fun _ h c => h c) (Cert.Proof.KI.run_main (F := Ideal) m ρ hpre)

/-- The reference. -/
theorem frame_ri : Cert.frame_ReferenceIdeal := Cert.Proof.RefClaims.frame_ri

/-- The ideal pass's ledger is empty. -/
theorem preserves : Cert.preserves_Kernel_KernelIdeal := trivial

end Cert.Proof.FrameClaims

end
-- ==== Proof.SetupV.lean ====
/-
  The gather calls' outputs named: what each call writes into its gathered-rows array, and the handshakes' payloads
  with the workers' blocks handed back at those contents.
-/
import proofs.«205278_g66915590471714_cont_9to1_m_383_35_alg».proof.Proof.Setup
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 2) (Elt F) ℕ UU ℕ

/-! ## What a gather call writes -/

/-- The table row an index word names, capped into the table (the word itself when it is below 26000). -/
def capRow (w : BitVec 32) : Fin 26000 := ⟨min w.toNat 25999, by omega⟩

theorem capRow_val_of_lt {w : BitVec 32} (h : w.toNat < 26000) : (capRow w).val = w.toNat := by
  show min w.toNat 25999 = w.toNat
  omega

/-- Row `r` of a gathered-rows array belongs to block `t = r / 128`, at place `j = r % 128` of the block's list; block
    `t` is list `k = t % 13` of worker `w = t / 13`. -/
theorem gath_lt (r : Fin 53248) : r.val / 128 / 13 < 32 ∧ r.val / 128 % 13 < 13 ∧ r.val % 128 < 128 := by
  have := r.isLt
  omega

/-- The gathered rows: row `r`, column `c` is the table's row named by word `r % 128` of list `(r / 128) % 13` of worker
    `(r / 128) / 13`, at column `c`. -/
def gath (tab : S26000x128.Idx → Elt F .f32) (ix : S32x13x1x128.Idx → Elt F .i32) : S53248x128.Idx → Elt F .f32 :=
  fun i => tab (ValueIdx.ix2
    (capRow (ix (ValueIdx.ix4 (⟨(i 0).val / 128 / 13, (gath_lt (i 0)).1⟩ : Fin 32) (⟨(i 0).val / 128 % 13, (gath_lt (i 0)).2.1⟩ : Fin 13)
      (0 : Fin 1) (⟨(i 0).val % 128, (gath_lt (i 0)).2.2⟩ : Fin 128))))
    (i 1))

/-! ## What the handshakes carry, the outputs named -/

section Payload

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- What worker `w` of call 0 hands back: its shares, and its thirteen blocks at the gathered rows. -/
def tileOutV0 (d : Dev nD) (w : ℕ) : sProp 𝕄 :=
  iprop((tabLoc d ↦{tq w} tab d) ∗ (idx0Loc d ↦{tq w} ix0 d)
    ∗ bigSep (Finset.univ : Finset (Fin 13)) fun k => out0Loc d ↦[oSetN (13 * w + k.val)]{fullShare} gath (tab d) (ix0 d))
/-- The same of call 1. -/
def tileOutV1 (d : Dev nD) (w : ℕ) : sProp 𝕄 :=
  iprop((tabLoc d ↦{tq w} tab d) ∗ (idx1Loc d ↦{tq w} ix1 d)
    ∗ bigSep (Finset.univ : Finset (Fin 13)) fun k => out1Loc d ↦[oSetN (13 * w + k.val)]{fullShare} gath (tab d) (ix1 d))

/-- The handshakes' payloads with the blocks handed back at the gathered rows: what goes out is as before. -/
def PV : (K (F := F)).Pay (nD := nD) (Val := Elt F) (Name := ℕ) (U := UU) where
  st := fun q d c => match q with
    | 0 => bigSep (Finset.univ : Finset (Fin 16)) fun i => tileIn0 m tab ix0 d (2 * i.val + c.val)
    | 1 => bigSep (Finset.univ : Finset (Fin 16)) fun i => tileIn1 m tab ix1 d (2 * i.val + c.val)
  dn := fun q d c => match q with
    | 0 => bigSep (Finset.univ : Finset (Fin 16)) fun i => tileOutV0 tab ix0 d (2 * i.val + c.val)
    | 1 => bigSep (Finset.univ : Finset (Fin 16)) fun i => tileOutV1 tab ix1 d (2 * i.val + c.val)
  go := fun q d c i => match q with
    | 0 => tileIn0 m tab ix0 d (2 * i.val + c.val)
    | 1 => tileIn1 m tab ix1 d (2 * i.val + c.val)
  td := fun q d c i => match q with
    | 0 => tileOutV0 tab ix0 d (2 * i.val + c.val)
    | 1 => tileOutV1 tab ix1 d (2 * i.val + c.val)
  x := fun _ _ => iprop(emp)

instance PV_storable : (PV (F := F) m tab ix0 ix1).IsStorable where
  st q d c := match q with
    | 0 => by unfold PV tileIn0; infer_instance
    | 1 => by unfold PV tileIn1; infer_instance
  dn q d c := match q with
    | 0 => by unfold PV tileOutV0; infer_instance
    | 1 => by unfold PV tileOutV1; infer_instance
  go q d c i := match q with
    | 0 => by unfold PV tileIn0; infer_instance
    | 1 => by unfold PV tileIn1; infer_instance
  td q d c i := match q with
    | 0 => by unfold PV tileOutV0; infer_instance
    | 1 => by unfold PV tileOutV1; infer_instance

end Payload

end Cert.Proof.KI

end
-- ==== Proof.SplitV.lean ====
/-
  How a gather call's operands split into its workers' payloads and join back, the gathered rows named.
-/
import proofs.«205278_g66915590471714_cont_9to1_m_383_35_alg».proof.Proof.SetupV
import proofs.«205278_g66915590471714_cont_9to1_m_383_35_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 2) (Elt F) ℕ UU ℕ

section SplitV

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Call 0 hands each SparseCore its sixteen workers' payloads and each worker its own. -/
theorem vecSplitV0 : (K (F := F)).VecSplit' (PV m tab ix0 ix1) 0 := by
  intro d c
  show (bigSep Finset.univ fun i : Fin 16 => tileIn0 m tab ix0 d (2 * i.val + c.val))
    ⊢ |={Set.univ}=> iprop((bigSep Finset.univ fun i : Fin 16 => tileIn0 m tab ix0 d (2 * i.val + c.val))
        ∗ ((bigSep Finset.univ fun i : Fin 16 => tileOutV0 tab ix0 d (2 * i.val + c.val))
            -∗ bigSep Finset.univ fun i : Fin 16 => tileOutV0 tab ix0 d (2 * i.val + c.val)))
  iintro H; imodintro
  isplitl [H]; · iexact H
  iintro H; iexact H

/-- The TensorCore's side of call 0, the output NAMED: what the workers hand back joins into the table and the index
    array as they were and the output array holding the gathered rows. -/
theorem callV0_split (d : Dev nD) :
    iprop((tabLoc d ↦{fullShare} tab d) ∗ (idx0Loc d ↦{fullShare} ix0 d) ∗ (out0Loc d ↦{fullShare} m (out0Loc d)))
      ⊢ iprop((bigSep Finset.univ fun c : Fin ((K (F := F)).nCore 0) => (PV m tab ix0 ix1).st 0 d c)
          ∗ ((bigSep Finset.univ fun c : Fin ((K (F := F)).nCore 0) => (PV m tab ix0 ix1).dn 0 d c)
              -∗ iprop((tabLoc d ↦{fullShare} tab d) ∗ (idx0Loc d ↦{fullShare} ix0 d) ∗ (out0Loc d ↦{fullShare} gath (tab d) (ix0 d))))) := by
  show iprop((tabLoc d ↦{fullShare} tab d) ∗ (idx0Loc d ↦{fullShare} ix0 d) ∗ (out0Loc d ↦{fullShare} m (out0Loc d)))
    ⊢ iprop((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => out0Loc d ↦[oSetN (13 * (2 * i.val + c.val) + k.val)]{fullShare} m (out0Loc d)))
        ∗ ((bigSep Finset.univ fun c : Fin 2 => bigSep Finset.univ fun i : Fin 16 =>
          iprop((tabLoc d ↦{tq (2 * i.val + c.val)} tab d) ∗ (idx0Loc d ↦{tq (2 * i.val + c.val)} ix0 d)
            ∗ bigSep Finset.univ fun k : Fin 13 => out0Loc d ↦[oSetN (13 * (2 * i.val + c.val) + k.val)]{fullShare} gath (tab d) (ix0 d)))
          -∗ iprop((tabLoc d ↦{fullShare} tab d) ∗ (idx0Loc d ↦{fullShare} ix0 d) ∗ (out0Loc d ↦{fullShare} gath (tab d) (ix0 d)))))
  rw [bigSep_cores (fun n => tabLoc d ↦{tq n} tab d) (fun n => idx0Loc d ↦{tq n} ix0 d) (fun n => out0Loc d ↦[oSetN n]{fullShare} m (out0Loc d)),
    bigSep_cores (fun n => tabLoc d ↦{tq n} tab d) (fun n => idx0Loc d ↦{tq n} ix0 d) (fun n => out0Loc d ↦[oSetN n]{fullShare} gath (tab d) (ix0 d)),
    out0_rows (F := F) d (m (out0Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx0Loc d) (S := Finset.univ) (f := ix0 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx0Loc d) (S := Finset.univ) (f := ix0 d) fullShare 32)
    isplitl [Hid]; · iexact Hid
    iexact His
  -- the 416 blocks, all at the gathered rows, are the array at the gathered rows
  iapply (Entails.of_eq (out0_rows (F := F) d (gath (tab d) (ix0 d))).symm)
  iexact Ho

/-- Call 1 hands each SparseCore its sixteen workers' payloads and each worker its own. -/
theorem vecSplitV1 : (K (F := F)).VecSplit' (PV m tab ix0 ix1) 1 := by
  intro d c
  show (bigSep Finset.univ fun i : Fin 16 => tileIn1 m tab ix1 d (2 * i.val + c.val))
    ⊢ |={Set.univ}=> iprop((bigSep Finset.univ fun i : Fin 16 => tileIn1 m tab ix1 d (2 * i.val + c.val))
        ∗ ((bigSep Finset.univ fun i : Fin 16 => tileOutV1 tab ix1 d (2 * i.val + c.val))
            -∗ bigSep Finset.univ fun i : Fin 16 => tileOutV1 tab ix1 d (2 * i.val + c.val)))
  iintro H; imodintro
  isplitl [H]; · iexact H
  iintro H; iexact H

/-- The TensorCore's side of call 1, the output NAMED: what the workers hand back joins into the table and the index
    array as they were and the output array holding the gathered rows. -/
theorem callV1_split (d : Dev nD) :
    iprop((tabLoc d ↦{fullShare} tab d) ∗ (idx1Loc d ↦{fullShare} ix1 d) ∗ (out1Loc d ↦{fullShare} m (out1Loc d)))
      ⊢ iprop((bigSep Finset.univ fun c : Fin ((K (F := F)).nCore 1) => (PV m tab ix0 ix1).st 1 d c)
          ∗ ((bigSep Finset.univ fun c : Fin ((K (F := F)).nCore 1) => (PV m tab ix0 ix1).dn 1 d c)
              -∗ iprop((tabLoc d ↦{fullShare} tab d) ∗ (idx1Loc d ↦{fullShare} ix1 d) ∗ (out1Loc d ↦{fullShare} gath (tab d) (ix1 d))))) := by
  show iprop((tabLoc d ↦{fullShare} tab d) ∗ (idx1Loc d ↦{fullShare} ix1 d) ∗ (out1Loc d ↦{fullShare} m (out1Loc d)))
    ⊢ iprop((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => out1Loc d ↦[oSetN (13 * (2 * i.val + c.val) + k.val)]{fullShare} m (out1Loc d)))
        ∗ ((bigSep Finset.univ fun c : Fin 2 => bigSep Finset.univ fun i : Fin 16 =>
          iprop((tabLoc d ↦{tq (2 * i.val + c.val)} tab d) ∗ (idx1Loc d ↦{tq (2 * i.val + c.val)} ix1 d)
            ∗ bigSep Finset.univ fun k : Fin 13 => out1Loc d ↦[oSetN (13 * (2 * i.val + c.val) + k.val)]{fullShare} gath (tab d) (ix1 d)))
          -∗ iprop((tabLoc d ↦{fullShare} tab d) ∗ (idx1Loc d ↦{fullShare} ix1 d) ∗ (out1Loc d ↦{fullShare} gath (tab d) (ix1 d)))))
  rw [bigSep_cores (fun n => tabLoc d ↦{tq n} tab d) (fun n => idx1Loc d ↦{tq n} ix1 d) (fun n => out1Loc d ↦[oSetN n]{fullShare} m (out1Loc d)),
    bigSep_cores (fun n => tabLoc d ↦{tq n} tab d) (fun n => idx1Loc d ↦{tq n} ix1 d) (fun n => out1Loc d ↦[oSetN n]{fullShare} gath (tab d) (ix1 d)),
    out1_rows (F := F) d (m (out1Loc d))]
  iintro ⟨Ht, Hi, Ho⟩
  ihave Ht := (Transfers.pointsTo_toks_split (ℓ := tabLoc d) (S := Finset.univ) (f := tab d) fullShare 32) $$ Ht
  icases Ht with ⟨Htd, Hts⟩
  ihave Hi := (Transfers.pointsTo_toks_split (ℓ := idx1Loc d) (S := Finset.univ) (f := ix1 d) fullShare 32) $$ Hi
  icases Hi with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join (ℓ := tabLoc d) (S := Finset.univ) (f := tab d) fullShare 32)
    isplitl [Htd]; · iexact Htd
    iexact Hts
  isplitl [Hid His]
  · iapply (Transfers.pointsTo_toks_join (ℓ := idx1Loc d) (S := Finset.univ) (f := ix1 d) fullShare 32)
    isplitl [Hid]; · iexact Hid
    iexact His
  -- the 416 blocks, all at the gathered rows, are the array at the gathered rows
  iapply (Entails.of_eq (out1_rows (F := F) d (gath (tab d) (ix1 d))).symm)
  iexact Ho

end SplitV

end Cert.Proof.KI

end
-- ==== Proof.CallsV.lean ====
/-
  The two gather calls as steps of @main's proof, the gathered rows named.
-/
import proofs.«205278_g66915590471714_cont_9to1_m_383_35_alg».proof.Proof.SplitV
import proofs.«205278_g66915590471714_cont_9to1_m_383_35_alg».proof.Proof.Calls
import proofs.«205278_g66915590471714_cont_9to1_m_383_35_alg».proof.Proof.LaunchEnds

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held)

variable {F : FTy → Type} [FloatOps F]

local notation "𝕄" => MT nD τ sig (HIx 2) (Elt F) ℕ UU ℕ

/-- What the handshakes carry, the gathered rows named, at the contents @main computes. -/
abbrev PVm (m : (ℓ : Loc nD τ sig) → Buf (Elt F) ℓ) : (K (F := F)).Pay (nD := nD) (Val := Elt F) (Name := ℕ) (U := UU) :=
  PV m (tabC m) (ix0C m) (ix1C m)

section CallsV

variable (m : (ℓ : Loc nD τ sig) → Buf (Elt F) ℓ)

/-- Gather call 0 from @main, the output named: the call's output array comes back holding the gathered rows. -/
theorem call_stepV0 [∀ e, Nonempty (Elt F e)] (κ : GSem nD τ sig → ℕ) (d : Dev nD) (V : Valuation τ sig (Elt F))
    (hT : V (Proc.devRef .tc main_v0) = tabC m d) (hI : V (Proc.devRef .tc main_v21) = ix0C m d)
    (hO : V (Proc.devRef .tc main_v22) = m (out0Loc d)) (Φ : PUnit → sProp 𝕄) :
    iprop((K (F := F)).ctx EH (PVm m) κ ∗ (K (F := F)).tcSt EH d 0 ∗ held (SparseCore.T d) (Pipeline.ucRefs τ sig) V
        ∗ (iprop((K (F := F)).tcSt EH d 1 ∗ held (SparseCore.T d) (Pipeline.ucRefs τ sig)
            (Function.update V (Proc.devRef .tc main_v22) (gath (tabC m d) (ix0C m d)))) -∗ Φ ⟨⟩))
      ⊢ wp frame (wpE ((K (F := F)).defs (D (F := F))) 𝒱 (SparseCore.T d) none) Set.univ (sc.run d 0) Φ := by
  rw [held_before0 m d V hT hI hO]
  iintro ⟨#Hctx, Hst, ⟨⟨Ht, Hi, Ho⟩, Hrest⟩, Hk⟩
  -- the three arrays dealt to the SparseCores' workers, with the way back
  ihave Hsp := (callV0_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := PVm m) κ d 0) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, Ho⟩
  iapply Hk
  isplitl [Hst]; · iexact Hst
  rw [held_after0 m d V hT hI]
  isplitl [Ht Hi Ho]
  · isplitl [Ht]; · iexact Ht
    isplitl [Hi]; · iexact Hi
    iexact Ho
  iexact Hrest

/-- Gather call 1 from @main, the output named: the call's output array comes back holding the gathered rows. -/
theorem call_stepV1 [∀ e, Nonempty (Elt F e)] (κ : GSem nD τ sig → ℕ) (d : Dev nD) (V : Valuation τ sig (Elt F))
    (hT : V (Proc.devRef .tc main_v0) = tabC m d) (hI : V (Proc.devRef .tc main_v29) = ix1C m d)
    (hO : V (Proc.devRef .tc main_v30) = m (out1Loc d)) (Φ : PUnit → sProp 𝕄) :
    iprop((K (F := F)).ctx EH (PVm m) κ ∗ (K (F := F)).tcSt EH d 1 ∗ held (SparseCore.T d) (Pipeline.ucRefs τ sig) V
        ∗ (iprop((K (F := F)).tcSt EH d 2 ∗ held (SparseCore.T d) (Pipeline.ucRefs τ sig)
            (Function.update V (Proc.devRef .tc main_v30) (gath (tabC m d) (ix1C m d)))) -∗ Φ ⟨⟩))
      ⊢ wp frame (wpE ((K (F := F)).defs (D (F := F))) 𝒱 (SparseCore.T d) none) Set.univ (sc.run d 1) Φ := by
  rw [held_before1 m d V hT hI hO]
  iintro ⟨#Hctx, Hst, ⟨⟨Ht, Hi, Ho⟩, Hrest⟩, Hk⟩
  -- the three arrays dealt to the SparseCores' workers, with the way back
  ihave Hsp := (callV1_split m (tabC m) (ix0C m) (ix1C m) d) $$ [Ht Hi Ho]
  · isplitl [Ht]; · iexact Ht
    isplitl [Hi]; · iexact Hi
    iexact Ho
  icases Hsp with ⟨Hgo, Hback⟩
  iapply ((K (F := F)).wp_run (D (F := F)) 𝒱 (EH := EH) (P := PVm m) κ d 1) $$ [Hst Hgo Hback Hrest Hk]
  isplitr; · iexact Hctx
  isplitl [Hst]; · iexact Hst
  isplitl [Hgo]; · iexact Hgo
  iintro ⟨Hst, Hdn⟩
  ihave Hb := Hback $$ Hdn
  icases Hb with ⟨Ht, Hi, Ho⟩
  iapply Hk
  isplitl [Hst]; · iexact Hst
  rw [held_after1 m d V hT hI]
  isplitl [Ht Hi Ho]
  · isplitl [Ht]; · iexact Ht
    isplitl [Hi]; · iexact Hi
    iexact Ho
  iexact Hrest

/-- The launch element, for the payloads with the gathered rows named: the kernels' proofs consume nothing of it either. -/
theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PVm m).x q thr) := by
  exact hu₀ m (tabC m) (ix0C m) (ix1C m)

end CallsV

end Cert.Proof.KI

end
-- ==== Proof.MainV.lean ====
/-
  @main on the TensorCore with every result named: the gather calls leave the gathered rows, the pipelines what their
  write-backs leave, so that the program's result array is a function of the launch memory.
-/
import proofs.«205278_g66915590471714_cont_9to1_m_383_35_alg».proof.Proof.RegionSteps
import proofs.«205278_g66915590471714_cont_9to1_m_383_35_alg».proof.Proof.Keep
import proofs.«205278_g66915590471714_cont_9to1_m_383_35_alg».proof.Proof.CallsV
import proofs.«205278_g66915590471714_cont_9to1_m_383_35_alg».proof.Proof.Main

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

/-- One buffer out of a held set. -/
theorem held_insert (c : Thread nD τ) {S : Finset (DevRef τ sig)} {b : DevRef τ sig} (hb : b ∉ S) (V : Valuation τ sig (Elt F)) :
    (held c (insert b S) V : sProp 𝕄) = iprop(((c.1, b) ↦{fullShare} V b) ∗ held c S V) := by
  unfold StableHlo.held; exact SparseCore.bigSep_insert' hb

section MainV

variable (m : (ℓ : Loc nD τ sig) → Buf (Elt F) ℓ) (ρ : Dev nD → PrngReg)

/-- What the first gather call leaves: the first half's gathered rows; -/
def f0N (d : Dev nD) : Buf (Elt F) (out0Loc d) := gath (tabC m d) (ix0C m d)
/-- the first pipeline's result; -/
def g0N (d : Dev nD) : Buf (Elt F) (res0Loc d) := resOf1 (Vc m d (f0N m d)) d
/-- the second half's gathered rows; -/
def f1N (d : Dev nD) : Buf (Elt F) (out1Loc d) := gath (tabC m d) (ix1C m d)
/-- the second pipeline's result: the program's. -/
def g1N (d : Dev nD) : Buf (Elt F) (res1Loc d) := resOf3 (Vg m d (f0N m d) (g0N m d) (f1N m d)) d

/-- The buffers at the end of @main. -/
def VhN (d : Dev nD) : Valuation τ sig (Elt F) := Vh m d (f0N m d) (g0N m d) (f1N m d) (g1N m d)

/-- What @main leaves the value claim on device `d`: the argument arrays at their launch contents and the result array at
    the second pipeline's result. -/
def FINV (d : Dev nD) : sProp 𝕄 := iprop(FIN m d ∗ (res1Loc d ↦{fullShare} g1N m d))

/-- The result array and the argument arrays out of every unscoped buffer, at the end of @main. -/
theorem finV_of_held (d : Dev nD) :
    (held (SparseCore.T d) (Pipeline.ucRefs τ sig) (VhN m d) : sProp 𝕄) ⊢ FINV m d := by
  unfold FINV FIN
  have hsub : insert (Proc.devRef .tc main_v33) argSet ⊆ Pipeline.ucRefs τ sig := by
    intro b hb
    simp only [argSet, Finset.mem_insert, Finset.mem_singleton] at hb
    rcases hb with rfl | rfl | rfl | rfl | rfl | rfl | rfl | rfl | rfl | rfl | rfl | rfl | rfl | rfl | rfl | rfl | rfl <;>
      exact Finset.mem_filter.mpr ⟨StableHlo.devRef_mem_tcRefs _, by decide⟩
  rw [StableHlo.held_sub_split (SparseCore.T d) hsub]
  refine sep_elim_left.trans ?_
  rw [held_insert (SparseCore.T d) (show Proc.devRef .tc main_v33 ∉ argSet by decide) (VhN m d)]
  rw [StableHlo.held_congr (SparseCore.T d) (S := argSet) (V := VhN m d) (V' := Vl m d) (Vh_arg m d (f0N m d) (g0N m d) (f1N m d) (g1N m d)),
    show VhN m d (Proc.devRef .tc main_v33) = g1N m d from by unfold VhN Vh; exact Function.update_self _ _ _]
  iintro ⟨Hr, Ha⟩
  isplitl [Ha]; · iexact Ha
  iexact Hr

theorem hmainV [∀ e, Nonempty (Elt F e)] (κ : GSem nD τ sig → ℕ) (d : Dev nD) :
    iprop((K (F := F)).ctx EH (PVm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FINV m d) := by
  unfold SparseCore.Cfg.tcRes G
  rw [show (unscopedBufs d (fun b => m ((SparseCore.T d).loc b)) : sProp 𝕄) = held (SparseCore.T d) (Pipeline.ucRefs τ sig) (Vl m d) from
    Pipeline.unscopedBufs_held d (Vl m d)]
  rw [main_eq, bigSep_Fin2]
  iintro ⟨#Hctx, Hst, ⟨Hb, Hheld, -, -⟩, ⟨Hcg0, Hti0⟩, ⟨Hcg1, Hti1⟩⟩
  iapply (StableHlo.wp_seq (defs := (K (F := F)).defs (D (F := F))) 𝒱 none Set.univ d (Pipeline.ucRefs τ sig) _ hostOps0 hostOps0_sub hostOps0_fresh (Vl m d)) $$ [Hb Hheld]
  · isplitl [Hb] <;> iassumption
  iintro ⟨Hb, Hheld⟩
  rw [show StableHlo.after hostOps0 (Vl m d) = Va m d from rfl, wp_bind]
  iapply (call_stepV0 m κ d (Va m d) (Va_tab m d) (Va_ix0 m d) (Va_out0 m d) _)
  isplitr; · iexact Hctx
  isplitl [Hst]; · iexact Hst
  isplitl [Hheld]; · iexact Hheld
  iintro ⟨Hst, Hheld⟩
  rw [show Function.update (Va m d) (Proc.devRef .tc main_v22) (gath (tabC m d) (ix0C m d)) = Vb m d (f0N m d) from rfl]
  iapply (StableHlo.wp_seq (defs := (K (F := F)).defs (D (F := F))) 𝒱 none Set.univ d (Pipeline.ucRefs τ sig) _ hostOps1 hostOps1_sub hostOps1_fresh (Vb m d (f0N m d))) $$ [Hb Hheld]
  · isplitl [Hb] <;> iassumption
  iintro ⟨Hb, Hheld⟩
  rw [show StableHlo.after hostOps1 (Vb m d (f0N m d)) = Vc m d (f0N m d) from rfl, wp_bind]
  iapply (region_step0 (PVm m) κ d (Vc m d (f0N m d)) _)
  isplitr; · iexact Hctx
  isplitl [Hb]; · iexact Hb
  isplitl [Hst]; · iexact Hst
  isplitl [Hheld]; · iexact Hheld
  isplitl [Hcg0]; · iexact Hcg0
  isplitl [Hti0]; · iexact Hti0
  iintro ⟨Hb, Hst, Hheld⟩
  rw [show Function.update (Vc m d (f0N m d)) (Proc.devRef .tc main_v25) (resOf1 (Vc m d (f0N m d)) d) = Vd m d (f0N m d) (g0N m d) from rfl]
  iapply (StableHlo.wp_seq (defs := (K (F := F)).defs (D (F := F))) 𝒱 none Set.univ d (Pipeline.ucRefs τ sig) _ hostOps2 hostOps2_sub hostOps2_fresh (Vd m d (f0N m d) (g0N m d))) $$ [Hb Hheld]
  · isplitl [Hb] <;> iassumption
  iintro ⟨Hb, Hheld⟩
  rw [show StableHlo.after hostOps2 (Vd m d (f0N m d) (g0N m d)) = Ve m d (f0N m d) (g0N m d) from rfl, wp_bind]
  iapply (call_stepV1 m κ d (Ve m d (f0N m d) (g0N m d)) (Ve_tab m d _ _) (Ve_ix1 m d _ _) (Ve_out1 m d _ _) _)
  isplitr; · iexact Hctx
  isplitl [Hst]; · iexact Hst
  isplitl [Hheld]; · iexact Hheld
  iintro ⟨Hst, Hheld⟩
  rw [show Function.update (Ve m d (f0N m d) (g0N m d)) (Proc.devRef .tc main_v30) (gath (tabC m d) (ix1C m d)) = Vf m d (f0N m d) (g0N m d) (f1N m d) from rfl]
  iapply (StableHlo.wp_seq (defs := (K (F := F)).defs (D (F := F))) 𝒱 none Set.univ d (Pipeline.ucRefs τ sig) _ hostOps3 hostOps3_sub hostOps3_fresh (Vf m d (f0N m d) (g0N m d) (f1N m d))) $$ [Hb Hheld]
  · isplitl [Hb] <;> iassumption
  iintro ⟨Hb, Hheld⟩
  rw [show StableHlo.after hostOps3 (Vf m d (f0N m d) (g0N m d) (f1N m d)) = Vg m d (f0N m d) (g0N m d) (f1N m d) from rfl, wp_bind]
  iapply (region_step1 (PVm m) κ d (Vg m d (f0N m d) (g0N m d) (f1N m d)) _)
  isplitr; · iexact Hctx
  isplitl [Hb]; · iexact Hb
  isplitl [Hst]; · iexact Hst
  isplitl [Hheld]; · iexact Hheld
  isplitl [Hcg1]; · iexact Hcg1
  isplitl [Hti1]; · iexact Hti1
  iintro ⟨Hb, Hst, Hheld⟩
  rw [show Function.update (Vg m d (f0N m d) (g0N m d) (f1N m d)) (Proc.devRef .tc main_v33) (resOf3 (Vg m d (f0N m d) (g0N m d) (f1N m d)) d) = VhN m d from rfl]
  rw [wp_pure]; imodintro
  isplitl [Hst]; · iexact Hst
  iapply (finV_of_held m d); iexact Hheld

/-- The state's memory holds the argument arrays' launch contents and the named result. -/
def fqV (d : Dev nD) (s' : Phys nD τ sig (Elt F)) : Prop :=
  s'.mem.mem (res1Loc d) = g1N m d ∧ fq m d s'

theorem hfinV (d : Dev nD) (s' : Phys nD τ sig (Elt F)) : iprop(FINV m d ∗ SI s') ⊢ (⌜fqV m d s'⌝ : sProp 𝕄) := by
  unfold FINV
  iintro ⟨⟨Hf, Hr⟩, HSI⟩
  icombine HSI Hr gives %hr
  ihave Hq := (hfin m d s') $$ [Hf HSI]
  · isplitl [Hf] <;> iassumption
  icases Hq with %hq
  ipureintro
  exact ⟨Buf.eq_of_forall_mem_univ hr, hq⟩

end MainV

end Cert.Proof.KI

end
-- ==== Proof.LibDelivered.lean ====
/-
  WHAT A TRANSFER DELIVERS, READ AT AN INDEX.

  * A write through a view's whole rectangle, read back through the view, is the payload (whatever the buffer held).
  * A gather's payload at an index of the destination is the source at the index's own coordinates, but on the indexed
    axis at the row the offset list names for the index's row; an offset list of rank one names, for row `k`, the
    word at coordinate `k`. So a rank-two gather along axis 0, written through the destination's whole rectangle and
    read back at `(b, c)`, is the source at `(list[b], c)`.
  * A plain copy writes, unmasked, what the source read: read back through the destination it is what the source
    read; in the destination's buffer, the place of index `x` holds the payload at `x`, and every place of the
    destination's is the place of some index.

  Nothing here mentions a program.
-/
import Idealize.ShloMosaic.Lib.Writes
import Idealize.ShloMosaic.Lib.SparseCore.Stream
import Idealize.ShloMosaic.Lib.ValueIdx

namespace Cert.LibDelivered

open Idealize.ShloMosaic Idealize.ShloMosaic.ValueIdx

/-! ## A whole-rectangle write read back -/

section Whole
variable {sig : RefSig} {κ : Kind} {sp : Space} {s : Shape} {e : EltTy} {Val : EltTy → Type}

/-- A write through a view's whole rectangle, read back through the view, is the payload. -/
theorem read_writes_whole (v : View sig κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- In the buffer, after a write through the view's whole rectangle, the place of index `x` holds the payload at `x`. -/
theorem writes_whole_emb (v : View sig κ sp s e) (f : v.ty.Contents Val) (w : (Rect.whole s).shape.Idx → Val e) (x : s.Idx) :
    v.writes Val f [⟨Rect.whole s, w⟩] (v.emb x) = _root_.cast (congrArg Val v.elt_eq.symm) (w x) := by
  have h := View.write_emb_of_mem (v := v.slice (Rect.whole s)) (Val := Val) f w (M := Finset.univ) (x := x) (Finset.mem_univ x)
  have he : (v.slice (Rect.whole s)).emb x = v.emb x := by
    show v.emb ((Rect.whole s).emb x) = v.emb x
    rw [Rect.emb_whole_apply]
  rw [he] at h
  exact h

/-- Every place of the view's is the place of some index, where the written buffer holds the payload. -/
theorem writes_whole_at (v : View sig κ sp s e) (f : v.ty.Contents Val) (w : (Rect.whole s).shape.Idx → Val e) {j : v.ty.Idx} (hj : j ∈ v.set) :
    ∃ x, v.emb x = j ∧ v.writes Val f [⟨Rect.whole s, w⟩] j = _root_.cast (congrArg Val v.elt_eq.symm) (w x) := by
  obtain ⟨x, -, rfl⟩ := Finset.mem_map.mp hj
  exact ⟨x, rfl, writes_whole_emb v f w x⟩

/-! ## A plain copy -/

/-- An unmasked write of what a source read, read back through the destination, is what the source read. -/
theorem read_copy (v : View sig κ sp s e) (f : v.ty.Contents Val) (w : s.Idx → Val e) :
    v.read Val (v.write Val f ((ReadAs.same : ReadAs Val s e s e).apply w) Finset.univ) = w := by
  rw [ReadAs.apply_same]
  exact View.read_write_univ f w

/-- … at an index. -/
theorem read_copy_apply (v : View sig κ sp s e) (f : v.ty.Contents Val) (w : s.Idx → Val e) (x : s.Idx) :
    v.read Val (v.write Val f ((ReadAs.same : ReadAs Val s e s e).apply w) Finset.univ) x = w x :=
  congrFun (read_copy v f w) x

/-- In the destination's buffer, the place of index `x` holds the payload at `x`. -/
theorem write_copy_emb (v : View sig κ sp s e) (f : v.ty.Contents Val) (w : s.Idx → Val e) (x : s.Idx) :
    v.write Val f ((ReadAs.same : ReadAs Val s e s e).apply w) Finset.univ (v.emb x)
      = _root_.cast (congrArg Val v.elt_eq.symm) (w x) := by
  rw [ReadAs.apply_same]
  exact View.write_emb_of_mem f w (Finset.mem_univ x)

/-- Every place of the destination's is the place of some index, where the written buffer holds the payload. -/
theorem write_copy_at (v : View sig κ sp s e) (f : v.ty.Contents Val) (w : s.Idx → Val e) {j : v.ty.Idx} (hj : j ∈ v.set) :
    ∃ x, v.emb x = j ∧ v.write Val f ((ReadAs.same : ReadAs Val s e s e).apply w) Finset.univ j
      = _root_.cast (congrArg Val v.elt_eq.symm) (w x) := by
  obtain ⟨x, -, rfl⟩ := Finset.mem_map.mp hj
  exact ⟨x, rfl, write_copy_emb v f w x⟩

end Whole

/-! ## A gather's payload -/

section Gather
variable {F : FTy → Type} {e : EltTy}

/-- A gather's payload at an index: the source at the gather's source index. -/
theorem gatherPayload_apply {s₀ s : Shape} {a : Nat} (hg : s₀.Gathers a s) (g : s₀.Idx → Elt F e)
    (r : Fin (s.size hg.axis') → Fin (s₀.size hg.axis)) (x : s.Idx) :
    SparseCore.gatherPayload hg g r x = g (hg.idx r x) := rfl

/-- Rank two along axis 0: the source index of `(b, c)` is `(the row named for b, c)`. -/
theorem gather_idx_rank2 {z o L : Nat} (hg : (⟨2, ![z, L]⟩ : Shape).Gathers 0 ⟨2, ![o, L]⟩)
    (r : Fin o → Fin z) (j : (⟨2, ![o, L]⟩ : Shape).Idx) :
    hg.idx r j = ix2 (r (j 0)) (j 1) := by
  funext a
  match a with
  | 0 => exact hg.idx_axis r j
  | 1 => exact Fin.ext (hg.idx_of_ne r j 1 Nat.one_ne_zero)

/-- An offset list of rank one names, for row `k`, the word at coordinate `k`. -/
theorem rows_rank1 {n o z : Nat} (idx : (⟨1, ![n]⟩ : Shape).Idx → Elt F .i32) (hn : (⟨1, ![n]⟩ : Shape).numel = o)
    (h : ∀ x, (idx x).toNat < z) (k : Fin o) (hk : k.val < n) :
    (SparseCore.rows idx hn h k).val = (idx (ix1 ⟨k.val, hk⟩)).toNat := by
  have e : (⟨1, ![n]⟩ : Shape).rowMajor.symm (k.cast hn.symm) = ix1 ⟨k.val, hk⟩ := by
    apply (⟨1, ![n]⟩ : Shape).rowMajor.injective
    rw [Equiv.apply_symm_apply]
    apply Fin.ext
    rw [Shape.rowMajor_val_one]
    rfl
  show (idx ((⟨1, ![n]⟩ : Shape).rowMajor.symm (k.cast hn.symm))).toNat = _
  rw [e]

/-- A rank-two gather along axis 0 through an offset list of rank one, written through the destination's whole
    rectangle and read back at `(b, c)`: the source at row `list[b]`, column `c`. -/
theorem read_gathered {sig : RefSig} {κ : Kind} {sp : Space} {z o L n : Nat}
    (v : View sig κ sp (⟨2, ![o, L]⟩ : Shape) e) (f : v.ty.Contents (Elt F))
    (hg : (⟨2, ![z, L]⟩ : Shape).Gathers 0 ⟨2, ![o, L]⟩) (g : (⟨2, ![z, L]⟩ : Shape).Idx → Elt F e)
    (idx : (⟨1, ![n]⟩ : Shape).Idx → Elt F .i32) (hn : (⟨1, ![n]⟩ : Shape).numel = o) (hin : ∀ x, (idx x).toNat < z)
    (b : Fin o) (c : Fin L) (hb : b.val < n) :
    v.read (Elt F) (v.writes (Elt F) f [⟨Rect.whole _, SparseCore.gatherPayload hg g (SparseCore.rows idx hn hin)⟩]) (ix2 b c)
      = g (ix2 ⟨(idx (ix1 ⟨b.val, hb⟩)).toNat, hin _⟩ c) := by
  rw [read_writes_whole]
  refine congrArg g ?_
  refine (gather_idx_rank2 hg (SparseCore.rows idx hn hin) (ix2 b c)).trans ?_
  funext a
  match a with
  | 0 => exact Fin.ext (rows_rank1 idx hn hin b hb)
  | 1 => rfl

end Gather

end Cert.LibDelivered
-- ==== Proof.TileVFacts.lean ====
/-
  What the gather kernel's copies leave in an output block, read at an index of the block: the table's row that the
  list word names, at the index's column.
-/
import proofs.«205278_g66915590471714_cont_9to1_m_383_35_alg».proof.Proof.SetupV
import proofs.«205278_g66915590471714_cont_9to1_m_383_35_alg».proof.Proof.TileFacts
import proofs.«205278_g66915590471714_cont_9to1_m_383_35_alg».proof.Proof.LibDelivered

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Cert.LibDelivered

variable {F : FTy → Type}

local notation "𝕄" => MT nD τ sig (HIx 2) (Elt F) ℕ UU ℕ

/-! ## A gathered buffer copied out, read at a place of the copy -/

section Generic

variable {sig' : RefSig} {κ : Kind}

/-- A rank-two rectangle at offset zero and unit stride places an index at itself. -/
theorem emb_unit00 {o L : Nat} (h : ∀ a, (![0, 0] : Fin 2 → Nat) a + (⟨2, ![o, L]⟩ : Shape).size a ≤ (⟨2, ![o, L]⟩ : Shape).size a)
    (x : (⟨2, ![o, L]⟩ : Shape).Idx) :
    (Rect.unit (s := ⟨2, ![o, L]⟩) ![0, 0] (⟨2, ![o, L]⟩ : Shape).size h).emb x = x := by
  funext a; apply Fin.ext
  match a with
  | 0 => show 0 + 1 * (x 0).val = (x 0).val; omega
  | 1 => show 0 + 1 * (x 1).val = (x 1).val; omega

/-- Rows gathered into a buffer (whatever was written there before), the buffer then copied whole into a view: a
    place of that view holds the source's row named by the list word of the place's row, at the place's column. -/
theorem gathered_copy_at {spO spR : Space} {z o L n : Nat}
    (vO : View sig' κ spO ⟨2, ![o, L]⟩ .f32) (f0 : vO.ty.Contents (Elt F))
    (vR : View sig' κ spR ⟨2, ![o, L]⟩ .f32) (fR : vR.ty.Contents (Elt F))
    (h0 : ∀ a, (![0, 0] : Fin 2 → Nat) a + (⟨2, ![o, L]⟩ : Shape).size a ≤ (⟨2, ![o, L]⟩ : Shape).size a)
    (hg : (⟨2, ![z, L]⟩ : Shape).Gathers 0 ⟨2, ![o, L]⟩) (g : (⟨2, ![z, L]⟩ : Shape).Idx → Elt F .f32)
    (idx : (⟨1, ![n]⟩ : Shape).Idx → Elt F .i32) (hn : (⟨1, ![n]⟩ : Shape).numel = o) (hin : ∀ x, (idx x).toNat < z)
    (hno : ∀ b : Fin o, b.val < n) (rest : List (View.Piece (Elt F) ⟨2, ![o, L]⟩ .f32)) {j : vO.ty.Idx} (hj : j ∈ vO.set) :
    ∃ x : (⟨2, ![o, L]⟩ : Shape).Idx, vO.emb x = j ∧
      vO.writes (Elt F) f0 [⟨Rect.whole _, ReadAs.same.apply (vR.read (Elt F) (vR.writes (Elt F) fR
          (⟨Rect.unit ![0, 0] (⟨2, ![o, L]⟩ : Shape).size h0, SparseCore.gatherPayload hg g (SparseCore.rows idx hn hin)⟩ :: rest)))⟩] j
        = _root_.cast (congrArg (Elt F) vO.elt_eq.symm) (g (ix2 ⟨(idx (ix1 ⟨(x 0).val, hno (x 0)⟩)).toNat, hin _⟩ (x 1))) := by
  obtain ⟨x, hx, e⟩ := writes_whole_at vO f0 _ hj
  refine ⟨x, hx, e.trans (congrArg _ ?_)⟩
  rw [ReadAs.apply_same]
  have e1 := View.read_writes_cons_emb vR fR (Rect.unit ![0, 0] (⟨2, ![o, L]⟩ : Shape).size h0)
    (SparseCore.gatherPayload hg g (SparseCore.rows idx hn hin)) rest x
  rw [emb_unit00] at e1
  rw [e1, gatherPayload_apply]
  refine congrArg g ((gather_idx_rank2 hg (SparseCore.rows idx hn hin) x).trans ?_)
  funext a
  match a with
  | 0 => exact Fin.ext (rows_rank1 idx hn hin (x 0) (hno (x 0)))
  | 1 => rfl

end Generic

/-! ## Call 0: an output block after its copy, read at a place of the block -/

/-- Worker numbers of call 0's grid stay below 32. -/
theorem wkr_lt0 (L : grid0.Coords) : 2 * (L 1).val + (L 0).val < 32 := by
  have h0 : (L 0).val < 2 := (L 0).isLt
  have h1 : (L 1).val < 16 := (L 1).isLt
  omega

/-- Word `b` of list `k` of the index scratch, after the fetch, is word `(w, k, 0, b)` of the call's index array, `w` the
    worker's number. -/
theorem read_list0 (ix0 : (d : Dev nD) → Buf (Elt F) (idx0Loc d)) (d : Dev nD) (c : Fin τ.nSC) (i : Fin τ.nSub) (L : grid0.Coords)
    (fI : Buf (Elt F) ((Memref.whole cc0_scratch0).view.loc (V d c i))) (k : Fin 13)
    (row : Fin 3 → Nat) (hrow : row = ![k.val, 0, 0]) (hk : ∀ a, row a + S1x1x128.size a ≤ S13x1x128.size a)
    (hs : ∀ a, (Rect.unit (s := S13x1x128) row S1x1x128.size hk).stride a = 1) (hq : S1x1x128.Squeezes S128) (b : Fin 128) :
    View.read (Elt F) (((Memref.whole cc0_scratch0).slice (Rect.unit (s := S13x1x128) row S1x1x128.size hk) hs).squeeze S128 hq).view
        (View.write (Elt F) (Memref.whole cc0_scratch0).view fI
          (ReadAs.same.apply (View.read (Elt F) (iSliceK0 L).view (ix0 d))) Finset.univ) (ValueIdx.ix1 b)
      = ix0 d (ix4 (⟨2 * (L 1).val + (L 0).val, wkr_lt0 L⟩ : Fin 32) k (0 : Fin 1) b) := by
  subst hrow
  rw [View.write_whole_univ, View.read_apply, cast_eq, ReadAs.apply_same, View.read_apply, cast_eq]
  refine congrArg (ix0 d) ?_
  -- the list's squeeze and the slice's squeeze keep row-major positions
  have e1 : Shape.reshapeEquiv (s := S1x1x128) (s' := S128) hq.numel_eq (ValueIdx.ix1 b)
      = ix3 (n0 := 1) (n1 := 1) (n2 := 128) 0 0 b := by
    apply Shape.reshapeEquiv_eq_of_rowMajor
    rw [Shape.rowMajor_val_three (d := ![1, 1, 128]), Shape.rowMajor_val_one (d := ![128])]
    show (0 * 1 + 0) * 128 + b.val = b.val
    omega
  have e2 : ∀ y : S13x1x128.Idx, Shape.reshapeEquiv (s := S1x13x1x128) (s' := S13x1x128) squeezes_S1x13x1x128_S13x1x128.numel_eq y
      = ix4 (n0 := 1) (n1 := 13) (n2 := 1) (n3 := 128) 0 (y 0) (y 1) (y 2) := by
    intro y
    apply Shape.reshapeEquiv_eq_of_rowMajor
    rw [Shape.rowMajor_val_four (d := ![1, 13, 1, 128]), Shape.rowMajor_val_three (d := ![13, 1, 128])]
    show ((0 * 13 + (y 0).val) * 1 + (y 1).val) * 128 + (y 2).val = ((y 0).val * 1 + (y 1).val) * 128 + (y 2).val
    omega
  show (Rect.unit (s := S32x13x1x128) (k0_off1 L) S1x13x1x128.size (k0_off1_inb L)).emb
      (Shape.reshapeEquiv squeezes_S1x13x1x128_S13x1x128.numel_eq
        ((Rect.unit (s := S13x1x128) ![k.val, 0, 0] S1x1x128.size hk).emb (Shape.reshapeEquiv hq.numel_eq (ValueIdx.ix1 b)))) = _
  rw [e1, e2]
  have ho := congrFun (k0_off1_eq L)
  funext a; apply Fin.ext
  match a with
  | 0 => show k0_off1 L 0 + 1 * 0 = 2 * (L 1).val + (L 0).val
         rw [ho 0]; show 2 * (L 1).val + (L 0).val + 1 * 0 = _; omega
  | 1 => show k0_off1 L 1 + 1 * (k.val + 1 * 0) = k.val
         rw [ho 1]; show 0 + 1 * (k.val + 1 * 0) = k.val; omega
  | 2 => show k0_off1 L 2 + 1 * (0 + 1 * 0) = 0
         rw [ho 2]; show 0 + 1 * (0 + 1 * 0) = 0; omega
  | 3 => show k0_off1 L 3 + 1 * (0 + 1 * b.val) = b.val
         rw [ho 3]; show 0 + 1 * (0 + 1 * b.val) = b.val; omega

/-- The table read through the program's whole-table slice is the table. -/
theorem read_tabSlice0 (d : Dev nD) (tabc : Buf (Elt F) (tabLoc d))
    (h : ∀ a, (![0, 0] : Fin 2 → Nat) a + S26000x128.size a ≤ S26000x128.size a)
    (hs : ∀ a, (Rect.unit (s := S26000x128) ![0, 0] S26000x128.size h).stride a = 1) (y : S26000x128.Idx) :
    View.read (Elt F) ((Memref.whole main_v0_scv).slice (Rect.unit (s := S26000x128) ![0, 0] S26000x128.size h) hs).view tabc y = tabc y := by
  rw [View.read_apply, cast_eq]
  show tabc ((Rect.unit (s := S26000x128) ![0, 0] S26000x128.size h).emb y) = tabc y
  rw [emb_unit00]

/-- Block `13 w + k` of call 0's output after list `k`'s rows were gathered into a row buffer and the buffer copied to the
    block: at every place of the block, the gathered rows. -/
theorem blk_value0 (tab : (d : Dev nD) → Buf (Elt F) (tabLoc d)) (ix0 : (d : Dev nD) → Buf (Elt F) (idx0Loc d))
    (hidx : ∀ (d : Dev nD) (j : S32x13x1x128.Idx), (ix0 d j).toNat < 26000)
    (d : Dev nD) (c : Fin τ.nSC) (i : Fin τ.nSub) (L : grid0.Coords) (k : Fin 13) (v : BitVec 32) (hv : v = BitVec.ofNat 32 k.val)
    (hb : ∀ a, k0_off2 L v a + S128x128.size a ≤ S53248x128.size a) (f0 : Buf (Elt F) (out0Loc d))
    {spR : Space} (vR : View sig .scVector spR S128x128 .f32) (fR : vR.ty.Contents (Elt F))
    (h0 : ∀ a, (![0, 0] : Fin 2 → Nat) a + S128x128.size a ≤ S128x128.size a)
    (hT : ∀ a, (![0, 0] : Fin 2 → Nat) a + S26000x128.size a ≤ S26000x128.size a)
    (hsT : ∀ a, (Rect.unit (s := S26000x128) ![0, 0] S26000x128.size hT).stride a = 1)
    (hg : S26000x128.Gathers 0 S128x128)
    (fI : Buf (Elt F) ((Memref.whole cc0_scratch0).view.loc (V d c i)))
    (row : Fin 3 → Nat) (hrow : row = ![k.val, 0, 0]) (hk : ∀ a, row a + S1x1x128.size a ≤ S13x1x128.size a)
    (hs : ∀ a, (Rect.unit (s := S13x1x128) row S1x1x128.size hk).stride a = 1) (hq : S1x1x128.Squeezes S128)
    (hn : S128.numel = S128x128.size hg.axis')
    (hin : ∀ x, (View.read (Elt F) (((Memref.whole cc0_scratch0).slice (Rect.unit (s := S13x1x128) row S1x1x128.size hk) hs).squeeze S128 hq).view
        (View.write (Elt F) (Memref.whole cc0_scratch0).view fI
          (ReadAs.same.apply (View.read (Elt F) (iSliceK0 L).view (ix0 d))) Finset.univ) x).toNat < S26000x128.size hg.axis)
    (rest : List (View.Piece (Elt F) S128x128 .f32)) :
    ∀ j ∈ ((Memref.whole main_v22_scv).slice (Rect.unit (s := S53248x128) (k0_off2 L v) S128x128.size hb) (fun _ => rfl)).view.set,
      ((Memref.whole main_v22_scv).slice (Rect.unit (s := S53248x128) (k0_off2 L v) S128x128.size hb) (fun _ => rfl)).view.writes (Elt F) f0
          [⟨Rect.whole _, ReadAs.same.apply (vR.read (Elt F) (vR.writes (Elt F) fR
            (⟨Rect.unit ![0, 0] S128x128.size h0,
              SparseCore.gatherPayload hg
                (View.read (Elt F) ((Memref.whole main_v0_scv).slice (Rect.unit (s := S26000x128) ![0, 0] S26000x128.size hT) hsT).view (tab d))
                (SparseCore.rows
                  (View.read (Elt F) (((Memref.whole cc0_scratch0).slice (Rect.unit (s := S13x1x128) row S1x1x128.size hk) hs).squeeze S128 hq).view
                    (View.write (Elt F) (Memref.whole cc0_scratch0).view fI
                      (ReadAs.same.apply (View.read (Elt F) (iSliceK0 L).view (ix0 d))) Finset.univ))
                  hn hin)⟩ :: rest)))⟩] j
        = gath (tab d) (ix0 d) j := by
  intro j hj
  subst hv
  obtain ⟨x, hx, e⟩ := gathered_copy_at
    ((Memref.whole main_v22_scv).slice (Rect.unit (s := S53248x128) (k0_off2 L (BitVec.ofNat 32 k.val)) S128x128.size hb) (fun _ => rfl)).view f0
    vR fR h0 hg
    (View.read (Elt F) ((Memref.whole main_v0_scv).slice (Rect.unit (s := S26000x128) ![0, 0] S26000x128.size hT) hsT).view (tab d))
    (View.read (Elt F) (((Memref.whole cc0_scratch0).slice (Rect.unit (s := S13x1x128) row S1x1x128.size hk) hs).squeeze S128 hq).view
      (View.write (Elt F) (Memref.whole cc0_scratch0).view fI
        (ReadAs.same.apply (View.read (Elt F) (iSliceK0 L).view (ix0 d))) Finset.univ))
    hn hin (fun b => b.isLt) rest hj
  refine Eq.trans e ?_
  rw [cast_eq, read_tabSlice0]
  subst hx
  -- the place of index x of the block: row 128 (13 w + k) + x 0, column x 1
  have ho := congrFun (k0_off2_closed L k)
  have hx0 : (x 0).val < 128 := (x 0).isLt
  have e0 : ((((Memref.whole main_v22_scv).slice (Rect.unit (s := S53248x128) (k0_off2 L (BitVec.ofNat 32 k.val)) S128x128.size hb) (fun _ => rfl)).view.emb x) 0).val
      = 128 * (13 * (2 * (L 1).val + (L 0).val) + k.val) + (x 0).val := by
    show k0_off2 L (BitVec.ofNat 32 k.val) 0 + 1 * (x 0).val = _
    rw [ho 0]; show 128 * (13 * (2 * (L 1).val + (L 0).val) + k.val) + 1 * (x 0).val = _; omega
  have e1 : ((((Memref.whole main_v22_scv).slice (Rect.unit (s := S53248x128) (k0_off2 L (BitVec.ofNat 32 k.val)) S128x128.size hb) (fun _ => rfl)).view.emb x) 1).val
      = (x 1).val := by
    show k0_off2 L (BitVec.ofNat 32 k.val) 1 + 1 * (x 1).val = _
    rw [ho 1]; show 0 + 1 * (x 1).val = _; omega
  unfold gath
  refine congrArg (tab d) ?_
  funext a
  match a with
  | 0 =>
    apply Fin.ext
    change BitVec.toNat _ = Fin.val (capRow _)
    rw [read_list0 ix0 d c i L fI k row hrow hk hs hq, capRow_val_of_lt (hidx d _)]
    refine congrArg (fun y => ((ix0 d) y).toNat) ?_
    have hk13 : k.val < 13 := k.isLt
    funext a'; apply Fin.ext
    match a' with
    | 0 => show 2 * (L 1).val + (L 0).val = _ / 128 / 13; rw [e0]; omega
    | 1 => show k.val = _ / 128 % 13; rw [e0]; omega
    | 2 => rfl
    | 3 => show (x 0).val = _ % 128; rw [e0]; omega
  | 1 => exact Fin.ext e1.symm

/-! ## Call 1: an output block after its copy, read at a place of the block -/

/-- Worker numbers of call 1's grid stay below 32. -/
theorem wkr_lt1 (L : grid2.Coords) : 2 * (L 1).val + (L 0).val < 32 := by
  have h0 : (L 0).val < 2 := (L 0).isLt
  have h1 : (L 1).val < 16 := (L 1).isLt
  omega

/-- Word `b` of list `k` of the index scratch, after the fetch, is word `(w, k, 0, b)` of the call's index array, `w` the
    worker's number. -/
theorem read_list1 (ix1 : (d : Dev nD) → Buf (Elt F) (idx1Loc d)) (d : Dev nD) (c : Fin τ.nSC) (i : Fin τ.nSub) (L : grid2.Coords)
    (fI : Buf (Elt F) ((Memref.whole cc2_scratch0).view.loc (V d c i))) (k : Fin 13)
    (row : Fin 3 → Nat) (hrow : row = ![k.val, 0, 0]) (hk : ∀ a, row a + S1x1x128.size a ≤ S13x1x128.size a)
    (hs : ∀ a, (Rect.unit (s := S13x1x128) row S1x1x128.size hk).stride a = 1) (hq : S1x1x128.Squeezes S128) (b : Fin 128) :
    View.read (Elt F) (((Memref.whole cc2_scratch0).slice (Rect.unit (s := S13x1x128) row S1x1x128.size hk) hs).squeeze S128 hq).view
        (View.write (Elt F) (Memref.whole cc2_scratch0).view fI
          (ReadAs.same.apply (View.read (Elt F) (iSliceK1 L).view (ix1 d))) Finset.univ) (ValueIdx.ix1 b)
      = ix1 d (ix4 (⟨2 * (L 1).val + (L 0).val, wkr_lt1 L⟩ : Fin 32) k (0 : Fin 1) b) := by
  subst hrow
  rw [View.write_whole_univ, View.read_apply, cast_eq, ReadAs.apply_same, View.read_apply, cast_eq]
  refine congrArg (ix1 d) ?_
  -- the list's squeeze and the slice's squeeze keep row-major positions
  have e1 : Shape.reshapeEquiv (s := S1x1x128) (s' := S128) hq.numel_eq (ValueIdx.ix1 b)
      = ix3 (n0 := 1) (n1 := 1) (n2 := 128) 0 0 b := by
    apply Shape.reshapeEquiv_eq_of_rowMajor
    rw [Shape.rowMajor_val_three (d := ![1, 1, 128]), Shape.rowMajor_val_one (d := ![128])]
    show (0 * 1 + 0) * 128 + b.val = b.val
    omega
  have e2 : ∀ y : S13x1x128.Idx, Shape.reshapeEquiv (s := S1x13x1x128) (s' := S13x1x128) squeezes_S1x13x1x128_S13x1x128.numel_eq y
      = ix4 (n0 := 1) (n1 := 13) (n2 := 1) (n3 := 128) 0 (y 0) (y 1) (y 2) := by
    intro y
    apply Shape.reshapeEquiv_eq_of_rowMajor
    rw [Shape.rowMajor_val_four (d := ![1, 13, 1, 128]), Shape.rowMajor_val_three (d := ![13, 1, 128])]
    show ((0 * 13 + (y 0).val) * 1 + (y 1).val) * 128 + (y 2).val = ((y 0).val * 1 + (y 1).val) * 128 + (y 2).val
    omega
  show (Rect.unit (s := S32x13x1x128) (k2_off1 L) S1x13x1x128.size (k2_off1_inb L)).emb
      (Shape.reshapeEquiv squeezes_S1x13x1x128_S13x1x128.numel_eq
        ((Rect.unit (s := S13x1x128) ![k.val, 0, 0] S1x1x128.size hk).emb (Shape.reshapeEquiv hq.numel_eq (ValueIdx.ix1 b)))) = _
  rw [e1, e2]
  have ho := congrFun (k2_off1_eq L)
  funext a; apply Fin.ext
  match a with
  | 0 => show k2_off1 L 0 + 1 * 0 = 2 * (L 1).val + (L 0).val
         rw [ho 0]; show 2 * (L 1).val + (L 0).val + 1 * 0 = _; omega
  | 1 => show k2_off1 L 1 + 1 * (k.val + 1 * 0) = k.val
         rw [ho 1]; show 0 + 1 * (k.val + 1 * 0) = k.val; omega
  | 2 => show k2_off1 L 2 + 1 * (0 + 1 * 0) = 0
         rw [ho 2]; show 0 + 1 * (0 + 1 * 0) = 0; omega
  | 3 => show k2_off1 L 3 + 1 * (0 + 1 * b.val) = b.val
         rw [ho 3]; show 0 + 1 * (0 + 1 * b.val) = b.val; omega

/-- The table read through the program's whole-table slice is the table. -/
theorem read_tabSlice1 (d : Dev nD) (tabc : Buf (Elt F) (tabLoc d))
    (h : ∀ a, (![0, 0] : Fin 2 → Nat) a + S26000x128.size a ≤ S26000x128.size a)
    (hs : ∀ a, (Rect.unit (s := S26000x128) ![0, 0] S26000x128.size h).stride a = 1) (y : S26000x128.Idx) :
    View.read (Elt F) ((Memref.whole main_v0_scv).slice (Rect.unit (s := S26000x128) ![0, 0] S26000x128.size h) hs).view tabc y = tabc y := by
  rw [View.read_apply, cast_eq]
  show tabc ((Rect.unit (s := S26000x128) ![0, 0] S26000x128.size h).emb y) = tabc y
  rw [emb_unit00]

/-- Block `13 w + k` of call 1's output after list `k`'s rows were gathered into a row buffer and the buffer copied to the
    block: at every place of the block, the gathered rows. -/
theorem blk_value1 (tab : (d : Dev nD) → Buf (Elt F) (tabLoc d)) (ix1 : (d : Dev nD) → Buf (Elt F) (idx1Loc d))
    (hidx : ∀ (d : Dev nD) (j : S32x13x1x128.Idx), (ix1 d j).toNat < 26000)
    (d : Dev nD) (c : Fin τ.nSC) (i : Fin τ.nSub) (L : grid2.Coords) (k : Fin 13) (v : BitVec 32) (hv : v = BitVec.ofNat 32 k.val)
    (hb : ∀ a, k2_off2 L v a + S128x128.size a ≤ S53248x128.size a) (f0 : Buf (Elt F) (out1Loc d))
    {spR : Space} (vR : View sig .scVector spR S128x128 .f32) (fR : vR.ty.Contents (Elt F))
    (h0 : ∀ a, (![0, 0] : Fin 2 → Nat) a + S128x128.size a ≤ S128x128.size a)
    (hT : ∀ a, (![0, 0] : Fin 2 → Nat) a + S26000x128.size a ≤ S26000x128.size a)
    (hsT : ∀ a, (Rect.unit (s := S26000x128) ![0, 0] S26000x128.size hT).stride a = 1)
    (hg : S26000x128.Gathers 0 S128x128)
    (fI : Buf (Elt F) ((Memref.whole cc2_scratch0).view.loc (V d c i)))
    (row : Fin 3 → Nat) (hrow : row = ![k.val, 0, 0]) (hk : ∀ a, row a + S1x1x128.size a ≤ S13x1x128.size a)
    (hs : ∀ a, (Rect.unit (s := S13x1x128) row S1x1x128.size hk).stride a = 1) (hq : S1x1x128.Squeezes S128)
    (hn : S128.numel = S128x128.size hg.axis')
    (hin : ∀ x, (View.read (Elt F) (((Memref.whole cc2_scratch0).slice (Rect.unit (s := S13x1x128) row S1x1x128.size hk) hs).squeeze S128 hq).view
        (View.write (Elt F) (Memref.whole cc2_scratch0).view fI
          (ReadAs.same.apply (View.read (Elt F) (iSliceK1 L).view (ix1 d))) Finset.univ) x).toNat < S26000x128.size hg.axis)
    (rest : List (View.Piece (Elt F) S128x128 .f32)) :
    ∀ j ∈ ((Memref.whole main_v30_scv).slice (Rect.unit (s := S53248x128) (k2_off2 L v) S128x128.size hb) (fun _ => rfl)).view.set,
      ((Memref.whole main_v30_scv).slice (Rect.unit (s := S53248x128) (k2_off2 L v) S128x128.size hb) (fun _ => rfl)).view.writes (Elt F) f0
          [⟨Rect.whole _, ReadAs.same.apply (vR.read (Elt F) (vR.writes (Elt F) fR
            (⟨Rect.unit ![0, 0] S128x128.size h0,
              SparseCore.gatherPayload hg
                (View.read (Elt F) ((Memref.whole main_v0_scv).slice (Rect.unit (s := S26000x128) ![0, 0] S26000x128.size hT) hsT).view (tab d))
                (SparseCore.rows
                  (View.read (Elt F) (((Memref.whole cc2_scratch0).slice (Rect.unit (s := S13x1x128) row S1x1x128.size hk) hs).squeeze S128 hq).view
                    (View.write (Elt F) (Memref.whole cc2_scratch0).view fI
                      (ReadAs.same.apply (View.read (Elt F) (iSliceK1 L).view (ix1 d))) Finset.univ))
                  hn hin)⟩ :: rest)))⟩] j
        = gath (tab d) (ix1 d) j := by
  intro j hj
  subst hv
  obtain ⟨x, hx, e⟩ := gathered_copy_at
    ((Memref.whole main_v30_scv).slice (Rect.unit (s := S53248x128) (k2_off2 L (BitVec.ofNat 32 k.val)) S128x128.size hb) (fun _ => rfl)).view f0
    vR fR h0 hg
    (View.read (Elt F) ((Memref.whole main_v0_scv).slice (Rect.unit (s := S26000x128) ![0, 0] S26000x128.size hT) hsT).view (tab d))
    (View.read (Elt F) (((Memref.whole cc2_scratch0).slice (Rect.unit (s := S13x1x128) row S1x1x128.size hk) hs).squeeze S128 hq).view
      (View.write (Elt F) (Memref.whole cc2_scratch0).view fI
        (ReadAs.same.apply (View.read (Elt F) (iSliceK1 L).view (ix1 d))) Finset.univ))
    hn hin (fun b => b.isLt) rest hj
  refine Eq.trans e ?_
  rw [cast_eq, read_tabSlice1]
  subst hx
  -- the place of index x of the block: row 128 (13 w + k) + x 0, column x 1
  have ho := congrFun (k2_off2_closed L k)
  have hx0 : (x 0).val < 128 := (x 0).isLt
  have e0 : ((((Memref.whole main_v30_scv).slice (Rect.unit (s := S53248x128) (k2_off2 L (BitVec.ofNat 32 k.val)) S128x128.size hb) (fun _ => rfl)).view.emb x) 0).val
      = 128 * (13 * (2 * (L 1).val + (L 0).val) + k.val) + (x 0).val := by
    show k2_off2 L (BitVec.ofNat 32 k.val) 0 + 1 * (x 0).val = _
    rw [ho 0]; show 128 * (13 * (2 * (L 1).val + (L 0).val) + k.val) + 1 * (x 0).val = _; omega
  have e1 : ((((Memref.whole main_v30_scv).slice (Rect.unit (s := S53248x128) (k2_off2 L (BitVec.ofNat 32 k.val)) S128x128.size hb) (fun _ => rfl)).view.emb x) 1).val
      = (x 1).val := by
    show k2_off2 L (BitVec.ofNat 32 k.val) 1 + 1 * (x 1).val = _
    rw [ho 1]; show 0 + 1 * (x 1).val = _; omega
  unfold gath
  refine congrArg (tab d) ?_
  funext a
  match a with
  | 0 =>
    apply Fin.ext
    change BitVec.toNat _ = Fin.val (capRow _)
    rw [read_list1 ix1 d c i L fI k row hrow hk hs hq, capRow_val_of_lt (hidx d _)]
    refine congrArg (fun y => ((ix1 d) y).toNat) ?_
    have hk13 : k.val < 13 := k.isLt
    funext a'; apply Fin.ext
    match a' with
    | 0 => show 2 * (L 1).val + (L 0).val = _ / 128 / 13; rw [e0]; omega
    | 1 => show k.val = _ / 128 % 13; rw [e0]; omega
    | 2 => rfl
    | 3 => show (x 0).val = _ % 128; rw [e0]; omega
  | 1 => exact Fin.ext e1.symm

end Cert.Proof.KI

end
-- ==== Proof.TileV.lean ====
/-
  One vector subcore's task of the gather kernel (both calls), its thirteen output blocks handed back at the gathered rows.
-/
import proofs.«205278_g66915590471714_cont_9to1_m_383_35_alg».proof.Proof.TileVFacts
import proofs.«205278_g66915590471714_cont_9to1_m_383_35_alg».proof.Proof.Tile

set_option maxHeartbeats 4000000
set_option maxRecDepth 65536

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

section Tile

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))
  (d : Dev nD)

/-- The gather kernel of call 0 as worker `2 (L 1) + (L 0)`'s task, with what it leaves named: as the task's frame
    statement, and every one of the worker's thirteen output blocks comes back holding the gathered rows — row `r`
    the table row that word `r % 128` of list `(r / 128) % 13` of the worker's slice of the index array names. -/
theorem tile_bodyV0 (hF : (K (F := F)).Facts) (hidx : IdxOK0 ix0) (L : grid0.Coords)
    (O : CellTallies nD τ sig (HIx 2)) (W : Waits sig (HIx 2)) (hO : ∀ g, O g none = 0) :
    iprop(levAts (K (F := F)).L (K (F := F)).lev ∗ emp
        ∗ tileIn0 m tab ix0 d (2 * (L 1).val + (L 0).val)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__sc_gather_body L (Memref.whole main_v0_scv) (Memref.isWhole_whole _) (Memref.whole main_v21_scv) (Memref.isWhole_whole _)
            (Memref.whole main_v22_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(tileOutV0 tab ix0 d (2 * (L 1).val + (L 0).val)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  simp only [cc0__sc_gather_body_eq_skeleton]; unfold cc0__sc_gather_body_skel
  rw [(K (F := F)).scopedBufs_V hF d (cV0 L) (jV0 L), SparseCore.Cfg.scopedSems0_V (Val := Elt F) d (cV0 L) (jV0 L),
    ownSems0_V0, ownBufs_V0]
  unfold tileIn0
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV0 L) (jV0 L)) (none : HIx 2) O from
    (K (F := F)).mayWaits_none (thr := V d (cV0 L) (jV0 L)) hO) $$ Hlv
  -- every held array under the name the program gives it
  ihave Htab' := (Entails.of_eq (pts_tab0 (F := F) d (cV0 L) (jV0 L) _ _).symm) $$ Htab
  ihave Hidx' := (Entails.of_eq (pts_idx0 (F := F) d (cV0 L) (jV0 L) _ _).symm) $$ Hidx
  ihave HsI' := (Entails.of_eq (pts_sI0 (F := F) d (cV0 L) (jV0 L) _).symm) $$ HsI
  ihave HsA' := (Entails.of_eq (pts_sA0 (F := F) d (cV0 L) (jV0 L) _).symm) $$ HsA
  ihave HsB' := (Entails.of_eq (pts_sB0 (F := F) d (cV0 L) (jV0 L) _).symm) $$ HsB
  ihave Ho0' := (Entails.of_eq (pts_oBlk0 (F := F) d (cV0 L) (jV0 L) L 0 0#32 rfl (k0_off2_inb L 0) _).symm) $$ Ho0
  ihave Ho1' := (Entails.of_eq (pts_oBlk0 (F := F) d (cV0 L) (jV0 L) L 1 1#32 rfl (k0_off2_inb L 1) _).symm) $$ Ho1
  ihave Ho2' := (Entails.of_eq (pts_oBlk0 (F := F) d (cV0 L) (jV0 L) L 2 2#32 rfl (k0_off2_inb L 2) _).symm) $$ Ho2
  ihave Ho3' := (Entails.of_eq (pts_oBlk0 (F := F) d (cV0 L) (jV0 L) L 3 3#32 rfl (k0_off2_inb L 3) _).symm) $$ Ho3
  ihave Ho4' := (Entails.of_eq (pts_oBlk0 (F := F) d (cV0 L) (jV0 L) L 4 4#32 rfl (k0_off2_inb L 4) _).symm) $$ Ho4
  ihave Ho5' := (Entails.of_eq (pts_oBlk0 (F := F) d (cV0 L) (jV0 L) L 5 5#32 rfl (k0_off2_inb L 5) _).symm) $$ Ho5
  ihave Ho6' := (Entails.of_eq (pts_oBlk0 (F := F) d (cV0 L) (jV0 L) L 6 6#32 rfl (k0_off2_inb L 6) _).symm) $$ Ho6
  ihave Ho7' := (Entails.of_eq (pts_oBlk0 (F := F) d (cV0 L) (jV0 L) L 7 7#32 rfl (k0_off2_inb L 7) _).symm) $$ Ho7
  ihave Ho8' := (Entails.of_eq (pts_oBlk0 (F := F) d (cV0 L) (jV0 L) L 8 8#32 rfl (k0_off2_inb L 8) _).symm) $$ Ho8
  ihave Ho9' := (Entails.of_eq (pts_oBlk0 (F := F) d (cV0 L) (jV0 L) L 9 9#32 rfl (k0_off2_inb L 9) _).symm) $$ Ho9
  ihave Ho10' := (Entails.of_eq (pts_oBlk0 (F := F) d (cV0 L) (jV0 L) L 10 10#32 rfl (k0_off2_inb L 10) _).symm) $$ Ho10
  ihave Ho11' := (Entails.of_eq (pts_oBlk0 (F := F) d (cV0 L) (jV0 L) L 11 11#32 rfl (k0_off2_inb L 11) _).symm) $$ Ho11
  ihave Ho12' := (Entails.of_eq (pts_oBlk0 (F := F) d (cV0 L) (jV0 L) L 12 12#32 rfl (k0_off2_inb L 12) _).symm) $$ Ho12
  -- the index fetch and its wait
  sl_exec
  -- every list the gathers read is a row of what the fetch landed: words of the index array, each naming a table row
  have hin := fun g row hk hs hq => idx_inb0 ix0 hidx d (cV0 L) (jV0 L) L g (tile_bodyV0.sl.dma0 ix0 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOutV0
    rw [bigSep_F13]
    isplitl [Htab']; · iexact Htab'
    isplitl [Hidx']; · iexact Hidx'
    isplitl [Ho0']
    · iapply (Entails.of_eq (pts_oBlk0 (F := F) d (cV0 L) (jV0 L) L 0 0#32 rfl (k0_off2_inb L 0) _))
      ihave Hv := (Entails.of_eq (pointsTo_congr (blk_value0 tab ix0 hidx d (cV0 L) (jV0 L) L 0 0#32 rfl (k0_off2_inb L 0) _ _ _ _ _ _ _ _ _ rfl _ _ _ _ _ _))) $$ Ho0'
      iexact Hv
    isplitl [Ho1']
    · iapply (Entails.of_eq (pts_oBlk0 (F := F) d (cV0 L) (jV0 L) L 1 1#32 rfl (k0_off2_inb L 1) _))
      ihave Hv := (Entails.of_eq (pointsTo_congr (blk_value0 tab ix0 hidx d (cV0 L) (jV0 L) L 1 1#32 rfl (k0_off2_inb L 1) _ _ _ _ _ _ _ _ _ rfl _ _ _ _ _ _))) $$ Ho1'
      iexact Hv
    isplitl [Ho2']
    · iapply (Entails.of_eq (pts_oBlk0 (F := F) d (cV0 L) (jV0 L) L 2 2#32 rfl (k0_off2_inb L 2) _))
      ihave Hv := (Entails.of_eq (pointsTo_congr (blk_value0 tab ix0 hidx d (cV0 L) (jV0 L) L 2 2#32 rfl (k0_off2_inb L 2) _ _ _ _ _ _ _ _ _ rfl _ _ _ _ _ _))) $$ Ho2'
      iexact Hv
    isplitl [Ho3']
    · iapply (Entails.of_eq (pts_oBlk0 (F := F) d (cV0 L) (jV0 L) L 3 3#32 rfl (k0_off2_inb L 3) _))
      ihave Hv := (Entails.of_eq (pointsTo_congr (blk_value0 tab ix0 hidx d (cV0 L) (jV0 L) L 3 3#32 rfl (k0_off2_inb L 3) _ _ _ _ _ _ _ _ _ rfl _ _ _ _ _ _))) $$ Ho3'
      iexact Hv
    isplitl [Ho4']
    · iapply (Entails.of_eq (pts_oBlk0 (F := F) d (cV0 L) (jV0 L) L 4 4#32 rfl (k0_off2_inb L 4) _))
      ihave Hv := (Entails.of_eq (pointsTo_congr (blk_value0 tab ix0 hidx d (cV0 L) (jV0 L) L 4 4#32 rfl (k0_off2_inb L 4) _ _ _ _ _ _ _ _ _ rfl _ _ _ _ _ _))) $$ Ho4'
      iexact Hv
    isplitl [Ho5']
    · iapply (Entails.of_eq (pts_oBlk0 (F := F) d (cV0 L) (jV0 L) L 5 5#32 rfl (k0_off2_inb L 5) _))
      ihave Hv := (Entails.of_eq (pointsTo_congr (blk_value0 tab ix0 hidx d (cV0 L) (jV0 L) L 5 5#32 rfl (k0_off2_inb L 5) _ _ _ _ _ _ _ _ _ rfl _ _ _ _ _ _))) $$ Ho5'
      iexact Hv
    isplitl [Ho6']
    · iapply (Entails.of_eq (pts_oBlk0 (F := F) d (cV0 L) (jV0 L) L 6 6#32 rfl (k0_off2_inb L 6) _))
      ihave Hv := (Entails.of_eq (pointsTo_congr (blk_value0 tab ix0 hidx d (cV0 L) (jV0 L) L 6 6#32 rfl (k0_off2_inb L 6) _ _ _ _ _ _ _ _ _ rfl _ _ _ _ _ _))) $$ Ho6'
      iexact Hv
    isplitl [Ho7']
    · iapply (Entails.of_eq (pts_oBlk0 (F := F) d (cV0 L) (jV0 L) L 7 7#32 rfl (k0_off2_inb L 7) _))
      ihave Hv := (Entails.of_eq (pointsTo_congr (blk_value0 tab ix0 hidx d (cV0 L) (jV0 L) L 7 7#32 rfl (k0_off2_inb L 7) _ _ _ _ _ _ _ _ _ rfl _ _ _ _ _ _))) $$ Ho7'
      iexact Hv
    isplitl [Ho8']
    · iapply (Entails.of_eq (pts_oBlk0 (F := F) d (cV0 L) (jV0 L) L 8 8#32 rfl (k0_off2_inb L 8) _))
      ihave Hv := (Entails.of_eq (pointsTo_congr (blk_value0 tab ix0 hidx d (cV0 L) (jV0 L) L 8 8#32 rfl (k0_off2_inb L 8) _ _ _ _ _ _ _ _ _ rfl _ _ _ _ _ _))) $$ Ho8'
      iexact Hv
    isplitl [Ho9']
    · iapply (Entails.of_eq (pts_oBlk0 (F := F) d (cV0 L) (jV0 L) L 9 9#32 rfl (k0_off2_inb L 9) _))
      ihave Hv := (Entails.of_eq (pointsTo_congr (blk_value0 tab ix0 hidx d (cV0 L) (jV0 L) L 9 9#32 rfl (k0_off2_inb L 9) _ _ _ _ _ _ _ _ _ rfl _ _ _ _ _ _))) $$ Ho9'
      iexact Hv
    isplitl [Ho10']
    · iapply (Entails.of_eq (pts_oBlk0 (F := F) d (cV0 L) (jV0 L) L 10 10#32 rfl (k0_off2_inb L 10) _))
      ihave Hv := (Entails.of_eq (pointsTo_congr (blk_value0 tab ix0 hidx d (cV0 L) (jV0 L) L 10 10#32 rfl (k0_off2_inb L 10) _ _ _ _ _ _ _ _ _ rfl _ _ _ _ _ _))) $$ Ho10'
      iexact Hv
    isplitl [Ho11']
    · iapply (Entails.of_eq (pts_oBlk0 (F := F) d (cV0 L) (jV0 L) L 11 11#32 rfl (k0_off2_inb L 11) _))
      ihave Hv := (Entails.of_eq (pointsTo_congr (blk_value0 tab ix0 hidx d (cV0 L) (jV0 L) L 11 11#32 rfl (k0_off2_inb L 11) _ _ _ _ _ _ _ _ _ rfl _ _ _ _ _ _))) $$ Ho11'
      iexact Hv
    · iapply (Entails.of_eq (pts_oBlk0 (F := F) d (cV0 L) (jV0 L) L 12 12#32 rfl (k0_off2_inb L 12) _))
      ihave Hv := (Entails.of_eq (pointsTo_congr (blk_value0 tab ix0 hidx d (cV0 L) (jV0 L) L 12 12#32 rfl (k0_off2_inb L 12) _ _ _ _ _ _ _ _ _ rfl _ _ _ _ _ _))) $$ Ho12'
      iexact Hv
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

/-- The gather kernel of call 1 as worker `2 (L 1) + (L 0)`'s task, with what it leaves named: as the task's frame
    statement, and every one of the worker's thirteen output blocks comes back holding the gathered rows — row `r`
    the table row that word `r % 128` of list `(r / 128) % 13` of the worker's slice of the index array names. -/
theorem tile_bodyV1 (hF : (K (F := F)).Facts) (hidx : IdxOK1 ix1) (L : grid2.Coords)
    (O : CellTallies nD τ sig (HIx 2)) (W : Waits sig (HIx 2)) (hO : ∀ g, O g none = 0) :
    iprop(levAts (K (F := F)).L (K (F := F)).lev ∗ emp
        ∗ tileIn1 m tab ix1 d (2 * (L 1).val + (L 0).val)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc2__sc_gather_body L (Memref.whole main_v0_scv) (Memref.isWhole_whole _) (Memref.whole main_v29_scv) (Memref.isWhole_whole _)
            (Memref.whole main_v30_scv) (Memref.isWhole_whole _) (Memref.whole cc2_scratch0) (Memref.isWhole_whole _)
            (Memref.whole cc2_scratch1) (Memref.isWhole_whole _) (Memref.whole cc2_scratch2) (Memref.isWhole_whole _)
            cc2_scratch3 cc2_scratch4 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13)
          fun _ => iprop(tileOutV1 tab ix1 d (2 * (L 1).val + (L 0).val)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  simp only [cc2__sc_gather_body_eq_skeleton]; unfold cc2__sc_gather_body_skel
  rw [(K (F := F)).scopedBufs_V hF d (cV1 L) (jV1 L), SparseCore.Cfg.scopedSems0_V (Val := Elt F) d (cV1 L) (jV1 L),
    ownSems0_V1, ownBufs_V1]
  unfold tileIn1
  rw [bigSep_F13]
  iintro ⟨#Hlv, -, ⟨Htab, Hidx, Ho0, Ho1, Ho2, Ho3, Ho4, Ho5, Ho6, Ho7, Ho8, Ho9, Ho10, Ho11, Ho12⟩, ⟨⟨⟨%fI, HsI⟩, ⟨%fA, HsA⟩, %fB, HsB⟩, Hbufs⟩,
    ⟨⟨Hg0, Hg1, Hc0, Hc1, Hc2, Hc3, Hc4, Hc5, Hc6, Hc7, Hc8, Hc9, Hc10, Hc11, Hc12, Hc13⟩, Hsems⟩, HO⟩
  -- the waits of a thread that owes are admissible: it owes nothing at no call's index
  ihave Hmw := (show levAts (K (F := F)).L (K (F := F)).lev ⊢ Transfers.MayWaits (V d (cV1 L) (jV1 L)) (none : HIx 2) O from
    (K (F := F)).mayWaits_none (thr := V d (cV1 L) (jV1 L)) hO) $$ Hlv
  -- every held array under the name the program gives it
  ihave Htab' := (Entails.of_eq (pts_tab1 (F := F) d (cV1 L) (jV1 L) _ _).symm) $$ Htab
  ihave Hidx' := (Entails.of_eq (pts_idx1 (F := F) d (cV1 L) (jV1 L) _ _).symm) $$ Hidx
  ihave HsI' := (Entails.of_eq (pts_sI1 (F := F) d (cV1 L) (jV1 L) _).symm) $$ HsI
  ihave HsA' := (Entails.of_eq (pts_sA1 (F := F) d (cV1 L) (jV1 L) _).symm) $$ HsA
  ihave HsB' := (Entails.of_eq (pts_sB1 (F := F) d (cV1 L) (jV1 L) _).symm) $$ HsB
  ihave Ho0' := (Entails.of_eq (pts_oBlk1 (F := F) d (cV1 L) (jV1 L) L 0 0#32 rfl (k2_off2_inb L 0) _).symm) $$ Ho0
  ihave Ho1' := (Entails.of_eq (pts_oBlk1 (F := F) d (cV1 L) (jV1 L) L 1 1#32 rfl (k2_off2_inb L 1) _).symm) $$ Ho1
  ihave Ho2' := (Entails.of_eq (pts_oBlk1 (F := F) d (cV1 L) (jV1 L) L 2 2#32 rfl (k2_off2_inb L 2) _).symm) $$ Ho2
  ihave Ho3' := (Entails.of_eq (pts_oBlk1 (F := F) d (cV1 L) (jV1 L) L 3 3#32 rfl (k2_off2_inb L 3) _).symm) $$ Ho3
  ihave Ho4' := (Entails.of_eq (pts_oBlk1 (F := F) d (cV1 L) (jV1 L) L 4 4#32 rfl (k2_off2_inb L 4) _).symm) $$ Ho4
  ihave Ho5' := (Entails.of_eq (pts_oBlk1 (F := F) d (cV1 L) (jV1 L) L 5 5#32 rfl (k2_off2_inb L 5) _).symm) $$ Ho5
  ihave Ho6' := (Entails.of_eq (pts_oBlk1 (F := F) d (cV1 L) (jV1 L) L 6 6#32 rfl (k2_off2_inb L 6) _).symm) $$ Ho6
  ihave Ho7' := (Entails.of_eq (pts_oBlk1 (F := F) d (cV1 L) (jV1 L) L 7 7#32 rfl (k2_off2_inb L 7) _).symm) $$ Ho7
  ihave Ho8' := (Entails.of_eq (pts_oBlk1 (F := F) d (cV1 L) (jV1 L) L 8 8#32 rfl (k2_off2_inb L 8) _).symm) $$ Ho8
  ihave Ho9' := (Entails.of_eq (pts_oBlk1 (F := F) d (cV1 L) (jV1 L) L 9 9#32 rfl (k2_off2_inb L 9) _).symm) $$ Ho9
  ihave Ho10' := (Entails.of_eq (pts_oBlk1 (F := F) d (cV1 L) (jV1 L) L 10 10#32 rfl (k2_off2_inb L 10) _).symm) $$ Ho10
  ihave Ho11' := (Entails.of_eq (pts_oBlk1 (F := F) d (cV1 L) (jV1 L) L 11 11#32 rfl (k2_off2_inb L 11) _).symm) $$ Ho11
  ihave Ho12' := (Entails.of_eq (pts_oBlk1 (F := F) d (cV1 L) (jV1 L) L 12 12#32 rfl (k2_off2_inb L 12) _).symm) $$ Ho12
  -- the index fetch and its wait
  sl_exec
  -- every list the gathers read is a row of what the fetch landed: words of the index array, each naming a table row
  have hin := fun g row hk hs hq => idx_inb1 ix1 hidx d (cV1 L) (jV1 L) L g (tile_bodyV1.sl.dma0 ix1 d L) rfl row hk hs hq
  -- the thirteen gathers, their waits, the thirteen copies to the output blocks and their waits
  sl_exec
  sl_step
  isplitl [Htab' Hidx' Ho0' Ho1' Ho2' Ho3' Ho4' Ho5' Ho6' Ho7' Ho8' Ho9' Ho10' Ho11' Ho12']
  · unfold tileOutV1
    rw [bigSep_F13]
    isplitl [Htab']; · iexact Htab'
    isplitl [Hidx']; · iexact Hidx'
    isplitl [Ho0']
    · iapply (Entails.of_eq (pts_oBlk1 (F := F) d (cV1 L) (jV1 L) L 0 0#32 rfl (k2_off2_inb L 0) _))
      ihave Hv := (Entails.of_eq (pointsTo_congr (blk_value1 tab ix1 hidx d (cV1 L) (jV1 L) L 0 0#32 rfl (k2_off2_inb L 0) _ _ _ _ _ _ _ _ _ rfl _ _ _ _ _ _))) $$ Ho0'
      iexact Hv
    isplitl [Ho1']
    · iapply (Entails.of_eq (pts_oBlk1 (F := F) d (cV1 L) (jV1 L) L 1 1#32 rfl (k2_off2_inb L 1) _))
      ihave Hv := (Entails.of_eq (pointsTo_congr (blk_value1 tab ix1 hidx d (cV1 L) (jV1 L) L 1 1#32 rfl (k2_off2_inb L 1) _ _ _ _ _ _ _ _ _ rfl _ _ _ _ _ _))) $$ Ho1'
      iexact Hv
    isplitl [Ho2']
    · iapply (Entails.of_eq (pts_oBlk1 (F := F) d (cV1 L) (jV1 L) L 2 2#32 rfl (k2_off2_inb L 2) _))
      ihave Hv := (Entails.of_eq (pointsTo_congr (blk_value1 tab ix1 hidx d (cV1 L) (jV1 L) L 2 2#32 rfl (k2_off2_inb L 2) _ _ _ _ _ _ _ _ _ rfl _ _ _ _ _ _))) $$ Ho2'
      iexact Hv
    isplitl [Ho3']
    · iapply (Entails.of_eq (pts_oBlk1 (F := F) d (cV1 L) (jV1 L) L 3 3#32 rfl (k2_off2_inb L 3) _))
      ihave Hv := (Entails.of_eq (pointsTo_congr (blk_value1 tab ix1 hidx d (cV1 L) (jV1 L) L 3 3#32 rfl (k2_off2_inb L 3) _ _ _ _ _ _ _ _ _ rfl _ _ _ _ _ _))) $$ Ho3'
      iexact Hv
    isplitl [Ho4']
    · iapply (Entails.of_eq (pts_oBlk1 (F := F) d (cV1 L) (jV1 L) L 4 4#32 rfl (k2_off2_inb L 4) _))
      ihave Hv := (Entails.of_eq (pointsTo_congr (blk_value1 tab ix1 hidx d (cV1 L) (jV1 L) L 4 4#32 rfl (k2_off2_inb L 4) _ _ _ _ _ _ _ _ _ rfl _ _ _ _ _ _))) $$ Ho4'
      iexact Hv
    isplitl [Ho5']
    · iapply (Entails.of_eq (pts_oBlk1 (F := F) d (cV1 L) (jV1 L) L 5 5#32 rfl (k2_off2_inb L 5) _))
      ihave Hv := (Entails.of_eq (pointsTo_congr (blk_value1 tab ix1 hidx d (cV1 L) (jV1 L) L 5 5#32 rfl (k2_off2_inb L 5) _ _ _ _ _ _ _ _ _ rfl _ _ _ _ _ _))) $$ Ho5'
      iexact Hv
    isplitl [Ho6']
    · iapply (Entails.of_eq (pts_oBlk1 (F := F) d (cV1 L) (jV1 L) L 6 6#32 rfl (k2_off2_inb L 6) _))
      ihave Hv := (Entails.of_eq (pointsTo_congr (blk_value1 tab ix1 hidx d (cV1 L) (jV1 L) L 6 6#32 rfl (k2_off2_inb L 6) _ _ _ _ _ _ _ _ _ rfl _ _ _ _ _ _))) $$ Ho6'
      iexact Hv
    isplitl [Ho7']
    · iapply (Entails.of_eq (pts_oBlk1 (F := F) d (cV1 L) (jV1 L) L 7 7#32 rfl (k2_off2_inb L 7) _))
      ihave Hv := (Entails.of_eq (pointsTo_congr (blk_value1 tab ix1 hidx d (cV1 L) (jV1 L) L 7 7#32 rfl (k2_off2_inb L 7) _ _ _ _ _ _ _ _ _ rfl _ _ _ _ _ _))) $$ Ho7'
      iexact Hv
    isplitl [Ho8']
    · iapply (Entails.of_eq (pts_oBlk1 (F := F) d (cV1 L) (jV1 L) L 8 8#32 rfl (k2_off2_inb L 8) _))
      ihave Hv := (Entails.of_eq (pointsTo_congr (blk_value1 tab ix1 hidx d (cV1 L) (jV1 L) L 8 8#32 rfl (k2_off2_inb L 8) _ _ _ _ _ _ _ _ _ rfl _ _ _ _ _ _))) $$ Ho8'
      iexact Hv
    isplitl [Ho9']
    · iapply (Entails.of_eq (pts_oBlk1 (F := F) d (cV1 L) (jV1 L) L 9 9#32 rfl (k2_off2_inb L 9) _))
      ihave Hv := (Entails.of_eq (pointsTo_congr (blk_value1 tab ix1 hidx d (cV1 L) (jV1 L) L 9 9#32 rfl (k2_off2_inb L 9) _ _ _ _ _ _ _ _ _ rfl _ _ _ _ _ _))) $$ Ho9'
      iexact Hv
    isplitl [Ho10']
    · iapply (Entails.of_eq (pts_oBlk1 (F := F) d (cV1 L) (jV1 L) L 10 10#32 rfl (k2_off2_inb L 10) _))
      ihave Hv := (Entails.of_eq (pointsTo_congr (blk_value1 tab ix1 hidx d (cV1 L) (jV1 L) L 10 10#32 rfl (k2_off2_inb L 10) _ _ _ _ _ _ _ _ _ rfl _ _ _ _ _ _))) $$ Ho10'
      iexact Hv
    isplitl [Ho11']
    · iapply (Entails.of_eq (pts_oBlk1 (F := F) d (cV1 L) (jV1 L) L 11 11#32 rfl (k2_off2_inb L 11) _))
      ihave Hv := (Entails.of_eq (pointsTo_congr (blk_value1 tab ix1 hidx d (cV1 L) (jV1 L) L 11 11#32 rfl (k2_off2_inb L 11) _ _ _ _ _ _ _ _ _ rfl _ _ _ _ _ _))) $$ Ho11'
      iexact Hv
    · iapply (Entails.of_eq (pts_oBlk1 (F := F) d (cV1 L) (jV1 L) L 12 12#32 rfl (k2_off2_inb L 12) _))
      ihave Hv := (Entails.of_eq (pointsTo_congr (blk_value1 tab ix1 hidx d (cV1 L) (jV1 L) L 12 12#32 rfl (k2_off2_inb L 12) _ _ _ _ _ _ _ _ _ rfl _ _ _ _ _ _))) $$ Ho12'
      iexact Hv
  isplitl [HsI' HsA' HsB' Hbufs]
  · isplitl [HsI' HsA' HsB']
    · isplitl [HsI']; · iexists _; iexact HsI'
      isplitl [HsA']; · iexists _; iexact HsA'
      iexists _; iexact HsB'
    iexact Hbufs
  isplitl [Hg0 Hg1 Hc0 Hc1 Hc2 Hc3 Hc4 Hc5 Hc6 Hc7 Hc8 Hc9 Hc10 Hc11 Hc12 Hc13 Hsems]
  · isplitl [Hg0 Hg1 Hc0 Hc1 Hc2 Hc3 Hc4 Hc5 Hc6 Hc7 Hc8 Hc9 Hc10 Hc11 Hc12 Hc13]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact Hsems
  iexists _; isplitr
  swap; · iexact HO
  ipureintro
  repeat apply waits_insert_none
  exact fun p hp => .inl hp

end Tile

end Cert.Proof.KI

end
-- ==== Proof.TileOblV.lean ====
/-
  The gather kernel's tasks as the launch theorem's obligations (both calls), the output blocks handed back at the
  gathered rows.
-/
import proofs.«205278_g66915590471714_cont_9to1_m_383_35_alg».proof.Proof.TileV
import proofs.«205278_g66915590471714_cont_9to1_m_383_35_alg».proof.Proof.TileObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 2) (Elt F) ℕ UU ℕ

section Obl

variable (m : (ℓ : Loc nD τ sig) → Buf (Elt F) ℓ)
  (tab : (d : Dev nD) → Buf (Elt F) (tabLoc d)) (ix0 : (d : Dev nD) → Buf (Elt F) (idx0Loc d)) (ix1 : (d : Dev nD) → Buf (Elt F) (idx1Loc d))

/-- Call 0's task on every vector subcore of its grid is `tile_bodyV0` at that subcore's coordinates. -/
theorem tileOblV0 (hF : (K (F := F)).Facts) (hidx : IdxOK0 ix0) : (K (F := F)).TileObl (D (F := F)) 𝒱 (PV m tab ix0 ix1) v₀ 0 := by
  intro d c i O W hO _ _
  simp only [show (PV m tab ix0 ix1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_bodyV0 m tab ix0 d hF hidx (coordsV0 ⟨_, hci.1⟩ ⟨_, hci.2⟩) O W hO).trans (wp_mono frame _ _ fun _ => obl_post)

/-- Call 1's task on every vector subcore of its grid is `tile_bodyV1` at that subcore's coordinates. -/
theorem tileOblV1 (hF : (K (F := F)).Facts) (hidx : IdxOK1 ix1) : (K (F := F)).TileObl (D (F := F)) 𝒱 (PV m tab ix0 ix1) v₀ 1 := by
  intro d c i O W hO _ _
  simp only [show (PV m tab ix0 ix1).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_bodyV1 m tab ix1 d hF hidx (coordsV1 ⟨_, hci.1⟩ ⟨_, hci.2⟩) O W hO).trans (wp_mono frame _ _ fun _ => obl_post)

end Obl

end Cert.Proof.KI

end
-- ==== Proof.FinalV.lean ====
/-
  The kernel program's run with its result named: the launch theorem applied to the value-carrying obligations.
-/
import proofs.«205278_g66915590471714_cont_9to1_m_383_35_alg».proof.Proof.MainV
import proofs.«205278_g66915590471714_cont_9to1_m_383_35_alg».proof.Proof.TileOblV
import proofs.«205278_g66915590471714_cont_9to1_m_383_35_alg».proof.Proof.Final

set_option maxRecDepth 65536
set_option maxHeartbeats 2000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe
open Idealize.ShloMosaic.StableHlo (held)

variable {F : FTy → Type} [FloatOps F]

local notation "𝕄" => MT nD τ sig (HIx 2) (Elt F) ℕ UU ℕ

section RunV

variable (m : (ℓ : Loc nD τ sig) → Buf (Elt F) ℓ) (ρ : Dev nD → PrngReg)

/-- The result array of every device holds the second pipeline's result, and the argument arrays their launch contents. -/
def QCV : PUnit × MemSt nD τ sig (Elt F) → Prop := fun r => ∀ c : Dev nD,
  r.2.mem (res1Loc c) = g1N m c
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)
  ∧ r.2.mem ((SparseCore.T c).loc main_arg7) = m ((SparseCore.T c).loc main_arg7)
  ∧ r.2.mem ((SparseCore.T c).loc main_arg8) = m ((SparseCore.T c).loc main_arg8)
  ∧ r.2.mem ((SparseCore.T c).loc main_arg9) = m ((SparseCore.T c).loc main_arg9)
  ∧ r.2.mem ((SparseCore.T c).loc main_arg10) = m ((SparseCore.T c).loc main_arg10)
  ∧ r.2.mem ((SparseCore.T c).loc main_arg11) = m ((SparseCore.T c).loc main_arg11)
  ∧ r.2.mem ((SparseCore.T c).loc main_arg12) = m ((SparseCore.T c).loc main_arg12)
  ∧ r.2.mem ((SparseCore.T c).loc main_arg13) = m ((SparseCore.T c).loc main_arg13)
  ∧ r.2.mem ((SparseCore.T c).loc main_arg14) = m ((SparseCore.T c).loc main_arg14)
  ∧ r.2.mem ((SparseCore.T c).loc main_arg15) = m ((SparseCore.T c).loc main_arg15)

theorem run_mainV [∀ e, Nonempty (Elt F e)] (hpre : PreOK m) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PVm m) facts v₀
    (fun q hq => match q with | 0 => nomatch hq | 1 => nomatch hq)
    (fun q _ => match q with
      | 0 => tileOblV0 m (tabC m) (ix0C m) (ix1C m) facts (idxOK0_of_pre m hpre)
      | 1 => tileOblV1 m (tabC m) (ix0C m) (ix1C m) facts (idxOK1_of_pre m hpre))
    (fun q _ => match q with
      | 0 => SparseCore.Cfg.VecSplit.of_plain (vecSplitV0 m (tabC m) (ix0C m) (ix1C m))
      | 1 => SparseCore.Cfg.VecSplit.of_plain (vecSplitV1 m (tabC m) (ix0C m) (ix1C m)))
    m ρ main (G (F := F)) (FINV m) (u₀ (F := F)) (sep_elim_left.trans (hu₀V m)) (hmainV m ρ) (fqV m) (hfinV m) (QCV m) (fun _ h => h)

end RunV

end Cert.Proof.KI

end
-- ==== Proof.Spec.lean ====
/-
  The model's result as ONE function of its sixteen argument arrays, index by index, on the extended reals.

  For batch row b < 4096.  Field f < 26 has the embedding e_f[d] = emb[f, row(long_cat[b, f]), d], d < 128, where a
  category word names a table row by wrapping a negative word once (+1000) and bringing the result into [0, 999]
  (a word already in [0, 999] names its own row).  Then
    linear  = (Σ_k short_cat[b, k] · Wls[k] + bls) + (Σ_k num[b, k] · Wln[k] + bln),
    second  = ½ · Σ_d ((Σ_f e_f[d])² − Σ_f e_f[d]²),
    x       = (short_cat[b, 0..143), num[b, 0..13), e_0, …, e_25), of length 3484,
    h1 = max(x · W1 + b1, 0),  h2 = max(h1 · W2 + b2, 0),  h3 = max(h2 · W3 + b3, 0),  tower = h3 · Wo + bo,
    result[b, 0] = (linear + second) + tower.
  Every sum is a finite sum over the literal index type; ½ is kept as the f32 word 0x3F000000.
-/
import Idealize.ShloMosaic.PureOps.Ideal
import Idealize.ShloMosaic.Lib.ValueIdx

noncomputable section

namespace Cert.Proof.Spec

open Idealize.ShloMosaic Idealize.ShloMosaic.ValueIdx
open scoped BigOperators

/-! ## The table row a category word names -/

/-- A category word as the lookup reads it: a negative word counts from the table's end (1000 is added once); -/
def wrapWord (w : BitVec 32) : BitVec 32 := if w.slt 0#32 then w + 1000#32 else w

/-- and the table row it names: the wrapped word read as a signed integer, brought into [0, 999]. -/
def rowOf (w : BitVec 32) : Fin 1000 := ⟨min (wrapWord w).toInt.toNat 999, Nat.lt_succ_of_le (Nat.min_le_right _ _)⟩

/-- A word in [0, 999] names its own row. -/
theorem rowOf_val_of_range {w : BitVec 32} (h0 : 0 ≤ w.toInt) (h1 : w.toInt ≤ 999) : (rowOf w).val = w.toNat := by
  have hs : w.slt 0#32 = false := by
    rw [BitVec.slt_eq_decide]
    exact decide_eq_false (by simpa using h0)
  have hw : wrapWord w = w := by unfold wrapWord; rw [hs]; rfl
  have ht : w.toInt = (w.toNat : Int) := by
    rw [BitVec.toInt_eq_toNat_cond] at h0 h1 ⊢
    split <;> rename_i h
    · rfl
    · exfalso; rw [if_neg h] at h0; have := w.isLt; omega
  have h999 : w.toNat ≤ 999 := by rw [ht] at h1; exact_mod_cast h1
  show min (wrapWord w).toInt.toNat 999 = w.toNat
  rw [hw, ht, Int.toNat_natCast]
  exact Nat.min_eq_left h999

/-! ## The function -/

section Model

variable (sc : (⟨2, ![4096, 143]⟩ : Shape).Idx → EReal) (lc : (⟨2, ![4096, 26]⟩ : Shape).Idx → BitVec 32)
  (nf : (⟨2, ![4096, 13]⟩ : Shape).Idx → EReal) (emb : (⟨3, ![26, 1000, 128]⟩ : Shape).Idx → EReal)
  (wls : (⟨2, ![143, 1]⟩ : Shape).Idx → EReal) (bls : (⟨1, ![1]⟩ : Shape).Idx → EReal)
  (wln : (⟨2, ![13, 1]⟩ : Shape).Idx → EReal) (bln : (⟨1, ![1]⟩ : Shape).Idx → EReal)
  (w1 : (⟨2, ![3484, 1024]⟩ : Shape).Idx → EReal) (b1 : (⟨1, ![1024]⟩ : Shape).Idx → EReal)
  (w2 : (⟨2, ![1024, 512]⟩ : Shape).Idx → EReal) (b2 : (⟨1, ![512]⟩ : Shape).Idx → EReal)
  (w3 : (⟨2, ![512, 256]⟩ : Shape).Idx → EReal) (b3 : (⟨1, ![256]⟩ : Shape).Idx → EReal)
  (wo : (⟨2, ![256, 1]⟩ : Shape).Idx → EReal) (bo : (⟨1, ![1]⟩ : Shape).Idx → EReal)

/-- Field `f`'s embedding for batch row `b`, at lane `d`: the table's row the category word names. -/
def field (b : Fin 4096) (f : Fin 26) (d : Fin 128) : EReal := emb (ix3 f (rowOf (lc (ix2 b f))) d)

/-- The linear part: the two small products with their biases. -/
def linear (b : Fin 4096) : EReal :=
  ((∑ k : Fin 143, sc (ix2 b k) * wls (ix2 k (0 : Fin 1))) + bls (ix1 (0 : Fin 1)))
    + ((∑ k : Fin 13, nf (ix2 b k) * wln (ix2 k (0 : Fin 1))) + bln (ix1 (0 : Fin 1)))

/-- The second-order part: half the lane sum of (Σ_f e_f)² − Σ_f e_f². -/
def second (b : Fin 4096) : EReal :=
  Ideal.ofBits .f32 0x3F000000#32 * ∑ d : Fin 128,
    ((∑ f : Fin 26, field lc emb b f d) * (∑ f : Fin 26, field lc emb b f d) - ∑ f : Fin 26, field lc emb b f d * field lc emb b f d)

/-- The dense tower's input row: the 143 short categories, the 13 numeric features, then the 26 fields' 128 lanes each. -/
def towerIn (b : Fin 4096) (k : Fin 3484) : EReal :=
  if h : k.val < 143 then sc (ix2 b (⟨k.val, h⟩ : Fin 143))
  else if h' : k.val < 156 then nf (ix2 b (⟨k.val - 143, by omega⟩ : Fin 13))
  else field lc emb b (⟨(k.val - 156) / 128, by have := k.isLt; omega⟩ : Fin 26) (⟨(k.val - 156) % 128, Nat.mod_lt _ (by decide)⟩ : Fin 128)

/-- The three rectified dense layers -/
def layer1 (b : Fin 4096) (j : Fin 1024) : EReal :=
  max ((∑ k : Fin 3484, towerIn sc lc nf emb b k * w1 (ix2 k j)) + b1 (ix1 j)) 0
def layer2 (b : Fin 4096) (j : Fin 512) : EReal :=
  max ((∑ k : Fin 1024, layer1 sc lc nf emb w1 b1 b k * w2 (ix2 k j)) + b2 (ix1 j)) 0
def layer3 (b : Fin 4096) (j : Fin 256) : EReal :=
  max ((∑ k : Fin 512, layer2 sc lc nf emb w1 b1 w2 b2 b k * w3 (ix2 k j)) + b3 (ix1 j)) 0

/-- and the read-out. -/
def tower (b : Fin 4096) : EReal :=
  (∑ k : Fin 256, layer3 sc lc nf emb w1 b1 w2 b2 w3 b3 b k * wo (ix2 k (0 : Fin 1))) + bo (ix1 (0 : Fin 1))

/-- The result for batch row `b`. -/
def GRow (b : Fin 4096) : EReal :=
  (linear sc nf wls bls wln bln b + second lc emb b) + tower sc lc nf emb w1 b1 w2 b2 w3 b3 wo bo b

/-- THE SPECIFICATION: the result array, 4096 rows by one column. -/
def G : (⟨2, ![4096, 1]⟩ : Shape).Idx → EReal :=
  fun i => GRow sc lc nf emb wls bls wln bln w1 b1 w2 b2 w3 b3 wo bo ⟨(i 0).val, idx2_lt0 i⟩

/-- The specification at a row's one index is the row's result. -/
theorem G_ix2 (b : Fin 4096) (z : Fin 1) :
    G sc lc nf emb wls bls wln bln w1 b1 w2 b2 w3 b3 wo bo (ix2 b z) = GRow sc lc nf emb wls bls wln bln w1 b1 w2 b2 w3 b3 wo bo b := rfl

end Model

end Cert.Proof.Spec

end
-- ==== Proof.TcValue.lean ====
/-
  The TensorCore body's output block, at the ideal instance, as a function of its input blocks row by row, and that
  function against the specification's row.

  For row r of a 512-row block: the two small products, half the lane sum of (Σ_f e_f)² − Σ_f e_f², the dense tower over
  the row (short categories, numeric features, the 26 fields' lanes) through three rectified layers and the read-out,
  and the block's one bias word.
-/
import proofs.«205278_g66915590471714_cont_9to1_m_383_35_alg».proof.Proof.TcBody
import proofs.«205278_g66915590471714_cont_9to1_m_383_35_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Proof.TcValue

open Cert.KernelIdeal Cert.KernelIdeal.Gen Cert.Proof.KI
open Idealize.ShloMosaic Idealize.ShloMosaic.TcCoe Idealize.ShloMosaic.ValueIdx
open scoped BigOperators

/-! ## The block's row as sums -/

section Block

variable (x1 : (⟨2, ![512, 143]⟩ : Shape).Idx → EReal) (x2 : (⟨2, ![512, 13]⟩ : Shape).Idx → EReal)
  (x3 : (⟨2, ![143, 1]⟩ : Shape).Idx → EReal) (x4 : (⟨2, ![13, 1]⟩ : Shape).Idx → EReal)
  (x5 : (⟨2, ![3484, 1024]⟩ : Shape).Idx → EReal) (x6 : (⟨2, ![1, 1024]⟩ : Shape).Idx → EReal)
  (x7 : (⟨2, ![1024, 512]⟩ : Shape).Idx → EReal) (x8 : (⟨2, ![1, 512]⟩ : Shape).Idx → EReal)
  (x9 : (⟨2, ![512, 256]⟩ : Shape).Idx → EReal) (x10 : (⟨2, ![1, 256]⟩ : Shape).Idx → EReal)
  (x11 : (⟨2, ![256, 1]⟩ : Shape).Idx → EReal) (x12 : (⟨2, ![1, 1]⟩ : Shape).Idx → EReal)
  (e : Fin 26 → (⟨2, ![512, 128]⟩ : Shape).Idx → EReal)

/-- The two small products of row `r` (no bias). -/
def bLinear (r : Fin 512) : EReal :=
  (∑ k : Fin 143, x1 (ix2 r k) * x3 (ix2 k (0 : Fin 1))) + (∑ k : Fin 13, x2 (ix2 r k) * x4 (ix2 k (0 : Fin 1)))

/-- Half the lane sum of (Σ_f e_f)² − Σ_f e_f² of row `r`. -/
def bSecond (r : Fin 512) : EReal :=
  Ideal.ofBits .f32 0x3F000000#32 * ∑ d : Fin 128,
    ((∑ f : Fin 26, e f (ix2 r d)) * (∑ f : Fin 26, e f (ix2 r d)) - ∑ f : Fin 26, e f (ix2 r d) * e f (ix2 r d))

/-- The dense tower's input row: 143 short categories, 13 numeric features, the 26 fields' 128 lanes each. -/
def bIn (r : Fin 512) (k : Fin 3484) : EReal :=
  if h : k.val < 143 then x1 (ix2 r (⟨k.val, h⟩ : Fin 143))
  else if h' : k.val < 156 then x2 (ix2 r (⟨k.val - 143, by omega⟩ : Fin 13))
  else e (⟨(k.val - 156) / 128, by have := k.isLt; omega⟩ : Fin 26) (ix2 r (⟨(k.val - 156) % 128, Nat.mod_lt _ (by decide)⟩ : Fin 128))

/-- The three rectified layers of row `r`, -/
def bLayer1 (r : Fin 512) (j : Fin 1024) : EReal :=
  max ((∑ k : Fin 3484, bIn x1 x2 e r k * x5 (ix2 k j)) + x6 (ix2 (0 : Fin 1) j)) 0
def bLayer2 (r : Fin 512) (j : Fin 512) : EReal :=
  max ((∑ k : Fin 1024, bLayer1 x1 x2 x5 x6 e r k * x7 (ix2 k j)) + x8 (ix2 (0 : Fin 1) j)) 0
def bLayer3 (r : Fin 512) (j : Fin 256) : EReal :=
  max ((∑ k : Fin 512, bLayer2 x1 x2 x5 x6 x7 x8 e r k * x9 (ix2 k j)) + x10 (ix2 (0 : Fin 1) j)) 0

/-- the read-out (no bias), -/
def bTower (r : Fin 512) : EReal :=
  ∑ k : Fin 256, bLayer3 x1 x2 x5 x6 x7 x8 x9 x10 e r k * x11 (ix2 k (0 : Fin 1))

/-- and the block's result at row `r`: the parts summed in the body's order, then the block's one bias word. -/
def GBlk (r : Fin 512) : EReal :=
  ((bLinear x1 x2 x3 x4 r + bSecond e r) + bTower x1 x2 x5 x6 x7 x8 x9 x10 x11 e r) + x12 (ix2 (0 : Fin 1) (0 : Fin 1))

end Block

/-! ## The body's products at an index -/

theorem lhs_lin1_0 (i : S512x1.Idx) (q : dot_S512x143_S143x1_S512x1_1_0_0_1_n_n.contr.Idx) : (dot_S512x143_S143x1_S512x1_1_0_0_1_n_n.lhsIdx i q 0).val = (i 0).val := by
  unfold DotDims.lhsIdx
  rw [dif_neg (show ¬(0 : Fin S512x143.rank) ∈ dot_S512x143_S143x1_S512x1_1_0_0_1_n_n.lhsBatch by decide), dif_pos (show (0 : Fin S512x143.rank) ∈ dot_S512x143_S143x1_S512x1_1_0_0_1_n_n.lhsNonContracting by decide)]
  rfl
theorem lhs_lin1_1 (i : S512x1.Idx) (q : dot_S512x143_S143x1_S512x1_1_0_0_1_n_n.contr.Idx) : (dot_S512x143_S143x1_S512x1_1_0_0_1_n_n.lhsIdx i q 1).val = (q ⟨0, by decide⟩).val :=
  dot_S512x143_S143x1_S512x1_1_0_0_1_n_n.lhsIdx_val_of_single rfl i q
theorem rhs_lin1_0 (i : S512x1.Idx) (q : dot_S512x143_S143x1_S512x1_1_0_0_1_n_n.contr.Idx) : (dot_S512x143_S143x1_S512x1_1_0_0_1_n_n.rhsIdx i q 0).val = (q ⟨0, by decide⟩).val :=
  dot_S512x143_S143x1_S512x1_1_0_0_1_n_n.rhsIdx_val_of_single rfl i q
theorem rhs_lin1_1 (i : S512x1.Idx) (q : dot_S512x143_S143x1_S512x1_1_0_0_1_n_n.contr.Idx) : (dot_S512x143_S143x1_S512x1_1_0_0_1_n_n.rhsIdx i q 1).val = (i 1).val := by
  unfold DotDims.rhsIdx
  rw [dif_neg (show ¬(1 : Fin S143x1.rank) ∈ dot_S512x143_S143x1_S512x1_1_0_0_1_n_n.rhsBatch by decide), dif_pos (show (1 : Fin S143x1.rank) ∈ dot_S512x143_S143x1_S512x1_1_0_0_1_n_n.rhsNonContracting by decide)]
  rfl
/-- The product into a zero accumulator at (a, c): the sum over the 143 contracted positions. -/
theorem mm_lin1 {φ₁ φ₂ : FTy} (l : FVec Ideal S512x143 φ₁) (w : FVec Ideal S143x1 φ₂) (a : Fin 512) (c : Fin 1) :
    matmul (F := Ideal) dot_S512x143_S143x1_S512x1_1_0_0_1_n_n none l w (constant (F := Ideal) S512x1 .f32 0x00000000#32) (ix2 a c) = ∑ k : Fin 143, l (ix2 a k) * w (ix2 k c) := by
  show FloatOps.matmul dot_S512x143_S143x1_S512x1_1_0_0_1_n_n none l w (constant (F := Ideal) S512x1 .f32 0x00000000#32) (ix2 a c) = _
  rw [Ideal.matmul_constant_zero_apply, ← Equiv.sum_comp (contrEquiv1 dot_S512x143_S143x1_S512x1_1_0_0_1_n_n 143 rfl rfl).symm]
  refine Finset.sum_congr rfl fun k _ => ?_
  have hk := contrEquiv1_symm_val dot_S512x143_S143x1_S512x1_1_0_0_1_n_n 143 rfl rfl k
  have el : dot_S512x143_S143x1_S512x1_1_0_0_1_n_n.lhsIdx (ix2 a c) ((contrEquiv1 dot_S512x143_S143x1_S512x1_1_0_0_1_n_n 143 rfl rfl).symm k) = ix2 a k := funext fun x => Fin.ext (by
    match x with
    | ⟨0, _⟩ => exact lhs_lin1_0 _ _
    | ⟨1, _⟩ => exact (lhs_lin1_1 _ _).trans hk)
  have er : dot_S512x143_S143x1_S512x1_1_0_0_1_n_n.rhsIdx (ix2 a c) ((contrEquiv1 dot_S512x143_S143x1_S512x1_1_0_0_1_n_n 143 rfl rfl).symm k) = ix2 k c := funext fun x => Fin.ext (by
    match x with
    | ⟨0, _⟩ => exact (rhs_lin1_0 _ _).trans hk
    | ⟨1, _⟩ => exact rhs_lin1_1 _ _)
  rw [el, er]

theorem lhs_lin2_0 (i : S512x1.Idx) (q : dot_S512x13_S13x1_S512x1_1_0_0_1_n_n.contr.Idx) : (dot_S512x13_S13x1_S512x1_1_0_0_1_n_n.lhsIdx i q 0).val = (i 0).val := by
  unfold DotDims.lhsIdx
  rw [dif_neg (show ¬(0 : Fin S512x13.rank) ∈ dot_S512x13_S13x1_S512x1_1_0_0_1_n_n.lhsBatch by decide), dif_pos (show (0 : Fin S512x13.rank) ∈ dot_S512x13_S13x1_S512x1_1_0_0_1_n_n.lhsNonContracting by decide)]
  rfl
theorem lhs_lin2_1 (i : S512x1.Idx) (q : dot_S512x13_S13x1_S512x1_1_0_0_1_n_n.contr.Idx) : (dot_S512x13_S13x1_S512x1_1_0_0_1_n_n.lhsIdx i q 1).val = (q ⟨0, by decide⟩).val :=
  dot_S512x13_S13x1_S512x1_1_0_0_1_n_n.lhsIdx_val_of_single rfl i q
theorem rhs_lin2_0 (i : S512x1.Idx) (q : dot_S512x13_S13x1_S512x1_1_0_0_1_n_n.contr.Idx) : (dot_S512x13_S13x1_S512x1_1_0_0_1_n_n.rhsIdx i q 0).val = (q ⟨0, by decide⟩).val :=
  dot_S512x13_S13x1_S512x1_1_0_0_1_n_n.rhsIdx_val_of_single rfl i q
theorem rhs_lin2_1 (i : S512x1.Idx) (q : dot_S512x13_S13x1_S512x1_1_0_0_1_n_n.contr.Idx) : (dot_S512x13_S13x1_S512x1_1_0_0_1_n_n.rhsIdx i q 1).val = (i 1).val := by
  unfold DotDims.rhsIdx
  rw [dif_neg (show ¬(1 : Fin S13x1.rank) ∈ dot_S512x13_S13x1_S512x1_1_0_0_1_n_n.rhsBatch by decide), dif_pos (show (1 : Fin S13x1.rank) ∈ dot_S512x13_S13x1_S512x1_1_0_0_1_n_n.rhsNonContracting by decide)]
  rfl
/-- The product into a zero accumulator at (a, c): the sum over the 13 contracted positions. -/
theorem mm_lin2 {φ₁ φ₂ : FTy} (l : FVec Ideal S512x13 φ₁) (w : FVec Ideal S13x1 φ₂) (a : Fin 512) (c : Fin 1) :
    matmul (F := Ideal) dot_S512x13_S13x1_S512x1_1_0_0_1_n_n none l w (constant (F := Ideal) S512x1 .f32 0x00000000#32) (ix2 a c) = ∑ k : Fin 13, l (ix2 a k) * w (ix2 k c) := by
  show FloatOps.matmul dot_S512x13_S13x1_S512x1_1_0_0_1_n_n none l w (constant (F := Ideal) S512x1 .f32 0x00000000#32) (ix2 a c) = _
  rw [Ideal.matmul_constant_zero_apply, ← Equiv.sum_comp (contrEquiv1 dot_S512x13_S13x1_S512x1_1_0_0_1_n_n 13 rfl rfl).symm]
  refine Finset.sum_congr rfl fun k _ => ?_
  have hk := contrEquiv1_symm_val dot_S512x13_S13x1_S512x1_1_0_0_1_n_n 13 rfl rfl k
  have el : dot_S512x13_S13x1_S512x1_1_0_0_1_n_n.lhsIdx (ix2 a c) ((contrEquiv1 dot_S512x13_S13x1_S512x1_1_0_0_1_n_n 13 rfl rfl).symm k) = ix2 a k := funext fun x => Fin.ext (by
    match x with
    | ⟨0, _⟩ => exact lhs_lin2_0 _ _
    | ⟨1, _⟩ => exact (lhs_lin2_1 _ _).trans hk)
  have er : dot_S512x13_S13x1_S512x1_1_0_0_1_n_n.rhsIdx (ix2 a c) ((contrEquiv1 dot_S512x13_S13x1_S512x1_1_0_0_1_n_n 13 rfl rfl).symm k) = ix2 k c := funext fun x => Fin.ext (by
    match x with
    | ⟨0, _⟩ => exact (rhs_lin2_0 _ _).trans hk
    | ⟨1, _⟩ => exact rhs_lin2_1 _ _)
  rw [el, er]

theorem lhs_in1_0 (i : S512x1024.Idx) (q : dot_S512x143_S143x1024_S512x1024_1_0_0_1_n_n.contr.Idx) : (dot_S512x143_S143x1024_S512x1024_1_0_0_1_n_n.lhsIdx i q 0).val = (i 0).val := by
  unfold DotDims.lhsIdx
  rw [dif_neg (show ¬(0 : Fin S512x143.rank) ∈ dot_S512x143_S143x1024_S512x1024_1_0_0_1_n_n.lhsBatch by decide), dif_pos (show (0 : Fin S512x143.rank) ∈ dot_S512x143_S143x1024_S512x1024_1_0_0_1_n_n.lhsNonContracting by decide)]
  rfl
theorem lhs_in1_1 (i : S512x1024.Idx) (q : dot_S512x143_S143x1024_S512x1024_1_0_0_1_n_n.contr.Idx) : (dot_S512x143_S143x1024_S512x1024_1_0_0_1_n_n.lhsIdx i q 1).val = (q ⟨0, by decide⟩).val :=
  dot_S512x143_S143x1024_S512x1024_1_0_0_1_n_n.lhsIdx_val_of_single rfl i q
theorem rhs_in1_0 (i : S512x1024.Idx) (q : dot_S512x143_S143x1024_S512x1024_1_0_0_1_n_n.contr.Idx) : (dot_S512x143_S143x1024_S512x1024_1_0_0_1_n_n.rhsIdx i q 0).val = (q ⟨0, by decide⟩).val :=
  dot_S512x143_S143x1024_S512x1024_1_0_0_1_n_n.rhsIdx_val_of_single rfl i q
theorem rhs_in1_1 (i : S512x1024.Idx) (q : dot_S512x143_S143x1024_S512x1024_1_0_0_1_n_n.contr.Idx) : (dot_S512x143_S143x1024_S512x1024_1_0_0_1_n_n.rhsIdx i q 1).val = (i 1).val := by
  unfold DotDims.rhsIdx
  rw [dif_neg (show ¬(1 : Fin S143x1024.rank) ∈ dot_S512x143_S143x1024_S512x1024_1_0_0_1_n_n.rhsBatch by decide), dif_pos (show (1 : Fin S143x1024.rank) ∈ dot_S512x143_S143x1024_S512x1024_1_0_0_1_n_n.rhsNonContracting by decide)]
  rfl
/-- The product into a zero accumulator at (a, c): the sum over the 143 contracted positions. -/
theorem mm_in1 {φ₁ φ₂ : FTy} (l : FVec Ideal S512x143 φ₁) (w : FVec Ideal S143x1024 φ₂) (a : Fin 512) (c : Fin 1024) :
    matmul (F := Ideal) dot_S512x143_S143x1024_S512x1024_1_0_0_1_n_n none l w (constant (F := Ideal) S512x1024 .f32 0x00000000#32) (ix2 a c) = ∑ k : Fin 143, l (ix2 a k) * w (ix2 k c) := by
  show FloatOps.matmul dot_S512x143_S143x1024_S512x1024_1_0_0_1_n_n none l w (constant (F := Ideal) S512x1024 .f32 0x00000000#32) (ix2 a c) = _
  rw [Ideal.matmul_constant_zero_apply, ← Equiv.sum_comp (contrEquiv1 dot_S512x143_S143x1024_S512x1024_1_0_0_1_n_n 143 rfl rfl).symm]
  refine Finset.sum_congr rfl fun k _ => ?_
  have hk := contrEquiv1_symm_val dot_S512x143_S143x1024_S512x1024_1_0_0_1_n_n 143 rfl rfl k
  have el : dot_S512x143_S143x1024_S512x1024_1_0_0_1_n_n.lhsIdx (ix2 a c) ((contrEquiv1 dot_S512x143_S143x1024_S512x1024_1_0_0_1_n_n 143 rfl rfl).symm k) = ix2 a k := funext fun x => Fin.ext (by
    match x with
    | ⟨0, _⟩ => exact lhs_in1_0 _ _
    | ⟨1, _⟩ => exact (lhs_in1_1 _ _).trans hk)
  have er : dot_S512x143_S143x1024_S512x1024_1_0_0_1_n_n.rhsIdx (ix2 a c) ((contrEquiv1 dot_S512x143_S143x1024_S512x1024_1_0_0_1_n_n 143 rfl rfl).symm k) = ix2 k c := funext fun x => Fin.ext (by
    match x with
    | ⟨0, _⟩ => exact (rhs_in1_0 _ _).trans hk
    | ⟨1, _⟩ => exact rhs_in1_1 _ _)
  rw [el, er]

theorem lhs_in2_0 (i : S512x1024.Idx) (q : dot_S512x13_S13x1024_S512x1024_1_0_0_1_n_n.contr.Idx) : (dot_S512x13_S13x1024_S512x1024_1_0_0_1_n_n.lhsIdx i q 0).val = (i 0).val := by
  unfold DotDims.lhsIdx
  rw [dif_neg (show ¬(0 : Fin S512x13.rank) ∈ dot_S512x13_S13x1024_S512x1024_1_0_0_1_n_n.lhsBatch by decide), dif_pos (show (0 : Fin S512x13.rank) ∈ dot_S512x13_S13x1024_S512x1024_1_0_0_1_n_n.lhsNonContracting by decide)]
  rfl
theorem lhs_in2_1 (i : S512x1024.Idx) (q : dot_S512x13_S13x1024_S512x1024_1_0_0_1_n_n.contr.Idx) : (dot_S512x13_S13x1024_S512x1024_1_0_0_1_n_n.lhsIdx i q 1).val = (q ⟨0, by decide⟩).val :=
  dot_S512x13_S13x1024_S512x1024_1_0_0_1_n_n.lhsIdx_val_of_single rfl i q
theorem rhs_in2_0 (i : S512x1024.Idx) (q : dot_S512x13_S13x1024_S512x1024_1_0_0_1_n_n.contr.Idx) : (dot_S512x13_S13x1024_S512x1024_1_0_0_1_n_n.rhsIdx i q 0).val = (q ⟨0, by decide⟩).val :=
  dot_S512x13_S13x1024_S512x1024_1_0_0_1_n_n.rhsIdx_val_of_single rfl i q
theorem rhs_in2_1 (i : S512x1024.Idx) (q : dot_S512x13_S13x1024_S512x1024_1_0_0_1_n_n.contr.Idx) : (dot_S512x13_S13x1024_S512x1024_1_0_0_1_n_n.rhsIdx i q 1).val = (i 1).val := by
  unfold DotDims.rhsIdx
  rw [dif_neg (show ¬(1 : Fin S13x1024.rank) ∈ dot_S512x13_S13x1024_S512x1024_1_0_0_1_n_n.rhsBatch by decide), dif_pos (show (1 : Fin S13x1024.rank) ∈ dot_S512x13_S13x1024_S512x1024_1_0_0_1_n_n.rhsNonContracting by decide)]
  rfl
/-- The product into a zero accumulator at (a, c): the sum over the 13 contracted positions. -/
theorem mm_in2 {φ₁ φ₂ : FTy} (l : FVec Ideal S512x13 φ₁) (w : FVec Ideal S13x1024 φ₂) (a : Fin 512) (c : Fin 1024) :
    matmul (F := Ideal) dot_S512x13_S13x1024_S512x1024_1_0_0_1_n_n none l w (constant (F := Ideal) S512x1024 .f32 0x00000000#32) (ix2 a c) = ∑ k : Fin 13, l (ix2 a k) * w (ix2 k c) := by
  show FloatOps.matmul dot_S512x13_S13x1024_S512x1024_1_0_0_1_n_n none l w (constant (F := Ideal) S512x1024 .f32 0x00000000#32) (ix2 a c) = _
  rw [Ideal.matmul_constant_zero_apply, ← Equiv.sum_comp (contrEquiv1 dot_S512x13_S13x1024_S512x1024_1_0_0_1_n_n 13 rfl rfl).symm]
  refine Finset.sum_congr rfl fun k _ => ?_
  have hk := contrEquiv1_symm_val dot_S512x13_S13x1024_S512x1024_1_0_0_1_n_n 13 rfl rfl k
  have el : dot_S512x13_S13x1024_S512x1024_1_0_0_1_n_n.lhsIdx (ix2 a c) ((contrEquiv1 dot_S512x13_S13x1024_S512x1024_1_0_0_1_n_n 13 rfl rfl).symm k) = ix2 a k := funext fun x => Fin.ext (by
    match x with
    | ⟨0, _⟩ => exact lhs_in2_0 _ _
    | ⟨1, _⟩ => exact (lhs_in2_1 _ _).trans hk)
  have er : dot_S512x13_S13x1024_S512x1024_1_0_0_1_n_n.rhsIdx (ix2 a c) ((contrEquiv1 dot_S512x13_S13x1024_S512x1024_1_0_0_1_n_n 13 rfl rfl).symm k) = ix2 k c := funext fun x => Fin.ext (by
    match x with
    | ⟨0, _⟩ => exact (rhs_in2_0 _ _).trans hk
    | ⟨1, _⟩ => exact rhs_in2_1 _ _)
  rw [el, er]

theorem lhs_in3_0 (i : S512x1024.Idx) (q : dot_S512x3328_S3328x1024_S512x1024_1_0_0_1_n_n.contr.Idx) : (dot_S512x3328_S3328x1024_S512x1024_1_0_0_1_n_n.lhsIdx i q 0).val = (i 0).val := by
  unfold DotDims.lhsIdx
  rw [dif_neg (show ¬(0 : Fin S512x3328.rank) ∈ dot_S512x3328_S3328x1024_S512x1024_1_0_0_1_n_n.lhsBatch by decide), dif_pos (show (0 : Fin S512x3328.rank) ∈ dot_S512x3328_S3328x1024_S512x1024_1_0_0_1_n_n.lhsNonContracting by decide)]
  rfl
theorem lhs_in3_1 (i : S512x1024.Idx) (q : dot_S512x3328_S3328x1024_S512x1024_1_0_0_1_n_n.contr.Idx) : (dot_S512x3328_S3328x1024_S512x1024_1_0_0_1_n_n.lhsIdx i q 1).val = (q ⟨0, by decide⟩).val :=
  dot_S512x3328_S3328x1024_S512x1024_1_0_0_1_n_n.lhsIdx_val_of_single rfl i q
theorem rhs_in3_0 (i : S512x1024.Idx) (q : dot_S512x3328_S3328x1024_S512x1024_1_0_0_1_n_n.contr.Idx) : (dot_S512x3328_S3328x1024_S512x1024_1_0_0_1_n_n.rhsIdx i q 0).val = (q ⟨0, by decide⟩).val :=
  dot_S512x3328_S3328x1024_S512x1024_1_0_0_1_n_n.rhsIdx_val_of_single rfl i q
theorem rhs_in3_1 (i : S512x1024.Idx) (q : dot_S512x3328_S3328x1024_S512x1024_1_0_0_1_n_n.contr.Idx) : (dot_S512x3328_S3328x1024_S512x1024_1_0_0_1_n_n.rhsIdx i q 1).val = (i 1).val := by
  unfold DotDims.rhsIdx
  rw [dif_neg (show ¬(1 : Fin S3328x1024.rank) ∈ dot_S512x3328_S3328x1024_S512x1024_1_0_0_1_n_n.rhsBatch by decide), dif_pos (show (1 : Fin S3328x1024.rank) ∈ dot_S512x3328_S3328x1024_S512x1024_1_0_0_1_n_n.rhsNonContracting by decide)]
  rfl
/-- The product into a zero accumulator at (a, c): the sum over the 3328 contracted positions. -/
theorem mm_in3 {φ₁ φ₂ : FTy} (l : FVec Ideal S512x3328 φ₁) (w : FVec Ideal S3328x1024 φ₂) (a : Fin 512) (c : Fin 1024) :
    matmul (F := Ideal) dot_S512x3328_S3328x1024_S512x1024_1_0_0_1_n_n none l w (constant (F := Ideal) S512x1024 .f32 0x00000000#32) (ix2 a c) = ∑ k : Fin 3328, l (ix2 a k) * w (ix2 k c) := by
  show FloatOps.matmul dot_S512x3328_S3328x1024_S512x1024_1_0_0_1_n_n none l w (constant (F := Ideal) S512x1024 .f32 0x00000000#32) (ix2 a c) = _
  rw [Ideal.matmul_constant_zero_apply, ← Equiv.sum_comp (contrEquiv1 dot_S512x3328_S3328x1024_S512x1024_1_0_0_1_n_n 3328 rfl rfl).symm]
  refine Finset.sum_congr rfl fun k _ => ?_
  have hk := contrEquiv1_symm_val dot_S512x3328_S3328x1024_S512x1024_1_0_0_1_n_n 3328 rfl rfl k
  have el : dot_S512x3328_S3328x1024_S512x1024_1_0_0_1_n_n.lhsIdx (ix2 a c) ((contrEquiv1 dot_S512x3328_S3328x1024_S512x1024_1_0_0_1_n_n 3328 rfl rfl).symm k) = ix2 a k := funext fun x => Fin.ext (by
    match x with
    | ⟨0, _⟩ => exact lhs_in3_0 _ _
    | ⟨1, _⟩ => exact (lhs_in3_1 _ _).trans hk)
  have er : dot_S512x3328_S3328x1024_S512x1024_1_0_0_1_n_n.rhsIdx (ix2 a c) ((contrEquiv1 dot_S512x3328_S3328x1024_S512x1024_1_0_0_1_n_n 3328 rfl rfl).symm k) = ix2 k c := funext fun x => Fin.ext (by
    match x with
    | ⟨0, _⟩ => exact (rhs_in3_0 _ _).trans hk
    | ⟨1, _⟩ => exact rhs_in3_1 _ _)
  rw [el, er]

theorem lhs_l2_0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_l2_1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem rhs_l2_0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem rhs_l2_1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl
/-- The product into a zero accumulator at (a, c): the sum over the 1024 contracted positions. -/
theorem mm_l2 {φ₁ φ₂ : FTy} (l : FVec Ideal S512x1024 φ₁) (w : FVec Ideal S1024x512 φ₂) (a : Fin 512) (c : Fin 512) :
    matmul (F := Ideal) dot_S512x1024_S1024x512_S512x512_1_0_0_1_n_n none l w (constant (F := Ideal) S512x512 .f32 0x00000000#32) (ix2 a c) = ∑ k : Fin 1024, l (ix2 a k) * w (ix2 k c) := by
  show FloatOps.matmul dot_S512x1024_S1024x512_S512x512_1_0_0_1_n_n none l w (constant (F := Ideal) S512x512 .f32 0x00000000#32) (ix2 a c) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 a c) ((contrEquiv1 dot_S512x1024_S1024x512_S512x512_1_0_0_1_n_n 1024 rfl rfl).symm k) = ix2 a k := funext fun x => Fin.ext (by
    match x with
    | ⟨0, _⟩ => exact lhs_l2_0 _ _
    | ⟨1, _⟩ => exact (lhs_l2_1 _ _).trans hk)
  have er : dot_S512x1024_S1024x512_S512x512_1_0_0_1_n_n.rhsIdx (ix2 a c) ((contrEquiv1 dot_S512x1024_S1024x512_S512x512_1_0_0_1_n_n 1024 rfl rfl).symm k) = ix2 k c := funext fun x => Fin.ext (by
    match x with
    | ⟨0, _⟩ => exact (rhs_l2_0 _ _).trans hk
    | ⟨1, _⟩ => exact rhs_l2_1 _ _)
  rw [el, er]

theorem lhs_l3_0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_l3_1 (i : S512x256.Idx) (q : dot_S512x512_S512x256_S512x256_1_0_0_1_n_n.contr.Idx) : (dot_S512x512_S512x256_S512x256_1_0_0_1_n_n.lhsIdx i q 1).val = (q ⟨0, by decide⟩).val :=
  dot_S512x512_S512x256_S512x256_1_0_0_1_n_n.lhsIdx_val_of_single rfl i q
theorem rhs_l3_0 (i : S512x256.Idx) (q : dot_S512x512_S512x256_S512x256_1_0_0_1_n_n.contr.Idx) : (dot_S512x512_S512x256_S512x256_1_0_0_1_n_n.rhsIdx i q 0).val = (q ⟨0, by decide⟩).val :=
  dot_S512x512_S512x256_S512x256_1_0_0_1_n_n.rhsIdx_val_of_single rfl i q
theorem rhs_l3_1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl
/-- The product into a zero accumulator at (a, c): the sum over the 512 contracted positions. -/
theorem mm_l3 {φ₁ φ₂ : FTy} (l : FVec Ideal S512x512 φ₁) (w : FVec Ideal S512x256 φ₂) (a : Fin 512) (c : Fin 256) :
    matmul (F := Ideal) dot_S512x512_S512x256_S512x256_1_0_0_1_n_n none l w (constant (F := Ideal) S512x256 .f32 0x00000000#32) (ix2 a c) = ∑ k : Fin 512, l (ix2 a k) * w (ix2 k c) := by
  show FloatOps.matmul dot_S512x512_S512x256_S512x256_1_0_0_1_n_n none l w (constant (F := Ideal) S512x256 .f32 0x00000000#32) (ix2 a c) = _
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 a c) ((contrEquiv1 dot_S512x512_S512x256_S512x256_1_0_0_1_n_n 512 rfl rfl).symm k) = ix2 a k := funext fun x => Fin.ext (by
    match x with
    | ⟨0, _⟩ => exact lhs_l3_0 _ _
    | ⟨1, _⟩ => exact (lhs_l3_1 _ _).trans hk)
  have er : dot_S512x512_S512x256_S512x256_1_0_0_1_n_n.rhsIdx (ix2 a c) ((contrEquiv1 dot_S512x512_S512x256_S512x256_1_0_0_1_n_n 512 rfl rfl).symm k) = ix2 k c := funext fun x => Fin.ext (by
    match x with
    | ⟨0, _⟩ => exact (rhs_l3_0 _ _).trans hk
    | ⟨1, _⟩ => exact rhs_l3_1 _ _)
  rw [el, er]

theorem lhs_out_0 (i : S512x1.Idx) (q : dot_S512x256_S256x1_S512x1_1_0_0_1_n_n.contr.Idx) : (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
theorem lhs_out_1 (i : S512x1.Idx) (q : dot_S512x256_S256x1_S512x1_1_0_0_1_n_n.contr.Idx) : (dot_S512x256_S256x1_S512x1_1_0_0_1_n_n.lhsIdx i q 1).val = (q ⟨0, by decide⟩).val :=
  dot_S512x256_S256x1_S512x1_1_0_0_1_n_n.lhsIdx_val_of_single rfl i q
theorem rhs_out_0 (i : S512x1.Idx) (q : dot_S512x256_S256x1_S512x1_1_0_0_1_n_n.contr.Idx) : (dot_S512x256_S256x1_S512x1_1_0_0_1_n_n.rhsIdx i q 0).val = (q ⟨0, by decide⟩).val :=
  dot_S512x256_S256x1_S512x1_1_0_0_1_n_n.rhsIdx_val_of_single rfl i q
theorem rhs_out_1 (i : S512x1.Idx) (q : dot_S512x256_S256x1_S512x1_1_0_0_1_n_n.contr.Idx) : (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl
/-- The product into a zero accumulator at (a, c): the sum over the 256 contracted positions. -/
theorem mm_out {φ₁ φ₂ : FTy} (l : FVec Ideal S512x256 φ₁) (w : FVec Ideal S256x1 φ₂) (a : Fin 512) (c : Fin 1) :
    matmul (F := Ideal) dot_S512x256_S256x1_S512x1_1_0_0_1_n_n none l w (constant (F := Ideal) S512x1 .f32 0x00000000#32) (ix2 a c) = ∑ k : Fin 256, l (ix2 a k) * w (ix2 k c) := by
  show FloatOps.matmul dot_S512x256_S256x1_S512x1_1_0_0_1_n_n none l w (constant (F := Ideal) S512x1 .f32 0x00000000#32) (ix2 a c) = _
  rw [Ideal.matmul_constant_zero_apply, ← Equiv.sum_comp (contrEquiv1 dot_S512x256_S256x1_S512x1_1_0_0_1_n_n 256 rfl rfl).symm]
  refine Finset.sum_congr rfl fun k _ => ?_
  have hk := contrEquiv1_symm_val dot_S512x256_S256x1_S512x1_1_0_0_1_n_n 256 rfl rfl k
  have el : dot_S512x256_S256x1_S512x1_1_0_0_1_n_n.lhsIdx (ix2 a c) ((contrEquiv1 dot_S512x256_S256x1_S512x1_1_0_0_1_n_n 256 rfl rfl).symm k) = ix2 a k := funext fun x => Fin.ext (by
    match x with
    | ⟨0, _⟩ => exact lhs_out_0 _ _
    | ⟨1, _⟩ => exact (lhs_out_1 _ _).trans hk)
  have er : dot_S512x256_S256x1_S512x1_1_0_0_1_n_n.rhsIdx (ix2 a c) ((contrEquiv1 dot_S512x256_S256x1_S512x1_1_0_0_1_n_n 256 rfl rfl).symm k) = ix2 k c := funext fun x => Fin.ext (by
    match x with
    | ⟨0, _⟩ => exact (rhs_out_0 _ _).trans hk
    | ⟨1, _⟩ => exact rhs_out_1 _ _)
  rw [el, er]

/-! ## Layout, windows and a sum in three stretches -/

theorem hz2 : (![0, 0] : Fin 2 → ℕ) = fun _ => 0 := by funext a; match a with | ⟨0, _⟩ => rfl | ⟨1, _⟩ => rfl

/-- A sum over a + b + c positions is the sums over its three stretches. -/
theorem sum_three {M : Type} [AddCommMonoid M] (a b c : ℕ) (g : Fin (a + b + c) → M) :
    ∑ k, g k = (∑ i : Fin a, g (Fin.castAdd c (Fin.castAdd b i)) + ∑ i : Fin b, g (Fin.castAdd c (Fin.natAdd a i)))
      + ∑ i : Fin c, g (Fin.natAdd (a + b) i) := by
  rw [Fin.sum_univ_add, Fin.sum_univ_add]

/-- A row window of the weight block, read at (i, j): the block at row `off + i`. -/
theorem ld_rows {n : ℕ} (x5 : Vec Ideal (⟨2, ![3484, 1024]⟩ : Shape) .bf16) (off : ℕ)
    (inb : ∀ a, (![off, 0] : Fin 2 → ℕ) a + (![n, 1024] : Fin 2 → ℕ) a ≤ (⟨2, ![3484, 1024]⟩ : Shape).size a)
    (i : Fin n) (j : Fin 1024) (K : Fin 3484) (hK : K.val = off + i.val) :
    View.ld x5 (Rect.unit (s := ⟨2, ![3484, 1024]⟩) ![off, 0] ![n, 1024] inb) (ix2 i j) = x5 (ix2 K j) := by
  show x5 ((Rect.unit (s := ⟨2, ![3484, 1024]⟩) ![off, 0] ![n, 1024] inb).idx (ix2 i j)) = x5 (ix2 K j)
  refine congrArg x5 (funext fun a => Fin.ext ?_)
  match a with
  | ⟨0, _⟩ => show off + 1 * i.val = K.val; omega
  | ⟨1, _⟩ => show 0 + 1 * j.val = j.val; omega

/-! ## Twenty-six terms -/

/-- A sum over the 26 fields, term by term. -/
theorem sum26 {α M : Type} [AddCommMonoid M] (g : α → M) (a0 a1 a2 a3 a4 a5 a6 a7 a8 a9 a10 a11 a12 a13 a14 a15 a16 a17 a18 a19 a20 a21 a22 a23 a24 a25 : α) :
    ∑ f : Fin 26, g (![a0, a1, a2, a3, a4, a5, a6, a7, a8, a9, a10, a11, a12, a13, a14, a15, a16, a17, a18, a19, a20, a21, a22, a23, a24, a25] f) = g a0 + (g a1 + (g a2 + (g a3 + (g a4 + (g a5 + (g a6 + (g a7 + (g a8 + (g a9 + (g a10 + (g a11 + (g a12 + (g a13 + (g a14 + (g a15 + (g a16 + (g a17 + (g a18 + (g a19 + (g a20 + (g a21 + (g a22 + (g a23 + (g a24 + (g a25))))))))))))))))))))))))) := by
  simp only [Fin.sum_univ_succ, Matrix.cons_val_zero, Matrix.cons_val_succ, Fin.sum_univ_zero, add_zero]

/-! ## Call 1: the casts that change nothing -/

theorem k1_pay2_id (v : Vec Ideal S512x128 .f32) : k1_pay2 (F := Ideal) v = v := shapeCast_self v _
theorem k1_pay3_id (v : Vec Ideal S512x128 .f32) : k1_pay3 (F := Ideal) v = v := shapeCast_self v _
theorem k1_pay4_id (v : Vec Ideal S512x128 .f32) : k1_pay4 (F := Ideal) v = v := shapeCast_self v _
theorem k1_pay5_id (v : Vec Ideal S512x128 .f32) : k1_pay5 (F := Ideal) v = v := shapeCast_self v _
theorem k1_pay6_id (v : Vec Ideal S512x128 .f32) : k1_pay6 (F := Ideal) v = v := shapeCast_self v _
theorem k1_pay7_id (v : Vec Ideal S512x128 .f32) : k1_pay7 (F := Ideal) v = v := shapeCast_self v _
theorem k1_pay8_id (v : Vec Ideal S512x128 .f32) : k1_pay8 (F := Ideal) v = v := shapeCast_self v _
theorem k1_pay9_id (v : Vec Ideal S512x128 .f32) : k1_pay9 (F := Ideal) v = v := shapeCast_self v _
theorem k1_pay10_id (v : Vec Ideal S512x128 .f32) : k1_pay10 (F := Ideal) v = v := shapeCast_self v _
theorem k1_pay11_id (v : Vec Ideal S512x128 .f32) : k1_pay11 (F := Ideal) v = v := shapeCast_self v _
theorem k1_pay12_id (v : Vec Ideal S512x128 .f32) : k1_pay12 (F := Ideal) v = v := shapeCast_self v _
theorem k1_pay13_id (v : Vec Ideal S512x128 .f32) : k1_pay13 (F := Ideal) v = v := shapeCast_self v _
theorem k1_pay14_id (v : Vec Ideal S512x128 .f32) : k1_pay14 (F := Ideal) v = v := shapeCast_self v _
theorem k1_pay15_id (v : Vec Ideal S512x128 .f32) : k1_pay15 (F := Ideal) v = v := shapeCast_self v _
theorem k1_pay16_id (v : Vec Ideal S512x128 .f32) : k1_pay16 (F := Ideal) v = v := shapeCast_self v _
theorem k1_pay17_id (v : Vec Ideal S512x128 .f32) : k1_pay17 (F := Ideal) v = v := shapeCast_self v _
theorem k1_pay18_id (v : Vec Ideal S512x128 .f32) : k1_pay18 (F := Ideal) v = v := shapeCast_self v _
theorem k1_pay19_id (v : Vec Ideal S512x128 .f32) : k1_pay19 (F := Ideal) v = v := shapeCast_self v _
theorem k1_pay20_id (v : Vec Ideal S512x128 .f32) : k1_pay20 (F := Ideal) v = v := shapeCast_self v _
theorem k1_pay21_id (v : Vec Ideal S512x128 .f32) : k1_pay21 (F := Ideal) v = v := shapeCast_self v _
theorem k1_pay22_id (v : Vec Ideal S512x128 .f32) : k1_pay22 (F := Ideal) v = v := shapeCast_self v _
theorem k1_pay23_id (v : Vec Ideal S512x128 .f32) : k1_pay23 (F := Ideal) v = v := shapeCast_self v _
theorem k1_pay24_id (v : Vec Ideal S512x128 .f32) : k1_pay24 (F := Ideal) v = v := shapeCast_self v _
theorem k1_pay25_id (v : Vec Ideal S512x128 .f32) : k1_pay25 (F := Ideal) v = v := shapeCast_self v _
theorem k1_pay26_id (v : Vec Ideal S512x128 .f32) : k1_pay26 (F := Ideal) v = v := shapeCast_self v _
theorem k1_pay27_id (v : Vec Ideal S512x128 .f32) : k1_pay27 (F := Ideal) v = v := shapeCast_self v _
theorem k1_pay43_id (v : Vec Ideal S512x143 .f32) : k1_pay43 (F := Ideal) v = v := shapeCast_self v _
theorem k1_pay44_id (v : Vec Ideal S512x13 .f32) : k1_pay44 (F := Ideal) v = v := shapeCast_self v _

/-! ## Call 1: the second-order part and the two small products -/

/-- The lane sum, re-laid as a column, times the half. -/
theorem k1_pay42_apply (v76 v125 v126 : FVec Ideal S512x128 .f32) (r : Fin 512) :
    k1_pay42 (F := Ideal) v76 v125 v126 (ix2 r (0 : Fin 1))
      = Ideal.ofBits .f32 0x3F000000#32 * ∑ d : Fin 128, (v76 (ix2 r d) * v76 (ix2 r d) - (v125 (ix2 r d) + v126 (ix2 r d))) := by
  simp only [k1_pay42]
  rw [mulf_apply, broadcast_apply,
    shapeCast_apply _ shapeCasts_S512_S512x1 (ix2 r (0 : Fin 1)) (ix1 r)
      (by rw [Shape.rowMajor_val_one, Shape.rowMajor_val_two]; show r.val = r.val * 1 + 0; omega)]
  refine congrArg (fun s => Ideal.ofBits .f32 0x3F000000#32 * s) ?_
  refine (Ideal.multiReduction_add_single _ 0x00000000#32 reduces_S512x128_S512 (.inl rfl) rfl (ix1 r)).trans ?_
  refine Finset.sum_congr rfl fun (d : Fin 128) _ => ?_
  have hl : reduces_S512x128_S512.lift (ix1 r) d = ix2 r d := funext fun a => Fin.ext (by match a with | ⟨0, _⟩ => rfl | ⟨1, _⟩ => rfl)
  rw [hl]
  rfl

/-- The two small products of row r. -/
theorem k1_pay45_apply (x1 : Vec Ideal S512x143 .f32) (x2 : Vec Ideal S512x13 .f32) (x3 : Vec Ideal S143x1 .f32) (x4 : Vec Ideal S13x1 .f32) (r : Fin 512) :
    k1_pay45 (F := Ideal) x1 x2 x3 x4 (ix2 r (0 : Fin 1)) = bLinear x1 x2 x3 x4 r := by
  simp only [k1_pay45]
  rw [addf_apply, mm_lin1, mm_lin2, k1_pay43_id, k1_pay44_id]
  rfl

/-- The pairwise tree over the 26 field blocks is their sum, -/
theorem k1_sum_apply (e0 : Vec Ideal S512x128 .f32) (e1 : Vec Ideal S512x128 .f32) (e2 : Vec Ideal S512x128 .f32) (e3 : Vec Ideal S512x128 .f32) (e4 : Vec Ideal S512x128 .f32) (e5 : Vec Ideal S512x128 .f32) (e6 : Vec Ideal S512x128 .f32) (e7 : Vec Ideal S512x128 .f32) (e8 : Vec Ideal S512x128 .f32) (e9 : Vec Ideal S512x128 .f32) (e10 : Vec Ideal S512x128 .f32) (e11 : Vec Ideal S512x128 .f32) (e12 : Vec Ideal S512x128 .f32) (e13 : Vec Ideal S512x128 .f32) (e14 : Vec Ideal S512x128 .f32) (e15 : Vec Ideal S512x128 .f32) (e16 : Vec Ideal S512x128 .f32) (e17 : Vec Ideal S512x128 .f32) (e18 : Vec Ideal S512x128 .f32) (e19 : Vec Ideal S512x128 .f32) (e20 : Vec Ideal S512x128 .f32) (e21 : Vec Ideal S512x128 .f32) (e22 : Vec Ideal S512x128 .f32) (e23 : Vec Ideal S512x128 .f32) (e24 : Vec Ideal S512x128 .f32) (e25 : Vec Ideal S512x128 .f32) (i : S512x128.Idx) :
    (k1_pay39 (F := Ideal) (k1_pay28 (F := Ideal) e8 e9) (k1_pay29 (F := Ideal) e10 e11) (k1_pay30 (F := Ideal) e12 e13) (k1_pay31 (F := Ideal) e14 e15) (k1_pay32 (F := Ideal) e16 e17) (k1_pay33 (F := Ideal) e18 e19) (k1_pay34 (F := Ideal) e20 e21) (k1_pay35 (F := Ideal) e22 e23) (k1_pay36 (F := Ideal) e24 e25) (k1_pay37 (F := Ideal) e0 e1 e2 e3) (k1_pay38 (F := Ideal) e4 e5 e6 e7)) i = ∑ f : Fin 26, ![e0, e1, e2, e3, e4, e5, e6, e7, e8, e9, e10, e11, e12, e13, e14, e15, e16, e17, e18, e19, e20, e21, e22, e23, e24, e25] f i := by
  have h := sum26 (fun e : S512x128.Idx → EReal => e i) e0 e1 e2 e3 e4 e5 e6 e7 e8 e9 e10 e11 e12 e13 e14 e15 e16 e17 e18 e19 e20 e21 e22 e23 e24 e25
  refine Eq.trans ?_ h.symm
  simp only [k1_pay39, k1_pay28, k1_pay29, k1_pay30, k1_pay31, k1_pay32, k1_pay33, k1_pay34, k1_pay35, k1_pay36, k1_pay37, k1_pay38,
    k1_pay2_id, k1_pay3_id, k1_pay4_id, k1_pay5_id, k1_pay6_id, k1_pay7_id, k1_pay8_id, k1_pay9_id, k1_pay10_id, k1_pay11_id, k1_pay12_id, k1_pay13_id, k1_pay14_id, k1_pay15_id, k1_pay16_id, k1_pay17_id, k1_pay18_id, k1_pay19_id, k1_pay20_id, k1_pay21_id, k1_pay22_id, k1_pay23_id, k1_pay24_id, k1_pay25_id, k1_pay26_id, k1_pay27_id, addf_apply]
  ac_rfl

/-- and the two trees over their squares are the sum of their squares. -/
theorem k1_sq_apply (e0 : Vec Ideal S512x128 .f32) (e1 : Vec Ideal S512x128 .f32) (e2 : Vec Ideal S512x128 .f32) (e3 : Vec Ideal S512x128 .f32) (e4 : Vec Ideal S512x128 .f32) (e5 : Vec Ideal S512x128 .f32) (e6 : Vec Ideal S512x128 .f32) (e7 : Vec Ideal S512x128 .f32) (e8 : Vec Ideal S512x128 .f32) (e9 : Vec Ideal S512x128 .f32) (e10 : Vec Ideal S512x128 .f32) (e11 : Vec Ideal S512x128 .f32) (e12 : Vec Ideal S512x128 .f32) (e13 : Vec Ideal S512x128 .f32) (e14 : Vec Ideal S512x128 .f32) (e15 : Vec Ideal S512x128 .f32) (e16 : Vec Ideal S512x128 .f32) (e17 : Vec Ideal S512x128 .f32) (e18 : Vec Ideal S512x128 .f32) (e19 : Vec Ideal S512x128 .f32) (e20 : Vec Ideal S512x128 .f32) (e21 : Vec Ideal S512x128 .f32) (e22 : Vec Ideal S512x128 .f32) (e23 : Vec Ideal S512x128 .f32) (e24 : Vec Ideal S512x128 .f32) (e25 : Vec Ideal S512x128 .f32) (i : S512x128.Idx) :
    (k1_pay40 (F := Ideal) e0 e1 e2 e3 e4 e5 e6 e7 e8 e9 e10 e11 e12 e13 e14 e15) i + (k1_pay41 (F := Ideal) e16 e17 e18 e19 e20 e21 e22 e23 e24 e25) i = ∑ f : Fin 26, ![e0, e1, e2, e3, e4, e5, e6, e7, e8, e9, e10, e11, e12, e13, e14, e15, e16, e17, e18, e19, e20, e21, e22, e23, e24, e25] f i * ![e0, e1, e2, e3, e4, e5, e6, e7, e8, e9, e10, e11, e12, e13, e14, e15, e16, e17, e18, e19, e20, e21, e22, e23, e24, e25] f i := by
  have h := sum26 (fun e : S512x128.Idx → EReal => e i * e i) e0 e1 e2 e3 e4 e5 e6 e7 e8 e9 e10 e11 e12 e13 e14 e15 e16 e17 e18 e19 e20 e21 e22 e23 e24 e25
  refine Eq.trans ?_ h.symm
  simp only [k1_pay40, k1_pay41, k1_pay2_id, k1_pay3_id, k1_pay4_id, k1_pay5_id, k1_pay6_id, k1_pay7_id, k1_pay8_id, k1_pay9_id, k1_pay10_id, k1_pay11_id, k1_pay12_id, k1_pay13_id, k1_pay14_id, k1_pay15_id, k1_pay16_id, k1_pay17_id, k1_pay18_id, k1_pay19_id, k1_pay20_id, k1_pay21_id, k1_pay22_id, k1_pay23_id, k1_pay24_id, k1_pay25_id, k1_pay26_id, k1_pay27_id, addf_apply, mulf_apply]
  ac_rfl

/-! ## Call 1: the dense tower -/

/-- The 26 field blocks side by side, at (r, k): block k / 128 at lane k % 128. -/
theorem k1_concat_apply (e0 : FVec Ideal S512x128 .f32) (e1 : FVec Ideal S512x128 .f32) (e2 : FVec Ideal S512x128 .f32) (e3 : FVec Ideal S512x128 .f32) (e4 : FVec Ideal S512x128 .f32) (e5 : FVec Ideal S512x128 .f32) (e6 : FVec Ideal S512x128 .f32) (e7 : FVec Ideal S512x128 .f32) (e8 : FVec Ideal S512x128 .f32) (e9 : FVec Ideal S512x128 .f32) (e10 : FVec Ideal S512x128 .f32) (e11 : FVec Ideal S512x128 .f32) (e12 : FVec Ideal S512x128 .f32) (e13 : FVec Ideal S512x128 .f32) (e14 : FVec Ideal S512x128 .f32) (e15 : FVec Ideal S512x128 .f32) (e16 : FVec Ideal S512x128 .f32) (e17 : FVec Ideal S512x128 .f32) (e18 : FVec Ideal S512x128 .f32) (e19 : FVec Ideal S512x128 .f32) (e20 : FVec Ideal S512x128 .f32) (e21 : FVec Ideal S512x128 .f32) (e22 : FVec Ideal S512x128 .f32) (e23 : FVec Ideal S512x128 .f32) (e24 : FVec Ideal S512x128 .f32) (e25 : FVec Ideal S512x128 .f32) (r : Fin 512) (k : Fin 3328) :
    concatenate S512x3328 1 [⟨S512x128, e0⟩, ⟨S512x128, e1⟩, ⟨S512x128, e2⟩, ⟨S512x128, e3⟩, ⟨S512x128, e4⟩, ⟨S512x128, e5⟩, ⟨S512x128, e6⟩, ⟨S512x128, e7⟩, ⟨S512x128, e8⟩, ⟨S512x128, e9⟩, ⟨S512x128, e10⟩, ⟨S512x128, e11⟩, ⟨S512x128, e12⟩, ⟨S512x128, e13⟩, ⟨S512x128, e14⟩, ⟨S512x128, e15⟩, ⟨S512x128, e16⟩, ⟨S512x128, e17⟩, ⟨S512x128, e18⟩, ⟨S512x128, e19⟩, ⟨S512x128, e20⟩, ⟨S512x128, e21⟩, ⟨S512x128, e22⟩, ⟨S512x128, e23⟩, ⟨S512x128, e24⟩, ⟨S512x128, e25⟩] concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 (ix2 r k)
      = ![e0, e1, e2, e3, e4, e5, e6, e7, e8, e9, e10, e11, e12, e13, e14, e15, e16, e17, e18, e19, e20, e21, e22, e23, e24, e25] (⟨k.val / 128, by have := k.isLt; omega⟩ : Fin 26) (ix2 r (⟨k.val % 128, Nat.mod_lt _ (by decide)⟩ : Fin 128)) :=
  concatenate_ofFn_apply (1 : Fin S512x3328.rank) (fun n : Fin 26 => ![e0, e1, e2, e3, e4, e5, e6, e7, e8, e9, e10, e11, e12, e13, e14, e15, e16, e17, e18, e19, e20, e21, e22, e23, e24, e25] n) concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 rfl 128 rfl (ix2 r k)
    (⟨k.val / 128, by have := k.isLt; omega⟩ : Fin 26) rfl (ix2 r (⟨k.val % 128, Nat.mod_lt _ (by decide)⟩ : Fin 128)) rfl
    (fun b hb => by match b with | ⟨0, _⟩ => rfl | ⟨1, _⟩ => exact absurd rfl hb)

/-- The first layer before the rectifier at (r, j): the three products against the weight block's row windows, and the bias row. -/
theorem k1_pay46_apply (e0 : FVec Ideal S512x128 .f32) (e1 : FVec Ideal S512x128 .f32) (e2 : FVec Ideal S512x128 .f32) (e3 : FVec Ideal S512x128 .f32) (e4 : FVec Ideal S512x128 .f32) (e5 : FVec Ideal S512x128 .f32) (e6 : FVec Ideal S512x128 .f32) (e7 : FVec Ideal S512x128 .f32) (e8 : FVec Ideal S512x128 .f32) (e9 : FVec Ideal S512x128 .f32) (e10 : FVec Ideal S512x128 .f32) (e11 : FVec Ideal S512x128 .f32) (e12 : FVec Ideal S512x128 .f32) (e13 : FVec Ideal S512x128 .f32) (e14 : FVec Ideal S512x128 .f32) (e15 : FVec Ideal S512x128 .f32) (e16 : FVec Ideal S512x128 .f32) (e17 : FVec Ideal S512x128 .f32) (e18 : FVec Ideal S512x128 .f32) (e19 : FVec Ideal S512x128 .f32) (e20 : FVec Ideal S512x128 .f32) (e21 : FVec Ideal S512x128 .f32) (e22 : FVec Ideal S512x128 .f32) (e23 : FVec Ideal S512x128 .f32) (e24 : FVec Ideal S512x128 .f32) (e25 : FVec Ideal S512x128 .f32) (x1 : Vec Ideal S512x143 .f32) (x2 : Vec Ideal S512x13 .f32)
    (w1 : Vec Ideal S143x1024 .bf16) (w2 : Vec Ideal S13x1024 .bf16) (w3 : Vec Ideal S3328x1024 .bf16) (x6 : Vec Ideal S1x1024 .f32) (r : Fin 512) (j : Fin 1024) :
    k1_pay46 (F := Ideal) e0 e1 e2 e3 e4 e5 e6 e7 e8 e9 e10 e11 e12 e13 e14 e15 e16 e17 e18 e19 e20 e21 e22 e23 e24 e25 x1 x2 w1 w2 w3 x6 (ix2 r j)
      = (((∑ k : Fin 143, x1 (ix2 r k) * w1 (ix2 k j)) + (∑ k : Fin 13, x2 (ix2 r k) * w2 (ix2 k j)))
          + ∑ k : Fin 3328, ![e0, e1, e2, e3, e4, e5, e6, e7, e8, e9, e10, e11, e12, e13, e14, e15, e16, e17, e18, e19, e20, e21, e22, e23, e24, e25] (⟨k.val / 128, by have := k.isLt; omega⟩ : Fin 26) (ix2 r (⟨k.val % 128, Nat.mod_lt _ (by decide)⟩ : Fin 128)) * w3 (ix2 k j))
        + x6 (ix2 (0 : Fin 1) j) := by
  simp only [k1_pay46, addf_apply, mm_in1, mm_in2, mm_in3, truncf_apply, shapeCast_self, k1_pay43_id, k1_pay44_id, k1_concat_apply]
  rw [broadcastTo_1b_ab_apply]

/-- The three stretches of the weight block's rows make the one sum over the tower's input row. -/
theorem k1_in_split (x1 : Vec Ideal S512x143 .f32) (x2 : Vec Ideal S512x13 .f32) (e : Fin 26 → (⟨2, ![512, 128]⟩ : Shape).Idx → EReal)
    (x5 : Vec Ideal S3484x1024 .bf16) (r : Fin 512) (j : Fin 1024) :
    ((∑ k : Fin 143, x1 (ix2 r k) * (View.ld x5 (Rect.unit (s := S3484x1024) ![0, 0] ![143, 1024] inb_S3484x1024_S143x1024_0_0)) (ix2 k j)) + (∑ k : Fin 13, x2 (ix2 r k) * (View.ld x5 (Rect.unit (s := S3484x1024) ![143, 0] ![13, 1024] inb_S3484x1024_S13x1024_143_0)) (ix2 k j)))
        + (∑ k : Fin 3328, e (⟨k.val / 128, by have := k.isLt; omega⟩ : Fin 26) (ix2 r (⟨k.val % 128, Nat.mod_lt _ (by decide)⟩ : Fin 128)) * (View.ld x5 (Rect.unit (s := S3484x1024) ![156, 0] ![3328, 1024] inb_S3484x1024_S3328x1024_156_0)) (ix2 k j))
      = ∑ k : Fin 3484, bIn x1 x2 e r k * x5 (ix2 k j) := by
  refine ((sum_three 143 13 3328 (fun k : Fin (143 + 13 + 3328) => bIn x1 x2 e r k * x5 (ix2 k j))).trans ?_).symm
  congr 1
  · congr 1
    · refine Finset.sum_congr rfl fun i _ => ?_
      rw [show (View.ld x5 (Rect.unit (s := S3484x1024) ![0, 0] ![143, 1024] inb_S3484x1024_S143x1024_0_0)) (ix2 i j) = x5 (ix2 (Fin.castAdd 3328 (Fin.castAdd 13 i)) j) from
        ld_rows x5 0 _ i j (Fin.castAdd 3328 (Fin.castAdd 13 i)) (by show i.val = 0 + i.val; omega)]
      unfold bIn
      rw [dif_pos (show (Fin.castAdd 3328 (Fin.castAdd 13 i)).val < 143 from i.isLt)]
      rfl
    · refine Finset.sum_congr rfl fun i _ => ?_
      rw [show (View.ld x5 (Rect.unit (s := S3484x1024) ![143, 0] ![13, 1024] inb_S3484x1024_S13x1024_143_0)) (ix2 i j) = x5 (ix2 (Fin.castAdd 3328 (Fin.natAdd 143 i)) j) from
        ld_rows x5 143 _ i j (Fin.castAdd 3328 (Fin.natAdd 143 i)) rfl]
      unfold bIn
      rw [dif_neg (show ¬ (Fin.castAdd 3328 (Fin.natAdd 143 i)).val < 143 from by show ¬ 143 + i.val < 143; omega),
        dif_pos (show (Fin.castAdd 3328 (Fin.natAdd 143 i)).val < 156 from by show 143 + i.val < 156; have := i.isLt; omega)]
      congr 3
      exact Fin.ext (by show 143 + i.val - 143 = i.val; omega)
  · refine Finset.sum_congr rfl fun i _ => ?_
    rw [show (View.ld x5 (Rect.unit (s := S3484x1024) ![156, 0] ![3328, 1024] inb_S3484x1024_S3328x1024_156_0)) (ix2 i j) = x5 (ix2 (Fin.natAdd (143 + 13) i) j) from
      ld_rows x5 156 _ i j (Fin.natAdd (143 + 13) i) rfl]
    unfold bIn
    rw [dif_neg (show ¬ (Fin.natAdd (143 + 13) i).val < 143 from by show ¬ 143 + 13 + i.val < 143; omega),
      dif_neg (show ¬ (Fin.natAdd (143 + 13) i).val < 156 from by show ¬ 143 + 13 + i.val < 156; omega)]
    have h1 : (143 + 13 + i.val - 156) / 128 = i.val / 128 := by omega
    have h2 : (143 + 13 + i.val - 156) % 128 = i.val % 128 := by omega
    congr 2
    · exact Fin.ext h1
    · exact congrArg (ix2 r) (Fin.ext h2)

/-- The zero the first rectifier compares with. -/
theorem k1_pay47_apply (i : S512x1024.Idx) : k1_pay47 (F := Ideal) i = 0 := by
  simp only [k1_pay47, broadcast_apply]
  exact Ideal.ofBits_zero_f32

/-- The remaining layers, the read-out and the final sum at row r. -/
theorem k1_pay1_apply (v133 v142 : FVec Ideal S512x1 .f32) (v161 v162 : FVec Ideal S512x1024 .f32) (x7 : Vec Ideal S1024x512 .bf16) (x8 : Vec Ideal S1x512 .f32)
    (x9 : Vec Ideal S512x256 .bf16) (x10 : Vec Ideal S1x256 .f32) (x11 : Vec Ideal S256x1 .bf16) (x12 : Vec Ideal S1x1 .f32) (r : Fin 512) :
    k1_pay1 (F := Ideal) v133 v142 v161 v162 x7 x8 x9 x10 x11 x12 (ix2 r (0 : Fin 1))
      = ((v142 (ix2 r (0 : Fin 1)) + v133 (ix2 r (0 : Fin 1)))
          + ∑ k : Fin 256, max ((∑ k2 : Fin 512, max ((∑ k1 : Fin 1024, max (v161 (ix2 r k1)) (v162 (ix2 r k1)) * x7 (ix2 k1 k2)) + x8 (ix2 (0 : Fin 1) k2)) 0 * x9 (ix2 k2 k)) + x10 (ix2 (0 : Fin 1) k)) 0 * x11 (ix2 k (0 : Fin 1)))
        + x12 (ix2 (0 : Fin 1) (0 : Fin 1)) := by
  simp only [k1_pay1, addf_apply, mm_out, mm_l3, mm_l2, truncf_apply, maximumf_apply, broadcast_apply, shapeCast_self, broadcastTo_1b_ab_apply,
    Ideal.ofBits_def, Ideal.ofBits_zero_f32]

/-- The body of call 1's output block at row `r` is the block's row function of its input blocks. -/
theorem tcOut1_apply (x1 : Vec Ideal S512x143 .f32) (x2 : Vec Ideal S512x13 .f32) (x3 : Vec Ideal S143x1 .f32) (x4 : Vec Ideal S13x1 .f32) (x5 : Vec Ideal S3484x1024 .bf16) (x6 : Vec Ideal S1x1024 .f32) (x7 : Vec Ideal S1024x512 .bf16) (x8 : Vec Ideal S1x512 .f32) (x9 : Vec Ideal S512x256 .bf16) (x10 : Vec Ideal S1x256 .f32) (x11 : Vec Ideal S256x1 .bf16) (x12 : Vec Ideal S1x1 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32) (x19 : Vec Ideal S512x128 .f32) (x20 : Vec Ideal S512x128 .f32) (x21 : Vec Ideal S512x128 .f32) (x22 : Vec Ideal S512x128 .f32) (x23 : Vec Ideal S512x128 .f32) (x24 : Vec Ideal S512x128 .f32) (x25 : Vec Ideal S512x128 .f32) (x26 : Vec Ideal S512x128 .f32) (x27 : Vec Ideal S512x128 .f32) (x28 : Vec Ideal S512x128 .f32) (x29 : Vec Ideal S512x128 .f32) (x30 : Vec Ideal S512x128 .f32) (x31 : Vec Ideal S512x128 .f32) (x32 : Vec Ideal S512x128 .f32) (x33 : Vec Ideal S512x128 .f32) (x34 : Vec Ideal S512x128 .f32) (x35 : Vec Ideal S512x128 .f32) (x36 : Vec Ideal S512x128 .f32) (x37 : Vec Ideal S512x128 .f32) (x38 : Vec Ideal S512x128 .f32) (r : Fin 512) :
    tcOut1 (F := Ideal) x1 x2 x3 x4 x5 x6 x7 x8 x9 x10 x11 x12 x13 x14 x15 x16 x17 x18 x19 x20 x21 x22 x23 x24 x25 x26 x27 x28 x29 x30 x31 x32 x33 x34 x35 x36 x37 x38 (ix2 r (0 : Fin 1)) = GBlk x1 x2 x3 x4 x5 x6 x7 x8 x9 x10 x11 x12 ![x13, x14, x15, x16, x17, x18, x19, x20, x21, x22, x23, x24, x25, x26, x27, x28, x29, x30, x31, x32, x33, x34, x35, x36, x37, x38] r := by
  unfold tcOut1
  simp only [View.canon_unit_zero (S := S512x1) hz2, View.ld_unit_zero (S := S512x128) hz2, View.ld_unit_zero (S := S512x143) hz2, View.ld_unit_zero (S := S512x13) hz2, View.ld_unit_zero (S := S143x1) hz2, View.ld_unit_zero (S := S13x1) hz2, View.ld_unit_zero (S := S1x1024) hz2, View.ld_unit_zero (S := S1024x512) hz2, View.ld_unit_zero (S := S1x512) hz2, View.ld_unit_zero (S := S512x256) hz2, View.ld_unit_zero (S := S1x256) hz2, View.ld_unit_zero (S := S256x1) hz2, View.ld_unit_zero (S := S1x1) hz2]
  rw [k1_pay1_apply, k1_pay45_apply, k1_pay42_apply]
  simp only [k1_pay46_apply, k1_pay47_apply, k1_pay2_id, k1_pay3_id, k1_pay4_id, k1_pay5_id, k1_pay6_id, k1_pay7_id, k1_pay8_id, k1_pay9_id, k1_pay10_id, k1_pay11_id, k1_pay12_id, k1_pay13_id, k1_pay14_id, k1_pay15_id, k1_pay16_id, k1_pay17_id, k1_pay18_id, k1_pay19_id, k1_pay20_id, k1_pay21_id, k1_pay22_id, k1_pay23_id, k1_pay24_id, k1_pay25_id, k1_pay26_id, k1_pay27_id, k1_sum_apply, k1_sq_apply,
    k1_in_split x1 x2 ![x13, x14, x15, x16, x17, x18, x19, x20, x21, x22, x23, x24, x25, x26, x27, x28, x29, x30, x31, x32, x33, x34, x35, x36, x37, x38] x5 r]
  rfl

/-! ## Call 3: the casts that change nothing -/

theorem k3_pay2_id (v : Vec Ideal S512x128 .f32) : k3_pay2 (F := Ideal) v = v := shapeCast_self v _
theorem k3_pay3_id (v : Vec Ideal S512x128 .f32) : k3_pay3 (F := Ideal) v = v := shapeCast_self v _
theorem k3_pay4_id (v : Vec Ideal S512x128 .f32) : k3_pay4 (F := Ideal) v = v := shapeCast_self v _
theorem k3_pay5_id (v : Vec Ideal S512x128 .f32) : k3_pay5 (F := Ideal) v = v := shapeCast_self v _
theorem k3_pay6_id (v : Vec Ideal S512x128 .f32) : k3_pay6 (F := Ideal) v = v := shapeCast_self v _
theorem k3_pay7_id (v : Vec Ideal S512x128 .f32) : k3_pay7 (F := Ideal) v = v := shapeCast_self v _
theorem k3_pay8_id (v : Vec Ideal S512x128 .f32) : k3_pay8 (F := Ideal) v = v := shapeCast_self v _
theorem k3_pay9_id (v : Vec Ideal S512x128 .f32) : k3_pay9 (F := Ideal) v = v := shapeCast_self v _
theorem k3_pay10_id (v : Vec Ideal S512x128 .f32) : k3_pay10 (F := Ideal) v = v := shapeCast_self v _
theorem k3_pay11_id (v : Vec Ideal S512x128 .f32) : k3_pay11 (F := Ideal) v = v := shapeCast_self v _
theorem k3_pay12_id (v : Vec Ideal S512x128 .f32) : k3_pay12 (F := Ideal) v = v := shapeCast_self v _
theorem k3_pay13_id (v : Vec Ideal S512x128 .f32) : k3_pay13 (F := Ideal) v = v := shapeCast_self v _
theorem k3_pay14_id (v : Vec Ideal S512x128 .f32) : k3_pay14 (F := Ideal) v = v := shapeCast_self v _
theorem k3_pay15_id (v : Vec Ideal S512x128 .f32) : k3_pay15 (F := Ideal) v = v := shapeCast_self v _
theorem k3_pay16_id (v : Vec Ideal S512x128 .f32) : k3_pay16 (F := Ideal) v = v := shapeCast_self v _
theorem k3_pay17_id (v : Vec Ideal S512x128 .f32) : k3_pay17 (F := Ideal) v = v := shapeCast_self v _
theorem k3_pay18_id (v : Vec Ideal S512x128 .f32) : k3_pay18 (F := Ideal) v = v := shapeCast_self v _
theorem k3_pay19_id (v : Vec Ideal S512x128 .f32) : k3_pay19 (F := Ideal) v = v := shapeCast_self v _
theorem k3_pay20_id (v : Vec Ideal S512x128 .f32) : k3_pay20 (F := Ideal) v = v := shapeCast_self v _
theorem k3_pay21_id (v : Vec Ideal S512x128 .f32) : k3_pay21 (F := Ideal) v = v := shapeCast_self v _
theorem k3_pay22_id (v : Vec Ideal S512x128 .f32) : k3_pay22 (F := Ideal) v = v := shapeCast_self v _
theorem k3_pay23_id (v : Vec Ideal S512x128 .f32) : k3_pay23 (F := Ideal) v = v := shapeCast_self v _
theorem k3_pay24_id (v : Vec Ideal S512x128 .f32) : k3_pay24 (F := Ideal) v = v := shapeCast_self v _
theorem k3_pay25_id (v : Vec Ideal S512x128 .f32) : k3_pay25 (F := Ideal) v = v := shapeCast_self v _
theorem k3_pay26_id (v : Vec Ideal S512x128 .f32) : k3_pay26 (F := Ideal) v = v := shapeCast_self v _
theorem k3_pay27_id (v : Vec Ideal S512x128 .f32) : k3_pay27 (F := Ideal) v = v := shapeCast_self v _
theorem k3_pay43_id (v : Vec Ideal S512x143 .f32) : k3_pay43 (F := Ideal) v = v := shapeCast_self v _
theorem k3_pay44_id (v : Vec Ideal S512x13 .f32) : k3_pay44 (F := Ideal) v = v := shapeCast_self v _

/-! ## Call 3: the second-order part and the two small products -/

/-- The lane sum, re-laid as a column, times the half. -/
theorem k3_pay42_apply (v76 v125 v126 : FVec Ideal S512x128 .f32) (r : Fin 512) :
    k3_pay42 (F := Ideal) v76 v125 v126 (ix2 r (0 : Fin 1))
      = Ideal.ofBits .f32 0x3F000000#32 * ∑ d : Fin 128, (v76 (ix2 r d) * v76 (ix2 r d) - (v125 (ix2 r d) + v126 (ix2 r d))) := by
  simp only [k3_pay42]
  rw [mulf_apply, broadcast_apply,
    shapeCast_apply _ shapeCasts_S512_S512x1 (ix2 r (0 : Fin 1)) (ix1 r)
      (by rw [Shape.rowMajor_val_one, Shape.rowMajor_val_two]; show r.val = r.val * 1 + 0; omega)]
  refine congrArg (fun s => Ideal.ofBits .f32 0x3F000000#32 * s) ?_
  refine (Ideal.multiReduction_add_single _ 0x00000000#32 reduces_S512x128_S512 (.inl rfl) rfl (ix1 r)).trans ?_
  refine Finset.sum_congr rfl fun (d : Fin 128) _ => ?_
  have hl : reduces_S512x128_S512.lift (ix1 r) d = ix2 r d := funext fun a => Fin.ext (by match a with | ⟨0, _⟩ => rfl | ⟨1, _⟩ => rfl)
  rw [hl]
  rfl

/-- The two small products of row r. -/
theorem k3_pay45_apply (x1 : Vec Ideal S512x143 .f32) (x2 : Vec Ideal S512x13 .f32) (x3 : Vec Ideal S143x1 .f32) (x4 : Vec Ideal S13x1 .f32) (r : Fin 512) :
    k3_pay45 (F := Ideal) x1 x2 x3 x4 (ix2 r (0 : Fin 1)) = bLinear x1 x2 x3 x4 r := by
  simp only [k3_pay45]
  rw [addf_apply, mm_lin1, mm_lin2, k3_pay43_id, k3_pay44_id]
  rfl

/-- The pairwise tree over the 26 field blocks is their sum, -/
theorem k3_sum_apply (e0 : Vec Ideal S512x128 .f32) (e1 : Vec Ideal S512x128 .f32) (e2 : Vec Ideal S512x128 .f32) (e3 : Vec Ideal S512x128 .f32) (e4 : Vec Ideal S512x128 .f32) (e5 : Vec Ideal S512x128 .f32) (e6 : Vec Ideal S512x128 .f32) (e7 : Vec Ideal S512x128 .f32) (e8 : Vec Ideal S512x128 .f32) (e9 : Vec Ideal S512x128 .f32) (e10 : Vec Ideal S512x128 .f32) (e11 : Vec Ideal S512x128 .f32) (e12 : Vec Ideal S512x128 .f32) (e13 : Vec Ideal S512x128 .f32) (e14 : Vec Ideal S512x128 .f32) (e15 : Vec Ideal S512x128 .f32) (e16 : Vec Ideal S512x128 .f32) (e17 : Vec Ideal S512x128 .f32) (e18 : Vec Ideal S512x128 .f32) (e19 : Vec Ideal S512x128 .f32) (e20 : Vec Ideal S512x128 .f32) (e21 : Vec Ideal S512x128 .f32) (e22 : Vec Ideal S512x128 .f32) (e23 : Vec Ideal S512x128 .f32) (e24 : Vec Ideal S512x128 .f32) (e25 : Vec Ideal S512x128 .f32) (i : S512x128.Idx) :
    (k3_pay39 (F := Ideal) (k3_pay28 (F := Ideal) e8 e9) (k3_pay29 (F := Ideal) e10 e11) (k3_pay30 (F := Ideal) e12 e13) (k3_pay31 (F := Ideal) e14 e15) (k3_pay32 (F := Ideal) e16 e17) (k3_pay33 (F := Ideal) e18 e19) (k3_pay34 (F := Ideal) e20 e21) (k3_pay35 (F := Ideal) e22 e23) (k3_pay36 (F := Ideal) e24 e25) (k3_pay37 (F := Ideal) e0 e1 e2 e3) (k3_pay38 (F := Ideal) e4 e5 e6 e7)) i = ∑ f : Fin 26, ![e0, e1, e2, e3, e4, e5, e6, e7, e8, e9, e10, e11, e12, e13, e14, e15, e16, e17, e18, e19, e20, e21, e22, e23, e24, e25] f i := by
  have h := sum26 (fun e : S512x128.Idx → EReal => e i) e0 e1 e2 e3 e4 e5 e6 e7 e8 e9 e10 e11 e12 e13 e14 e15 e16 e17 e18 e19 e20 e21 e22 e23 e24 e25
  refine Eq.trans ?_ h.symm
  simp only [k3_pay39, k3_pay28, k3_pay29, k3_pay30, k3_pay31, k3_pay32, k3_pay33, k3_pay34, k3_pay35, k3_pay36, k3_pay37, k3_pay38,
    k3_pay2_id, k3_pay3_id, k3_pay4_id, k3_pay5_id, k3_pay6_id, k3_pay7_id, k3_pay8_id, k3_pay9_id, k3_pay10_id, k3_pay11_id, k3_pay12_id, k3_pay13_id, k3_pay14_id, k3_pay15_id, k3_pay16_id, k3_pay17_id, k3_pay18_id, k3_pay19_id, k3_pay20_id, k3_pay21_id, k3_pay22_id, k3_pay23_id, k3_pay24_id, k3_pay25_id, k3_pay26_id, k3_pay27_id, addf_apply]
  ac_rfl

/-- and the two trees over their squares are the sum of their squares. -/
theorem k3_sq_apply (e0 : Vec Ideal S512x128 .f32) (e1 : Vec Ideal S512x128 .f32) (e2 : Vec Ideal S512x128 .f32) (e3 : Vec Ideal S512x128 .f32) (e4 : Vec Ideal S512x128 .f32) (e5 : Vec Ideal S512x128 .f32) (e6 : Vec Ideal S512x128 .f32) (e7 : Vec Ideal S512x128 .f32) (e8 : Vec Ideal S512x128 .f32) (e9 : Vec Ideal S512x128 .f32) (e10 : Vec Ideal S512x128 .f32) (e11 : Vec Ideal S512x128 .f32) (e12 : Vec Ideal S512x128 .f32) (e13 : Vec Ideal S512x128 .f32) (e14 : Vec Ideal S512x128 .f32) (e15 : Vec Ideal S512x128 .f32) (e16 : Vec Ideal S512x128 .f32) (e17 : Vec Ideal S512x128 .f32) (e18 : Vec Ideal S512x128 .f32) (e19 : Vec Ideal S512x128 .f32) (e20 : Vec Ideal S512x128 .f32) (e21 : Vec Ideal S512x128 .f32) (e22 : Vec Ideal S512x128 .f32) (e23 : Vec Ideal S512x128 .f32) (e24 : Vec Ideal S512x128 .f32) (e25 : Vec Ideal S512x128 .f32) (i : S512x128.Idx) :
    (k3_pay40 (F := Ideal) e0 e1 e2 e3 e4 e5 e6 e7 e8 e9 e10 e11 e12 e13 e14 e15) i + (k3_pay41 (F := Ideal) e16 e17 e18 e19 e20 e21 e22 e23 e24 e25) i = ∑ f : Fin 26, ![e0, e1, e2, e3, e4, e5, e6, e7, e8, e9, e10, e11, e12, e13, e14, e15, e16, e17, e18, e19, e20, e21, e22, e23, e24, e25] f i * ![e0, e1, e2, e3, e4, e5, e6, e7, e8, e9, e10, e11, e12, e13, e14, e15, e16, e17, e18, e19, e20, e21, e22, e23, e24, e25] f i := by
  have h := sum26 (fun e : S512x128.Idx → EReal => e i * e i) e0 e1 e2 e3 e4 e5 e6 e7 e8 e9 e10 e11 e12 e13 e14 e15 e16 e17 e18 e19 e20 e21 e22 e23 e24 e25
  refine Eq.trans ?_ h.symm
  simp only [k3_pay40, k3_pay41, k3_pay2_id, k3_pay3_id, k3_pay4_id, k3_pay5_id, k3_pay6_id, k3_pay7_id, k3_pay8_id, k3_pay9_id, k3_pay10_id, k3_pay11_id, k3_pay12_id, k3_pay13_id, k3_pay14_id, k3_pay15_id, k3_pay16_id, k3_pay17_id, k3_pay18_id, k3_pay19_id, k3_pay20_id, k3_pay21_id, k3_pay22_id, k3_pay23_id, k3_pay24_id, k3_pay25_id, k3_pay26_id, k3_pay27_id, addf_apply, mulf_apply]
  ac_rfl

/-! ## Call 3: the dense tower -/

/-- The 26 field blocks side by side, at (r, k): block k / 128 at lane k % 128. -/
theorem k3_concat_apply (e0 : FVec Ideal S512x128 .f32) (e1 : FVec Ideal S512x128 .f32) (e2 : FVec Ideal S512x128 .f32) (e3 : FVec Ideal S512x128 .f32) (e4 : FVec Ideal S512x128 .f32) (e5 : FVec Ideal S512x128 .f32) (e6 : FVec Ideal S512x128 .f32) (e7 : FVec Ideal S512x128 .f32) (e8 : FVec Ideal S512x128 .f32) (e9 : FVec Ideal S512x128 .f32) (e10 : FVec Ideal S512x128 .f32) (e11 : FVec Ideal S512x128 .f32) (e12 : FVec Ideal S512x128 .f32) (e13 : FVec Ideal S512x128 .f32) (e14 : FVec Ideal S512x128 .f32) (e15 : FVec Ideal S512x128 .f32) (e16 : FVec Ideal S512x128 .f32) (e17 : FVec Ideal S512x128 .f32) (e18 : FVec Ideal S512x128 .f32) (e19 : FVec Ideal S512x128 .f32) (e20 : FVec Ideal S512x128 .f32) (e21 : FVec Ideal S512x128 .f32) (e22 : FVec Ideal S512x128 .f32) (e23 : FVec Ideal S512x128 .f32) (e24 : FVec Ideal S512x128 .f32) (e25 : FVec Ideal S512x128 .f32) (r : Fin 512) (k : Fin 3328) :
    concatenate S512x3328 1 [⟨S512x128, e0⟩, ⟨S512x128, e1⟩, ⟨S512x128, e2⟩, ⟨S512x128, e3⟩, ⟨S512x128, e4⟩, ⟨S512x128, e5⟩, ⟨S512x128, e6⟩, ⟨S512x128, e7⟩, ⟨S512x128, e8⟩, ⟨S512x128, e9⟩, ⟨S512x128, e10⟩, ⟨S512x128, e11⟩, ⟨S512x128, e12⟩, ⟨S512x128, e13⟩, ⟨S512x128, e14⟩, ⟨S512x128, e15⟩, ⟨S512x128, e16⟩, ⟨S512x128, e17⟩, ⟨S512x128, e18⟩, ⟨S512x128, e19⟩, ⟨S512x128, e20⟩, ⟨S512x128, e21⟩, ⟨S512x128, e22⟩, ⟨S512x128, e23⟩, ⟨S512x128, e24⟩, ⟨S512x128, e25⟩] concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 (ix2 r k)
      = ![e0, e1, e2, e3, e4, e5, e6, e7, e8, e9, e10, e11, e12, e13, e14, e15, e16, e17, e18, e19, e20, e21, e22, e23, e24, e25] (⟨k.val / 128, by have := k.isLt; omega⟩ : Fin 26) (ix2 r (⟨k.val % 128, Nat.mod_lt _ (by decide)⟩ : Fin 128)) :=
  concatenate_ofFn_apply (1 : Fin S512x3328.rank) (fun n : Fin 26 => ![e0, e1, e2, e3, e4, e5, e6, e7, e8, e9, e10, e11, e12, e13, e14, e15, e16, e17, e18, e19, e20, e21, e22, e23, e24, e25] n) concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 rfl 128 rfl (ix2 r k)
    (⟨k.val / 128, by have := k.isLt; omega⟩ : Fin 26) rfl (ix2 r (⟨k.val % 128, Nat.mod_lt _ (by decide)⟩ : Fin 128)) rfl
    (fun b hb => by match b with | ⟨0, _⟩ => rfl | ⟨1, _⟩ => exact absurd rfl hb)

/-- The first layer before the rectifier at (r, j): the three products against the weight block's row windows, and the bias row. -/
theorem k3_pay46_apply (e0 : FVec Ideal S512x128 .f32) (e1 : FVec Ideal S512x128 .f32) (e2 : FVec Ideal S512x128 .f32) (e3 : FVec Ideal S512x128 .f32) (e4 : FVec Ideal S512x128 .f32) (e5 : FVec Ideal S512x128 .f32) (e6 : FVec Ideal S512x128 .f32) (e7 : FVec Ideal S512x128 .f32) (e8 : FVec Ideal S512x128 .f32) (e9 : FVec Ideal S512x128 .f32) (e10 : FVec Ideal S512x128 .f32) (e11 : FVec Ideal S512x128 .f32) (e12 : FVec Ideal S512x128 .f32) (e13 : FVec Ideal S512x128 .f32) (e14 : FVec Ideal S512x128 .f32) (e15 : FVec Ideal S512x128 .f32) (e16 : FVec Ideal S512x128 .f32) (e17 : FVec Ideal S512x128 .f32) (e18 : FVec Ideal S512x128 .f32) (e19 : FVec Ideal S512x128 .f32) (e20 : FVec Ideal S512x128 .f32) (e21 : FVec Ideal S512x128 .f32) (e22 : FVec Ideal S512x128 .f32) (e23 : FVec Ideal S512x128 .f32) (e24 : FVec Ideal S512x128 .f32) (e25 : FVec Ideal S512x128 .f32) (x1 : Vec Ideal S512x143 .f32) (x2 : Vec Ideal S512x13 .f32)
    (w1 : Vec Ideal S143x1024 .bf16) (w2 : Vec Ideal S13x1024 .bf16) (w3 : Vec Ideal S3328x1024 .bf16) (x6 : Vec Ideal S1x1024 .f32) (r : Fin 512) (j : Fin 1024) :
    k3_pay46 (F := Ideal) e0 e1 e2 e3 e4 e5 e6 e7 e8 e9 e10 e11 e12 e13 e14 e15 e16 e17 e18 e19 e20 e21 e22 e23 e24 e25 x1 x2 w1 w2 w3 x6 (ix2 r j)
      = (((∑ k : Fin 143, x1 (ix2 r k) * w1 (ix2 k j)) + (∑ k : Fin 13, x2 (ix2 r k) * w2 (ix2 k j)))
          + ∑ k : Fin 3328, ![e0, e1, e2, e3, e4, e5, e6, e7, e8, e9, e10, e11, e12, e13, e14, e15, e16, e17, e18, e19, e20, e21, e22, e23, e24, e25] (⟨k.val / 128, by have := k.isLt; omega⟩ : Fin 26) (ix2 r (⟨k.val % 128, Nat.mod_lt _ (by decide)⟩ : Fin 128)) * w3 (ix2 k j))
        + x6 (ix2 (0 : Fin 1) j) := by
  simp only [k3_pay46, addf_apply, mm_in1, mm_in2, mm_in3, truncf_apply, shapeCast_self, k3_pay43_id, k3_pay44_id, k3_concat_apply]
  rw [broadcastTo_1b_ab_apply]

/-- The three stretches of the weight block's rows make the one sum over the tower's input row. -/
theorem k3_in_split (x1 : Vec Ideal S512x143 .f32) (x2 : Vec Ideal S512x13 .f32) (e : Fin 26 → (⟨2, ![512, 128]⟩ : Shape).Idx → EReal)
    (x5 : Vec Ideal S3484x1024 .bf16) (r : Fin 512) (j : Fin 1024) :
    ((∑ k : Fin 143, x1 (ix2 r k) * (View.ld x5 (Rect.unit (s := S3484x1024) ![0, 0] ![143, 1024] inb_S3484x1024_S143x1024_0_0)) (ix2 k j)) + (∑ k : Fin 13, x2 (ix2 r k) * (View.ld x5 (Rect.unit (s := S3484x1024) ![143, 0] ![13, 1024] inb_S3484x1024_S13x1024_143_0)) (ix2 k j)))
        + (∑ k : Fin 3328, e (⟨k.val / 128, by have := k.isLt; omega⟩ : Fin 26) (ix2 r (⟨k.val % 128, Nat.mod_lt _ (by decide)⟩ : Fin 128)) * (View.ld x5 (Rect.unit (s := S3484x1024) ![156, 0] ![3328, 1024] inb_S3484x1024_S3328x1024_156_0)) (ix2 k j))
      = ∑ k : Fin 3484, bIn x1 x2 e r k * x5 (ix2 k j) := by
  refine ((sum_three 143 13 3328 (fun k : Fin (143 + 13 + 3328) => bIn x1 x2 e r k * x5 (ix2 k j))).trans ?_).symm
  congr 1
  · congr 1
    · refine Finset.sum_congr rfl fun i _ => ?_
      rw [show (View.ld x5 (Rect.unit (s := S3484x1024) ![0, 0] ![143, 1024] inb_S3484x1024_S143x1024_0_0)) (ix2 i j) = x5 (ix2 (Fin.castAdd 3328 (Fin.castAdd 13 i)) j) from
        ld_rows x5 0 _ i j (Fin.castAdd 3328 (Fin.castAdd 13 i)) (by show i.val = 0 + i.val; omega)]
      unfold bIn
      rw [dif_pos (show (Fin.castAdd 3328 (Fin.castAdd 13 i)).val < 143 from i.isLt)]
      rfl
    · refine Finset.sum_congr rfl fun i _ => ?_
      rw [show (View.ld x5 (Rect.unit (s := S3484x1024) ![143, 0] ![13, 1024] inb_S3484x1024_S13x1024_143_0)) (ix2 i j) = x5 (ix2 (Fin.castAdd 3328 (Fin.natAdd 143 i)) j) from
        ld_rows x5 143 _ i j (Fin.castAdd 3328 (Fin.natAdd 143 i)) rfl]
      unfold bIn
      rw [dif_neg (show ¬ (Fin.castAdd 3328 (Fin.natAdd 143 i)).val < 143 from by show ¬ 143 + i.val < 143; omega),
        dif_pos (show (Fin.castAdd 3328 (Fin.natAdd 143 i)).val < 156 from by show 143 + i.val < 156; have := i.isLt; omega)]
      congr 3
      exact Fin.ext (by show 143 + i.val - 143 = i.val; omega)
  · refine Finset.sum_congr rfl fun i _ => ?_
    rw [show (View.ld x5 (Rect.unit (s := S3484x1024) ![156, 0] ![3328, 1024] inb_S3484x1024_S3328x1024_156_0)) (ix2 i j) = x5 (ix2 (Fin.natAdd (143 + 13) i) j) from
      ld_rows x5 156 _ i j (Fin.natAdd (143 + 13) i) rfl]
    unfold bIn
    rw [dif_neg (show ¬ (Fin.natAdd (143 + 13) i).val < 143 from by show ¬ 143 + 13 + i.val < 143; omega),
      dif_neg (show ¬ (Fin.natAdd (143 + 13) i).val < 156 from by show ¬ 143 + 13 + i.val < 156; omega)]
    have h1 : (143 + 13 + i.val - 156) / 128 = i.val / 128 := by omega
    have h2 : (143 + 13 + i.val - 156) % 128 = i.val % 128 := by omega
    congr 2
    · exact Fin.ext h1
    · exact congrArg (ix2 r) (Fin.ext h2)

/-- The zero the first rectifier compares with. -/
theorem k3_pay47_apply (i : S512x1024.Idx) : k3_pay47 (F := Ideal) i = 0 := by
  simp only [k3_pay47, broadcast_apply]
  exact Ideal.ofBits_zero_f32

/-- The remaining layers, the read-out and the final sum at row r. -/
theorem k3_pay1_apply (v133 v142 : FVec Ideal S512x1 .f32) (v161 v162 : FVec Ideal S512x1024 .f32) (x7 : Vec Ideal S1024x512 .bf16) (x8 : Vec Ideal S1x512 .f32)
    (x9 : Vec Ideal S512x256 .bf16) (x10 : Vec Ideal S1x256 .f32) (x11 : Vec Ideal S256x1 .bf16) (x12 : Vec Ideal S1x1 .f32) (r : Fin 512) :
    k3_pay1 (F := Ideal) v133 v142 v161 v162 x7 x8 x9 x10 x11 x12 (ix2 r (0 : Fin 1))
      = ((v142 (ix2 r (0 : Fin 1)) + v133 (ix2 r (0 : Fin 1)))
          + ∑ k : Fin 256, max ((∑ k2 : Fin 512, max ((∑ k1 : Fin 1024, max (v161 (ix2 r k1)) (v162 (ix2 r k1)) * x7 (ix2 k1 k2)) + x8 (ix2 (0 : Fin 1) k2)) 0 * x9 (ix2 k2 k)) + x10 (ix2 (0 : Fin 1) k)) 0 * x11 (ix2 k (0 : Fin 1)))
        + x12 (ix2 (0 : Fin 1) (0 : Fin 1)) := by
  simp only [k3_pay1, addf_apply, mm_out, mm_l3, mm_l2, truncf_apply, maximumf_apply, broadcast_apply, shapeCast_self, broadcastTo_1b_ab_apply,
    Ideal.ofBits_def, Ideal.ofBits_zero_f32]

/-- The body of call 3's output block at row `r` is the block's row function of its input blocks. -/
theorem tcOut3_apply (x1 : Vec Ideal S512x143 .f32) (x2 : Vec Ideal S512x13 .f32) (x3 : Vec Ideal S143x1 .f32) (x4 : Vec Ideal S13x1 .f32) (x5 : Vec Ideal S3484x1024 .bf16) (x6 : Vec Ideal S1x1024 .f32) (x7 : Vec Ideal S1024x512 .bf16) (x8 : Vec Ideal S1x512 .f32) (x9 : Vec Ideal S512x256 .bf16) (x10 : Vec Ideal S1x256 .f32) (x11 : Vec Ideal S256x1 .bf16) (x12 : Vec Ideal S1x1 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32) (x19 : Vec Ideal S512x128 .f32) (x20 : Vec Ideal S512x128 .f32) (x21 : Vec Ideal S512x128 .f32) (x22 : Vec Ideal S512x128 .f32) (x23 : Vec Ideal S512x128 .f32) (x24 : Vec Ideal S512x128 .f32) (x25 : Vec Ideal S512x128 .f32) (x26 : Vec Ideal S512x128 .f32) (x27 : Vec Ideal S512x128 .f32) (x28 : Vec Ideal S512x128 .f32) (x29 : Vec Ideal S512x128 .f32) (x30 : Vec Ideal S512x128 .f32) (x31 : Vec Ideal S512x128 .f32) (x32 : Vec Ideal S512x128 .f32) (x33 : Vec Ideal S512x128 .f32) (x34 : Vec Ideal S512x128 .f32) (x35 : Vec Ideal S512x128 .f32) (x36 : Vec Ideal S512x128 .f32) (x37 : Vec Ideal S512x128 .f32) (x38 : Vec Ideal S512x128 .f32) (r : Fin 512) :
    tcOut3 (F := Ideal) x1 x2 x3 x4 x5 x6 x7 x8 x9 x10 x11 x12 x13 x14 x15 x16 x17 x18 x19 x20 x21 x22 x23 x24 x25 x26 x27 x28 x29 x30 x31 x32 x33 x34 x35 x36 x37 x38 (ix2 r (0 : Fin 1)) = GBlk x1 x2 x3 x4 x5 x6 x7 x8 x9 x10 x11 x12 ![x13, x14, x15, x16, x17, x18, x19, x20, x21, x22, x23, x24, x25, x26, x27, x28, x29, x30, x31, x32, x33, x34, x35, x36, x37, x38] r := by
  unfold tcOut3
  simp only [View.canon_unit_zero (S := S512x1) hz2, View.ld_unit_zero (S := S512x128) hz2, View.ld_unit_zero (S := S512x143) hz2, View.ld_unit_zero (S := S512x13) hz2, View.ld_unit_zero (S := S143x1) hz2, View.ld_unit_zero (S := S13x1) hz2, View.ld_unit_zero (S := S1x1024) hz2, View.ld_unit_zero (S := S1024x512) hz2, View.ld_unit_zero (S := S1x512) hz2, View.ld_unit_zero (S := S512x256) hz2, View.ld_unit_zero (S := S1x256) hz2, View.ld_unit_zero (S := S256x1) hz2, View.ld_unit_zero (S := S1x1) hz2]
  rw [k3_pay1_apply, k3_pay45_apply, k3_pay42_apply]
  simp only [k3_pay46_apply, k3_pay47_apply, k3_pay2_id, k3_pay3_id, k3_pay4_id, k3_pay5_id, k3_pay6_id, k3_pay7_id, k3_pay8_id, k3_pay9_id, k3_pay10_id, k3_pay11_id, k3_pay12_id, k3_pay13_id, k3_pay14_id, k3_pay15_id, k3_pay16_id, k3_pay17_id, k3_pay18_id, k3_pay19_id, k3_pay20_id, k3_pay21_id, k3_pay22_id, k3_pay23_id, k3_pay24_id, k3_pay25_id, k3_pay26_id, k3_pay27_id, k3_sum_apply, k3_sq_apply,
    k3_in_split x1 x2 ![x13, x14, x15, x16, x17, x18, x19, x20, x21, x22, x23, x24, x25, x26, x27, x28, x29, x30, x31, x32, x33, x34, x35, x36, x37, x38] x5 r]
  rfl

/-- A block whose operands are the rows `ρ r` of the whole arrays (the weights the whole arrays themselves, the bias rows the
    bias vectors, the one bias word the three scalar biases summed, the field blocks the specification's field embeddings)
    has the specification's result of row `ρ r` at its row `r`. -/
theorem GBlk_eq_GRow
    (sc : (⟨2, ![4096, 143]⟩ : Shape).Idx → EReal) (lc : (⟨2, ![4096, 26]⟩ : Shape).Idx → BitVec 32)
    (nf : (⟨2, ![4096, 13]⟩ : Shape).Idx → EReal) (emb : (⟨3, ![26, 1000, 128]⟩ : Shape).Idx → EReal)
    (wls : (⟨2, ![143, 1]⟩ : Shape).Idx → EReal) (bls : (⟨1, ![1]⟩ : Shape).Idx → EReal)
    (wln : (⟨2, ![13, 1]⟩ : Shape).Idx → EReal) (bln : (⟨1, ![1]⟩ : Shape).Idx → EReal)
    (w1 : (⟨2, ![3484, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (w3 : (⟨2, ![512, 256]⟩ : Shape).Idx → EReal) (b3 : (⟨1, ![256]⟩ : Shape).Idx → EReal)
    (wo : (⟨2, ![256, 1]⟩ : Shape).Idx → EReal) (bo : (⟨1, ![1]⟩ : Shape).Idx → EReal)
    (x1 : (⟨2, ![512, 143]⟩ : Shape).Idx → EReal) (x2 : (⟨2, ![512, 13]⟩ : Shape).Idx → EReal)
    (x3 : (⟨2, ![143, 1]⟩ : Shape).Idx → EReal) (x4 : (⟨2, ![13, 1]⟩ : Shape).Idx → EReal)
    (x5 : (⟨2, ![3484, 1024]⟩ : Shape).Idx → EReal) (x6 : (⟨2, ![1, 1024]⟩ : Shape).Idx → EReal)
    (x7 : (⟨2, ![1024, 512]⟩ : Shape).Idx → EReal) (x8 : (⟨2, ![1, 512]⟩ : Shape).Idx → EReal)
    (x9 : (⟨2, ![512, 256]⟩ : Shape).Idx → EReal) (x10 : (⟨2, ![1, 256]⟩ : Shape).Idx → EReal)
    (x11 : (⟨2, ![256, 1]⟩ : Shape).Idx → EReal) (x12 : (⟨2, ![1, 1]⟩ : Shape).Idx → EReal)
    (e : Fin 26 → (⟨2, ![512, 128]⟩ : Shape).Idx → EReal) (ρ : Fin 512 → Fin 4096)
    (h1 : ∀ (r : Fin 512) (k : Fin 143), x1 (ix2 r k) = sc (ix2 (ρ r) k))
    (h2 : ∀ (r : Fin 512) (k : Fin 13), x2 (ix2 r k) = nf (ix2 (ρ r) k))
    (h3 : x3 = wls) (h4 : x4 = wln) (h5 : x5 = w1)
    (h6 : ∀ j : Fin 1024, x6 (ix2 (0 : Fin 1) j) = b1 (ix1 j))
    (h7 : x7 = w2) (h8 : ∀ j : Fin 512, x8 (ix2 (0 : Fin 1) j) = b2 (ix1 j))
    (h9 : x9 = w3) (h10 : ∀ j : Fin 256, x10 (ix2 (0 : Fin 1) j) = b3 (ix1 j))
    (h11 : x11 = wo)
    (h12 : x12 (ix2 (0 : Fin 1) (0 : Fin 1)) = (bls (ix1 (0 : Fin 1)) + bln (ix1 (0 : Fin 1))) + bo (ix1 (0 : Fin 1)))
    (he : ∀ (f : Fin 26) (r : Fin 512) (d : Fin 128), e f (ix2 r d) = Spec.field lc emb (ρ r) f d)
    (r : Fin 512) :
    GBlk x1 x2 x3 x4 x5 x6 x7 x8 x9 x10 x11 x12 e r
      = Spec.GRow sc lc nf emb wls bls wln bln w1 b1 w2 b2 w3 b3 wo bo (ρ r) := by
  subst h3 h4 h5 h7 h9 h11
  have hlin : bLinear x1 x2 x3 x4 r
      = (∑ k : Fin 143, sc (ix2 (ρ r) k) * x3 (ix2 k (0 : Fin 1))) + (∑ k : Fin 13, nf (ix2 (ρ r) k) * x4 (ix2 k (0 : Fin 1))) := by
    unfold bLinear; simp only [h1, h2]
  have hsec : bSecond e r = Spec.second lc emb (ρ r) := by
    unfold bSecond Spec.second; simp only [he]
  have hin : ∀ k, bIn x1 x2 e r k = Spec.towerIn sc lc nf emb (ρ r) k := by
    intro k
    unfold bIn Spec.towerIn
    by_cases h : k.val < 143
    · rw [dif_pos h, dif_pos h, h1]
    · rw [dif_neg h, dif_neg h]
      by_cases h' : k.val < 156
      · rw [dif_pos h', dif_pos h', h2]
      · rw [dif_neg h', dif_neg h', he]
  have hl1 : ∀ j, bLayer1 x1 x2 x5 x6 e r j = Spec.layer1 sc lc nf emb x5 b1 (ρ r) j := by
    intro j; unfold bLayer1 Spec.layer1; simp only [hin, h6]
  have hl2 : ∀ j, bLayer2 x1 x2 x5 x6 x7 x8 e r j = Spec.layer2 sc lc nf emb x5 b1 x7 b2 (ρ r) j := by
    intro j; unfold bLayer2 Spec.layer2; simp only [hl1, h8]
  have hl3 : ∀ j, bLayer3 x1 x2 x5 x6 x7 x8 x9 x10 e r j = Spec.layer3 sc lc nf emb x5 b1 x7 b2 x9 b3 (ρ r) j := by
    intro j; unfold bLayer3 Spec.layer3; simp only [hl2, h10]
  have htow : bTower x1 x2 x5 x6 x7 x8 x9 x10 x11 e r
      = ∑ k : Fin 256, Spec.layer3 sc lc nf emb x5 b1 x7 b2 x9 b3 (ρ r) k * x11 (ix2 k (0 : Fin 1)) := by
    unfold bTower; simp only [hl3]
  unfold GBlk Spec.GRow Spec.linear Spec.tower
  rw [hlin, hsec, htow, h12]
  ac_rfl

end Cert.Proof.TcValue

end
-- ==== Proof.BlockReads.lean ====
/-
  The pipelines' proof data read at an index: each input window's block as rows of its array, and the result array
  after the write-backs as the body's output block where a point wrote and the entry contents elsewhere.
-/
import proofs.«205278_g66915590471714_cont_9to1_m_383_35_alg».proof.Proof.RegionRec
import Idealize.ShloMosaic.Lib.Pipeline.Value
import Idealize.ShloMosaic.Lib.ValueIdx

set_option maxRecDepth 65536

noncomputable section

namespace Cert.Proof.BlockReads

open Cert.KernelIdeal Cert.KernelIdeal.Gen Cert.Proof.KI
open Idealize.ShloMosaic Idealize.ShloMosaic.TcCoe Idealize.ShloMosaic.ValueIdx
open Idealize.SL.Sem

variable {F : FTy → Type} [FloatOps F]

/-! ## Pipeline call 0: where each window's block sits in its array -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 + t.val ∧ win1_12.index t (1 : Fin 2) = 0 :=
  (by decide +kernel : ∀ t : Fin grid1.N, _)
theorem idx1_13 : ∀ t : Fin cfg1.N, win1_13.index t (0 : Fin 2) = 4 + t.val ∧ win1_13.index t (1 : Fin 2) = 0 :=
  (by decide +kernel : ∀ t : Fin grid1.N, _)
theorem idx1_14 : ∀ t : Fin cfg1.N, win1_14.index t (0 : Fin 2) = 8 + t.val ∧ win1_14.index t (1 : Fin 2) = 0 :=
  (by decide +kernel : ∀ t : Fin grid1.N, _)
theorem idx1_15 : ∀ t : Fin cfg1.N, win1_15.index t (0 : Fin 2) = 12 + t.val ∧ win1_15.index t (1 : Fin 2) = 0 :=
  (by decide +kernel : ∀ t : Fin grid1.N, _)
theorem idx1_16 : ∀ t : Fin cfg1.N, win1_16.index t (0 : Fin 2) = 16 + t.val ∧ win1_16.index t (1 : Fin 2) = 0 :=
  (by decide +kernel : ∀ t : Fin grid1.N, _)
theorem idx1_17 : ∀ t : Fin cfg1.N, win1_17.index t (0 : Fin 2) = 20 + t.val ∧ win1_17.index t (1 : Fin 2) = 0 :=
  (by decide +kernel : ∀ t : Fin grid1.N, _)
theorem idx1_18 : ∀ t : Fin cfg1.N, win1_18.index t (0 : Fin 2) = 24 + t.val ∧ win1_18.index t (1 : Fin 2) = 0 :=
  (by decide +kernel : ∀ t : Fin grid1.N, _)
theorem idx1_19 : ∀ t : Fin cfg1.N, win1_19.index t (0 : Fin 2) = 28 + t.val ∧ win1_19.index t (1 : Fin 2) = 0 :=
  (by decide +kernel : ∀ t : Fin grid1.N, _)
theorem idx1_20 : ∀ t : Fin cfg1.N, win1_20.index t (0 : Fin 2) = 32 + t.val ∧ win1_20.index t (1 : Fin 2) = 0 :=
  (by decide +kernel : ∀ t : Fin grid1.N, _)
theorem idx1_21 : ∀ t : Fin cfg1.N, win1_21.index t (0 : Fin 2) = 36 + t.val ∧ win1_21.index t (1 : Fin 2) = 0 :=
  (by decide +kernel : ∀ t : Fin grid1.N, _)
theorem idx1_22 : ∀ t : Fin cfg1.N, win1_22.index t (0 : Fin 2) = 40 + t.val ∧ win1_22.index t (1 : Fin 2) = 0 :=
  (by decide +kernel : ∀ t : Fin grid1.N, _)
theorem idx1_23 : ∀ t : Fin cfg1.N, win1_23.index t (0 : Fin 2) = 44 + t.val ∧ win1_23.index t (1 : Fin 2) = 0 :=
  (by decide +kernel : ∀ t : Fin grid1.N, _)
theorem idx1_24 : ∀ t : Fin cfg1.N, win1_24.index t (0 : Fin 2) = 48 + t.val ∧ win1_24.index t (1 : Fin 2) = 0 :=
  (by decide +kernel : ∀ t : Fin grid1.N, _)
theorem idx1_25 : ∀ t : Fin cfg1.N, win1_25.index t (0 : Fin 2) = 52 + t.val ∧ win1_25.index t (1 : Fin 2) = 0 :=
  (by decide +kernel : ∀ t : Fin grid1.N, _)
theorem idx1_26 : ∀ t : Fin cfg1.N, win1_26.index t (0 : Fin 2) = 56 + t.val ∧ win1_26.index t (1 : Fin 2) = 0 :=
  (by decide +kernel : ∀ t : Fin grid1.N, _)
theorem idx1_27 : ∀ t : Fin cfg1.N, win1_27.index t (0 : Fin 2) = 60 + t.val ∧ win1_27.index t (1 : Fin 2) = 0 :=
  (by decide +kernel : ∀ t : Fin grid1.N, _)
theorem idx1_28 : ∀ t : Fin cfg1.N, win1_28.index t (0 : Fin 2) = 64 + t.val ∧ win1_28.index t (1 : Fin 2) = 0 :=
  (by decide +kernel : ∀ t : Fin grid1.N, _)
theorem idx1_29 : ∀ t : Fin cfg1.N, win1_29.index t (0 : Fin 2) = 68 + t.val ∧ win1_29.index t (1 : Fin 2) = 0 :=
  (by decide +kernel : ∀ t : Fin grid1.N, _)
theorem idx1_30 : ∀ t : Fin cfg1.N, win1_30.index t (0 : Fin 2) = 72 + t.val ∧ win1_30.index t (1 : Fin 2) = 0 :=
  (by decide +kernel : ∀ t : Fin grid1.N, _)
theorem idx1_31 : ∀ t : Fin cfg1.N, win1_31.index t (0 : Fin 2) = 76 + t.val ∧ win1_31.index t (1 : Fin 2) = 0 :=
  (by decide +kernel : ∀ t : Fin grid1.N, _)
theorem idx1_32 : ∀ t : Fin cfg1.N, win1_32.index t (0 : Fin 2) = 80 + t.val ∧ win1_32.index t (1 : Fin 2) = 0 :=
  (by decide +kernel : ∀ t : Fin grid1.N, _)
theorem idx1_33 : ∀ t : Fin cfg1.N, win1_33.index t (0 : Fin 2) = 84 + t.val ∧ win1_33.index t (1 : Fin 2) = 0 :=
  (by decide +kernel : ∀ t : Fin grid1.N, _)
theorem idx1_34 : ∀ t : Fin cfg1.N, win1_34.index t (0 : Fin 2) = 88 + t.val ∧ win1_34.index t (1 : Fin 2) = 0 :=
  (by decide +kernel : ∀ t : Fin grid1.N, _)
theorem idx1_35 : ∀ t : Fin cfg1.N, win1_35.index t (0 : Fin 2) = 92 + t.val ∧ win1_35.index t (1 : Fin 2) = 0 :=
  (by decide +kernel : ∀ t : Fin grid1.N, _)
theorem idx1_36 : ∀ t : Fin cfg1.N, win1_36.index t (0 : Fin 2) = 96 + t.val ∧ win1_36.index t (1 : Fin 2) = 0 :=
  (by decide +kernel : ∀ t : Fin grid1.N, _)
theorem idx1_37 : ∀ t : Fin cfg1.N, win1_37.index t (0 : Fin 2) = 100 + t.val ∧ win1_37.index t (1 : Fin 2) = 0 :=
  (by decide +kernel : ∀ t : Fin grid1.N, _)
theorem idx1_38 : ∀ t : Fin cfg1.N, win1_38.index t (0 : Fin 2) = t.val ∧ win1_38.index t (1 : Fin 2) = 0 :=
  (by decide +kernel : ∀ t : Fin grid1.N, _)

/-- Window 0: rows 512 t .. of its array. -/
theorem iblk1_0_apply (V : Valuation τ sig (Elt F)) (c : Dev nD) (t : Fin cfg1.N) (r : Fin 512) (k : Fin 143) :
    iblk1 V c 0 t (ix2 r k) = Vb1 V c main_v23 (ix2 (⟨512 * t.val + r.val, by have := t.isLt; have : cfg1.N = 4 := rfl; omega⟩ : Fin 2048) k) := by
  obtain ⟨e0, e1⟩ := idx1_0 t
  show Vb1 V c main_v23 (((cfg1.win 0).blk t).view.emb (ix2 r k)) = _
  refine congrArg _ (funext fun a => Fin.ext ?_)
  match a with
  | ⟨0, _⟩ => show win1_0.index t (0 : Fin 2) * 512 + 1 * r.val = 512 * t.val + r.val; omega
  | ⟨1, _⟩ => show win1_0.index t (1 : Fin 2) * 143 + 1 * k.val = k.val; omega

/-- Window 1: rows 512 t .. of its array. -/
theorem iblk1_1_apply (V : Valuation τ sig (Elt F)) (c : Dev nD) (t : Fin cfg1.N) (r : Fin 512) (k : Fin 13) :
    iblk1 V c 1 t (ix2 r k) = Vb1 V c main_v24 (ix2 (⟨512 * t.val + r.val, by have := t.isLt; have : cfg1.N = 4 := rfl; omega⟩ : Fin 2048) k) := by
  obtain ⟨e0, e1⟩ := idx1_1 t
  show Vb1 V c main_v24 (((cfg1.win 1).blk t).view.emb (ix2 r k)) = _
  refine congrArg _ (funext fun a => Fin.ext ?_)
  match a with
  | ⟨0, _⟩ => show win1_1.index t (0 : Fin 2) * 512 + 1 * r.val = 512 * t.val + r.val; omega
  | ⟨1, _⟩ => show win1_1.index t (1 : Fin 2) * 13 + 1 * k.val = k.val; omega

/-- Window 2: its whole array at every point. -/
theorem iblk1_2_apply (V : Valuation τ sig (Elt F)) (c : Dev nD) (t : Fin cfg1.N) (r : Fin 143) (k : Fin 1) :
    iblk1 V c 2 t (ix2 r k) = Vb1 V c main_arg4 (ix2 r k) := by
  obtain ⟨e0, e1⟩ := idx1_2 t
  show Vb1 V c main_arg4 (((cfg1.win 2).blk t).view.emb (ix2 r k)) = _
  refine congrArg _ (funext fun a => Fin.ext ?_)
  match a with
  | ⟨0, _⟩ => show win1_2.index t (0 : Fin 2) * 143 + 1 * r.val = r.val; omega
  | ⟨1, _⟩ => show win1_2.index t (1 : Fin 2) * 1 + 1 * k.val = k.val; omega

/-- Window 3: its whole array at every point. -/
theorem iblk1_3_apply (V : Valuation τ sig (Elt F)) (c : Dev nD) (t : Fin cfg1.N) (r : Fin 13) (k : Fin 1) :
    iblk1 V c 3 t (ix2 r k) = Vb1 V c main_arg6 (ix2 r k) := by
  obtain ⟨e0, e1⟩ := idx1_3 t
  show Vb1 V c main_arg6 (((cfg1.win 3).blk t).view.emb (ix2 r k)) = _
  refine congrArg _ (funext fun a => Fin.ext ?_)
  match a with
  | ⟨0, _⟩ => show win1_3.index t (0 : Fin 2) * 13 + 1 * r.val = r.val; omega
  | ⟨1, _⟩ => show win1_3.index t (1 : Fin 2) * 1 + 1 * k.val = k.val; omega

/-- Window 4: its whole array at every point. -/
theorem iblk1_4_apply (V : Valuation τ sig (Elt F)) (c : Dev nD) (t : Fin cfg1.N) (r : Fin 3484) (k : Fin 1024) :
    iblk1 V c 4 t (ix2 r k) = Vb1 V c main_v10 (ix2 r k) := by
  obtain ⟨e0, e1⟩ := idx1_4 t
  show Vb1 V c main_v10 (((cfg1.win 4).blk t).view.emb (ix2 r k)) = _
  refine congrArg _ (funext fun a => Fin.ext ?_)
  match a with
  | ⟨0, _⟩ => show win1_4.index t (0 : Fin 2) * 3484 + 1 * r.val = r.val; omega
  | ⟨1, _⟩ => show win1_4.index t (1 : Fin 2) * 1024 + 1 * k.val = k.val; omega

/-- Window 5: its whole array at every point. -/
theorem iblk1_5_apply (V : Valuation τ sig (Elt F)) (c : Dev nD) (t : Fin cfg1.N) (r : Fin 1) (k : Fin 1024) :
    iblk1 V c 5 t (ix2 r k) = Vb1 V c main_v14 (ix2 r k) := by
  obtain ⟨e0, e1⟩ := idx1_5 t
  show Vb1 V c main_v14 (((cfg1.win 5).blk t).view.emb (ix2 r k)) = _
  refine congrArg _ (funext fun a => Fin.ext ?_)
  match a with
  | ⟨0, _⟩ => show win1_5.index t (0 : Fin 2) * 1 + 1 * r.val = r.val; omega
  | ⟨1, _⟩ => show win1_5.index t (1 : Fin 2) * 1024 + 1 * k.val = k.val; omega

/-- Window 6: its whole array at every point. -/
theorem iblk1_6_apply (V : Valuation τ sig (Elt F)) (c : Dev nD) (t : Fin cfg1.N) (r : Fin 1024) (k : Fin 512) :
    iblk1 V c 6 t (ix2 r k) = Vb1 V c main_v11 (ix2 r k) := by
  obtain ⟨e0, e1⟩ := idx1_6 t
  show Vb1 V c main_v11 (((cfg1.win 6).blk t).view.emb (ix2 r k)) = _
  refine congrArg _ (funext fun a => Fin.ext ?_)
  match a with
  | ⟨0, _⟩ => show win1_6.index t (0 : Fin 2) * 1024 + 1 * r.val = r.val; omega
  | ⟨1, _⟩ => show win1_6.index t (1 : Fin 2) * 512 + 1 * k.val = k.val; omega

/-- Window 7: its whole array at every point. -/
theorem iblk1_7_apply (V : Valuation τ sig (Elt F)) (c : Dev nD) (t : Fin cfg1.N) (r : Fin 1) (k : Fin 512) :
    iblk1 V c 7 t (ix2 r k) = Vb1 V c main_v15 (ix2 r k) := by
  obtain ⟨e0, e1⟩ := idx1_7 t
  show Vb1 V c main_v15 (((cfg1.win 7).blk t).view.emb (ix2 r k)) = _
  refine congrArg _ (funext fun a => Fin.ext ?_)
  match a with
  | ⟨0, _⟩ => show win1_7.index t (0 : Fin 2) * 1 + 1 * r.val = r.val; omega
  | ⟨1, _⟩ => show win1_7.index t (1 : Fin 2) * 512 + 1 * k.val = k.val; omega

/-- Window 8: its whole array at every point. -/
theorem iblk1_8_apply (V : Valuation τ sig (Elt F)) (c : Dev nD) (t : Fin cfg1.N) (r : Fin 512) (k : Fin 256) :
    iblk1 V c 8 t (ix2 r k) = Vb1 V c main_v12 (ix2 r k) := by
  obtain ⟨e0, e1⟩ := idx1_8 t
  show Vb1 V c main_v12 (((cfg1.win 8).blk t).view.emb (ix2 r k)) = _
  refine congrArg _ (funext fun a => Fin.ext ?_)
  match a with
  | ⟨0, _⟩ => show win1_8.index t (0 : Fin 2) * 512 + 1 * r.val = r.val; omega
  | ⟨1, _⟩ => show win1_8.index t (1 : Fin 2) * 256 + 1 * k.val = k.val; omega

/-- Window 9: its whole array at every point. -/
theorem iblk1_9_apply (V : Valuation τ sig (Elt F)) (c : Dev nD) (t : Fin cfg1.N) (r : Fin 1) (k : Fin 256) :
    iblk1 V c 9 t (ix2 r k) = Vb1 V c main_v16 (ix2 r k) := by
  obtain ⟨e0, e1⟩ := idx1_9 t
  show Vb1 V c main_v16 (((cfg1.win 9).blk t).view.emb (ix2 r k)) = _
  refine congrArg _ (funext fun a => Fin.ext ?_)
  match a with
  | ⟨0, _⟩ => show win1_9.index t (0 : Fin 2) * 1 + 1 * r.val = r.val; omega
  | ⟨1, _⟩ => show win1_9.index t (1 : Fin 2) * 256 + 1 * k.val = k.val; omega

/-- Window 10: its whole array at every point. -/
theorem iblk1_10_apply (V : Valuation τ sig (Elt F)) (c : Dev nD) (t : Fin cfg1.N) (r : Fin 256) (k : Fin 1) :
    iblk1 V c 10 t (ix2 r k) = Vb1 V c main_v13 (ix2 r k) := by
  obtain ⟨e0, e1⟩ := idx1_10 t
  show Vb1 V c main_v13 (((cfg1.win 10).blk t).view.emb (ix2 r k)) = _
  refine congrArg _ (funext fun a => Fin.ext ?_)
  match a with
  | ⟨0, _⟩ => show win1_10.index t (0 : Fin 2) * 256 + 1 * r.val = r.val; omega
  | ⟨1, _⟩ => show win1_10.index t (1 : Fin 2) * 1 + 1 * k.val = k.val; omega

/-- Window 11: its whole array at every point. -/
theorem iblk1_11_apply (V : Valuation τ sig (Elt F)) (c : Dev nD) (t : Fin cfg1.N) (r : Fin 1) (k : Fin 1) :
    iblk1 V c 11 t (ix2 r k) = Vb1 V c main_v9 (ix2 r k) := by
  obtain ⟨e0, e1⟩ := idx1_11 t
  show Vb1 V c main_v9 (((cfg1.win 11).blk t).view.emb (ix2 r k)) = _
  refine congrArg _ (funext fun a => Fin.ext ?_)
  match a with
  | ⟨0, _⟩ => show win1_11.index t (0 : Fin 2) * 1 + 1 * r.val = r.val; omega
  | ⟨1, _⟩ => show win1_11.index t (1 : Fin 2) * 1 + 1 * k.val = k.val; omega

/-- Window 12: block 4 · 0 + t of the gathered-rows array. -/
theorem iblk1_12_apply (V : Valuation τ sig (Elt F)) (c : Dev nD) (t : Fin cfg1.N) (r : Fin 512) (k : Fin 128) :
    iblk1 V c 12 t (ix2 r k) = Vb1 V c main_v22 (ix2 (⟨512 * (4 * 0 + t.val) + r.val, by have := t.isLt; have : cfg1.N = 4 := rfl; omega⟩ : Fin 53248) k) := by
  obtain ⟨e0, e1⟩ := idx1_12 t
  show Vb1 V c main_v22 (((cfg1.win 12).blk t).view.emb (ix2 r k)) = _
  refine congrArg _ (funext fun a => Fin.ext ?_)
  match a with
  | ⟨0, _⟩ => show win1_12.index t (0 : Fin 2) * 512 + 1 * r.val = 512 * (4 * 0 + t.val) + r.val; omega
  | ⟨1, _⟩ => show win1_12.index t (1 : Fin 2) * 128 + 1 * k.val = k.val; omega

/-- Window 13: block 4 · 1 + t of the gathered-rows array. -/
theorem iblk1_13_apply (V : Valuation τ sig (Elt F)) (c : Dev nD) (t : Fin cfg1.N) (r : Fin 512) (k : Fin 128) :
    iblk1 V c 13 t (ix2 r k) = Vb1 V c main_v22 (ix2 (⟨512 * (4 * 1 + t.val) + r.val, by have := t.isLt; have : cfg1.N = 4 := rfl; omega⟩ : Fin 53248) k) := by
  obtain ⟨e0, e1⟩ := idx1_13 t
  show Vb1 V c main_v22 (((cfg1.win 13).blk t).view.emb (ix2 r k)) = _
  refine congrArg _ (funext fun a => Fin.ext ?_)
  match a with
  | ⟨0, _⟩ => show win1_13.index t (0 : Fin 2) * 512 + 1 * r.val = 512 * (4 * 1 + t.val) + r.val; omega
  | ⟨1, _⟩ => show win1_13.index t (1 : Fin 2) * 128 + 1 * k.val = k.val; omega

/-- Window 14: block 4 · 2 + t of the gathered-rows array. -/
theorem iblk1_14_apply (V : Valuation τ sig (Elt F)) (c : Dev nD) (t : Fin cfg1.N) (r : Fin 512) (k : Fin 128) :
    iblk1 V c 14 t (ix2 r k) = Vb1 V c main_v22 (ix2 (⟨512 * (4 * 2 + t.val) + r.val, by have := t.isLt; have : cfg1.N = 4 := rfl; omega⟩ : Fin 53248) k) := by
  obtain ⟨e0, e1⟩ := idx1_14 t
  show Vb1 V c main_v22 (((cfg1.win 14).blk t).view.emb (ix2 r k)) = _
  refine congrArg _ (funext fun a => Fin.ext ?_)
  match a with
  | ⟨0, _⟩ => show win1_14.index t (0 : Fin 2) * 512 + 1 * r.val = 512 * (4 * 2 + t.val) + r.val; omega
  | ⟨1, _⟩ => show win1_14.index t (1 : Fin 2) * 128 + 1 * k.val = k.val; omega

/-- Window 15: block 4 · 3 + t of the gathered-rows array. -/
theorem iblk1_15_apply (V : Valuation τ sig (Elt F)) (c : Dev nD) (t : Fin cfg1.N) (r : Fin 512) (k : Fin 128) :
    iblk1 V c 15 t (ix2 r k) = Vb1 V c main_v22 (ix2 (⟨512 * (4 * 3 + t.val) + r.val, by have := t.isLt; have : cfg1.N = 4 := rfl; omega⟩ : Fin 53248) k) := by
  obtain ⟨e0, e1⟩ := idx1_15 t
  show Vb1 V c main_v22 (((cfg1.win 15).blk t).view.emb (ix2 r k)) = _
  refine congrArg _ (funext fun a => Fin.ext ?_)
  match a with
  | ⟨0, _⟩ => show win1_15.index t (0 : Fin 2) * 512 + 1 * r.val = 512 * (4 * 3 + t.val) + r.val; omega
  | ⟨1, _⟩ => show win1_15.index t (1 : Fin 2) * 128 + 1 * k.val = k.val; omega

/-- Window 16: block 4 · 4 + t of the gathered-rows array. -/
theorem iblk1_16_apply (V : Valuation τ sig (Elt F)) (c : Dev nD) (t : Fin cfg1.N) (r : Fin 512) (k : Fin 128) :
    iblk1 V c 16 t (ix2 r k) = Vb1 V c main_v22 (ix2 (⟨512 * (4 * 4 + t.val) + r.val, by have := t.isLt; have : cfg1.N = 4 := rfl; omega⟩ : Fin 53248) k) := by
  obtain ⟨e0, e1⟩ := idx1_16 t
  show Vb1 V c main_v22 (((cfg1.win 16).blk t).view.emb (ix2 r k)) = _
  refine congrArg _ (funext fun a => Fin.ext ?_)
  match a with
  | ⟨0, _⟩ => show win1_16.index t (0 : Fin 2) * 512 + 1 * r.val = 512 * (4 * 4 + t.val) + r.val; omega
  | ⟨1, _⟩ => show win1_16.index t (1 : Fin 2) * 128 + 1 * k.val = k.val; omega

/-- Window 17: block 4 · 5 + t of the gathered-rows array. -/
theorem iblk1_17_apply (V : Valuation τ sig (Elt F)) (c : Dev nD) (t : Fin cfg1.N) (r : Fin 512) (k : Fin 128) :
    iblk1 V c 17 t (ix2 r k) = Vb1 V c main_v22 (ix2 (⟨512 * (4 * 5 + t.val) + r.val, by have := t.isLt; have : cfg1.N = 4 := rfl; omega⟩ : Fin 53248) k) := by
  obtain ⟨e0, e1⟩ := idx1_17 t
  show Vb1 V c main_v22 (((cfg1.win 17).blk t).view.emb (ix2 r k)) = _
  refine congrArg _ (funext fun a => Fin.ext ?_)
  match a with
  | ⟨0, _⟩ => show win1_17.index t (0 : Fin 2) * 512 + 1 * r.val = 512 * (4 * 5 + t.val) + r.val; omega
  | ⟨1, _⟩ => show win1_17.index t (1 : Fin 2) * 128 + 1 * k.val = k.val; omega

/-- Window 18: block 4 · 6 + t of the gathered-rows array. -/
theorem iblk1_18_apply (V : Valuation τ sig (Elt F)) (c : Dev nD) (t : Fin cfg1.N) (r : Fin 512) (k : Fin 128) :
    iblk1 V c 18 t (ix2 r k) = Vb1 V c main_v22 (ix2 (⟨512 * (4 * 6 + t.val) + r.val, by have := t.isLt; have : cfg1.N = 4 := rfl; omega⟩ : Fin 53248) k) := by
  obtain ⟨e0, e1⟩ := idx1_18 t
  show Vb1 V c main_v22 (((cfg1.win 18).blk t).view.emb (ix2 r k)) = _
  refine congrArg _ (funext fun a => Fin.ext ?_)
  match a with
  | ⟨0, _⟩ => show win1_18.index t (0 : Fin 2) * 512 + 1 * r.val = 512 * (4 * 6 + t.val) + r.val; omega
  | ⟨1, _⟩ => show win1_18.index t (1 : Fin 2) * 128 + 1 * k.val = k.val; omega

/-- Window 19: block 4 · 7 + t of the gathered-rows array. -/
theorem iblk1_19_apply (V : Valuation τ sig (Elt F)) (c : Dev nD) (t : Fin cfg1.N) (r : Fin 512) (k : Fin 128) :
    iblk1 V c 19 t (ix2 r k) = Vb1 V c main_v22 (ix2 (⟨512 * (4 * 7 + t.val) + r.val, by have := t.isLt; have : cfg1.N = 4 := rfl; omega⟩ : Fin 53248) k) := by
  obtain ⟨e0, e1⟩ := idx1_19 t
  show Vb1 V c main_v22 (((cfg1.win 19).blk t).view.emb (ix2 r k)) = _
  refine congrArg _ (funext fun a => Fin.ext ?_)
  match a with
  | ⟨0, _⟩ => show win1_19.index t (0 : Fin 2) * 512 + 1 * r.val = 512 * (4 * 7 + t.val) + r.val; omega
  | ⟨1, _⟩ => show win1_19.index t (1 : Fin 2) * 128 + 1 * k.val = k.val; omega

/-- Window 20: block 4 · 8 + t of the gathered-rows array. -/
theorem iblk1_20_apply (V : Valuation τ sig (Elt F)) (c : Dev nD) (t : Fin cfg1.N) (r : Fin 512) (k : Fin 128) :
    iblk1 V c 20 t (ix2 r k) = Vb1 V c main_v22 (ix2 (⟨512 * (4 * 8 + t.val) + r.val, by have := t.isLt; have : cfg1.N = 4 := rfl; omega⟩ : Fin 53248) k) := by
  obtain ⟨e0, e1⟩ := idx1_20 t
  show Vb1 V c main_v22 (((cfg1.win 20).blk t).view.emb (ix2 r k)) = _
  refine congrArg _ (funext fun a => Fin.ext ?_)
  match a with
  | ⟨0, _⟩ => show win1_20.index t (0 : Fin 2) * 512 + 1 * r.val = 512 * (4 * 8 + t.val) + r.val; omega
  | ⟨1, _⟩ => show win1_20.index t (1 : Fin 2) * 128 + 1 * k.val = k.val; omega

/-- Window 21: block 4 · 9 + t of the gathered-rows array. -/
theorem iblk1_21_apply (V : Valuation τ sig (Elt F)) (c : Dev nD) (t : Fin cfg1.N) (r : Fin 512) (k : Fin 128) :
    iblk1 V c 21 t (ix2 r k) = Vb1 V c main_v22 (ix2 (⟨512 * (4 * 9 + t.val) + r.val, by have := t.isLt; have : cfg1.N = 4 := rfl; omega⟩ : Fin 53248) k) := by
  obtain ⟨e0, e1⟩ := idx1_21 t
  show Vb1 V c main_v22 (((cfg1.win 21).blk t).view.emb (ix2 r k)) = _
  refine congrArg _ (funext fun a => Fin.ext ?_)
  match a with
  | ⟨0, _⟩ => show win1_21.index t (0 : Fin 2) * 512 + 1 * r.val = 512 * (4 * 9 + t.val) + r.val; omega
  | ⟨1, _⟩ => show win1_21.index t (1 : Fin 2) * 128 + 1 * k.val = k.val; omega

/-- Window 22: block 4 · 10 + t of the gathered-rows array. -/
theorem iblk1_22_apply (V : Valuation τ sig (Elt F)) (c : Dev nD) (t : Fin cfg1.N) (r : Fin 512) (k : Fin 128) :
    iblk1 V c 22 t (ix2 r k) = Vb1 V c main_v22 (ix2 (⟨512 * (4 * 10 + t.val) + r.val, by have := t.isLt; have : cfg1.N = 4 := rfl; omega⟩ : Fin 53248) k) := by
  obtain ⟨e0, e1⟩ := idx1_22 t
  show Vb1 V c main_v22 (((cfg1.win 22).blk t).view.emb (ix2 r k)) = _
  refine congrArg _ (funext fun a => Fin.ext ?_)
  match a with
  | ⟨0, _⟩ => show win1_22.index t (0 : Fin 2) * 512 + 1 * r.val = 512 * (4 * 10 + t.val) + r.val; omega
  | ⟨1, _⟩ => show win1_22.index t (1 : Fin 2) * 128 + 1 * k.val = k.val; omega

/-- Window 23: block 4 · 11 + t of the gathered-rows array. -/
theorem iblk1_23_apply (V : Valuation τ sig (Elt F)) (c : Dev nD) (t : Fin cfg1.N) (r : Fin 512) (k : Fin 128) :
    iblk1 V c 23 t (ix2 r k) = Vb1 V c main_v22 (ix2 (⟨512 * (4 * 11 + t.val) + r.val, by have := t.isLt; have : cfg1.N = 4 := rfl; omega⟩ : Fin 53248) k) := by
  obtain ⟨e0, e1⟩ := idx1_23 t
  show Vb1 V c main_v22 (((cfg1.win 23).blk t).view.emb (ix2 r k)) = _
  refine congrArg _ (funext fun a => Fin.ext ?_)
  match a with
  | ⟨0, _⟩ => show win1_23.index t (0 : Fin 2) * 512 + 1 * r.val = 512 * (4 * 11 + t.val) + r.val; omega
  | ⟨1, _⟩ => show win1_23.index t (1 : Fin 2) * 128 + 1 * k.val = k.val; omega

/-- Window 24: block 4 · 12 + t of the gathered-rows array. -/
theorem iblk1_24_apply (V : Valuation τ sig (Elt F)) (c : Dev nD) (t : Fin cfg1.N) (r : Fin 512) (k : Fin 128) :
    iblk1 V c 24 t (ix2 r k) = Vb1 V c main_v22 (ix2 (⟨512 * (4 * 12 + t.val) + r.val, by have := t.isLt; have : cfg1.N = 4 := rfl; omega⟩ : Fin 53248) k) := by
  obtain ⟨e0, e1⟩ := idx1_24 t
  show Vb1 V c main_v22 (((cfg1.win 24).blk t).view.emb (ix2 r k)) = _
  refine congrArg _ (funext fun a => Fin.ext ?_)
  match a with
  | ⟨0, _⟩ => show win1_24.index t (0 : Fin 2) * 512 + 1 * r.val = 512 * (4 * 12 + t.val) + r.val; omega
  | ⟨1, _⟩ => show win1_24.index t (1 : Fin 2) * 128 + 1 * k.val = k.val; omega

/-- Window 25: block 4 · 13 + t of the gathered-rows array. -/
theorem iblk1_25_apply (V : Valuation τ sig (Elt F)) (c : Dev nD) (t : Fin cfg1.N) (r : Fin 512) (k : Fin 128) :
    iblk1 V c 25 t (ix2 r k) = Vb1 V c main_v22 (ix2 (⟨512 * (4 * 13 + t.val) + r.val, by have := t.isLt; have : cfg1.N = 4 := rfl; omega⟩ : Fin 53248) k) := by
  obtain ⟨e0, e1⟩ := idx1_25 t
  show Vb1 V c main_v22 (((cfg1.win 25).blk t).view.emb (ix2 r k)) = _
  refine congrArg _ (funext fun a => Fin.ext ?_)
  match a with
  | ⟨0, _⟩ => show win1_25.index t (0 : Fin 2) * 512 + 1 * r.val = 512 * (4 * 13 + t.val) + r.val; omega
  | ⟨1, _⟩ => show win1_25.index t (1 : Fin 2) * 128 + 1 * k.val = k.val; omega

/-- Window 26: block 4 · 14 + t of the gathered-rows array. -/
theorem iblk1_26_apply (V : Valuation τ sig (Elt F)) (c : Dev nD) (t : Fin cfg1.N) (r : Fin 512) (k : Fin 128) :
    iblk1 V c 26 t (ix2 r k) = Vb1 V c main_v22 (ix2 (⟨512 * (4 * 14 + t.val) + r.val, by have := t.isLt; have : cfg1.N = 4 := rfl; omega⟩ : Fin 53248) k) := by
  obtain ⟨e0, e1⟩ := idx1_26 t
  show Vb1 V c main_v22 (((cfg1.win 26).blk t).view.emb (ix2 r k)) = _
  refine congrArg _ (funext fun a => Fin.ext ?_)
  match a with
  | ⟨0, _⟩ => show win1_26.index t (0 : Fin 2) * 512 + 1 * r.val = 512 * (4 * 14 + t.val) + r.val; omega
  | ⟨1, _⟩ => show win1_26.index t (1 : Fin 2) * 128 + 1 * k.val = k.val; omega

/-- Window 27: block 4 · 15 + t of the gathered-rows array. -/
theorem iblk1_27_apply (V : Valuation τ sig (Elt F)) (c : Dev nD) (t : Fin cfg1.N) (r : Fin 512) (k : Fin 128) :
    iblk1 V c 27 t (ix2 r k) = Vb1 V c main_v22 (ix2 (⟨512 * (4 * 15 + t.val) + r.val, by have := t.isLt; have : cfg1.N = 4 := rfl; omega⟩ : Fin 53248) k) := by
  obtain ⟨e0, e1⟩ := idx1_27 t
  show Vb1 V c main_v22 (((cfg1.win 27).blk t).view.emb (ix2 r k)) = _
  refine congrArg _ (funext fun a => Fin.ext ?_)
  match a with
  | ⟨0, _⟩ => show win1_27.index t (0 : Fin 2) * 512 + 1 * r.val = 512 * (4 * 15 + t.val) + r.val; omega
  | ⟨1, _⟩ => show win1_27.index t (1 : Fin 2) * 128 + 1 * k.val = k.val; omega

/-- Window 28: block 4 · 16 + t of the gathered-rows array. -/
theorem iblk1_28_apply (V : Valuation τ sig (Elt F)) (c : Dev nD) (t : Fin cfg1.N) (r : Fin 512) (k : Fin 128) :
    iblk1 V c 28 t (ix2 r k) = Vb1 V c main_v22 (ix2 (⟨512 * (4 * 16 + t.val) + r.val, by have := t.isLt; have : cfg1.N = 4 := rfl; omega⟩ : Fin 53248) k) := by
  obtain ⟨e0, e1⟩ := idx1_28 t
  show Vb1 V c main_v22 (((cfg1.win 28).blk t).view.emb (ix2 r k)) = _
  refine congrArg _ (funext fun a => Fin.ext ?_)
  match a with
  | ⟨0, _⟩ => show win1_28.index t (0 : Fin 2) * 512 + 1 * r.val = 512 * (4 * 16 + t.val) + r.val; omega
  | ⟨1, _⟩ => show win1_28.index t (1 : Fin 2) * 128 + 1 * k.val = k.val; omega

/-- Window 29: block 4 · 17 + t of the gathered-rows array. -/
theorem iblk1_29_apply (V : Valuation τ sig (Elt F)) (c : Dev nD) (t : Fin cfg1.N) (r : Fin 512) (k : Fin 128) :
    iblk1 V c 29 t (ix2 r k) = Vb1 V c main_v22 (ix2 (⟨512 * (4 * 17 + t.val) + r.val, by have := t.isLt; have : cfg1.N = 4 := rfl; omega⟩ : Fin 53248) k) := by
  obtain ⟨e0, e1⟩ := idx1_29 t
  show Vb1 V c main_v22 (((cfg1.win 29).blk t).view.emb (ix2 r k)) = _
  refine congrArg _ (funext fun a => Fin.ext ?_)
  match a with
  | ⟨0, _⟩ => show win1_29.index t (0 : Fin 2) * 512 + 1 * r.val = 512 * (4 * 17 + t.val) + r.val; omega
  | ⟨1, _⟩ => show win1_29.index t (1 : Fin 2) * 128 + 1 * k.val = k.val; omega

/-- Window 30: block 4 · 18 + t of the gathered-rows array. -/
theorem iblk1_30_apply (V : Valuation τ sig (Elt F)) (c : Dev nD) (t : Fin cfg1.N) (r : Fin 512) (k : Fin 128) :
    iblk1 V c 30 t (ix2 r k) = Vb1 V c main_v22 (ix2 (⟨512 * (4 * 18 + t.val) + r.val, by have := t.isLt; have : cfg1.N = 4 := rfl; omega⟩ : Fin 53248) k) := by
  obtain ⟨e0, e1⟩ := idx1_30 t
  show Vb1 V c main_v22 (((cfg1.win 30).blk t).view.emb (ix2 r k)) = _
  refine congrArg _ (funext fun a => Fin.ext ?_)
  match a with
  | ⟨0, _⟩ => show win1_30.index t (0 : Fin 2) * 512 + 1 * r.val = 512 * (4 * 18 + t.val) + r.val; omega
  | ⟨1, _⟩ => show win1_30.index t (1 : Fin 2) * 128 + 1 * k.val = k.val; omega

/-- Window 31: block 4 · 19 + t of the gathered-rows array. -/
theorem iblk1_31_apply (V : Valuation τ sig (Elt F)) (c : Dev nD) (t : Fin cfg1.N) (r : Fin 512) (k : Fin 128) :
    iblk1 V c 31 t (ix2 r k) = Vb1 V c main_v22 (ix2 (⟨512 * (4 * 19 + t.val) + r.val, by have := t.isLt; have : cfg1.N = 4 := rfl; omega⟩ : Fin 53248) k) := by
  obtain ⟨e0, e1⟩ := idx1_31 t
  show Vb1 V c main_v22 (((cfg1.win 31).blk t).view.emb (ix2 r k)) = _
  refine congrArg _ (funext fun a => Fin.ext ?_)
  match a with
  | ⟨0, _⟩ => show win1_31.index t (0 : Fin 2) * 512 + 1 * r.val = 512 * (4 * 19 + t.val) + r.val; omega
  | ⟨1, _⟩ => show win1_31.index t (1 : Fin 2) * 128 + 1 * k.val = k.val; omega

/-- Window 32: block 4 · 20 + t of the gathered-rows array. -/
theorem iblk1_32_apply (V : Valuation τ sig (Elt F)) (c : Dev nD) (t : Fin cfg1.N) (r : Fin 512) (k : Fin 128) :
    iblk1 V c 32 t (ix2 r k) = Vb1 V c main_v22 (ix2 (⟨512 * (4 * 20 + t.val) + r.val, by have := t.isLt; have : cfg1.N = 4 := rfl; omega⟩ : Fin 53248) k) := by
  obtain ⟨e0, e1⟩ := idx1_32 t
  show Vb1 V c main_v22 (((cfg1.win 32).blk t).view.emb (ix2 r k)) = _
  refine congrArg _ (funext fun a => Fin.ext ?_)
  match a with
  | ⟨0, _⟩ => show win1_32.index t (0 : Fin 2) * 512 + 1 * r.val = 512 * (4 * 20 + t.val) + r.val; omega
  | ⟨1, _⟩ => show win1_32.index t (1 : Fin 2) * 128 + 1 * k.val = k.val; omega

/-- Window 33: block 4 · 21 + t of the gathered-rows array. -/
theorem iblk1_33_apply (V : Valuation τ sig (Elt F)) (c : Dev nD) (t : Fin cfg1.N) (r : Fin 512) (k : Fin 128) :
    iblk1 V c 33 t (ix2 r k) = Vb1 V c main_v22 (ix2 (⟨512 * (4 * 21 + t.val) + r.val, by have := t.isLt; have : cfg1.N = 4 := rfl; omega⟩ : Fin 53248) k) := by
  obtain ⟨e0, e1⟩ := idx1_33 t
  show Vb1 V c main_v22 (((cfg1.win 33).blk t).view.emb (ix2 r k)) = _
  refine congrArg _ (funext fun a => Fin.ext ?_)
  match a with
  | ⟨0, _⟩ => show win1_33.index t (0 : Fin 2) * 512 + 1 * r.val = 512 * (4 * 21 + t.val) + r.val; omega
  | ⟨1, _⟩ => show win1_33.index t (1 : Fin 2) * 128 + 1 * k.val = k.val; omega

/-- Window 34: block 4 · 22 + t of the gathered-rows array. -/
theorem iblk1_34_apply (V : Valuation τ sig (Elt F)) (c : Dev nD) (t : Fin cfg1.N) (r : Fin 512) (k : Fin 128) :
    iblk1 V c 34 t (ix2 r k) = Vb1 V c main_v22 (ix2 (⟨512 * (4 * 22 + t.val) + r.val, by have := t.isLt; have : cfg1.N = 4 := rfl; omega⟩ : Fin 53248) k) := by
  obtain ⟨e0, e1⟩ := idx1_34 t
  show Vb1 V c main_v22 (((cfg1.win 34).blk t).view.emb (ix2 r k)) = _
  refine congrArg _ (funext fun a => Fin.ext ?_)
  match a with
  | ⟨0, _⟩ => show win1_34.index t (0 : Fin 2) * 512 + 1 * r.val = 512 * (4 * 22 + t.val) + r.val; omega
  | ⟨1, _⟩ => show win1_34.index t (1 : Fin 2) * 128 + 1 * k.val = k.val; omega

/-- Window 35: block 4 · 23 + t of the gathered-rows array. -/
theorem iblk1_35_apply (V : Valuation τ sig (Elt F)) (c : Dev nD) (t : Fin cfg1.N) (r : Fin 512) (k : Fin 128) :
    iblk1 V c 35 t (ix2 r k) = Vb1 V c main_v22 (ix2 (⟨512 * (4 * 23 + t.val) + r.val, by have := t.isLt; have : cfg1.N = 4 := rfl; omega⟩ : Fin 53248) k) := by
  obtain ⟨e0, e1⟩ := idx1_35 t
  show Vb1 V c main_v22 (((cfg1.win 35).blk t).view.emb (ix2 r k)) = _
  refine congrArg _ (funext fun a => Fin.ext ?_)
  match a with
  | ⟨0, _⟩ => show win1_35.index t (0 : Fin 2) * 512 + 1 * r.val = 512 * (4 * 23 + t.val) + r.val; omega
  | ⟨1, _⟩ => show win1_35.index t (1 : Fin 2) * 128 + 1 * k.val = k.val; omega

/-- Window 36: block 4 · 24 + t of the gathered-rows array. -/
theorem iblk1_36_apply (V : Valuation τ sig (Elt F)) (c : Dev nD) (t : Fin cfg1.N) (r : Fin 512) (k : Fin 128) :
    iblk1 V c 36 t (ix2 r k) = Vb1 V c main_v22 (ix2 (⟨512 * (4 * 24 + t.val) + r.val, by have := t.isLt; have : cfg1.N = 4 := rfl; omega⟩ : Fin 53248) k) := by
  obtain ⟨e0, e1⟩ := idx1_36 t
  show Vb1 V c main_v22 (((cfg1.win 36).blk t).view.emb (ix2 r k)) = _
  refine congrArg _ (funext fun a => Fin.ext ?_)
  match a with
  | ⟨0, _⟩ => show win1_36.index t (0 : Fin 2) * 512 + 1 * r.val = 512 * (4 * 24 + t.val) + r.val; omega
  | ⟨1, _⟩ => show win1_36.index t (1 : Fin 2) * 128 + 1 * k.val = k.val; omega

/-- Window 37: block 4 · 25 + t of the gathered-rows array. -/
theorem iblk1_37_apply (V : Valuation τ sig (Elt F)) (c : Dev nD) (t : Fin cfg1.N) (r : Fin 512) (k : Fin 128) :
    iblk1 V c 37 t (ix2 r k) = Vb1 V c main_v22 (ix2 (⟨512 * (4 * 25 + t.val) + r.val, by have := t.isLt; have : cfg1.N = 4 := rfl; omega⟩ : Fin 53248) k) := by
  obtain ⟨e0, e1⟩ := idx1_37 t
  show Vb1 V c main_v22 (((cfg1.win 37).blk t).view.emb (ix2 r k)) = _
  refine congrArg _ (funext fun a => Fin.ext ?_)
  match a with
  | ⟨0, _⟩ => show win1_37.index t (0 : Fin 2) * 512 + 1 * r.val = 512 * (4 * 25 + t.val) + r.val; omega
  | ⟨1, _⟩ => show win1_37.index t (1 : Fin 2) * 128 + 1 * k.val = k.val; omega

/-- The 26 field windows' blocks at point `t`, as one family. -/
def fieldBlk1 (V : Valuation τ sig (Elt F)) (c : Dev nD) (t : Fin cfg1.N) : Fin 26 → (⟨2, ![512, 128]⟩ : Shape).Idx → Elt F .f32 :=
  ![iblk1 V c 12 t, iblk1 V c 13 t, iblk1 V c 14 t, iblk1 V c 15 t, iblk1 V c 16 t, iblk1 V c 17 t, iblk1 V c 18 t, iblk1 V c 19 t, iblk1 V c 20 t, iblk1 V c 21 t, iblk1 V c 22 t, iblk1 V c 23 t, iblk1 V c 24 t, iblk1 V c 25 t, iblk1 V c 26 t, iblk1 V c 27 t, iblk1 V c 28 t, iblk1 V c 29 t, iblk1 V c 30 t, iblk1 V c 31 t, iblk1 V c 32 t, iblk1 V c 33 t, iblk1 V c 34 t, iblk1 V c 35 t, iblk1 V c 36 t, iblk1 V c 37 t]

/-- Field `f`'s block at point `t` is block 4 f + t of the gathered-rows array. -/
theorem fieldBlk1_apply (V : Valuation τ sig (Elt F)) (c : Dev nD) (t : Fin cfg1.N) (f : Fin 26) (r : Fin 512) (k : Fin 128) :
    fieldBlk1 V c t f (ix2 r k)
      = Vb1 V c main_v22 (ix2 (⟨512 * (4 * f.val + t.val) + r.val, by have := t.isLt; have := f.isLt; have : cfg1.N = 4 := rfl; omega⟩ : Fin 53248) k) := by
  match f with
  | ⟨0, _⟩ => exact iblk1_12_apply V c t r k
  | ⟨1, _⟩ => exact iblk1_13_apply V c t r k
  | ⟨2, _⟩ => exact iblk1_14_apply V c t r k
  | ⟨3, _⟩ => exact iblk1_15_apply V c t r k
  | ⟨4, _⟩ => exact iblk1_16_apply V c t r k
  | ⟨5, _⟩ => exact iblk1_17_apply V c t r k
  | ⟨6, _⟩ => exact iblk1_18_apply V c t r k
  | ⟨7, _⟩ => exact iblk1_19_apply V c t r k
  | ⟨8, _⟩ => exact iblk1_20_apply V c t r k
  | ⟨9, _⟩ => exact iblk1_21_apply V c t r k
  | ⟨10, _⟩ => exact iblk1_22_apply V c t r k
  | ⟨11, _⟩ => exact iblk1_23_apply V c t r k
  | ⟨12, _⟩ => exact iblk1_24_apply V c t r k
  | ⟨13, _⟩ => exact iblk1_25_apply V c t r k
  | ⟨14, _⟩ => exact iblk1_26_apply V c t r k
  | ⟨15, _⟩ => exact iblk1_27_apply V c t r k
  | ⟨16, _⟩ => exact iblk1_28_apply V c t r k
  | ⟨17, _⟩ => exact iblk1_29_apply V c t r k
  | ⟨18, _⟩ => exact iblk1_30_apply V c t r k
  | ⟨19, _⟩ => exact iblk1_31_apply V c t r k
  | ⟨20, _⟩ => exact iblk1_32_apply V c t r k
  | ⟨21, _⟩ => exact iblk1_33_apply V c t r k
  | ⟨22, _⟩ => exact iblk1_34_apply V c t r k
  | ⟨23, _⟩ => exact iblk1_35_apply V c t r k
  | ⟨24, _⟩ => exact iblk1_36_apply V c t r k
  | ⟨25, _⟩ => exact iblk1_37_apply V c t r k
  | ⟨n + 26, h⟩ => exact absurd h (by omega)

/-! ## Pipeline call 0: its result array after the write-backs -/

/-- The body's output block at point `t`, row `r`, from the windows' blocks at `t`. -/
def body1 (V : Valuation τ sig (Elt F)) (c : Dev nD) (t : Fin cfg1.N) (r : Fin 512) : Elt F .f32 :=
  tcOut1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) (iblk1 V c 29 t) (iblk1 V c 30 t) (iblk1 V c 31 t) (iblk1 V c 32 t) (iblk1 V c 33 t) (iblk1 V c 34 t) (iblk1 V c 35 t) (iblk1 V c 36 t) (iblk1 V c 37 t) (ix2 r (0 : Fin 1))

/-- One function of the array's index whose block at every point is what that point writes back. -/
def G1 (V : Valuation τ sig (Elt F)) (c : Dev nD) : Buf (Elt F) ((c : Thread nD τ).loc main_v25) :=
  fun i => body1 V c (⟨min ((i 0).val / 512) 3, by have : cfg1.N = 4 := rfl; omega⟩ : Fin cfg1.N) (⟨(i 0).val % 512, Nat.mod_lt _ (by decide)⟩ : Fin 512)

/-- An index of the result array is in point `t`'s block iff each coordinate is in the block's range on its axis. -/
theorem mem_blk1 (t : Fin cfg1.N) (i : S4096x1.Idx) :
    i ∈ ((cfg1.win 38).blk t).view.set ↔ ∀ a : Fin 2, win1_38.index t a * S512x1.size a ≤ (i a).val ∧ (i a).val < win1_38.index t a * S512x1.size a + S512x1.size a := by
  show i ∈ ((View.whole main_v25).slice (win1_38.rect t)).set ↔ _
  rw [View.set_slice_whole, Rect.mem_set_unit]
  exact Iff.rfl

/-- What point `t` writes back is block `t` of that function. -/
theorem flushed1_eq (V : Valuation τ sig (Elt F)) (c : Dev nD) (t : Fin cfg1.N) :
    (dats1 V 0 ∅ c).flushed 38 t = ((cfg1.win 38).blk t).view.read (Elt F) (G1 V c) := by
  show (cfg1.win 38).cut (grid1.coords t) ((dats1 V 0 ∅ c).after 38 t) = _
  rw [after1_38]
  obtain ⟨e0, e1⟩ := idx1_38 t
  have ht4 : t.val < 4 := t.isLt
  funext j
  obtain ⟨r, z, rfl⟩ : ∃ (r : Fin 512) (z : Fin 1), j = ix2 r z := ⟨j 0, j 1, eq_ix2 j⟩
  obtain rfl : z = 0 := Subsingleton.elim _ _
  show body1 V c t r = G1 V c (((cfg1.win 38).blk t).view.emb (ix2 r (0 : Fin 1)))
  have h0 : ((((cfg1.win 38).blk t).view.emb (ix2 r (0 : Fin 1))) 0).val = 512 * t.val + r.val := by
    show win1_38.index t (0 : Fin 2) * 512 + 1 * r.val = _; omega
  unfold G1
  have hT : (⟨min ((((((cfg1.win 38).blk t).view.emb (ix2 r (0 : Fin 1))) 0).val) / 512) 3, by have : cfg1.N = 4 := rfl; omega⟩ : Fin cfg1.N) = t := Fin.ext (by show min _ 3 = t.val; rw [h0]; omega)
  have hR : (⟨(((((cfg1.win 38).blk t).view.emb (ix2 r (0 : Fin 1))) 0).val) % 512, Nat.mod_lt _ (by decide)⟩ : Fin 512) = r := Fin.ext (by show _ % 512 = r.val; rw [h0]; omega)
  rw [hT, hR]

/-- Where point `t` wrote: the body's output block at `t`. -/
theorem resOf1_written (V : Valuation τ sig (Elt F)) (c : Dev nD) (t : Fin cfg1.N) (r : Fin 512) :
    resOf1 V c (ix2 (⟨512 * t.val + r.val, by have := t.isLt; have : cfg1.N = 4 := rfl; omega⟩ : Fin 4096) (0 : Fin 1)) = body1 V c t r := by
  obtain ⟨e0, e1⟩ := idx1_38 t
  have ht4 : t.val < 4 := t.isLt
  unfold resOf1
  rw [(dats1 V 0 ∅ c).arrAt_eq_piecewise 38 (G1 V c) (fun t _ => flushed1_eq V c t)]
  rw [if_pos ⟨t, flush1_38 t, (mem_blk1 t _).mpr (fun a => by
    match a with
    | ⟨0, _⟩ => show win1_38.index t (0 : Fin 2) * 512 ≤ 512 * t.val + r.val ∧ 512 * t.val + r.val < win1_38.index t (0 : Fin 2) * 512 + 512; omega
    | ⟨1, _⟩ => show win1_38.index t (1 : Fin 2) * 1 ≤ 0 ∧ 0 < win1_38.index t (1 : Fin 2) * 1 + 1; omega)⟩]
  unfold G1
  have hT : (⟨min ((512 * t.val + r.val) / 512) 3, by have : cfg1.N = 4 := rfl; omega⟩ : Fin cfg1.N) = t := Fin.ext (by show min _ 3 = t.val; omega)
  have hR : (⟨(512 * t.val + r.val) % 512, Nat.mod_lt _ (by decide)⟩ : Fin 512) = r := Fin.ext (by show _ % 512 = r.val; omega)
  exact congrArg₂ (body1 V c) hT hR

/-- Where no point wrote: the array's contents at the region's entry. -/
theorem resOf1_kept (V : Valuation τ sig (Elt F)) (c : Dev nD) (b : Fin 4096) (hb : 2048 ≤ b.val) :
    resOf1 V c (ix2 b (0 : Fin 1)) = Vb1 V c main_v25 (ix2 b (0 : Fin 1)) := by
  unfold resOf1
  rw [(dats1 V 0 ∅ c).arrAt_eq_piecewise 38 (G1 V c) (fun t _ => flushed1_eq V c t)]
  rw [if_neg (fun ⟨t, _, hi⟩ => by
    obtain ⟨e0, e1⟩ := idx1_38 t
    have ht4 : t.val < 4 := t.isLt
    have h0 : win1_38.index t (0 : Fin 2) * 512 ≤ b.val ∧ b.val < win1_38.index t (0 : Fin 2) * 512 + 512 := ((mem_blk1 t _).mp hi) 0
    omega)]
  rw [A1_eq]

/-! ## Pipeline call 1: where each window's block sits in its array -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = 0 + t.val ∧ win3_12.index t (1 : Fin 2) = 0 :=
  (by decide +kernel : ∀ t : Fin grid3.N, _)
theorem idx3_13 : ∀ t : Fin cfg3.N, win3_13.index t (0 : Fin 2) = 4 + t.val ∧ win3_13.index t (1 : Fin 2) = 0 :=
  (by decide +kernel : ∀ t : Fin grid3.N, _)
theorem idx3_14 : ∀ t : Fin cfg3.N, win3_14.index t (0 : Fin 2) = 8 + t.val ∧ win3_14.index t (1 : Fin 2) = 0 :=
  (by decide +kernel : ∀ t : Fin grid3.N, _)
theorem idx3_15 : ∀ t : Fin cfg3.N, win3_15.index t (0 : Fin 2) = 12 + t.val ∧ win3_15.index t (1 : Fin 2) = 0 :=
  (by decide +kernel : ∀ t : Fin grid3.N, _)
theorem idx3_16 : ∀ t : Fin cfg3.N, win3_16.index t (0 : Fin 2) = 16 + t.val ∧ win3_16.index t (1 : Fin 2) = 0 :=
  (by decide +kernel : ∀ t : Fin grid3.N, _)
theorem idx3_17 : ∀ t : Fin cfg3.N, win3_17.index t (0 : Fin 2) = 20 + t.val ∧ win3_17.index t (1 : Fin 2) = 0 :=
  (by decide +kernel : ∀ t : Fin grid3.N, _)
theorem idx3_18 : ∀ t : Fin cfg3.N, win3_18.index t (0 : Fin 2) = 24 + t.val ∧ win3_18.index t (1 : Fin 2) = 0 :=
  (by decide +kernel : ∀ t : Fin grid3.N, _)
theorem idx3_19 : ∀ t : Fin cfg3.N, win3_19.index t (0 : Fin 2) = 28 + t.val ∧ win3_19.index t (1 : Fin 2) = 0 :=
  (by decide +kernel : ∀ t : Fin grid3.N, _)
theorem idx3_20 : ∀ t : Fin cfg3.N, win3_20.index t (0 : Fin 2) = 32 + t.val ∧ win3_20.index t (1 : Fin 2) = 0 :=
  (by decide +kernel : ∀ t : Fin grid3.N, _)
theorem idx3_21 : ∀ t : Fin cfg3.N, win3_21.index t (0 : Fin 2) = 36 + t.val ∧ win3_21.index t (1 : Fin 2) = 0 :=
  (by decide +kernel : ∀ t : Fin grid3.N, _)
theorem idx3_22 : ∀ t : Fin cfg3.N, win3_22.index t (0 : Fin 2) = 40 + t.val ∧ win3_22.index t (1 : Fin 2) = 0 :=
  (by decide +kernel : ∀ t : Fin grid3.N, _)
theorem idx3_23 : ∀ t : Fin cfg3.N, win3_23.index t (0 : Fin 2) = 44 + t.val ∧ win3_23.index t (1 : Fin 2) = 0 :=
  (by decide +kernel : ∀ t : Fin grid3.N, _)
theorem idx3_24 : ∀ t : Fin cfg3.N, win3_24.index t (0 : Fin 2) = 48 + t.val ∧ win3_24.index t (1 : Fin 2) = 0 :=
  (by decide +kernel : ∀ t : Fin grid3.N, _)
theorem idx3_25 : ∀ t : Fin cfg3.N, win3_25.index t (0 : Fin 2) = 52 + t.val ∧ win3_25.index t (1 : Fin 2) = 0 :=
  (by decide +kernel : ∀ t : Fin grid3.N, _)
theorem idx3_26 : ∀ t : Fin cfg3.N, win3_26.index t (0 : Fin 2) = 56 + t.val ∧ win3_26.index t (1 : Fin 2) = 0 :=
  (by decide +kernel : ∀ t : Fin grid3.N, _)
theorem idx3_27 : ∀ t : Fin cfg3.N, win3_27.index t (0 : Fin 2) = 60 + t.val ∧ win3_27.index t (1 : Fin 2) = 0 :=
  (by decide +kernel : ∀ t : Fin grid3.N, _)
theorem idx3_28 : ∀ t : Fin cfg3.N, win3_28.index t (0 : Fin 2) = 64 + t.val ∧ win3_28.index t (1 : Fin 2) = 0 :=
  (by decide +kernel : ∀ t : Fin grid3.N, _)
theorem idx3_29 : ∀ t : Fin cfg3.N, win3_29.index t (0 : Fin 2) = 68 + t.val ∧ win3_29.index t (1 : Fin 2) = 0 :=
  (by decide +kernel : ∀ t : Fin grid3.N, _)
theorem idx3_30 : ∀ t : Fin cfg3.N, win3_30.index t (0 : Fin 2) = 72 + t.val ∧ win3_30.index t (1 : Fin 2) = 0 :=
  (by decide +kernel : ∀ t : Fin grid3.N, _)
theorem idx3_31 : ∀ t : Fin cfg3.N, win3_31.index t (0 : Fin 2) = 76 + t.val ∧ win3_31.index t (1 : Fin 2) = 0 :=
  (by decide +kernel : ∀ t : Fin grid3.N, _)
theorem idx3_32 : ∀ t : Fin cfg3.N, win3_32.index t (0 : Fin 2) = 80 + t.val ∧ win3_32.index t (1 : Fin 2) = 0 :=
  (by decide +kernel : ∀ t : Fin grid3.N, _)
theorem idx3_33 : ∀ t : Fin cfg3.N, win3_33.index t (0 : Fin 2) = 84 + t.val ∧ win3_33.index t (1 : Fin 2) = 0 :=
  (by decide +kernel : ∀ t : Fin grid3.N, _)
theorem idx3_34 : ∀ t : Fin cfg3.N, win3_34.index t (0 : Fin 2) = 88 + t.val ∧ win3_34.index t (1 : Fin 2) = 0 :=
  (by decide +kernel : ∀ t : Fin grid3.N, _)
theorem idx3_35 : ∀ t : Fin cfg3.N, win3_35.index t (0 : Fin 2) = 92 + t.val ∧ win3_35.index t (1 : Fin 2) = 0 :=
  (by decide +kernel : ∀ t : Fin grid3.N, _)
theorem idx3_36 : ∀ t : Fin cfg3.N, win3_36.index t (0 : Fin 2) = 96 + t.val ∧ win3_36.index t (1 : Fin 2) = 0 :=
  (by decide +kernel : ∀ t : Fin grid3.N, _)
theorem idx3_37 : ∀ t : Fin cfg3.N, win3_37.index t (0 : Fin 2) = 100 + t.val ∧ win3_37.index t (1 : Fin 2) = 0 :=
  (by decide +kernel : ∀ t : Fin grid3.N, _)
theorem idx3_38 : ∀ t : Fin cfg3.N, win3_38.index t (0 : Fin 2) = 4 + t.val ∧ win3_38.index t (1 : Fin 2) = 0 :=
  (by decide +kernel : ∀ t : Fin grid3.N, _)

/-- Window 0: rows 512 t .. of its array. -/
theorem iblk3_0_apply (V : Valuation τ sig (Elt F)) (c : Dev nD) (t : Fin cfg3.N) (r : Fin 512) (k : Fin 143) :
    iblk3 V c 0 t (ix2 r k) = Vb3 V c main_v31 (ix2 (⟨512 * t.val + r.val, by have := t.isLt; have : cfg3.N = 4 := rfl; omega⟩ : Fin 2048) k) := by
  obtain ⟨e0, e1⟩ := idx3_0 t
  show Vb3 V c main_v31 (((cfg3.win 0).blk t).view.emb (ix2 r k)) = _
  refine congrArg _ (funext fun a => Fin.ext ?_)
  match a with
  | ⟨0, _⟩ => show win3_0.index t (0 : Fin 2) * 512 + 1 * r.val = 512 * t.val + r.val; omega
  | ⟨1, _⟩ => show win3_0.index t (1 : Fin 2) * 143 + 1 * k.val = k.val; omega

/-- Window 1: rows 512 t .. of its array. -/
theorem iblk3_1_apply (V : Valuation τ sig (Elt F)) (c : Dev nD) (t : Fin cfg3.N) (r : Fin 512) (k : Fin 13) :
    iblk3 V c 1 t (ix2 r k) = Vb3 V c main_v32 (ix2 (⟨512 * t.val + r.val, by have := t.isLt; have : cfg3.N = 4 := rfl; omega⟩ : Fin 2048) k) := by
  obtain ⟨e0, e1⟩ := idx3_1 t
  show Vb3 V c main_v32 (((cfg3.win 1).blk t).view.emb (ix2 r k)) = _
  refine congrArg _ (funext fun a => Fin.ext ?_)
  match a with
  | ⟨0, _⟩ => show win3_1.index t (0 : Fin 2) * 512 + 1 * r.val = 512 * t.val + r.val; omega
  | ⟨1, _⟩ => show win3_1.index t (1 : Fin 2) * 13 + 1 * k.val = k.val; omega

/-- Window 2: its whole array at every point. -/
theorem iblk3_2_apply (V : Valuation τ sig (Elt F)) (c : Dev nD) (t : Fin cfg3.N) (r : Fin 143) (k : Fin 1) :
    iblk3 V c 2 t (ix2 r k) = Vb3 V c main_arg4 (ix2 r k) := by
  obtain ⟨e0, e1⟩ := idx3_2 t
  show Vb3 V c main_arg4 (((cfg3.win 2).blk t).view.emb (ix2 r k)) = _
  refine congrArg _ (funext fun a => Fin.ext ?_)
  match a with
  | ⟨0, _⟩ => show win3_2.index t (0 : Fin 2) * 143 + 1 * r.val = r.val; omega
  | ⟨1, _⟩ => show win3_2.index t (1 : Fin 2) * 1 + 1 * k.val = k.val; omega

/-- Window 3: its whole array at every point. -/
theorem iblk3_3_apply (V : Valuation τ sig (Elt F)) (c : Dev nD) (t : Fin cfg3.N) (r : Fin 13) (k : Fin 1) :
    iblk3 V c 3 t (ix2 r k) = Vb3 V c main_arg6 (ix2 r k) := by
  obtain ⟨e0, e1⟩ := idx3_3 t
  show Vb3 V c main_arg6 (((cfg3.win 3).blk t).view.emb (ix2 r k)) = _
  refine congrArg _ (funext fun a => Fin.ext ?_)
  match a with
  | ⟨0, _⟩ => show win3_3.index t (0 : Fin 2) * 13 + 1 * r.val = r.val; omega
  | ⟨1, _⟩ => show win3_3.index t (1 : Fin 2) * 1 + 1 * k.val = k.val; omega

/-- Window 4: its whole array at every point. -/
theorem iblk3_4_apply (V : Valuation τ sig (Elt F)) (c : Dev nD) (t : Fin cfg3.N) (r : Fin 3484) (k : Fin 1024) :
    iblk3 V c 4 t (ix2 r k) = Vb3 V c main_v10 (ix2 r k) := by
  obtain ⟨e0, e1⟩ := idx3_4 t
  show Vb3 V c main_v10 (((cfg3.win 4).blk t).view.emb (ix2 r k)) = _
  refine congrArg _ (funext fun a => Fin.ext ?_)
  match a with
  | ⟨0, _⟩ => show win3_4.index t (0 : Fin 2) * 3484 + 1 * r.val = r.val; omega
  | ⟨1, _⟩ => show win3_4.index t (1 : Fin 2) * 1024 + 1 * k.val = k.val; omega

/-- Window 5: its whole array at every point. -/
theorem iblk3_5_apply (V : Valuation τ sig (Elt F)) (c : Dev nD) (t : Fin cfg3.N) (r : Fin 1) (k : Fin 1024) :
    iblk3 V c 5 t (ix2 r k) = Vb3 V c main_v14 (ix2 r k) := by
  obtain ⟨e0, e1⟩ := idx3_5 t
  show Vb3 V c main_v14 (((cfg3.win 5).blk t).view.emb (ix2 r k)) = _
  refine congrArg _ (funext fun a => Fin.ext ?_)
  match a with
  | ⟨0, _⟩ => show win3_5.index t (0 : Fin 2) * 1 + 1 * r.val = r.val; omega
  | ⟨1, _⟩ => show win3_5.index t (1 : Fin 2) * 1024 + 1 * k.val = k.val; omega

/-- Window 6: its whole array at every point. -/
theorem iblk3_6_apply (V : Valuation τ sig (Elt F)) (c : Dev nD) (t : Fin cfg3.N) (r : Fin 1024) (k : Fin 512) :
    iblk3 V c 6 t (ix2 r k) = Vb3 V c main_v11 (ix2 r k) := by
  obtain ⟨e0, e1⟩ := idx3_6 t
  show Vb3 V c main_v11 (((cfg3.win 6).blk t).view.emb (ix2 r k)) = _
  refine congrArg _ (funext fun a => Fin.ext ?_)
  match a with
  | ⟨0, _⟩ => show win3_6.index t (0 : Fin 2) * 1024 + 1 * r.val = r.val; omega
  | ⟨1, _⟩ => show win3_6.index t (1 : Fin 2) * 512 + 1 * k.val = k.val; omega

/-- Window 7: its whole array at every point. -/
theorem iblk3_7_apply (V : Valuation τ sig (Elt F)) (c : Dev nD) (t : Fin cfg3.N) (r : Fin 1) (k : Fin 512) :
    iblk3 V c 7 t (ix2 r k) = Vb3 V c main_v15 (ix2 r k) := by
  obtain ⟨e0, e1⟩ := idx3_7 t
  show Vb3 V c main_v15 (((cfg3.win 7).blk t).view.emb (ix2 r k)) = _
  refine congrArg _ (funext fun a => Fin.ext ?_)
  match a with
  | ⟨0, _⟩ => show win3_7.index t (0 : Fin 2) * 1 + 1 * r.val = r.val; omega
  | ⟨1, _⟩ => show win3_7.index t (1 : Fin 2) * 512 + 1 * k.val = k.val; omega

/-- Window 8: its whole array at every point. -/
theorem iblk3_8_apply (V : Valuation τ sig (Elt F)) (c : Dev nD) (t : Fin cfg3.N) (r : Fin 512) (k : Fin 256) :
    iblk3 V c 8 t (ix2 r k) = Vb3 V c main_v12 (ix2 r k) := by
  obtain ⟨e0, e1⟩ := idx3_8 t
  show Vb3 V c main_v12 (((cfg3.win 8).blk t).view.emb (ix2 r k)) = _
  refine congrArg _ (funext fun a => Fin.ext ?_)
  match a with
  | ⟨0, _⟩ => show win3_8.index t (0 : Fin 2) * 512 + 1 * r.val = r.val; omega
  | ⟨1, _⟩ => show win3_8.index t (1 : Fin 2) * 256 + 1 * k.val = k.val; omega

/-- Window 9: its whole array at every point. -/
theorem iblk3_9_apply (V : Valuation τ sig (Elt F)) (c : Dev nD) (t : Fin cfg3.N) (r : Fin 1) (k : Fin 256) :
    iblk3 V c 9 t (ix2 r k) = Vb3 V c main_v16 (ix2 r k) := by
  obtain ⟨e0, e1⟩ := idx3_9 t
  show Vb3 V c main_v16 (((cfg3.win 9).blk t).view.emb (ix2 r k)) = _
  refine congrArg _ (funext fun a => Fin.ext ?_)
  match a with
  | ⟨0, _⟩ => show win3_9.index t (0 : Fin 2) * 1 + 1 * r.val = r.val; omega
  | ⟨1, _⟩ => show win3_9.index t (1 : Fin 2) * 256 + 1 * k.val = k.val; omega

/-- Window 10: its whole array at every point. -/
theorem iblk3_10_apply (V : Valuation τ sig (Elt F)) (c : Dev nD) (t : Fin cfg3.N) (r : Fin 256) (k : Fin 1) :
    iblk3 V c 10 t (ix2 r k) = Vb3 V c main_v13 (ix2 r k) := by
  obtain ⟨e0, e1⟩ := idx3_10 t
  show Vb3 V c main_v13 (((cfg3.win 10).blk t).view.emb (ix2 r k)) = _
  refine congrArg _ (funext fun a => Fin.ext ?_)
  match a with
  | ⟨0, _⟩ => show win3_10.index t (0 : Fin 2) * 256 + 1 * r.val = r.val; omega
  | ⟨1, _⟩ => show win3_10.index t (1 : Fin 2) * 1 + 1 * k.val = k.val; omega

/-- Window 11: its whole array at every point. -/
theorem iblk3_11_apply (V : Valuation τ sig (Elt F)) (c : Dev nD) (t : Fin cfg3.N) (r : Fin 1) (k : Fin 1) :
    iblk3 V c 11 t (ix2 r k) = Vb3 V c main_v9 (ix2 r k) := by
  obtain ⟨e0, e1⟩ := idx3_11 t
  show Vb3 V c main_v9 (((cfg3.win 11).blk t).view.emb (ix2 r k)) = _
  refine congrArg _ (funext fun a => Fin.ext ?_)
  match a with
  | ⟨0, _⟩ => show win3_11.index t (0 : Fin 2) * 1 + 1 * r.val = r.val; omega
  | ⟨1, _⟩ => show win3_11.index t (1 : Fin 2) * 1 + 1 * k.val = k.val; omega

/-- Window 12: block 4 · 0 + t of the gathered-rows array. -/
theorem iblk3_12_apply (V : Valuation τ sig (Elt F)) (c : Dev nD) (t : Fin cfg3.N) (r : Fin 512) (k : Fin 128) :
    iblk3 V c 12 t (ix2 r k) = Vb3 V c main_v30 (ix2 (⟨512 * (4 * 0 + t.val) + r.val, by have := t.isLt; have : cfg3.N = 4 := rfl; omega⟩ : Fin 53248) k) := by
  obtain ⟨e0, e1⟩ := idx3_12 t
  show Vb3 V c main_v30 (((cfg3.win 12).blk t).view.emb (ix2 r k)) = _
  refine congrArg _ (funext fun a => Fin.ext ?_)
  match a with
  | ⟨0, _⟩ => show win3_12.index t (0 : Fin 2) * 512 + 1 * r.val = 512 * (4 * 0 + t.val) + r.val; omega
  | ⟨1, _⟩ => show win3_12.index t (1 : Fin 2) * 128 + 1 * k.val = k.val; omega

/-- Window 13: block 4 · 1 + t of the gathered-rows array. -/
theorem iblk3_13_apply (V : Valuation τ sig (Elt F)) (c : Dev nD) (t : Fin cfg3.N) (r : Fin 512) (k : Fin 128) :
    iblk3 V c 13 t (ix2 r k) = Vb3 V c main_v30 (ix2 (⟨512 * (4 * 1 + t.val) + r.val, by have := t.isLt; have : cfg3.N = 4 := rfl; omega⟩ : Fin 53248) k) := by
  obtain ⟨e0, e1⟩ := idx3_13 t
  show Vb3 V c main_v30 (((cfg3.win 13).blk t).view.emb (ix2 r k)) = _
  refine congrArg _ (funext fun a => Fin.ext ?_)
  match a with
  | ⟨0, _⟩ => show win3_13.index t (0 : Fin 2) * 512 + 1 * r.val = 512 * (4 * 1 + t.val) + r.val; omega
  | ⟨1, _⟩ => show win3_13.index t (1 : Fin 2) * 128 + 1 * k.val = k.val; omega

/-- Window 14: block 4 · 2 + t of the gathered-rows array. -/
theorem iblk3_14_apply (V : Valuation τ sig (Elt F)) (c : Dev nD) (t : Fin cfg3.N) (r : Fin 512) (k : Fin 128) :
    iblk3 V c 14 t (ix2 r k) = Vb3 V c main_v30 (ix2 (⟨512 * (4 * 2 + t.val) + r.val, by have := t.isLt; have : cfg3.N = 4 := rfl; omega⟩ : Fin 53248) k) := by
  obtain ⟨e0, e1⟩ := idx3_14 t
  show Vb3 V c main_v30 (((cfg3.win 14).blk t).view.emb (ix2 r k)) = _
  refine congrArg _ (funext fun a => Fin.ext ?_)
  match a with
  | ⟨0, _⟩ => show win3_14.index t (0 : Fin 2) * 512 + 1 * r.val = 512 * (4 * 2 + t.val) + r.val; omega
  | ⟨1, _⟩ => show win3_14.index t (1 : Fin 2) * 128 + 1 * k.val = k.val; omega

/-- Window 15: block 4 · 3 + t of the gathered-rows array. -/
theorem iblk3_15_apply (V : Valuation τ sig (Elt F)) (c : Dev nD) (t : Fin cfg3.N) (r : Fin 512) (k : Fin 128) :
    iblk3 V c 15 t (ix2 r k) = Vb3 V c main_v30 (ix2 (⟨512 * (4 * 3 + t.val) + r.val, by have := t.isLt; have : cfg3.N = 4 := rfl; omega⟩ : Fin 53248) k) := by
  obtain ⟨e0, e1⟩ := idx3_15 t
  show Vb3 V c main_v30 (((cfg3.win 15).blk t).view.emb (ix2 r k)) = _
  refine congrArg _ (funext fun a => Fin.ext ?_)
  match a with
  | ⟨0, _⟩ => show win3_15.index t (0 : Fin 2) * 512 + 1 * r.val = 512 * (4 * 3 + t.val) + r.val; omega
  | ⟨1, _⟩ => show win3_15.index t (1 : Fin 2) * 128 + 1 * k.val = k.val; omega

/-- Window 16: block 4 · 4 + t of the gathered-rows array. -/
theorem iblk3_16_apply (V : Valuation τ sig (Elt F)) (c : Dev nD) (t : Fin cfg3.N) (r : Fin 512) (k : Fin 128) :
    iblk3 V c 16 t (ix2 r k) = Vb3 V c main_v30 (ix2 (⟨512 * (4 * 4 + t.val) + r.val, by have := t.isLt; have : cfg3.N = 4 := rfl; omega⟩ : Fin 53248) k) := by
  obtain ⟨e0, e1⟩ := idx3_16 t
  show Vb3 V c main_v30 (((cfg3.win 16).blk t).view.emb (ix2 r k)) = _
  refine congrArg _ (funext fun a => Fin.ext ?_)
  match a with
  | ⟨0, _⟩ => show win3_16.index t (0 : Fin 2) * 512 + 1 * r.val = 512 * (4 * 4 + t.val) + r.val; omega
  | ⟨1, _⟩ => show win3_16.index t (1 : Fin 2) * 128 + 1 * k.val = k.val; omega

/-- Window 17: block 4 · 5 + t of the gathered-rows array. -/
theorem iblk3_17_apply (V : Valuation τ sig (Elt F)) (c : Dev nD) (t : Fin cfg3.N) (r : Fin 512) (k : Fin 128) :
    iblk3 V c 17 t (ix2 r k) = Vb3 V c main_v30 (ix2 (⟨512 * (4 * 5 + t.val) + r.val, by have := t.isLt; have : cfg3.N = 4 := rfl; omega⟩ : Fin 53248) k) := by
  obtain ⟨e0, e1⟩ := idx3_17 t
  show Vb3 V c main_v30 (((cfg3.win 17).blk t).view.emb (ix2 r k)) = _
  refine congrArg _ (funext fun a => Fin.ext ?_)
  match a with
  | ⟨0, _⟩ => show win3_17.index t (0 : Fin 2) * 512 + 1 * r.val = 512 * (4 * 5 + t.val) + r.val; omega
  | ⟨1, _⟩ => show win3_17.index t (1 : Fin 2) * 128 + 1 * k.val = k.val; omega

/-- Window 18: block 4 · 6 + t of the gathered-rows array. -/
theorem iblk3_18_apply (V : Valuation τ sig (Elt F)) (c : Dev nD) (t : Fin cfg3.N) (r : Fin 512) (k : Fin 128) :
    iblk3 V c 18 t (ix2 r k) = Vb3 V c main_v30 (ix2 (⟨512 * (4 * 6 + t.val) + r.val, by have := t.isLt; have : cfg3.N = 4 := rfl; omega⟩ : Fin 53248) k) := by
  obtain ⟨e0, e1⟩ := idx3_18 t
  show Vb3 V c main_v30 (((cfg3.win 18).blk t).view.emb (ix2 r k)) = _
  refine congrArg _ (funext fun a => Fin.ext ?_)
  match a with
  | ⟨0, _⟩ => show win3_18.index t (0 : Fin 2) * 512 + 1 * r.val = 512 * (4 * 6 + t.val) + r.val; omega
  | ⟨1, _⟩ => show win3_18.index t (1 : Fin 2) * 128 + 1 * k.val = k.val; omega

/-- Window 19: block 4 · 7 + t of the gathered-rows array. -/
theorem iblk3_19_apply (V : Valuation τ sig (Elt F)) (c : Dev nD) (t : Fin cfg3.N) (r : Fin 512) (k : Fin 128) :
    iblk3 V c 19 t (ix2 r k) = Vb3 V c main_v30 (ix2 (⟨512 * (4 * 7 + t.val) + r.val, by have := t.isLt; have : cfg3.N = 4 := rfl; omega⟩ : Fin 53248) k) := by
  obtain ⟨e0, e1⟩ := idx3_19 t
  show Vb3 V c main_v30 (((cfg3.win 19).blk t).view.emb (ix2 r k)) = _
  refine congrArg _ (funext fun a => Fin.ext ?_)
  match a with
  | ⟨0, _⟩ => show win3_19.index t (0 : Fin 2) * 512 + 1 * r.val = 512 * (4 * 7 + t.val) + r.val; omega
  | ⟨1, _⟩ => show win3_19.index t (1 : Fin 2) * 128 + 1 * k.val = k.val; omega

/-- Window 20: block 4 · 8 + t of the gathered-rows array. -/
theorem iblk3_20_apply (V : Valuation τ sig (Elt F)) (c : Dev nD) (t : Fin cfg3.N) (r : Fin 512) (k : Fin 128) :
    iblk3 V c 20 t (ix2 r k) = Vb3 V c main_v30 (ix2 (⟨512 * (4 * 8 + t.val) + r.val, by have := t.isLt; have : cfg3.N = 4 := rfl; omega⟩ : Fin 53248) k) := by
  obtain ⟨e0, e1⟩ := idx3_20 t
  show Vb3 V c main_v30 (((cfg3.win 20).blk t).view.emb (ix2 r k)) = _
  refine congrArg _ (funext fun a => Fin.ext ?_)
  match a with
  | ⟨0, _⟩ => show win3_20.index t (0 : Fin 2) * 512 + 1 * r.val = 512 * (4 * 8 + t.val) + r.val; omega
  | ⟨1, _⟩ => show win3_20.index t (1 : Fin 2) * 128 + 1 * k.val = k.val; omega

/-- Window 21: block 4 · 9 + t of the gathered-rows array. -/
theorem iblk3_21_apply (V : Valuation τ sig (Elt F)) (c : Dev nD) (t : Fin cfg3.N) (r : Fin 512) (k : Fin 128) :
    iblk3 V c 21 t (ix2 r k) = Vb3 V c main_v30 (ix2 (⟨512 * (4 * 9 + t.val) + r.val, by have := t.isLt; have : cfg3.N = 4 := rfl; omega⟩ : Fin 53248) k) := by
  obtain ⟨e0, e1⟩ := idx3_21 t
  show Vb3 V c main_v30 (((cfg3.win 21).blk t).view.emb (ix2 r k)) = _
  refine congrArg _ (funext fun a => Fin.ext ?_)
  match a with
  | ⟨0, _⟩ => show win3_21.index t (0 : Fin 2) * 512 + 1 * r.val = 512 * (4 * 9 + t.val) + r.val; omega
  | ⟨1, _⟩ => show win3_21.index t (1 : Fin 2) * 128 + 1 * k.val = k.val; omega

/-- Window 22: block 4 · 10 + t of the gathered-rows array. -/
theorem iblk3_22_apply (V : Valuation τ sig (Elt F)) (c : Dev nD) (t : Fin cfg3.N) (r : Fin 512) (k : Fin 128) :
    iblk3 V c 22 t (ix2 r k) = Vb3 V c main_v30 (ix2 (⟨512 * (4 * 10 + t.val) + r.val, by have := t.isLt; have : cfg3.N = 4 := rfl; omega⟩ : Fin 53248) k) := by
  obtain ⟨e0, e1⟩ := idx3_22 t
  show Vb3 V c main_v30 (((cfg3.win 22).blk t).view.emb (ix2 r k)) = _
  refine congrArg _ (funext fun a => Fin.ext ?_)
  match a with
  | ⟨0, _⟩ => show win3_22.index t (0 : Fin 2) * 512 + 1 * r.val = 512 * (4 * 10 + t.val) + r.val; omega
  | ⟨1, _⟩ => show win3_22.index t (1 : Fin 2) * 128 + 1 * k.val = k.val; omega

/-- Window 23: block 4 · 11 + t of the gathered-rows array. -/
theorem iblk3_23_apply (V : Valuation τ sig (Elt F)) (c : Dev nD) (t : Fin cfg3.N) (r : Fin 512) (k : Fin 128) :
    iblk3 V c 23 t (ix2 r k) = Vb3 V c main_v30 (ix2 (⟨512 * (4 * 11 + t.val) + r.val, by have := t.isLt; have : cfg3.N = 4 := rfl; omega⟩ : Fin 53248) k) := by
  obtain ⟨e0, e1⟩ := idx3_23 t
  show Vb3 V c main_v30 (((cfg3.win 23).blk t).view.emb (ix2 r k)) = _
  refine congrArg _ (funext fun a => Fin.ext ?_)
  match a with
  | ⟨0, _⟩ => show win3_23.index t (0 : Fin 2) * 512 + 1 * r.val = 512 * (4 * 11 + t.val) + r.val; omega
  | ⟨1, _⟩ => show win3_23.index t (1 : Fin 2) * 128 + 1 * k.val = k.val; omega

/-- Window 24: block 4 · 12 + t of the gathered-rows array. -/
theorem iblk3_24_apply (V : Valuation τ sig (Elt F)) (c : Dev nD) (t : Fin cfg3.N) (r : Fin 512) (k : Fin 128) :
    iblk3 V c 24 t (ix2 r k) = Vb3 V c main_v30 (ix2 (⟨512 * (4 * 12 + t.val) + r.val, by have := t.isLt; have : cfg3.N = 4 := rfl; omega⟩ : Fin 53248) k) := by
  obtain ⟨e0, e1⟩ := idx3_24 t
  show Vb3 V c main_v30 (((cfg3.win 24).blk t).view.emb (ix2 r k)) = _
  refine congrArg _ (funext fun a => Fin.ext ?_)
  match a with
  | ⟨0, _⟩ => show win3_24.index t (0 : Fin 2) * 512 + 1 * r.val = 512 * (4 * 12 + t.val) + r.val; omega
  | ⟨1, _⟩ => show win3_24.index t (1 : Fin 2) * 128 + 1 * k.val = k.val; omega

/-- Window 25: block 4 · 13 + t of the gathered-rows array. -/
theorem iblk3_25_apply (V : Valuation τ sig (Elt F)) (c : Dev nD) (t : Fin cfg3.N) (r : Fin 512) (k : Fin 128) :
    iblk3 V c 25 t (ix2 r k) = Vb3 V c main_v30 (ix2 (⟨512 * (4 * 13 + t.val) + r.val, by have := t.isLt; have : cfg3.N = 4 := rfl; omega⟩ : Fin 53248) k) := by
  obtain ⟨e0, e1⟩ := idx3_25 t
  show Vb3 V c main_v30 (((cfg3.win 25).blk t).view.emb (ix2 r k)) = _
  refine congrArg _ (funext fun a => Fin.ext ?_)
  match a with
  | ⟨0, _⟩ => show win3_25.index t (0 : Fin 2) * 512 + 1 * r.val = 512 * (4 * 13 + t.val) + r.val; omega
  | ⟨1, _⟩ => show win3_25.index t (1 : Fin 2) * 128 + 1 * k.val = k.val; omega

/-- Window 26: block 4 · 14 + t of the gathered-rows array. -/
theorem iblk3_26_apply (V : Valuation τ sig (Elt F)) (c : Dev nD) (t : Fin cfg3.N) (r : Fin 512) (k : Fin 128) :
    iblk3 V c 26 t (ix2 r k) = Vb3 V c main_v30 (ix2 (⟨512 * (4 * 14 + t.val) + r.val, by have := t.isLt; have : cfg3.N = 4 := rfl; omega⟩ : Fin 53248) k) := by
  obtain ⟨e0, e1⟩ := idx3_26 t
  show Vb3 V c main_v30 (((cfg3.win 26).blk t).view.emb (ix2 r k)) = _
  refine congrArg _ (funext fun a => Fin.ext ?_)
  match a with
  | ⟨0, _⟩ => show win3_26.index t (0 : Fin 2) * 512 + 1 * r.val = 512 * (4 * 14 + t.val) + r.val; omega
  | ⟨1, _⟩ => show win3_26.index t (1 : Fin 2) * 128 + 1 * k.val = k.val; omega

/-- Window 27: block 4 · 15 + t of the gathered-rows array. -/
theorem iblk3_27_apply (V : Valuation τ sig (Elt F)) (c : Dev nD) (t : Fin cfg3.N) (r : Fin 512) (k : Fin 128) :
    iblk3 V c 27 t (ix2 r k) = Vb3 V c main_v30 (ix2 (⟨512 * (4 * 15 + t.val) + r.val, by have := t.isLt; have : cfg3.N = 4 := rfl; omega⟩ : Fin 53248) k) := by
  obtain ⟨e0, e1⟩ := idx3_27 t
  show Vb3 V c main_v30 (((cfg3.win 27).blk t).view.emb (ix2 r k)) = _
  refine congrArg _ (funext fun a => Fin.ext ?_)
  match a with
  | ⟨0, _⟩ => show win3_27.index t (0 : Fin 2) * 512 + 1 * r.val = 512 * (4 * 15 + t.val) + r.val; omega
  | ⟨1, _⟩ => show win3_27.index t (1 : Fin 2) * 128 + 1 * k.val = k.val; omega

/-- Window 28: block 4 · 16 + t of the gathered-rows array. -/
theorem iblk3_28_apply (V : Valuation τ sig (Elt F)) (c : Dev nD) (t : Fin cfg3.N) (r : Fin 512) (k : Fin 128) :
    iblk3 V c 28 t (ix2 r k) = Vb3 V c main_v30 (ix2 (⟨512 * (4 * 16 + t.val) + r.val, by have := t.isLt; have : cfg3.N = 4 := rfl; omega⟩ : Fin 53248) k) := by
  obtain ⟨e0, e1⟩ := idx3_28 t
  show Vb3 V c main_v30 (((cfg3.win 28).blk t).view.emb (ix2 r k)) = _
  refine congrArg _ (funext fun a => Fin.ext ?_)
  match a with
  | ⟨0, _⟩ => show win3_28.index t (0 : Fin 2) * 512 + 1 * r.val = 512 * (4 * 16 + t.val) + r.val; omega
  | ⟨1, _⟩ => show win3_28.index t (1 : Fin 2) * 128 + 1 * k.val = k.val; omega

/-- Window 29: block 4 · 17 + t of the gathered-rows array. -/
theorem iblk3_29_apply (V : Valuation τ sig (Elt F)) (c : Dev nD) (t : Fin cfg3.N) (r : Fin 512) (k : Fin 128) :
    iblk3 V c 29 t (ix2 r k) = Vb3 V c main_v30 (ix2 (⟨512 * (4 * 17 + t.val) + r.val, by have := t.isLt; have : cfg3.N = 4 := rfl; omega⟩ : Fin 53248) k) := by
  obtain ⟨e0, e1⟩ := idx3_29 t
  show Vb3 V c main_v30 (((cfg3.win 29).blk t).view.emb (ix2 r k)) = _
  refine congrArg _ (funext fun a => Fin.ext ?_)
  match a with
  | ⟨0, _⟩ => show win3_29.index t (0 : Fin 2) * 512 + 1 * r.val = 512 * (4 * 17 + t.val) + r.val; omega
  | ⟨1, _⟩ => show win3_29.index t (1 : Fin 2) * 128 + 1 * k.val = k.val; omega

/-- Window 30: block 4 · 18 + t of the gathered-rows array. -/
theorem iblk3_30_apply (V : Valuation τ sig (Elt F)) (c : Dev nD) (t : Fin cfg3.N) (r : Fin 512) (k : Fin 128) :
    iblk3 V c 30 t (ix2 r k) = Vb3 V c main_v30 (ix2 (⟨512 * (4 * 18 + t.val) + r.val, by have := t.isLt; have : cfg3.N = 4 := rfl; omega⟩ : Fin 53248) k) := by
  obtain ⟨e0, e1⟩ := idx3_30 t
  show Vb3 V c main_v30 (((cfg3.win 30).blk t).view.emb (ix2 r k)) = _
  refine congrArg _ (funext fun a => Fin.ext ?_)
  match a with
  | ⟨0, _⟩ => show win3_30.index t (0 : Fin 2) * 512 + 1 * r.val = 512 * (4 * 18 + t.val) + r.val; omega
  | ⟨1, _⟩ => show win3_30.index t (1 : Fin 2) * 128 + 1 * k.val = k.val; omega

/-- Window 31: block 4 · 19 + t of the gathered-rows array. -/
theorem iblk3_31_apply (V : Valuation τ sig (Elt F)) (c : Dev nD) (t : Fin cfg3.N) (r : Fin 512) (k : Fin 128) :
    iblk3 V c 31 t (ix2 r k) = Vb3 V c main_v30 (ix2 (⟨512 * (4 * 19 + t.val) + r.val, by have := t.isLt; have : cfg3.N = 4 := rfl; omega⟩ : Fin 53248) k) := by
  obtain ⟨e0, e1⟩ := idx3_31 t
  show Vb3 V c main_v30 (((cfg3.win 31).blk t).view.emb (ix2 r k)) = _
  refine congrArg _ (funext fun a => Fin.ext ?_)
  match a with
  | ⟨0, _⟩ => show win3_31.index t (0 : Fin 2) * 512 + 1 * r.val = 512 * (4 * 19 + t.val) + r.val; omega
  | ⟨1, _⟩ => show win3_31.index t (1 : Fin 2) * 128 + 1 * k.val = k.val; omega

/-- Window 32: block 4 · 20 + t of the gathered-rows array. -/
theorem iblk3_32_apply (V : Valuation τ sig (Elt F)) (c : Dev nD) (t : Fin cfg3.N) (r : Fin 512) (k : Fin 128) :
    iblk3 V c 32 t (ix2 r k) = Vb3 V c main_v30 (ix2 (⟨512 * (4 * 20 + t.val) + r.val, by have := t.isLt; have : cfg3.N = 4 := rfl; omega⟩ : Fin 53248) k) := by
  obtain ⟨e0, e1⟩ := idx3_32 t
  show Vb3 V c main_v30 (((cfg3.win 32).blk t).view.emb (ix2 r k)) = _
  refine congrArg _ (funext fun a => Fin.ext ?_)
  match a with
  | ⟨0, _⟩ => show win3_32.index t (0 : Fin 2) * 512 + 1 * r.val = 512 * (4 * 20 + t.val) + r.val; omega
  | ⟨1, _⟩ => show win3_32.index t (1 : Fin 2) * 128 + 1 * k.val = k.val; omega

/-- Window 33: block 4 · 21 + t of the gathered-rows array. -/
theorem iblk3_33_apply (V : Valuation τ sig (Elt F)) (c : Dev nD) (t : Fin cfg3.N) (r : Fin 512) (k : Fin 128) :
    iblk3 V c 33 t (ix2 r k) = Vb3 V c main_v30 (ix2 (⟨512 * (4 * 21 + t.val) + r.val, by have := t.isLt; have : cfg3.N = 4 := rfl; omega⟩ : Fin 53248) k) := by
  obtain ⟨e0, e1⟩ := idx3_33 t
  show Vb3 V c main_v30 (((cfg3.win 33).blk t).view.emb (ix2 r k)) = _
  refine congrArg _ (funext fun a => Fin.ext ?_)
  match a with
  | ⟨0, _⟩ => show win3_33.index t (0 : Fin 2) * 512 + 1 * r.val = 512 * (4 * 21 + t.val) + r.val; omega
  | ⟨1, _⟩ => show win3_33.index t (1 : Fin 2) * 128 + 1 * k.val = k.val; omega

/-- Window 34: block 4 · 22 + t of the gathered-rows array. -/
theorem iblk3_34_apply (V : Valuation τ sig (Elt F)) (c : Dev nD) (t : Fin cfg3.N) (r : Fin 512) (k : Fin 128) :
    iblk3 V c 34 t (ix2 r k) = Vb3 V c main_v30 (ix2 (⟨512 * (4 * 22 + t.val) + r.val, by have := t.isLt; have : cfg3.N = 4 := rfl; omega⟩ : Fin 53248) k) := by
  obtain ⟨e0, e1⟩ := idx3_34 t
  show Vb3 V c main_v30 (((cfg3.win 34).blk t).view.emb (ix2 r k)) = _
  refine congrArg _ (funext fun a => Fin.ext ?_)
  match a with
  | ⟨0, _⟩ => show win3_34.index t (0 : Fin 2) * 512 + 1 * r.val = 512 * (4 * 22 + t.val) + r.val; omega
  | ⟨1, _⟩ => show win3_34.index t (1 : Fin 2) * 128 + 1 * k.val = k.val; omega

/-- Window 35: block 4 · 23 + t of the gathered-rows array. -/
theorem iblk3_35_apply (V : Valuation τ sig (Elt F)) (c : Dev nD) (t : Fin cfg3.N) (r : Fin 512) (k : Fin 128) :
    iblk3 V c 35 t (ix2 r k) = Vb3 V c main_v30 (ix2 (⟨512 * (4 * 23 + t.val) + r.val, by have := t.isLt; have : cfg3.N = 4 := rfl; omega⟩ : Fin 53248) k) := by
  obtain ⟨e0, e1⟩ := idx3_35 t
  show Vb3 V c main_v30 (((cfg3.win 35).blk t).view.emb (ix2 r k)) = _
  refine congrArg _ (funext fun a => Fin.ext ?_)
  match a with
  | ⟨0, _⟩ => show win3_35.index t (0 : Fin 2) * 512 + 1 * r.val = 512 * (4 * 23 + t.val) + r.val; omega
  | ⟨1, _⟩ => show win3_35.index t (1 : Fin 2) * 128 + 1 * k.val = k.val; omega

/-- Window 36: block 4 · 24 + t of the gathered-rows array. -/
theorem iblk3_36_apply (V : Valuation τ sig (Elt F)) (c : Dev nD) (t : Fin cfg3.N) (r : Fin 512) (k : Fin 128) :
    iblk3 V c 36 t (ix2 r k) = Vb3 V c main_v30 (ix2 (⟨512 * (4 * 24 + t.val) + r.val, by have := t.isLt; have : cfg3.N = 4 := rfl; omega⟩ : Fin 53248) k) := by
  obtain ⟨e0, e1⟩ := idx3_36 t
  show Vb3 V c main_v30 (((cfg3.win 36).blk t).view.emb (ix2 r k)) = _
  refine congrArg _ (funext fun a => Fin.ext ?_)
  match a with
  | ⟨0, _⟩ => show win3_36.index t (0 : Fin 2) * 512 + 1 * r.val = 512 * (4 * 24 + t.val) + r.val; omega
  | ⟨1, _⟩ => show win3_36.index t (1 : Fin 2) * 128 + 1 * k.val = k.val; omega

/-- Window 37: block 4 · 25 + t of the gathered-rows array. -/
theorem iblk3_37_apply (V : Valuation τ sig (Elt F)) (c : Dev nD) (t : Fin cfg3.N) (r : Fin 512) (k : Fin 128) :
    iblk3 V c 37 t (ix2 r k) = Vb3 V c main_v30 (ix2 (⟨512 * (4 * 25 + t.val) + r.val, by have := t.isLt; have : cfg3.N = 4 := rfl; omega⟩ : Fin 53248) k) := by
  obtain ⟨e0, e1⟩ := idx3_37 t
  show Vb3 V c main_v30 (((cfg3.win 37).blk t).view.emb (ix2 r k)) = _
  refine congrArg _ (funext fun a => Fin.ext ?_)
  match a with
  | ⟨0, _⟩ => show win3_37.index t (0 : Fin 2) * 512 + 1 * r.val = 512 * (4 * 25 + t.val) + r.val; omega
  | ⟨1, _⟩ => show win3_37.index t (1 : Fin 2) * 128 + 1 * k.val = k.val; omega

/-- The 26 field windows' blocks at point `t`, as one family. -/
def fieldBlk3 (V : Valuation τ sig (Elt F)) (c : Dev nD) (t : Fin cfg3.N) : Fin 26 → (⟨2, ![512, 128]⟩ : Shape).Idx → Elt F .f32 :=
  ![iblk3 V c 12 t, iblk3 V c 13 t, iblk3 V c 14 t, iblk3 V c 15 t, iblk3 V c 16 t, iblk3 V c 17 t, iblk3 V c 18 t, iblk3 V c 19 t, iblk3 V c 20 t, iblk3 V c 21 t, iblk3 V c 22 t, iblk3 V c 23 t, iblk3 V c 24 t, iblk3 V c 25 t, iblk3 V c 26 t, iblk3 V c 27 t, iblk3 V c 28 t, iblk3 V c 29 t, iblk3 V c 30 t, iblk3 V c 31 t, iblk3 V c 32 t, iblk3 V c 33 t, iblk3 V c 34 t, iblk3 V c 35 t, iblk3 V c 36 t, iblk3 V c 37 t]

/-- Field `f`'s block at point `t` is block 4 f + t of the gathered-rows array. -/
theorem fieldBlk3_apply (V : Valuation τ sig (Elt F)) (c : Dev nD) (t : Fin cfg3.N) (f : Fin 26) (r : Fin 512) (k : Fin 128) :
    fieldBlk3 V c t f (ix2 r k)
      = Vb3 V c main_v30 (ix2 (⟨512 * (4 * f.val + t.val) + r.val, by have := t.isLt; have := f.isLt; have : cfg3.N = 4 := rfl; omega⟩ : Fin 53248) k) := by
  match f with
  | ⟨0, _⟩ => exact iblk3_12_apply V c t r k
  | ⟨1, _⟩ => exact iblk3_13_apply V c t r k
  | ⟨2, _⟩ => exact iblk3_14_apply V c t r k
  | ⟨3, _⟩ => exact iblk3_15_apply V c t r k
  | ⟨4, _⟩ => exact iblk3_16_apply V c t r k
  | ⟨5, _⟩ => exact iblk3_17_apply V c t r k
  | ⟨6, _⟩ => exact iblk3_18_apply V c t r k
  | ⟨7, _⟩ => exact iblk3_19_apply V c t r k
  | ⟨8, _⟩ => exact iblk3_20_apply V c t r k
  | ⟨9, _⟩ => exact iblk3_21_apply V c t r k
  | ⟨10, _⟩ => exact iblk3_22_apply V c t r k
  | ⟨11, _⟩ => exact iblk3_23_apply V c t r k
  | ⟨12, _⟩ => exact iblk3_24_apply V c t r k
  | ⟨13, _⟩ => exact iblk3_25_apply V c t r k
  | ⟨14, _⟩ => exact iblk3_26_apply V c t r k
  | ⟨15, _⟩ => exact iblk3_27_apply V c t r k
  | ⟨16, _⟩ => exact iblk3_28_apply V c t r k
  | ⟨17, _⟩ => exact iblk3_29_apply V c t r k
  | ⟨18, _⟩ => exact iblk3_30_apply V c t r k
  | ⟨19, _⟩ => exact iblk3_31_apply V c t r k
  | ⟨20, _⟩ => exact iblk3_32_apply V c t r k
  | ⟨21, _⟩ => exact iblk3_33_apply V c t r k
  | ⟨22, _⟩ => exact iblk3_34_apply V c t r k
  | ⟨23, _⟩ => exact iblk3_35_apply V c t r k
  | ⟨24, _⟩ => exact iblk3_36_apply V c t r k
  | ⟨25, _⟩ => exact iblk3_37_apply V c t r k
  | ⟨n + 26, h⟩ => exact absurd h (by omega)

/-! ## Pipeline call 1: its result array after the write-backs -/

/-- The body's output block at point `t`, row `r`, from the windows' blocks at `t`. -/
def body3 (V : Valuation τ sig (Elt F)) (c : Dev nD) (t : Fin cfg3.N) (r : Fin 512) : Elt F .f32 :=
  tcOut3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t) (iblk3 V c 26 t) (iblk3 V c 27 t) (iblk3 V c 28 t) (iblk3 V c 29 t) (iblk3 V c 30 t) (iblk3 V c 31 t) (iblk3 V c 32 t) (iblk3 V c 33 t) (iblk3 V c 34 t) (iblk3 V c 35 t) (iblk3 V c 36 t) (iblk3 V c 37 t) (ix2 r (0 : Fin 1))

/-- One function of the array's index whose block at every point is what that point writes back. -/
def G3 (V : Valuation τ sig (Elt F)) (c : Dev nD) : Buf (Elt F) ((c : Thread nD τ).loc main_v33) :=
  fun i => body3 V c (⟨min (((i 0).val - 2048) / 512) 3, by have : cfg3.N = 4 := rfl; omega⟩ : Fin cfg3.N) (⟨((i 0).val - 2048) % 512, Nat.mod_lt _ (by decide)⟩ : Fin 512)

/-- An index of the result array is in point `t`'s block iff each coordinate is in the block's range on its axis. -/
theorem mem_blk3 (t : Fin cfg3.N) (i : S4096x1.Idx) :
    i ∈ ((cfg3.win 38).blk t).view.set ↔ ∀ a : Fin 2, win3_38.index t a * S512x1.size a ≤ (i a).val ∧ (i a).val < win3_38.index t a * S512x1.size a + S512x1.size a := by
  show i ∈ ((View.whole main_v33).slice (win3_38.rect t)).set ↔ _
  rw [View.set_slice_whole, Rect.mem_set_unit]
  exact Iff.rfl

/-- What point `t` writes back is block `t` of that function. -/
theorem flushed3_eq (V : Valuation τ sig (Elt F)) (c : Dev nD) (t : Fin cfg3.N) :
    (dats3 V 0 ∅ c).flushed 38 t = ((cfg3.win 38).blk t).view.read (Elt F) (G3 V c) := by
  show (cfg3.win 38).cut (grid3.coords t) ((dats3 V 0 ∅ c).after 38 t) = _
  rw [after3_38]
  obtain ⟨e0, e1⟩ := idx3_38 t
  have ht4 : t.val < 4 := t.isLt
  funext j
  obtain ⟨r, z, rfl⟩ : ∃ (r : Fin 512) (z : Fin 1), j = ix2 r z := ⟨j 0, j 1, eq_ix2 j⟩
  obtain rfl : z = 0 := Subsingleton.elim _ _
  show body3 V c t r = G3 V c (((cfg3.win 38).blk t).view.emb (ix2 r (0 : Fin 1)))
  have h0 : ((((cfg3.win 38).blk t).view.emb (ix2 r (0 : Fin 1))) 0).val = 2048 + 512 * t.val + r.val := by
    show win3_38.index t (0 : Fin 2) * 512 + 1 * r.val = _; omega
  unfold G3
  have hT : (⟨min ((((((cfg3.win 38).blk t).view.emb (ix2 r (0 : Fin 1))) 0).val - 2048) / 512) 3, by have : cfg3.N = 4 := rfl; omega⟩ : Fin cfg3.N) = t := Fin.ext (by show min _ 3 = t.val; rw [h0]; omega)
  have hR : (⟨(((((cfg3.win 38).blk t).view.emb (ix2 r (0 : Fin 1))) 0).val - 2048) % 512, Nat.mod_lt _ (by decide)⟩ : Fin 512) = r := Fin.ext (by show _ % 512 = r.val; rw [h0]; omega)
  rw [hT, hR]

/-- Where point `t` wrote: the body's output block at `t`. -/
theorem resOf3_written (V : Valuation τ sig (Elt F)) (c : Dev nD) (t : Fin cfg3.N) (r : Fin 512) :
    resOf3 V c (ix2 (⟨2048 + 512 * t.val + r.val, by have := t.isLt; have : cfg3.N = 4 := rfl; omega⟩ : Fin 4096) (0 : Fin 1)) = body3 V c t r := by
  obtain ⟨e0, e1⟩ := idx3_38 t
  have ht4 : t.val < 4 := t.isLt
  unfold resOf3
  rw [(dats3 V 0 ∅ c).arrAt_eq_piecewise 38 (G3 V c) (fun t _ => flushed3_eq V c t)]
  rw [if_pos ⟨t, flush3_38 t, (mem_blk3 t _).mpr (fun a => by
    match a with
    | ⟨0, _⟩ => show win3_38.index t (0 : Fin 2) * 512 ≤ 2048 + 512 * t.val + r.val ∧ 2048 + 512 * t.val + r.val < win3_38.index t (0 : Fin 2) * 512 + 512; omega
    | ⟨1, _⟩ => show win3_38.index t (1 : Fin 2) * 1 ≤ 0 ∧ 0 < win3_38.index t (1 : Fin 2) * 1 + 1; omega)⟩]
  unfold G3
  have hT : (⟨min ((2048 + 512 * t.val + r.val - 2048) / 512) 3, by have : cfg3.N = 4 := rfl; omega⟩ : Fin cfg3.N) = t := Fin.ext (by show min _ 3 = t.val; omega)
  have hR : (⟨(2048 + 512 * t.val + r.val - 2048) % 512, Nat.mod_lt _ (by decide)⟩ : Fin 512) = r := Fin.ext (by show _ % 512 = r.val; omega)
  exact congrArg₂ (body3 V c) hT hR

/-- Where no point wrote: the array's contents at the region's entry. -/
theorem resOf3_kept (V : Valuation τ sig (Elt F)) (c : Dev nD) (b : Fin 4096) (hb : b.val < 2048) :
    resOf3 V c (ix2 b (0 : Fin 1)) = Vb3 V c main_v33 (ix2 b (0 : Fin 1)) := by
  unfold resOf3
  rw [(dats3 V 0 ∅ c).arrAt_eq_piecewise 38 (G3 V c) (fun t _ => flushed3_eq V c t)]
  rw [if_neg (fun ⟨t, _, hi⟩ => by
    obtain ⟨e0, e1⟩ := idx3_38 t
    have ht4 : t.val < 4 := t.isLt
    have h0 : win3_38.index t (0 : Fin 2) * 512 ≤ b.val ∧ b.val < win3_38.index t (0 : Fin 2) * 512 + 512 := ((mem_blk3 t _).mp hi) 0
    omega)]
  rw [A3_eq]

end Cert.Proof.BlockReads

end
-- ==== Proof.HostReads.lean ====
/-
  What the pipelines' windows read, as functions of the launch memory: the contents of each window's array when its
  pipeline is entered, at the extended reals (where narrowing a float format changes nothing).
-/
import proofs.«205278_g66915590471714_cont_9to1_m_383_35_alg».proof.Proof.Keep
import Idealize.ShloMosaic.Lib.ValueIdx
import Idealize.ShloMosaic.Lib.ValueLayout
import Idealize.ShloMosaic.Lib.Pipeline.Value

set_option maxRecDepth 65536

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe Idealize.ShloMosaic.ValueIdx

/-- The one entry of a one-entry array of extended reals. -/
abbrev rd1 (x : S1.Idx → EReal) : EReal := x (ix1 (0 : Fin 1))

/-! ### Reads moved across the steps that do not write the buffer -/

section Moves

variable (m : (ℓ : Loc nD τ sig) → Buf (Elt Ideal) ℓ) (d : Dev nD) (f : Buf (Elt Ideal) (out0Loc d))
  (g : Buf (Elt Ideal) (res0Loc d)) (f' : Buf (Elt Ideal) (out1Loc d))

/-- A buffer the first stretch does not write holds its launch contents after it. -/
theorem Va_eq_Vl (r : Ref sig .tc) (h0 : r ∉ wrote0) : Va m d (Proc.devRef .tc r) = Vl m d (Proc.devRef .tc r) := by
  unfold Va; exact keep0 _ r h0
/-- A buffer neither the first call nor the second stretch writes is unchanged by them. -/
theorem Vc_eq_Va (r : Ref sig .tc) (h1 : r ∉ wrote1) (h22 : Proc.devRef (τ := τ) .tc r ≠ Proc.devRef .tc main_v22) :
    Vc m d f (Proc.devRef .tc r) = Va m d (Proc.devRef .tc r) := by
  unfold Vc Vb; rw [keep1 _ r h1, Function.update_of_ne h22]
/-- The same of the first pipeline, the third stretch and the second call. -/
theorem Vf_eq_Vc (r : Ref sig .tc) (h30 : Proc.devRef (τ := τ) .tc r ≠ Proc.devRef .tc main_v30) (h2 : r ∉ wrote2)
    (h25 : Proc.devRef (τ := τ) .tc r ≠ Proc.devRef .tc main_v25) :
    Vf m d f g f' (Proc.devRef .tc r) = Vc m d f (Proc.devRef .tc r) := by
  unfold Vf Ve Vd; rw [Function.update_of_ne h30, keep2 _ r h2, Function.update_of_ne h25]
/-- And of the fourth stretch. -/
theorem Vg_eq_Vf (r : Ref sig .tc) (h3 : r ∉ wrote3) : Vg m d f g f' (Proc.devRef .tc r) = Vf m d f g f' (Proc.devRef .tc r) := by
  unfold Vg; exact keep3 _ r h3
/-- Together: what the second pipeline finds in a buffer only the first stretch may have written. -/
theorem Vg_eq_Va (r : Ref sig .tc) (h3 : r ∉ wrote3) (h30 : Proc.devRef (τ := τ) .tc r ≠ Proc.devRef .tc main_v30) (h2 : r ∉ wrote2)
    (h25 : Proc.devRef (τ := τ) .tc r ≠ Proc.devRef .tc main_v25) (h1 : r ∉ wrote1)
    (h22 : Proc.devRef (τ := τ) .tc r ≠ Proc.devRef .tc main_v22) :
    Vg m d f g f' (Proc.devRef .tc r) = Va m d (Proc.devRef .tc r) := by
  rw [Vg_eq_Vf m d f g f' r h3, Vf_eq_Vc m d f g f' r h30 h2 h25, Vc_eq_Va m d f r h1 h22]

/-! ### What the first stretch leaves in the buffers it writes for the pipelines -/

theorem Va_v10 : Va m d (Proc.devRef .tc main_v10) = (m ((d.tc : Thread nD τ).loc main_arg8)) := by
  unfold Va; dsimp only [hostOps0]; after_results; rfl
theorem Va_v11 : Va m d (Proc.devRef .tc main_v11) = (m ((d.tc : Thread nD τ).loc main_arg10)) := by
  unfold Va; dsimp only [hostOps0]; after_results; rfl
theorem Va_v12 : Va m d (Proc.devRef .tc main_v12) = (m ((d.tc : Thread nD τ).loc main_arg12)) := by
  unfold Va; dsimp only [hostOps0]; after_results; rfl
theorem Va_v13 : Va m d (Proc.devRef .tc main_v13) = (m ((d.tc : Thread nD τ).loc main_arg14)) := by
  unfold Va; dsimp only [hostOps0]; after_results; rfl
theorem Va_v14 (j : Fin 1024) : Va m d (Proc.devRef .tc main_v14) (ix2 (0 : Fin 1) j) = (m ((d.tc : Thread nD τ).loc main_arg9)) (ix1 j) := by
  unfold Va; dsimp only [hostOps0]; after_results
  exact shapeCast_a_1a_apply _ _ 0 j
theorem Va_v15 (j : Fin 512) : Va m d (Proc.devRef .tc main_v15) (ix2 (0 : Fin 1) j) = (m ((d.tc : Thread nD τ).loc main_arg11)) (ix1 j) := by
  unfold Va; dsimp only [hostOps0]; after_results
  exact shapeCast_a_1a_apply _ _ 0 j
theorem Va_v16 (j : Fin 256) : Va m d (Proc.devRef .tc main_v16) (ix2 (0 : Fin 1) j) = (m ((d.tc : Thread nD τ).loc main_arg13)) (ix1 j) := by
  unfold Va; dsimp only [hostOps0]; after_results
  exact shapeCast_a_1a_apply _ _ 0 j
theorem Va_v9 :
    Va m d (Proc.devRef .tc main_v9) (ix2 (0 : Fin 1) (0 : Fin 1))
      = (rd1 (m ((d.tc : Thread nD τ).loc main_arg5)) + rd1 (m ((d.tc : Thread nD τ).loc main_arg7))) + rd1 (m ((d.tc : Thread nD τ).loc main_arg15)) := by
  unfold Va; dsimp only [hostOps0]; after_results
  exact shapeCast_a_1a_apply _ _ 0 0

end Moves

section HostReads

variable (m : (ℓ : Loc nD τ sig) → Buf (Elt Ideal) ℓ) (d : Dev nD)

/-! ### When the first pipeline is entered (after the second host stretch), whatever the first gather call left -/

variable (f : Buf (Elt Ideal) (out0Loc d))

theorem Vc_v23 (b : Fin 2048) (k : Fin 143) :
    Vc m d f (Proc.devRef .tc main_v23) (ix2 b k) = (m ((d.tc : Thread nD τ).loc main_arg0)) (ix2 (⟨b.val, by omega⟩ : Fin 4096) k) := by
  unfold Vc; dsimp only [hostOps1]; after_results
  unfold Vb; rw [Function.update_of_ne (by decide), Va_eq_Vl m d main_arg0 (by decide)]
  exact extractStridedSlice_apply ![0, 0] _ _ (ix2 b k) (ix2 (⟨b.val, by omega⟩ : Fin 4096) k) (fun a => by
    match a with
    | 0 => show b.val = 0 + b.val; omega
    | 1 => show k.val = 0 + k.val; omega)
theorem Vc_v24 (b : Fin 2048) (k : Fin 13) :
    Vc m d f (Proc.devRef .tc main_v24) (ix2 b k) = (m ((d.tc : Thread nD τ).loc main_arg2)) (ix2 (⟨b.val, by omega⟩ : Fin 4096) k) := by
  unfold Vc; dsimp only [hostOps1]; after_results
  unfold Vb; rw [Function.update_of_ne (by decide), Va_eq_Vl m d main_arg2 (by decide)]
  exact extractStridedSlice_apply ![0, 0] _ _ (ix2 b k) (ix2 (⟨b.val, by omega⟩ : Fin 4096) k) (fun a => by
    match a with
    | 0 => show b.val = 0 + b.val; omega
    | 1 => show k.val = 0 + k.val; omega)
theorem Vc_arg4 : Vc m d f (Proc.devRef .tc main_arg4) = (m ((d.tc : Thread nD τ).loc main_arg4)) := by
  rw [Vc_eq_Va m d f main_arg4 (by decide) (by decide), Va_eq_Vl m d main_arg4 (by decide)]
theorem Vc_arg6 : Vc m d f (Proc.devRef .tc main_arg6) = (m ((d.tc : Thread nD τ).loc main_arg6)) := by
  rw [Vc_eq_Va m d f main_arg6 (by decide) (by decide), Va_eq_Vl m d main_arg6 (by decide)]
theorem Vc_v10 : Vc m d f (Proc.devRef .tc main_v10) = (m ((d.tc : Thread nD τ).loc main_arg8)) := by
  rw [Vc_eq_Va m d f main_v10 (by decide) (by decide)]
  exact Va_v10 m d
theorem Vc_v14 (j : Fin 1024) : Vc m d f (Proc.devRef .tc main_v14) (ix2 (0 : Fin 1) j) = (m ((d.tc : Thread nD τ).loc main_arg9)) (ix1 j) := by
  rw [Vc_eq_Va m d f main_v14 (by decide) (by decide)]
  exact Va_v14 m d j
theorem Vc_v11 : Vc m d f (Proc.devRef .tc main_v11) = (m ((d.tc : Thread nD τ).loc main_arg10)) := by
  rw [Vc_eq_Va m d f main_v11 (by decide) (by decide)]
  exact Va_v11 m d
theorem Vc_v15 (j : Fin 512) : Vc m d f (Proc.devRef .tc main_v15) (ix2 (0 : Fin 1) j) = (m ((d.tc : Thread nD τ).loc main_arg11)) (ix1 j) := by
  rw [Vc_eq_Va m d f main_v15 (by decide) (by decide)]
  exact Va_v15 m d j
theorem Vc_v12 : Vc m d f (Proc.devRef .tc main_v12) = (m ((d.tc : Thread nD τ).loc main_arg12)) := by
  rw [Vc_eq_Va m d f main_v12 (by decide) (by decide)]
  exact Va_v12 m d
theorem Vc_v16 (j : Fin 256) : Vc m d f (Proc.devRef .tc main_v16) (ix2 (0 : Fin 1) j) = (m ((d.tc : Thread nD τ).loc main_arg13)) (ix1 j) := by
  rw [Vc_eq_Va m d f main_v16 (by decide) (by decide)]
  exact Va_v16 m d j
theorem Vc_v13 : Vc m d f (Proc.devRef .tc main_v13) = (m ((d.tc : Thread nD τ).loc main_arg14)) := by
  rw [Vc_eq_Va m d f main_v13 (by decide) (by decide)]
  exact Va_v13 m d
theorem Vc_v9 :
    Vc m d f (Proc.devRef .tc main_v9) (ix2 (0 : Fin 1) (0 : Fin 1))
      = (rd1 (m ((d.tc : Thread nD τ).loc main_arg5)) + rd1 (m ((d.tc : Thread nD τ).loc main_arg7))) + rd1 (m ((d.tc : Thread nD τ).loc main_arg15)) := by
  rw [Vc_eq_Va m d f main_v9 (by decide) (by decide)]
  exact Va_v9 m d
theorem Vc_v22 : Vc m d f (Proc.devRef .tc main_v22) = f := by
  unfold Vc Vb; rw [keep1 _ main_v22 (by decide), Function.update_self]

/-! ### When the second pipeline is entered (after the fourth host stretch) -/

variable (g : Buf (Elt Ideal) (res0Loc d)) (f' : Buf (Elt Ideal) (out1Loc d))

theorem Vg_v31 (b : Fin 2048) (k : Fin 143) :
    Vg m d f g f' (Proc.devRef .tc main_v31) (ix2 b k) = (m ((d.tc : Thread nD τ).loc main_arg0)) (ix2 (⟨2048 + b.val, by omega⟩ : Fin 4096) k) := by
  unfold Vg; dsimp only [hostOps3]; after_results
  rw [Vf_eq_Vc m d f g f' main_arg0 (by decide) (by decide) (by decide), Vc_eq_Va m d f main_arg0 (by decide) (by decide), Va_eq_Vl m d main_arg0 (by decide)]
  exact extractStridedSlice_apply ![2048, 0] _ _ (ix2 b k) (ix2 (⟨2048 + b.val, by omega⟩ : Fin 4096) k) (fun a => by
    match a with
    | 0 => rfl
    | 1 => show k.val = 0 + k.val; omega)
theorem Vg_v32 (b : Fin 2048) (k : Fin 13) :
    Vg m d f g f' (Proc.devRef .tc main_v32) (ix2 b k) = (m ((d.tc : Thread nD τ).loc main_arg2)) (ix2 (⟨2048 + b.val, by omega⟩ : Fin 4096) k) := by
  unfold Vg; dsimp only [hostOps3]; after_results
  rw [Vf_eq_Vc m d f g f' main_arg2 (by decide) (by decide) (by decide), Vc_eq_Va m d f main_arg2 (by decide) (by decide), Va_eq_Vl m d main_arg2 (by decide)]
  exact extractStridedSlice_apply ![2048, 0] _ _ (ix2 b k) (ix2 (⟨2048 + b.val, by omega⟩ : Fin 4096) k) (fun a => by
    match a with
    | 0 => rfl
    | 1 => show k.val = 0 + k.val; omega)
theorem Vg_arg4 : Vg m d f g f' (Proc.devRef .tc main_arg4) = (m ((d.tc : Thread nD τ).loc main_arg4)) := by
  rw [Vg_eq_Va m d f g f' main_arg4 (by decide) (by decide) (by decide) (by decide) (by decide) (by decide), Va_eq_Vl m d main_arg4 (by decide)]
theorem Vg_arg6 : Vg m d f g f' (Proc.devRef .tc main_arg6) = (m ((d.tc : Thread nD τ).loc main_arg6)) := by
  rw [Vg_eq_Va m d f g f' main_arg6 (by decide) (by decide) (by decide) (by decide) (by decide) (by decide), Va_eq_Vl m d main_arg6 (by decide)]
theorem Vg_v10 : Vg m d f g f' (Proc.devRef .tc main_v10) = (m ((d.tc : Thread nD τ).loc main_arg8)) := by
  rw [Vg_eq_Va m d f g f' main_v10 (by decide) (by decide) (by decide) (by decide) (by decide) (by decide)]
  exact Va_v10 m d
theorem Vg_v14 (j : Fin 1024) : Vg m d f g f' (Proc.devRef .tc main_v14) (ix2 (0 : Fin 1) j) = (m ((d.tc : Thread nD τ).loc main_arg9)) (ix1 j) := by
  rw [Vg_eq_Va m d f g f' main_v14 (by decide) (by decide) (by decide) (by decide) (by decide) (by decide)]
  exact Va_v14 m d j
theorem Vg_v11 : Vg m d f g f' (Proc.devRef .tc main_v11) = (m ((d.tc : Thread nD τ).loc main_arg10)) := by
  rw [Vg_eq_Va m d f g f' main_v11 (by decide) (by decide) (by decide) (by decide) (by decide) (by decide)]
  exact Va_v11 m d
theorem Vg_v15 (j : Fin 512) : Vg m d f g f' (Proc.devRef .tc main_v15) (ix2 (0 : Fin 1) j) = (m ((d.tc : Thread nD τ).loc main_arg11)) (ix1 j) := by
  rw [Vg_eq_Va m d f g f' main_v15 (by decide) (by decide) (by decide) (by decide) (by decide) (by decide)]
  exact Va_v15 m d j
theorem Vg_v12 : Vg m d f g f' (Proc.devRef .tc main_v12) = (m ((d.tc : Thread nD τ).loc main_arg12)) := by
  rw [Vg_eq_Va m d f g f' main_v12 (by decide) (by decide) (by decide) (by decide) (by decide) (by decide)]
  exact Va_v12 m d
theorem Vg_v16 (j : Fin 256) : Vg m d f g f' (Proc.devRef .tc main_v16) (ix2 (0 : Fin 1) j) = (m ((d.tc : Thread nD τ).loc main_arg13)) (ix1 j) := by
  rw [Vg_eq_Va m d f g f' main_v16 (by decide) (by decide) (by decide) (by decide) (by decide) (by decide)]
  exact Va_v16 m d j
theorem Vg_v13 : Vg m d f g f' (Proc.devRef .tc main_v13) = (m ((d.tc : Thread nD τ).loc main_arg14)) := by
  rw [Vg_eq_Va m d f g f' main_v13 (by decide) (by decide) (by decide) (by decide) (by decide) (by decide)]
  exact Va_v13 m d
theorem Vg_v9 :
    Vg m d f g f' (Proc.devRef .tc main_v9) (ix2 (0 : Fin 1) (0 : Fin 1))
      = (rd1 (m ((d.tc : Thread nD τ).loc main_arg5)) + rd1 (m ((d.tc : Thread nD τ).loc main_arg7))) + rd1 (m ((d.tc : Thread nD τ).loc main_arg15)) := by
  rw [Vg_eq_Va m d f g f' main_v9 (by decide) (by decide) (by decide) (by decide) (by decide) (by decide)]
  exact Va_v9 m d
theorem Vg_v30 : Vg m d f g f' (Proc.devRef .tc main_v30) = f' := by
  unfold Vg Vf; rw [keep3 _ main_v30 (by decide), Function.update_self]
/-- The result array as the second pipeline finds it: the fourth stretch copied the first pipeline's result into it. -/
theorem Vg_v33 : Vg m d f g f' (Proc.devRef .tc main_v33) = g := by
  unfold Vg; dsimp only [hostOps3]; after_results
  unfold Vf Ve Vd; rw [Function.update_of_ne (by decide), keep2 _ main_v25 (by decide), Function.update_self]
  rfl

end HostReads

end Cert.Proof.KI

end
-- ==== Proof.GathField.lean ====
/-
  What the gather calls leave, read at a row: row `2048 f + b` of a call's gathered-rows array is the embedding table's
  row that the categorical input's entry (b, f) — of the call's half of the batch — names in field f's table.
-/
import proofs.«205278_g66915590471714_cont_9to1_m_383_35_alg».proof.Proof.SetupV
import proofs.«205278_g66915590471714_cont_9to1_m_383_35_alg».proof.Proof.IdxFacts
import proofs.«205278_g66915590471714_cont_9to1_m_383_35_alg».proof.Proof.Spec
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open Idealize.SL.Sem

variable {F : FTy → Type} [FloatOps F]

/-! ## Words -/

/-- A word in [0, 999] plus 1000 f, for a field f < 26: no wrap; and the word's own reading. -/
theorem word_toNat (a : BitVec 32) (f : Fin 26) (h0 : IntOp.cmpi .sge a 0#32 = 1#1) (h1 : IntOp.cmpi .sle a 999#32 = 1#1) :
    (IntOp.addi a (IntOp.muli (BitVec.ofNat 32 f.val) 1000#32)).toNat = 1000 * f.val + a.toNat
      ∧ a.toNat ≤ 999 ∧ 0 ≤ a.toInt ∧ a.toInt ≤ 999 := by
  have hb : ∀ b : Bool, BitVec.ofBool b = 1#1 → b = true := by decide
  have h0' : (0#32).toInt ≤ a.toInt := by simpa [BitVec.sle] using hb _ h0
  have h1' : a.toInt ≤ (999#32).toInt := by simpa [BitVec.sle] using hb _ h1
  have e0 : (0#32).toInt = 0 := by decide
  have e1 : (999#32).toInt = 999 := by decide
  rw [e0] at h0'; rw [e1] at h1'
  have ea := BitVec.toInt_eq_toNat_cond a
  have hf := f.isLt
  have ha : a.toNat ≤ 999 := by split at ea <;> omega
  refine ⟨?_, ha, h0', h1'⟩
  show (a + BitVec.ofNat 32 f.val * 1000#32).toNat = _
  rw [BitVec.toNat_add, BitVec.toNat_mul, BitVec.toNat_ofNat]
  have e2 : f.val % 2 ^ 32 = f.val := Nat.mod_eq_of_lt (by omega)
  have e3 : f.val * 1000 % 2 ^ 32 = f.val * 1000 := Nat.mod_eq_of_lt (by omega)
  have e4 : (a.toNat + f.val * 1000) % 2 ^ 32 = a.toNat + f.val * 1000 := Nat.mod_eq_of_lt (by omega)
  show (a.toNat + f.val % 2 ^ 32 * 1000 % 2 ^ 32) % 2 ^ 32 = _
  rw [e2, e3, e4]
  omega

/-! ## The table and the lists, read at an index -/

/-- The table as the calls read it is the embedding table with its first two axes merged. -/
theorem tabC_eq (m : (ℓ : Loc nD τ sig) → Buf (Elt F) ℓ) (d : Dev nD) :
    tabC m d = shapeCast S26000x128 (StableHlo.launchContents m d (Proc.devRef .tc main_arg3)) shapeCasts_S26x1000x128_S26000x128 := by
  unfold tabC
  dsimp only [hostOps0]
  after_results
  rfl

/-- Its row `1000 f + l` is row `l` of field `f`'s table. -/
theorem tabC_apply (m : (ℓ : Loc nD τ sig) → Buf (Elt F) ℓ) (d : Dev nD) (f : Fin 26) (l : Fin 1000) (dd : Fin 128) (R : Fin 26000)
    (hR : R.val = 1000 * f.val + l.val) :
    tabC m d (ix2 R dd) = m ((d.tc : Thread nD τ).loc main_arg3) (ix3 f l dd) := by
  rw [tabC_eq]
  refine shapeCast_apply _ _ (ix2 R dd) (ix3 f l dd) ?_
  rw [Shape.rowMajor_val_three (d := ![26, 1000, 128]), Shape.rowMajor_val_two (d := ![26000, 128])]
  show (f.val * 1000 + l.val) * 128 + dd.val = R.val * 128 + dd.val
  rw [hR]; omega

/-- Rows cut from the flat indices from row `o` on, transposed and cut into lists: word `j` of list `k` of worker `w` is
    the entry (o + b, f) when `128 (13 w + k) + j = 2048 f + b`. -/
theorem lists_apply (g : IVec S4096x26 32) (o : Nat) (hs : S4096x26.Slices ![o, 0] S2048x26) (f : Fin 26) (b : Fin 2048)
    (w : Fin 32) (k : Fin 13) (j : Fin 128) (hr : 128 * (13 * w.val + k.val) + j.val = 2048 * f.val + b.val)
    (B : Fin 4096) (hB : B.val = o + b.val) :
    shapeCast S32x13x1x128 (shapeCast S416x1x128 (transpose S26x2048 [1, 0] (extractStridedSlice S2048x26 ![o, 0] g hs)
        transposes_S2048x26_S26x2048_1_0) shapeCasts_S26x2048_S416x1x128) shapeCasts_S416x1x128_S32x13x1x128
      (ix4 w k (0 : Fin 1) j) = g (ix2 B f) := by
  have hw := w.isLt; have hk := k.isLt; have hj := j.isLt
  have ht : 13 * w.val + k.val < 416 := by omega
  refine (shapeCast_apply _ _ (ix4 w k (0 : Fin 1) j) (ix3 (⟨13 * w.val + k.val, ht⟩ : Fin 416) (0 : Fin 1) j) ?_).trans ?_
  · rw [Shape.rowMajor_val_three (d := ![416, 1, 128]), Shape.rowMajor_val_four (d := ![32, 13, 1, 128])]
    show ((13 * w.val + k.val) * 1 + 0) * 128 + j.val = ((w.val * 13 + k.val) * 1 + 0) * 128 + j.val
    omega
  refine (shapeCast_apply _ _ (ix3 (⟨13 * w.val + k.val, ht⟩ : Fin 416) (0 : Fin 1) j) (ix2 f b) ?_).trans ?_
  · rw [Shape.rowMajor_val_two (d := ![26, 2048]), Shape.rowMajor_val_three (d := ![416, 1, 128])]
    show f.val * 2048 + b.val = ((13 * w.val + k.val) * 1 + 0) * 128 + j.val
    omega
  refine (transpose_apply [1, 0] _ _ (ix2 f b) (ix2 b f) ?_).trans ?_
  · intro a
    match a with
    | 0 => rfl
    | 1 => rfl
  refine extractStridedSlice_apply ![o, 0] g hs (ix2 b f) (ix2 B f) ?_
  intro a
  match a with
  | 0 => exact hB
  | 1 => show f.val = 0 + f.val; omega

/-! ## The gathered rows are the spec's fields -/

section Field

variable (m : (ℓ : Loc nD τ sig) → Buf (Elt Ideal) ℓ) (hpre : PreOK m) (d : Dev nD)
include hpre

/-- A table row named through a flat index word is the spec's field. -/
theorem row_field (W : BitVec 32) (B : Fin 4096) (f : Fin 26) (dd : Fin 128) (hW : W = flat m d (ix2 B f)) :
    tabC m d (ix2 (capRow W) dd)
      = Spec.field (m ((d.tc : Thread nD τ).loc main_arg1)) (m ((d.tc : Thread nD τ).loc main_arg3)) B f dd := by
  subst hW
  obtain ⟨h0, h1⟩ := pre_arg1 m hpre d (ix2 B f)
  obtain ⟨hv, ha, hi0, hi1⟩ := word_toNat _ f h0 h1
  have hR : (capRow (flat m d (ix2 B f))).val
      = 1000 * f.val + (⟨(m ((d.tc : Thread nD τ).loc main_arg1) (ix2 B f)).toNat, by omega⟩ : Fin 1000).val := by
    rw [capRow_val_of_lt (flat_lt m hpre d _)]
    exact hv
  rw [tabC_apply m d f _ dd _ hR]
  unfold Spec.field
  refine congrArg (fun l => m ((d.tc : Thread nD τ).loc main_arg3) (ix3 f l dd)) (Fin.ext ?_)
  exact (Spec.rowOf_val_of_range hi0 hi1).symm

/-- Row `2048 f + b` of what call 0 leaves is field `f` of batch row `b`. -/
theorem gath_field0 (f : Fin 26) (b : Fin 2048) (dd : Fin 128) :
    gath (tabC m d) (ix0C m d) (ix2 (⟨2048 * f.val + b.val, by have := f.isLt; have := b.isLt; omega⟩ : Fin 53248) dd)
      = Spec.field (m ((d.tc : Thread nD τ).loc main_arg1)) (m ((d.tc : Thread nD τ).loc main_arg3))
          (⟨b.val, by have := b.isLt; omega⟩ : Fin 4096) f dd := by
  have hf := f.isLt; have hb := b.isLt
  have hX : ix0C m d (ix4 (⟨(2048 * f.val + b.val) / 128 / 13, by omega⟩ : Fin 32) (⟨(2048 * f.val + b.val) / 128 % 13, by omega⟩ : Fin 13)
      (0 : Fin 1) (⟨(2048 * f.val + b.val) % 128, by omega⟩ : Fin 128)) = flat m d (ix2 (⟨b.val, by omega⟩ : Fin 4096) f) := by
    rw [ix0C_eq]
    exact lists_apply (flat m d) 0 _ f b _ _ _ (by show 128 * (13 * ((2048 * f.val + b.val) / 128 / 13) + (2048 * f.val + b.val) / 128 % 13) + (2048 * f.val + b.val) % 128 = _; omega) _ (by show b.val = 0 + b.val; omega)
  exact row_field m hpre d _ _ f dd hX

/-- Row `2048 f + b` of what call 1 leaves is field `f` of batch row `2048 + b`. -/
theorem gath_field1 (f : Fin 26) (b : Fin 2048) (dd : Fin 128) :
    gath (tabC m d) (ix1C m d) (ix2 (⟨2048 * f.val + b.val, by have := f.isLt; have := b.isLt; omega⟩ : Fin 53248) dd)
      = Spec.field (m ((d.tc : Thread nD τ).loc main_arg1)) (m ((d.tc : Thread nD τ).loc main_arg3))
          (⟨2048 + b.val, by have := b.isLt; omega⟩ : Fin 4096) f dd := by
  have hf := f.isLt; have hb := b.isLt
  have hX : ix1C m d (ix4 (⟨(2048 * f.val + b.val) / 128 / 13, by omega⟩ : Fin 32) (⟨(2048 * f.val + b.val) / 128 % 13, by omega⟩ : Fin 13)
      (0 : Fin 1) (⟨(2048 * f.val + b.val) % 128, by omega⟩ : Fin 128)) = flat m d (ix2 (⟨2048 + b.val, by omega⟩ : Fin 4096) f) := by
    rw [ix1C_eq]
    exact lists_apply (flat m d) 2048 _ f b _ _ _ (by show 128 * (13 * ((2048 * f.val + b.val) / 128 / 13) + (2048 * f.val + b.val) / 128 % 13) + (2048 * f.val + b.val) % 128 = _; omega) _ rfl
  exact row_field m hpre d _ _ f dd hX

end Field

end Cert.Proof.KI

end
-- ==== Proof.Bridge.lean ====
/-
  The bridge: the kernel program's named result is the specification of its arguments.
-/
import proofs.«205278_g66915590471714_cont_9to1_m_383_35_alg».proof.Proof.MainV
import proofs.«205278_g66915590471714_cont_9to1_m_383_35_alg».proof.Proof.Spec
import proofs.«205278_g66915590471714_cont_9to1_m_383_35_alg».proof.Proof.TcValue
import proofs.«205278_g66915590471714_cont_9to1_m_383_35_alg».proof.Proof.BlockReads
import proofs.«205278_g66915590471714_cont_9to1_m_383_35_alg».proof.Proof.HostReads
import proofs.«205278_g66915590471714_cont_9to1_m_383_35_alg».proof.Proof.GathField

set_option maxRecDepth 65536
set_option maxHeartbeats 1000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.TcCoe Idealize.ShloMosaic.ValueIdx
open Cert.Proof.BlockReads

section Bridge

variable (m : (ℓ : Loc nD τ sig) → Buf (Elt Ideal) ℓ) (hpre : PreOK m) (c : Dev nD)

include hpre in
/-- What the first pipeline's body writes back at point `t`, row `r`, is the specification's row 512 t + r: its windows
    hold rows 512 t … of the first half's dense inputs, the weights whole, and the first half's gathered rows, which are
    the specification's fields. -/
theorem row0 (t : Fin cfg1.N) (r : Fin 512) :
    body1 (Vc m c (f0N m c)) c t r
      = Cert.Proof.Spec.GRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
          (⟨512 * t.val + r.val, by have := t.isLt; have : cfg1.N = 4 := rfl; omega⟩ : Fin 4096) := by
  have ht4 : t.val < 4 := t.isLt
  unfold body1
  rw [Cert.Proof.TcValue.tcOut1_apply]
  refine (Cert.Proof.TcValue.GBlk_eq_GRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    _ _ _ _ _ _ _ _ _ _ _ _ (fieldBlk1 (Vc m c (f0N m c)) c t) (fun r' : Fin 512 => (⟨512 * t.val + r'.val, by have := r'.isLt; omega⟩ : Fin 4096))
    (fun r' k => (iblk1_0_apply (Vc m c (f0N m c)) c t r' k).trans (Vc_v23 m c (f0N m c) ⟨512 * t.val + r'.val, by have := r'.isLt; omega⟩ k))
    (fun r' k => (iblk1_1_apply (Vc m c (f0N m c)) c t r' k).trans (Vc_v24 m c (f0N m c) ⟨512 * t.val + r'.val, by have := r'.isLt; omega⟩ k))
    (funext fun i => by
      obtain ⟨p, q, rfl⟩ : ∃ p q, i = ix2 p q := ⟨i 0, i 1, eq_ix2 i⟩
      rw [iblk1_2_apply]
      exact congrFun (Vc_arg4 m c (f0N m c)) _)
    (funext fun i => by
      obtain ⟨p, q, rfl⟩ : ∃ p q, i = ix2 p q := ⟨i 0, i 1, eq_ix2 i⟩
      rw [iblk1_3_apply]
      exact congrFun (Vc_arg6 m c (f0N m c)) _)
    (funext fun i => by
      obtain ⟨p, q, rfl⟩ : ∃ p q, i = ix2 p q := ⟨i 0, i 1, eq_ix2 i⟩
      rw [iblk1_4_apply]
      exact congrFun (Vc_v10 m c (f0N m c)) _)
    (fun j => (iblk1_5_apply (Vc m c (f0N m c)) c t 0 j).trans (Vc_v14 m c (f0N m c) j))
    (funext fun i => by
      obtain ⟨p, q, rfl⟩ : ∃ p q, i = ix2 p q := ⟨i 0, i 1, eq_ix2 i⟩
      rw [iblk1_6_apply]
      exact congrFun (Vc_v11 m c (f0N m c)) _)
    (fun j => (iblk1_7_apply (Vc m c (f0N m c)) c t 0 j).trans (Vc_v15 m c (f0N m c) j))
    (funext fun i => by
      obtain ⟨p, q, rfl⟩ : ∃ p q, i = ix2 p q := ⟨i 0, i 1, eq_ix2 i⟩
      rw [iblk1_8_apply]
      exact congrFun (Vc_v12 m c (f0N m c)) _)
    (fun j => (iblk1_9_apply (Vc m c (f0N m c)) c t 0 j).trans (Vc_v16 m c (f0N m c) j))
    (funext fun i => by
      obtain ⟨p, q, rfl⟩ : ∃ p q, i = ix2 p q := ⟨i 0, i 1, eq_ix2 i⟩
      rw [iblk1_10_apply]
      exact congrFun (Vc_v13 m c (f0N m c)) _)
    ((iblk1_11_apply (Vc m c (f0N m c)) c t 0 0).trans (Vc_v9 m c (f0N m c)))
    (fun f r' d => by
      have hf := f.isLt; have hr := r'.isLt
      rw [fieldBlk1_apply]
      rw [show Vb1 (Vc m c (f0N m c)) c main_v22 = f0N m c from Vc_v22 m c (f0N m c)]
      unfold f0N
      have e : (⟨512 * (4 * f.val + t.val) + r'.val, by omega⟩ : Fin 53248)
          = (⟨2048 * f.val + (⟨512 * t.val + r'.val, by omega⟩ : Fin 2048).val, by show 2048 * f.val + (512 * t.val + r'.val) < 53248; omega⟩ : Fin 53248) :=
        Fin.ext (by show 512 * (4 * f.val + t.val) + r'.val = 2048 * f.val + (512 * t.val + r'.val); omega)
      rw [e]
      exact gath_field0 m hpre c f ⟨512 * t.val + r'.val, by omega⟩ d)
    r)

include hpre in
/-- The same of the second pipeline, for row 2048 + 512 t + r. -/
theorem row1 (t : Fin cfg3.N) (r : Fin 512) :
    body3 (Vg m c (f0N m c) (g0N m c) (f1N m c)) c t r
      = Cert.Proof.Spec.GRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
          (⟨2048 + 512 * t.val + r.val, by have := t.isLt; have : cfg3.N = 4 := rfl; omega⟩ : Fin 4096) := by
  have ht4 : t.val < 4 := t.isLt
  unfold body3
  rw [Cert.Proof.TcValue.tcOut3_apply]
  refine (Cert.Proof.TcValue.GBlk_eq_GRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    _ _ _ _ _ _ _ _ _ _ _ _ (fieldBlk3 (Vg m c (f0N m c) (g0N m c) (f1N m c)) c t) (fun r' : Fin 512 => (⟨2048 + (512 * t.val + r'.val), by have := r'.isLt; omega⟩ : Fin 4096))
    (fun r' k => (iblk3_0_apply (Vg m c (f0N m c) (g0N m c) (f1N m c)) c t r' k).trans (Vg_v31 m c (f0N m c) (g0N m c) (f1N m c) ⟨512 * t.val + r'.val, by have := r'.isLt; omega⟩ k))
    (fun r' k => (iblk3_1_apply (Vg m c (f0N m c) (g0N m c) (f1N m c)) c t r' k).trans (Vg_v32 m c (f0N m c) (g0N m c) (f1N m c) ⟨512 * t.val + r'.val, by have := r'.isLt; omega⟩ k))
    (funext fun i => by
      obtain ⟨p, q, rfl⟩ : ∃ p q, i = ix2 p q := ⟨i 0, i 1, eq_ix2 i⟩
      rw [iblk3_2_apply]
      exact congrFun (Vg_arg4 m c (f0N m c) (g0N m c) (f1N m c)) _)
    (funext fun i => by
      obtain ⟨p, q, rfl⟩ : ∃ p q, i = ix2 p q := ⟨i 0, i 1, eq_ix2 i⟩
      rw [iblk3_3_apply]
      exact congrFun (Vg_arg6 m c (f0N m c) (g0N m c) (f1N m c)) _)
    (funext fun i => by
      obtain ⟨p, q, rfl⟩ : ∃ p q, i = ix2 p q := ⟨i 0, i 1, eq_ix2 i⟩
      rw [iblk3_4_apply]
      exact congrFun (Vg_v10 m c (f0N m c) (g0N m c) (f1N m c)) _)
    (fun j => (iblk3_5_apply (Vg m c (f0N m c) (g0N m c) (f1N m c)) c t 0 j).trans (Vg_v14 m c (f0N m c) (g0N m c) (f1N m c) j))
    (funext fun i => by
      obtain ⟨p, q, rfl⟩ : ∃ p q, i = ix2 p q := ⟨i 0, i 1, eq_ix2 i⟩
      rw [iblk3_6_apply]
      exact congrFun (Vg_v11 m c (f0N m c) (g0N m c) (f1N m c)) _)
    (fun j => (iblk3_7_apply (Vg m c (f0N m c) (g0N m c) (f1N m c)) c t 0 j).trans (Vg_v15 m c (f0N m c) (g0N m c) (f1N m c) j))
    (funext fun i => by
      obtain ⟨p, q, rfl⟩ : ∃ p q, i = ix2 p q := ⟨i 0, i 1, eq_ix2 i⟩
      rw [iblk3_8_apply]
      exact congrFun (Vg_v12 m c (f0N m c) (g0N m c) (f1N m c)) _)
    (fun j => (iblk3_9_apply (Vg m c (f0N m c) (g0N m c) (f1N m c)) c t 0 j).trans (Vg_v16 m c (f0N m c) (g0N m c) (f1N m c) j))
    (funext fun i => by
      obtain ⟨p, q, rfl⟩ : ∃ p q, i = ix2 p q := ⟨i 0, i 1, eq_ix2 i⟩
      rw [iblk3_10_apply]
      exact congrFun (Vg_v13 m c (f0N m c) (g0N m c) (f1N m c)) _)
    ((iblk3_11_apply (Vg m c (f0N m c) (g0N m c) (f1N m c)) c t 0 0).trans (Vg_v9 m c (f0N m c) (g0N m c) (f1N m c)))
    (fun f r' d => by
      have hf := f.isLt; have hr := r'.isLt
      rw [fieldBlk3_apply]
      rw [show Vb3 (Vg m c (f0N m c) (g0N m c) (f1N m c)) c main_v30 = f1N m c from Vg_v30 m c (f0N m c) (g0N m c) (f1N m c)]
      unfold f1N
      have e : (⟨512 * (4 * f.val + t.val) + r'.val, by omega⟩ : Fin 53248)
          = (⟨2048 * f.val + (⟨512 * t.val + r'.val, by omega⟩ : Fin 2048).val, by show 2048 * f.val + (512 * t.val + r'.val) < 53248; omega⟩ : Fin 53248) :=
        Fin.ext (by show 512 * (4 * f.val + t.val) + r'.val = 2048 * f.val + (512 * t.val + r'.val); omega)
      rw [e]
      exact gath_field1 m hpre c f ⟨512 * t.val + r'.val, by omega⟩ d)
    r).trans (congrArg (Cert.Proof.Spec.GRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (Fin.ext (by show 2048 + (512 * t.val + r.val) = 2048 + 512 * t.val + r.val; omega)))

include hpre in
/-- Under the precondition the second pipeline's result array is, row by row, the specification of the launch memory's
    argument arrays: rows below 2048 are the first pipeline's (copied into the result before the second runs, which
    writes only rows from 2048 on), rows from 2048 on the second's. -/
theorem bridge : g1N (F := Ideal) m c = Cert.Proof.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  funext i
  obtain ⟨b, z, rfl⟩ : ∃ (b : Fin 4096) (z : Fin 1), i = ix2 b z := ⟨i 0, i 1, eq_ix2 i⟩
  obtain rfl : z = 0 := Subsingleton.elim _ _
  rw [Cert.Proof.Spec.G_ix2]
  unfold g1N
  by_cases hb : b.val < 2048
  · rw [resOf3_kept _ c b hb]
    rw [show Vb3 (Vg m c (f0N m c) (g0N m c) (f1N m c)) c main_v33 = g0N m c from Vg_v33 m c (f0N m c) (g0N m c) (f1N m c)]
    unfold g0N
    have hbt : b.val / 512 < cfg1.N := by have : cfg1.N = 4 := rfl; omega
    have e : b = (⟨512 * (⟨b.val / 512, hbt⟩ : Fin cfg1.N).val + (⟨b.val % 512, Nat.mod_lt _ (by omega)⟩ : Fin 512).val, by
        have := b.isLt; show 512 * (b.val / 512) + b.val % 512 < 4096; omega⟩ : Fin 4096) := Fin.ext (by show b.val = 512 * (b.val / 512) + b.val % 512; omega)
    rw [e, resOf1_written _ c ⟨b.val / 512, hbt⟩ ⟨b.val % 512, Nat.mod_lt _ (by omega)⟩]
    exact row0 m hpre c ⟨b.val / 512, hbt⟩ ⟨b.val % 512, Nat.mod_lt _ (by omega)⟩
  · have hbt : (b.val - 2048) / 512 < cfg3.N := by have : cfg3.N = 4 := rfl; have := b.isLt; omega
    have e : b = (⟨2048 + 512 * (⟨(b.val - 2048) / 512, hbt⟩ : Fin cfg3.N).val + (⟨(b.val - 2048) % 512, Nat.mod_lt _ (by omega)⟩ : Fin 512).val, by
        have := b.isLt; show 2048 + 512 * ((b.val - 2048) / 512) + (b.val - 2048) % 512 < 4096; omega⟩ : Fin 4096) :=
      Fin.ext (by show b.val = 2048 + 512 * ((b.val - 2048) / 512) + (b.val - 2048) % 512; omega)
    rw [e, resOf3_written _ c ⟨(b.val - 2048) / 512, hbt⟩ ⟨(b.val - 2048) % 512, Nat.mod_lt _ (by omega)⟩]
    exact row1 m hpre c ⟨(b.val - 2048) / 512, hbt⟩ ⟨(b.val - 2048) % 512, Nat.mod_lt _ (by omega)⟩

end Bridge

end Cert.Proof.KI

end
-- ==== Proof.RefValue.lean ====
/-
  The reference's result, at the ideal instance, is the specification of the sixteen argument arrays.

  Stage by stage at an index built from its coordinates: the lookup's index vector (the field's number, the wrapped
  category word), the lookup itself (each start index read signed and brought into range), the three sums of the
  second-order part, the dense tower's input row (three pieces side by side, the last the 26 x 128 lanes re-laid as
  one row), the three rectified layers and the read-out, and their sum.
-/
import proofs.«205278_g66915590471714_cont_9to1_m_383_35_alg».proof.Proof.Gen.ReferenceIdeal.Run
import proofs.«205278_g66915590471714_cont_9to1_m_383_35_alg».proof.Proof.Gen.ReferenceIdeal.Read
import proofs.«205278_g66915590471714_cont_9to1_m_383_35_alg».proof.Proof.Spec

noncomputable section

namespace Cert.Proof.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Proof.Spec
open scoped BigOperators

/-! ## The lookup's index vector -/

/-- A field's number, as a word, is not negative: the wrap leaves it, -/
theorem fieldWord (f : Fin 26) :
    Scalar.select (IntOp.cmpi .slt (BitVec.ofNat 32 f.val) 0#32) (IntOp.addi (BitVec.ofNat 32 f.val) 26#32) (BitVec.ofNat 32 f.val) = BitVec.ofNat 32 f.val := by
  revert f; decide

/-- and read signed and brought into [0, 25] it is the field's number. -/
theorem fieldWord_row (f : Fin 26) : min (BitVec.ofNat 32 f.val).toInt.toNat 25 = f.val := by
  revert f; decide

/-- The reference's wrap of a category word is the specification's. -/
theorem select_wrap (w : BitVec 32) : Scalar.select (IntOp.cmpi .slt w 0#32) (IntOp.addi w 1000#32) w = wrapWord w := by
  unfold Scalar.select IntOp.cmpi IntOp.addi wrapWord
  cases h : w.slt 0#32 <;> simp

/-- Component 0 of the index vector at (b, f): the field's number. -/
theorem v24_at0 (x1 : (⟨S4096x26, .i32⟩ : BufTy).Contents (Elt Ideal)) (b : Fin 4096) (f : Fin 26) :
    val_main_v24 (F := Ideal) x1 (ix3 b f (0 : Fin 2)) = BitVec.ofNat 32 f.val := by
  unfold val_main_v24
  rw [concatenate_pair_apply_left (2 : Fin S4096x26x2.rank) _ _ concatenates_S4096x26x1_S4096x26x1_S4096x26x2_d2 (ix3 b f (0 : Fin 2)) rfl (ix3 b f (0 : Fin 1))
    (fun a => by match a with | ⟨0, _⟩ => rfl | ⟨1, _⟩ => rfl | ⟨2, _⟩ => rfl)]
  rw [val_main_v22_apply, val_main_v21_apply, val_main_v15_apply, val_main_v12_apply, val_main_v14_apply, val_main_v10_apply, val_main_v11_apply,
    val_main_v13_apply, val_main_v9_apply, val_main_c_apply, val_main_c_0_apply]
  exact fieldWord f

/-- Component 1 of the index vector at (b, f): the wrapped category word. -/
theorem v24_at1 (x1 : (⟨S4096x26, .i32⟩ : BufTy).Contents (Elt Ideal)) (b : Fin 4096) (f : Fin 26) :
    val_main_v24 (F := Ideal) x1 (ix3 b f (1 : Fin 2)) = wrapWord (x1 (ix2 b f)) := by
  unfold val_main_v24
  rw [concatenate_pair_apply_right (2 : Fin S4096x26x2.rank) _ _ concatenates_S4096x26x1_S4096x26x1_S4096x26x2_d2 (ix3 b f (1 : Fin 2)) rfl rfl (ix3 b f (0 : Fin 1))
    (fun a ha => by match a with | ⟨0, _⟩ => rfl | ⟨1, _⟩ => rfl | ⟨2, _⟩ => exact absurd rfl ha) rfl]
  rw [val_main_v23_apply, val_main_v20_apply, val_main_v17_apply, val_main_v19_apply, val_main_v16_apply, val_main_v18_apply, val_main_c_1_apply, val_main_c_2_apply]
  have hi : idx_main_v23 (ix3 b f (0 : Fin 1)) = ix2 b f := funext fun a => Fin.ext (by match a with | ⟨0, _⟩ => rfl | ⟨1, _⟩ => rfl)
  rw [hi]
  exact select_wrap _

/-! ## The lookup at an index -/

/-- The lookup at (b, f, d): the table at the two start indices, each read signed and brought into its axis' range,
    and lane d. -/
theorem gather_apply (x3 : S26x1000x128.Idx → EReal) (idx : IVec S4096x26x2 32) (b : Fin 4096) (f : Fin 26) (d : Fin 128)
    (A : Fin 26) (B : Fin 1000) (hA : min (idx (ix3 b f (0 : Fin 2))).toInt.toNat 25 = A.val)
    (hB : min (idx (ix3 b f (1 : Fin 2))).toInt.toNat 999 = B.val) :
    Host.gather gather_S26x1000x128_S4096x26x2_S4096x26x128_2_01_n_n_01_2_11128 x3 idx (ix3 b f d) = x3 (ix3 A B d) := by
  unfold Host.gather
  congr 1
  funext a
  refine Fin.ext ?_
  show gather_S26x1000x128_S4096x26x2_S4096x26x128_2_01_n_n_01_2_11128.start (ix3 b f d) idx a
      + gather_S26x1000x128_S4096x26x2_S4096x26x128_2_01_n_n_01_2_11128.batchCoord (ix3 b f d) a
      + gather_S26x1000x128_S4096x26x2_S4096x26x128_2_01_n_n_01_2_11128.offCoord (ix3 b f d) a = _
  rw [GatherDims.batchCoord_eq_zero _ _ _ List.not_mem_nil]
  match a with
  | ⟨0, _⟩ =>
    rw [GatherDims.offCoord_eq_zero _ _ _ (fun h => ((GatherDims.mem_sKept _ _).mp h).1 (by decide +revert))]
    simp only [Nat.add_zero]
    unfold GatherDims.start
    rw [dif_pos (show (⟨0, by decide⟩ : Fin S26x1000x128.rank) ∈ gather_S26x1000x128_S4096x26x2_S4096x26x128_2_01_n_n_01_2_11128.startIndexMap by decide)]
    have hsi : gather_S26x1000x128_S4096x26x2_S4096x26x128_2_01_n_n_01_2_11128.siIdx (ix3 b f d)
        ⟨List.idxOf (⟨0, by decide⟩ : Fin S26x1000x128.rank) gather_S26x1000x128_S4096x26x2_S4096x26x128_2_01_n_n_01_2_11128.startIndexMap,
          List.idxOf_lt_length_iff.2 (by decide)⟩ = ix3 b f (0 : Fin 2) := by
      funext c; refine Fin.ext ?_
      match c with
      | ⟨0, _⟩ => rfl
      | ⟨1, _⟩ => rfl
      | ⟨2, _⟩ => rfl
    rw [hsi]
    exact hA
  | ⟨1, _⟩ =>
    rw [GatherDims.offCoord_eq_zero _ _ _ (fun h => ((GatherDims.mem_sKept _ _).mp h).1 (by decide +revert))]
    simp only [Nat.add_zero]
    unfold GatherDims.start
    rw [dif_pos (show (⟨1, by decide⟩ : Fin S26x1000x128.rank) ∈ gather_S26x1000x128_S4096x26x2_S4096x26x128_2_01_n_n_01_2_11128.startIndexMap by decide)]
    have hsi : gather_S26x1000x128_S4096x26x2_S4096x26x128_2_01_n_n_01_2_11128.siIdx (ix3 b f d)
        ⟨List.idxOf (⟨1, by decide⟩ : Fin S26x1000x128.rank) gather_S26x1000x128_S4096x26x2_S4096x26x128_2_01_n_n_01_2_11128.startIndexMap,
          List.idxOf_lt_length_iff.2 (by decide)⟩ = ix3 b f (1 : Fin 2) := by
      funext c; refine Fin.ext ?_
      match c with
      | ⟨0, _⟩ => rfl
      | ⟨1, _⟩ => rfl
      | ⟨2, _⟩ => rfl
    rw [hsi]
    exact hB
  | ⟨2, _⟩ =>
    unfold GatherDims.start
    rw [dif_neg (show ¬ (⟨2, by decide⟩ : Fin S26x1000x128.rank) ∈ gather_S26x1000x128_S4096x26x2_S4096x26x128_2_01_n_n_01_2_11128.startIndexMap by decide)]
    unfold GatherDims.offCoord
    rw [dif_pos (show (⟨2, by decide⟩ : Fin S26x1000x128.rank) ∈ gather_S26x1000x128_S4096x26x2_S4096x26x128_2_01_n_n_01_2_11128.sKept by decide)]
    simp only [Nat.zero_add]
    rfl

/-- The gathered array at (b, f, d) is the specification's field embedding. -/
theorem v25_at (x1 : (⟨S4096x26, .i32⟩ : BufTy).Contents (Elt Ideal)) (x3 : (⟨S26x1000x128, .f32⟩ : BufTy).Contents (Elt Ideal))
    (b : Fin 4096) (f : Fin 26) (d : Fin 128) :
    val_main_v25 (F := Ideal) x1 x3 (ix3 b f d) = field x1 x3 b f d := by
  unfold val_main_v25 field
  exact gather_apply x3 _ b f d f (rowOf (x1 (ix2 b f))) (by rw [v24_at0]; exact fieldWord_row f) (by rw [v24_at1]; rfl)

/-! ## The second-order part -/

/-- Σ_f e_f at (b, d). -/
theorem v26_at (x1 : (⟨S4096x26, .i32⟩ : BufTy).Contents (Elt Ideal)) (x3 : (⟨S26x1000x128, .f32⟩ : BufTy).Contents (Elt Ideal)) (b : Fin 4096) (d : Fin 128) :
    val_main_v26 (F := Ideal) x1 x3 (ix2 b d) = ∑ f : Fin 26, field x1 x3 b f d := by
  rw [val_main_v26_apply, val_main_cst_apply, Ideal.ofBits_def, Ideal.ofBits_zero_f32, zero_add]
  refine Finset.sum_congr rfl fun f _ => ?_
  have hi : idx_main_v26 (ix2 b d) f = ix3 b f d := funext fun a => Fin.ext (by match a with | ⟨0, _⟩ => rfl | ⟨1, _⟩ => rfl | ⟨2, _⟩ => rfl)
  rw [hi, v25_at]

/-- Σ_f e_f² at (b, d). -/
theorem v29_at (x1 : (⟨S4096x26, .i32⟩ : BufTy).Contents (Elt Ideal)) (x3 : (⟨S26x1000x128, .f32⟩ : BufTy).Contents (Elt Ideal)) (b : Fin 4096) (d : Fin 128) :
    val_main_v29 (F := Ideal) x1 x3 (ix2 b d) = ∑ f : Fin 26, field x1 x3 b f d * field x1 x3 b f d := by
  rw [val_main_v29_apply, val_main_cst_3_apply, Ideal.ofBits_def, Ideal.ofBits_zero_f32, zero_add]
  refine Finset.sum_congr rfl fun f _ => ?_
  have hi : idx_main_v29 (ix2 b d) f = ix3 b f d := funext fun a => Fin.ext (by match a with | ⟨0, _⟩ => rfl | ⟨1, _⟩ => rfl | ⟨2, _⟩ => rfl)
  rw [hi, val_main_v28_apply, v25_at, Ideal.mulf_def]

/-- The second-order part at row b. -/
theorem v34_at (x1 : (⟨S4096x26, .i32⟩ : BufTy).Contents (Elt Ideal)) (x3 : (⟨S26x1000x128, .f32⟩ : BufTy).Contents (Elt Ideal)) (b : Fin 4096) (z : Fin 1) :
    val_main_v34 (F := Ideal) x1 x3 (ix2 b z) = second x1 x3 b := by
  rw [val_main_v34_apply, val_main_v33_apply, val_main_cst_5_apply, val_main_v32_apply, val_main_v31_apply, val_main_cst_4_apply,
    Ideal.ofBits_def, Ideal.ofBits_def, Ideal.ofBits_zero_f32, zero_add, Ideal.mulf_def]
  unfold second
  congr 1
  refine Finset.sum_congr rfl fun d _ => ?_
  have hi : idx_main_v31 (idx_main_v32 (ix2 b z)) d = ix2 b d := funext fun a => Fin.ext (by match a with | ⟨0, _⟩ => rfl | ⟨1, _⟩ => rfl)
  rw [hi, val_main_v30_apply, val_main_v27_apply, v26_at, v29_at, Ideal.subf_def, Ideal.mulf_def]

/-! ## The linear part -/

/-- The linear part at row b. -/
theorem v8_at (x0 : (⟨S4096x143, .f32⟩ : BufTy).Contents (Elt Ideal)) (x2 : (⟨S4096x13, .f32⟩ : BufTy).Contents (Elt Ideal)) (x4 : (⟨S143x1, .f32⟩ : BufTy).Contents (Elt Ideal)) (x5 : (⟨S1, .f32⟩ : BufTy).Contents (Elt Ideal)) (x6 : (⟨S13x1, .f32⟩ : BufTy).Contents (Elt Ideal)) (x7 : (⟨S1, .f32⟩ : BufTy).Contents (Elt Ideal)) (b : Fin 4096) (z : Fin 1) :
    val_main_v8 (F := Ideal) x0 x2 x4 x5 x6 x7 (ix2 b z) = linear x0 x2 x4 x5 x6 x7 b := by
  obtain rfl : z = 0 := Subsingleton.elim _ _
  rw [val_main_v8_apply, val_main_v3_apply, val_main_v7_apply, val_main_v0_apply, val_main_v4_apply, val_main_v2_apply, val_main_v1_apply,
    val_main_v6_apply, val_main_v5_apply, Ideal.addf_def, Ideal.addf_def, Ideal.addf_def]
  unfold linear
  have h5 : idx_main_v1 (idx_main_v2 (ix2 b (0 : Fin 1))) = ix1 (0 : Fin 1) := funext fun a => Fin.ext (by match a with | ⟨0, _⟩ => rfl)
  have h7 : idx_main_v5 (idx_main_v6 (ix2 b (0 : Fin 1))) = ix1 (0 : Fin 1) := funext fun a => Fin.ext (by match a with | ⟨0, _⟩ => rfl)
  rw [h5, h7]
  congr 2
  · refine Finset.sum_congr rfl fun k _ => ?_
    have hl : lidx_main_v0 (ix2 b (0 : Fin 1)) k = ix2 b k := funext fun a => Fin.ext (by match a with | ⟨0, _⟩ => rfl | ⟨1, _⟩ => rfl)
    have hr : ridx_main_v0 (ix2 b (0 : Fin 1)) k = ix2 k (0 : Fin 1) := funext fun a => Fin.ext (by match a with | ⟨0, _⟩ => rfl | ⟨1, _⟩ => rfl)
    rw [hl, hr]
  · refine Finset.sum_congr rfl fun k _ => ?_
    have hl : lidx_main_v4 (ix2 b (0 : Fin 1)) k = ix2 b k := funext fun a => Fin.ext (by match a with | ⟨0, _⟩ => rfl | ⟨1, _⟩ => rfl)
    have hr : ridx_main_v4 (ix2 b (0 : Fin 1)) k = ix2 k (0 : Fin 1) := funext fun a => Fin.ext (by match a with | ⟨0, _⟩ => rfl | ⟨1, _⟩ => rfl)
    rw [hl, hr]

/-! ## The dense tower -/

/-- The tower's input row at (b, k): a short category, a numeric feature, or a field's lane. -/
theorem v36_at (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (b : Fin 4096) (k : Fin 3484) :
    val_main_v36 (F := Ideal) x0 x1 x2 x3 (ix2 b k) = towerIn x0 x1 x2 x3 b k := by
  have hk := k.isLt
  unfold val_main_v36 towerIn
  by_cases h : k.val < 143
  · rw [dif_pos h]
    exact concatenate_apply_piece (1 : Fin S4096x3484.rank) ([⟨S4096x143, x0⟩, ⟨S4096x13, x2⟩, ⟨S4096x3328, val_main_v35 (F := Ideal) x1 x3⟩] : List ((s : Shape) × (s.Idx → EReal))) concatenates_S4096x143_S4096x13_S4096x3328_S4096x3484_d1 (ix2 b k)
      0 (by show (0 : ℕ) < 3; omega) S4096x143 x0 rfl rfl 0 rfl (ix2 b (⟨k.val, h⟩ : Fin 143))
      (fun a ha => by match a with | ⟨0, _⟩ => rfl | ⟨1, _⟩ => exact absurd rfl ha) (Nat.zero_add _)
  · rw [dif_neg h]
    by_cases h' : k.val < 156
    · rw [dif_pos h']
      exact concatenate_apply_piece (1 : Fin S4096x3484.rank) ([⟨S4096x143, x0⟩, ⟨S4096x13, x2⟩, ⟨S4096x3328, val_main_v35 (F := Ideal) x1 x3⟩] : List ((s : Shape) × (s.Idx → EReal))) concatenates_S4096x143_S4096x13_S4096x3328_S4096x3484_d1 (ix2 b k)
        1 (by show (1 : ℕ) < 3; omega) S4096x13 x2 rfl rfl 143 rfl (ix2 b (⟨k.val - 143, by omega⟩ : Fin 13))
        (fun a ha => by match a with | ⟨0, _⟩ => rfl | ⟨1, _⟩ => exact absurd rfl ha) (by show 143 + (k.val - 143) = k.val; omega)
    · rw [dif_neg h']
      rw [concatenate_apply_piece (1 : Fin S4096x3484.rank) ([⟨S4096x143, x0⟩, ⟨S4096x13, x2⟩, ⟨S4096x3328, val_main_v35 (F := Ideal) x1 x3⟩] : List ((s : Shape) × (s.Idx → EReal))) concatenates_S4096x143_S4096x13_S4096x3328_S4096x3484_d1 (ix2 b k)
        2 (by show (2 : ℕ) < 3; omega) S4096x3328 (val_main_v35 (F := Ideal) x1 x3) rfl rfl 156 rfl (ix2 b (⟨k.val - 156, by omega⟩ : Fin 3328))
        (fun a ha => by match a with | ⟨0, _⟩ => rfl | ⟨1, _⟩ => exact absurd rfl ha) (by show 156 + (k.val - 156) = k.val; omega)]
      rw [val_main_v35_apply]
      have hi : idx_main_v35 (ix2 b (⟨k.val - 156, by omega⟩ : Fin 3328))
          = ix3 b (⟨(k.val - 156) / 128, by omega⟩ : Fin 26) (⟨(k.val - 156) % 128, Nat.mod_lt _ (by decide)⟩ : Fin 128) :=
        funext fun a => Fin.ext (by
          match a with
          | ⟨0, _⟩ => show (b.val * 3328 + (k.val - 156)) / 3328 = b.val; omega
          | ⟨1, _⟩ => show (b.val * 3328 + (k.val - 156)) / 128 % 26 = (k.val - 156) / 128; omega
          | ⟨2, _⟩ => show (b.val * 3328 + (k.val - 156)) % 128 = (k.val - 156) % 128; omega)
      rw [hi, v25_at]

/-- The first rectified layer at (b, j). -/
theorem v41_at (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (x8 : (⟨S3484x1024, .f32⟩ : BufTy).Contents (Elt Ideal)) (x9 : (⟨S1024, .f32⟩ : BufTy).Contents (Elt Ideal)) (b : Fin 4096) (j : Fin 1024) :
    val_main_v41 (F := Ideal) x0 x1 x2 x3 x8 x9 (ix2 b j) = layer1 x0 x1 x2 x3 x8 x9 b j := by
  rw [val_main_v41_apply, val_main_v40_apply, val_main_v37_apply, val_main_v39_apply, val_main_v38_apply, val_main_call0_v0_apply, val_main_call0_cst_apply,
    Ideal.maximumf_def, Ideal.addf_def, Ideal.ofBits_def, Ideal.ofBits_zero_f32]
  unfold layer1
  have hb : idx_main_v38 (idx_main_v39 (ix2 b j)) = ix1 j := funext fun a => Fin.ext (by match a with | ⟨0, _⟩ => rfl)
  rw [hb]
  refine congrArg (fun s => max (s + x9 (ix1 j)) 0) (Finset.sum_congr rfl fun k _ => ?_)
  have hl : lidx_main_v37 (ix2 b j) k = ix2 b k := funext fun a => Fin.ext (by match a with | ⟨0, _⟩ => rfl | ⟨1, _⟩ => rfl)
  have hr : ridx_main_v37 (ix2 b j) k = ix2 k j := funext fun a => Fin.ext (by match a with | ⟨0, _⟩ => rfl | ⟨1, _⟩ => rfl)
  rw [hl, hr, v36_at]

/-- The second rectified layer at (b, j). -/
theorem v46_at (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (x8 : (⟨S3484x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (b : Fin 4096) (j : Fin 512) :
    val_main_v46 (F := Ideal) x0 x1 x2 x3 x8 x9 x10 x11 (ix2 b j) = layer2 x0 x1 x2 x3 x8 x9 x10 x11 b j := by
  rw [val_main_v46_apply, val_main_v45_apply, val_main_v42_apply, val_main_v44_apply, val_main_v43_apply, val_main_call1_v0_apply, val_main_call1_cst_apply,
    Ideal.maximumf_def, Ideal.addf_def, Ideal.ofBits_def, Ideal.ofBits_zero_f32]
  unfold layer2
  have hb : idx_main_v43 (idx_main_v44 (ix2 b j)) = ix1 j := funext fun a => Fin.ext (by match a with | ⟨0, _⟩ => rfl)
  rw [hb]
  refine congrArg (fun s => max (s + x11 (ix1 j)) 0) (Finset.sum_congr rfl fun k _ => ?_)
  have hl : lidx_main_v42 (ix2 b j) k = ix2 b k := funext fun a => Fin.ext (by match a with | ⟨0, _⟩ => rfl | ⟨1, _⟩ => rfl)
  have hr : ridx_main_v42 (ix2 b j) k = ix2 k j := funext fun a => Fin.ext (by match a with | ⟨0, _⟩ => rfl | ⟨1, _⟩ => rfl)
  rw [hl, hr, v41_at]

/-- The third rectified layer at (b, j). -/
theorem v51_at (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (x8 : (⟨S3484x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (b : Fin 4096) (j : Fin 256) :
    val_main_v51 (F := Ideal) x0 x1 x2 x3 x8 x9 x10 x11 x12 x13 (ix2 b j) = layer3 x0 x1 x2 x3 x8 x9 x10 x11 x12 x13 b j := by
  rw [val_main_v51_apply, val_main_v50_apply, val_main_v47_apply, val_main_v49_apply, val_main_v48_apply, val_main_call2_v0_apply, val_main_call2_cst_apply,
    Ideal.maximumf_def, Ideal.addf_def, Ideal.ofBits_def, Ideal.ofBits_zero_f32]
  unfold layer3
  have hb : idx_main_v48 (idx_main_v49 (ix2 b j)) = ix1 j := funext fun a => Fin.ext (by match a with | ⟨0, _⟩ => rfl)
  rw [hb]
  refine congrArg (fun s => max (s + x13 (ix1 j)) 0) (Finset.sum_congr rfl fun k _ => ?_)
  have hl : lidx_main_v47 (ix2 b j) k = ix2 b k := funext fun a => Fin.ext (by match a with | ⟨0, _⟩ => rfl | ⟨1, _⟩ => rfl)
  have hr : ridx_main_v47 (ix2 b j) k = ix2 k j := funext fun a => Fin.ext (by match a with | ⟨0, _⟩ => rfl | ⟨1, _⟩ => rfl)
  rw [hl, hr, v46_at]

/-- The read-out at row b. -/
theorem v55_at (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (x8 : (⟨S3484x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) (b : Fin 4096) (z : Fin 1) :
    val_main_v55 (F := Ideal) x0 x1 x2 x3 x8 x9 x10 x11 x12 x13 x14 x15 (ix2 b z) = tower x0 x1 x2 x3 x8 x9 x10 x11 x12 x13 x14 x15 b := by
  obtain rfl : z = 0 := Subsingleton.elim _ _
  rw [val_main_v55_apply, val_main_v52_apply, val_main_v54_apply, val_main_v53_apply, Ideal.addf_def]
  unfold tower
  have hb : idx_main_v53 (idx_main_v54 (ix2 b (0 : Fin 1))) = ix1 (0 : Fin 1) := funext fun a => Fin.ext (by match a with | ⟨0, _⟩ => rfl)
  rw [hb]
  refine congrArg (fun s => s + x15 (ix1 (0 : Fin 1))) (Finset.sum_congr rfl fun k _ => ?_)
  have hl : lidx_main_v52 (ix2 b (0 : Fin 1)) k = ix2 b k := funext fun a => Fin.ext (by match a with | ⟨0, _⟩ => rfl | ⟨1, _⟩ => rfl)
  have hr : ridx_main_v52 (ix2 b (0 : Fin 1)) k = ix2 k (0 : Fin 1) := funext fun a => Fin.ext (by match a with | ⟨0, _⟩ => rfl | ⟨1, _⟩ => rfl)
  rw [hl, hr, v51_at]

/-! ## The reference is the specification -/

/-- The reference's last stage, at the ideal instance, is the specification of the sixteen argument arrays. -/
theorem v57_is_G (x0 : (⟨S4096x143, .f32⟩ : BufTy).Contents (Elt Ideal)) (x1 : (⟨S4096x26, .i32⟩ : BufTy).Contents (Elt Ideal)) (x2 : (⟨S4096x13, .f32⟩ : BufTy).Contents (Elt Ideal)) (x3 : (⟨S26x1000x128, .f32⟩ : BufTy).Contents (Elt Ideal)) (x4 : (⟨S143x1, .f32⟩ : BufTy).Contents (Elt Ideal)) (x5 : (⟨S1, .f32⟩ : BufTy).Contents (Elt Ideal)) (x6 : (⟨S13x1, .f32⟩ : BufTy).Contents (Elt Ideal)) (x7 : (⟨S1, .f32⟩ : BufTy).Contents (Elt Ideal)) (x8 : (⟨S3484x1024, .f32⟩ : BufTy).Contents (Elt Ideal)) (x9 : (⟨S1024, .f32⟩ : BufTy).Contents (Elt Ideal)) (x10 : (⟨S1024x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) :
    val_main_v57 (F := Ideal) x0 x1 x2 x3 x4 x5 x6 x7 x8 x9 x10 x11 x12 x13 x14 x15 = G x0 x1 x2 x3 x4 x5 x6 x7 x8 x9 x10 x11 x12 x13 x14 x15 := by
  funext i
  obtain ⟨b, z, rfl⟩ : ∃ (b : Fin 4096) (z : Fin 1), i = ix2 b z := ⟨i 0, i 1, eq_ix2 i⟩
  rw [G_ix2, val_main_v57_apply, val_main_v56_apply, v8_at, v34_at, v55_at, Ideal.addf_def, Ideal.addf_def]
  rfl

/-- The reference run's result, at the ideal instance, is the specification of the arguments' launch contents. -/
theorem res_out0_is_G (m : (ℓ : Loc nD τ sig) → Buf (Elt Ideal) ℓ) (c : Dev nD) :
    Cert.ReferenceIdeal.Value.res_out0 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (val_main_v57_eq m c).trans (v57_is_G _ _ _ _ _ _ _ _ _ _ _ _ _ _ _ _)

end Cert.Proof.RefValue

end
-- ==== Proof.Algebraic.lean ====
/-
  The value claim: at the extended reals the idealized kernel's result array and the reference's are one function of the
  argument arrays — the specification — element by element.
-/
import proofs.«205278_g66915590471714_cont_9to1_m_383_35_alg».proof.Proof.FinalV
import proofs.«205278_g66915590471714_cont_9to1_m_383_35_alg».proof.Proof.Bridge
import proofs.«205278_g66915590471714_cont_9to1_m_383_35_alg».proof.Proof.RefValue
import proofs.«205278_g66915590471714_cont_9to1_m_383_35_alg».proof.Proof.FrameClaims

set_option maxRecDepth 65536

noncomputable section

namespace Cert.Proof.ValueClaim

open Idealize.ShloMosaic Idealize.SL.Sem Idealize.ShloMosaic.TcCoe

/-- Both programs, from memories that agree on the arguments, end with their result arrays at the specification of the
    kernel's arguments: the kernel by its run with the result named and the bridge, the reference by its generated run
    read back. -/
theorem algebraic : Cert.algebraic_KernelIdeal_ReferenceIdeal := by
  intro m ρ m' ρ' hpre hagree
  refine ⟨fun c => Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun _ h c => ⟨(h c).1.trans (Cert.Proof.KI.bridge m hpre c), (h c).2⟩)
      (Cert.Proof.KI.run_mainV (F := Ideal) m ρ hpre)
  · refine (θ_run Cert.ReferenceIdeal.defs _ _).mono (fun _ h c => ⟨?_, (h c).2⟩) (Cert.ReferenceIdeal.Value.run (F := Ideal) m' ρ')
    obtain ⟨h0, h1, h2, h3, h4, h5, h6, h7, h8, h9, h10, h11, h12, h13, h14, h15⟩ := hagree c
    refine (h c).1.trans ((Cert.Proof.RefValue.res_out0_is_G m' c).trans ?_)
    rw [h0, h1, h2, h3, h4, h5, h6, h7, h8, h9, h10, h11, h12, h13, h14, h15]

end Cert.Proof.ValueClaim

end
-- ==== Proof.lean ====
/- The proof of `Cert.Claim` (proofs.«205278_g66915590471714_cont_9to1_m_383_35_alg».proof.Defs): the three programs run to their ends with
   their arguments unchanged (the kernel program: a SparseCore launch with two gather calls and two TensorCore
   pipelines, at the words and at the extended reals; the reference: its generated run), the idealized kernel is the
   kernel's own text, and at the extended reals kernel and reference compute one function of the arguments. -/
import proofs.«205278_g66915590471714_cont_9to1_m_383_35_alg».proof.Defs
import proofs.«205278_g66915590471714_cont_9to1_m_383_35_alg».proof.Proof.Gen.Kernel
import proofs.«205278_g66915590471714_cont_9to1_m_383_35_alg».proof.Proof.Gen.KernelIdeal
import proofs.«205278_g66915590471714_cont_9to1_m_383_35_alg».proof.Proof.Gen.ReferenceIdeal
import proofs.«205278_g66915590471714_cont_9to1_m_383_35_alg».proof.Proof.Gen.Pre_input_domain
import proofs.«205278_g66915590471714_cont_9to1_m_383_35_alg».proof.Proof.FrameClaims
import proofs.«205278_g66915590471714_cont_9to1_m_383_35_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.FrameClaims.frame_k, Cert.Proof.FrameClaims.frame_ki, Cert.Proof.FrameClaims.frame_ri,
    Cert.Proof.FrameClaims.preserves, Cert.Proof.ValueClaim.algebraic⟩

end Cert.Proof

end
